-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v300)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v300) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v412) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x200 : Shape := ⟨2, ![8192, 200]⟩
abbrev S8192x8192 : Shape := ⟨2, ![8192, 8192]⟩
abbrev S50x50 : Shape := ⟨2, ![50, 50]⟩
abbrev S50 : Shape := ⟨1, ![50]⟩
abbrev S12x100x50 : Shape := ⟨3, ![12, 100, 50]⟩
abbrev S12x50 : Shape := ⟨2, ![12, 50]⟩
abbrev S400x300 : Shape := ⟨2, ![400, 300]⟩
abbrev S300 : Shape := ⟨1, ![300]⟩
abbrev S_ : Shape := ⟨0, ![]⟩

class Facts : Prop where
  bcast_S_S8192x200 : S_.BroadcastsInDim S8192x200 (![] : Fin 0 → Fin S8192x200.rank)
  reducesTo_S8192x200_S_d0_1 : S8192x200.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S50x50 : S_.BroadcastsInDim S50x50 (![] : Fin 0 → Fin S50x50.rank)
  reducesTo_S50x50_S_d0_1 : S50x50.ReducesTo [0, 1] S_
  bcast_S_S50 : S_.BroadcastsInDim S50 (![] : Fin 0 → Fin S50.rank)
  reducesTo_S50_S_d0 : S50.ReducesTo [0] S_
  bcast_S_S12x100x50 : S_.BroadcastsInDim S12x100x50 (![] : Fin 0 → Fin S12x100x50.rank)
  reducesTo_S12x100x50_S_d0_1_2 : S12x100x50.ReducesTo [0, 1, 2] S_
  bcast_S_S12x50 : S_.BroadcastsInDim S12x50 (![] : Fin 0 → Fin S12x50.rank)
  reducesTo_S12x50_S_d0_1 : S12x50.ReducesTo [0, 1] S_
  bcast_S_S400x300 : S_.BroadcastsInDim S400x300 (![] : Fin 0 → Fin S400x300.rank)
  reducesTo_S400x300_S_d0_1 : S400x300.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg7 : FVec F S400x300 .f32) (main_arg8 : FVec F S300 .f32) (main_v33 : IVec S_ 1) : IVec S_ 1 :=
  let main_v34 : FVec F S400x300 .f32 := Host.absf main_arg7
  let main_cst_12 : FVec F S_ .f32 := constant S_ .f32 0x7F800000#32
  let main_v35 : FVec F S400x300 .f32 := broadcastInDim S400x300 ![] bcast_S_S400x300 main_cst_12
  let main_v36 : IVec S400x300 1 := cmpf .olt main_v34 main_v35
  let main_c_13 : IVec S_ 1 := constantI S_ 1 1#1
  let main_v37 : IVec S_ 1 := (fun x v => Host.reduce IntOp.andi x v reducesTo_S400x300_S_d0_1 h_S_) main_v36 main_c_13
  let main_v38 : IVec S_ 1 := andi main_v33 main_v37
  let main_v39 : FVec F S300 .f32 := Host.absf main_arg8
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  main_v43

def fn_part1 {F : FTy → Type} [FloatOps F] (main_arg4 : FVec F S50 .f32) (main_arg5 : FVec F S12x100x50 .f32) (main_arg6 : FVec F S12x50 .f32) (main_arg7 : FVec F S400x300 .f32) (main_arg8 : FVec F S300 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S12x100x50 .f32 := Host.absf main_arg5
  let main_cst_8 : FVec F S_ .f32 := constant S_ .f32 0x7F800000#32
  let main_v25 : FVec F S12x100x50 .f32 := broadcastInDim S12x100x50 ![] bcast_S_S12x100x50 main_cst_8
  let main_v26 : IVec S12x100x50 1 := cmpf .olt main_v24 main_v25
  let main_c_9 : IVec S_ 1 := constantI S_ 1 1#1
  let main_v27 : IVec S_ 1 := (fun x v => Host.reduce IntOp.andi x v reducesTo_S12x100x50_S_d0_1_2 h_S_) main_v26 main_c_9
  let main_v28 : IVec S_ 1 := andi main_v23 main_v27
  let main_v29 : FVec F S12x50 .f32 := Host.absf main_arg6
  let main_cst_10 : FVec F S_ .f32 := constant S_ .f32 0x7F800000#32
  let main_v30 : FVec F S12x50 .f32 := broadcastInDim S12x50 ![] bcast_S_S12x50 main_cst_10
  let main_v31 : IVec S12x50 1 := cmpf .olt main_v29 main_v30
  let main_c_11 : IVec S_ 1 := constantI S_ 1 1#1
  let main_v32 : IVec S_ 1 := (fun x v => Host.reduce IntOp.andi x v reducesTo_S12x50_S_d0_1 h_S_) main_v31 main_c_11
  let main_v33 : IVec S_ 1 := andi main_v28 main_v32
  fn_part2 (F := F) main_arg7 main_arg8 main_v33

def fn {F : FTy → Type} [FloatOps F] (main_arg0 : FVec F S8192x200 .f32) (main_arg1 : FVec F S8192x8192 .f32) (main_arg2 : FVec F S8192x8192 .f32) (main_arg3 : FVec F S50x50 .f32) (main_arg4 : FVec F S50 .f32) (main_arg5 : FVec F S12x100x50 .f32) (main_arg6 : FVec F S12x50 .f32) (main_arg7 : FVec F S400x300 .f32) (main_arg8 : FVec F S300 .f32) : IVec S_ 1 :=
  let main_v0 : FVec F S8192x200 .f32 := Host.absf main_arg0
  let main_cst : FVec F S_ .f32 := constant S_ .f32 0x7F800000#32
  let main_v1 : FVec F S8192x200 .f32 := broadcastInDim S8192x200 ![] bcast_S_S8192x200 main_cst
  let main_v2 : IVec S8192x200 1 := cmpf .olt main_v0 main_v1
  let main_c : IVec S_ 1 := constantI S_ 1 1#1
  let main_v3 : IVec S_ 1 := (fun x v => Host.reduce IntOp.andi x v reducesTo_S8192x200_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S50x50 .f32 := Host.absf main_arg3
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg4 main_arg5 main_arg6 main_arg7 main_arg8 main_v13 main_v16
-- ==== Kernel.lean ====
abbrev S8192x200 : Shape := ⟨2, ![8192, 200]⟩
abbrev S8192x8192 : Shape := ⟨2, ![8192, 8192]⟩
abbrev S50x50 : Shape := ⟨2, ![50, 50]⟩
abbrev S50 : Shape := ⟨1, ![50]⟩
abbrev S12x100x50 : Shape := ⟨3, ![12, 100, 50]⟩
abbrev S12x50 : Shape := ⟨2, ![12, 50]⟩
abbrev S400x300 : Shape := ⟨2, ![400, 300]⟩
abbrev S300 : Shape := ⟨1, ![300]⟩
abbrev S8192x50 : Shape := ⟨2, ![8192, 50]⟩
abbrev S1x50 : Shape := ⟨2, ![1, 50]⟩
abbrev S4x50 : Shape := ⟨2, ![4, 50]⟩
abbrev S200 : Shape := ⟨1, ![200]⟩
abbrev S1x200 : Shape := ⟨2, ![1, 200]⟩
abbrev S_ : Shape := ⟨0, ![]⟩
abbrev S50x200 : Shape := ⟨2, ![50, 200]⟩
abbrev S200x200 : Shape := ⟨2, ![200, 200]⟩
abbrev S2048x512 : Shape := ⟨2, ![2048, 512]⟩
abbrev S2048x200 : Shape := ⟨2, ![2048, 200]⟩
abbrev S512x200 : Shape := ⟨2, ![512, 200]⟩
abbrev S8192x100 : Shape := ⟨2, ![8192, 100]⟩
abbrev S1x100x50 : Shape := ⟨3, ![1, 100, 50]⟩
abbrev S100x50 : Shape := ⟨2, ![100, 50]⟩
abbrev S8192x400 : Shape := ⟨2, ![8192, 400]⟩
abbrev S8192x300 : Shape := ⟨2, ![8192, 300]⟩
abbrev S1x300 : Shape := ⟨2, ![1, 300]⟩

abbrev nBuf : Space → Nat
  | .hbm => 355
  | .vmem => 32
  | .smem => 0
  | _ => 0

abbrev hbmTy0_0 (i : Nat) : BufTy := match i % 128 with
  | 0 => ⟨S8192x200, .f32⟩
  | 1 => ⟨S8192x8192, .f32⟩
  | 2 => ⟨S8192x8192, .f32⟩
  | 3 => ⟨S50x50, .f32⟩
  | 4 => ⟨S50, .f32⟩
  | 5 => ⟨S12x100x50, .f32⟩
  | 6 => ⟨S12x50, .f32⟩
  | 7 => ⟨S400x300, .f32⟩
  | 8 => ⟨S300, .f32⟩
  | 9 => ⟨S8192x50, .f32⟩
  | 10 => ⟨S8192x50, .f32⟩
  | 11 => ⟨S8192x50, .f32⟩
  | 12 => ⟨S8192x50, .f32⟩
  | 13 => ⟨S1x50, .f32⟩
  | 14 => ⟨S4x50, .f32⟩
  | 15 => ⟨S200, .f32⟩
  | 16 => ⟨S1x200, .f32⟩
  | 17 => ⟨S_, .f32⟩
  | 18 => ⟨S50x50, .f32⟩
  | 19 => ⟨S50x200, .f32⟩
  | 20 => ⟨S50x200, .f32⟩
  | 21 => ⟨S50x200, .f32⟩
  | 22 => ⟨S50x200, .f32⟩
  | 23 => ⟨S200x200, .f32⟩
  | 24 => ⟨S8192x200, .f32⟩
  | 25 => ⟨S8192x200, .f32⟩
  | 26 => ⟨S8192x50, .f32⟩
  | 27 => ⟨S8192x50, .f32⟩
  | 28 => ⟨S8192x50, .f32⟩
  | 29 => ⟨S8192x50, .f32⟩
  | 30 => ⟨S8192x50, .f32⟩
  | 31 => ⟨S8192x50, .f32⟩
  | 32 => ⟨S8192x50, .f32⟩
  | 33 => ⟨S8192x50, .f32⟩
  | 34 => ⟨S8192x50, .f32⟩
  | 35 => ⟨S8192x50, .f32⟩
  | 36 => ⟨S_, .f32⟩
  | 37 => ⟨S8192x50, .f32⟩
  | 38 => ⟨S8192x50, .f32⟩
  | 39 => ⟨S_, .f32⟩
  | 40 => ⟨S8192x50, .f32⟩
  | 41 => ⟨S8192x50, .f32⟩
  | 42 => ⟨S8192x50, .f32⟩
  | 43 => ⟨S8192x50, .f32⟩
  | 44 => ⟨S8192x100, .f32⟩
  | 45 => ⟨S1x100x50, .f32⟩
  | 46 => ⟨S100x50, .f32⟩
  | 47 => ⟨S8192x50, .f32⟩
  | 48 => ⟨S1x50, .f32⟩
  | 49 => ⟨S50, .f32⟩
  | 50 => ⟨S1x50, .f32⟩
  | 51 => ⟨S8192x50, .f32⟩
  | 52 => ⟨S8192x50, .f32⟩
  | 53 => ⟨S8192x50, .f32⟩
  | 54 => ⟨S8192x50, .f32⟩
  | 55 => ⟨S_, .f32⟩
  | 56 => ⟨S8192x50, .f32⟩
  | 57 => ⟨S8192x50, .f32⟩
  | 58 => ⟨S_, .f32⟩
  | 59 => ⟨S8192x50, .f32⟩
  | 60 => ⟨S8192x50, .f32⟩
  | 61 => ⟨S8192x50, .f32⟩
  | 62 => ⟨S8192x50, .f32⟩
  | 63 => ⟨S8192x100, .f32⟩
  | 64 => ⟨S1x100x50, .f32⟩
  | 65 => ⟨S100x50, .f32⟩
  | 66 => ⟨S8192x50, .f32⟩
  | 67 => ⟨S1x50, .f32⟩
  | 68 => ⟨S50, .f32⟩
  | 69 => ⟨S1x50, .f32⟩
  | 70 => ⟨S8192x50, .f32⟩
  | 71 => ⟨S8192x50, .f32⟩
  | 72 => ⟨S8192x50, .f32⟩
  | 73 => ⟨S8192x50, .f32⟩
  | 74 => ⟨S_, .f32⟩
  | 75 => ⟨S8192x50, .f32⟩
  | 76 => ⟨S8192x50, .f32⟩
  | 77 => ⟨S_, .f32⟩
  | 78 => ⟨S8192x50, .f32⟩
  | 79 => ⟨S8192x50, .f32⟩
  | 80 => ⟨S8192x50, .f32⟩
  | 81 => ⟨S8192x50, .f32⟩
  | 82 => ⟨S8192x100, .f32⟩
  | 83 => ⟨S1x100x50, .f32⟩
  | 84 => ⟨S100x50, .f32⟩
  | 85 => ⟨S8192x50, .f32⟩
  | 86 => ⟨S1x50, .f32⟩
  | 87 => ⟨S50, .f32⟩
  | 88 => ⟨S1x50, .f32⟩
  | 89 => ⟨S8192x50, .f32⟩
  | 90 => ⟨S8192x50, .f32⟩
  | 91 => ⟨S8192x50, .f32⟩
  | 92 => ⟨S8192x50, .f32⟩
  | 93 => ⟨S_, .f32⟩
  | 94 => ⟨S8192x50, .f32⟩
  | 95 => ⟨S8192x50, .f32⟩
  | 96 => ⟨S_, .f32⟩
  | 97 => ⟨S8192x50, .f32⟩
  | 98 => ⟨S8192x50, .f32⟩
  | 99 => ⟨S8192x50, .f32⟩
  | 100 => ⟨S8192x50, .f32⟩
  | 101 => ⟨S8192x50, .f32⟩
  | 102 => ⟨S8192x50, .f32⟩
  | 103 => ⟨S_, .f32⟩
  | 104 => ⟨S8192x50, .f32⟩
  | 105 => ⟨S8192x50, .f32⟩
  | 106 => ⟨S_, .f32⟩
  | 107 => ⟨S8192x50, .f32⟩
  | 108 => ⟨S8192x50, .f32⟩
  | 109 => ⟨S8192x50, .f32⟩
  | 110 => ⟨S8192x50, .f32⟩
  | 111 => ⟨S8192x100, .f32⟩
  | 112 => ⟨S1x100x50, .f32⟩
  | 113 => ⟨S100x50, .f32⟩
  | 114 => ⟨S8192x50, .f32⟩
  | 115 => ⟨S1x50, .f32⟩
  | 116 => ⟨S50, .f32⟩
  | 117 => ⟨S1x50, .f32⟩
  | 118 => ⟨S8192x50, .f32⟩
  | 119 => ⟨S8192x50, .f32⟩
  | 120 => ⟨S8192x50, .f32⟩
  | 121 => ⟨S8192x50, .f32⟩
  | 122 => ⟨S_, .f32⟩
  | 123 => ⟨S8192x50, .f32⟩
  | 124 => ⟨S8192x50, .f32⟩
  | 125 => ⟨S_, .f32⟩
  | 126 => ⟨S8192x50, .f32⟩
  | 127 => ⟨S8192x50, .f32⟩
  | _ => ⟨S8192x200, .f32⟩

abbrev hbmTy0_1 (i : Nat) : BufTy := match i % 128 with
  | 0 => ⟨S8192x50, .f32⟩
  | 1 => ⟨S8192x50, .f32⟩
  | 2 => ⟨S8192x100, .f32⟩
  | 3 => ⟨S1x100x50, .f32⟩
  | 4 => ⟨S100x50, .f32⟩
  | 5 => ⟨S8192x50, .f32⟩
  | 6 => ⟨S1x50, .f32⟩
  | 7 => ⟨S50, .f32⟩
  | 8 => ⟨S1x50, .f32⟩
  | 9 => ⟨S8192x50, .f32⟩
  | 10 => ⟨S8192x50, .f32⟩
  | 11 => ⟨S8192x50, .f32⟩
  | 12 => ⟨S8192x50, .f32⟩
  | 13 => ⟨S_, .f32⟩
  | 14 => ⟨S8192x50, .f32⟩
  | 15 => ⟨S8192x50, .f32⟩
  | 16 => ⟨S_, .f32⟩
  | 17 => ⟨S8192x50, .f32⟩
  | 18 => ⟨S8192x50, .f32⟩
  | 19 => ⟨S8192x50, .f32⟩
  | 20 => ⟨S8192x50, .f32⟩
  | 21 => ⟨S8192x100, .f32⟩
  | 22 => ⟨S1x100x50, .f32⟩
  | 23 => ⟨S100x50, .f32⟩
  | 24 => ⟨S8192x50, .f32⟩
  | 25 => ⟨S1x50, .f32⟩
  | 26 => ⟨S50, .f32⟩
  | 27 => ⟨S1x50, .f32⟩
  | 28 => ⟨S8192x50, .f32⟩
  | 29 => ⟨S8192x50, .f32⟩
  | 30 => ⟨S8192x50, .f32⟩
  | 31 => ⟨S8192x50, .f32⟩
  | 32 => ⟨S_, .f32⟩
  | 33 => ⟨S8192x50, .f32⟩
  | 34 => ⟨S8192x50, .f32⟩
  | 35 => ⟨S_, .f32⟩
  | 36 => ⟨S8192x50, .f32⟩
  | 37 => ⟨S8192x50, .f32⟩
  | 38 => ⟨S8192x50, .f32⟩
  | 39 => ⟨S8192x50, .f32⟩
  | 40 => ⟨S8192x200, .f32⟩
  | 41 => ⟨S8192x200, .f32⟩
  | 42 => ⟨S8192x200, .f32⟩
  | 43 => ⟨S8192x200, .f32⟩
  | 44 => ⟨S8192x50, .f32⟩
  | 45 => ⟨S8192x50, .f32⟩
  | 46 => ⟨S8192x50, .f32⟩
  | 47 => ⟨S8192x50, .f32⟩
  | 48 => ⟨S8192x50, .f32⟩
  | 49 => ⟨S8192x50, .f32⟩
  | 50 => ⟨S8192x50, .f32⟩
  | 51 => ⟨S8192x50, .f32⟩
  | 52 => ⟨S_, .f32⟩
  | 53 => ⟨S8192x50, .f32⟩
  | 54 => ⟨S8192x50, .f32⟩
  | 55 => ⟨S_, .f32⟩
  | 56 => ⟨S8192x50, .f32⟩
  | 57 => ⟨S8192x50, .f32⟩
  | 58 => ⟨S8192x50, .f32⟩
  | 59 => ⟨S_, .f32⟩
  | 60 => ⟨S8192x50, .f32⟩
  | 61 => ⟨S8192x50, .f32⟩
  | 62 => ⟨S_, .f32⟩
  | 63 => ⟨S8192x50, .f32⟩
  | 64 => ⟨S8192x50, .f32⟩
  | 65 => ⟨S8192x50, .f32⟩
  | 66 => ⟨S8192x100, .f32⟩
  | 67 => ⟨S1x100x50, .f32⟩
  | 68 => ⟨S100x50, .f32⟩
  | 69 => ⟨S8192x50, .f32⟩
  | 70 => ⟨S1x50, .f32⟩
  | 71 => ⟨S50, .f32⟩
  | 72 => ⟨S1x50, .f32⟩
  | 73 => ⟨S8192x50, .f32⟩
  | 74 => ⟨S8192x50, .f32⟩
  | 75 => ⟨S8192x50, .f32⟩
  | 76 => ⟨S8192x50, .f32⟩
  | 77 => ⟨S_, .f32⟩
  | 78 => ⟨S8192x50, .f32⟩
  | 79 => ⟨S8192x50, .f32⟩
  | 80 => ⟨S_, .f32⟩
  | 81 => ⟨S8192x50, .f32⟩
  | 82 => ⟨S8192x50, .f32⟩
  | 83 => ⟨S8192x50, .f32⟩
  | 84 => ⟨S8192x50, .f32⟩
  | 85 => ⟨S_, .f32⟩
  | 86 => ⟨S8192x50, .f32⟩
  | 87 => ⟨S8192x50, .f32⟩
  | 88 => ⟨S_, .f32⟩
  | 89 => ⟨S8192x50, .f32⟩
  | 90 => ⟨S8192x50, .f32⟩
  | 91 => ⟨S8192x50, .f32⟩
  | 92 => ⟨S8192x100, .f32⟩
  | 93 => ⟨S1x100x50, .f32⟩
  | 94 => ⟨S100x50, .f32⟩
  | 95 => ⟨S8192x50, .f32⟩
  | 96 => ⟨S1x50, .f32⟩
  | 97 => ⟨S50, .f32⟩
  | 98 => ⟨S1x50, .f32⟩
  | 99 => ⟨S8192x50, .f32⟩
  | 100 => ⟨S8192x50, .f32⟩
  | 101 => ⟨S8192x50, .f32⟩
  | 102 => ⟨S8192x50, .f32⟩
  | 103 => ⟨S_, .f32⟩
  | 104 => ⟨S8192x50, .f32⟩
  | 105 => ⟨S8192x50, .f32⟩
  | 106 => ⟨S_, .f32⟩
  | 107 => ⟨S8192x50, .f32⟩
  | 108 => ⟨S8192x50, .f32⟩
  | 109 => ⟨S8192x50, .f32⟩
  | 110 => ⟨S8192x50, .f32⟩
  | 111 => ⟨S_, .f32⟩
  | 112 => ⟨S8192x50, .f32⟩
  | 113 => ⟨S8192x50, .f32⟩
  | 114 => ⟨S_, .f32⟩
  | 115 => ⟨S8192x50, .f32⟩
  | 116 => ⟨S8192x50, .f32⟩
  | 117 => ⟨S8192x50, .f32⟩
  | 118 => ⟨S8192x100, .f32⟩
  | 119 => ⟨S1x100x50, .f32⟩
  | 120 => ⟨S100x50, .f32⟩
  | 121 => ⟨S8192x50, .f32⟩
  | 122 => ⟨S1x50, .f32⟩
  | 123 => ⟨S50, .f32⟩
  | 124 => ⟨S1x50, .f32⟩
  | 125 => ⟨S8192x50, .f32⟩
  | 126 => ⟨S8192x50, .f32⟩
  | 127 => ⟨S8192x50, .f32⟩
  | _ => ⟨S8192x200, .f32⟩

abbrev hbmTy0_2 (i : Nat) : BufTy := match i % 128 with
  | 0 => ⟨S8192x50, .f32⟩
  | 1 => ⟨S_, .f32⟩
  | 2 => ⟨S8192x50, .f32⟩
  | 3 => ⟨S8192x50, .f32⟩
  | 4 => ⟨S_, .f32⟩
  | 5 => ⟨S8192x50, .f32⟩
  | 6 => ⟨S8192x50, .f32⟩
  | 7 => ⟨S8192x50, .f32⟩
  | 8 => ⟨S8192x50, .f32⟩
  | 9 => ⟨S_, .f32⟩
  | 10 => ⟨S8192x50, .f32⟩
  | 11 => ⟨S8192x50, .f32⟩
  | 12 => ⟨S_, .f32⟩
  | 13 => ⟨S8192x50, .f32⟩
  | 14 => ⟨S8192x50, .f32⟩
  | 15 => ⟨S8192x50, .f32⟩
  | 16 => ⟨S_, .f32⟩
  | 17 => ⟨S8192x50, .f32⟩
  | 18 => ⟨S8192x50, .f32⟩
  | 19 => ⟨S_, .f32⟩
  | 20 => ⟨S8192x50, .f32⟩
  | 21 => ⟨S8192x50, .f32⟩
  | 22 => ⟨S8192x50, .f32⟩
  | 23 => ⟨S8192x100, .f32⟩
  | 24 => ⟨S1x100x50, .f32⟩
  | 25 => ⟨S100x50, .f32⟩
  | 26 => ⟨S8192x50, .f32⟩
  | 27 => ⟨S1x50, .f32⟩
  | 28 => ⟨S50, .f32⟩
  | 29 => ⟨S1x50, .f32⟩
  | 30 => ⟨S8192x50, .f32⟩
  | 31 => ⟨S8192x50, .f32⟩
  | 32 => ⟨S8192x50, .f32⟩
  | 33 => ⟨S8192x50, .f32⟩
  | 34 => ⟨S_, .f32⟩
  | 35 => ⟨S8192x50, .f32⟩
  | 36 => ⟨S8192x50, .f32⟩
  | 37 => ⟨S_, .f32⟩
  | 38 => ⟨S8192x50, .f32⟩
  | 39 => ⟨S8192x50, .f32⟩
  | 40 => ⟨S8192x50, .f32⟩
  | 41 => ⟨S8192x50, .f32⟩
  | 42 => ⟨S_, .f32⟩
  | 43 => ⟨S8192x50, .f32⟩
  | 44 => ⟨S8192x50, .f32⟩
  | 45 => ⟨S_, .f32⟩
  | 46 => ⟨S8192x50, .f32⟩
  | 47 => ⟨S8192x50, .f32⟩
  | 48 => ⟨S8192x50, .f32⟩
  | 49 => ⟨S8192x100, .f32⟩
  | 50 => ⟨S1x100x50, .f32⟩
  | 51 => ⟨S100x50, .f32⟩
  | 52 => ⟨S8192x50, .f32⟩
  | 53 => ⟨S1x50, .f32⟩
  | 54 => ⟨S50, .f32⟩
  | 55 => ⟨S1x50, .f32⟩
  | 56 => ⟨S8192x50, .f32⟩
  | 57 => ⟨S8192x50, .f32⟩
  | 58 => ⟨S8192x50, .f32⟩
  | 59 => ⟨S8192x50, .f32⟩
  | 60 => ⟨S_, .f32⟩
  | 61 => ⟨S8192x50, .f32⟩
  | 62 => ⟨S8192x50, .f32⟩
  | 63 => ⟨S_, .f32⟩
  | 64 => ⟨S8192x50, .f32⟩
  | 65 => ⟨S8192x50, .f32⟩
  | 66 => ⟨S8192x50, .f32⟩
  | 67 => ⟨S8192x50, .f32⟩
  | 68 => ⟨S_, .f32⟩
  | 69 => ⟨S8192x50, .f32⟩
  | 70 => ⟨S8192x50, .f32⟩
  | 71 => ⟨S_, .f32⟩
  | 72 => ⟨S8192x50, .f32⟩
  | 73 => ⟨S8192x50, .f32⟩
  | 74 => ⟨S8192x50, .f32⟩
  | 75 => ⟨S8192x100, .f32⟩
  | 76 => ⟨S1x100x50, .f32⟩
  | 77 => ⟨S100x50, .f32⟩
  | 78 => ⟨S8192x50, .f32⟩
  | 79 => ⟨S1x50, .f32⟩
  | 80 => ⟨S50, .f32⟩
  | 81 => ⟨S1x50, .f32⟩
  | 82 => ⟨S8192x50, .f32⟩
  | 83 => ⟨S8192x50, .f32⟩
  | 84 => ⟨S8192x50, .f32⟩
  | 85 => ⟨S8192x50, .f32⟩
  | 86 => ⟨S_, .f32⟩
  | 87 => ⟨S8192x50, .f32⟩
  | 88 => ⟨S8192x50, .f32⟩
  | 89 => ⟨S_, .f32⟩
  | 90 => ⟨S8192x50, .f32⟩
  | 91 => ⟨S8192x50, .f32⟩
  | 92 => ⟨S8192x50, .f32⟩
  | 93 => ⟨S8192x50, .f32⟩
  | 94 => ⟨S8192x400, .f32⟩
  | 95 => ⟨S8192x300, .f32⟩
  | 96 => ⟨S1x300, .f32⟩
  | 97 => ⟨S8192x300, .f32⟩
  | 98 => ⟨S8192x300, .f32⟩
  | _ => ⟨S8192x200, .f32⟩

abbrev hbmTy (i : Nat) : BufTy := match i / 128 with
  | 0 => hbmTy0_0 i
  | 1 => hbmTy0_1 i
  | 2 => hbmTy0_2 i
  | _ => ⟨S8192x200, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S8192x200, .f32⟩
  | .local _ .vmem, ⟨3, _⟩ => ⟨S200x200, .f32⟩
  | .local _ .vmem, ⟨4, _⟩ => ⟨S1x200, .f32⟩
  | .local _ .vmem, ⟨5, _⟩ => ⟨S2048x200, .f32⟩
  | .local _ .vmem, ⟨6, _⟩ => ⟨S2048x200, .f32⟩
  | .local _ .vmem, ⟨7, _⟩ => ⟨S2048x200, .f32⟩
  | .local _ .vmem, ⟨8, _⟩ => ⟨S2048x512, .f32⟩
  | .local _ .vmem, ⟨9, _⟩ => ⟨S2048x512, .f32⟩
  | .local _ .vmem, ⟨10, _⟩ => ⟨S8192x200, .f32⟩
  | .local _ .vmem, ⟨11, _⟩ => ⟨S200x200, .f32⟩
  | .local _ .vmem, ⟨12, _⟩ => ⟨S1x200, .f32⟩
  | .local _ .vmem, ⟨13, _⟩ => ⟨S2048x200, .f32⟩
  | .local _ .vmem, ⟨14, _⟩ => ⟨S2048x200, .f32⟩
  | .local _ .vmem, ⟨15, _⟩ => ⟨S2048x200, .f32⟩
  | .local _ .vmem, ⟨16, _⟩ => ⟨S2048x512, .f32⟩
  | .local _ .vmem, ⟨17, _⟩ => ⟨S2048x512, .f32⟩
  | .local _ .vmem, ⟨18, _⟩ => ⟨S8192x200, .f32⟩
  | .local _ .vmem, ⟨19, _⟩ => ⟨S200x200, .f32⟩
  | .local _ .vmem, ⟨20, _⟩ => ⟨S1x200, .f32⟩
  | .local _ .vmem, ⟨21, _⟩ => ⟨S2048x200, .f32⟩
  | .local _ .vmem, ⟨22, _⟩ => ⟨S2048x200, .f32⟩
  | .local _ .vmem, ⟨23, _⟩ => ⟨S2048x200, .f32⟩
  | .local _ .vmem, ⟨24, _⟩ => ⟨S2048x512, .f32⟩
  | .local _ .vmem, ⟨25, _⟩ => ⟨S2048x512, .f32⟩
  | .local _ .vmem, ⟨26, _⟩ => ⟨S8192x200, .f32⟩
  | .local _ .vmem, ⟨27, _⟩ => ⟨S200x200, .f32⟩
  | .local _ .vmem, ⟨28, _⟩ => ⟨S1x200, .f32⟩
  | .local _ .vmem, ⟨29, _⟩ => ⟨S2048x200, .f32⟩
  | .local _ .vmem, ⟨30, _⟩ => ⟨S2048x200, .f32⟩
  | .local _ .vmem, ⟨31, _⟩ => ⟨S2048x200, .f32⟩
  | _, _ => ⟨S8192x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_6 : Ref sig .tc := ⟨.hbm, 93, rfl⟩
abbrev main_v77 : Ref sig .tc := ⟨.hbm, 94, rfl⟩
abbrev main_v78 : Ref sig .tc := ⟨.hbm, 95, rfl⟩
abbrev main_cst_7 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_8 : Ref sig .tc := ⟨.hbm, 103, rfl⟩
abbrev main_v85 : Ref sig .tc := ⟨.hbm, 104, rfl⟩
abbrev main_v86 : Ref sig .tc := ⟨.hbm, 105, rfl⟩
abbrev main_cst_9 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_10 : Ref sig .tc := ⟨.hbm, 122, rfl⟩
abbrev main_v102 : Ref sig .tc := ⟨.hbm, 123, rfl⟩
abbrev main_v103 : Ref sig .tc := ⟨.hbm, 124, rfl⟩
abbrev main_cst_11 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_12 : Ref sig .tc := ⟨.hbm, 141, rfl⟩
abbrev main_v119 : Ref sig .tc := ⟨.hbm, 142, rfl⟩
abbrev main_v120 : Ref sig .tc := ⟨.hbm, 143, rfl⟩
abbrev main_cst_13 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_14 : Ref sig .tc := ⟨.hbm, 160, rfl⟩
abbrev main_v136 : Ref sig .tc := ⟨.hbm, 161, rfl⟩
abbrev main_v137 : Ref sig .tc := ⟨.hbm, 162, rfl⟩
abbrev main_cst_15 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_16 : Ref sig .tc := ⟨.hbm, 180, rfl⟩
abbrev main_v154 : Ref sig .tc := ⟨.hbm, 181, rfl⟩
abbrev main_v155 : Ref sig .tc := ⟨.hbm, 182, rfl⟩
abbrev main_cst_17 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_cst_18 : Ref sig .tc := ⟨.hbm, 187, rfl⟩
abbrev main_v159 : Ref sig .tc := ⟨.hbm, 188, rfl⟩
abbrev main_v160 : Ref sig .tc := ⟨.hbm, 189, rfl⟩
abbrev main_cst_19 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_cst_20 : Ref sig .tc := ⟨.hbm, 205, rfl⟩
abbrev main_v175 : Ref sig .tc := ⟨.hbm, 206, rfl⟩
abbrev main_v176 : Ref sig .tc := ⟨.hbm, 207, rfl⟩
abbrev main_cst_21 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_22 : Ref sig .tc := ⟨.hbm, 213, rfl⟩
abbrev main_v181 : Ref sig .tc := ⟨.hbm, 214, rfl⟩
abbrev main_v182 : Ref sig .tc := ⟨.hbm, 215, rfl⟩
abbrev main_cst_23 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_cst_24 : Ref sig .tc := ⟨.hbm, 231, rfl⟩
abbrev main_v197 : Ref sig .tc := ⟨.hbm, 232, rfl⟩
abbrev main_v198 : Ref sig .tc := ⟨.hbm, 233, rfl⟩
abbrev main_cst_25 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_cst_26 : Ref sig .tc := ⟨.hbm, 239, rfl⟩
abbrev main_v203 : Ref sig .tc := ⟨.hbm, 240, rfl⟩
abbrev main_v204 : Ref sig .tc := ⟨.hbm, 241, rfl⟩
abbrev main_cst_27 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_cst_28 : Ref sig .tc := ⟨.hbm, 257, rfl⟩
abbrev main_v219 : Ref sig .tc := ⟨.hbm, 258, rfl⟩
abbrev main_v220 : Ref sig .tc := ⟨.hbm, 259, rfl⟩
abbrev main_cst_29 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_cst_30 : Ref sig .tc := ⟨.hbm, 265, rfl⟩
abbrev main_v225 : Ref sig .tc := ⟨.hbm, 266, rfl⟩
abbrev main_v226 : Ref sig .tc := ⟨.hbm, 267, rfl⟩
abbrev main_cst_31 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_cst_32 : Ref sig .tc := ⟨.hbm, 272, rfl⟩
abbrev main_v230 : Ref sig .tc := ⟨.hbm, 273, rfl⟩
abbrev main_v231 : Ref sig .tc := ⟨.hbm, 274, rfl⟩
abbrev main_cst_33 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_cst_34 : Ref sig .tc := ⟨.hbm, 290, rfl⟩
abbrev main_v246 : Ref sig .tc := ⟨.hbm, 291, rfl⟩
abbrev main_v247 : Ref sig .tc := ⟨.hbm, 292, rfl⟩
abbrev main_cst_35 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_cst_36 : Ref sig .tc := ⟨.hbm, 298, rfl⟩
abbrev main_v252 : Ref sig .tc := ⟨.hbm, 299, rfl⟩
abbrev main_v253 : Ref sig .tc := ⟨.hbm, 300, rfl⟩
abbrev main_cst_37 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_cst_38 : Ref sig .tc := ⟨.hbm, 316, rfl⟩
abbrev main_v268 : Ref sig .tc := ⟨.hbm, 317, rfl⟩
abbrev main_v269 : Ref sig .tc := ⟨.hbm, 318, rfl⟩
abbrev main_cst_39 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_cst_40 : Ref sig .tc := ⟨.hbm, 324, rfl⟩
abbrev main_v274 : Ref sig .tc := ⟨.hbm, 325, rfl⟩
abbrev main_v275 : Ref sig .tc := ⟨.hbm, 326, rfl⟩
abbrev main_cst_41 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_cst_42 : Ref sig .tc := ⟨.hbm, 342, rfl⟩
abbrev main_v290 : Ref sig .tc := ⟨.hbm, 343, rfl⟩
abbrev main_v291 : Ref sig .tc := ⟨.hbm, 344, rfl⟩
abbrev main_cst_43 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S200x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 16], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_10 : BitVec 32 := 0#32
  let v23 : BitVec 1 := Scalar.cmpi .ne v22 c0_i32_10
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S200x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 16], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_10 : BitVec 32 := 0#32
  let v24 : BitVec 1 := Scalar.cmpi .ne v23 c0_i32_10
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S200x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 16], ![false, false]⟩

def k3_mult1 (i : grid3.Coords) : BitVec 32 :=
  let arg1 : BitVec 32 := BitVec.ofNat 32 (i 1).val
  let c512_i32 : BitVec 32 := 512#32
  let v3 : BitVec 32 := Scalar.muli arg1 c512_i32
  v3
def k3_off1 (i : grid3.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_10 : BitVec 32 := 0#32
  let v24 : BitVec 1 := Scalar.cmpi .ne v23 c0_i32_10
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S200x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x200 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2048x200 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  slices_S8192x200_S8192x50_0_0 : S8192x200.Slices ![0, 0] S8192x50
  slices_S8192x200_S8192x50_0_50 : S8192x200.Slices ![0, 50] S8192x50
  slices_S8192x200_S8192x50_0_100 : S8192x200.Slices ![0, 100] S8192x50
  slices_S8192x200_S8192x50_0_150 : S8192x200.Slices ![0, 150] S8192x50
  shapeCasts_S50_S1x50 : S50.ShapeCasts S1x50
  bcast_S1x50_S4x50_0_1 : S1x50.BroadcastsInDim S4x50 (![0, 1] : Fin 2 → Fin S4x50.rank)
  shapeCasts_S4x50_S200 : S4x50.ShapeCasts S200
  shapeCasts_S200_S1x200 : S200.ShapeCasts S1x200
  bcast_S_S50x50 : S_.BroadcastsInDim S50x50 (![] : Fin 0 → Fin S50x50.rank)
  concatenates_S50x50_S50x50_S50x50_S50x50_S50x200_d1 : Shape.Concatenates [S50x50, S50x50, S50x50, S50x50] S50x200 1
  concatenates_S50x200_S50x200_S50x200_S50x200_S200x200_d0 : Shape.Concatenates [S50x200, S50x200, S50x200, S50x200] S200x200 0
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  h_S512x200 : 0 < S512x200.numel
  bitsLt_bf16_f32 : FTy.bits .bf16 < FTy.bits .f32
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S2048x512_S2048x512_0_0 : ∀ a, (![0, 0] : Fin 2 → Nat) a + S2048x512.size a ≤ S2048x512.size a
  h_S2048x512 : 0 < S2048x512.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2048x200 : S1x200.Broadcasts S2048x200
  bcast_S_S8192x50 : S_.BroadcastsInDim S8192x50 (![] : Fin 0 → Fin S8192x50.rank)
  concatenates_S8192x50_S8192x50_S8192x100_d1 : Shape.Concatenates [S8192x50, S8192x50] S8192x100 1
  slices_S12x100x50_S1x100x50_0_0_0 : S12x100x50.Slices ![0, 0, 0] S1x100x50
  shapeCasts_S1x100x50_S100x50 : S1x100x50.ShapeCasts S100x50
  slices_S12x50_S1x50_0_0 : S12x50.Slices ![0, 0] S1x50
  shapeCasts_S1x50_S50 : S1x50.ShapeCasts S50
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  slices_S12x100x50_S1x100x50_1_0_0 : S12x100x50.Slices ![1, 0, 0] S1x100x50
  slices_S12x50_S1x50_1_0 : S12x50.Slices ![1, 0] S1x50
  slices_S12x100x50_S1x100x50_2_0_0 : S12x100x50.Slices ![2, 0, 0] S1x100x50
  slices_S12x50_S1x50_2_0 : S12x50.Slices ![2, 0] S1x50
  slices_S12x100x50_S1x100x50_9_0_0 : S12x100x50.Slices ![9, 0, 0] S1x100x50
  slices_S12x50_S1x50_9_0 : S12x50.Slices ![9, 0] S1x50
  slices_S12x100x50_S1x100x50_10_0_0 : S12x100x50.Slices ![10, 0, 0] S1x100x50
  slices_S12x50_S1x50_10_0 : S12x50.Slices ![10, 0] S1x50
  slices_S12x100x50_S1x100x50_11_0_0 : S12x100x50.Slices ![11, 0, 0] S1x100x50
  slices_S12x50_S1x50_11_0 : S12x50.Slices ![11, 0] S1x50
  concatenates_S8192x50_S8192x50_S8192x50_S8192x50_S8192x200_d1 : Shape.Concatenates [S8192x50, S8192x50, S8192x50, S8192x50] S8192x200 1
  shapeCasts_S512x200_S512x200 : S512x200.ShapeCasts S512x200
  slices_S12x100x50_S1x100x50_3_0_0 : S12x100x50.Slices ![3, 0, 0] S1x100x50
  slices_S12x50_S1x50_3_0 : S12x50.Slices ![3, 0] S1x50
  slices_S12x100x50_S1x100x50_4_0_0 : S12x100x50.Slices ![4, 0, 0] S1x100x50
  slices_S12x50_S1x50_4_0 : S12x50.Slices ![4, 0] S1x50
  slices_S12x100x50_S1x100x50_5_0_0 : S12x100x50.Slices ![5, 0, 0] S1x100x50
  slices_S12x50_S1x50_5_0 : S12x50.Slices ![5, 0] S1x50
  slices_S12x100x50_S1x100x50_6_0_0 : S12x100x50.Slices ![6, 0, 0] S1x100x50
  slices_S12x50_S1x50_6_0 : S12x50.Slices ![6, 0] S1x50
  slices_S12x100x50_S1x100x50_7_0_0 : S12x100x50.Slices ![7, 0, 0] S1x100x50
  slices_S12x50_S1x50_7_0 : S12x50.Slices ![7, 0] S1x50
  slices_S12x100x50_S1x100x50_8_0_0 : S12x100x50.Slices ![8, 0, 0] S1x100x50
  slices_S12x50_S1x50_8_0 : S12x50.Slices ![8, 0] S1x50
  concatenates_S8192x50_S8192x50_S8192x50_S8192x50_S8192x50_S8192x50_S8192x50_S8192x50_S8192x400_d1 : Shape.Concatenates [S8192x50, S8192x50, S8192x50, S8192x50, S8192x50, S8192x50, S8192x50, S8192x50] S8192x400 1
  bcast_S300_S1x300_1 : S300.BroadcastsInDim S1x300 (![1] : Fin 1 → Fin S1x300.rank)
  bcast_S1x300_S8192x300_0_1 : S1x300.BroadcastsInDim S8192x300 (![0, 1] : Fin 2 → Fin S8192x300.rank)
  dot_S512x200_S200x200_S512x200_1_0_0_1_n_n_wf : DotDims.WF S512x200 S200x200 S512x200 [1] [0] [0] [1] [] []
  dot_S2048x512_S512x200_S2048x200_1_0_0_1_n_n_wf : DotDims.WF S2048x512 S512x200 S2048x200 [1] [0] [0] [1] [] []
  dot_S8192x100_S100x50_S8192x50_1_0_0_1_n_n_wf : DotDims.WF S8192x100 S100x50 S8192x50 [1] [0] [0] [1] [] []
  dot_S8192x400_S400x300_S8192x300_1_0_0_1_n_n_wf : DotDims.WF S8192x400 S400x300 S8192x300 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x200.size a ≤ S8192x200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x8192.size a
  hwx0_0 : ∀ i : grid0.Coords, EltTy.bits .f32 = 32 ∨ (Rect.block (s := S8192x8192) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x200.size a ≤ S8192x200.size a
  hwx0_1 : ∀ i : grid0.Coords, EltTy.bits .f32 = 32 ∨ (Rect.block (s := S8192x200) S8192x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x200.size a ≤ S200x200.size a
  hwx0_2 : ∀ i : grid0.Coords, EltTy.bits .f32 = 32 ∨ (Rect.block (s := S200x200) S200x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x200.size a ≤ S1x200.size a
  hwx0_3 : ∀ i : grid0.Coords, EltTy.bits .f32 = 32 ∨ (Rect.block (s := S1x200) S1x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x200.size a ≤ S8192x200.size a
  hwx0_4 : ∀ i : grid0.Coords, EltTy.bits .f32 = 32 ∨ (Rect.block (s := S8192x200) S2048x200.size (cc0_transform_4 i) (hinb0_4 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x200.size a ≤ S8192x200.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x8192.size a
  hwx1_0 : ∀ i : grid1.Coords, EltTy.bits .f32 = 32 ∨ (Rect.block (s := S8192x8192) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x200.size a ≤ S8192x200.size a
  hwx1_1 : ∀ i : grid1.Coords, EltTy.bits .f32 = 32 ∨ (Rect.block (s := S8192x200) S8192x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x200.size a ≤ S200x200.size a
  hwx1_2 : ∀ i : grid1.Coords, EltTy.bits .f32 = 32 ∨ (Rect.block (s := S200x200) S200x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x200.size a ≤ S8192x200.size a
  hwx1_4 : ∀ i : grid1.Coords, EltTy.bits .f32 = 32 ∨ (Rect.block (s := S8192x200) S2048x200.size (cc1_transform_4 i) (hinb1_4 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x200.size a ≤ S8192x200.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x8192.size a
  hwx2_0 : ∀ i : grid2.Coords, EltTy.bits .f32 = 32 ∨ (Rect.block (s := S8192x8192) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x200.size a ≤ S8192x200.size a
  hwx2_1 : ∀ i : grid2.Coords, EltTy.bits .f32 = 32 ∨ (Rect.block (s := S8192x200) S8192x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200x200.size a ≤ S200x200.size a
  hwx2_2 : ∀ i : grid2.Coords, EltTy.bits .f32 = 32 ∨ (Rect.block (s := S200x200) S200x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x200.size a ≤ S1x200.size a
  hwx2_3 : ∀ i : grid2.Coords, EltTy.bits .f32 = 32 ∨ (Rect.block (s := S1x200) S1x200.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x200.size a ≤ S8192x200.size a
  hwx2_4 : ∀ i : grid2.Coords, EltTy.bits .f32 = 32 ∨ (Rect.block (s := S8192x200) S2048x200.size (cc2_transform_4 i) (hinb2_4 i)).WholeWords (EltTy.packing .f32)
  hrank3 : 0 < grid3.rank
  k3_mult1_dvd : ∀ i : grid3.Coords, 512 ∣ (k3_mult1 i).toNat
  k3_off1_inb : ∀ i : grid3.Coords, ∀ a, (k3_off1 i) a + S512x200.size a ≤ S8192x200.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S8192x8192.size a
  hwx3_0 : ∀ i : grid3.Coords, EltTy.bits .f32 = 32 ∨ (Rect.block (s := S8192x8192) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x200.size a ≤ S8192x200.size a
  hwx3_1 : ∀ i : grid3.Coords, EltTy.bits .f32 = 32 ∨ (Rect.block (s := S8192x200) S8192x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S200x200.size a ≤ S200x200.size a
  hwx3_2 : ∀ i : grid3.Coords, EltTy.bits .f32 = 32 ∨ (Rect.block (s := S200x200) S200x200.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x200.size a ≤ S1x200.size a
  hwx3_3 : ∀ i : grid3.Coords, EltTy.bits .f32 = 32 ∨ (Rect.block (s := S1x200) S1x200.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x200.size a ≤ S8192x200.size a
  hwx3_4 : ∀ i : grid3.Coords, EltTy.bits .f32 = 32 ∨ (Rect.block (s := S8192x200) S2048x200.size (cc3_transform_4 i) (hinb3_4 i)).WholeWords (EltTy.packing .f32)

variable [Facts₀]

def dot_S512x200_S200x200_S512x200_1_0_0_1_n_n : DotDims S512x200 S200x200 S512x200 where
  lhsContracting := [1]
  rhsContracting := [0]
  lhsNonContracting := [0]
  rhsNonContracting := [1]
  lhsBatch := []
  rhsBatch := []
  wf := dot_S512x200_S200x200_S512x200_1_0_0_1_n_n_wf
def dot_S2048x512_S512x200_S2048x200_1_0_0_1_n_n : DotDims S2048x512 S512x200 S2048x200 where
  lhsContracting := [1]
  rhsContracting := [0]
  lhsNonContracting := [0]
  rhsNonContracting := [1]
  lhsBatch := []
  rhsBatch := []
  wf := dot_S2048x512_S512x200_S2048x200_1_0_0_1_n_n_wf
def dot_S8192x100_S100x50_S8192x50_1_0_0_1_n_n : DotDims S8192x100 S100x50 S8192x50 where
  lhsContracting := [1]
  rhsContracting := [0]
  lhsNonContracting := [0]
  rhsNonContracting := [1]
  lhsBatch := []
  rhsBatch := []
  wf := dot_S8192x100_S100x50_S8192x50_1_0_0_1_n_n_wf
def dot_S8192x400_S400x300_S8192x300_1_0_0_1_n_n : DotDims S8192x400 S400x300 S8192x300 where
  lhsContracting := [1]
  rhsContracting := [0]
  lhsNonContracting := [0]
  rhsNonContracting := [1]
  lhsBatch := []
  rhsBatch := []
  wf := dot_S8192x400_S400x300_S8192x300_1_0_0_1_n_n_wf

abbrev win0_0 : Pipeline.Window sig grid0 :=
  Pipeline.Window.ofSpec (Memref.whole main_arg2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S200x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2048x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8192x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S200x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2048x200.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg2) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v142) S8192x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S200x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v144) S2048x200.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg1) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v143) S8192x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S200x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1x200.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v145) S2048x200.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8192x200 : Shape := ⟨2, ![8192, 200]⟩
abbrev S8192x8192 : Shape := ⟨2, ![8192, 8192]⟩
abbrev S50x50 : Shape := ⟨2, ![50, 50]⟩
abbrev S50 : Shape := ⟨1, ![50]⟩
abbrev S12x100x50 : Shape := ⟨3, ![12, 100, 50]⟩
abbrev S12x50 : Shape := ⟨2, ![12, 50]⟩
abbrev S400x300 : Shape := ⟨2, ![400, 300]⟩
abbrev S300 : Shape := ⟨1, ![300]⟩
abbrev S8192x50 : Shape := ⟨2, ![8192, 50]⟩
abbrev S1x50 : Shape := ⟨2, ![1, 50]⟩
abbrev S_ : Shape := ⟨0, ![]⟩
abbrev S8192x100 : Shape := ⟨2, ![8192, 100]⟩
abbrev S1x100x50 : Shape := ⟨3, ![1, 100, 50]⟩
abbrev S100x50 : Shape := ⟨2, ![100, 50]⟩
abbrev S8192x400 : Shape := ⟨2, ![8192, 400]⟩
abbrev S8192x300 : Shape := ⟨2, ![8192, 300]⟩
abbrev S1x300 : Shape := ⟨2, ![1, 300]⟩

abbrev nBuf : Space → Nat
  | .hbm => 514
  | .vmem => 0
  | .smem => 0
  | _ => 0

abbrev hbmTy0_0 (i : Nat) : BufTy := match i % 128 with
  | 0 => ⟨S8192x200, .f32⟩
  | 1 => ⟨S8192x8192, .f32⟩
  | 2 => ⟨S8192x8192, .f32⟩
  | 3 => ⟨S50x50, .f32⟩
  | 4 => ⟨S50, .f32⟩
  | 5 => ⟨S12x100x50, .f32⟩
  | 6 => ⟨S12x50, .f32⟩
  | 7 => ⟨S400x300, .f32⟩
  | 8 => ⟨S300, .f32⟩
  | 9 => ⟨S8192x50, .f32⟩
  | 10 => ⟨S8192x50, .f32⟩
  | 11 => ⟨S8192x50, .f32⟩
  | 12 => ⟨S8192x50, .f32⟩
  | 13 => ⟨S8192x50, .f32⟩
  | 14 => ⟨S8192x50, .f32⟩
  | 15 => ⟨S1x50, .f32⟩
  | 16 => ⟨S8192x50, .f32⟩
  | 17 => ⟨S8192x50, .f32⟩
  | 18 => ⟨S_, .f32⟩
  | 19 => ⟨S8192x50, .f32⟩
  | 20 => ⟨S8192x50, .f32⟩
  | 21 => ⟨S8192x50, .f32⟩
  | 22 => ⟨S8192x50, .f32⟩
  | 23 => ⟨S8192x50, .f32⟩
  | 24 => ⟨S1x50, .f32⟩
  | 25 => ⟨S8192x50, .f32⟩
  | 26 => ⟨S8192x50, .f32⟩
  | 27 => ⟨S_, .f32⟩
  | 28 => ⟨S8192x50, .f32⟩
  | 29 => ⟨S8192x50, .f32⟩
  | 30 => ⟨S_, .f32⟩
  | 31 => ⟨S8192x50, .f32⟩
  | 32 => ⟨S8192x50, .f32⟩
  | 33 => ⟨S8192x50, .f32⟩
  | 34 => ⟨S8192x50, .f32⟩
  | 35 => ⟨S1x50, .f32⟩
  | 36 => ⟨S8192x50, .f32⟩
  | 37 => ⟨S8192x50, .f32⟩
  | 38 => ⟨S_, .f32⟩
  | 39 => ⟨S8192x50, .f32⟩
  | 40 => ⟨S8192x50, .f32⟩
  | 41 => ⟨S_, .f32⟩
  | 42 => ⟨S8192x50, .f32⟩
  | 43 => ⟨S8192x50, .f32⟩
  | 44 => ⟨S8192x50, .f32⟩
  | 45 => ⟨S8192x50, .f32⟩
  | 46 => ⟨S8192x50, .f32⟩
  | 47 => ⟨S1x50, .f32⟩
  | 48 => ⟨S8192x50, .f32⟩
  | 49 => ⟨S8192x50, .f32⟩
  | 50 => ⟨S_, .f32⟩
  | 51 => ⟨S8192x50, .f32⟩
  | 52 => ⟨S8192x50, .f32⟩
  | 53 => ⟨S8192x50, .f32⟩
  | 54 => ⟨S8192x50, .f32⟩
  | 55 => ⟨S8192x50, .f32⟩
  | 56 => ⟨S1x50, .f32⟩
  | 57 => ⟨S8192x50, .f32⟩
  | 58 => ⟨S8192x50, .f32⟩
  | 59 => ⟨S_, .f32⟩
  | 60 => ⟨S8192x50, .f32⟩
  | 61 => ⟨S8192x50, .f32⟩
  | 62 => ⟨S8192x100, .f32⟩
  | 63 => ⟨S1x100x50, .f32⟩
  | 64 => ⟨S100x50, .f32⟩
  | 65 => ⟨S8192x50, .f32⟩
  | 66 => ⟨S1x50, .f32⟩
  | 67 => ⟨S50, .f32⟩
  | 68 => ⟨S1x50, .f32⟩
  | 69 => ⟨S8192x50, .f32⟩
  | 70 => ⟨S8192x50, .f32⟩
  | 71 => ⟨S8192x50, .f32⟩
  | 72 => ⟨S8192x50, .f32⟩
  | 73 => ⟨S_, .f32⟩
  | 74 => ⟨S8192x50, .f32⟩
  | 75 => ⟨S8192x50, .f32⟩
  | 76 => ⟨S_, .f32⟩
  | 77 => ⟨S8192x50, .f32⟩
  | 78 => ⟨S8192x50, .f32⟩
  | 79 => ⟨S8192x50, .f32⟩
  | 80 => ⟨S8192x50, .f32⟩
  | 81 => ⟨S_, .f32⟩
  | 82 => ⟨S8192x50, .f32⟩
  | 83 => ⟨S8192x50, .f32⟩
  | 84 => ⟨S8192x50, .f32⟩
  | 85 => ⟨S8192x50, .f32⟩
  | 86 => ⟨S1x50, .f32⟩
  | 87 => ⟨S8192x50, .f32⟩
  | 88 => ⟨S8192x50, .f32⟩
  | 89 => ⟨S_, .f32⟩
  | 90 => ⟨S8192x50, .f32⟩
  | 91 => ⟨S8192x50, .f32⟩
  | 92 => ⟨S_, .f32⟩
  | 93 => ⟨S8192x50, .f32⟩
  | 94 => ⟨S8192x50, .f32⟩
  | 95 => ⟨S8192x50, .f32⟩
  | 96 => ⟨S8192x100, .f32⟩
  | 97 => ⟨S1x100x50, .f32⟩
  | 98 => ⟨S100x50, .f32⟩
  | 99 => ⟨S8192x50, .f32⟩
  | 100 => ⟨S1x50, .f32⟩
  | 101 => ⟨S50, .f32⟩
  | 102 => ⟨S1x50, .f32⟩
  | 103 => ⟨S8192x50, .f32⟩
  | 104 => ⟨S8192x50, .f32⟩
  | 105 => ⟨S8192x50, .f32⟩
  | 106 => ⟨S8192x50, .f32⟩
  | 107 => ⟨S_, .f32⟩
  | 108 => ⟨S8192x50, .f32⟩
  | 109 => ⟨S8192x50, .f32⟩
  | 110 => ⟨S_, .f32⟩
  | 111 => ⟨S8192x50, .f32⟩
  | 112 => ⟨S8192x50, .f32⟩
  | 113 => ⟨S8192x50, .f32⟩
  | 114 => ⟨S8192x50, .f32⟩
  | 115 => ⟨S_, .f32⟩
  | 116 => ⟨S8192x50, .f32⟩
  | 117 => ⟨S8192x50, .f32⟩
  | 118 => ⟨S8192x50, .f32⟩
  | 119 => ⟨S8192x50, .f32⟩
  | 120 => ⟨S1x50, .f32⟩
  | 121 => ⟨S8192x50, .f32⟩
  | 122 => ⟨S8192x50, .f32⟩
  | 123 => ⟨S_, .f32⟩
  | 124 => ⟨S8192x50, .f32⟩
  | 125 => ⟨S8192x50, .f32⟩
  | 126 => ⟨S_, .f32⟩
  | 127 => ⟨S8192x50, .f32⟩
  | _ => ⟨S8192x200, .f32⟩

abbrev hbmTy0_1 (i : Nat) : BufTy := match i % 128 with
  | 0 => ⟨S8192x50, .f32⟩
  | 1 => ⟨S8192x50, .f32⟩
  | 2 => ⟨S8192x50, .f32⟩
  | 3 => ⟨S8192x50, .f32⟩
  | 4 => ⟨S1x50, .f32⟩
  | 5 => ⟨S8192x50, .f32⟩
  | 6 => ⟨S8192x50, .f32⟩
  | 7 => ⟨S_, .f32⟩
  | 8 => ⟨S8192x50, .f32⟩
  | 9 => ⟨S8192x50, .f32⟩
  | 10 => ⟨S8192x100, .f32⟩
  | 11 => ⟨S1x100x50, .f32⟩
  | 12 => ⟨S100x50, .f32⟩
  | 13 => ⟨S8192x50, .f32⟩
  | 14 => ⟨S1x50, .f32⟩
  | 15 => ⟨S50, .f32⟩
  | 16 => ⟨S1x50, .f32⟩
  | 17 => ⟨S8192x50, .f32⟩
  | 18 => ⟨S8192x50, .f32⟩
  | 19 => ⟨S8192x50, .f32⟩
  | 20 => ⟨S8192x50, .f32⟩
  | 21 => ⟨S_, .f32⟩
  | 22 => ⟨S8192x50, .f32⟩
  | 23 => ⟨S8192x50, .f32⟩
  | 24 => ⟨S_, .f32⟩
  | 25 => ⟨S8192x50, .f32⟩
  | 26 => ⟨S8192x50, .f32⟩
  | 27 => ⟨S8192x50, .f32⟩
  | 28 => ⟨S8192x50, .f32⟩
  | 29 => ⟨S_, .f32⟩
  | 30 => ⟨S8192x50, .f32⟩
  | 31 => ⟨S8192x50, .f32⟩
  | 32 => ⟨S8192x50, .f32⟩
  | 33 => ⟨S8192x50, .f32⟩
  | 34 => ⟨S1x50, .f32⟩
  | 35 => ⟨S8192x50, .f32⟩
  | 36 => ⟨S8192x50, .f32⟩
  | 37 => ⟨S_, .f32⟩
  | 38 => ⟨S8192x50, .f32⟩
  | 39 => ⟨S8192x50, .f32⟩
  | 40 => ⟨S_, .f32⟩
  | 41 => ⟨S8192x50, .f32⟩
  | 42 => ⟨S8192x50, .f32⟩
  | 43 => ⟨S8192x50, .f32⟩
  | 44 => ⟨S8192x100, .f32⟩
  | 45 => ⟨S1x100x50, .f32⟩
  | 46 => ⟨S100x50, .f32⟩
  | 47 => ⟨S8192x50, .f32⟩
  | 48 => ⟨S1x50, .f32⟩
  | 49 => ⟨S50, .f32⟩
  | 50 => ⟨S1x50, .f32⟩
  | 51 => ⟨S8192x50, .f32⟩
  | 52 => ⟨S8192x50, .f32⟩
  | 53 => ⟨S8192x50, .f32⟩
  | 54 => ⟨S8192x50, .f32⟩
  | 55 => ⟨S_, .f32⟩
  | 56 => ⟨S8192x50, .f32⟩
  | 57 => ⟨S8192x50, .f32⟩
  | 58 => ⟨S_, .f32⟩
  | 59 => ⟨S8192x50, .f32⟩
  | 60 => ⟨S8192x50, .f32⟩
  | 61 => ⟨S8192x50, .f32⟩
  | 62 => ⟨S8192x50, .f32⟩
  | 63 => ⟨S8192x50, .f32⟩
  | 64 => ⟨S8192x50, .f32⟩
  | 65 => ⟨S1x50, .f32⟩
  | 66 => ⟨S8192x50, .f32⟩
  | 67 => ⟨S8192x50, .f32⟩
  | 68 => ⟨S_, .f32⟩
  | 69 => ⟨S8192x50, .f32⟩
  | 70 => ⟨S8192x50, .f32⟩
  | 71 => ⟨S8192x50, .f32⟩
  | 72 => ⟨S8192x50, .f32⟩
  | 73 => ⟨S8192x50, .f32⟩
  | 74 => ⟨S1x50, .f32⟩
  | 75 => ⟨S8192x50, .f32⟩
  | 76 => ⟨S8192x50, .f32⟩
  | 77 => ⟨S_, .f32⟩
  | 78 => ⟨S8192x50, .f32⟩
  | 79 => ⟨S8192x50, .f32⟩
  | 80 => ⟨S8192x100, .f32⟩
  | 81 => ⟨S1x100x50, .f32⟩
  | 82 => ⟨S100x50, .f32⟩
  | 83 => ⟨S8192x50, .f32⟩
  | 84 => ⟨S1x50, .f32⟩
  | 85 => ⟨S50, .f32⟩
  | 86 => ⟨S1x50, .f32⟩
  | 87 => ⟨S8192x50, .f32⟩
  | 88 => ⟨S8192x50, .f32⟩
  | 89 => ⟨S8192x50, .f32⟩
  | 90 => ⟨S8192x50, .f32⟩
  | 91 => ⟨S_, .f32⟩
  | 92 => ⟨S8192x50, .f32⟩
  | 93 => ⟨S8192x50, .f32⟩
  | 94 => ⟨S_, .f32⟩
  | 95 => ⟨S8192x50, .f32⟩
  | 96 => ⟨S8192x50, .f32⟩
  | 97 => ⟨S8192x50, .f32⟩
  | 98 => ⟨S8192x50, .f32⟩
  | 99 => ⟨S_, .f32⟩
  | 100 => ⟨S8192x50, .f32⟩
  | 101 => ⟨S8192x50, .f32⟩
  | 102 => ⟨S8192x50, .f32⟩
  | 103 => ⟨S8192x50, .f32⟩
  | 104 => ⟨S1x50, .f32⟩
  | 105 => ⟨S8192x50, .f32⟩
  | 106 => ⟨S8192x50, .f32⟩
  | 107 => ⟨S_, .f32⟩
  | 108 => ⟨S8192x50, .f32⟩
  | 109 => ⟨S8192x50, .f32⟩
  | 110 => ⟨S_, .f32⟩
  | 111 => ⟨S8192x50, .f32⟩
  | 112 => ⟨S8192x50, .f32⟩
  | 113 => ⟨S8192x50, .f32⟩
  | 114 => ⟨S8192x100, .f32⟩
  | 115 => ⟨S1x100x50, .f32⟩
  | 116 => ⟨S100x50, .f32⟩
  | 117 => ⟨S8192x50, .f32⟩
  | 118 => ⟨S1x50, .f32⟩
  | 119 => ⟨S50, .f32⟩
  | 120 => ⟨S1x50, .f32⟩
  | 121 => ⟨S8192x50, .f32⟩
  | 122 => ⟨S8192x50, .f32⟩
  | 123 => ⟨S8192x50, .f32⟩
  | 124 => ⟨S8192x50, .f32⟩
  | 125 => ⟨S_, .f32⟩
  | 126 => ⟨S8192x50, .f32⟩
  | 127 => ⟨S8192x50, .f32⟩
  | _ => ⟨S8192x200, .f32⟩

abbrev hbmTy0_2 (i : Nat) : BufTy := match i % 128 with
  | 0 => ⟨S_, .f32⟩
  | 1 => ⟨S8192x50, .f32⟩
  | 2 => ⟨S8192x50, .f32⟩
  | 3 => ⟨S8192x50, .f32⟩
  | 4 => ⟨S8192x50, .f32⟩
  | 5 => ⟨S8192x50, .f32⟩
  | 6 => ⟨S8192x50, .f32⟩
  | 7 => ⟨S1x50, .f32⟩
  | 8 => ⟨S8192x50, .f32⟩
  | 9 => ⟨S8192x50, .f32⟩
  | 10 => ⟨S_, .f32⟩
  | 11 => ⟨S8192x50, .f32⟩
  | 12 => ⟨S8192x50, .f32⟩
  | 13 => ⟨S8192x50, .f32⟩
  | 14 => ⟨S8192x50, .f32⟩
  | 15 => ⟨S8192x50, .f32⟩
  | 16 => ⟨S1x50, .f32⟩
  | 17 => ⟨S8192x50, .f32⟩
  | 18 => ⟨S8192x50, .f32⟩
  | 19 => ⟨S_, .f32⟩
  | 20 => ⟨S8192x50, .f32⟩
  | 21 => ⟨S8192x50, .f32⟩
  | 22 => ⟨S_, .f32⟩
  | 23 => ⟨S8192x50, .f32⟩
  | 24 => ⟨S8192x50, .f32⟩
  | 25 => ⟨S8192x50, .f32⟩
  | 26 => ⟨S8192x50, .f32⟩
  | 27 => ⟨S1x50, .f32⟩
  | 28 => ⟨S8192x50, .f32⟩
  | 29 => ⟨S8192x50, .f32⟩
  | 30 => ⟨S_, .f32⟩
  | 31 => ⟨S8192x50, .f32⟩
  | 32 => ⟨S8192x50, .f32⟩
  | 33 => ⟨S_, .f32⟩
  | 34 => ⟨S8192x50, .f32⟩
  | 35 => ⟨S8192x50, .f32⟩
  | 36 => ⟨S8192x50, .f32⟩
  | 37 => ⟨S8192x50, .f32⟩
  | 38 => ⟨S8192x50, .f32⟩
  | 39 => ⟨S1x50, .f32⟩
  | 40 => ⟨S8192x50, .f32⟩
  | 41 => ⟨S8192x50, .f32⟩
  | 42 => ⟨S_, .f32⟩
  | 43 => ⟨S8192x50, .f32⟩
  | 44 => ⟨S8192x50, .f32⟩
  | 45 => ⟨S8192x50, .f32⟩
  | 46 => ⟨S8192x50, .f32⟩
  | 47 => ⟨S8192x50, .f32⟩
  | 48 => ⟨S1x50, .f32⟩
  | 49 => ⟨S8192x50, .f32⟩
  | 50 => ⟨S8192x50, .f32⟩
  | 51 => ⟨S_, .f32⟩
  | 52 => ⟨S8192x50, .f32⟩
  | 53 => ⟨S8192x50, .f32⟩
  | 54 => ⟨S8192x100, .f32⟩
  | 55 => ⟨S1x100x50, .f32⟩
  | 56 => ⟨S100x50, .f32⟩
  | 57 => ⟨S8192x50, .f32⟩
  | 58 => ⟨S1x50, .f32⟩
  | 59 => ⟨S50, .f32⟩
  | 60 => ⟨S1x50, .f32⟩
  | 61 => ⟨S8192x50, .f32⟩
  | 62 => ⟨S8192x50, .f32⟩
  | 63 => ⟨S8192x50, .f32⟩
  | 64 => ⟨S8192x50, .f32⟩
  | 65 => ⟨S_, .f32⟩
  | 66 => ⟨S8192x50, .f32⟩
  | 67 => ⟨S8192x50, .f32⟩
  | 68 => ⟨S_, .f32⟩
  | 69 => ⟨S8192x50, .f32⟩
  | 70 => ⟨S8192x50, .f32⟩
  | 71 => ⟨S8192x50, .f32⟩
  | 72 => ⟨S8192x50, .f32⟩
  | 73 => ⟨S_, .f32⟩
  | 74 => ⟨S8192x50, .f32⟩
  | 75 => ⟨S8192x50, .f32⟩
  | 76 => ⟨S8192x50, .f32⟩
  | 77 => ⟨S8192x50, .f32⟩
  | 78 => ⟨S1x50, .f32⟩
  | 79 => ⟨S8192x50, .f32⟩
  | 80 => ⟨S8192x50, .f32⟩
  | 81 => ⟨S_, .f32⟩
  | 82 => ⟨S8192x50, .f32⟩
  | 83 => ⟨S8192x50, .f32⟩
  | 84 => ⟨S_, .f32⟩
  | 85 => ⟨S8192x50, .f32⟩
  | 86 => ⟨S8192x50, .f32⟩
  | 87 => ⟨S8192x50, .f32⟩
  | 88 => ⟨S8192x100, .f32⟩
  | 89 => ⟨S1x100x50, .f32⟩
  | 90 => ⟨S100x50, .f32⟩
  | 91 => ⟨S8192x50, .f32⟩
  | 92 => ⟨S1x50, .f32⟩
  | 93 => ⟨S50, .f32⟩
  | 94 => ⟨S1x50, .f32⟩
  | 95 => ⟨S8192x50, .f32⟩
  | 96 => ⟨S8192x50, .f32⟩
  | 97 => ⟨S8192x50, .f32⟩
  | 98 => ⟨S8192x50, .f32⟩
  | 99 => ⟨S_, .f32⟩
  | 100 => ⟨S8192x50, .f32⟩
  | 101 => ⟨S8192x50, .f32⟩
  | 102 => ⟨S_, .f32⟩
  | 103 => ⟨S8192x50, .f32⟩
  | 104 => ⟨S8192x50, .f32⟩
  | 105 => ⟨S8192x50, .f32⟩
  | 106 => ⟨S8192x50, .f32⟩
  | 107 => ⟨S_, .f32⟩
  | 108 => ⟨S8192x50, .f32⟩
  | 109 => ⟨S8192x50, .f32⟩
  | 110 => ⟨S8192x50, .f32⟩
  | 111 => ⟨S8192x50, .f32⟩
  | 112 => ⟨S1x50, .f32⟩
  | 113 => ⟨S8192x50, .f32⟩
  | 114 => ⟨S8192x50, .f32⟩
  | 115 => ⟨S_, .f32⟩
  | 116 => ⟨S8192x50, .f32⟩
  | 117 => ⟨S8192x50, .f32⟩
  | 118 => ⟨S_, .f32⟩
  | 119 => ⟨S8192x50, .f32⟩
  | 120 => ⟨S8192x50, .f32⟩
  | 121 => ⟨S8192x50, .f32⟩
  | 122 => ⟨S8192x50, .f32⟩
  | 123 => ⟨S8192x50, .f32⟩
  | 124 => ⟨S1x50, .f32⟩
  | 125 => ⟨S8192x50, .f32⟩
  | 126 => ⟨S8192x50, .f32⟩
  | 127 => ⟨S_, .f32⟩
  | _ => ⟨S8192x200, .f32⟩

abbrev hbmTy0_3 (i : Nat) : BufTy := match i % 128 with
  | 0 => ⟨S8192x50, .f32⟩
  | 1 => ⟨S8192x50, .f32⟩
  | 2 => ⟨S8192x100, .f32⟩
  | 3 => ⟨S1x100x50, .f32⟩
  | 4 => ⟨S100x50, .f32⟩
  | 5 => ⟨S8192x50, .f32⟩
  | 6 => ⟨S1x50, .f32⟩
  | 7 => ⟨S50, .f32⟩
  | 8 => ⟨S1x50, .f32⟩
  | 9 => ⟨S8192x50, .f32⟩
  | 10 => ⟨S8192x50, .f32⟩
  | 11 => ⟨S8192x50, .f32⟩
  | 12 => ⟨S8192x50, .f32⟩
  | 13 => ⟨S_, .f32⟩
  | 14 => ⟨S8192x50, .f32⟩
  | 15 => ⟨S8192x50, .f32⟩
  | 16 => ⟨S_, .f32⟩
  | 17 => ⟨S8192x50, .f32⟩
  | 18 => ⟨S8192x50, .f32⟩
  | 19 => ⟨S8192x50, .f32⟩
  | 20 => ⟨S8192x50, .f32⟩
  | 21 => ⟨S_, .f32⟩
  | 22 => ⟨S8192x50, .f32⟩
  | 23 => ⟨S8192x50, .f32⟩
  | 24 => ⟨S8192x50, .f32⟩
  | 25 => ⟨S8192x50, .f32⟩
  | 26 => ⟨S1x50, .f32⟩
  | 27 => ⟨S8192x50, .f32⟩
  | 28 => ⟨S8192x50, .f32⟩
  | 29 => ⟨S_, .f32⟩
  | 30 => ⟨S8192x50, .f32⟩
  | 31 => ⟨S8192x50, .f32⟩
  | 32 => ⟨S_, .f32⟩
  | 33 => ⟨S8192x50, .f32⟩
  | 34 => ⟨S8192x50, .f32⟩
  | 35 => ⟨S8192x50, .f32⟩
  | 36 => ⟨S8192x100, .f32⟩
  | 37 => ⟨S1x100x50, .f32⟩
  | 38 => ⟨S100x50, .f32⟩
  | 39 => ⟨S8192x50, .f32⟩
  | 40 => ⟨S1x50, .f32⟩
  | 41 => ⟨S50, .f32⟩
  | 42 => ⟨S1x50, .f32⟩
  | 43 => ⟨S8192x50, .f32⟩
  | 44 => ⟨S8192x50, .f32⟩
  | 45 => ⟨S8192x50, .f32⟩
  | 46 => ⟨S8192x50, .f32⟩
  | 47 => ⟨S_, .f32⟩
  | 48 => ⟨S8192x50, .f32⟩
  | 49 => ⟨S8192x50, .f32⟩
  | 50 => ⟨S_, .f32⟩
  | 51 => ⟨S8192x50, .f32⟩
  | 52 => ⟨S8192x50, .f32⟩
  | 53 => ⟨S8192x50, .f32⟩
  | 54 => ⟨S8192x50, .f32⟩
  | 55 => ⟨S8192x50, .f32⟩
  | 56 => ⟨S8192x50, .f32⟩
  | 57 => ⟨S1x50, .f32⟩
  | 58 => ⟨S8192x50, .f32⟩
  | 59 => ⟨S8192x50, .f32⟩
  | 60 => ⟨S_, .f32⟩
  | 61 => ⟨S8192x50, .f32⟩
  | 62 => ⟨S8192x50, .f32⟩
  | 63 => ⟨S8192x50, .f32⟩
  | 64 => ⟨S8192x50, .f32⟩
  | 65 => ⟨S8192x50, .f32⟩
  | 66 => ⟨S1x50, .f32⟩
  | 67 => ⟨S8192x50, .f32⟩
  | 68 => ⟨S8192x50, .f32⟩
  | 69 => ⟨S_, .f32⟩
  | 70 => ⟨S8192x50, .f32⟩
  | 71 => ⟨S8192x50, .f32⟩
  | 72 => ⟨S8192x100, .f32⟩
  | 73 => ⟨S1x100x50, .f32⟩
  | 74 => ⟨S100x50, .f32⟩
  | 75 => ⟨S8192x50, .f32⟩
  | 76 => ⟨S1x50, .f32⟩
  | 77 => ⟨S50, .f32⟩
  | 78 => ⟨S1x50, .f32⟩
  | 79 => ⟨S8192x50, .f32⟩
  | 80 => ⟨S8192x50, .f32⟩
  | 81 => ⟨S8192x50, .f32⟩
  | 82 => ⟨S8192x50, .f32⟩
  | 83 => ⟨S_, .f32⟩
  | 84 => ⟨S8192x50, .f32⟩
  | 85 => ⟨S8192x50, .f32⟩
  | 86 => ⟨S_, .f32⟩
  | 87 => ⟨S8192x50, .f32⟩
  | 88 => ⟨S8192x50, .f32⟩
  | 89 => ⟨S8192x50, .f32⟩
  | 90 => ⟨S8192x50, .f32⟩
  | 91 => ⟨S_, .f32⟩
  | 92 => ⟨S8192x50, .f32⟩
  | 93 => ⟨S8192x50, .f32⟩
  | 94 => ⟨S8192x50, .f32⟩
  | 95 => ⟨S8192x50, .f32⟩
  | 96 => ⟨S1x50, .f32⟩
  | 97 => ⟨S8192x50, .f32⟩
  | 98 => ⟨S8192x50, .f32⟩
  | 99 => ⟨S_, .f32⟩
  | 100 => ⟨S8192x50, .f32⟩
  | 101 => ⟨S8192x50, .f32⟩
  | 102 => ⟨S_, .f32⟩
  | 103 => ⟨S8192x50, .f32⟩
  | 104 => ⟨S8192x50, .f32⟩
  | 105 => ⟨S8192x50, .f32⟩
  | 106 => ⟨S8192x100, .f32⟩
  | 107 => ⟨S1x100x50, .f32⟩
  | 108 => ⟨S100x50, .f32⟩
  | 109 => ⟨S8192x50, .f32⟩
  | 110 => ⟨S1x50, .f32⟩
  | 111 => ⟨S50, .f32⟩
  | 112 => ⟨S1x50, .f32⟩
  | 113 => ⟨S8192x50, .f32⟩
  | 114 => ⟨S8192x50, .f32⟩
  | 115 => ⟨S8192x50, .f32⟩
  | 116 => ⟨S8192x50, .f32⟩
  | 117 => ⟨S_, .f32⟩
  | 118 => ⟨S8192x50, .f32⟩
  | 119 => ⟨S8192x50, .f32⟩
  | 120 => ⟨S_, .f32⟩
  | 121 => ⟨S8192x50, .f32⟩
  | 122 => ⟨S8192x50, .f32⟩
  | 123 => ⟨S8192x50, .f32⟩
  | 124 => ⟨S8192x50, .f32⟩
  | 125 => ⟨S8192x400, .f32⟩
  | 126 => ⟨S8192x300, .f32⟩
  | 127 => ⟨S1x300, .f32⟩
  | _ => ⟨S8192x200, .f32⟩

abbrev hbmTy0_4 (i : Nat) : BufTy := match i % 128 with
  | 0 => ⟨S8192x300, .f32⟩
  | 1 => ⟨S8192x300, .f32⟩
  | _ => ⟨S8192x200, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x200, .f32⟩

abbrev bufTy : (tb : Table) → Fin (tcTables nBuf tb) → BufTy
  | .hbm, ⟨i, _⟩ => hbmTy i
  | _, _ => ⟨S8192x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call2_cst : Ref sig .tc := ⟨.hbm, 38, rfl⟩
abbrev main_call2_v0 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call3_cst : Ref sig .tc := ⟨.hbm, 50, rfl⟩
abbrev main_call3_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call4_cst : Ref sig .tc := ⟨.hbm, 59, rfl⟩
abbrev main_call4_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_1 : Ref sig .tc := ⟨.hbm, 73, rfl⟩
abbrev main_v52 : Ref sig .tc := ⟨.hbm, 74, rfl⟩
abbrev main_v53 : Ref sig .tc := ⟨.hbm, 75, rfl⟩
abbrev main_cst_2 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_3 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call5_cst : Ref sig .tc := ⟨.hbm, 89, rfl⟩
abbrev main_call5_v0 : Ref sig .tc := ⟨.hbm, 90, rfl⟩
abbrev main_v65 : Ref sig .tc := ⟨.hbm, 91, rfl⟩
abbrev main_cst_4 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_5 : Ref sig .tc := ⟨.hbm, 107, rfl⟩
abbrev main_v80 : Ref sig .tc := ⟨.hbm, 108, rfl⟩
abbrev main_v81 : Ref sig .tc := ⟨.hbm, 109, rfl⟩
abbrev main_cst_6 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_7 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call6_cst : Ref sig .tc := ⟨.hbm, 123, rfl⟩
abbrev main_call6_v0 : Ref sig .tc := ⟨.hbm, 124, rfl⟩
abbrev main_v93 : Ref sig .tc := ⟨.hbm, 125, rfl⟩
abbrev main_cst_8 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call7_cst : Ref sig .tc := ⟨.hbm, 135, rfl⟩
abbrev main_call7_v0 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_9 : Ref sig .tc := ⟨.hbm, 149, rfl⟩
abbrev main_v114 : Ref sig .tc := ⟨.hbm, 150, rfl⟩
abbrev main_v115 : Ref sig .tc := ⟨.hbm, 151, rfl⟩
abbrev main_cst_10 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_11 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_call8_cst : Ref sig .tc := ⟨.hbm, 165, rfl⟩
abbrev main_call8_v0 : Ref sig .tc := ⟨.hbm, 166, rfl⟩
abbrev main_v127 : Ref sig .tc := ⟨.hbm, 167, rfl⟩
abbrev main_cst_12 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_13 : Ref sig .tc := ⟨.hbm, 183, rfl⟩
abbrev main_v142 : Ref sig .tc := ⟨.hbm, 184, rfl⟩
abbrev main_v143 : Ref sig .tc := ⟨.hbm, 185, rfl⟩
abbrev main_cst_14 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_call9_cst : Ref sig .tc := ⟨.hbm, 196, rfl⟩
abbrev main_call9_v0 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_call10_cst : Ref sig .tc := ⟨.hbm, 205, rfl⟩
abbrev main_call10_v0 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_15 : Ref sig .tc := ⟨.hbm, 219, rfl⟩
abbrev main_v172 : Ref sig .tc := ⟨.hbm, 220, rfl⟩
abbrev main_v173 : Ref sig .tc := ⟨.hbm, 221, rfl⟩
abbrev main_cst_16 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_17 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_call11_cst : Ref sig .tc := ⟨.hbm, 235, rfl⟩
abbrev main_call11_v0 : Ref sig .tc := ⟨.hbm, 236, rfl⟩
abbrev main_v185 : Ref sig .tc := ⟨.hbm, 237, rfl⟩
abbrev main_cst_18 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_19 : Ref sig .tc := ⟨.hbm, 253, rfl⟩
abbrev main_v200 : Ref sig .tc := ⟨.hbm, 254, rfl⟩
abbrev main_v201 : Ref sig .tc := ⟨.hbm, 255, rfl⟩
abbrev main_cst_20 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_call12_cst : Ref sig .tc := ⟨.hbm, 266, rfl⟩
abbrev main_call12_v0 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_call13_cst : Ref sig .tc := ⟨.hbm, 275, rfl⟩
abbrev main_call13_v0 : Ref sig .tc := ⟨.hbm, 276, rfl⟩
abbrev main_v218 : Ref sig .tc := ⟨.hbm, 277, rfl⟩
abbrev main_cst_21 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_call14_cst : Ref sig .tc := ⟨.hbm, 286, rfl⟩
abbrev main_call14_v0 : Ref sig .tc := ⟨.hbm, 287, rfl⟩
abbrev main_v226 : Ref sig .tc := ⟨.hbm, 288, rfl⟩
abbrev main_cst_22 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_call15_cst : Ref sig .tc := ⟨.hbm, 298, rfl⟩
abbrev main_call15_v0 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_call16_cst : Ref sig .tc := ⟨.hbm, 307, rfl⟩
abbrev main_call16_v0 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_cst_23 : Ref sig .tc := ⟨.hbm, 321, rfl⟩
abbrev main_v254 : Ref sig .tc := ⟨.hbm, 322, rfl⟩
abbrev main_v255 : Ref sig .tc := ⟨.hbm, 323, rfl⟩
abbrev main_cst_24 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_cst_25 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_call17_cst : Ref sig .tc := ⟨.hbm, 337, rfl⟩
abbrev main_call17_v0 : Ref sig .tc := ⟨.hbm, 338, rfl⟩
abbrev main_v267 : Ref sig .tc := ⟨.hbm, 339, rfl⟩
abbrev main_cst_26 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_cst_27 : Ref sig .tc := ⟨.hbm, 355, rfl⟩
abbrev main_v282 : Ref sig .tc := ⟨.hbm, 356, rfl⟩
abbrev main_v283 : Ref sig .tc := ⟨.hbm, 357, rfl⟩
abbrev main_cst_28 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_cst_29 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_call18_cst : Ref sig .tc := ⟨.hbm, 371, rfl⟩
abbrev main_call18_v0 : Ref sig .tc := ⟨.hbm, 372, rfl⟩
abbrev main_v295 : Ref sig .tc := ⟨.hbm, 373, rfl⟩
abbrev main_cst_30 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_v303 : Ref sig .tc := ⟨.hbm, 382, rfl⟩
abbrev main_call19_cst : Ref sig .tc := ⟨.hbm, 383, rfl⟩
abbrev main_call19_v0 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_cst_31 : Ref sig .tc := ⟨.hbm, 397, rfl⟩
abbrev main_v316 : Ref sig .tc := ⟨.hbm, 398, rfl⟩
abbrev main_v317 : Ref sig .tc := ⟨.hbm, 399, rfl⟩
abbrev main_cst_32 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_cst_33 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_call20_cst : Ref sig .tc := ⟨.hbm, 413, rfl⟩
abbrev main_call20_v0 : Ref sig .tc := ⟨.hbm, 414, rfl⟩
abbrev main_v329 : Ref sig .tc := ⟨.hbm, 415, rfl⟩
abbrev main_cst_34 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_v337 : Ref sig .tc := ⟨.hbm, 424, rfl⟩
abbrev main_v338 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_cst_35 : Ref sig .tc := ⟨.hbm, 431, rfl⟩
abbrev main_v344 : Ref sig .tc := ⟨.hbm, 432, rfl⟩
abbrev main_v345 : Ref sig .tc := ⟨.hbm, 433, rfl⟩
abbrev main_cst_36 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_call21_cst : Ref sig .tc := ⟨.hbm, 444, rfl⟩
abbrev main_call21_v0 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_call22_cst : Ref sig .tc := ⟨.hbm, 453, rfl⟩
abbrev main_call22_v0 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_v369 : Ref sig .tc := ⟨.hbm, 462, rfl⟩
abbrev main_v370 : Ref sig .tc := ⟨.hbm, 463, rfl⟩
abbrev main_v371 : Ref sig .tc := ⟨.hbm, 464, rfl⟩
abbrev main_v372 : Ref sig .tc := ⟨.hbm, 465, rfl⟩
abbrev main_v373 : Ref sig .tc := ⟨.hbm, 466, rfl⟩
abbrev main_cst_37 : Ref sig .tc := ⟨.hbm, 467, rfl⟩
abbrev main_v374 : Ref sig .tc := ⟨.hbm, 468, rfl⟩
abbrev main_v375 : Ref sig .tc := ⟨.hbm, 469, rfl⟩
abbrev main_cst_38 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_cst_39 : Ref sig .tc := ⟨.hbm, 475, rfl⟩
abbrev main_v380 : Ref sig .tc := ⟨.hbm, 476, rfl⟩
abbrev main_v381 : Ref sig .tc := ⟨.hbm, 477, rfl⟩
abbrev main_v382 : Ref sig .tc := ⟨.hbm, 478, rfl⟩
abbrev main_v383 : Ref sig .tc := ⟨.hbm, 479, rfl⟩
abbrev main_v384 : Ref sig .tc := ⟨.hbm, 480, rfl⟩
abbrev main_v385 : Ref sig .tc := ⟨.hbm, 481, rfl⟩
abbrev main_v386 : Ref sig .tc := ⟨.hbm, 482, rfl⟩
abbrev main_call23_cst : Ref sig .tc := ⟨.hbm, 483, rfl⟩
abbrev main_call23_v0 : Ref sig .tc := ⟨.hbm, 484, rfl⟩
abbrev main_v387 : Ref sig .tc := ⟨.hbm, 485, rfl⟩
abbrev main_cst_40 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_cst_41 : Ref sig .tc := ⟨.hbm, 501, rfl⟩
abbrev main_v402 : Ref sig .tc := ⟨.hbm, 502, rfl⟩
abbrev main_v403 : Ref sig .tc := ⟨.hbm, 503, rfl⟩
abbrev main_cst_42 : Ref sig .tc := ⟨.hbm, 504, rfl⟩
abbrev main_v404 : Ref sig .tc := ⟨.hbm, 505, rfl⟩
abbrev main_v405 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩

abbrev nD : Nat := 1
abbrev τ : Topo := Topo.v7x

variable {F : FTy → Type} [FloatOps F]

class Facts₀ : Prop where
  slices_S8192x200_S8192x50_0_0 : S8192x200.Slices ![0, 0] S8192x50
  slices_S8192x200_S8192x50_0_50 : S8192x200.Slices ![0, 50] S8192x50
  slices_S8192x200_S8192x50_0_100 : S8192x200.Slices ![0, 100] S8192x50
  slices_S8192x200_S8192x50_0_150 : S8192x200.Slices ![0, 150] S8192x50
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  bcast_S_S8192x50 : S_.BroadcastsInDim S8192x50 (![] : Fin 0 → Fin S8192x50.rank)
  concatenates_S8192x50_S8192x50_S8192x100_d1 : Shape.Concatenates [S8192x50, S8192x50] S8192x100 1
  slices_S12x100x50_S1x100x50_0_0_0 : S12x100x50.Slices ![0, 0, 0] S1x100x50
  shapeCasts_S1x100x50_S100x50 : S1x100x50.ShapeCasts S100x50
  slices_S12x50_S1x50_0_0 : S12x50.Slices ![0, 0] S1x50
  shapeCasts_S1x50_S50 : S1x50.ShapeCasts S50
  slices_S12x100x50_S1x100x50_3_0_0 : S12x100x50.Slices ![3, 0, 0] S1x100x50
  slices_S12x50_S1x50_3_0 : S12x50.Slices ![3, 0] S1x50
  slices_S12x100x50_S1x100x50_1_0_0 : S12x100x50.Slices ![1, 0, 0] S1x100x50
  slices_S12x50_S1x50_1_0 : S12x50.Slices ![1, 0] S1x50
  slices_S12x100x50_S1x100x50_4_0_0 : S12x100x50.Slices ![4, 0, 0] S1x100x50
  slices_S12x50_S1x50_4_0 : S12x50.Slices ![4, 0] S1x50
  slices_S12x100x50_S1x100x50_2_0_0 : S12x100x50.Slices ![2, 0, 0] S1x100x50
  slices_S12x50_S1x50_2_0 : S12x50.Slices ![2, 0] S1x50
  slices_S12x100x50_S1x100x50_5_0_0 : S12x100x50.Slices ![5, 0, 0] S1x100x50
  slices_S12x50_S1x50_5_0 : S12x50.Slices ![5, 0] S1x50
  slices_S12x100x50_S1x100x50_9_0_0 : S12x100x50.Slices ![9, 0, 0] S1x100x50
  slices_S12x50_S1x50_9_0 : S12x50.Slices ![9, 0] S1x50
  slices_S12x100x50_S1x100x50_6_0_0 : S12x100x50.Slices ![6, 0, 0] S1x100x50
  slices_S12x50_S1x50_6_0 : S12x50.Slices ![6, 0] S1x50
  slices_S12x100x50_S1x100x50_10_0_0 : S12x100x50.Slices ![10, 0, 0] S1x100x50
  slices_S12x50_S1x50_10_0 : S12x50.Slices ![10, 0] S1x50
  slices_S12x100x50_S1x100x50_7_0_0 : S12x100x50.Slices ![7, 0, 0] S1x100x50
  slices_S12x50_S1x50_7_0 : S12x50.Slices ![7, 0] S1x50
  slices_S12x100x50_S1x100x50_11_0_0 : S12x100x50.Slices ![11, 0, 0] S1x100x50
  slices_S12x50_S1x50_11_0 : S12x50.Slices ![11, 0] S1x50
  slices_S12x100x50_S1x100x50_8_0_0 : S12x100x50.Slices ![8, 0, 0] S1x100x50
  slices_S12x50_S1x50_8_0 : S12x50.Slices ![8, 0] S1x50
  concatenates_S8192x50_S8192x50_S8192x50_S8192x50_S8192x50_S8192x50_S8192x50_S8192x50_S8192x400_d1 : Shape.Concatenates [S8192x50, S8192x50, S8192x50, S8192x50, S8192x50, S8192x50, S8192x50, S8192x50] S8192x400 1
  bcast_S300_S1x300_1 : S300.BroadcastsInDim S1x300 (![1] : Fin 1 → Fin S1x300.rank)
  bcast_S1x300_S8192x300_0_1 : S1x300.BroadcastsInDim S8192x300 (![0, 1] : Fin 2 → Fin S8192x300.rank)
  dot_S8192x50_S50x50_S8192x50_1_0_0_1_n_n_wf : DotDims.WF S8192x50 S50x50 S8192x50 [1] [0] [0] [1] [] []
  dot_S8192x8192_S8192x50_S8192x50_1_0_0_1_n_n_wf : DotDims.WF S8192x8192 S8192x50 S8192x50 [1] [0] [0] [1] [] []
  dot_S8192x100_S100x50_S8192x50_1_0_0_1_n_n_wf : DotDims.WF S8192x100 S100x50 S8192x50 [1] [0] [0] [1] [] []
  dot_S8192x400_S400x300_S8192x300_1_0_0_1_n_n_wf : DotDims.WF S8192x400 S400x300 S8192x300 [1] [0] [0] [1] [] []

variable [Facts₀]

def dot_S8192x50_S50x50_S8192x50_1_0_0_1_n_n : DotDims S8192x50 S50x50 S8192x50 where
  lhsContracting := [1]
  rhsContracting := [0]
  lhsNonContracting := [0]
  rhsNonContracting := [1]
  lhsBatch := []
  rhsBatch := []
  wf := dot_S8192x50_S50x50_S8192x50_1_0_0_1_n_n_wf
def dot_S8192x8192_S8192x50_S8192x50_1_0_0_1_n_n : DotDims S8192x8192 S8192x50 S8192x50 where
  lhsContracting := [1]
  rhsContracting := [0]
  lhsNonContracting := [0]
  rhsNonContracting := [1]
  lhsBatch := []
  rhsBatch := []
  wf := dot_S8192x8192_S8192x50_S8192x50_1_0_0_1_n_n_wf
def dot_S8192x100_S100x50_S8192x50_1_0_0_1_n_n : DotDims S8192x100 S100x50 S8192x50 where
  lhsContracting := [1]
  rhsContracting := [0]
  lhsNonContracting := [0]
  rhsNonContracting := [1]
  lhsBatch := []
  rhsBatch := []
  wf := dot_S8192x100_S100x50_S8192x50_1_0_0_1_n_n_wf
def dot_S8192x400_S400x300_S8192x300_1_0_0_1_n_n : DotDims S8192x400 S400x300 S8192x300 where
  lhsContracting := [1]
  rhsContracting := [0]
  lhsNonContracting := [0]
  rhsNonContracting := [1]
  lhsBatch := []
  rhsBatch := []
  wf := dot_S8192x400_S400x300_S8192x300_1_0_0_1_n_n_wf

class Facts : Prop extends Facts₀ where

variable [Facts]
-- ==== Proof.Bits.Reg0.Setup.lean ====
/-
  Region 0 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.Kernel.Launch
import proofs.«174668_j26645977104432_2_alg».proof.Proof.Gen.Kernel.Skeleton
import proofs.«174668_j26645977104432_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is found at its block at every point, fetched there or not: when it is not fetched its
    index has not moved since the last fetch, and the body leaves the buffer as it found it. -/
theorem found0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- Input window 1 is found at its block at every point, fetched there or not: when it is not fetched its
    index has not moved since the last fetch, and the body leaves the buffer as it found it. -/
theorem found0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-- Input window 2 is found at its block at every point, fetched there or not: when it is not fetched its
    index has not moved since the last fetch, and the body leaves the buffer as it found it. -/
theorem found0_2_of {c : Dev nD} (dat : Dat τ (Elt F) Unit ℕ (UR sig nD τ) ℕ cfg0 c) (hA : dat.A 2 = V c (Pipeline.arrRef spec0 2))
    (hafter : ∀ t, dat.after 2 t = block0 V c 2 t) (t : Fin cfg0.N) (d) : dat.before 2 t d = block0 V c 2 t :=
  (dat.before_in_eq_fetched 2 rfl (fun _ => rfl) (fun _ _ _ => rfl) (fun t => by rw [hafter]; unfold Dat.blockOf block0; rw [hA]; try rfl) t d).trans
    (by unfold Dat.fetched Dat.blockOf block0; rw [hA]; try rfl)

/-- Input window 3 is found at its block at every point, fetched there or not: when it is not fetched its
    index has not moved since the last fetch, and the body leaves the buffer as it found it. -/
theorem found0_3_of {c : Dev nD} (dat : Dat τ (Elt F) Unit ℕ (UR sig nD τ) ℕ cfg0 c) (hA : dat.A 3 = V c (Pipeline.arrRef spec0 3))
    (hafter : ∀ t, dat.after 3 t = block0 V c 3 t) (t : Fin cfg0.N) (d) : dat.before 3 t d = block0 V c 3 t :=
  (dat.before_in_eq_fetched 3 rfl (fun _ => rfl) (fun _ _ _ => rfl) (fun t => by rw [hafter]; unfold Dat.blockOf block0; rw [hA]; try rfl) t d).trans
    (by unfold Dat.fetched Dat.blockOf block0; rw [hA]; try rfl)

end

/-! ## The two branches of the body, over the grid -/

/-- The reduction index is 0: the accumulator is reset. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 16 = 0 :=
  (by decide +kernel : ∀ t : Fin grid0.N, first0 (grid0.coords t) ↔ t.val % 16 = 0)

/-- The reduction index is 15: the output block is written. -/
abbrev last0 (i : grid0.Coords) : Prop := k0_cond2 i = 1#1
theorem last0_iff : ∀ t : Fin cfg0.N, last0 (grid0.coords t) ↔ t.val % 16 = 15 :=
  (by decide +kernel : ∀ t : Fin grid0.N, last0 (grid0.coords t) ↔ t.val % 16 = 15)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last reduction step the output window is idle and is not written back. -/
theorem idle0_out : ∀ t : Fin cfg0.N, ¬last0 (grid0.coords t) → cfg0.idle 4 (grid0.coords t) = true := by decide +kernel
theorem noFlush0_out : ∀ t : Fin cfg0.N, ¬last0 (grid0.coords t) → (cfg0.win 4).flush t = false := by decide +kernel
/-- At the last reduction step it is live. -/
theorem live0_out : ∀ t : Fin cfg0.N, last0 (grid0.coords t) → cfg0.idle 4 (grid0.coords t) = false := by decide +kernel

/-! ## The memrefs the body is called with -/

abbrev mem0_0 (t : Fin cfg0.N) : Memref sig .tc .vmem S2048x512 .f32 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S8192x200 .f32 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S200x200 .f32 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S1x200 .f32 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S2048x200 .f32 := win0_4.stage (cfg0.slots t 4)
abbrev whole0_4 (t : Fin cfg0.N) : (mem0_4 t).IsWhole := hstage0_4 ((cfg0.slots t 4).cast nbuf0_4)
/-- The accumulator: a whole scoped buffer of the kernel's own. -/
abbrev acc0 : Memref sig .tc .vmem S2048x200 .f32 := Memref.whole cc0_scratch0
abbrev accView0 : View sig .tc .vmem S2048x200 .f32 := acc0.view
/-- One staging buffer of the output window, through which its contents are stated. -/
abbrev outView0 : View sig .tc .vmem S2048x200 .f32 := (Memref.whole cc0_stg4_0 : Memref sig .tc .vmem S2048x200 .f32).view

/-- The region's class invariant with the accumulator taken out of the scoped rest. -/
theorem phiA0_eq (c : Dev nD) :
    (Pipeline.ΦA spec0 c : sProp 𝕄)
      = iprop(iprop(iprop((∃ d, owns (c : Thread nD τ) acc0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [acc0, owns_whole]; try rfl

end Cert.Kernel.Hand

end
-- ==== Proof.Bits.Reg0.CaseFirst.lean ====
/-
  Region 0, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Bits.Reg0.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first0 i) (hc1 : ¬last0 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc0__matmul_relu_bias_kernel i a2 h2 a3 h3 a4 h4 a5 h5 a6 h6 a7 h7) K } := by
  refine ⟨?_, fun xo E K => ?run⟩
  case run =>
    simp only [cc0__matmul_relu_bias_kernel_eq_skeleton]; unfold cc0__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg0.CaseMid.lean ====
/-
  Region 0, a middle reduction step (reduction index 1 … 14): the body adds the step's partial product
  into the accumulator the step before left, and leaves the output window untouched.
-/
import proofs.«174668_j26645977104432_2_alg».proof.Proof.Bits.Reg0.CaseFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first0 i) (hc1 : ¬last0 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc0__matmul_relu_bias_kernel i a2 h2 a3 h3 a4 h4 a5 h5 a6 h6 a7 h7) K } := by
  refine ⟨?_, fun xo E K => ?run⟩
  case run =>
    simp only [cc0__matmul_relu_bias_kernel_eq_skeleton]; unfold cc0__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg0.CaseLast.lean ====
/-
  Region 0, the last reduction step (reduction index 15): the body adds the step's partial product into the
  accumulator, then writes `max (accumulator + bias) 0` into the output window's buffer.
-/
import proofs.«174668_j26645977104432_2_alg».proof.Proof.Bits.Reg0.CaseMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first0 i) (hc1 : last0 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc0__matmul_relu_bias_kernel i a2 h2 a3 h3 a4 h4 a5 h5 a6 h6 a7 h7) K } := by
  refine ⟨?_, ?_, fun E K => ?run⟩
  case run =>
    simp only [cc0__matmul_relu_bias_kernel_eq_skeleton]; unfold cc0__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.Kernel.Hand

end
-- ==== Proof.Bits.Reg0.Data.lean ====
/-
  Region 0: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt0`): each point's contents are
  the stores its case's run found, read back, over the accumulator the point before left.
-/
import proofs.«174668_j26645977104432_2_alg».proof.Proof.Bits.Reg0.CaseLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread0 : Vec F S2048x200 .f32 := outView0.read (Elt F) outView0.junk

/-! ## What each case leaves -/

/-- The accumulator after a point with reduction index 0. -/
def accFirst0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first0 i) (hc1 : ¬last0 i) (x0 : Vec F S2048x512 .f32) (x1 : Vec F S8192x200 .f32) (x2 : Vec F S200x200 .f32) (x3 : Vec F S1x200 .f32) : Vec F S2048x200 .f32 :=
  accView0.read (Elt F) (accView0.writes (Elt F) accView0.junk (runFirst0 c i a2 h2 a3 h3 a4 h4 a5 h5 a6 h6 a7 h7 hc0 hc1 x0 x1 x2 x3).1)
/-- Its stores tile the accumulator, so they cover it. -/
theorem accFirst0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first0 i) (hc1 : ¬last0 i) (x0 : Vec F S2048x512 .f32) (x1 : Vec F S8192x200 .f32) (x2 : Vec F S200x200 .f32) (x3 : Vec F S1x200 .f32) (y : S2048x200.Idx) :
    ∃ pc ∈ (runFirst0 c i a2 h2 a3 h3 a4 h4 a5 h5 a6 h6 a7 h7 hc0 hc1 x0 x1 x2 x3).1, y ∈ pc.1.set :=
  View.cover_of_tiledL (runFirst0 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : ¬last0 i) (x0 : Vec F S2048x512 .f32) (x1 : Vec F S8192x200 .f32) (x2 : Vec F S200x200 .f32) (x3 : Vec F S1x200 .f32) (xs : Vec F S2048x200 .f32) : Vec F S2048x200 .f32 :=
  accView0.read (Elt F) (accView0.writes (Elt F) accView0.junk (runMid0 c i a2 h2 a3 h3 a4 h4 a5 h5 a6 h6 a7 h7 hc0 hc1 x0 x1 x2 x3 xs).1)
theorem accMid0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : ¬last0 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid0 c i a2 h2 a3 h3 a4 h4 a5 h5 a6 h6 a7 h7 hc0 hc1 x0 x1 x2 x3 xs).1, y ∈ pc.1.set :=
  View.cover_of_tiledL (runMid0 c i a2 h2 a3 h3 a4 h4 a5 h5 a6 h6 a7 h7 hc0 hc1 x0 x1 x2 x3 xs).1 S2048x200.size (by sl_kernel_rfl) y

/-- The accumulator after a point with reduction index 15. -/
def accLast0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) : Vec F S2048x200 .f32 :=
  accView0.read (Elt F) (accView0.writes (Elt F) accView0.junk (runLast0 c i a2 h2 a3 h3 a4 h4 a5 h5 a6 h6 a7 h7 hc0 hc1 x0 x1 x2 x3 xs).2.1)
theorem accLast0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast0 c i a2 h2 a3 h3 a4 h4 a5 h5 a6 h6 a7 h7 hc0 hc1 x0 x1 x2 x3 xs).2.1, y ∈ pc.1.set :=
  View.cover_of_tiledL (runLast0 c i a2 h2 a3 h3 a4 h4 a5 h5 a6 h6 a7 h7 hc0 hc1 x0 x1 x2 x3 xs).2.1 S2048x200.size (by sl_kernel_rfl) y
/-- The output window's buffer after a point with reduction index 15. -/
def outLast0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) : Vec F S2048x200 .f32 :=
  outView0.read (Elt F) (outView0.writes (Elt F) outView0.junk (runLast0 c i a2 h2 a3 h3 a4 h4 a5 h5 a6 h6 a7 h7 hc0 hc1 x0 x1 x2 x3 xs).1)
theorem outLast0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast0 c i a2 h2 a3 h3 a4 h4 a5 h5 a6 h6 a7 h7 hc0 hc1 x0 x1 x2 x3 xs).1, y ∈ pc.1.set :=
  View.cover_of_tiledL (runLast0 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt0 (c : Dev nD) : (n : ℕ) → n < cfg0.N → Vec F S2048x200 .f32 × Vec F S2048x200 .f32
  | 0, hn => (unread0, accFirst0 c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) acc0 (Memref.isWhole_whole _) ((first0_iff ⟨0, hn⟩).mpr (Nat.zero_mod _)) (fun h => (fun h => by (try dsimp only at h); omega) ((last0_iff ⟨0, hn⟩).mp h)) (block0 V c 0 ⟨0, hn⟩) (block0 V c 1 ⟨0, hn⟩) (block0 V c 2 ⟨0, hn⟩) (block0 V c 3 ⟨0, hn⟩))
  | n + 1, hn =>
    if h0 : (n + 1) % 16 = 0 then
      (unread0, accFirst0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) ((first0_iff ⟨n + 1, hn⟩).mpr h0) (fun h => (fun h => by (try dsimp only at h); omega) ((last0_iff ⟨n + 1, hn⟩).mp h)) (block0 V c 0 ⟨n + 1, hn⟩) (block0 V c 1 ⟨n + 1, hn⟩) (block0 V c 2 ⟨n + 1, hn⟩) (block0 V c 3 ⟨n + 1, hn⟩))
    else
      if h1 : (n + 1) % 16 = 15 then
        (outLast0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) (fun h => h0 ((first0_iff ⟨n + 1, hn⟩).mp h)) ((last0_iff ⟨n + 1, hn⟩).mpr h1) (block0 V c 0 ⟨n + 1, hn⟩) (block0 V c 1 ⟨n + 1, hn⟩) (block0 V c 2 ⟨n + 1, hn⟩) (block0 V c 3 ⟨n + 1, hn⟩) (stateAt0 c n (Nat.lt_of_succ_lt hn)).2,
         accLast0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) (fun h => h0 ((first0_iff ⟨n + 1, hn⟩).mp h)) ((last0_iff ⟨n + 1, hn⟩).mpr h1) (block0 V c 0 ⟨n + 1, hn⟩) (block0 V c 1 ⟨n + 1, hn⟩) (block0 V c 2 ⟨n + 1, hn⟩) (block0 V c 3 ⟨n + 1, hn⟩) (stateAt0 c n (Nat.lt_of_succ_lt hn)).2)
      else
        (unread0, accMid0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) (fun h => h0 ((first0_iff ⟨n + 1, hn⟩).mp h)) (fun h => h1 ((last0_iff ⟨n + 1, hn⟩).mp h)) (block0 V c 0 ⟨n + 1, hn⟩) (block0 V c 1 ⟨n + 1, hn⟩) (block0 V c 2 ⟨n + 1, hn⟩) (block0 V c 3 ⟨n + 1, hn⟩) (stateAt0 c n (Nat.lt_of_succ_lt hn)).2)

theorem stateAt0_first (c : Dev nD) (t : Fin cfg0.N) (h0 : t.val % 16 = 0) (hl : ¬last0 (grid0.coords t)) :
    stateAt0 V c t.val t.isLt = (unread0, accFirst0 c (grid0.coords t) (mem0_0 t) (whole0_0 t) (mem0_1 t) (whole0_1 t) (mem0_2 t) (whole0_2 t) (mem0_3 t) (whole0_3 t) (mem0_4 t) (whole0_4 t) acc0 (Memref.isWhole_whole _) ((first0_iff t).mpr h0) hl (block0 V c 0 t) (block0 V c 1 t) (block0 V c 2 t) (block0 V c 3 t)) := by
  obtain ⟨n, hn⟩ := t
  cases n with
  | zero => exact rfl
  | succ n => exact (dif_pos h0).trans rfl

theorem stateAt0_mid (c : Dev nD) (t : Fin cfg0.N) (h0 : ¬t.val % 16 = 0) (h1 : ¬t.val % 16 = 15) :
    stateAt0 V c t.val t.isLt = (unread0, accMid0 c (grid0.coords t) (mem0_0 t) (whole0_0 t) (mem0_1 t) (whole0_1 t) (mem0_2 t) (whole0_2 t) (mem0_3 t) (whole0_3 t) (mem0_4 t) (whole0_4 t) acc0 (Memref.isWhole_whole _) (fun h => h0 ((first0_iff t).mp h)) (fun h => h1 ((last0_iff t).mp h)) (block0 V c 0 t) (block0 V c 1 t) (block0 V c 2 t) (block0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt0_last (c : Dev nD) (t : Fin cfg0.N) (h0 : ¬t.val % 16 = 0) (h1 : t.val % 16 = 15) :
    stateAt0 V c t.val t.isLt = (outLast0 c (grid0.coords t) (mem0_0 t) (whole0_0 t) (mem0_1 t) (whole0_1 t) (mem0_2 t) (whole0_2 t) (mem0_3 t) (whole0_3 t) (mem0_4 t) (whole0_4 t) acc0 (Memref.isWhole_whole _) (fun h => h0 ((first0_iff t).mp h)) ((last0_iff t).mpr h1) (block0 V c 0 t) (block0 V c 1 t) (block0 V c 2 t) (block0 V c 3 t) (stateAt0 V c (t.val - 1) (Nat.lt_of_le_of_lt (Nat.sub_le _ _) t.isLt)).2,
      accLast0 c (grid0.coords t) (mem0_0 t) (whole0_0 t) (mem0_1 t) (whole0_1 t) (mem0_2 t) (whole0_2 t) (mem0_3 t) (whole0_3 t) (mem0_4 t) (whole0_4 t) acc0 (Memref.isWhole_whole _) (fun h => h0 ((first0_iff t).mp h)) ((last0_iff t).mpr h1) (block0 V c 0 t) (block0 V c 1 t) (block0 V c 2 t) (block0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi0 (c : Dev nD) : (n : ℕ) → n ≤ cfg0.N → sProp 𝕄
  | 0, _ => Pipeline.ΦA spec0 c
  | n + 1, hn => iprop(iprop(iprop(owns (c : Thread nD τ) acc0 fullShare ((stateAt0 V c n hn).2)) ∗ Pipeline.scopedRestBut (Ix := Unit) (Name := ℕ) (U := UR sig nD τ) (Lvl := ℕ) (Val := Elt F) spec0 c [cc0_scratch0]) ∗ (∃ r, prngReg c r))

theorem phi0_zero (c : Dev nD) (n : ℕ) (h : n ≤ cfg0.N) (hz : n = 0) : phi0 V c n h = Pipeline.ΦA spec0 c := by
  subst hz; rfl
theorem phi0_succ (c : Dev nD) (n : ℕ) (hn : n < cfg0.N) :
    phi0 V c (n + 1) hn = iprop(iprop(iprop(owns (c : Thread nD τ) acc0 fullShare ((stateAt0 V c n hn).2)) ∗ Pipeline.scopedRestBut (Ix := Unit) (Name := ℕ) (U := UR sig nD τ) (Lvl := ℕ) (Val := Elt F) spec0 c [cc0_scratch0]) ∗ (∃ r, prngReg c r)) := rfl
theorem phi0_pos (c : Dev nD) (n : ℕ) (h : n ≤ cfg0.N) (hz : n ≠ 0) :
    phi0 V c n h = iprop(iprop(iprop(owns (c : Thread nD τ) acc0 fullShare ((stateAt0 V c (n - 1) (by omega)).2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each input's buffer at its block, the output's at
    `stateAt0`'s first component; the invariant `phi0`; nothing owed; full shares. -/
def dat0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => (stateAt0 V c t.val t.isLt).1
  Φ t := phi0 V c t.val (Nat.le_of_lt_succ t.isLt)
  q _ := fullShare
  owed _ := 0

theorem arr0_eq (c : Dev nD) (w : Fin cfg0.W) : (dat0 V c).A w = V c (Pipeline.arrRef spec0 w) := by
  dsimp only [dat0]

theorem phi0_castSucc (c : Dev nD) (t : Fin cfg0.N) :
    (dat0 V c).Φ t.castSucc = phi0 V c t.val (Nat.le_of_lt t.isLt) := by
  dsimp only [dat0]; simp only [Fin.coe_castSucc]

theorem after0_0 (c : Dev nD) (t : Fin cfg0.N) : (dat0 V c).after 0 t = block0 V c 0 t := by dsimp only [dat0]
theorem after0_1 (c : Dev nD) (t : Fin cfg0.N) : (dat0 V c).after 1 t = block0 V c 1 t := by dsimp only [dat0]
theorem after0_2 (c : Dev nD) (t : Fin cfg0.N) : (dat0 V c).after 2 t = block0 V c 2 t := by dsimp only [dat0]
theorem after0_3 (c : Dev nD) (t : Fin cfg0.N) : (dat0 V c).after 3 t = block0 V c 3 t := by dsimp only [dat0]
theorem after0_4 (c : Dev nD) (t : Fin cfg0.N) : (dat0 V c).after 4 t = (stateAt0 V c t.val t.isLt).1 := by dsimp only [dat0]

theorem found0_0 (c : Dev nD) (t : Fin cfg0.N) (d) : (dat0 V c).before 0 t d = block0 V c 0 t :=
  found0_0_of V (dat0 V c) (arr0_eq V c 0) (after0_0 V c) t d
theorem found0_1 (c : Dev nD) (t : Fin cfg0.N) (d) : (dat0 V c).before 1 t d = block0 V c 1 t :=
  found0_1_of V (dat0 V c) (arr0_eq V c 1) (after0_1 V c) t d
theorem found0_2 (c : Dev nD) (t : Fin cfg0.N) (d) : (dat0 V c).before 2 t d = block0 V c 2 t :=
  found0_2_of V (dat0 V c) (arr0_eq V c 2) (after0_2 V c) t d
theorem found0_3 (c : Dev nD) (t : Fin cfg0.N) (d) : (dat0 V c).before 3 t d = block0 V c 3 t :=
  found0_3_of V (dat0 V c) (arr0_eq V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (mem0_0 t) fullShare ((dat0 V c).before 0 t d))
    ∗ (∃ d, owns (c : Thread nD τ) (mem0_1 t) fullShare ((dat0 V c).before 1 t d))
    ∗ (∃ d, owns (c : Thread nD τ) (mem0_2 t) fullShare ((dat0 V c).before 2 t d))
    ∗ (∃ d, owns (c : Thread nD τ) (mem0_3 t) fullShare ((dat0 V c).before 3 t d))
    ∗ (∃ d, owns (c : Thread nD τ) (mem0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3]
  rw [show (dat0 V c).owesAt () t.succ = (dat0 V c).owesAt () t.castSucc from rfl]
  rw [show (dat0 V c).Φ t.succ = phi0 V c (t.val + 1) t.isLt from rfl, phi0_succ]
  have hN : t.val < 64 := lt_of_lt_of_eq t.isLt (show cfg0.N = 64 from N_0)
  rw [show (dat0 V c).leavesExact 0 t = owns (c : Thread nD τ) (mem0_0 t) fullShare ((dat0 V c).after 0 t) from by
    unfold Dat.leavesExact; rw [live0_0 t], after0_0]
  rw [show (dat0 V c).leavesExact 1 t = owns (c : Thread nD τ) (mem0_1 t) fullShare ((dat0 V c).after 1 t) from by
    unfold Dat.leavesExact; rw [live0_1 t], after0_1]
  rw [show (dat0 V c).leavesExact 2 t = owns (c : Thread nD τ) (mem0_2 t) fullShare ((dat0 V c).after 2 t) from by
    unfold Dat.leavesExact; rw [live0_2 t], after0_2]
  rw [show (dat0 V c).leavesExact 3 t = owns (c : Thread nD τ) (mem0_3 t) fullShare ((dat0 V c).after 3 t) from by
    unfold Dat.leavesExact; rw [live0_3 t], after0_3]
  by_cases h0 : t.val % 16 = 0
  · have hl : ¬last0 (grid0.coords t) := fun h => by have h' := (last0_iff t).mp h; omega
    rw [Dat.leavesExact_idle (dat0 V c) 4 t (idle0_out t hl) (noFlush0_out t hl)]
    rw [stateAt0_first V c t h0 hl]
    unfold accFirst0; (try dsimp only)
    by_cases hz : t.val = 0
    · rw [phi0_castSucc V c t, phi0_zero V c _ _ hz, phiA0_eq]
      iintro ⟨⟨⟨HS, Hrest⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) hl (block0 V c 0 t) (block0 V c 1 t) (block0 V c 2 t) (block0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi0_castSucc V c t, phi0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) hl (block0 V c 0 t) (block0 V c 1 t) (block0 V c 2 t) (block0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat0 V c).leavesExact 4 t = owns (c : Thread nD τ) (mem0_4 t) fullShare ((dat0 V c).after 4 t) from by
        unfold Dat.leavesExact; rw [live0_out t ((last0_iff t).mpr h1)], after0_4]
      rw [stateAt0_last V c t h0 h1]
      unfold outLast0 accLast0; (try dsimp only)
      rw [phi0_castSucc V c t, phi0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast0 c (grid0.coords t) _ _ _ _ _ _ _ _ _ _ _ _ (fun h => h0 ((first0_iff t).mp h)) ((last0_iff t).mpr h1) (block0 V c 0 t) (block0 V c 1 t) (block0 V c 2 t) (block0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast0_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast0_cover c _ _ _ _ _ _ _ _ _ _ _ _ _ _ _ _ _ _ _ _)
    · have hl : ¬last0 (grid0.coords t) := (fun h => h1 ((last0_iff t).mp h))
      rw [Dat.leavesExact_idle (dat0 V c) 4 t (idle0_out t hl) (noFlush0_out t hl)]
      rw [stateAt0_mid V c t h0 h1]
      unfold accMid0; (try dsimp only)
      rw [phi0_castSucc V c t, phi0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid0 c (grid0.coords t) _ _ _ _ _ _ _ _ _ _ _ _ (fun h => h0 ((first0_iff t).mp h)) hl (block0 V c 0 t) (block0 V c 1 t) (block0 V c 2 t) (block0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid0_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem enter0 (c : Dev nD) : Pipeline.ΦA spec0 c ⊢ (dat0 V c).Φ 0 := by
  rw [show (dat0 V c).Φ 0 = phi0 V c 0 (Nat.zero_le _) from rfl, phi0_zero V c 0 _ rfl]
  try exact Idealize.SL.BI.Entails.refl _

/-- After the last point the invariant gives the class invariant back: the accumulator's contents are forgotten. -/
theorem leave0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = phi0 V c (Fin.last cfg0.N).val (Nat.le_of_lt_succ (Fin.last cfg0.N).isLt) from rfl, phi0_pos V c _ _ hne, phiA0_eq]
  iintro ⟨⟨HS, Hrest⟩, Hg⟩
  isplitl [HS Hrest]
  · isplitl [HS]
    · iexists _; iexact HS
    iexact Hrest
  iexact Hg

end

end Cert.Kernel.Hand

end
-- ==== Proof.Bits.Reg1.Setup.lean ====
/-
  Region 1 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.Kernel.Launch
import proofs.«174668_j26645977104432_2_alg».proof.Proof.Gen.Kernel.Skeleton
import proofs.«174668_j26645977104432_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is found at its block at every point, fetched there or not: when it is not fetched its
    index has not moved since the last fetch, and the body leaves the buffer as it found it. -/
theorem found1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- Input window 1 is found at its block at every point, fetched there or not: when it is not fetched its
    index has not moved since the last fetch, and the body leaves the buffer as it found it. -/
theorem found1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-- Input window 2 is found at its block at every point, fetched there or not: when it is not fetched its
    index has not moved since the last fetch, and the body leaves the buffer as it found it. -/
theorem found1_2_of {c : Dev nD} (dat : Dat τ (Elt F) Unit ℕ (UR sig nD τ) ℕ cfg1 c) (hA : dat.A 2 = V c (Pipeline.arrRef spec1 2))
    (hafter : ∀ t, dat.after 2 t = block1 V c 2 t) (t : Fin cfg1.N) (d) : dat.before 2 t d = block1 V c 2 t :=
  (dat.before_in_eq_fetched 2 rfl (fun _ => rfl) (fun _ _ _ => rfl) (fun t => by rw [hafter]; unfold Dat.blockOf block1; rw [hA]; try rfl) t d).trans
    (by unfold Dat.fetched Dat.blockOf block1; rw [hA]; try rfl)

/-- Input window 3 is found at its block at every point, fetched there or not: when it is not fetched its
    index has not moved since the last fetch, and the body leaves the buffer as it found it. -/
theorem found1_3_of {c : Dev nD} (dat : Dat τ (Elt F) Unit ℕ (UR sig nD τ) ℕ cfg1 c) (hA : dat.A 3 = V c (Pipeline.arrRef spec1 3))
    (hafter : ∀ t, dat.after 3 t = block1 V c 3 t) (t : Fin cfg1.N) (d) : dat.before 3 t d = block1 V c 3 t :=
  (dat.before_in_eq_fetched 3 rfl (fun _ => rfl) (fun _ _ _ => rfl) (fun t => by rw [hafter]; unfold Dat.blockOf block1; rw [hA]; try rfl) t d).trans
    (by unfold Dat.fetched Dat.blockOf block1; rw [hA]; try rfl)

end

/-! ## The two branches of the body, over the grid -/

/-- The reduction index is 0: the accumulator is reset. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 16 = 0 :=
  (by decide +kernel : ∀ t : Fin grid1.N, first1 (grid1.coords t) ↔ t.val % 16 = 0)

/-- The reduction index is 15: the output block is written. -/
abbrev last1 (i : grid1.Coords) : Prop := k1_cond2 i = 1#1
theorem last1_iff : ∀ t : Fin cfg1.N, last1 (grid1.coords t) ↔ t.val % 16 = 15 :=
  (by decide +kernel : ∀ t : Fin grid1.N, last1 (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last reduction step the output window is idle and is not written back. -/
theorem idle1_out : ∀ t : Fin cfg1.N, ¬last1 (grid1.coords t) → cfg1.idle 4 (grid1.coords t) = true := by decide +kernel
theorem noFlush1_out : ∀ t : Fin cfg1.N, ¬last1 (grid1.coords t) → (cfg1.win 4).flush t = false := by decide +kernel
/-- At the last reduction step it is live. -/
theorem live1_out : ∀ t : Fin cfg1.N, last1 (grid1.coords t) → cfg1.idle 4 (grid1.coords t) = false := by decide +kernel

/-! ## The memrefs the body is called with -/

abbrev mem1_0 (t : Fin cfg1.N) : Memref sig .tc .vmem S2048x512 .f32 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S8192x200 .f32 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S200x200 .f32 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S1x200 .f32 := win1_3.stage (cfg1.slots t 3)
abbrev whole1_3 (t : Fin cfg1.N) : (mem1_3 t).IsWhole := hstage1_3 ((cfg1.slots t 3).cast nbuf1_3)
abbrev mem1_4 (t : Fin cfg1.N) : Memref sig .tc .vmem S2048x200 .f32 := win1_4.stage (cfg1.slots t 4)
abbrev whole1_4 (t : Fin cfg1.N) : (mem1_4 t).IsWhole := hstage1_4 ((cfg1.slots t 4).cast nbuf1_4)
/-- The accumulator: a whole scoped buffer of the kernel's own. -/
abbrev acc1 : Memref sig .tc .vmem S2048x200 .f32 := Memref.whole cc1_scratch0
abbrev accView1 : View sig .tc .vmem S2048x200 .f32 := acc1.view
/-- One staging buffer of the output window, through which its contents are stated. -/
abbrev outView1 : View sig .tc .vmem S2048x200 .f32 := (Memref.whole cc1_stg4_0 : Memref sig .tc .vmem S2048x200 .f32).view

/-- The region's class invariant with the accumulator taken out of the scoped rest. -/
theorem phiA1_eq (c : Dev nD) :
    (Pipeline.ΦA spec1 c : sProp 𝕄)
      = iprop(iprop(iprop((∃ d, owns (c : Thread nD τ) acc1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [acc1, owns_whole]; try rfl

end Cert.Kernel.Hand

end
-- ==== Proof.Bits.Reg1.CaseFirst.lean ====
/-
  Region 1, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Bits.Reg1.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first1 i) (hc1 : ¬last1 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc1__matmul_relu_bias_kernel i a2 h2 a3 h3 a4 h4 a5 h5 a6 h6 a7 h7) K } := by
  refine ⟨?_, fun xo E K => ?run⟩
  case run =>
    simp only [cc1__matmul_relu_bias_kernel_eq_skeleton]; unfold cc1__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg1.CaseMid.lean ====
/-
  Region 1, a middle reduction step (reduction index 1 … 14): the body adds the step's partial product
  into the accumulator the step before left, and leaves the output window untouched.
-/
import proofs.«174668_j26645977104432_2_alg».proof.Proof.Bits.Reg1.CaseFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first1 i) (hc1 : ¬last1 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc1__matmul_relu_bias_kernel i a2 h2 a3 h3 a4 h4 a5 h5 a6 h6 a7 h7) K } := by
  refine ⟨?_, fun xo E K => ?run⟩
  case run =>
    simp only [cc1__matmul_relu_bias_kernel_eq_skeleton]; unfold cc1__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg1.CaseLast.lean ====
/-
  Region 1, the last reduction step (reduction index 15): the body adds the step's partial product into the
  accumulator, then writes `max (accumulator + bias) 0` into the output window's buffer.
-/
import proofs.«174668_j26645977104432_2_alg».proof.Proof.Bits.Reg1.CaseMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first1 i) (hc1 : last1 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc1__matmul_relu_bias_kernel i a2 h2 a3 h3 a4 h4 a5 h5 a6 h6 a7 h7) K } := by
  refine ⟨?_, ?_, fun E K => ?run⟩
  case run =>
    simp only [cc1__matmul_relu_bias_kernel_eq_skeleton]; unfold cc1__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.Kernel.Hand

end
-- ==== Proof.Bits.Reg1.Data.lean ====
/-
  Region 1: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt1`): each point's contents are
  the stores its case's run found, read back, over the accumulator the point before left.
-/
import proofs.«174668_j26645977104432_2_alg».proof.Proof.Bits.Reg1.CaseLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread1 : Vec F S2048x200 .f32 := outView1.read (Elt F) outView1.junk

/-! ## What each case leaves -/

/-- The accumulator after a point with reduction index 0. -/
def accFirst1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first1 i) (hc1 : ¬last1 i) (x0 : Vec F S2048x512 .f32) (x1 : Vec F S8192x200 .f32) (x2 : Vec F S200x200 .f32) (x3 : Vec F S1x200 .f32) : Vec F S2048x200 .f32 :=
  accView1.read (Elt F) (accView1.writes (Elt F) accView1.junk (runFirst1 c i a2 h2 a3 h3 a4 h4 a5 h5 a6 h6 a7 h7 hc0 hc1 x0 x1 x2 x3).1)
/-- Its stores tile the accumulator, so they cover it. -/
theorem accFirst1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first1 i) (hc1 : ¬last1 i) (x0 : Vec F S2048x512 .f32) (x1 : Vec F S8192x200 .f32) (x2 : Vec F S200x200 .f32) (x3 : Vec F S1x200 .f32) (y : S2048x200.Idx) :
    ∃ pc ∈ (runFirst1 c i a2 h2 a3 h3 a4 h4 a5 h5 a6 h6 a7 h7 hc0 hc1 x0 x1 x2 x3).1, y ∈ pc.1.set :=
  View.cover_of_tiledL (runFirst1 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : ¬last1 i) (x0 : Vec F S2048x512 .f32) (x1 : Vec F S8192x200 .f32) (x2 : Vec F S200x200 .f32) (x3 : Vec F S1x200 .f32) (xs : Vec F S2048x200 .f32) : Vec F S2048x200 .f32 :=
  accView1.read (Elt F) (accView1.writes (Elt F) accView1.junk (runMid1 c i a2 h2 a3 h3 a4 h4 a5 h5 a6 h6 a7 h7 hc0 hc1 x0 x1 x2 x3 xs).1)
theorem accMid1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : ¬last1 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid1 c i a2 h2 a3 h3 a4 h4 a5 h5 a6 h6 a7 h7 hc0 hc1 x0 x1 x2 x3 xs).1, y ∈ pc.1.set :=
  View.cover_of_tiledL (runMid1 c i a2 h2 a3 h3 a4 h4 a5 h5 a6 h6 a7 h7 hc0 hc1 x0 x1 x2 x3 xs).1 S2048x200.size (by sl_kernel_rfl) y

/-- The accumulator after a point with reduction index 15. -/
def accLast1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) : Vec F S2048x200 .f32 :=
  accView1.read (Elt F) (accView1.writes (Elt F) accView1.junk (runLast1 c i a2 h2 a3 h3 a4 h4 a5 h5 a6 h6 a7 h7 hc0 hc1 x0 x1 x2 x3 xs).2.1)
theorem accLast1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast1 c i a2 h2 a3 h3 a4 h4 a5 h5 a6 h6 a7 h7 hc0 hc1 x0 x1 x2 x3 xs).2.1, y ∈ pc.1.set :=
  View.cover_of_tiledL (runLast1 c i a2 h2 a3 h3 a4 h4 a5 h5 a6 h6 a7 h7 hc0 hc1 x0 x1 x2 x3 xs).2.1 S2048x200.size (by sl_kernel_rfl) y
/-- The output window's buffer after a point with reduction index 15. -/
def outLast1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) : Vec F S2048x200 .f32 :=
  outView1.read (Elt F) (outView1.writes (Elt F) outView1.junk (runLast1 c i a2 h2 a3 h3 a4 h4 a5 h5 a6 h6 a7 h7 hc0 hc1 x0 x1 x2 x3 xs).1)
theorem outLast1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast1 c i a2 h2 a3 h3 a4 h4 a5 h5 a6 h6 a7 h7 hc0 hc1 x0 x1 x2 x3 xs).1, y ∈ pc.1.set :=
  View.cover_of_tiledL (runLast1 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt1 (c : Dev nD) : (n : ℕ) → n < cfg1.N → Vec F S2048x200 .f32 × Vec F S2048x200 .f32
  | 0, hn => (unread1, accFirst1 c (grid1.coords ⟨0, hn⟩) (mem1_0 ⟨0, hn⟩) (whole1_0 ⟨0, hn⟩) (mem1_1 ⟨0, hn⟩) (whole1_1 ⟨0, hn⟩) (mem1_2 ⟨0, hn⟩) (whole1_2 ⟨0, hn⟩) (mem1_3 ⟨0, hn⟩) (whole1_3 ⟨0, hn⟩) (mem1_4 ⟨0, hn⟩) (whole1_4 ⟨0, hn⟩) acc1 (Memref.isWhole_whole _) ((first1_iff ⟨0, hn⟩).mpr (Nat.zero_mod _)) (fun h => (fun h => by (try dsimp only at h); omega) ((last1_iff ⟨0, hn⟩).mp h)) (block1 V c 0 ⟨0, hn⟩) (block1 V c 1 ⟨0, hn⟩) (block1 V c 2 ⟨0, hn⟩) (block1 V c 3 ⟨0, hn⟩))
  | n + 1, hn =>
    if h0 : (n + 1) % 16 = 0 then
      (unread1, accFirst1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) ((first1_iff ⟨n + 1, hn⟩).mpr h0) (fun h => (fun h => by (try dsimp only at h); omega) ((last1_iff ⟨n + 1, hn⟩).mp h)) (block1 V c 0 ⟨n + 1, hn⟩) (block1 V c 1 ⟨n + 1, hn⟩) (block1 V c 2 ⟨n + 1, hn⟩) (block1 V c 3 ⟨n + 1, hn⟩))
    else
      if h1 : (n + 1) % 16 = 15 then
        (outLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) (fun h => h0 ((first1_iff ⟨n + 1, hn⟩).mp h)) ((last1_iff ⟨n + 1, hn⟩).mpr h1) (block1 V c 0 ⟨n + 1, hn⟩) (block1 V c 1 ⟨n + 1, hn⟩) (block1 V c 2 ⟨n + 1, hn⟩) (block1 V c 3 ⟨n + 1, hn⟩) (stateAt1 c n (Nat.lt_of_succ_lt hn)).2,
         accLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) (fun h => h0 ((first1_iff ⟨n + 1, hn⟩).mp h)) ((last1_iff ⟨n + 1, hn⟩).mpr h1) (block1 V c 0 ⟨n + 1, hn⟩) (block1 V c 1 ⟨n + 1, hn⟩) (block1 V c 2 ⟨n + 1, hn⟩) (block1 V c 3 ⟨n + 1, hn⟩) (stateAt1 c n (Nat.lt_of_succ_lt hn)).2)
      else
        (unread1, accMid1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) (fun h => h0 ((first1_iff ⟨n + 1, hn⟩).mp h)) (fun h => h1 ((last1_iff ⟨n + 1, hn⟩).mp h)) (block1 V c 0 ⟨n + 1, hn⟩) (block1 V c 1 ⟨n + 1, hn⟩) (block1 V c 2 ⟨n + 1, hn⟩) (block1 V c 3 ⟨n + 1, hn⟩) (stateAt1 c n (Nat.lt_of_succ_lt hn)).2)

theorem stateAt1_first (c : Dev nD) (t : Fin cfg1.N) (h0 : t.val % 16 = 0) (hl : ¬last1 (grid1.coords t)) :
    stateAt1 V c t.val t.isLt = (unread1, accFirst1 c (grid1.coords t) (mem1_0 t) (whole1_0 t) (mem1_1 t) (whole1_1 t) (mem1_2 t) (whole1_2 t) (mem1_3 t) (whole1_3 t) (mem1_4 t) (whole1_4 t) acc1 (Memref.isWhole_whole _) ((first1_iff t).mpr h0) hl (block1 V c 0 t) (block1 V c 1 t) (block1 V c 2 t) (block1 V c 3 t)) := by
  obtain ⟨n, hn⟩ := t
  cases n with
  | zero => exact rfl
  | succ n => exact (dif_pos h0).trans rfl

theorem stateAt1_mid (c : Dev nD) (t : Fin cfg1.N) (h0 : ¬t.val % 16 = 0) (h1 : ¬t.val % 16 = 15) :
    stateAt1 V c t.val t.isLt = (unread1, accMid1 c (grid1.coords t) (mem1_0 t) (whole1_0 t) (mem1_1 t) (whole1_1 t) (mem1_2 t) (whole1_2 t) (mem1_3 t) (whole1_3 t) (mem1_4 t) (whole1_4 t) acc1 (Memref.isWhole_whole _) (fun h => h0 ((first1_iff t).mp h)) (fun h => h1 ((last1_iff t).mp h)) (block1 V c 0 t) (block1 V c 1 t) (block1 V c 2 t) (block1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt1_last (c : Dev nD) (t : Fin cfg1.N) (h0 : ¬t.val % 16 = 0) (h1 : t.val % 16 = 15) :
    stateAt1 V c t.val t.isLt = (outLast1 c (grid1.coords t) (mem1_0 t) (whole1_0 t) (mem1_1 t) (whole1_1 t) (mem1_2 t) (whole1_2 t) (mem1_3 t) (whole1_3 t) (mem1_4 t) (whole1_4 t) acc1 (Memref.isWhole_whole _) (fun h => h0 ((first1_iff t).mp h)) ((last1_iff t).mpr h1) (block1 V c 0 t) (block1 V c 1 t) (block1 V c 2 t) (block1 V c 3 t) (stateAt1 V c (t.val - 1) (Nat.lt_of_le_of_lt (Nat.sub_le _ _) t.isLt)).2,
      accLast1 c (grid1.coords t) (mem1_0 t) (whole1_0 t) (mem1_1 t) (whole1_1 t) (mem1_2 t) (whole1_2 t) (mem1_3 t) (whole1_3 t) (mem1_4 t) (whole1_4 t) acc1 (Memref.isWhole_whole _) (fun h => h0 ((first1_iff t).mp h)) ((last1_iff t).mpr h1) (block1 V c 0 t) (block1 V c 1 t) (block1 V c 2 t) (block1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi1 (c : Dev nD) : (n : ℕ) → n ≤ cfg1.N → sProp 𝕄
  | 0, _ => Pipeline.ΦA spec1 c
  | n + 1, hn => iprop(iprop(iprop(owns (c : Thread nD τ) acc1 fullShare ((stateAt1 V c n hn).2)) ∗ Pipeline.scopedRestBut (Ix := Unit) (Name := ℕ) (U := UR sig nD τ) (Lvl := ℕ) (Val := Elt F) spec1 c [cc1_scratch0]) ∗ (∃ r, prngReg c r))

theorem phi1_zero (c : Dev nD) (n : ℕ) (h : n ≤ cfg1.N) (hz : n = 0) : phi1 V c n h = Pipeline.ΦA spec1 c := by
  subst hz; rfl
theorem phi1_succ (c : Dev nD) (n : ℕ) (hn : n < cfg1.N) :
    phi1 V c (n + 1) hn = iprop(iprop(iprop(owns (c : Thread nD τ) acc1 fullShare ((stateAt1 V c n hn).2)) ∗ Pipeline.scopedRestBut (Ix := Unit) (Name := ℕ) (U := UR sig nD τ) (Lvl := ℕ) (Val := Elt F) spec1 c [cc1_scratch0]) ∗ (∃ r, prngReg c r)) := rfl
theorem phi1_pos (c : Dev nD) (n : ℕ) (h : n ≤ cfg1.N) (hz : n ≠ 0) :
    phi1 V c n h = iprop(iprop(iprop(owns (c : Thread nD τ) acc1 fullShare ((stateAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at
    `stateAt1`'s first component; the invariant `phi1`; nothing owed; full shares. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => block1 V c 3 t
    | ⟨4, _⟩ => (stateAt1 V c t.val t.isLt).1
  Φ t := phi1 V c t.val (Nat.le_of_lt_succ t.isLt)
  q _ := fullShare
  owed _ := 0

theorem arr1_eq (c : Dev nD) (w : Fin cfg1.W) : (dat1 V c).A w = V c (Pipeline.arrRef spec1 w) := by
  dsimp only [dat1]

theorem phi1_castSucc (c : Dev nD) (t : Fin cfg1.N) :
    (dat1 V c).Φ t.castSucc = phi1 V c t.val (Nat.le_of_lt t.isLt) := by
  dsimp only [dat1]; simp only [Fin.coe_castSucc]

theorem after1_0 (c : Dev nD) (t : Fin cfg1.N) : (dat1 V c).after 0 t = block1 V c 0 t := by dsimp only [dat1]
theorem after1_1 (c : Dev nD) (t : Fin cfg1.N) : (dat1 V c).after 1 t = block1 V c 1 t := by dsimp only [dat1]
theorem after1_2 (c : Dev nD) (t : Fin cfg1.N) : (dat1 V c).after 2 t = block1 V c 2 t := by dsimp only [dat1]
theorem after1_3 (c : Dev nD) (t : Fin cfg1.N) : (dat1 V c).after 3 t = block1 V c 3 t := by dsimp only [dat1]
theorem after1_4 (c : Dev nD) (t : Fin cfg1.N) : (dat1 V c).after 4 t = (stateAt1 V c t.val t.isLt).1 := by dsimp only [dat1]

theorem found1_0 (c : Dev nD) (t : Fin cfg1.N) (d) : (dat1 V c).before 0 t d = block1 V c 0 t :=
  found1_0_of V (dat1 V c) (arr1_eq V c 0) (after1_0 V c) t d
theorem found1_1 (c : Dev nD) (t : Fin cfg1.N) (d) : (dat1 V c).before 1 t d = block1 V c 1 t :=
  found1_1_of V (dat1 V c) (arr1_eq V c 1) (after1_1 V c) t d
theorem found1_2 (c : Dev nD) (t : Fin cfg1.N) (d) : (dat1 V c).before 2 t d = block1 V c 2 t :=
  found1_2_of V (dat1 V c) (arr1_eq V c 2) (after1_2 V c) t d
theorem found1_3 (c : Dev nD) (t : Fin cfg1.N) (d) : (dat1 V c).before 3 t d = block1 V c 3 t :=
  found1_3_of V (dat1 V c) (arr1_eq V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (mem1_0 t) fullShare ((dat1 V c).before 0 t d))
    ∗ (∃ d, owns (c : Thread nD τ) (mem1_1 t) fullShare ((dat1 V c).before 1 t d))
    ∗ (∃ d, owns (c : Thread nD τ) (mem1_2 t) fullShare ((dat1 V c).before 2 t d))
    ∗ (∃ d, owns (c : Thread nD τ) (mem1_3 t) fullShare ((dat1 V c).before 3 t d))
    ∗ (∃ d, owns (c : Thread nD τ) (mem1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3]
  rw [show (dat1 V c).owesAt () t.succ = (dat1 V c).owesAt () t.castSucc from rfl]
  rw [show (dat1 V c).Φ t.succ = phi1 V c (t.val + 1) t.isLt from rfl, phi1_succ]
  have hN : t.val < 64 := lt_of_lt_of_eq t.isLt (show cfg1.N = 64 from N_1)
  rw [show (dat1 V c).leavesExact 0 t = owns (c : Thread nD τ) (mem1_0 t) fullShare ((dat1 V c).after 0 t) from by
    unfold Dat.leavesExact; rw [live1_0 t], after1_0]
  rw [show (dat1 V c).leavesExact 1 t = owns (c : Thread nD τ) (mem1_1 t) fullShare ((dat1 V c).after 1 t) from by
    unfold Dat.leavesExact; rw [live1_1 t], after1_1]
  rw [show (dat1 V c).leavesExact 2 t = owns (c : Thread nD τ) (mem1_2 t) fullShare ((dat1 V c).after 2 t) from by
    unfold Dat.leavesExact; rw [live1_2 t], after1_2]
  rw [show (dat1 V c).leavesExact 3 t = owns (c : Thread nD τ) (mem1_3 t) fullShare ((dat1 V c).after 3 t) from by
    unfold Dat.leavesExact; rw [live1_3 t], after1_3]
  by_cases h0 : t.val % 16 = 0
  · have hl : ¬last1 (grid1.coords t) := fun h => by have h' := (last1_iff t).mp h; omega
    rw [Dat.leavesExact_idle (dat1 V c) 4 t (idle1_out t hl) (noFlush1_out t hl)]
    rw [stateAt1_first V c t h0 hl]
    unfold accFirst1; (try dsimp only)
    by_cases hz : t.val = 0
    · rw [phi1_castSucc V c t, phi1_zero V c _ _ hz, phiA1_eq]
      iintro ⟨⟨⟨HS, Hrest⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) hl (block1 V c 0 t) (block1 V c 1 t) (block1 V c 2 t) (block1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi1_castSucc V c t, phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) hl (block1 V c 0 t) (block1 V c 1 t) (block1 V c 2 t) (block1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (mem1_4 t) fullShare ((dat1 V c).after 4 t) from by
        unfold Dat.leavesExact; rw [live1_out t ((last1_iff t).mpr h1)], after1_4]
      rw [stateAt1_last V c t h0 h1]
      unfold outLast1 accLast1; (try dsimp only)
      rw [phi1_castSucc V c t, phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ (fun h => h0 ((first1_iff t).mp h)) ((last1_iff t).mpr h1) (block1 V c 0 t) (block1 V c 1 t) (block1 V c 2 t) (block1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast1_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c _ _ _ _ _ _ _ _ _ _ _ _ _ _ _ _ _ _ _ _)
    · have hl : ¬last1 (grid1.coords t) := (fun h => h1 ((last1_iff t).mp h))
      rw [Dat.leavesExact_idle (dat1 V c) 4 t (idle1_out t hl) (noFlush1_out t hl)]
      rw [stateAt1_mid V c t h0 h1]
      unfold accMid1; (try dsimp only)
      rw [phi1_castSucc V c t, phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ (fun h => h0 ((first1_iff t).mp h)) hl (block1 V c 0 t) (block1 V c 1 t) (block1 V c 2 t) (block1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid1_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem enter1 (c : Dev nD) : Pipeline.ΦA spec1 c ⊢ (dat1 V c).Φ 0 := by
  rw [show (dat1 V c).Φ 0 = phi1 V c 0 (Nat.zero_le _) from rfl, phi1_zero V c 0 _ rfl]
  try exact Idealize.SL.BI.Entails.refl _

/-- After the last point the invariant gives the class invariant back: the accumulator's contents are forgotten. -/
theorem leave1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = phi1 V c (Fin.last cfg1.N).val (Nat.le_of_lt_succ (Fin.last cfg1.N).isLt) from rfl, phi1_pos V c _ _ hne, phiA1_eq]
  iintro ⟨⟨HS, Hrest⟩, Hg⟩
  isplitl [HS Hrest]
  · isplitl [HS]
    · iexists _; iexact HS
    iexact Hrest
  iexact Hg

end

end Cert.Kernel.Hand

end
-- ==== Proof.Bits.Reg2.Setup.lean ====
/-
  Region 2 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.Kernel.Launch
import proofs.«174668_j26645977104432_2_alg».proof.Proof.Gen.Kernel.Skeleton
import proofs.«174668_j26645977104432_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 is found at its block at every point, fetched there or not: when it is not fetched its
    index has not moved since the last fetch, and the body leaves the buffer as it found it. -/
theorem found2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- Input window 1 is found at its block at every point, fetched there or not: when it is not fetched its
    index has not moved since the last fetch, and the body leaves the buffer as it found it. -/
theorem found2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-- Input window 2 is found at its block at every point, fetched there or not: when it is not fetched its
    index has not moved since the last fetch, and the body leaves the buffer as it found it. -/
theorem found2_2_of {c : Dev nD} (dat : Dat τ (Elt F) Unit ℕ (UR sig nD τ) ℕ cfg2 c) (hA : dat.A 2 = V c (Pipeline.arrRef spec2 2))
    (hafter : ∀ t, dat.after 2 t = block2 V c 2 t) (t : Fin cfg2.N) (d) : dat.before 2 t d = block2 V c 2 t :=
  (dat.before_in_eq_fetched 2 rfl (fun _ => rfl) (fun _ _ _ => rfl) (fun t => by rw [hafter]; unfold Dat.blockOf block2; rw [hA]; try rfl) t d).trans
    (by unfold Dat.fetched Dat.blockOf block2; rw [hA]; try rfl)

/-- Input window 3 is found at its block at every point, fetched there or not: when it is not fetched its
    index has not moved since the last fetch, and the body leaves the buffer as it found it. -/
theorem found2_3_of {c : Dev nD} (dat : Dat τ (Elt F) Unit ℕ (UR sig nD τ) ℕ cfg2 c) (hA : dat.A 3 = V c (Pipeline.arrRef spec2 3))
    (hafter : ∀ t, dat.after 3 t = block2 V c 3 t) (t : Fin cfg2.N) (d) : dat.before 3 t d = block2 V c 3 t :=
  (dat.before_in_eq_fetched 3 rfl (fun _ => rfl) (fun _ _ _ => rfl) (fun t => by rw [hafter]; unfold Dat.blockOf block2; rw [hA]; try rfl) t d).trans
    (by unfold Dat.fetched Dat.blockOf block2; rw [hA]; try rfl)

end

/-! ## The two branches of the body, over the grid -/

/-- The reduction index is 0: the accumulator is reset. -/
abbrev first2 (i : grid2.Coords) : Prop := (Scalar.cmpi .ne (Scalar.extui (Scalar.cmpi .eq (BitVec.ofNat 32 (i 1).val) 0#32)) 0#32) = 1#1
theorem first2_iff : ∀ t : Fin cfg2.N, first2 (grid2.coords t) ↔ t.val % 16 = 0 :=
  (by decide +kernel : ∀ t : Fin grid2.N, first2 (grid2.coords t) ↔ t.val % 16 = 0)

/-- The reduction index is 15: the output block is written. -/
abbrev last2 (i : grid2.Coords) : Prop := k2_cond2 i = 1#1
theorem last2_iff : ∀ t : Fin cfg2.N, last2 (grid2.coords t) ↔ t.val % 16 = 15 :=
  (by decide +kernel : ∀ t : Fin grid2.N, last2 (grid2.coords t) ↔ t.val % 16 = 15)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last reduction step the output window is idle and is not written back. -/
theorem idle2_out : ∀ t : Fin cfg2.N, ¬last2 (grid2.coords t) → cfg2.idle 4 (grid2.coords t) = true := by decide +kernel
theorem noFlush2_out : ∀ t : Fin cfg2.N, ¬last2 (grid2.coords t) → (cfg2.win 4).flush t = false := by decide +kernel
/-- At the last reduction step it is live. -/
theorem live2_out : ∀ t : Fin cfg2.N, last2 (grid2.coords t) → cfg2.idle 4 (grid2.coords t) = false := by decide +kernel

/-! ## The memrefs the body is called with -/

abbrev mem2_0 (t : Fin cfg2.N) : Memref sig .tc .vmem S2048x512 .f32 := win2_0.stage (cfg2.slots t 0)
abbrev whole2_0 (t : Fin cfg2.N) : (mem2_0 t).IsWhole := hstage2_0 ((cfg2.slots t 0).cast nbuf2_0)
abbrev mem2_1 (t : Fin cfg2.N) : Memref sig .tc .vmem S8192x200 .f32 := win2_1.stage (cfg2.slots t 1)
abbrev whole2_1 (t : Fin cfg2.N) : (mem2_1 t).IsWhole := hstage2_1 ((cfg2.slots t 1).cast nbuf2_1)
abbrev mem2_2 (t : Fin cfg2.N) : Memref sig .tc .vmem S200x200 .f32 := win2_2.stage (cfg2.slots t 2)
abbrev whole2_2 (t : Fin cfg2.N) : (mem2_2 t).IsWhole := hstage2_2 ((cfg2.slots t 2).cast nbuf2_2)
abbrev mem2_3 (t : Fin cfg2.N) : Memref sig .tc .vmem S1x200 .f32 := win2_3.stage (cfg2.slots t 3)
abbrev whole2_3 (t : Fin cfg2.N) : (mem2_3 t).IsWhole := hstage2_3 ((cfg2.slots t 3).cast nbuf2_3)
abbrev mem2_4 (t : Fin cfg2.N) : Memref sig .tc .vmem S2048x200 .f32 := win2_4.stage (cfg2.slots t 4)
abbrev whole2_4 (t : Fin cfg2.N) : (mem2_4 t).IsWhole := hstage2_4 ((cfg2.slots t 4).cast nbuf2_4)
/-- The accumulator: a whole scoped buffer of the kernel's own. -/
abbrev acc2 : Memref sig .tc .vmem S2048x200 .f32 := Memref.whole cc2_scratch0
abbrev accView2 : View sig .tc .vmem S2048x200 .f32 := acc2.view
/-- One staging buffer of the output window, through which its contents are stated. -/
abbrev outView2 : View sig .tc .vmem S2048x200 .f32 := (Memref.whole cc2_stg4_0 : Memref sig .tc .vmem S2048x200 .f32).view

/-- The region's class invariant with the accumulator taken out of the scoped rest. -/
theorem phiA2_eq (c : Dev nD) :
    (Pipeline.ΦA spec2 c : sProp 𝕄)
      = iprop(iprop(iprop((∃ d, owns (c : Thread nD τ) acc2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2, owns_whole]; try rfl

end Cert.Kernel.Hand

end
-- ==== Proof.Bits.Reg2.CaseFirst.lean ====
/-
  Region 2, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Bits.Reg2.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first2 i) (hc1 : ¬last2 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc2__matmul_relu_bias_kernel i a2 h2 a3 h3 a4 h4 a5 h5 a6 h6 a7 h7) K } := by
  refine ⟨?_, fun xo E K => ?run⟩
  case run =>
    simp only [cc2__matmul_relu_bias_kernel_eq_skeleton]; unfold cc2__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg2.CaseMid.lean ====
/-
  Region 2, a middle reduction step (reduction index 1 … 14): the body adds the step's partial product
  into the accumulator the step before left, and leaves the output window untouched.
-/
import proofs.«174668_j26645977104432_2_alg».proof.Proof.Bits.Reg2.CaseFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first2 i) (hc1 : ¬last2 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc2__matmul_relu_bias_kernel i a2 h2 a3 h3 a4 h4 a5 h5 a6 h6 a7 h7) K } := by
  refine ⟨?_, fun xo E K => ?run⟩
  case run =>
    simp only [cc2__matmul_relu_bias_kernel_eq_skeleton]; unfold cc2__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg2.CaseLast.lean ====
/-
  Region 2, the last reduction step (reduction index 15): the body adds the step's partial product into the
  accumulator, then writes `max (accumulator + bias) 0` into the output window's buffer.
-/
import proofs.«174668_j26645977104432_2_alg».proof.Proof.Bits.Reg2.CaseMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first2 i) (hc1 : last2 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc2__matmul_relu_bias_kernel i a2 h2 a3 h3 a4 h4 a5 h5 a6 h6 a7 h7) K } := by
  refine ⟨?_, ?_, fun E K => ?run⟩
  case run =>
    simp only [cc2__matmul_relu_bias_kernel_eq_skeleton]; unfold cc2__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.Kernel.Hand

end
-- ==== Proof.Bits.Reg2.Data.lean ====
/-
  Region 2: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt2`): each point's contents are
  the stores its case's run found, read back, over the accumulator the point before left.
-/
import proofs.«174668_j26645977104432_2_alg».proof.Proof.Bits.Reg2.CaseLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread2 : Vec F S2048x200 .f32 := outView2.read (Elt F) outView2.junk

/-! ## What each case leaves -/

/-- The accumulator after a point with reduction index 0. -/
def accFirst2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first2 i) (hc1 : ¬last2 i) (x0 : Vec F S2048x512 .f32) (x1 : Vec F S8192x200 .f32) (x2 : Vec F S200x200 .f32) (x3 : Vec F S1x200 .f32) : Vec F S2048x200 .f32 :=
  accView2.read (Elt F) (accView2.writes (Elt F) accView2.junk (runFirst2 c i a2 h2 a3 h3 a4 h4 a5 h5 a6 h6 a7 h7 hc0 hc1 x0 x1 x2 x3).1)
/-- Its stores tile the accumulator, so they cover it. -/
theorem accFirst2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first2 i) (hc1 : ¬last2 i) (x0 : Vec F S2048x512 .f32) (x1 : Vec F S8192x200 .f32) (x2 : Vec F S200x200 .f32) (x3 : Vec F S1x200 .f32) (y : S2048x200.Idx) :
    ∃ pc ∈ (runFirst2 c i a2 h2 a3 h3 a4 h4 a5 h5 a6 h6 a7 h7 hc0 hc1 x0 x1 x2 x3).1, y ∈ pc.1.set :=
  View.cover_of_tiledL (runFirst2 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : ¬last2 i) (x0 : Vec F S2048x512 .f32) (x1 : Vec F S8192x200 .f32) (x2 : Vec F S200x200 .f32) (x3 : Vec F S1x200 .f32) (xs : Vec F S2048x200 .f32) : Vec F S2048x200 .f32 :=
  accView2.read (Elt F) (accView2.writes (Elt F) accView2.junk (runMid2 c i a2 h2 a3 h3 a4 h4 a5 h5 a6 h6 a7 h7 hc0 hc1 x0 x1 x2 x3 xs).1)
theorem accMid2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : ¬last2 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid2 c i a2 h2 a3 h3 a4 h4 a5 h5 a6 h6 a7 h7 hc0 hc1 x0 x1 x2 x3 xs).1, y ∈ pc.1.set :=
  View.cover_of_tiledL (runMid2 c i a2 h2 a3 h3 a4 h4 a5 h5 a6 h6 a7 h7 hc0 hc1 x0 x1 x2 x3 xs).1 S2048x200.size (by sl_kernel_rfl) y

/-- The accumulator after a point with reduction index 15. -/
def accLast2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) : Vec F S2048x200 .f32 :=
  accView2.read (Elt F) (accView2.writes (Elt F) accView2.junk (runLast2 c i a2 h2 a3 h3 a4 h4 a5 h5 a6 h6 a7 h7 hc0 hc1 x0 x1 x2 x3 xs).2.1)
theorem accLast2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast2 c i a2 h2 a3 h3 a4 h4 a5 h5 a6 h6 a7 h7 hc0 hc1 x0 x1 x2 x3 xs).2.1, y ∈ pc.1.set :=
  View.cover_of_tiledL (runLast2 c i a2 h2 a3 h3 a4 h4 a5 h5 a6 h6 a7 h7 hc0 hc1 x0 x1 x2 x3 xs).2.1 S2048x200.size (by sl_kernel_rfl) y
/-- The output window's buffer after a point with reduction index 15. -/
def outLast2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) : Vec F S2048x200 .f32 :=
  outView2.read (Elt F) (outView2.writes (Elt F) outView2.junk (runLast2 c i a2 h2 a3 h3 a4 h4 a5 h5 a6 h6 a7 h7 hc0 hc1 x0 x1 x2 x3 xs).1)
theorem outLast2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast2 c i a2 h2 a3 h3 a4 h4 a5 h5 a6 h6 a7 h7 hc0 hc1 x0 x1 x2 x3 xs).1, y ∈ pc.1.set :=
  View.cover_of_tiledL (runLast2 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt2 (c : Dev nD) : (n : ℕ) → n < cfg2.N → Vec F S2048x200 .f32 × Vec F S2048x200 .f32
  | 0, hn => (unread2, accFirst2 c (grid2.coords ⟨0, hn⟩) (mem2_0 ⟨0, hn⟩) (whole2_0 ⟨0, hn⟩) (mem2_1 ⟨0, hn⟩) (whole2_1 ⟨0, hn⟩) (mem2_2 ⟨0, hn⟩) (whole2_2 ⟨0, hn⟩) (mem2_3 ⟨0, hn⟩) (whole2_3 ⟨0, hn⟩) (mem2_4 ⟨0, hn⟩) (whole2_4 ⟨0, hn⟩) acc2 (Memref.isWhole_whole _) ((first2_iff ⟨0, hn⟩).mpr (Nat.zero_mod _)) (fun h => (fun h => by (try dsimp only at h); omega) ((last2_iff ⟨0, hn⟩).mp h)) (block2 V c 0 ⟨0, hn⟩) (block2 V c 1 ⟨0, hn⟩) (block2 V c 2 ⟨0, hn⟩) (block2 V c 3 ⟨0, hn⟩))
  | n + 1, hn =>
    if h0 : (n + 1) % 16 = 0 then
      (unread2, accFirst2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) ((first2_iff ⟨n + 1, hn⟩).mpr h0) (fun h => (fun h => by (try dsimp only at h); omega) ((last2_iff ⟨n + 1, hn⟩).mp h)) (block2 V c 0 ⟨n + 1, hn⟩) (block2 V c 1 ⟨n + 1, hn⟩) (block2 V c 2 ⟨n + 1, hn⟩) (block2 V c 3 ⟨n + 1, hn⟩))
    else
      if h1 : (n + 1) % 16 = 15 then
        (outLast2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) (fun h => h0 ((first2_iff ⟨n + 1, hn⟩).mp h)) ((last2_iff ⟨n + 1, hn⟩).mpr h1) (block2 V c 0 ⟨n + 1, hn⟩) (block2 V c 1 ⟨n + 1, hn⟩) (block2 V c 2 ⟨n + 1, hn⟩) (block2 V c 3 ⟨n + 1, hn⟩) (stateAt2 c n (Nat.lt_of_succ_lt hn)).2,
         accLast2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) (fun h => h0 ((first2_iff ⟨n + 1, hn⟩).mp h)) ((last2_iff ⟨n + 1, hn⟩).mpr h1) (block2 V c 0 ⟨n + 1, hn⟩) (block2 V c 1 ⟨n + 1, hn⟩) (block2 V c 2 ⟨n + 1, hn⟩) (block2 V c 3 ⟨n + 1, hn⟩) (stateAt2 c n (Nat.lt_of_succ_lt hn)).2)
      else
        (unread2, accMid2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) (fun h => h0 ((first2_iff ⟨n + 1, hn⟩).mp h)) (fun h => h1 ((last2_iff ⟨n + 1, hn⟩).mp h)) (block2 V c 0 ⟨n + 1, hn⟩) (block2 V c 1 ⟨n + 1, hn⟩) (block2 V c 2 ⟨n + 1, hn⟩) (block2 V c 3 ⟨n + 1, hn⟩) (stateAt2 c n (Nat.lt_of_succ_lt hn)).2)

theorem stateAt2_first (c : Dev nD) (t : Fin cfg2.N) (h0 : t.val % 16 = 0) (hl : ¬last2 (grid2.coords t)) :
    stateAt2 V c t.val t.isLt = (unread2, accFirst2 c (grid2.coords t) (mem2_0 t) (whole2_0 t) (mem2_1 t) (whole2_1 t) (mem2_2 t) (whole2_2 t) (mem2_3 t) (whole2_3 t) (mem2_4 t) (whole2_4 t) acc2 (Memref.isWhole_whole _) ((first2_iff t).mpr h0) hl (block2 V c 0 t) (block2 V c 1 t) (block2 V c 2 t) (block2 V c 3 t)) := by
  obtain ⟨n, hn⟩ := t
  cases n with
  | zero => exact rfl
  | succ n => exact (dif_pos h0).trans rfl

theorem stateAt2_mid (c : Dev nD) (t : Fin cfg2.N) (h0 : ¬t.val % 16 = 0) (h1 : ¬t.val % 16 = 15) :
    stateAt2 V c t.val t.isLt = (unread2, accMid2 c (grid2.coords t) (mem2_0 t) (whole2_0 t) (mem2_1 t) (whole2_1 t) (mem2_2 t) (whole2_2 t) (mem2_3 t) (whole2_3 t) (mem2_4 t) (whole2_4 t) acc2 (Memref.isWhole_whole _) (fun h => h0 ((first2_iff t).mp h)) (fun h => h1 ((last2_iff t).mp h)) (block2 V c 0 t) (block2 V c 1 t) (block2 V c 2 t) (block2 V c 3 t) (stateAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt2_last (c : Dev nD) (t : Fin cfg2.N) (h0 : ¬t.val % 16 = 0) (h1 : t.val % 16 = 15) :
    stateAt2 V c t.val t.isLt = (outLast2 c (grid2.coords t) (mem2_0 t) (whole2_0 t) (mem2_1 t) (whole2_1 t) (mem2_2 t) (whole2_2 t) (mem2_3 t) (whole2_3 t) (mem2_4 t) (whole2_4 t) acc2 (Memref.isWhole_whole _) (fun h => h0 ((first2_iff t).mp h)) ((last2_iff t).mpr h1) (block2 V c 0 t) (block2 V c 1 t) (block2 V c 2 t) (block2 V c 3 t) (stateAt2 V c (t.val - 1) (Nat.lt_of_le_of_lt (Nat.sub_le _ _) t.isLt)).2,
      accLast2 c (grid2.coords t) (mem2_0 t) (whole2_0 t) (mem2_1 t) (whole2_1 t) (mem2_2 t) (whole2_2 t) (mem2_3 t) (whole2_3 t) (mem2_4 t) (whole2_4 t) acc2 (Memref.isWhole_whole _) (fun h => h0 ((first2_iff t).mp h)) ((last2_iff t).mpr h1) (block2 V c 0 t) (block2 V c 1 t) (block2 V c 2 t) (block2 V c 3 t) (stateAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi2 (c : Dev nD) : (n : ℕ) → n ≤ cfg2.N → sProp 𝕄
  | 0, _ => Pipeline.ΦA spec2 c
  | n + 1, hn => iprop(iprop(iprop(owns (c : Thread nD τ) acc2 fullShare ((stateAt2 V c n hn).2)) ∗ Pipeline.scopedRestBut (Ix := Unit) (Name := ℕ) (U := UR sig nD τ) (Lvl := ℕ) (Val := Elt F) spec2 c [cc2_scratch0]) ∗ (∃ r, prngReg c r))

theorem phi2_zero (c : Dev nD) (n : ℕ) (h : n ≤ cfg2.N) (hz : n = 0) : phi2 V c n h = Pipeline.ΦA spec2 c := by
  subst hz; rfl
theorem phi2_succ (c : Dev nD) (n : ℕ) (hn : n < cfg2.N) :
    phi2 V c (n + 1) hn = iprop(iprop(iprop(owns (c : Thread nD τ) acc2 fullShare ((stateAt2 V c n hn).2)) ∗ Pipeline.scopedRestBut (Ix := Unit) (Name := ℕ) (U := UR sig nD τ) (Lvl := ℕ) (Val := Elt F) spec2 c [cc2_scratch0]) ∗ (∃ r, prngReg c r)) := rfl
theorem phi2_pos (c : Dev nD) (n : ℕ) (h : n ≤ cfg2.N) (hz : n ≠ 0) :
    phi2 V c n h = iprop(iprop(iprop(owns (c : Thread nD τ) acc2 fullShare ((stateAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block, the output's at
    `stateAt2`'s first component; the invariant `phi2`; nothing owed; full shares. -/
def dat2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => block2 V c 3 t
    | ⟨4, _⟩ => (stateAt2 V c t.val t.isLt).1
  Φ t := phi2 V c t.val (Nat.le_of_lt_succ t.isLt)
  q _ := fullShare
  owed _ := 0

theorem arr2_eq (c : Dev nD) (w : Fin cfg2.W) : (dat2 V c).A w = V c (Pipeline.arrRef spec2 w) := by
  dsimp only [dat2]

theorem phi2_castSucc (c : Dev nD) (t : Fin cfg2.N) :
    (dat2 V c).Φ t.castSucc = phi2 V c t.val (Nat.le_of_lt t.isLt) := by
  dsimp only [dat2]; simp only [Fin.coe_castSucc]

theorem after2_0 (c : Dev nD) (t : Fin cfg2.N) : (dat2 V c).after 0 t = block2 V c 0 t := by dsimp only [dat2]
theorem after2_1 (c : Dev nD) (t : Fin cfg2.N) : (dat2 V c).after 1 t = block2 V c 1 t := by dsimp only [dat2]
theorem after2_2 (c : Dev nD) (t : Fin cfg2.N) : (dat2 V c).after 2 t = block2 V c 2 t := by dsimp only [dat2]
theorem after2_3 (c : Dev nD) (t : Fin cfg2.N) : (dat2 V c).after 3 t = block2 V c 3 t := by dsimp only [dat2]
theorem after2_4 (c : Dev nD) (t : Fin cfg2.N) : (dat2 V c).after 4 t = (stateAt2 V c t.val t.isLt).1 := by dsimp only [dat2]

theorem found2_0 (c : Dev nD) (t : Fin cfg2.N) (d) : (dat2 V c).before 0 t d = block2 V c 0 t :=
  found2_0_of V (dat2 V c) (arr2_eq V c 0) (after2_0 V c) t d
theorem found2_1 (c : Dev nD) (t : Fin cfg2.N) (d) : (dat2 V c).before 1 t d = block2 V c 1 t :=
  found2_1_of V (dat2 V c) (arr2_eq V c 1) (after2_1 V c) t d
theorem found2_2 (c : Dev nD) (t : Fin cfg2.N) (d) : (dat2 V c).before 2 t d = block2 V c 2 t :=
  found2_2_of V (dat2 V c) (arr2_eq V c 2) (after2_2 V c) t d
theorem found2_3 (c : Dev nD) (t : Fin cfg2.N) (d) : (dat2 V c).before 3 t d = block2 V c 3 t :=
  found2_3_of V (dat2 V c) (arr2_eq V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (mem2_0 t) fullShare ((dat2 V c).before 0 t d))
    ∗ (∃ d, owns (c : Thread nD τ) (mem2_1 t) fullShare ((dat2 V c).before 1 t d))
    ∗ (∃ d, owns (c : Thread nD τ) (mem2_2 t) fullShare ((dat2 V c).before 2 t d))
    ∗ (∃ d, owns (c : Thread nD τ) (mem2_3 t) fullShare ((dat2 V c).before 3 t d))
    ∗ (∃ d, owns (c : Thread nD τ) (mem2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1, found2_2, found2_3]
  rw [show (dat2 V c).owesAt () t.succ = (dat2 V c).owesAt () t.castSucc from rfl]
  rw [show (dat2 V c).Φ t.succ = phi2 V c (t.val + 1) t.isLt from rfl, phi2_succ]
  have hN : t.val < 64 := lt_of_lt_of_eq t.isLt (show cfg2.N = 64 from N_2)
  rw [show (dat2 V c).leavesExact 0 t = owns (c : Thread nD τ) (mem2_0 t) fullShare ((dat2 V c).after 0 t) from by
    unfold Dat.leavesExact; rw [live2_0 t], after2_0]
  rw [show (dat2 V c).leavesExact 1 t = owns (c : Thread nD τ) (mem2_1 t) fullShare ((dat2 V c).after 1 t) from by
    unfold Dat.leavesExact; rw [live2_1 t], after2_1]
  rw [show (dat2 V c).leavesExact 2 t = owns (c : Thread nD τ) (mem2_2 t) fullShare ((dat2 V c).after 2 t) from by
    unfold Dat.leavesExact; rw [live2_2 t], after2_2]
  rw [show (dat2 V c).leavesExact 3 t = owns (c : Thread nD τ) (mem2_3 t) fullShare ((dat2 V c).after 3 t) from by
    unfold Dat.leavesExact; rw [live2_3 t], after2_3]
  by_cases h0 : t.val % 16 = 0
  · have hl : ¬last2 (grid2.coords t) := fun h => by have h' := (last2_iff t).mp h; omega
    rw [Dat.leavesExact_idle (dat2 V c) 4 t (idle2_out t hl) (noFlush2_out t hl)]
    rw [stateAt2_first V c t h0 hl]
    unfold accFirst2; (try dsimp only)
    by_cases hz : t.val = 0
    · rw [phi2_castSucc V c t, phi2_zero V c _ _ hz, phiA2_eq]
      iintro ⟨⟨⟨HS, Hrest⟩, Hg⟩, Ho, ⟨%d0, H0⟩, ⟨%d1, H1⟩, ⟨%d2, H2⟩, ⟨%d3, H3⟩, ⟨%d4, H4⟩⟩
      iapply ((runFirst2 c (grid2.coords t) _ _ _ _ _ _ _ _ _ _ _ _ ((first2_iff t).mpr h0) hl (block2 V c 0 t) (block2 V c 1 t) (block2 V c 2 t) (block2 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi2_castSucc V c t, phi2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst2 c (grid2.coords t) _ _ _ _ _ _ _ _ _ _ _ _ ((first2_iff t).mpr h0) hl (block2 V c 0 t) (block2 V c 1 t) (block2 V c 2 t) (block2 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat2 V c).leavesExact 4 t = owns (c : Thread nD τ) (mem2_4 t) fullShare ((dat2 V c).after 4 t) from by
        unfold Dat.leavesExact; rw [live2_out t ((last2_iff t).mpr h1)], after2_4]
      rw [stateAt2_last V c t h0 h1]
      unfold outLast2 accLast2; (try dsimp only)
      rw [phi2_castSucc V c t, phi2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast2 c (grid2.coords t) _ _ _ _ _ _ _ _ _ _ _ _ (fun h => h0 ((first2_iff t).mp h)) ((last2_iff t).mpr h1) (block2 V c 0 t) (block2 V c 1 t) (block2 V c 2 t) (block2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast2_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast2_cover c _ _ _ _ _ _ _ _ _ _ _ _ _ _ _ _ _ _ _ _)
    · have hl : ¬last2 (grid2.coords t) := (fun h => h1 ((last2_iff t).mp h))
      rw [Dat.leavesExact_idle (dat2 V c) 4 t (idle2_out t hl) (noFlush2_out t hl)]
      rw [stateAt2_mid V c t h0 h1]
      unfold accMid2; (try dsimp only)
      rw [phi2_castSucc V c t, phi2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid2 c (grid2.coords t) _ _ _ _ _ _ _ _ _ _ _ _ (fun h => h0 ((first2_iff t).mp h)) hl (block2 V c 0 t) (block2 V c 1 t) (block2 V c 2 t) (block2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid2_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem enter2 (c : Dev nD) : Pipeline.ΦA spec2 c ⊢ (dat2 V c).Φ 0 := by
  rw [show (dat2 V c).Φ 0 = phi2 V c 0 (Nat.zero_le _) from rfl, phi2_zero V c 0 _ rfl]
  try exact Idealize.SL.BI.Entails.refl _

/-- After the last point the invariant gives the class invariant back: the accumulator's contents are forgotten. -/
theorem leave2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = phi2 V c (Fin.last cfg2.N).val (Nat.le_of_lt_succ (Fin.last cfg2.N).isLt) from rfl, phi2_pos V c _ _ hne, phiA2_eq]
  iintro ⟨⟨HS, Hrest⟩, Hg⟩
  isplitl [HS Hrest]
  · isplitl [HS]
    · iexists _; iexact HS
    iexact Hrest
  iexact Hg

end

end Cert.Kernel.Hand

end
-- ==== Proof.Bits.Reg3.Setup.lean ====
/-
  Region 3 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.Kernel.Launch
import proofs.«174668_j26645977104432_2_alg».proof.Proof.Gen.Kernel.Skeleton
import proofs.«174668_j26645977104432_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 is found at its block at every point, fetched there or not: when it is not fetched its
    index has not moved since the last fetch, and the body leaves the buffer as it found it. -/
theorem found3_0_of {c : Dev nD} (dat : Dat τ (Elt F) Unit ℕ (UR sig nD τ) ℕ cfg3 c) (hA : dat.A 0 = V c (Pipeline.arrRef spec3 0))
    (hafter : ∀ t, dat.after 0 t = block3 V c 0 t) (t : Fin cfg3.N) (d) : dat.before 0 t d = block3 V c 0 t :=
  (dat.before_in_eq_fetched 0 rfl (fun _ => rfl) (fun _ _ _ => rfl) (fun t => by rw [hafter]; unfold Dat.blockOf block3; rw [hA]; try rfl) t d).trans
    (by unfold Dat.fetched Dat.blockOf block3; rw [hA]; try rfl)

/-- Input window 1 is found at its block at every point, fetched there or not: when it is not fetched its
    index has not moved since the last fetch, and the body leaves the buffer as it found it. -/
theorem found3_1_of {c : Dev nD} (dat : Dat τ (Elt F) Unit ℕ (UR sig nD τ) ℕ cfg3 c) (hA : dat.A 1 = V c (Pipeline.arrRef spec3 1))
    (hafter : ∀ t, dat.after 1 t = block3 V c 1 t) (t : Fin cfg3.N) (d) : dat.before 1 t d = block3 V c 1 t :=
  (dat.before_in_eq_fetched 1 rfl (fun _ => rfl) (fun _ _ _ => rfl) (fun t => by rw [hafter]; unfold Dat.blockOf block3; rw [hA]; try rfl) t d).trans
    (by unfold Dat.fetched Dat.blockOf block3; rw [hA]; try rfl)

/-- Input window 2 is found at its block at every point, fetched there or not: when it is not fetched its
    index has not moved since the last fetch, and the body leaves the buffer as it found it. -/
theorem found3_2_of {c : Dev nD} (dat : Dat τ (Elt F) Unit ℕ (UR sig nD τ) ℕ cfg3 c) (hA : dat.A 2 = V c (Pipeline.arrRef spec3 2))
    (hafter : ∀ t, dat.after 2 t = block3 V c 2 t) (t : Fin cfg3.N) (d) : dat.before 2 t d = block3 V c 2 t :=
  (dat.before_in_eq_fetched 2 rfl (fun _ => rfl) (fun _ _ _ => rfl) (fun t => by rw [hafter]; unfold Dat.blockOf block3; rw [hA]; try rfl) t d).trans
    (by unfold Dat.fetched Dat.blockOf block3; rw [hA]; try rfl)

/-- Input window 3 is found at its block at every point, fetched there or not: when it is not fetched its
    index has not moved since the last fetch, and the body leaves the buffer as it found it. -/
theorem found3_3_of {c : Dev nD} (dat : Dat τ (Elt F) Unit ℕ (UR sig nD τ) ℕ cfg3 c) (hA : dat.A 3 = V c (Pipeline.arrRef spec3 3))
    (hafter : ∀ t, dat.after 3 t = block3 V c 3 t) (t : Fin cfg3.N) (d) : dat.before 3 t d = block3 V c 3 t :=
  (dat.before_in_eq_fetched 3 rfl (fun _ => rfl) (fun _ _ _ => rfl) (fun t => by rw [hafter]; unfold Dat.blockOf block3; rw [hA]; try rfl) t d).trans
    (by unfold Dat.fetched Dat.blockOf block3; rw [hA]; try rfl)

end

/-! ## The two branches of the body, over the grid -/

/-- The reduction index is 0: the accumulator is reset. -/
abbrev first3 (i : grid3.Coords) : Prop := (Scalar.cmpi .ne (Scalar.extui (Scalar.cmpi .eq (BitVec.ofNat 32 (i 1).val) 0#32)) 0#32) = 1#1
theorem first3_iff : ∀ t : Fin cfg3.N, first3 (grid3.coords t) ↔ t.val % 16 = 0 :=
  (by decide +kernel : ∀ t : Fin grid3.N, first3 (grid3.coords t) ↔ t.val % 16 = 0)

/-- The reduction index is 15: the output block is written. -/
abbrev last3 (i : grid3.Coords) : Prop := k3_cond2 i = 1#1
theorem last3_iff : ∀ t : Fin cfg3.N, last3 (grid3.coords t) ↔ t.val % 16 = 15 :=
  (by decide +kernel : ∀ t : Fin grid3.N, last3 (grid3.coords t) ↔ t.val % 16 = 15)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Away from the last reduction step the output window is idle and is not written back. -/
theorem idle3_out : ∀ t : Fin cfg3.N, ¬last3 (grid3.coords t) → cfg3.idle 4 (grid3.coords t) = true := by decide +kernel
theorem noFlush3_out : ∀ t : Fin cfg3.N, ¬last3 (grid3.coords t) → (cfg3.win 4).flush t = false := by decide +kernel
/-- At the last reduction step it is live. -/
theorem live3_out : ∀ t : Fin cfg3.N, last3 (grid3.coords t) → cfg3.idle 4 (grid3.coords t) = false := by decide +kernel

/-! ## The memrefs the body is called with -/

abbrev mem3_0 (t : Fin cfg3.N) : Memref sig .tc .vmem S2048x512 .f32 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S8192x200 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S200x200 .f32 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S1x200 .f32 := win3_3.stage (cfg3.slots t 3)
abbrev whole3_3 (t : Fin cfg3.N) : (mem3_3 t).IsWhole := hstage3_3 ((cfg3.slots t 3).cast nbuf3_3)
abbrev mem3_4 (t : Fin cfg3.N) : Memref sig .tc .vmem S2048x200 .f32 := win3_4.stage (cfg3.slots t 4)
abbrev whole3_4 (t : Fin cfg3.N) : (mem3_4 t).IsWhole := hstage3_4 ((cfg3.slots t 4).cast nbuf3_4)
/-- The accumulator: a whole scoped buffer of the kernel's own. -/
abbrev acc3 : Memref sig .tc .vmem S2048x200 .f32 := Memref.whole cc3_scratch0
abbrev accView3 : View sig .tc .vmem S2048x200 .f32 := acc3.view
/-- One staging buffer of the output window, through which its contents are stated. -/
abbrev outView3 : View sig .tc .vmem S2048x200 .f32 := (Memref.whole cc3_stg4_0 : Memref sig .tc .vmem S2048x200 .f32).view

/-- The region's class invariant with the accumulator taken out of the scoped rest. -/
theorem phiA3_eq (c : Dev nD) :
    (Pipeline.ΦA spec3 c : sProp 𝕄)
      = iprop(iprop(iprop((∃ d, owns (c : Thread nD τ) acc3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3, owns_whole]; try rfl

end Cert.Kernel.Hand

end
-- ==== Proof.Bits.Reg3.CaseFirst.lean ====
/-
  Region 3, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Bits.Reg3.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first3 i) (hc1 : ¬last3 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc3__matmul_relu_bias_kernel i a2 h2 a3 h3 a4 h4 a5 h5 a6 h6 a7 h7) K } := by
  refine ⟨?_, fun xo E K => ?run⟩
  case run =>
    simp only [cc3__matmul_relu_bias_kernel_eq_skeleton]; unfold cc3__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg3.CaseMid.lean ====
/-
  Region 3, a middle reduction step (reduction index 1 … 14): the body adds the step's partial product
  into the accumulator the step before left, and leaves the output window untouched.
-/
import proofs.«174668_j26645977104432_2_alg».proof.Proof.Bits.Reg3.CaseFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first3 i) (hc1 : ¬last3 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc3__matmul_relu_bias_kernel i a2 h2 a3 h3 a4 h4 a5 h5 a6 h6 a7 h7) K } := by
  refine ⟨?_, fun xo E K => ?run⟩
  case run =>
    simp only [cc3__matmul_relu_bias_kernel_eq_skeleton]; unfold cc3__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.Kernel.Hand

end
-- ==== Proof.Bits.Reg3.CaseLast.lean ====
/-
  Region 3, the last reduction step (reduction index 15): the body adds the step's partial product into the
  accumulator, then writes `max (accumulator + bias) 0` into the output window's buffer.
-/
import proofs.«174668_j26645977104432_2_alg».proof.Proof.Bits.Reg3.CaseMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first3 i) (hc1 : last3 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc3__matmul_relu_bias_kernel i a2 h2 a3 h3 a4 h4 a5 h5 a6 h6 a7 h7) K } := by
  refine ⟨?_, ?_, fun E K => ?run⟩
  case run =>
    simp only [cc3__matmul_relu_bias_kernel_eq_skeleton]; unfold cc3__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.Kernel.Hand

end
-- ==== Proof.Bits.Reg3.Data.lean ====
/-
  Region 3: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt3`): each point's contents are
  the stores its case's run found, read back, over the accumulator the point before left.
-/
import proofs.«174668_j26645977104432_2_alg».proof.Proof.Bits.Reg3.CaseLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread3 : Vec F S2048x200 .f32 := outView3.read (Elt F) outView3.junk

/-! ## What each case leaves -/

/-- The accumulator after a point with reduction index 0. -/
def accFirst3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first3 i) (hc1 : ¬last3 i) (x0 : Vec F S2048x512 .f32) (x1 : Vec F S8192x200 .f32) (x2 : Vec F S200x200 .f32) (x3 : Vec F S1x200 .f32) : Vec F S2048x200 .f32 :=
  accView3.read (Elt F) (accView3.writes (Elt F) accView3.junk (runFirst3 c i a2 h2 a3 h3 a4 h4 a5 h5 a6 h6 a7 h7 hc0 hc1 x0 x1 x2 x3).1)
/-- Its stores tile the accumulator, so they cover it. -/
theorem accFirst3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first3 i) (hc1 : ¬last3 i) (x0 : Vec F S2048x512 .f32) (x1 : Vec F S8192x200 .f32) (x2 : Vec F S200x200 .f32) (x3 : Vec F S1x200 .f32) (y : S2048x200.Idx) :
    ∃ pc ∈ (runFirst3 c i a2 h2 a3 h3 a4 h4 a5 h5 a6 h6 a7 h7 hc0 hc1 x0 x1 x2 x3).1, y ∈ pc.1.set :=
  View.cover_of_tiledL (runFirst3 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : ¬last3 i) (x0 : Vec F S2048x512 .f32) (x1 : Vec F S8192x200 .f32) (x2 : Vec F S200x200 .f32) (x3 : Vec F S1x200 .f32) (xs : Vec F S2048x200 .f32) : Vec F S2048x200 .f32 :=
  accView3.read (Elt F) (accView3.writes (Elt F) accView3.junk (runMid3 c i a2 h2 a3 h3 a4 h4 a5 h5 a6 h6 a7 h7 hc0 hc1 x0 x1 x2 x3 xs).1)
theorem accMid3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : ¬last3 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid3 c i a2 h2 a3 h3 a4 h4 a5 h5 a6 h6 a7 h7 hc0 hc1 x0 x1 x2 x3 xs).1, y ∈ pc.1.set :=
  View.cover_of_tiledL (runMid3 c i a2 h2 a3 h3 a4 h4 a5 h5 a6 h6 a7 h7 hc0 hc1 x0 x1 x2 x3 xs).1 S2048x200.size (by sl_kernel_rfl) y

/-- The accumulator after a point with reduction index 15. -/
def accLast3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) : Vec F S2048x200 .f32 :=
  accView3.read (Elt F) (accView3.writes (Elt F) accView3.junk (runLast3 c i a2 h2 a3 h3 a4 h4 a5 h5 a6 h6 a7 h7 hc0 hc1 x0 x1 x2 x3 xs).2.1)
theorem accLast3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast3 c i a2 h2 a3 h3 a4 h4 a5 h5 a6 h6 a7 h7 hc0 hc1 x0 x1 x2 x3 xs).2.1, y ∈ pc.1.set :=
  View.cover_of_tiledL (runLast3 c i a2 h2 a3 h3 a4 h4 a5 h5 a6 h6 a7 h7 hc0 hc1 x0 x1 x2 x3 xs).2.1 S2048x200.size (by sl_kernel_rfl) y
/-- The output window's buffer after a point with reduction index 15. -/
def outLast3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) : Vec F S2048x200 .f32 :=
  outView3.read (Elt F) (outView3.writes (Elt F) outView3.junk (runLast3 c i a2 h2 a3 h3 a4 h4 a5 h5 a6 h6 a7 h7 hc0 hc1 x0 x1 x2 x3 xs).1)
theorem outLast3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast3 c i a2 h2 a3 h3 a4 h4 a5 h5 a6 h6 a7 h7 hc0 hc1 x0 x1 x2 x3 xs).1, y ∈ pc.1.set :=
  View.cover_of_tiledL (runLast3 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt3 (c : Dev nD) : (n : ℕ) → n < cfg3.N → Vec F S2048x200 .f32 × Vec F S2048x200 .f32
  | 0, hn => (unread3, accFirst3 c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) (mem3_4 ⟨0, hn⟩) (whole3_4 ⟨0, hn⟩) acc3 (Memref.isWhole_whole _) ((first3_iff ⟨0, hn⟩).mpr (Nat.zero_mod _)) (fun h => (fun h => by (try dsimp only at h); omega) ((last3_iff ⟨0, hn⟩).mp h)) (block3 V c 0 ⟨0, hn⟩) (block3 V c 1 ⟨0, hn⟩) (block3 V c 2 ⟨0, hn⟩) (block3 V c 3 ⟨0, hn⟩))
  | n + 1, hn =>
    if h0 : (n + 1) % 16 = 0 then
      (unread3, accFirst3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) ((first3_iff ⟨n + 1, hn⟩).mpr h0) (fun h => (fun h => by (try dsimp only at h); omega) ((last3_iff ⟨n + 1, hn⟩).mp h)) (block3 V c 0 ⟨n + 1, hn⟩) (block3 V c 1 ⟨n + 1, hn⟩) (block3 V c 2 ⟨n + 1, hn⟩) (block3 V c 3 ⟨n + 1, hn⟩))
    else
      if h1 : (n + 1) % 16 = 15 then
        (outLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => h0 ((first3_iff ⟨n + 1, hn⟩).mp h)) ((last3_iff ⟨n + 1, hn⟩).mpr h1) (block3 V c 0 ⟨n + 1, hn⟩) (block3 V c 1 ⟨n + 1, hn⟩) (block3 V c 2 ⟨n + 1, hn⟩) (block3 V c 3 ⟨n + 1, hn⟩) (stateAt3 c n (Nat.lt_of_succ_lt hn)).2,
         accLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => h0 ((first3_iff ⟨n + 1, hn⟩).mp h)) ((last3_iff ⟨n + 1, hn⟩).mpr h1) (block3 V c 0 ⟨n + 1, hn⟩) (block3 V c 1 ⟨n + 1, hn⟩) (block3 V c 2 ⟨n + 1, hn⟩) (block3 V c 3 ⟨n + 1, hn⟩) (stateAt3 c n (Nat.lt_of_succ_lt hn)).2)
      else
        (unread3, accMid3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => h0 ((first3_iff ⟨n + 1, hn⟩).mp h)) (fun h => h1 ((last3_iff ⟨n + 1, hn⟩).mp h)) (block3 V c 0 ⟨n + 1, hn⟩) (block3 V c 1 ⟨n + 1, hn⟩) (block3 V c 2 ⟨n + 1, hn⟩) (block3 V c 3 ⟨n + 1, hn⟩) (stateAt3 c n (Nat.lt_of_succ_lt hn)).2)

theorem stateAt3_first (c : Dev nD) (t : Fin cfg3.N) (h0 : t.val % 16 = 0) (hl : ¬last3 (grid3.coords t)) :
    stateAt3 V c t.val t.isLt = (unread3, accFirst3 c (grid3.coords t) (mem3_0 t) (whole3_0 t) (mem3_1 t) (whole3_1 t) (mem3_2 t) (whole3_2 t) (mem3_3 t) (whole3_3 t) (mem3_4 t) (whole3_4 t) acc3 (Memref.isWhole_whole _) ((first3_iff t).mpr h0) hl (block3 V c 0 t) (block3 V c 1 t) (block3 V c 2 t) (block3 V c 3 t)) := by
  obtain ⟨n, hn⟩ := t
  cases n with
  | zero => exact rfl
  | succ n => exact (dif_pos h0).trans rfl

theorem stateAt3_mid (c : Dev nD) (t : Fin cfg3.N) (h0 : ¬t.val % 16 = 0) (h1 : ¬t.val % 16 = 15) :
    stateAt3 V c t.val t.isLt = (unread3, accMid3 c (grid3.coords t) (mem3_0 t) (whole3_0 t) (mem3_1 t) (whole3_1 t) (mem3_2 t) (whole3_2 t) (mem3_3 t) (whole3_3 t) (mem3_4 t) (whole3_4 t) acc3 (Memref.isWhole_whole _) (fun h => h0 ((first3_iff t).mp h)) (fun h => h1 ((last3_iff t).mp h)) (block3 V c 0 t) (block3 V c 1 t) (block3 V c 2 t) (block3 V c 3 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt3_last (c : Dev nD) (t : Fin cfg3.N) (h0 : ¬t.val % 16 = 0) (h1 : t.val % 16 = 15) :
    stateAt3 V c t.val t.isLt = (outLast3 c (grid3.coords t) (mem3_0 t) (whole3_0 t) (mem3_1 t) (whole3_1 t) (mem3_2 t) (whole3_2 t) (mem3_3 t) (whole3_3 t) (mem3_4 t) (whole3_4 t) acc3 (Memref.isWhole_whole _) (fun h => h0 ((first3_iff t).mp h)) ((last3_iff t).mpr h1) (block3 V c 0 t) (block3 V c 1 t) (block3 V c 2 t) (block3 V c 3 t) (stateAt3 V c (t.val - 1) (Nat.lt_of_le_of_lt (Nat.sub_le _ _) t.isLt)).2,
      accLast3 c (grid3.coords t) (mem3_0 t) (whole3_0 t) (mem3_1 t) (whole3_1 t) (mem3_2 t) (whole3_2 t) (mem3_3 t) (whole3_3 t) (mem3_4 t) (whole3_4 t) acc3 (Memref.isWhole_whole _) (fun h => h0 ((first3_iff t).mp h)) ((last3_iff t).mpr h1) (block3 V c 0 t) (block3 V c 1 t) (block3 V c 2 t) (block3 V c 3 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi3 (c : Dev nD) : (n : ℕ) → n ≤ cfg3.N → sProp 𝕄
  | 0, _ => Pipeline.ΦA spec3 c
  | n + 1, hn => iprop(iprop(iprop(owns (c : Thread nD τ) acc3 fullShare ((stateAt3 V c n hn).2)) ∗ Pipeline.scopedRestBut (Ix := Unit) (Name := ℕ) (U := UR sig nD τ) (Lvl := ℕ) (Val := Elt F) spec3 c [cc3_scratch0]) ∗ (∃ r, prngReg c r))

theorem phi3_zero (c : Dev nD) (n : ℕ) (h : n ≤ cfg3.N) (hz : n = 0) : phi3 V c n h = Pipeline.ΦA spec3 c := by
  subst hz; rfl
theorem phi3_succ (c : Dev nD) (n : ℕ) (hn : n < cfg3.N) :
    phi3 V c (n + 1) hn = iprop(iprop(iprop(owns (c : Thread nD τ) acc3 fullShare ((stateAt3 V c n hn).2)) ∗ Pipeline.scopedRestBut (Ix := Unit) (Name := ℕ) (U := UR sig nD τ) (Lvl := ℕ) (Val := Elt F) spec3 c [cc3_scratch0]) ∗ (∃ r, prngReg c r)) := rfl
theorem phi3_pos (c : Dev nD) (n : ℕ) (h : n ≤ cfg3.N) (hz : n ≠ 0) :
    phi3 V c n h = iprop(iprop(iprop(owns (c : Thread nD τ) acc3 fullShare ((stateAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block, the output's at
    `stateAt3`'s first component; the invariant `phi3`; nothing owed; full shares. -/
def dat3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => block3 V c 3 t
    | ⟨4, _⟩ => (stateAt3 V c t.val t.isLt).1
  Φ t := phi3 V c t.val (Nat.le_of_lt_succ t.isLt)
  q _ := fullShare
  owed _ := 0

theorem arr3_eq (c : Dev nD) (w : Fin cfg3.W) : (dat3 V c).A w = V c (Pipeline.arrRef spec3 w) := by
  dsimp only [dat3]

theorem phi3_castSucc (c : Dev nD) (t : Fin cfg3.N) :
    (dat3 V c).Φ t.castSucc = phi3 V c t.val (Nat.le_of_lt t.isLt) := by
  dsimp only [dat3]; simp only [Fin.coe_castSucc]

theorem after3_0 (c : Dev nD) (t : Fin cfg3.N) : (dat3 V c).after 0 t = block3 V c 0 t := by dsimp only [dat3]
theorem after3_1 (c : Dev nD) (t : Fin cfg3.N) : (dat3 V c).after 1 t = block3 V c 1 t := by dsimp only [dat3]
theorem after3_2 (c : Dev nD) (t : Fin cfg3.N) : (dat3 V c).after 2 t = block3 V c 2 t := by dsimp only [dat3]
theorem after3_3 (c : Dev nD) (t : Fin cfg3.N) : (dat3 V c).after 3 t = block3 V c 3 t := by dsimp only [dat3]
theorem after3_4 (c : Dev nD) (t : Fin cfg3.N) : (dat3 V c).after 4 t = (stateAt3 V c t.val t.isLt).1 := by dsimp only [dat3]

theorem found3_0 (c : Dev nD) (t : Fin cfg3.N) (d) : (dat3 V c).before 0 t d = block3 V c 0 t :=
  found3_0_of V (dat3 V c) (arr3_eq V c 0) (after3_0 V c) t d
theorem found3_1 (c : Dev nD) (t : Fin cfg3.N) (d) : (dat3 V c).before 1 t d = block3 V c 1 t :=
  found3_1_of V (dat3 V c) (arr3_eq V c 1) (after3_1 V c) t d
theorem found3_2 (c : Dev nD) (t : Fin cfg3.N) (d) : (dat3 V c).before 2 t d = block3 V c 2 t :=
  found3_2_of V (dat3 V c) (arr3_eq V c 2) (after3_2 V c) t d
theorem found3_3 (c : Dev nD) (t : Fin cfg3.N) (d) : (dat3 V c).before 3 t d = block3 V c 3 t :=
  found3_3_of V (dat3 V c) (arr3_eq V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d))
    ∗ (∃ d, owns (c : Thread nD τ) (mem3_1 t) fullShare ((dat3 V c).before 1 t d))
    ∗ (∃ d, owns (c : Thread nD τ) (mem3_2 t) fullShare ((dat3 V c).before 2 t d))
    ∗ (∃ d, owns (c : Thread nD τ) (mem3_3 t) fullShare ((dat3 V c).before 3 t d))
    ∗ (∃ d, owns (c : Thread nD τ) (mem3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1, found3_2, found3_3]
  rw [show (dat3 V c).owesAt () t.succ = (dat3 V c).owesAt () t.castSucc from rfl]
  rw [show (dat3 V c).Φ t.succ = phi3 V c (t.val + 1) t.isLt from rfl, phi3_succ]
  have hN : t.val < 64 := lt_of_lt_of_eq t.isLt (show cfg3.N = 64 from N_3)
  rw [show (dat3 V c).leavesExact 0 t = owns (c : Thread nD τ) (mem3_0 t) fullShare ((dat3 V c).after 0 t) from by
    unfold Dat.leavesExact; rw [live3_0 t], after3_0]
  rw [show (dat3 V c).leavesExact 1 t = owns (c : Thread nD τ) (mem3_1 t) fullShare ((dat3 V c).after 1 t) from by
    unfold Dat.leavesExact; rw [live3_1 t], after3_1]
  rw [show (dat3 V c).leavesExact 2 t = owns (c : Thread nD τ) (mem3_2 t) fullShare ((dat3 V c).after 2 t) from by
    unfold Dat.leavesExact; rw [live3_2 t], after3_2]
  rw [show (dat3 V c).leavesExact 3 t = owns (c : Thread nD τ) (mem3_3 t) fullShare ((dat3 V c).after 3 t) from by
    unfold Dat.leavesExact; rw [live3_3 t], after3_3]
  by_cases h0 : t.val % 16 = 0
  · have hl : ¬last3 (grid3.coords t) := fun h => by have h' := (last3_iff t).mp h; omega
    rw [Dat.leavesExact_idle (dat3 V c) 4 t (idle3_out t hl) (noFlush3_out t hl)]
    rw [stateAt3_first V c t h0 hl]
    unfold accFirst3; (try dsimp only)
    by_cases hz : t.val = 0
    · rw [phi3_castSucc V c t, phi3_zero V c _ _ hz, phiA3_eq]
      iintro ⟨⟨⟨HS, Hrest⟩, Hg⟩, Ho, ⟨%d0, H0⟩, ⟨%d1, H1⟩, ⟨%d2, H2⟩, ⟨%d3, H3⟩, ⟨%d4, H4⟩⟩
      iapply ((runFirst3 c (grid3.coords t) _ _ _ _ _ _ _ _ _ _ _ _ ((first3_iff t).mpr h0) hl (block3 V c 0 t) (block3 V c 1 t) (block3 V c 2 t) (block3 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi3_castSucc V c t, phi3_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst3 c (grid3.coords t) _ _ _ _ _ _ _ _ _ _ _ _ ((first3_iff t).mpr h0) hl (block3 V c 0 t) (block3 V c 1 t) (block3 V c 2 t) (block3 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat3 V c).leavesExact 4 t = owns (c : Thread nD τ) (mem3_4 t) fullShare ((dat3 V c).after 4 t) from by
        unfold Dat.leavesExact; rw [live3_out t ((last3_iff t).mpr h1)], after3_4]
      rw [stateAt3_last V c t h0 h1]
      unfold outLast3 accLast3; (try dsimp only)
      rw [phi3_castSucc V c t, phi3_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast3 c (grid3.coords t) _ _ _ _ _ _ _ _ _ _ _ _ (fun h => h0 ((first3_iff t).mp h)) ((last3_iff t).mpr h1) (block3 V c 0 t) (block3 V c 1 t) (block3 V c 2 t) (block3 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast3_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast3_cover c _ _ _ _ _ _ _ _ _ _ _ _ _ _ _ _ _ _ _ _)
    · have hl : ¬last3 (grid3.coords t) := (fun h => h1 ((last3_iff t).mp h))
      rw [Dat.leavesExact_idle (dat3 V c) 4 t (idle3_out t hl) (noFlush3_out t hl)]
      rw [stateAt3_mid V c t h0 h1]
      unfold accMid3; (try dsimp only)
      rw [phi3_castSucc V c t, phi3_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid3 c (grid3.coords t) _ _ _ _ _ _ _ _ _ _ _ _ (fun h => h0 ((first3_iff t).mp h)) hl (block3 V c 0 t) (block3 V c 1 t) (block3 V c 2 t) (block3 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid3_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem enter3 (c : Dev nD) : Pipeline.ΦA spec3 c ⊢ (dat3 V c).Φ 0 := by
  rw [show (dat3 V c).Φ 0 = phi3 V c 0 (Nat.zero_le _) from rfl, phi3_zero V c 0 _ rfl]
  try exact Idealize.SL.BI.Entails.refl _

/-- After the last point the invariant gives the class invariant back: the accumulator's contents are forgotten. -/
theorem leave3 (c : Dev nD) : (dat3 V c).Φ (Fin.last cfg3.N) ⊢ Pipeline.ΦA spec3 c := by
  have hne : (Fin.last cfg3.N).val ≠ 0 := by rw [Fin.val_last]; have : cfg3.N = 64 := N_3; omega
  rw [show (dat3 V c).Φ (Fin.last cfg3.N) = phi3 V c (Fin.last cfg3.N).val (Nat.le_of_lt_succ (Fin.last cfg3.N).isLt) from rfl, phi3_pos V c _ _ hne, phiA3_eq]
  iintro ⟨⟨HS, Hrest⟩, Hg⟩
  isplitl [HS Hrest]
  · isplitl [HS]
    · iexists _; iexact HS
    iexact Hrest
  iexact Hg

end

end Cert.Kernel.Hand

end
-- ==== Proof.Bits.Whole.lean ====
/-
  The whole program as a sequence of seven segments — a stretch of host operations, two kernel regions, a
  stretch of host operations, two more kernel regions, a last stretch of host operations — run from the launch to
  the return.  The buffer contents at each segment boundary are named (`W0` … `W7`): a host stretch folds its
  operations over the contents it starts from; a region replaces its own arrays by what its pipeline leaves and
  keeps every other buffer.  The run ends with every unscoped buffer at `W7`.
-/
import proofs.«174668_j26645977104432_2_alg».proof.Proof.Bits.Reg0.Data
import proofs.«174668_j26645977104432_2_alg».proof.Proof.Bits.Reg1.Data
import proofs.«174668_j26645977104432_2_alg».proof.Proof.Bits.Reg2.Data
import proofs.«174668_j26645977104432_2_alg».proof.Proof.Bits.Reg3.Data
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

set_option maxHeartbeats 40000000 in
theorem hostOps0_fresh : (hostOps0 : List (HloOp τ sig (Elt F))).Forall fun op => op.fresh = ∅ := by
  simp only [List.Forall]; repeat' constructor
/-- The references the stretch `hostOps0` writes: one result buffer per operation. -/
abbrev written0 : List (Ref sig .tc) := [main_v0, main_v1, main_v2, main_v3, main_v4, main_v5, main_v6, main_v7, main_cst, main_v8, main_v9, main_v10, main_v11, main_v12, main_v13]
set_option maxHeartbeats 40000000 in
theorem hostOps0_writes : (hostOps0 : List (HloOp τ sig (Elt F))).Forall fun op => op.writes ⊆ (written0.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxHeartbeats 40000000 in
theorem hostOps2_fresh : (hostOps2 : List (HloOp τ sig (Elt F))).Forall fun op => op.fresh = ∅ := by
  simp only [List.Forall]; repeat' constructor
/-- The references the stretch `hostOps2` writes: one result buffer per operation. -/
abbrev written2 : List (Ref sig .tc) := [main_v16, main_v17, main_v18, main_v19, main_v20, main_v21, main_v22, main_v23, main_v24, main_v25, main_cst_0, main_v26, main_v27, main_cst_1, main_v28, main_v29, main_v30, main_v31, main_v32, main_v33, main_v34, main_v35, main_v36, main_v37, main_v38, main_v39, main_v40, main_v41, main_v42, main_cst_2, main_v43, main_v44, main_cst_3, main_v45, main_v46, main_v47, main_v48, main_v49, main_v50, main_v51, main_v52, main_v53, main_v54, main_v55, main_v56, main_v57, main_v58, main_v59, main_cst_4, main_v60, main_v61, main_cst_5, main_v62, main_v63, main_v64, main_v65, main_v66, main_v67, main_v68, main_v69, main_v70, main_v71, main_v72, main_v73, main_v74, main_v75, main_v76, main_cst_6, main_v77, main_v78, main_cst_7, main_v79, main_v80, main_v81, main_v82, main_v83, main_v84, main_cst_8, main_v85, main_v86, main_cst_9, main_v87, main_v88, main_v89, main_v90, main_v91, main_v92, main_v93, main_v94, main_v95, main_v96, main_v97, main_v98, main_v99, main_v100, main_v101, main_cst_10, main_v102, main_v103, main_cst_11, main_v104, main_v105, main_v106, main_v107, main_v108, main_v109, main_v110, main_v111, main_v112, main_v113, main_v114, main_v115, main_v116, main_v117, main_v118, main_cst_12, main_v119, main_v120, main_cst_13, main_v121, main_v122, main_v123, main_v124, main_v125, main_v126, main_v127, main_v128, main_v129, main_v130, main_v131, main_v132, main_v133, main_v134, main_v135, main_cst_14, main_v136, main_v137, main_cst_15, main_v138, main_v139, main_v140, main_v141, main_v142, main_v143]
set_option maxHeartbeats 40000000 in
theorem hostOps2_writes : (hostOps2 : List (HloOp τ sig (Elt F))).Forall fun op => op.writes ⊆ (written2.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxHeartbeats 40000000 in
theorem hostOps4_fresh : (hostOps4 : List (HloOp τ sig (Elt F))).Forall fun op => op.fresh = ∅ := by
  simp only [List.Forall]; repeat' constructor
/-- The references the stretch `hostOps4` writes: one result buffer per operation. -/
abbrev written4 : List (Ref sig .tc) := [main_v146, main_v147, main_v148, main_v149, main_v150, main_v151, main_v152, main_v153, main_cst_16, main_v154, main_v155, main_cst_17, main_v156, main_v157, main_v158, main_cst_18, main_v159, main_v160, main_cst_19, main_v161, main_v162, main_v163, main_v164, main_v165, main_v166, main_v167, main_v168, main_v169, main_v170, main_v171, main_v172, main_v173, main_v174, main_cst_20, main_v175, main_v176, main_cst_21, main_v177, main_v178, main_v179, main_v180, main_cst_22, main_v181, main_v182, main_cst_23, main_v183, main_v184, main_v185, main_v186, main_v187, main_v188, main_v189, main_v190, main_v191, main_v192, main_v193, main_v194, main_v195, main_v196, main_cst_24, main_v197, main_v198, main_cst_25, main_v199, main_v200, main_v201, main_v202, main_cst_26, main_v203, main_v204, main_cst_27, main_v205, main_v206, main_v207, main_v208, main_v209, main_v210, main_v211, main_v212, main_v213, main_v214, main_v215, main_v216, main_v217, main_v218, main_cst_28, main_v219, main_v220, main_cst_29, main_v221, main_v222, main_v223, main_v224, main_cst_30, main_v225, main_v226, main_cst_31, main_v227, main_v228, main_v229, main_cst_32, main_v230, main_v231, main_cst_33, main_v232, main_v233, main_v234, main_v235, main_v236, main_v237, main_v238, main_v239, main_v240, main_v241, main_v242, main_v243, main_v244, main_v245, main_cst_34, main_v246, main_v247, main_cst_35, main_v248, main_v249, main_v250, main_v251, main_cst_36, main_v252, main_v253, main_cst_37, main_v254, main_v255, main_v256, main_v257, main_v258, main_v259, main_v260, main_v261, main_v262, main_v263, main_v264, main_v265, main_v266, main_v267, main_cst_38, main_v268, main_v269, main_cst_39, main_v270, main_v271, main_v272, main_v273, main_cst_40, main_v274, main_v275, main_cst_41, main_v276, main_v277, main_v278, main_v279, main_v280, main_v281, main_v282, main_v283, main_v284, main_v285, main_v286, main_v287, main_v288, main_v289, main_cst_42, main_v290, main_v291, main_cst_43, main_v292, main_v293, main_v294, main_v295, main_v296, main_v297, main_v298, main_v299, main_v300]
set_option maxHeartbeats 40000000 in
theorem hostOps4_writes : (hostOps4 : List (HloOp τ sig (Elt F))).Forall fun op => op.writes ⊆ (written4.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ written0) : W1 m ρ c (Proc.devRef .tc r) = W0 m ρ c (Proc.devRef .tc r) :=
  StableHlo.after_of_writes_sub hostOps0 _ hostOps0_writes h

/-- At region 0's exit: its arrays at what the pipeline leaves (the inputs as entered, the output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (arr0_eq (V1 m ρ) c w))

/-- At region 1's exit: its arrays at what the pipeline leaves (the inputs as entered, the output with its write-backs
    folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (arr1_eq (V2 m ρ) c w))

/-- After the host stretch `hostOps2`. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
theorem W4_of (c : Dev nD) (r : Ref sig .tc) (h : r ∉ written2) : W4 m ρ c (Proc.devRef .tc r) = W3 m ρ c (Proc.devRef .tc r) :=
  StableHlo.after_of_writes_sub hostOps2 _ hostOps2_writes h

/-- At region 2's exit: its arrays at what the pipeline leaves (the inputs as entered, the output with its write-backs
    folded in), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves the region as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (arr2_eq (V4 m ρ) c w))

/-- At region 3's exit: its arrays at what the pipeline leaves (the inputs as entered, the output with its write-backs
    folded in), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- An input window's array leaves the region as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (arr3_eq (V5 m ρ) c w))

/-- After the host stretch `hostOps4`. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
theorem W7_of (c : Dev nD) (r : Ref sig .tc) (h : r ∉ written4) : W7 m ρ c (Proc.devRef .tc r) = W6 m ρ c (Proc.devRef .tc r) :=
  StableHlo.after_of_writes_sub hostOps4 _ hostOps4_writes h

/-! ## The proof data family and what rides beside the buffers -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`.  Its arrays
    are split out of the unscoped buffers and put back at their final contents; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter0 (V1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`.  Its arrays
    are split out of the unscoped buffers and put back at their final contents; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter1 (V2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`.  Its arrays
    are split out of the unscoped buffers and put back at their final contents; the generator register goes into the
    region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter2 (V4 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W5`, left with them at `W6`.  Its arrays
    are split out of the unscoped buffers and put back at their final contents; the generator register goes into the
    region invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter3 (V5 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave3 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at `W7`. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.Bits.Frame.lean ====
/-
  The argument arrays end as launched: no host operation writes one, and a region either does not touch it or
  stages it through an input window, which it leaves as it found it.  So the contents at the last boundary, read at an
  argument, walk back through the seven segments to the launch memory.
-/
import proofs.«174668_j26645977104432_2_alg».proof.Proof.Bits.Whole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of_ne m ρ c main_arg0 (by decide)).trans <|
    (W4_of m ρ c main_arg0 (by decide)).trans <| (W3_in m ρ c 1 rfl).trans <| (W2_in m ρ c 1 rfl).trans <|
    (W1_of m ρ c main_arg0 (by decide)).trans rfl

theorem W7_main_arg1 (c : Dev nD) : W7 m ρ c (Proc.devRef .tc main_arg1) = m ((c : Thread nD τ).loc main_arg1) :=
  (W7_of m ρ c main_arg1 (by decide)).trans <| (W6_in m ρ c 0 rfl).trans <| (W5_of_ne m ρ c main_arg1 (by decide)).trans <|
    (W4_of m ρ c main_arg1 (by decide)).trans <| (W3_in m ρ c 0 rfl).trans <| (W2_of_ne m ρ c main_arg1 (by decide)).trans <|
    (W1_of m ρ c main_arg1 (by decide)).trans rfl

theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_in m ρ c 0 rfl).trans <|
    (W4_of m ρ c main_arg2 (by decide)).trans <| (W3_of_ne m ρ c main_arg2 (by decide)).trans <| (W2_in m ρ c 0 rfl).trans <|
    (W1_of m ρ c main_arg2 (by decide)).trans rfl

theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of_ne m ρ c main_arg3 (by decide)).trans <|
    (W4_of m ρ c main_arg3 (by decide)).trans <| (W3_of_ne m ρ c main_arg3 (by decide)).trans <| (W2_of_ne m ρ c main_arg3 (by decide)).trans <|
    (W1_of m ρ c main_arg3 (by decide)).trans rfl

theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of_ne m ρ c main_arg4 (by decide)).trans <|
    (W4_of m ρ c main_arg4 (by decide)).trans <| (W3_of_ne m ρ c main_arg4 (by decide)).trans <| (W2_of_ne m ρ c main_arg4 (by decide)).trans <|
    (W1_of m ρ c main_arg4 (by decide)).trans rfl

theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of_ne m ρ c main_arg5 (by decide)).trans <|
    (W4_of m ρ c main_arg5 (by decide)).trans <| (W3_of_ne m ρ c main_arg5 (by decide)).trans <| (W2_of_ne m ρ c main_arg5 (by decide)).trans <|
    (W1_of m ρ c main_arg5 (by decide)).trans rfl

theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of_ne m ρ c main_arg6 (by decide)).trans <|
    (W4_of m ρ c main_arg6 (by decide)).trans <| (W3_of_ne m ρ c main_arg6 (by decide)).trans <| (W2_of_ne m ρ c main_arg6 (by decide)).trans <|
    (W1_of m ρ c main_arg6 (by decide)).trans rfl

theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of_ne m ρ c main_arg7 (by decide)).trans <|
    (W4_of m ρ c main_arg7 (by decide)).trans <| (W3_of_ne m ρ c main_arg7 (by decide)).trans <| (W2_of_ne m ρ c main_arg7 (by decide)).trans <|
    (W1_of m ρ c main_arg7 (by decide)).trans rfl

theorem W7_main_arg8 (c : Dev nD) : W7 m ρ c (Proc.devRef .tc main_arg8) = m ((c : Thread nD τ).loc main_arg8) :=
  (W7_of m ρ c main_arg8 (by decide)).trans <| (W6_of_ne m ρ c main_arg8 (by decide)).trans <| (W5_of_ne m ρ c main_arg8 (by decide)).trans <|
    (W4_of m ρ c main_arg8 (by decide)).trans <| (W3_of_ne m ρ c main_arg8 (by decide)).trans <| (W2_of_ne m ρ c main_arg8 (by decide)).trans <|
    (W1_of m ρ c main_arg8 (by decide)).trans rfl

/-- Every weakly fair execution terminates, nothing faulting, with the nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_whole m ρ)

end Cert.Kernel.Hand

end
-- ==== Proof.Ideal.Reg0.Setup.lean ====
/-
  Region 0 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.KernelIdeal.Launch
import proofs.«174668_j26645977104432_2_alg».proof.Proof.Gen.KernelIdeal.Skeleton
import proofs.«174668_j26645977104432_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is found at its block at every point, fetched there or not: when it is not fetched its
    index has not moved since the last fetch, and the body leaves the buffer as it found it. -/
theorem found0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- Input window 1 is found at its block at every point, fetched there or not: when it is not fetched its
    index has not moved since the last fetch, and the body leaves the buffer as it found it. -/
theorem found0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-- Input window 2 is found at its block at every point, fetched there or not: when it is not fetched its
    index has not moved since the last fetch, and the body leaves the buffer as it found it. -/
theorem found0_2_of {c : Dev nD} (dat : Dat τ (Elt F) Unit ℕ (UR sig nD τ) ℕ cfg0 c) (hA : dat.A 2 = V c (Pipeline.arrRef spec0 2))
    (hafter : ∀ t, dat.after 2 t = block0 V c 2 t) (t : Fin cfg0.N) (d) : dat.before 2 t d = block0 V c 2 t :=
  (dat.before_in_eq_fetched 2 rfl (fun _ => rfl) (fun _ _ _ => rfl) (fun t => by rw [hafter]; unfold Dat.blockOf block0; rw [hA]; try rfl) t d).trans
    (by unfold Dat.fetched Dat.blockOf block0; rw [hA]; try rfl)

/-- Input window 3 is found at its block at every point, fetched there or not: when it is not fetched its
    index has not moved since the last fetch, and the body leaves the buffer as it found it. -/
theorem found0_3_of {c : Dev nD} (dat : Dat τ (Elt F) Unit ℕ (UR sig nD τ) ℕ cfg0 c) (hA : dat.A 3 = V c (Pipeline.arrRef spec0 3))
    (hafter : ∀ t, dat.after 3 t = block0 V c 3 t) (t : Fin cfg0.N) (d) : dat.before 3 t d = block0 V c 3 t :=
  (dat.before_in_eq_fetched 3 rfl (fun _ => rfl) (fun _ _ _ => rfl) (fun t => by rw [hafter]; unfold Dat.blockOf block0; rw [hA]; try rfl) t d).trans
    (by unfold Dat.fetched Dat.blockOf block0; rw [hA]; try rfl)

end

/-! ## The two branches of the body, over the grid -/

/-- The reduction index is 0: the accumulator is reset. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 16 = 0 :=
  (by decide +kernel : ∀ t : Fin grid0.N, first0 (grid0.coords t) ↔ t.val % 16 = 0)

/-- The reduction index is 15: the output block is written. -/
abbrev last0 (i : grid0.Coords) : Prop := k0_cond2 i = 1#1
theorem last0_iff : ∀ t : Fin cfg0.N, last0 (grid0.coords t) ↔ t.val % 16 = 15 :=
  (by decide +kernel : ∀ t : Fin grid0.N, last0 (grid0.coords t) ↔ t.val % 16 = 15)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last reduction step the output window is idle and is not written back. -/
theorem idle0_out : ∀ t : Fin cfg0.N, ¬last0 (grid0.coords t) → cfg0.idle 4 (grid0.coords t) = true := by decide +kernel
theorem noFlush0_out : ∀ t : Fin cfg0.N, ¬last0 (grid0.coords t) → (cfg0.win 4).flush t = false := by decide +kernel
/-- At the last reduction step it is live. -/
theorem live0_out : ∀ t : Fin cfg0.N, last0 (grid0.coords t) → cfg0.idle 4 (grid0.coords t) = false := by decide +kernel

/-! ## The memrefs the body is called with -/

abbrev mem0_0 (t : Fin cfg0.N) : Memref sig .tc .vmem S2048x512 .f32 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S8192x200 .f32 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S200x200 .f32 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S1x200 .f32 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S2048x200 .f32 := win0_4.stage (cfg0.slots t 4)
abbrev whole0_4 (t : Fin cfg0.N) : (mem0_4 t).IsWhole := hstage0_4 ((cfg0.slots t 4).cast nbuf0_4)
/-- The accumulator: a whole scoped buffer of the kernel's own. -/
abbrev acc0 : Memref sig .tc .vmem S2048x200 .f32 := Memref.whole cc0_scratch0
abbrev accView0 : View sig .tc .vmem S2048x200 .f32 := acc0.view
/-- One staging buffer of the output window, through which its contents are stated. -/
abbrev outView0 : View sig .tc .vmem S2048x200 .f32 := (Memref.whole cc0_stg4_0 : Memref sig .tc .vmem S2048x200 .f32).view

/-- The region's class invariant with the accumulator taken out of the scoped rest. -/
theorem phiA0_eq (c : Dev nD) :
    (Pipeline.ΦA spec0 c : sProp 𝕄)
      = iprop(iprop(iprop((∃ d, owns (c : Thread nD τ) acc0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [acc0, owns_whole]; try rfl

end Cert.KernelIdeal.Hand

end
-- ==== Proof.Ideal.Reg0.CaseFirst.lean ====
/-
  Region 0, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Ideal.Reg0.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first0 i) (hc1 : ¬last0 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc0__matmul_relu_bias_kernel i a2 h2 a3 h3 a4 h4 a5 h5 a6 h6 a7 h7) K } := by
  refine ⟨?_, fun xo E K => ?run⟩
  case run =>
    simp only [cc0__matmul_relu_bias_kernel_eq_skeleton]; unfold cc0__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg0.CaseMid.lean ====
/-
  Region 0, a middle reduction step (reduction index 1 … 14): the body adds the step's partial product
  into the accumulator the step before left, and leaves the output window untouched.
-/
import proofs.«174668_j26645977104432_2_alg».proof.Proof.Ideal.Reg0.CaseFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first0 i) (hc1 : ¬last0 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc0__matmul_relu_bias_kernel i a2 h2 a3 h3 a4 h4 a5 h5 a6 h6 a7 h7) K } := by
  refine ⟨?_, fun xo E K => ?run⟩
  case run =>
    simp only [cc0__matmul_relu_bias_kernel_eq_skeleton]; unfold cc0__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg0.CaseLast.lean ====
/-
  Region 0, the last reduction step (reduction index 15): the body adds the step's partial product into the
  accumulator, then writes `max (accumulator + bias) 0` into the output window's buffer.
-/
import proofs.«174668_j26645977104432_2_alg».proof.Proof.Ideal.Reg0.CaseMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first0 i) (hc1 : last0 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc0__matmul_relu_bias_kernel i a2 h2 a3 h3 a4 h4 a5 h5 a6 h6 a7 h7) K } := by
  refine ⟨?_, ?_, fun E K => ?run⟩
  case run =>
    simp only [cc0__matmul_relu_bias_kernel_eq_skeleton]; unfold cc0__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.KernelIdeal.Hand

end
-- ==== Proof.Ideal.Reg0.Data.lean ====
/-
  Region 0: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt0`): each point's contents are
  the stores its case's run found, read back, over the accumulator the point before left.
-/
import proofs.«174668_j26645977104432_2_alg».proof.Proof.Ideal.Reg0.CaseLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread0 : Vec F S2048x200 .f32 := outView0.read (Elt F) outView0.junk

/-! ## What each case leaves -/

/-- The accumulator after a point with reduction index 0. -/
def accFirst0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first0 i) (hc1 : ¬last0 i) (x0 : Vec F S2048x512 .f32) (x1 : Vec F S8192x200 .f32) (x2 : Vec F S200x200 .f32) (x3 : Vec F S1x200 .f32) : Vec F S2048x200 .f32 :=
  accView0.read (Elt F) (accView0.writes (Elt F) accView0.junk (runFirst0 c i a2 h2 a3 h3 a4 h4 a5 h5 a6 h6 a7 h7 hc0 hc1 x0 x1 x2 x3).1)
/-- Its stores tile the accumulator, so they cover it. -/
theorem accFirst0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first0 i) (hc1 : ¬last0 i) (x0 : Vec F S2048x512 .f32) (x1 : Vec F S8192x200 .f32) (x2 : Vec F S200x200 .f32) (x3 : Vec F S1x200 .f32) (y : S2048x200.Idx) :
    ∃ pc ∈ (runFirst0 c i a2 h2 a3 h3 a4 h4 a5 h5 a6 h6 a7 h7 hc0 hc1 x0 x1 x2 x3).1, y ∈ pc.1.set :=
  View.cover_of_tiledL (runFirst0 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : ¬last0 i) (x0 : Vec F S2048x512 .f32) (x1 : Vec F S8192x200 .f32) (x2 : Vec F S200x200 .f32) (x3 : Vec F S1x200 .f32) (xs : Vec F S2048x200 .f32) : Vec F S2048x200 .f32 :=
  accView0.read (Elt F) (accView0.writes (Elt F) accView0.junk (runMid0 c i a2 h2 a3 h3 a4 h4 a5 h5 a6 h6 a7 h7 hc0 hc1 x0 x1 x2 x3 xs).1)
theorem accMid0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : ¬last0 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid0 c i a2 h2 a3 h3 a4 h4 a5 h5 a6 h6 a7 h7 hc0 hc1 x0 x1 x2 x3 xs).1, y ∈ pc.1.set :=
  View.cover_of_tiledL (runMid0 c i a2 h2 a3 h3 a4 h4 a5 h5 a6 h6 a7 h7 hc0 hc1 x0 x1 x2 x3 xs).1 S2048x200.size (by sl_kernel_rfl) y

/-- The accumulator after a point with reduction index 15. -/
def accLast0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) : Vec F S2048x200 .f32 :=
  accView0.read (Elt F) (accView0.writes (Elt F) accView0.junk (runLast0 c i a2 h2 a3 h3 a4 h4 a5 h5 a6 h6 a7 h7 hc0 hc1 x0 x1 x2 x3 xs).2.1)
theorem accLast0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast0 c i a2 h2 a3 h3 a4 h4 a5 h5 a6 h6 a7 h7 hc0 hc1 x0 x1 x2 x3 xs).2.1, y ∈ pc.1.set :=
  View.cover_of_tiledL (runLast0 c i a2 h2 a3 h3 a4 h4 a5 h5 a6 h6 a7 h7 hc0 hc1 x0 x1 x2 x3 xs).2.1 S2048x200.size (by sl_kernel_rfl) y
/-- The output window's buffer after a point with reduction index 15. -/
def outLast0 (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) : Vec F S2048x200 .f32 :=
  outView0.read (Elt F) (outView0.writes (Elt F) outView0.junk (runLast0 c i a2 h2 a3 h3 a4 h4 a5 h5 a6 h6 a7 h7 hc0 hc1 x0 x1 x2 x3 xs).1)
theorem outLast0_cover (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast0 c i a2 h2 a3 h3 a4 h4 a5 h5 a6 h6 a7 h7 hc0 hc1 x0 x1 x2 x3 xs).1, y ∈ pc.1.set :=
  View.cover_of_tiledL (runLast0 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt0 (c : Dev nD) : (n : ℕ) → n < cfg0.N → Vec F S2048x200 .f32 × Vec F S2048x200 .f32
  | 0, hn => (unread0, accFirst0 c (grid0.coords ⟨0, hn⟩) (mem0_0 ⟨0, hn⟩) (whole0_0 ⟨0, hn⟩) (mem0_1 ⟨0, hn⟩) (whole0_1 ⟨0, hn⟩) (mem0_2 ⟨0, hn⟩) (whole0_2 ⟨0, hn⟩) (mem0_3 ⟨0, hn⟩) (whole0_3 ⟨0, hn⟩) (mem0_4 ⟨0, hn⟩) (whole0_4 ⟨0, hn⟩) acc0 (Memref.isWhole_whole _) ((first0_iff ⟨0, hn⟩).mpr (Nat.zero_mod _)) (fun h => (fun h => by (try dsimp only at h); omega) ((last0_iff ⟨0, hn⟩).mp h)) (block0 V c 0 ⟨0, hn⟩) (block0 V c 1 ⟨0, hn⟩) (block0 V c 2 ⟨0, hn⟩) (block0 V c 3 ⟨0, hn⟩))
  | n + 1, hn =>
    if h0 : (n + 1) % 16 = 0 then
      (unread0, accFirst0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) ((first0_iff ⟨n + 1, hn⟩).mpr h0) (fun h => (fun h => by (try dsimp only at h); omega) ((last0_iff ⟨n + 1, hn⟩).mp h)) (block0 V c 0 ⟨n + 1, hn⟩) (block0 V c 1 ⟨n + 1, hn⟩) (block0 V c 2 ⟨n + 1, hn⟩) (block0 V c 3 ⟨n + 1, hn⟩))
    else
      if h1 : (n + 1) % 16 = 15 then
        (outLast0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) (fun h => h0 ((first0_iff ⟨n + 1, hn⟩).mp h)) ((last0_iff ⟨n + 1, hn⟩).mpr h1) (block0 V c 0 ⟨n + 1, hn⟩) (block0 V c 1 ⟨n + 1, hn⟩) (block0 V c 2 ⟨n + 1, hn⟩) (block0 V c 3 ⟨n + 1, hn⟩) (stateAt0 c n (Nat.lt_of_succ_lt hn)).2,
         accLast0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) (fun h => h0 ((first0_iff ⟨n + 1, hn⟩).mp h)) ((last0_iff ⟨n + 1, hn⟩).mpr h1) (block0 V c 0 ⟨n + 1, hn⟩) (block0 V c 1 ⟨n + 1, hn⟩) (block0 V c 2 ⟨n + 1, hn⟩) (block0 V c 3 ⟨n + 1, hn⟩) (stateAt0 c n (Nat.lt_of_succ_lt hn)).2)
      else
        (unread0, accMid0 c (grid0.coords ⟨n + 1, hn⟩) (mem0_0 ⟨n + 1, hn⟩) (whole0_0 ⟨n + 1, hn⟩) (mem0_1 ⟨n + 1, hn⟩) (whole0_1 ⟨n + 1, hn⟩) (mem0_2 ⟨n + 1, hn⟩) (whole0_2 ⟨n + 1, hn⟩) (mem0_3 ⟨n + 1, hn⟩) (whole0_3 ⟨n + 1, hn⟩) (mem0_4 ⟨n + 1, hn⟩) (whole0_4 ⟨n + 1, hn⟩) acc0 (Memref.isWhole_whole _) (fun h => h0 ((first0_iff ⟨n + 1, hn⟩).mp h)) (fun h => h1 ((last0_iff ⟨n + 1, hn⟩).mp h)) (block0 V c 0 ⟨n + 1, hn⟩) (block0 V c 1 ⟨n + 1, hn⟩) (block0 V c 2 ⟨n + 1, hn⟩) (block0 V c 3 ⟨n + 1, hn⟩) (stateAt0 c n (Nat.lt_of_succ_lt hn)).2)

theorem stateAt0_first (c : Dev nD) (t : Fin cfg0.N) (h0 : t.val % 16 = 0) (hl : ¬last0 (grid0.coords t)) :
    stateAt0 V c t.val t.isLt = (unread0, accFirst0 c (grid0.coords t) (mem0_0 t) (whole0_0 t) (mem0_1 t) (whole0_1 t) (mem0_2 t) (whole0_2 t) (mem0_3 t) (whole0_3 t) (mem0_4 t) (whole0_4 t) acc0 (Memref.isWhole_whole _) ((first0_iff t).mpr h0) hl (block0 V c 0 t) (block0 V c 1 t) (block0 V c 2 t) (block0 V c 3 t)) := by
  obtain ⟨n, hn⟩ := t
  cases n with
  | zero => exact rfl
  | succ n => exact (dif_pos h0).trans rfl

theorem stateAt0_mid (c : Dev nD) (t : Fin cfg0.N) (h0 : ¬t.val % 16 = 0) (h1 : ¬t.val % 16 = 15) :
    stateAt0 V c t.val t.isLt = (unread0, accMid0 c (grid0.coords t) (mem0_0 t) (whole0_0 t) (mem0_1 t) (whole0_1 t) (mem0_2 t) (whole0_2 t) (mem0_3 t) (whole0_3 t) (mem0_4 t) (whole0_4 t) acc0 (Memref.isWhole_whole _) (fun h => h0 ((first0_iff t).mp h)) (fun h => h1 ((last0_iff t).mp h)) (block0 V c 0 t) (block0 V c 1 t) (block0 V c 2 t) (block0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt0_last (c : Dev nD) (t : Fin cfg0.N) (h0 : ¬t.val % 16 = 0) (h1 : t.val % 16 = 15) :
    stateAt0 V c t.val t.isLt = (outLast0 c (grid0.coords t) (mem0_0 t) (whole0_0 t) (mem0_1 t) (whole0_1 t) (mem0_2 t) (whole0_2 t) (mem0_3 t) (whole0_3 t) (mem0_4 t) (whole0_4 t) acc0 (Memref.isWhole_whole _) (fun h => h0 ((first0_iff t).mp h)) ((last0_iff t).mpr h1) (block0 V c 0 t) (block0 V c 1 t) (block0 V c 2 t) (block0 V c 3 t) (stateAt0 V c (t.val - 1) (Nat.lt_of_le_of_lt (Nat.sub_le _ _) t.isLt)).2,
      accLast0 c (grid0.coords t) (mem0_0 t) (whole0_0 t) (mem0_1 t) (whole0_1 t) (mem0_2 t) (whole0_2 t) (mem0_3 t) (whole0_3 t) (mem0_4 t) (whole0_4 t) acc0 (Memref.isWhole_whole _) (fun h => h0 ((first0_iff t).mp h)) ((last0_iff t).mpr h1) (block0 V c 0 t) (block0 V c 1 t) (block0 V c 2 t) (block0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi0 (c : Dev nD) : (n : ℕ) → n ≤ cfg0.N → sProp 𝕄
  | 0, _ => Pipeline.ΦA spec0 c
  | n + 1, hn => iprop(iprop(iprop(owns (c : Thread nD τ) acc0 fullShare ((stateAt0 V c n hn).2)) ∗ Pipeline.scopedRestBut (Ix := Unit) (Name := ℕ) (U := UR sig nD τ) (Lvl := ℕ) (Val := Elt F) spec0 c [cc0_scratch0]) ∗ (∃ r, prngReg c r))

theorem phi0_zero (c : Dev nD) (n : ℕ) (h : n ≤ cfg0.N) (hz : n = 0) : phi0 V c n h = Pipeline.ΦA spec0 c := by
  subst hz; rfl
theorem phi0_succ (c : Dev nD) (n : ℕ) (hn : n < cfg0.N) :
    phi0 V c (n + 1) hn = iprop(iprop(iprop(owns (c : Thread nD τ) acc0 fullShare ((stateAt0 V c n hn).2)) ∗ Pipeline.scopedRestBut (Ix := Unit) (Name := ℕ) (U := UR sig nD τ) (Lvl := ℕ) (Val := Elt F) spec0 c [cc0_scratch0]) ∗ (∃ r, prngReg c r)) := rfl
theorem phi0_pos (c : Dev nD) (n : ℕ) (h : n ≤ cfg0.N) (hz : n ≠ 0) :
    phi0 V c n h = iprop(iprop(iprop(owns (c : Thread nD τ) acc0 fullShare ((stateAt0 V c (n - 1) (by omega)).2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each input's buffer at its block, the output's at
    `stateAt0`'s first component; the invariant `phi0`; nothing owed; full shares. -/
def dat0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => (stateAt0 V c t.val t.isLt).1
  Φ t := phi0 V c t.val (Nat.le_of_lt_succ t.isLt)
  q _ := fullShare
  owed _ := 0

theorem arr0_eq (c : Dev nD) (w : Fin cfg0.W) : (dat0 V c).A w = V c (Pipeline.arrRef spec0 w) := by
  dsimp only [dat0]

theorem phi0_castSucc (c : Dev nD) (t : Fin cfg0.N) :
    (dat0 V c).Φ t.castSucc = phi0 V c t.val (Nat.le_of_lt t.isLt) := by
  dsimp only [dat0]; simp only [Fin.coe_castSucc]

theorem after0_0 (c : Dev nD) (t : Fin cfg0.N) : (dat0 V c).after 0 t = block0 V c 0 t := by dsimp only [dat0]
theorem after0_1 (c : Dev nD) (t : Fin cfg0.N) : (dat0 V c).after 1 t = block0 V c 1 t := by dsimp only [dat0]
theorem after0_2 (c : Dev nD) (t : Fin cfg0.N) : (dat0 V c).after 2 t = block0 V c 2 t := by dsimp only [dat0]
theorem after0_3 (c : Dev nD) (t : Fin cfg0.N) : (dat0 V c).after 3 t = block0 V c 3 t := by dsimp only [dat0]
theorem after0_4 (c : Dev nD) (t : Fin cfg0.N) : (dat0 V c).after 4 t = (stateAt0 V c t.val t.isLt).1 := by dsimp only [dat0]

theorem found0_0 (c : Dev nD) (t : Fin cfg0.N) (d) : (dat0 V c).before 0 t d = block0 V c 0 t :=
  found0_0_of V (dat0 V c) (arr0_eq V c 0) (after0_0 V c) t d
theorem found0_1 (c : Dev nD) (t : Fin cfg0.N) (d) : (dat0 V c).before 1 t d = block0 V c 1 t :=
  found0_1_of V (dat0 V c) (arr0_eq V c 1) (after0_1 V c) t d
theorem found0_2 (c : Dev nD) (t : Fin cfg0.N) (d) : (dat0 V c).before 2 t d = block0 V c 2 t :=
  found0_2_of V (dat0 V c) (arr0_eq V c 2) (after0_2 V c) t d
theorem found0_3 (c : Dev nD) (t : Fin cfg0.N) (d) : (dat0 V c).before 3 t d = block0 V c 3 t :=
  found0_3_of V (dat0 V c) (arr0_eq V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (mem0_0 t) fullShare ((dat0 V c).before 0 t d))
    ∗ (∃ d, owns (c : Thread nD τ) (mem0_1 t) fullShare ((dat0 V c).before 1 t d))
    ∗ (∃ d, owns (c : Thread nD τ) (mem0_2 t) fullShare ((dat0 V c).before 2 t d))
    ∗ (∃ d, owns (c : Thread nD τ) (mem0_3 t) fullShare ((dat0 V c).before 3 t d))
    ∗ (∃ d, owns (c : Thread nD τ) (mem0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3]
  rw [show (dat0 V c).owesAt () t.succ = (dat0 V c).owesAt () t.castSucc from rfl]
  rw [show (dat0 V c).Φ t.succ = phi0 V c (t.val + 1) t.isLt from rfl, phi0_succ]
  have hN : t.val < 64 := lt_of_lt_of_eq t.isLt (show cfg0.N = 64 from N_0)
  rw [show (dat0 V c).leavesExact 0 t = owns (c : Thread nD τ) (mem0_0 t) fullShare ((dat0 V c).after 0 t) from by
    unfold Dat.leavesExact; rw [live0_0 t], after0_0]
  rw [show (dat0 V c).leavesExact 1 t = owns (c : Thread nD τ) (mem0_1 t) fullShare ((dat0 V c).after 1 t) from by
    unfold Dat.leavesExact; rw [live0_1 t], after0_1]
  rw [show (dat0 V c).leavesExact 2 t = owns (c : Thread nD τ) (mem0_2 t) fullShare ((dat0 V c).after 2 t) from by
    unfold Dat.leavesExact; rw [live0_2 t], after0_2]
  rw [show (dat0 V c).leavesExact 3 t = owns (c : Thread nD τ) (mem0_3 t) fullShare ((dat0 V c).after 3 t) from by
    unfold Dat.leavesExact; rw [live0_3 t], after0_3]
  by_cases h0 : t.val % 16 = 0
  · have hl : ¬last0 (grid0.coords t) := fun h => by have h' := (last0_iff t).mp h; omega
    rw [Dat.leavesExact_idle (dat0 V c) 4 t (idle0_out t hl) (noFlush0_out t hl)]
    rw [stateAt0_first V c t h0 hl]
    unfold accFirst0; (try dsimp only)
    by_cases hz : t.val = 0
    · rw [phi0_castSucc V c t, phi0_zero V c _ _ hz, phiA0_eq]
      iintro ⟨⟨⟨HS, Hrest⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) hl (block0 V c 0 t) (block0 V c 1 t) (block0 V c 2 t) (block0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi0_castSucc V c t, phi0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) hl (block0 V c 0 t) (block0 V c 1 t) (block0 V c 2 t) (block0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat0 V c).leavesExact 4 t = owns (c : Thread nD τ) (mem0_4 t) fullShare ((dat0 V c).after 4 t) from by
        unfold Dat.leavesExact; rw [live0_out t ((last0_iff t).mpr h1)], after0_4]
      rw [stateAt0_last V c t h0 h1]
      unfold outLast0 accLast0; (try dsimp only)
      rw [phi0_castSucc V c t, phi0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast0 c (grid0.coords t) _ _ _ _ _ _ _ _ _ _ _ _ (fun h => h0 ((first0_iff t).mp h)) ((last0_iff t).mpr h1) (block0 V c 0 t) (block0 V c 1 t) (block0 V c 2 t) (block0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast0_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast0_cover c _ _ _ _ _ _ _ _ _ _ _ _ _ _ _ _ _ _ _ _)
    · have hl : ¬last0 (grid0.coords t) := (fun h => h1 ((last0_iff t).mp h))
      rw [Dat.leavesExact_idle (dat0 V c) 4 t (idle0_out t hl) (noFlush0_out t hl)]
      rw [stateAt0_mid V c t h0 h1]
      unfold accMid0; (try dsimp only)
      rw [phi0_castSucc V c t, phi0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid0 c (grid0.coords t) _ _ _ _ _ _ _ _ _ _ _ _ (fun h => h0 ((first0_iff t).mp h)) hl (block0 V c 0 t) (block0 V c 1 t) (block0 V c 2 t) (block0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid0_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem enter0 (c : Dev nD) : Pipeline.ΦA spec0 c ⊢ (dat0 V c).Φ 0 := by
  rw [show (dat0 V c).Φ 0 = phi0 V c 0 (Nat.zero_le _) from rfl, phi0_zero V c 0 _ rfl]
  try exact Idealize.SL.BI.Entails.refl _

/-- After the last point the invariant gives the class invariant back: the accumulator's contents are forgotten. -/
theorem leave0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = phi0 V c (Fin.last cfg0.N).val (Nat.le_of_lt_succ (Fin.last cfg0.N).isLt) from rfl, phi0_pos V c _ _ hne, phiA0_eq]
  iintro ⟨⟨HS, Hrest⟩, Hg⟩
  isplitl [HS Hrest]
  · isplitl [HS]
    · iexists _; iexact HS
    iexact Hrest
  iexact Hg

end

end Cert.KernelIdeal.Hand

end
-- ==== Proof.Ideal.Reg1.Setup.lean ====
/-
  Region 1 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.KernelIdeal.Launch
import proofs.«174668_j26645977104432_2_alg».proof.Proof.Gen.KernelIdeal.Skeleton
import proofs.«174668_j26645977104432_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is found at its block at every point, fetched there or not: when it is not fetched its
    index has not moved since the last fetch, and the body leaves the buffer as it found it. -/
theorem found1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- Input window 1 is found at its block at every point, fetched there or not: when it is not fetched its
    index has not moved since the last fetch, and the body leaves the buffer as it found it. -/
theorem found1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-- Input window 2 is found at its block at every point, fetched there or not: when it is not fetched its
    index has not moved since the last fetch, and the body leaves the buffer as it found it. -/
theorem found1_2_of {c : Dev nD} (dat : Dat τ (Elt F) Unit ℕ (UR sig nD τ) ℕ cfg1 c) (hA : dat.A 2 = V c (Pipeline.arrRef spec1 2))
    (hafter : ∀ t, dat.after 2 t = block1 V c 2 t) (t : Fin cfg1.N) (d) : dat.before 2 t d = block1 V c 2 t :=
  (dat.before_in_eq_fetched 2 rfl (fun _ => rfl) (fun _ _ _ => rfl) (fun t => by rw [hafter]; unfold Dat.blockOf block1; rw [hA]; try rfl) t d).trans
    (by unfold Dat.fetched Dat.blockOf block1; rw [hA]; try rfl)

/-- Input window 3 is found at its block at every point, fetched there or not: when it is not fetched its
    index has not moved since the last fetch, and the body leaves the buffer as it found it. -/
theorem found1_3_of {c : Dev nD} (dat : Dat τ (Elt F) Unit ℕ (UR sig nD τ) ℕ cfg1 c) (hA : dat.A 3 = V c (Pipeline.arrRef spec1 3))
    (hafter : ∀ t, dat.after 3 t = block1 V c 3 t) (t : Fin cfg1.N) (d) : dat.before 3 t d = block1 V c 3 t :=
  (dat.before_in_eq_fetched 3 rfl (fun _ => rfl) (fun _ _ _ => rfl) (fun t => by rw [hafter]; unfold Dat.blockOf block1; rw [hA]; try rfl) t d).trans
    (by unfold Dat.fetched Dat.blockOf block1; rw [hA]; try rfl)

end

/-! ## The two branches of the body, over the grid -/

/-- The reduction index is 0: the accumulator is reset. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 16 = 0 :=
  (by decide +kernel : ∀ t : Fin grid1.N, first1 (grid1.coords t) ↔ t.val % 16 = 0)

/-- The reduction index is 15: the output block is written. -/
abbrev last1 (i : grid1.Coords) : Prop := k1_cond2 i = 1#1
theorem last1_iff : ∀ t : Fin cfg1.N, last1 (grid1.coords t) ↔ t.val % 16 = 15 :=
  (by decide +kernel : ∀ t : Fin grid1.N, last1 (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last reduction step the output window is idle and is not written back. -/
theorem idle1_out : ∀ t : Fin cfg1.N, ¬last1 (grid1.coords t) → cfg1.idle 4 (grid1.coords t) = true := by decide +kernel
theorem noFlush1_out : ∀ t : Fin cfg1.N, ¬last1 (grid1.coords t) → (cfg1.win 4).flush t = false := by decide +kernel
/-- At the last reduction step it is live. -/
theorem live1_out : ∀ t : Fin cfg1.N, last1 (grid1.coords t) → cfg1.idle 4 (grid1.coords t) = false := by decide +kernel

/-! ## The memrefs the body is called with -/

abbrev mem1_0 (t : Fin cfg1.N) : Memref sig .tc .vmem S2048x512 .f32 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S8192x200 .f32 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S200x200 .f32 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S1x200 .f32 := win1_3.stage (cfg1.slots t 3)
abbrev whole1_3 (t : Fin cfg1.N) : (mem1_3 t).IsWhole := hstage1_3 ((cfg1.slots t 3).cast nbuf1_3)
abbrev mem1_4 (t : Fin cfg1.N) : Memref sig .tc .vmem S2048x200 .f32 := win1_4.stage (cfg1.slots t 4)
abbrev whole1_4 (t : Fin cfg1.N) : (mem1_4 t).IsWhole := hstage1_4 ((cfg1.slots t 4).cast nbuf1_4)
/-- The accumulator: a whole scoped buffer of the kernel's own. -/
abbrev acc1 : Memref sig .tc .vmem S2048x200 .f32 := Memref.whole cc1_scratch0
abbrev accView1 : View sig .tc .vmem S2048x200 .f32 := acc1.view
/-- One staging buffer of the output window, through which its contents are stated. -/
abbrev outView1 : View sig .tc .vmem S2048x200 .f32 := (Memref.whole cc1_stg4_0 : Memref sig .tc .vmem S2048x200 .f32).view

/-- The region's class invariant with the accumulator taken out of the scoped rest. -/
theorem phiA1_eq (c : Dev nD) :
    (Pipeline.ΦA spec1 c : sProp 𝕄)
      = iprop(iprop(iprop((∃ d, owns (c : Thread nD τ) acc1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [acc1, owns_whole]; try rfl

end Cert.KernelIdeal.Hand

end
-- ==== Proof.Ideal.Reg1.CaseFirst.lean ====
/-
  Region 1, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Ideal.Reg1.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first1 i) (hc1 : ¬last1 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc1__matmul_relu_bias_kernel i a2 h2 a3 h3 a4 h4 a5 h5 a6 h6 a7 h7) K } := by
  refine ⟨?_, fun xo E K => ?run⟩
  case run =>
    simp only [cc1__matmul_relu_bias_kernel_eq_skeleton]; unfold cc1__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg1.CaseMid.lean ====
/-
  Region 1, a middle reduction step (reduction index 1 … 14): the body adds the step's partial product
  into the accumulator the step before left, and leaves the output window untouched.
-/
import proofs.«174668_j26645977104432_2_alg».proof.Proof.Ideal.Reg1.CaseFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first1 i) (hc1 : ¬last1 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc1__matmul_relu_bias_kernel i a2 h2 a3 h3 a4 h4 a5 h5 a6 h6 a7 h7) K } := by
  refine ⟨?_, fun xo E K => ?run⟩
  case run =>
    simp only [cc1__matmul_relu_bias_kernel_eq_skeleton]; unfold cc1__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg1.CaseLast.lean ====
/-
  Region 1, the last reduction step (reduction index 15): the body adds the step's partial product into the
  accumulator, then writes `max (accumulator + bias) 0` into the output window's buffer.
-/
import proofs.«174668_j26645977104432_2_alg».proof.Proof.Ideal.Reg1.CaseMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first1 i) (hc1 : last1 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc1__matmul_relu_bias_kernel i a2 h2 a3 h3 a4 h4 a5 h5 a6 h6 a7 h7) K } := by
  refine ⟨?_, ?_, fun E K => ?run⟩
  case run =>
    simp only [cc1__matmul_relu_bias_kernel_eq_skeleton]; unfold cc1__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.KernelIdeal.Hand

end
-- ==== Proof.Ideal.Reg1.Data.lean ====
/-
  Region 1: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt1`): each point's contents are
  the stores its case's run found, read back, over the accumulator the point before left.
-/
import proofs.«174668_j26645977104432_2_alg».proof.Proof.Ideal.Reg1.CaseLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread1 : Vec F S2048x200 .f32 := outView1.read (Elt F) outView1.junk

/-! ## What each case leaves -/

/-- The accumulator after a point with reduction index 0. -/
def accFirst1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first1 i) (hc1 : ¬last1 i) (x0 : Vec F S2048x512 .f32) (x1 : Vec F S8192x200 .f32) (x2 : Vec F S200x200 .f32) (x3 : Vec F S1x200 .f32) : Vec F S2048x200 .f32 :=
  accView1.read (Elt F) (accView1.writes (Elt F) accView1.junk (runFirst1 c i a2 h2 a3 h3 a4 h4 a5 h5 a6 h6 a7 h7 hc0 hc1 x0 x1 x2 x3).1)
/-- Its stores tile the accumulator, so they cover it. -/
theorem accFirst1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first1 i) (hc1 : ¬last1 i) (x0 : Vec F S2048x512 .f32) (x1 : Vec F S8192x200 .f32) (x2 : Vec F S200x200 .f32) (x3 : Vec F S1x200 .f32) (y : S2048x200.Idx) :
    ∃ pc ∈ (runFirst1 c i a2 h2 a3 h3 a4 h4 a5 h5 a6 h6 a7 h7 hc0 hc1 x0 x1 x2 x3).1, y ∈ pc.1.set :=
  View.cover_of_tiledL (runFirst1 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : ¬last1 i) (x0 : Vec F S2048x512 .f32) (x1 : Vec F S8192x200 .f32) (x2 : Vec F S200x200 .f32) (x3 : Vec F S1x200 .f32) (xs : Vec F S2048x200 .f32) : Vec F S2048x200 .f32 :=
  accView1.read (Elt F) (accView1.writes (Elt F) accView1.junk (runMid1 c i a2 h2 a3 h3 a4 h4 a5 h5 a6 h6 a7 h7 hc0 hc1 x0 x1 x2 x3 xs).1)
theorem accMid1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : ¬last1 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid1 c i a2 h2 a3 h3 a4 h4 a5 h5 a6 h6 a7 h7 hc0 hc1 x0 x1 x2 x3 xs).1, y ∈ pc.1.set :=
  View.cover_of_tiledL (runMid1 c i a2 h2 a3 h3 a4 h4 a5 h5 a6 h6 a7 h7 hc0 hc1 x0 x1 x2 x3 xs).1 S2048x200.size (by sl_kernel_rfl) y

/-- The accumulator after a point with reduction index 15. -/
def accLast1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) : Vec F S2048x200 .f32 :=
  accView1.read (Elt F) (accView1.writes (Elt F) accView1.junk (runLast1 c i a2 h2 a3 h3 a4 h4 a5 h5 a6 h6 a7 h7 hc0 hc1 x0 x1 x2 x3 xs).2.1)
theorem accLast1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast1 c i a2 h2 a3 h3 a4 h4 a5 h5 a6 h6 a7 h7 hc0 hc1 x0 x1 x2 x3 xs).2.1, y ∈ pc.1.set :=
  View.cover_of_tiledL (runLast1 c i a2 h2 a3 h3 a4 h4 a5 h5 a6 h6 a7 h7 hc0 hc1 x0 x1 x2 x3 xs).2.1 S2048x200.size (by sl_kernel_rfl) y
/-- The output window's buffer after a point with reduction index 15. -/
def outLast1 (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) : Vec F S2048x200 .f32 :=
  outView1.read (Elt F) (outView1.writes (Elt F) outView1.junk (runLast1 c i a2 h2 a3 h3 a4 h4 a5 h5 a6 h6 a7 h7 hc0 hc1 x0 x1 x2 x3 xs).1)
theorem outLast1_cover (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast1 c i a2 h2 a3 h3 a4 h4 a5 h5 a6 h6 a7 h7 hc0 hc1 x0 x1 x2 x3 xs).1, y ∈ pc.1.set :=
  View.cover_of_tiledL (runLast1 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt1 (c : Dev nD) : (n : ℕ) → n < cfg1.N → Vec F S2048x200 .f32 × Vec F S2048x200 .f32
  | 0, hn => (unread1, accFirst1 c (grid1.coords ⟨0, hn⟩) (mem1_0 ⟨0, hn⟩) (whole1_0 ⟨0, hn⟩) (mem1_1 ⟨0, hn⟩) (whole1_1 ⟨0, hn⟩) (mem1_2 ⟨0, hn⟩) (whole1_2 ⟨0, hn⟩) (mem1_3 ⟨0, hn⟩) (whole1_3 ⟨0, hn⟩) (mem1_4 ⟨0, hn⟩) (whole1_4 ⟨0, hn⟩) acc1 (Memref.isWhole_whole _) ((first1_iff ⟨0, hn⟩).mpr (Nat.zero_mod _)) (fun h => (fun h => by (try dsimp only at h); omega) ((last1_iff ⟨0, hn⟩).mp h)) (block1 V c 0 ⟨0, hn⟩) (block1 V c 1 ⟨0, hn⟩) (block1 V c 2 ⟨0, hn⟩) (block1 V c 3 ⟨0, hn⟩))
  | n + 1, hn =>
    if h0 : (n + 1) % 16 = 0 then
      (unread1, accFirst1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) ((first1_iff ⟨n + 1, hn⟩).mpr h0) (fun h => (fun h => by (try dsimp only at h); omega) ((last1_iff ⟨n + 1, hn⟩).mp h)) (block1 V c 0 ⟨n + 1, hn⟩) (block1 V c 1 ⟨n + 1, hn⟩) (block1 V c 2 ⟨n + 1, hn⟩) (block1 V c 3 ⟨n + 1, hn⟩))
    else
      if h1 : (n + 1) % 16 = 15 then
        (outLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) (fun h => h0 ((first1_iff ⟨n + 1, hn⟩).mp h)) ((last1_iff ⟨n + 1, hn⟩).mpr h1) (block1 V c 0 ⟨n + 1, hn⟩) (block1 V c 1 ⟨n + 1, hn⟩) (block1 V c 2 ⟨n + 1, hn⟩) (block1 V c 3 ⟨n + 1, hn⟩) (stateAt1 c n (Nat.lt_of_succ_lt hn)).2,
         accLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) (fun h => h0 ((first1_iff ⟨n + 1, hn⟩).mp h)) ((last1_iff ⟨n + 1, hn⟩).mpr h1) (block1 V c 0 ⟨n + 1, hn⟩) (block1 V c 1 ⟨n + 1, hn⟩) (block1 V c 2 ⟨n + 1, hn⟩) (block1 V c 3 ⟨n + 1, hn⟩) (stateAt1 c n (Nat.lt_of_succ_lt hn)).2)
      else
        (unread1, accMid1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) (mem1_4 ⟨n + 1, hn⟩) (whole1_4 ⟨n + 1, hn⟩) acc1 (Memref.isWhole_whole _) (fun h => h0 ((first1_iff ⟨n + 1, hn⟩).mp h)) (fun h => h1 ((last1_iff ⟨n + 1, hn⟩).mp h)) (block1 V c 0 ⟨n + 1, hn⟩) (block1 V c 1 ⟨n + 1, hn⟩) (block1 V c 2 ⟨n + 1, hn⟩) (block1 V c 3 ⟨n + 1, hn⟩) (stateAt1 c n (Nat.lt_of_succ_lt hn)).2)

theorem stateAt1_first (c : Dev nD) (t : Fin cfg1.N) (h0 : t.val % 16 = 0) (hl : ¬last1 (grid1.coords t)) :
    stateAt1 V c t.val t.isLt = (unread1, accFirst1 c (grid1.coords t) (mem1_0 t) (whole1_0 t) (mem1_1 t) (whole1_1 t) (mem1_2 t) (whole1_2 t) (mem1_3 t) (whole1_3 t) (mem1_4 t) (whole1_4 t) acc1 (Memref.isWhole_whole _) ((first1_iff t).mpr h0) hl (block1 V c 0 t) (block1 V c 1 t) (block1 V c 2 t) (block1 V c 3 t)) := by
  obtain ⟨n, hn⟩ := t
  cases n with
  | zero => exact rfl
  | succ n => exact (dif_pos h0).trans rfl

theorem stateAt1_mid (c : Dev nD) (t : Fin cfg1.N) (h0 : ¬t.val % 16 = 0) (h1 : ¬t.val % 16 = 15) :
    stateAt1 V c t.val t.isLt = (unread1, accMid1 c (grid1.coords t) (mem1_0 t) (whole1_0 t) (mem1_1 t) (whole1_1 t) (mem1_2 t) (whole1_2 t) (mem1_3 t) (whole1_3 t) (mem1_4 t) (whole1_4 t) acc1 (Memref.isWhole_whole _) (fun h => h0 ((first1_iff t).mp h)) (fun h => h1 ((last1_iff t).mp h)) (block1 V c 0 t) (block1 V c 1 t) (block1 V c 2 t) (block1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt1_last (c : Dev nD) (t : Fin cfg1.N) (h0 : ¬t.val % 16 = 0) (h1 : t.val % 16 = 15) :
    stateAt1 V c t.val t.isLt = (outLast1 c (grid1.coords t) (mem1_0 t) (whole1_0 t) (mem1_1 t) (whole1_1 t) (mem1_2 t) (whole1_2 t) (mem1_3 t) (whole1_3 t) (mem1_4 t) (whole1_4 t) acc1 (Memref.isWhole_whole _) (fun h => h0 ((first1_iff t).mp h)) ((last1_iff t).mpr h1) (block1 V c 0 t) (block1 V c 1 t) (block1 V c 2 t) (block1 V c 3 t) (stateAt1 V c (t.val - 1) (Nat.lt_of_le_of_lt (Nat.sub_le _ _) t.isLt)).2,
      accLast1 c (grid1.coords t) (mem1_0 t) (whole1_0 t) (mem1_1 t) (whole1_1 t) (mem1_2 t) (whole1_2 t) (mem1_3 t) (whole1_3 t) (mem1_4 t) (whole1_4 t) acc1 (Memref.isWhole_whole _) (fun h => h0 ((first1_iff t).mp h)) ((last1_iff t).mpr h1) (block1 V c 0 t) (block1 V c 1 t) (block1 V c 2 t) (block1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi1 (c : Dev nD) : (n : ℕ) → n ≤ cfg1.N → sProp 𝕄
  | 0, _ => Pipeline.ΦA spec1 c
  | n + 1, hn => iprop(iprop(iprop(owns (c : Thread nD τ) acc1 fullShare ((stateAt1 V c n hn).2)) ∗ Pipeline.scopedRestBut (Ix := Unit) (Name := ℕ) (U := UR sig nD τ) (Lvl := ℕ) (Val := Elt F) spec1 c [cc1_scratch0]) ∗ (∃ r, prngReg c r))

theorem phi1_zero (c : Dev nD) (n : ℕ) (h : n ≤ cfg1.N) (hz : n = 0) : phi1 V c n h = Pipeline.ΦA spec1 c := by
  subst hz; rfl
theorem phi1_succ (c : Dev nD) (n : ℕ) (hn : n < cfg1.N) :
    phi1 V c (n + 1) hn = iprop(iprop(iprop(owns (c : Thread nD τ) acc1 fullShare ((stateAt1 V c n hn).2)) ∗ Pipeline.scopedRestBut (Ix := Unit) (Name := ℕ) (U := UR sig nD τ) (Lvl := ℕ) (Val := Elt F) spec1 c [cc1_scratch0]) ∗ (∃ r, prngReg c r)) := rfl
theorem phi1_pos (c : Dev nD) (n : ℕ) (h : n ≤ cfg1.N) (hz : n ≠ 0) :
    phi1 V c n h = iprop(iprop(iprop(owns (c : Thread nD τ) acc1 fullShare ((stateAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at
    `stateAt1`'s first component; the invariant `phi1`; nothing owed; full shares. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => block1 V c 3 t
    | ⟨4, _⟩ => (stateAt1 V c t.val t.isLt).1
  Φ t := phi1 V c t.val (Nat.le_of_lt_succ t.isLt)
  q _ := fullShare
  owed _ := 0

theorem arr1_eq (c : Dev nD) (w : Fin cfg1.W) : (dat1 V c).A w = V c (Pipeline.arrRef spec1 w) := by
  dsimp only [dat1]

theorem phi1_castSucc (c : Dev nD) (t : Fin cfg1.N) :
    (dat1 V c).Φ t.castSucc = phi1 V c t.val (Nat.le_of_lt t.isLt) := by
  dsimp only [dat1]; simp only [Fin.coe_castSucc]

theorem after1_0 (c : Dev nD) (t : Fin cfg1.N) : (dat1 V c).after 0 t = block1 V c 0 t := by dsimp only [dat1]
theorem after1_1 (c : Dev nD) (t : Fin cfg1.N) : (dat1 V c).after 1 t = block1 V c 1 t := by dsimp only [dat1]
theorem after1_2 (c : Dev nD) (t : Fin cfg1.N) : (dat1 V c).after 2 t = block1 V c 2 t := by dsimp only [dat1]
theorem after1_3 (c : Dev nD) (t : Fin cfg1.N) : (dat1 V c).after 3 t = block1 V c 3 t := by dsimp only [dat1]
theorem after1_4 (c : Dev nD) (t : Fin cfg1.N) : (dat1 V c).after 4 t = (stateAt1 V c t.val t.isLt).1 := by dsimp only [dat1]

theorem found1_0 (c : Dev nD) (t : Fin cfg1.N) (d) : (dat1 V c).before 0 t d = block1 V c 0 t :=
  found1_0_of V (dat1 V c) (arr1_eq V c 0) (after1_0 V c) t d
theorem found1_1 (c : Dev nD) (t : Fin cfg1.N) (d) : (dat1 V c).before 1 t d = block1 V c 1 t :=
  found1_1_of V (dat1 V c) (arr1_eq V c 1) (after1_1 V c) t d
theorem found1_2 (c : Dev nD) (t : Fin cfg1.N) (d) : (dat1 V c).before 2 t d = block1 V c 2 t :=
  found1_2_of V (dat1 V c) (arr1_eq V c 2) (after1_2 V c) t d
theorem found1_3 (c : Dev nD) (t : Fin cfg1.N) (d) : (dat1 V c).before 3 t d = block1 V c 3 t :=
  found1_3_of V (dat1 V c) (arr1_eq V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (mem1_0 t) fullShare ((dat1 V c).before 0 t d))
    ∗ (∃ d, owns (c : Thread nD τ) (mem1_1 t) fullShare ((dat1 V c).before 1 t d))
    ∗ (∃ d, owns (c : Thread nD τ) (mem1_2 t) fullShare ((dat1 V c).before 2 t d))
    ∗ (∃ d, owns (c : Thread nD τ) (mem1_3 t) fullShare ((dat1 V c).before 3 t d))
    ∗ (∃ d, owns (c : Thread nD τ) (mem1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3]
  rw [show (dat1 V c).owesAt () t.succ = (dat1 V c).owesAt () t.castSucc from rfl]
  rw [show (dat1 V c).Φ t.succ = phi1 V c (t.val + 1) t.isLt from rfl, phi1_succ]
  have hN : t.val < 64 := lt_of_lt_of_eq t.isLt (show cfg1.N = 64 from N_1)
  rw [show (dat1 V c).leavesExact 0 t = owns (c : Thread nD τ) (mem1_0 t) fullShare ((dat1 V c).after 0 t) from by
    unfold Dat.leavesExact; rw [live1_0 t], after1_0]
  rw [show (dat1 V c).leavesExact 1 t = owns (c : Thread nD τ) (mem1_1 t) fullShare ((dat1 V c).after 1 t) from by
    unfold Dat.leavesExact; rw [live1_1 t], after1_1]
  rw [show (dat1 V c).leavesExact 2 t = owns (c : Thread nD τ) (mem1_2 t) fullShare ((dat1 V c).after 2 t) from by
    unfold Dat.leavesExact; rw [live1_2 t], after1_2]
  rw [show (dat1 V c).leavesExact 3 t = owns (c : Thread nD τ) (mem1_3 t) fullShare ((dat1 V c).after 3 t) from by
    unfold Dat.leavesExact; rw [live1_3 t], after1_3]
  by_cases h0 : t.val % 16 = 0
  · have hl : ¬last1 (grid1.coords t) := fun h => by have h' := (last1_iff t).mp h; omega
    rw [Dat.leavesExact_idle (dat1 V c) 4 t (idle1_out t hl) (noFlush1_out t hl)]
    rw [stateAt1_first V c t h0 hl]
    unfold accFirst1; (try dsimp only)
    by_cases hz : t.val = 0
    · rw [phi1_castSucc V c t, phi1_zero V c _ _ hz, phiA1_eq]
      iintro ⟨⟨⟨HS, Hrest⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) hl (block1 V c 0 t) (block1 V c 1 t) (block1 V c 2 t) (block1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi1_castSucc V c t, phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) hl (block1 V c 0 t) (block1 V c 1 t) (block1 V c 2 t) (block1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (mem1_4 t) fullShare ((dat1 V c).after 4 t) from by
        unfold Dat.leavesExact; rw [live1_out t ((last1_iff t).mpr h1)], after1_4]
      rw [stateAt1_last V c t h0 h1]
      unfold outLast1 accLast1; (try dsimp only)
      rw [phi1_castSucc V c t, phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ (fun h => h0 ((first1_iff t).mp h)) ((last1_iff t).mpr h1) (block1 V c 0 t) (block1 V c 1 t) (block1 V c 2 t) (block1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast1_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c _ _ _ _ _ _ _ _ _ _ _ _ _ _ _ _ _ _ _ _)
    · have hl : ¬last1 (grid1.coords t) := (fun h => h1 ((last1_iff t).mp h))
      rw [Dat.leavesExact_idle (dat1 V c) 4 t (idle1_out t hl) (noFlush1_out t hl)]
      rw [stateAt1_mid V c t h0 h1]
      unfold accMid1; (try dsimp only)
      rw [phi1_castSucc V c t, phi1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ (fun h => h0 ((first1_iff t).mp h)) hl (block1 V c 0 t) (block1 V c 1 t) (block1 V c 2 t) (block1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid1_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem enter1 (c : Dev nD) : Pipeline.ΦA spec1 c ⊢ (dat1 V c).Φ 0 := by
  rw [show (dat1 V c).Φ 0 = phi1 V c 0 (Nat.zero_le _) from rfl, phi1_zero V c 0 _ rfl]
  try exact Idealize.SL.BI.Entails.refl _

/-- After the last point the invariant gives the class invariant back: the accumulator's contents are forgotten. -/
theorem leave1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = phi1 V c (Fin.last cfg1.N).val (Nat.le_of_lt_succ (Fin.last cfg1.N).isLt) from rfl, phi1_pos V c _ _ hne, phiA1_eq]
  iintro ⟨⟨HS, Hrest⟩, Hg⟩
  isplitl [HS Hrest]
  · isplitl [HS]
    · iexists _; iexact HS
    iexact Hrest
  iexact Hg

end

end Cert.KernelIdeal.Hand

end
-- ==== Proof.Ideal.Reg2.Setup.lean ====
/-
  Region 2 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.KernelIdeal.Launch
import proofs.«174668_j26645977104432_2_alg».proof.Proof.Gen.KernelIdeal.Skeleton
import proofs.«174668_j26645977104432_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 is found at its block at every point, fetched there or not: when it is not fetched its
    index has not moved since the last fetch, and the body leaves the buffer as it found it. -/
theorem found2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- Input window 1 is found at its block at every point, fetched there or not: when it is not fetched its
    index has not moved since the last fetch, and the body leaves the buffer as it found it. -/
theorem found2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-- Input window 2 is found at its block at every point, fetched there or not: when it is not fetched its
    index has not moved since the last fetch, and the body leaves the buffer as it found it. -/
theorem found2_2_of {c : Dev nD} (dat : Dat τ (Elt F) Unit ℕ (UR sig nD τ) ℕ cfg2 c) (hA : dat.A 2 = V c (Pipeline.arrRef spec2 2))
    (hafter : ∀ t, dat.after 2 t = block2 V c 2 t) (t : Fin cfg2.N) (d) : dat.before 2 t d = block2 V c 2 t :=
  (dat.before_in_eq_fetched 2 rfl (fun _ => rfl) (fun _ _ _ => rfl) (fun t => by rw [hafter]; unfold Dat.blockOf block2; rw [hA]; try rfl) t d).trans
    (by unfold Dat.fetched Dat.blockOf block2; rw [hA]; try rfl)

/-- Input window 3 is found at its block at every point, fetched there or not: when it is not fetched its
    index has not moved since the last fetch, and the body leaves the buffer as it found it. -/
theorem found2_3_of {c : Dev nD} (dat : Dat τ (Elt F) Unit ℕ (UR sig nD τ) ℕ cfg2 c) (hA : dat.A 3 = V c (Pipeline.arrRef spec2 3))
    (hafter : ∀ t, dat.after 3 t = block2 V c 3 t) (t : Fin cfg2.N) (d) : dat.before 3 t d = block2 V c 3 t :=
  (dat.before_in_eq_fetched 3 rfl (fun _ => rfl) (fun _ _ _ => rfl) (fun t => by rw [hafter]; unfold Dat.blockOf block2; rw [hA]; try rfl) t d).trans
    (by unfold Dat.fetched Dat.blockOf block2; rw [hA]; try rfl)

end

/-! ## The two branches of the body, over the grid -/

/-- The reduction index is 0: the accumulator is reset. -/
abbrev first2 (i : grid2.Coords) : Prop := (Scalar.cmpi .ne (Scalar.extui (Scalar.cmpi .eq (BitVec.ofNat 32 (i 1).val) 0#32)) 0#32) = 1#1
theorem first2_iff : ∀ t : Fin cfg2.N, first2 (grid2.coords t) ↔ t.val % 16 = 0 :=
  (by decide +kernel : ∀ t : Fin grid2.N, first2 (grid2.coords t) ↔ t.val % 16 = 0)

/-- The reduction index is 15: the output block is written. -/
abbrev last2 (i : grid2.Coords) : Prop := k2_cond2 i = 1#1
theorem last2_iff : ∀ t : Fin cfg2.N, last2 (grid2.coords t) ↔ t.val % 16 = 15 :=
  (by decide +kernel : ∀ t : Fin grid2.N, last2 (grid2.coords t) ↔ t.val % 16 = 15)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last reduction step the output window is idle and is not written back. -/
theorem idle2_out : ∀ t : Fin cfg2.N, ¬last2 (grid2.coords t) → cfg2.idle 4 (grid2.coords t) = true := by decide +kernel
theorem noFlush2_out : ∀ t : Fin cfg2.N, ¬last2 (grid2.coords t) → (cfg2.win 4).flush t = false := by decide +kernel
/-- At the last reduction step it is live. -/
theorem live2_out : ∀ t : Fin cfg2.N, last2 (grid2.coords t) → cfg2.idle 4 (grid2.coords t) = false := by decide +kernel

/-! ## The memrefs the body is called with -/

abbrev mem2_0 (t : Fin cfg2.N) : Memref sig .tc .vmem S2048x512 .f32 := win2_0.stage (cfg2.slots t 0)
abbrev whole2_0 (t : Fin cfg2.N) : (mem2_0 t).IsWhole := hstage2_0 ((cfg2.slots t 0).cast nbuf2_0)
abbrev mem2_1 (t : Fin cfg2.N) : Memref sig .tc .vmem S8192x200 .f32 := win2_1.stage (cfg2.slots t 1)
abbrev whole2_1 (t : Fin cfg2.N) : (mem2_1 t).IsWhole := hstage2_1 ((cfg2.slots t 1).cast nbuf2_1)
abbrev mem2_2 (t : Fin cfg2.N) : Memref sig .tc .vmem S200x200 .f32 := win2_2.stage (cfg2.slots t 2)
abbrev whole2_2 (t : Fin cfg2.N) : (mem2_2 t).IsWhole := hstage2_2 ((cfg2.slots t 2).cast nbuf2_2)
abbrev mem2_3 (t : Fin cfg2.N) : Memref sig .tc .vmem S1x200 .f32 := win2_3.stage (cfg2.slots t 3)
abbrev whole2_3 (t : Fin cfg2.N) : (mem2_3 t).IsWhole := hstage2_3 ((cfg2.slots t 3).cast nbuf2_3)
abbrev mem2_4 (t : Fin cfg2.N) : Memref sig .tc .vmem S2048x200 .f32 := win2_4.stage (cfg2.slots t 4)
abbrev whole2_4 (t : Fin cfg2.N) : (mem2_4 t).IsWhole := hstage2_4 ((cfg2.slots t 4).cast nbuf2_4)
/-- The accumulator: a whole scoped buffer of the kernel's own. -/
abbrev acc2 : Memref sig .tc .vmem S2048x200 .f32 := Memref.whole cc2_scratch0
abbrev accView2 : View sig .tc .vmem S2048x200 .f32 := acc2.view
/-- One staging buffer of the output window, through which its contents are stated. -/
abbrev outView2 : View sig .tc .vmem S2048x200 .f32 := (Memref.whole cc2_stg4_0 : Memref sig .tc .vmem S2048x200 .f32).view

/-- The region's class invariant with the accumulator taken out of the scoped rest. -/
theorem phiA2_eq (c : Dev nD) :
    (Pipeline.ΦA spec2 c : sProp 𝕄)
      = iprop(iprop(iprop((∃ d, owns (c : Thread nD τ) acc2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2, owns_whole]; try rfl

end Cert.KernelIdeal.Hand

end
-- ==== Proof.Ideal.Reg2.CaseFirst.lean ====
/-
  Region 2, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Ideal.Reg2.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first2 i) (hc1 : ¬last2 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc2__matmul_relu_bias_kernel i a2 h2 a3 h3 a4 h4 a5 h5 a6 h6 a7 h7) K } := by
  refine ⟨?_, fun xo E K => ?run⟩
  case run =>
    simp only [cc2__matmul_relu_bias_kernel_eq_skeleton]; unfold cc2__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg2.CaseMid.lean ====
/-
  Region 2, a middle reduction step (reduction index 1 … 14): the body adds the step's partial product
  into the accumulator the step before left, and leaves the output window untouched.
-/
import proofs.«174668_j26645977104432_2_alg».proof.Proof.Ideal.Reg2.CaseFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first2 i) (hc1 : ¬last2 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc2__matmul_relu_bias_kernel i a2 h2 a3 h3 a4 h4 a5 h5 a6 h6 a7 h7) K } := by
  refine ⟨?_, fun xo E K => ?run⟩
  case run =>
    simp only [cc2__matmul_relu_bias_kernel_eq_skeleton]; unfold cc2__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg2.CaseLast.lean ====
/-
  Region 2, the last reduction step (reduction index 15): the body adds the step's partial product into the
  accumulator, then writes `max (accumulator + bias) 0` into the output window's buffer.
-/
import proofs.«174668_j26645977104432_2_alg».proof.Proof.Ideal.Reg2.CaseMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first2 i) (hc1 : last2 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc2__matmul_relu_bias_kernel i a2 h2 a3 h3 a4 h4 a5 h5 a6 h6 a7 h7) K } := by
  refine ⟨?_, ?_, fun E K => ?run⟩
  case run =>
    simp only [cc2__matmul_relu_bias_kernel_eq_skeleton]; unfold cc2__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.KernelIdeal.Hand

end
-- ==== Proof.Ideal.Reg2.Data.lean ====
/-
  Region 2: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt2`): each point's contents are
  the stores its case's run found, read back, over the accumulator the point before left.
-/
import proofs.«174668_j26645977104432_2_alg».proof.Proof.Ideal.Reg2.CaseLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread2 : Vec F S2048x200 .f32 := outView2.read (Elt F) outView2.junk

/-! ## What each case leaves -/

/-- The accumulator after a point with reduction index 0. -/
def accFirst2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first2 i) (hc1 : ¬last2 i) (x0 : Vec F S2048x512 .f32) (x1 : Vec F S8192x200 .f32) (x2 : Vec F S200x200 .f32) (x3 : Vec F S1x200 .f32) : Vec F S2048x200 .f32 :=
  accView2.read (Elt F) (accView2.writes (Elt F) accView2.junk (runFirst2 c i a2 h2 a3 h3 a4 h4 a5 h5 a6 h6 a7 h7 hc0 hc1 x0 x1 x2 x3).1)
/-- Its stores tile the accumulator, so they cover it. -/
theorem accFirst2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first2 i) (hc1 : ¬last2 i) (x0 : Vec F S2048x512 .f32) (x1 : Vec F S8192x200 .f32) (x2 : Vec F S200x200 .f32) (x3 : Vec F S1x200 .f32) (y : S2048x200.Idx) :
    ∃ pc ∈ (runFirst2 c i a2 h2 a3 h3 a4 h4 a5 h5 a6 h6 a7 h7 hc0 hc1 x0 x1 x2 x3).1, y ∈ pc.1.set :=
  View.cover_of_tiledL (runFirst2 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : ¬last2 i) (x0 : Vec F S2048x512 .f32) (x1 : Vec F S8192x200 .f32) (x2 : Vec F S200x200 .f32) (x3 : Vec F S1x200 .f32) (xs : Vec F S2048x200 .f32) : Vec F S2048x200 .f32 :=
  accView2.read (Elt F) (accView2.writes (Elt F) accView2.junk (runMid2 c i a2 h2 a3 h3 a4 h4 a5 h5 a6 h6 a7 h7 hc0 hc1 x0 x1 x2 x3 xs).1)
theorem accMid2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : ¬last2 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid2 c i a2 h2 a3 h3 a4 h4 a5 h5 a6 h6 a7 h7 hc0 hc1 x0 x1 x2 x3 xs).1, y ∈ pc.1.set :=
  View.cover_of_tiledL (runMid2 c i a2 h2 a3 h3 a4 h4 a5 h5 a6 h6 a7 h7 hc0 hc1 x0 x1 x2 x3 xs).1 S2048x200.size (by sl_kernel_rfl) y

/-- The accumulator after a point with reduction index 15. -/
def accLast2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) : Vec F S2048x200 .f32 :=
  accView2.read (Elt F) (accView2.writes (Elt F) accView2.junk (runLast2 c i a2 h2 a3 h3 a4 h4 a5 h5 a6 h6 a7 h7 hc0 hc1 x0 x1 x2 x3 xs).2.1)
theorem accLast2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast2 c i a2 h2 a3 h3 a4 h4 a5 h5 a6 h6 a7 h7 hc0 hc1 x0 x1 x2 x3 xs).2.1, y ∈ pc.1.set :=
  View.cover_of_tiledL (runLast2 c i a2 h2 a3 h3 a4 h4 a5 h5 a6 h6 a7 h7 hc0 hc1 x0 x1 x2 x3 xs).2.1 S2048x200.size (by sl_kernel_rfl) y
/-- The output window's buffer after a point with reduction index 15. -/
def outLast2 (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) : Vec F S2048x200 .f32 :=
  outView2.read (Elt F) (outView2.writes (Elt F) outView2.junk (runLast2 c i a2 h2 a3 h3 a4 h4 a5 h5 a6 h6 a7 h7 hc0 hc1 x0 x1 x2 x3 xs).1)
theorem outLast2_cover (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast2 c i a2 h2 a3 h3 a4 h4 a5 h5 a6 h6 a7 h7 hc0 hc1 x0 x1 x2 x3 xs).1, y ∈ pc.1.set :=
  View.cover_of_tiledL (runLast2 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt2 (c : Dev nD) : (n : ℕ) → n < cfg2.N → Vec F S2048x200 .f32 × Vec F S2048x200 .f32
  | 0, hn => (unread2, accFirst2 c (grid2.coords ⟨0, hn⟩) (mem2_0 ⟨0, hn⟩) (whole2_0 ⟨0, hn⟩) (mem2_1 ⟨0, hn⟩) (whole2_1 ⟨0, hn⟩) (mem2_2 ⟨0, hn⟩) (whole2_2 ⟨0, hn⟩) (mem2_3 ⟨0, hn⟩) (whole2_3 ⟨0, hn⟩) (mem2_4 ⟨0, hn⟩) (whole2_4 ⟨0, hn⟩) acc2 (Memref.isWhole_whole _) ((first2_iff ⟨0, hn⟩).mpr (Nat.zero_mod _)) (fun h => (fun h => by (try dsimp only at h); omega) ((last2_iff ⟨0, hn⟩).mp h)) (block2 V c 0 ⟨0, hn⟩) (block2 V c 1 ⟨0, hn⟩) (block2 V c 2 ⟨0, hn⟩) (block2 V c 3 ⟨0, hn⟩))
  | n + 1, hn =>
    if h0 : (n + 1) % 16 = 0 then
      (unread2, accFirst2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) ((first2_iff ⟨n + 1, hn⟩).mpr h0) (fun h => (fun h => by (try dsimp only at h); omega) ((last2_iff ⟨n + 1, hn⟩).mp h)) (block2 V c 0 ⟨n + 1, hn⟩) (block2 V c 1 ⟨n + 1, hn⟩) (block2 V c 2 ⟨n + 1, hn⟩) (block2 V c 3 ⟨n + 1, hn⟩))
    else
      if h1 : (n + 1) % 16 = 15 then
        (outLast2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) (fun h => h0 ((first2_iff ⟨n + 1, hn⟩).mp h)) ((last2_iff ⟨n + 1, hn⟩).mpr h1) (block2 V c 0 ⟨n + 1, hn⟩) (block2 V c 1 ⟨n + 1, hn⟩) (block2 V c 2 ⟨n + 1, hn⟩) (block2 V c 3 ⟨n + 1, hn⟩) (stateAt2 c n (Nat.lt_of_succ_lt hn)).2,
         accLast2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) (fun h => h0 ((first2_iff ⟨n + 1, hn⟩).mp h)) ((last2_iff ⟨n + 1, hn⟩).mpr h1) (block2 V c 0 ⟨n + 1, hn⟩) (block2 V c 1 ⟨n + 1, hn⟩) (block2 V c 2 ⟨n + 1, hn⟩) (block2 V c 3 ⟨n + 1, hn⟩) (stateAt2 c n (Nat.lt_of_succ_lt hn)).2)
      else
        (unread2, accMid2 c (grid2.coords ⟨n + 1, hn⟩) (mem2_0 ⟨n + 1, hn⟩) (whole2_0 ⟨n + 1, hn⟩) (mem2_1 ⟨n + 1, hn⟩) (whole2_1 ⟨n + 1, hn⟩) (mem2_2 ⟨n + 1, hn⟩) (whole2_2 ⟨n + 1, hn⟩) (mem2_3 ⟨n + 1, hn⟩) (whole2_3 ⟨n + 1, hn⟩) (mem2_4 ⟨n + 1, hn⟩) (whole2_4 ⟨n + 1, hn⟩) acc2 (Memref.isWhole_whole _) (fun h => h0 ((first2_iff ⟨n + 1, hn⟩).mp h)) (fun h => h1 ((last2_iff ⟨n + 1, hn⟩).mp h)) (block2 V c 0 ⟨n + 1, hn⟩) (block2 V c 1 ⟨n + 1, hn⟩) (block2 V c 2 ⟨n + 1, hn⟩) (block2 V c 3 ⟨n + 1, hn⟩) (stateAt2 c n (Nat.lt_of_succ_lt hn)).2)

theorem stateAt2_first (c : Dev nD) (t : Fin cfg2.N) (h0 : t.val % 16 = 0) (hl : ¬last2 (grid2.coords t)) :
    stateAt2 V c t.val t.isLt = (unread2, accFirst2 c (grid2.coords t) (mem2_0 t) (whole2_0 t) (mem2_1 t) (whole2_1 t) (mem2_2 t) (whole2_2 t) (mem2_3 t) (whole2_3 t) (mem2_4 t) (whole2_4 t) acc2 (Memref.isWhole_whole _) ((first2_iff t).mpr h0) hl (block2 V c 0 t) (block2 V c 1 t) (block2 V c 2 t) (block2 V c 3 t)) := by
  obtain ⟨n, hn⟩ := t
  cases n with
  | zero => exact rfl
  | succ n => exact (dif_pos h0).trans rfl

theorem stateAt2_mid (c : Dev nD) (t : Fin cfg2.N) (h0 : ¬t.val % 16 = 0) (h1 : ¬t.val % 16 = 15) :
    stateAt2 V c t.val t.isLt = (unread2, accMid2 c (grid2.coords t) (mem2_0 t) (whole2_0 t) (mem2_1 t) (whole2_1 t) (mem2_2 t) (whole2_2 t) (mem2_3 t) (whole2_3 t) (mem2_4 t) (whole2_4 t) acc2 (Memref.isWhole_whole _) (fun h => h0 ((first2_iff t).mp h)) (fun h => h1 ((last2_iff t).mp h)) (block2 V c 0 t) (block2 V c 1 t) (block2 V c 2 t) (block2 V c 3 t) (stateAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt2_last (c : Dev nD) (t : Fin cfg2.N) (h0 : ¬t.val % 16 = 0) (h1 : t.val % 16 = 15) :
    stateAt2 V c t.val t.isLt = (outLast2 c (grid2.coords t) (mem2_0 t) (whole2_0 t) (mem2_1 t) (whole2_1 t) (mem2_2 t) (whole2_2 t) (mem2_3 t) (whole2_3 t) (mem2_4 t) (whole2_4 t) acc2 (Memref.isWhole_whole _) (fun h => h0 ((first2_iff t).mp h)) ((last2_iff t).mpr h1) (block2 V c 0 t) (block2 V c 1 t) (block2 V c 2 t) (block2 V c 3 t) (stateAt2 V c (t.val - 1) (Nat.lt_of_le_of_lt (Nat.sub_le _ _) t.isLt)).2,
      accLast2 c (grid2.coords t) (mem2_0 t) (whole2_0 t) (mem2_1 t) (whole2_1 t) (mem2_2 t) (whole2_2 t) (mem2_3 t) (whole2_3 t) (mem2_4 t) (whole2_4 t) acc2 (Memref.isWhole_whole _) (fun h => h0 ((first2_iff t).mp h)) ((last2_iff t).mpr h1) (block2 V c 0 t) (block2 V c 1 t) (block2 V c 2 t) (block2 V c 3 t) (stateAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi2 (c : Dev nD) : (n : ℕ) → n ≤ cfg2.N → sProp 𝕄
  | 0, _ => Pipeline.ΦA spec2 c
  | n + 1, hn => iprop(iprop(iprop(owns (c : Thread nD τ) acc2 fullShare ((stateAt2 V c n hn).2)) ∗ Pipeline.scopedRestBut (Ix := Unit) (Name := ℕ) (U := UR sig nD τ) (Lvl := ℕ) (Val := Elt F) spec2 c [cc2_scratch0]) ∗ (∃ r, prngReg c r))

theorem phi2_zero (c : Dev nD) (n : ℕ) (h : n ≤ cfg2.N) (hz : n = 0) : phi2 V c n h = Pipeline.ΦA spec2 c := by
  subst hz; rfl
theorem phi2_succ (c : Dev nD) (n : ℕ) (hn : n < cfg2.N) :
    phi2 V c (n + 1) hn = iprop(iprop(iprop(owns (c : Thread nD τ) acc2 fullShare ((stateAt2 V c n hn).2)) ∗ Pipeline.scopedRestBut (Ix := Unit) (Name := ℕ) (U := UR sig nD τ) (Lvl := ℕ) (Val := Elt F) spec2 c [cc2_scratch0]) ∗ (∃ r, prngReg c r)) := rfl
theorem phi2_pos (c : Dev nD) (n : ℕ) (h : n ≤ cfg2.N) (hz : n ≠ 0) :
    phi2 V c n h = iprop(iprop(iprop(owns (c : Thread nD τ) acc2 fullShare ((stateAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block, the output's at
    `stateAt2`'s first component; the invariant `phi2`; nothing owed; full shares. -/
def dat2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => block2 V c 3 t
    | ⟨4, _⟩ => (stateAt2 V c t.val t.isLt).1
  Φ t := phi2 V c t.val (Nat.le_of_lt_succ t.isLt)
  q _ := fullShare
  owed _ := 0

theorem arr2_eq (c : Dev nD) (w : Fin cfg2.W) : (dat2 V c).A w = V c (Pipeline.arrRef spec2 w) := by
  dsimp only [dat2]

theorem phi2_castSucc (c : Dev nD) (t : Fin cfg2.N) :
    (dat2 V c).Φ t.castSucc = phi2 V c t.val (Nat.le_of_lt t.isLt) := by
  dsimp only [dat2]; simp only [Fin.coe_castSucc]

theorem after2_0 (c : Dev nD) (t : Fin cfg2.N) : (dat2 V c).after 0 t = block2 V c 0 t := by dsimp only [dat2]
theorem after2_1 (c : Dev nD) (t : Fin cfg2.N) : (dat2 V c).after 1 t = block2 V c 1 t := by dsimp only [dat2]
theorem after2_2 (c : Dev nD) (t : Fin cfg2.N) : (dat2 V c).after 2 t = block2 V c 2 t := by dsimp only [dat2]
theorem after2_3 (c : Dev nD) (t : Fin cfg2.N) : (dat2 V c).after 3 t = block2 V c 3 t := by dsimp only [dat2]
theorem after2_4 (c : Dev nD) (t : Fin cfg2.N) : (dat2 V c).after 4 t = (stateAt2 V c t.val t.isLt).1 := by dsimp only [dat2]

theorem found2_0 (c : Dev nD) (t : Fin cfg2.N) (d) : (dat2 V c).before 0 t d = block2 V c 0 t :=
  found2_0_of V (dat2 V c) (arr2_eq V c 0) (after2_0 V c) t d
theorem found2_1 (c : Dev nD) (t : Fin cfg2.N) (d) : (dat2 V c).before 1 t d = block2 V c 1 t :=
  found2_1_of V (dat2 V c) (arr2_eq V c 1) (after2_1 V c) t d
theorem found2_2 (c : Dev nD) (t : Fin cfg2.N) (d) : (dat2 V c).before 2 t d = block2 V c 2 t :=
  found2_2_of V (dat2 V c) (arr2_eq V c 2) (after2_2 V c) t d
theorem found2_3 (c : Dev nD) (t : Fin cfg2.N) (d) : (dat2 V c).before 3 t d = block2 V c 3 t :=
  found2_3_of V (dat2 V c) (arr2_eq V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (mem2_0 t) fullShare ((dat2 V c).before 0 t d))
    ∗ (∃ d, owns (c : Thread nD τ) (mem2_1 t) fullShare ((dat2 V c).before 1 t d))
    ∗ (∃ d, owns (c : Thread nD τ) (mem2_2 t) fullShare ((dat2 V c).before 2 t d))
    ∗ (∃ d, owns (c : Thread nD τ) (mem2_3 t) fullShare ((dat2 V c).before 3 t d))
    ∗ (∃ d, owns (c : Thread nD τ) (mem2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1, found2_2, found2_3]
  rw [show (dat2 V c).owesAt () t.succ = (dat2 V c).owesAt () t.castSucc from rfl]
  rw [show (dat2 V c).Φ t.succ = phi2 V c (t.val + 1) t.isLt from rfl, phi2_succ]
  have hN : t.val < 64 := lt_of_lt_of_eq t.isLt (show cfg2.N = 64 from N_2)
  rw [show (dat2 V c).leavesExact 0 t = owns (c : Thread nD τ) (mem2_0 t) fullShare ((dat2 V c).after 0 t) from by
    unfold Dat.leavesExact; rw [live2_0 t], after2_0]
  rw [show (dat2 V c).leavesExact 1 t = owns (c : Thread nD τ) (mem2_1 t) fullShare ((dat2 V c).after 1 t) from by
    unfold Dat.leavesExact; rw [live2_1 t], after2_1]
  rw [show (dat2 V c).leavesExact 2 t = owns (c : Thread nD τ) (mem2_2 t) fullShare ((dat2 V c).after 2 t) from by
    unfold Dat.leavesExact; rw [live2_2 t], after2_2]
  rw [show (dat2 V c).leavesExact 3 t = owns (c : Thread nD τ) (mem2_3 t) fullShare ((dat2 V c).after 3 t) from by
    unfold Dat.leavesExact; rw [live2_3 t], after2_3]
  by_cases h0 : t.val % 16 = 0
  · have hl : ¬last2 (grid2.coords t) := fun h => by have h' := (last2_iff t).mp h; omega
    rw [Dat.leavesExact_idle (dat2 V c) 4 t (idle2_out t hl) (noFlush2_out t hl)]
    rw [stateAt2_first V c t h0 hl]
    unfold accFirst2; (try dsimp only)
    by_cases hz : t.val = 0
    · rw [phi2_castSucc V c t, phi2_zero V c _ _ hz, phiA2_eq]
      iintro ⟨⟨⟨HS, Hrest⟩, Hg⟩, Ho, ⟨%d0, H0⟩, ⟨%d1, H1⟩, ⟨%d2, H2⟩, ⟨%d3, H3⟩, ⟨%d4, H4⟩⟩
      iapply ((runFirst2 c (grid2.coords t) _ _ _ _ _ _ _ _ _ _ _ _ ((first2_iff t).mpr h0) hl (block2 V c 0 t) (block2 V c 1 t) (block2 V c 2 t) (block2 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi2_castSucc V c t, phi2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst2 c (grid2.coords t) _ _ _ _ _ _ _ _ _ _ _ _ ((first2_iff t).mpr h0) hl (block2 V c 0 t) (block2 V c 1 t) (block2 V c 2 t) (block2 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat2 V c).leavesExact 4 t = owns (c : Thread nD τ) (mem2_4 t) fullShare ((dat2 V c).after 4 t) from by
        unfold Dat.leavesExact; rw [live2_out t ((last2_iff t).mpr h1)], after2_4]
      rw [stateAt2_last V c t h0 h1]
      unfold outLast2 accLast2; (try dsimp only)
      rw [phi2_castSucc V c t, phi2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast2 c (grid2.coords t) _ _ _ _ _ _ _ _ _ _ _ _ (fun h => h0 ((first2_iff t).mp h)) ((last2_iff t).mpr h1) (block2 V c 0 t) (block2 V c 1 t) (block2 V c 2 t) (block2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast2_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast2_cover c _ _ _ _ _ _ _ _ _ _ _ _ _ _ _ _ _ _ _ _)
    · have hl : ¬last2 (grid2.coords t) := (fun h => h1 ((last2_iff t).mp h))
      rw [Dat.leavesExact_idle (dat2 V c) 4 t (idle2_out t hl) (noFlush2_out t hl)]
      rw [stateAt2_mid V c t h0 h1]
      unfold accMid2; (try dsimp only)
      rw [phi2_castSucc V c t, phi2_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid2 c (grid2.coords t) _ _ _ _ _ _ _ _ _ _ _ _ (fun h => h0 ((first2_iff t).mp h)) hl (block2 V c 0 t) (block2 V c 1 t) (block2 V c 2 t) (block2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid2_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem enter2 (c : Dev nD) : Pipeline.ΦA spec2 c ⊢ (dat2 V c).Φ 0 := by
  rw [show (dat2 V c).Φ 0 = phi2 V c 0 (Nat.zero_le _) from rfl, phi2_zero V c 0 _ rfl]
  try exact Idealize.SL.BI.Entails.refl _

/-- After the last point the invariant gives the class invariant back: the accumulator's contents are forgotten. -/
theorem leave2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = phi2 V c (Fin.last cfg2.N).val (Nat.le_of_lt_succ (Fin.last cfg2.N).isLt) from rfl, phi2_pos V c _ _ hne, phiA2_eq]
  iintro ⟨⟨HS, Hrest⟩, Hg⟩
  isplitl [HS Hrest]
  · isplitl [HS]
    · iexists _; iexact HS
    iexact Hrest
  iexact Hg

end

end Cert.KernelIdeal.Hand

end
-- ==== Proof.Ideal.Reg3.Setup.lean ====
/-
  Region 3 of the program: the tiled product `relu (A · (H · W) + b)` accumulated over the
  second grid axis.  This module fixes what the later ones are stated over: a window's block
  at a grid point as a read of the array the region finds; the two branch conditions of the
  body (the reduction index is 0; the reduction index is 15) decided over the 4 × 16 grid;
  where the output window is idle; and the region invariant with the accumulator split out.
-/
import proofs.«174668_j26645977104432_2_alg».proof.Proof.Gen.KernelIdeal.Launch
import proofs.«174668_j26645977104432_2_alg».proof.Proof.Gen.KernelIdeal.Skeleton
import proofs.«174668_j26645977104432_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the rectangle of its array (as the region finds it) that the
    index map selects there. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 is found at its block at every point, fetched there or not: when it is not fetched its
    index has not moved since the last fetch, and the body leaves the buffer as it found it. -/
theorem found3_0_of {c : Dev nD} (dat : Dat τ (Elt F) Unit ℕ (UR sig nD τ) ℕ cfg3 c) (hA : dat.A 0 = V c (Pipeline.arrRef spec3 0))
    (hafter : ∀ t, dat.after 0 t = block3 V c 0 t) (t : Fin cfg3.N) (d) : dat.before 0 t d = block3 V c 0 t :=
  (dat.before_in_eq_fetched 0 rfl (fun _ => rfl) (fun _ _ _ => rfl) (fun t => by rw [hafter]; unfold Dat.blockOf block3; rw [hA]; try rfl) t d).trans
    (by unfold Dat.fetched Dat.blockOf block3; rw [hA]; try rfl)

/-- Input window 1 is found at its block at every point, fetched there or not: when it is not fetched its
    index has not moved since the last fetch, and the body leaves the buffer as it found it. -/
theorem found3_1_of {c : Dev nD} (dat : Dat τ (Elt F) Unit ℕ (UR sig nD τ) ℕ cfg3 c) (hA : dat.A 1 = V c (Pipeline.arrRef spec3 1))
    (hafter : ∀ t, dat.after 1 t = block3 V c 1 t) (t : Fin cfg3.N) (d) : dat.before 1 t d = block3 V c 1 t :=
  (dat.before_in_eq_fetched 1 rfl (fun _ => rfl) (fun _ _ _ => rfl) (fun t => by rw [hafter]; unfold Dat.blockOf block3; rw [hA]; try rfl) t d).trans
    (by unfold Dat.fetched Dat.blockOf block3; rw [hA]; try rfl)

/-- Input window 2 is found at its block at every point, fetched there or not: when it is not fetched its
    index has not moved since the last fetch, and the body leaves the buffer as it found it. -/
theorem found3_2_of {c : Dev nD} (dat : Dat τ (Elt F) Unit ℕ (UR sig nD τ) ℕ cfg3 c) (hA : dat.A 2 = V c (Pipeline.arrRef spec3 2))
    (hafter : ∀ t, dat.after 2 t = block3 V c 2 t) (t : Fin cfg3.N) (d) : dat.before 2 t d = block3 V c 2 t :=
  (dat.before_in_eq_fetched 2 rfl (fun _ => rfl) (fun _ _ _ => rfl) (fun t => by rw [hafter]; unfold Dat.blockOf block3; rw [hA]; try rfl) t d).trans
    (by unfold Dat.fetched Dat.blockOf block3; rw [hA]; try rfl)

/-- Input window 3 is found at its block at every point, fetched there or not: when it is not fetched its
    index has not moved since the last fetch, and the body leaves the buffer as it found it. -/
theorem found3_3_of {c : Dev nD} (dat : Dat τ (Elt F) Unit ℕ (UR sig nD τ) ℕ cfg3 c) (hA : dat.A 3 = V c (Pipeline.arrRef spec3 3))
    (hafter : ∀ t, dat.after 3 t = block3 V c 3 t) (t : Fin cfg3.N) (d) : dat.before 3 t d = block3 V c 3 t :=
  (dat.before_in_eq_fetched 3 rfl (fun _ => rfl) (fun _ _ _ => rfl) (fun t => by rw [hafter]; unfold Dat.blockOf block3; rw [hA]; try rfl) t d).trans
    (by unfold Dat.fetched Dat.blockOf block3; rw [hA]; try rfl)

end

/-! ## The two branches of the body, over the grid -/

/-- The reduction index is 0: the accumulator is reset. -/
abbrev first3 (i : grid3.Coords) : Prop := (Scalar.cmpi .ne (Scalar.extui (Scalar.cmpi .eq (BitVec.ofNat 32 (i 1).val) 0#32)) 0#32) = 1#1
theorem first3_iff : ∀ t : Fin cfg3.N, first3 (grid3.coords t) ↔ t.val % 16 = 0 :=
  (by decide +kernel : ∀ t : Fin grid3.N, first3 (grid3.coords t) ↔ t.val % 16 = 0)

/-- The reduction index is 15: the output block is written. -/
abbrev last3 (i : grid3.Coords) : Prop := k3_cond2 i = 1#1
theorem last3_iff : ∀ t : Fin cfg3.N, last3 (grid3.coords t) ↔ t.val % 16 = 15 :=
  (by decide +kernel : ∀ t : Fin grid3.N, last3 (grid3.coords t) ↔ t.val % 16 = 15)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Away from the last reduction step the output window is idle and is not written back. -/
theorem idle3_out : ∀ t : Fin cfg3.N, ¬last3 (grid3.coords t) → cfg3.idle 4 (grid3.coords t) = true := by decide +kernel
theorem noFlush3_out : ∀ t : Fin cfg3.N, ¬last3 (grid3.coords t) → (cfg3.win 4).flush t = false := by decide +kernel
/-- At the last reduction step it is live. -/
theorem live3_out : ∀ t : Fin cfg3.N, last3 (grid3.coords t) → cfg3.idle 4 (grid3.coords t) = false := by decide +kernel

/-! ## The memrefs the body is called with -/

abbrev mem3_0 (t : Fin cfg3.N) : Memref sig .tc .vmem S2048x512 .f32 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S8192x200 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S200x200 .f32 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S1x200 .f32 := win3_3.stage (cfg3.slots t 3)
abbrev whole3_3 (t : Fin cfg3.N) : (mem3_3 t).IsWhole := hstage3_3 ((cfg3.slots t 3).cast nbuf3_3)
abbrev mem3_4 (t : Fin cfg3.N) : Memref sig .tc .vmem S2048x200 .f32 := win3_4.stage (cfg3.slots t 4)
abbrev whole3_4 (t : Fin cfg3.N) : (mem3_4 t).IsWhole := hstage3_4 ((cfg3.slots t 4).cast nbuf3_4)
/-- The accumulator: a whole scoped buffer of the kernel's own. -/
abbrev acc3 : Memref sig .tc .vmem S2048x200 .f32 := Memref.whole cc3_scratch0
abbrev accView3 : View sig .tc .vmem S2048x200 .f32 := acc3.view
/-- One staging buffer of the output window, through which its contents are stated. -/
abbrev outView3 : View sig .tc .vmem S2048x200 .f32 := (Memref.whole cc3_stg4_0 : Memref sig .tc .vmem S2048x200 .f32).view

/-- The region's class invariant with the accumulator taken out of the scoped rest. -/
theorem phiA3_eq (c : Dev nD) :
    (Pipeline.ΦA spec3 c : sProp 𝕄)
      = iprop(iprop(iprop((∃ d, owns (c : Thread nD τ) acc3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3, owns_whole]; try rfl

end Cert.KernelIdeal.Hand

end
-- ==== Proof.Ideal.Reg3.CaseFirst.lean ====
/-
  Region 3, the first reduction step (reduction index 0): the body resets the accumulator to zero,
  adds the step's partial product into it, and leaves the output window untouched.  The run is found
  by symbolic execution of the body; what the accumulator ends with is recorded as the list of the
  body's stores into it, last first.
-/
import proofs.«174668_j26645977104432_2_alg».proof.Proof.Ideal.Reg3.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 0, on whole memrefs: the four inputs at their contents, the output's buffer at
    contents handed back untouched, the accumulator at anything; it ends with the accumulator holding the stores `LS`. -/
noncomputable def runFirst3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : first3 i) (hc1 : ¬last3 i) (x0 : Vec F S2048x512 .f32) (x1 : Vec F S8192x200 .f32) (x2 : Vec F S200x200 .f32) (x3 : Vec F S1x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc3__matmul_relu_bias_kernel i a2 h2 a3 h3 a4 h4 a5 h5 a6 h6 a7 h7) K } := by
  refine ⟨?_, fun xo E K => ?run⟩
  case run =>
    simp only [cc3__matmul_relu_bias_kernel_eq_skeleton]; unfold cc3__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg3.CaseMid.lean ====
/-
  Region 3, a middle reduction step (reduction index 1 … 14): the body adds the step's partial product
  into the accumulator the step before left, and leaves the output window untouched.
-/
import proofs.«174668_j26645977104432_2_alg».proof.Proof.Ideal.Reg3.CaseFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index strictly between 0 and 15: the accumulator comes in at `xs`
    (what the step before left) and ends holding the stores `LS`. -/
noncomputable def runMid3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first3 i) (hc1 : ¬last3 i) (x0 : Vec F S2048x512 .f32) (x1 : Vec F S8192x200 .f32) (x2 : Vec F S200x200 .f32) (x3 : Vec F S1x200 .f32) (xs : Vec F S2048x200 .f32) :
    { LS : List (View.Piece (Elt F) S2048x200 .f32) //
      ∀ (xo : Vec F S2048x200 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xo ∗ (∃ f, a7.view.loc (c : Thread nD τ) ↦[a7.view.set]{fullShare} a7.view.writes (Elt F) f LS)) -∗ K ⟨⟩))
          ⊢ wp frame (wpE (defs₀ (F := F)) Variants.none c none) E (cc3__matmul_relu_bias_kernel i a2 h2 a3 h3 a4 h4 a5 h5 a6 h6 a7 h7) K } := by
  refine ⟨?_, fun xo E K => ?run⟩
  case run =>
    simp only [cc3__matmul_relu_bias_kernel_eq_skeleton]; unfold cc3__matmul_relu_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact HS

end Cert.KernelIdeal.Hand

end
-- ==== Proof.Ideal.Reg3.CaseLast.lean ====
/-
  Region 3, the last reduction step (reduction index 15): the body adds the step's partial product into the
  accumulator, then writes `max (accumulator + bias) 0` into the output window's buffer.
-/
import proofs.«174668_j26645977104432_2_alg».proof.Proof.Ideal.Reg3.CaseMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point with reduction index 15: the accumulator comes in at `xs`, the output's buffer at anything;
    the output's buffer ends holding the stores `LO`, the accumulator the stores `LS`. -/
noncomputable def runLast3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole)
    (hc0 : ¬first3 i) (hc1 : last3 i) (x0 : Vec F S2048x512 .f32) (x1 : Vec F S8192x200 .f32) (x2 : Vec F S200x200 .f32) (x3 : Vec F S1x200 .f32) (xs : Vec F S2048x200 .f32) :
    Σ' (LO : List (View.Piece (Elt F) S2048x200 .f32)), { LS : List (View.Piece (Elt F) S2048x200 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LO) ∗ (∃ f, a7.view.loc (c : Thread nD τ) ↦[a7.view.set]{fullShare} a7.view.writes (Elt F) f LS)) -∗ K ⟨⟩))
          ⊢ wp frame (wpE (defs₀ (F := F)) Variants.none c none) E (cc3__matmul_relu_bias_kernel i a2 h2 a3 h3 a4 h4 a5 h5 a6 h6 a7 h7) K } := by
  refine ⟨?_, ?_, fun E K => ?run⟩
  case run =>
    simp only [cc3__matmul_relu_bias_kernel_eq_skeleton]; unfold cc3__matmul_relu_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h2.eq_unread hf0; obtain rfl := h3.eq_unread hf1; obtain rfl := h4.eq_unread hf2; obtain rfl := h5.eq_unread hf3; obtain rfl := h7.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact HS

end Cert.KernelIdeal.Hand

end
-- ==== Proof.Ideal.Reg3.Data.lean ====
/-
  Region 3: what the accumulator and the output window's buffer hold after each grid point, the
  region's proof data, and the body obligation at every point.

  The grid is 4 × 16, the second axis the reduction.  At reduction index 0 the accumulator is reset and
  receives the first partial product; at indices 1 … 14 it receives one more partial product on top of
  what the point before left; at index 15 it receives the last one and the output block is written from
  it.  The contents are defined by recursion on the grid point (`stateAt3`): each point's contents are
  the stores its case's run found, read back, over the accumulator the point before left.
-/
import proofs.«174668_j26645977104432_2_alg».proof.Proof.Ideal.Reg3.CaseLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents nothing reads: the output window's buffer where it is idle. -/
def unread3 : Vec F S2048x200 .f32 := outView3.read (Elt F) outView3.junk

/-! ## What each case leaves -/

/-- The accumulator after a point with reduction index 0. -/
def accFirst3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first3 i) (hc1 : ¬last3 i) (x0 : Vec F S2048x512 .f32) (x1 : Vec F S8192x200 .f32) (x2 : Vec F S200x200 .f32) (x3 : Vec F S1x200 .f32) : Vec F S2048x200 .f32 :=
  accView3.read (Elt F) (accView3.writes (Elt F) accView3.junk (runFirst3 c i a2 h2 a3 h3 a4 h4 a5 h5 a6 h6 a7 h7 hc0 hc1 x0 x1 x2 x3).1)
/-- Its stores tile the accumulator, so they cover it. -/
theorem accFirst3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first3 i) (hc1 : ¬last3 i) (x0 : Vec F S2048x512 .f32) (x1 : Vec F S8192x200 .f32) (x2 : Vec F S200x200 .f32) (x3 : Vec F S1x200 .f32) (y : S2048x200.Idx) :
    ∃ pc ∈ (runFirst3 c i a2 h2 a3 h3 a4 h4 a5 h5 a6 h6 a7 h7 hc0 hc1 x0 x1 x2 x3).1, y ∈ pc.1.set :=
  View.cover_of_tiledL (runFirst3 c i a2 h2 a3 h3 a4 h4 a5 h5 a6 h6 a7 h7 hc0 hc1 x0 x1 x2 x3).1 S2048x200.size (by sl_kernel_rfl) y

/-- The accumulator after a point with reduction index 1 … 14, over what the point before left (`xs`). -/
def accMid3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : ¬last3 i) (x0 : Vec F S2048x512 .f32) (x1 : Vec F S8192x200 .f32) (x2 : Vec F S200x200 .f32) (x3 : Vec F S1x200 .f32) (xs : Vec F S2048x200 .f32) : Vec F S2048x200 .f32 :=
  accView3.read (Elt F) (accView3.writes (Elt F) accView3.junk (runMid3 c i a2 h2 a3 h3 a4 h4 a5 h5 a6 h6 a7 h7 hc0 hc1 x0 x1 x2 x3 xs).1)
theorem accMid3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : ¬last3 i) (x0 : Vec F S2048x512 .f32) (x1 : Vec F S8192x200 .f32) (x2 : Vec F S200x200 .f32) (x3 : Vec F S1x200 .f32) (xs : Vec F S2048x200 .f32) (y : S2048x200.Idx) :
    ∃ pc ∈ (runMid3 c i a2 h2 a3 h3 a4 h4 a5 h5 a6 h6 a7 h7 hc0 hc1 x0 x1 x2 x3 xs).1, y ∈ pc.1.set :=
  View.cover_of_tiledL (runMid3 c i a2 h2 a3 h3 a4 h4 a5 h5 a6 h6 a7 h7 hc0 hc1 x0 x1 x2 x3 xs).1 S2048x200.size (by sl_kernel_rfl) y

/-- The accumulator after a point with reduction index 15. -/
def accLast3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) : Vec F S2048x200 .f32 :=
  accView3.read (Elt F) (accView3.writes (Elt F) accView3.junk (runLast3 c i a2 h2 a3 h3 a4 h4 a5 h5 a6 h6 a7 h7 hc0 hc1 x0 x1 x2 x3 xs).2.1)
theorem accLast3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast3 c i a2 h2 a3 h3 a4 h4 a5 h5 a6 h6 a7 h7 hc0 hc1 x0 x1 x2 x3 xs).2.1, y ∈ pc.1.set :=
  View.cover_of_tiledL (runLast3 c i a2 h2 a3 h3 a4 h4 a5 h5 a6 h6 a7 h7 hc0 hc1 x0 x1 x2 x3 xs).2.1 S2048x200.size (by sl_kernel_rfl) y
/-- The output window's buffer after a point with reduction index 15. -/
def outLast3 (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) : Vec F S2048x200 .f32 :=
  outView3.read (Elt F) (outView3.writes (Elt F) outView3.junk (runLast3 c i a2 h2 a3 h3 a4 h4 a5 h5 a6 h6 a7 h7 hc0 hc1 x0 x1 x2 x3 xs).1)
theorem outLast3_cover (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) (y : S2048x200.Idx) :
    ∃ pc ∈ (runLast3 c i a2 h2 a3 h3 a4 h4 a5 h5 a6 h6 a7 h7 hc0 hc1 x0 x1 x2 x3 xs).1, y ∈ pc.1.set :=
  View.cover_of_tiledL (runLast3 c i a2 h2 a3 h3 a4 h4 a5 h5 a6 h6 a7 h7 hc0 hc1 x0 x1 x2 x3 xs).1 S2048x200.size (by sl_kernel_rfl) y

section
variable (V : (c : Dev nD) → (b : Ref sig .tc) → Buf (Elt F) ((c : Thread nD τ).loc b))

/-! ## Point by point -/

/-- After the body at grid position `n`: (the output window's buffer, the accumulator). -/
def stateAt3 (c : Dev nD) : (n : ℕ) → n < cfg3.N → Vec F S2048x200 .f32 × Vec F S2048x200 .f32
  | 0, hn => (unread3, accFirst3 c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) (mem3_4 ⟨0, hn⟩) (whole3_4 ⟨0, hn⟩) acc3 (Memref.isWhole_whole _) ((first3_iff ⟨0, hn⟩).mpr (Nat.zero_mod _)) (fun h => (fun h => by (try dsimp only at h); omega) ((last3_iff ⟨0, hn⟩).mp h)) (block3 V c 0 ⟨0, hn⟩) (block3 V c 1 ⟨0, hn⟩) (block3 V c 2 ⟨0, hn⟩) (block3 V c 3 ⟨0, hn⟩))
  | n + 1, hn =>
    if h0 : (n + 1) % 16 = 0 then
      (unread3, accFirst3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) ((first3_iff ⟨n + 1, hn⟩).mpr h0) (fun h => (fun h => by (try dsimp only at h); omega) ((last3_iff ⟨n + 1, hn⟩).mp h)) (block3 V c 0 ⟨n + 1, hn⟩) (block3 V c 1 ⟨n + 1, hn⟩) (block3 V c 2 ⟨n + 1, hn⟩) (block3 V c 3 ⟨n + 1, hn⟩))
    else
      if h1 : (n + 1) % 16 = 15 then
        (outLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => h0 ((first3_iff ⟨n + 1, hn⟩).mp h)) ((last3_iff ⟨n + 1, hn⟩).mpr h1) (block3 V c 0 ⟨n + 1, hn⟩) (block3 V c 1 ⟨n + 1, hn⟩) (block3 V c 2 ⟨n + 1, hn⟩) (block3 V c 3 ⟨n + 1, hn⟩) (stateAt3 c n (Nat.lt_of_succ_lt hn)).2,
         accLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => h0 ((first3_iff ⟨n + 1, hn⟩).mp h)) ((last3_iff ⟨n + 1, hn⟩).mpr h1) (block3 V c 0 ⟨n + 1, hn⟩) (block3 V c 1 ⟨n + 1, hn⟩) (block3 V c 2 ⟨n + 1, hn⟩) (block3 V c 3 ⟨n + 1, hn⟩) (stateAt3 c n (Nat.lt_of_succ_lt hn)).2)
      else
        (unread3, accMid3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => h0 ((first3_iff ⟨n + 1, hn⟩).mp h)) (fun h => h1 ((last3_iff ⟨n + 1, hn⟩).mp h)) (block3 V c 0 ⟨n + 1, hn⟩) (block3 V c 1 ⟨n + 1, hn⟩) (block3 V c 2 ⟨n + 1, hn⟩) (block3 V c 3 ⟨n + 1, hn⟩) (stateAt3 c n (Nat.lt_of_succ_lt hn)).2)

theorem stateAt3_first (c : Dev nD) (t : Fin cfg3.N) (h0 : t.val % 16 = 0) (hl : ¬last3 (grid3.coords t)) :
    stateAt3 V c t.val t.isLt = (unread3, accFirst3 c (grid3.coords t) (mem3_0 t) (whole3_0 t) (mem3_1 t) (whole3_1 t) (mem3_2 t) (whole3_2 t) (mem3_3 t) (whole3_3 t) (mem3_4 t) (whole3_4 t) acc3 (Memref.isWhole_whole _) ((first3_iff t).mpr h0) hl (block3 V c 0 t) (block3 V c 1 t) (block3 V c 2 t) (block3 V c 3 t)) := by
  obtain ⟨n, hn⟩ := t
  cases n with
  | zero => exact rfl
  | succ n => exact (dif_pos h0).trans rfl

theorem stateAt3_mid (c : Dev nD) (t : Fin cfg3.N) (h0 : ¬t.val % 16 = 0) (h1 : ¬t.val % 16 = 15) :
    stateAt3 V c t.val t.isLt = (unread3, accMid3 c (grid3.coords t) (mem3_0 t) (whole3_0 t) (mem3_1 t) (whole3_1 t) (mem3_2 t) (whole3_2 t) (mem3_3 t) (whole3_3 t) (mem3_4 t) (whole3_4 t) acc3 (Memref.isWhole_whole _) (fun h => h0 ((first3_iff t).mp h)) (fun h => h1 ((last3_iff t).mp h)) (block3 V c 0 t) (block3 V c 1 t) (block3 V c 2 t) (block3 V c 3 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt3_last (c : Dev nD) (t : Fin cfg3.N) (h0 : ¬t.val % 16 = 0) (h1 : t.val % 16 = 15) :
    stateAt3 V c t.val t.isLt = (outLast3 c (grid3.coords t) (mem3_0 t) (whole3_0 t) (mem3_1 t) (whole3_1 t) (mem3_2 t) (whole3_2 t) (mem3_3 t) (whole3_3 t) (mem3_4 t) (whole3_4 t) acc3 (Memref.isWhole_whole _) (fun h => h0 ((first3_iff t).mp h)) ((last3_iff t).mpr h1) (block3 V c 0 t) (block3 V c 1 t) (block3 V c 2 t) (block3 V c 3 t) (stateAt3 V c (t.val - 1) (Nat.lt_of_le_of_lt (Nat.sub_le _ _) t.isLt)).2,
      accLast3 c (grid3.coords t) (mem3_0 t) (whole3_0 t) (mem3_1 t) (whole3_1 t) (mem3_2 t) (whole3_2 t) (mem3_3 t) (whole3_3 t) (mem3_4 t) (whole3_4 t) acc3 (Memref.isWhole_whole _) (fun h => h0 ((first3_iff t).mp h)) ((last3_iff t).mpr h1) (block3 V c 0 t) (block3 V c 1 t) (block3 V c 2 t) (block3 V c 3 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before position `n`: at the start the class invariant (the accumulator at anything); afterwards the accumulator at
    what the point before left, the rest of the scoped buffers unopened, the generator register at some state. -/
def phi3 (c : Dev nD) : (n : ℕ) → n ≤ cfg3.N → sProp 𝕄
  | 0, _ => Pipeline.ΦA spec3 c
  | n + 1, hn => iprop(iprop(iprop(owns (c : Thread nD τ) acc3 fullShare ((stateAt3 V c n hn).2)) ∗ Pipeline.scopedRestBut (Ix := Unit) (Name := ℕ) (U := UR sig nD τ) (Lvl := ℕ) (Val := Elt F) spec3 c [cc3_scratch0]) ∗ (∃ r, prngReg c r))

theorem phi3_zero (c : Dev nD) (n : ℕ) (h : n ≤ cfg3.N) (hz : n = 0) : phi3 V c n h = Pipeline.ΦA spec3 c := by
  subst hz; rfl
theorem phi3_succ (c : Dev nD) (n : ℕ) (hn : n < cfg3.N) :
    phi3 V c (n + 1) hn = iprop(iprop(iprop(owns (c : Thread nD τ) acc3 fullShare ((stateAt3 V c n hn).2)) ∗ Pipeline.scopedRestBut (Ix := Unit) (Name := ℕ) (U := UR sig nD τ) (Lvl := ℕ) (Val := Elt F) spec3 c [cc3_scratch0]) ∗ (∃ r, prngReg c r)) := rfl
theorem phi3_pos (c : Dev nD) (n : ℕ) (h : n ≤ cfg3.N) (hz : n ≠ 0) :
    phi3 V c n h = iprop(iprop(iprop(owns (c : Thread nD τ) acc3 fullShare ((stateAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block, the output's at
    `stateAt3`'s first component; the invariant `phi3`; nothing owed; full shares. -/
def dat3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => block3 V c 3 t
    | ⟨4, _⟩ => (stateAt3 V c t.val t.isLt).1
  Φ t := phi3 V c t.val (Nat.le_of_lt_succ t.isLt)
  q _ := fullShare
  owed _ := 0

theorem arr3_eq (c : Dev nD) (w : Fin cfg3.W) : (dat3 V c).A w = V c (Pipeline.arrRef spec3 w) := by
  dsimp only [dat3]

theorem phi3_castSucc (c : Dev nD) (t : Fin cfg3.N) :
    (dat3 V c).Φ t.castSucc = phi3 V c t.val (Nat.le_of_lt t.isLt) := by
  dsimp only [dat3]; simp only [Fin.coe_castSucc]

theorem after3_0 (c : Dev nD) (t : Fin cfg3.N) : (dat3 V c).after 0 t = block3 V c 0 t := by dsimp only [dat3]
theorem after3_1 (c : Dev nD) (t : Fin cfg3.N) : (dat3 V c).after 1 t = block3 V c 1 t := by dsimp only [dat3]
theorem after3_2 (c : Dev nD) (t : Fin cfg3.N) : (dat3 V c).after 2 t = block3 V c 2 t := by dsimp only [dat3]
theorem after3_3 (c : Dev nD) (t : Fin cfg3.N) : (dat3 V c).after 3 t = block3 V c 3 t := by dsimp only [dat3]
theorem after3_4 (c : Dev nD) (t : Fin cfg3.N) : (dat3 V c).after 4 t = (stateAt3 V c t.val t.isLt).1 := by dsimp only [dat3]

theorem found3_0 (c : Dev nD) (t : Fin cfg3.N) (d) : (dat3 V c).before 0 t d = block3 V c 0 t :=
  found3_0_of V (dat3 V c) (arr3_eq V c 0) (after3_0 V c) t d
theorem found3_1 (c : Dev nD) (t : Fin cfg3.N) (d) : (dat3 V c).before 1 t d = block3 V c 1 t :=
  found3_1_of V (dat3 V c) (arr3_eq V c 1) (after3_1 V c) t d
theorem found3_2 (c : Dev nD) (t : Fin cfg3.N) (d) : (dat3 V c).before 2 t d = block3 V c 2 t :=
  found3_2_of V (dat3 V c) (arr3_eq V c 2) (after3_2 V c) t d
theorem found3_3 (c : Dev nD) (t : Fin cfg3.N) (d) : (dat3 V c).before 3 t d = block3 V c 3 t :=
  found3_3_of V (dat3 V c) (arr3_eq V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d))
    ∗ (∃ d, owns (c : Thread nD τ) (mem3_1 t) fullShare ((dat3 V c).before 1 t d))
    ∗ (∃ d, owns (c : Thread nD τ) (mem3_2 t) fullShare ((dat3 V c).before 2 t d))
    ∗ (∃ d, owns (c : Thread nD τ) (mem3_3 t) fullShare ((dat3 V c).before 3 t d))
    ∗ (∃ d, owns (c : Thread nD τ) (mem3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point.  The inputs' buffers hold their blocks; the reduction index decides the case; the invariant
    hands the body the accumulator (at anything at the very first point, else at what the point before left) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1, found3_2, found3_3]
  rw [show (dat3 V c).owesAt () t.succ = (dat3 V c).owesAt () t.castSucc from rfl]
  rw [show (dat3 V c).Φ t.succ = phi3 V c (t.val + 1) t.isLt from rfl, phi3_succ]
  have hN : t.val < 64 := lt_of_lt_of_eq t.isLt (show cfg3.N = 64 from N_3)
  rw [show (dat3 V c).leavesExact 0 t = owns (c : Thread nD τ) (mem3_0 t) fullShare ((dat3 V c).after 0 t) from by
    unfold Dat.leavesExact; rw [live3_0 t], after3_0]
  rw [show (dat3 V c).leavesExact 1 t = owns (c : Thread nD τ) (mem3_1 t) fullShare ((dat3 V c).after 1 t) from by
    unfold Dat.leavesExact; rw [live3_1 t], after3_1]
  rw [show (dat3 V c).leavesExact 2 t = owns (c : Thread nD τ) (mem3_2 t) fullShare ((dat3 V c).after 2 t) from by
    unfold Dat.leavesExact; rw [live3_2 t], after3_2]
  rw [show (dat3 V c).leavesExact 3 t = owns (c : Thread nD τ) (mem3_3 t) fullShare ((dat3 V c).after 3 t) from by
    unfold Dat.leavesExact; rw [live3_3 t], after3_3]
  by_cases h0 : t.val % 16 = 0
  · have hl : ¬last3 (grid3.coords t) := fun h => by have h' := (last3_iff t).mp h; omega
    rw [Dat.leavesExact_idle (dat3 V c) 4 t (idle3_out t hl) (noFlush3_out t hl)]
    rw [stateAt3_first V c t h0 hl]
    unfold accFirst3; (try dsimp only)
    by_cases hz : t.val = 0
    · rw [phi3_castSucc V c t, phi3_zero V c _ _ hz, phiA3_eq]
      iintro ⟨⟨⟨HS, Hrest⟩, Hg⟩, Ho, ⟨%d0, H0⟩, ⟨%d1, H1⟩, ⟨%d2, H2⟩, ⟨%d3, H3⟩, ⟨%d4, H4⟩⟩
      iapply ((runFirst3 c (grid3.coords t) _ _ _ _ _ _ _ _ _ _ _ _ ((first3_iff t).mpr h0) hl (block3 V c 0 t) (block3 V c 1 t) (block3 V c 2 t) (block3 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [phi3_castSucc V c t, phi3_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst3 c (grid3.coords t) _ _ _ _ _ _ _ _ _ _ _ _ ((first3_iff t).mpr h0) hl (block3 V c 0 t) (block3 V c 1 t) (block3 V c 2 t) (block3 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat3 V c).leavesExact 4 t = owns (c : Thread nD τ) (mem3_4 t) fullShare ((dat3 V c).after 4 t) from by
        unfold Dat.leavesExact; rw [live3_out t ((last3_iff t).mpr h1)], after3_4]
      rw [stateAt3_last V c t h0 h1]
      unfold outLast3 accLast3; (try dsimp only)
      rw [phi3_castSucc V c t, phi3_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runLast3 c (grid3.coords t) _ _ _ _ _ _ _ _ _ _ _ _ (fun h => h0 ((first3_iff t).mp h)) ((last3_iff t).mpr h1) (block3 V c 0 t) (block3 V c 1 t) (block3 V c 2 t) (block3 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast3_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast3_cover c _ _ _ _ _ _ _ _ _ _ _ _ _ _ _ _ _ _ _ _)
    · have hl : ¬last3 (grid3.coords t) := (fun h => h1 ((last3_iff t).mp h))
      rw [Dat.leavesExact_idle (dat3 V c) 4 t (idle3_out t hl) (noFlush3_out t hl)]
      rw [stateAt3_mid V c t h0 h1]
      unfold accMid3; (try dsimp only)
      rw [phi3_castSucc V c t, phi3_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runMid3 c (grid3.coords t) _ _ _ _ _ _ _ _ _ _ _ _ (fun h => h0 ((first3_iff t).mp h)) hl (block3 V c 0 t) (block3 V c 1 t) (block3 V c 2 t) (block3 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (accMid3_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem enter3 (c : Dev nD) : Pipeline.ΦA spec3 c ⊢ (dat3 V c).Φ 0 := by
  rw [show (dat3 V c).Φ 0 = phi3 V c 0 (Nat.zero_le _) from rfl, phi3_zero V c 0 _ rfl]
  try exact Idealize.SL.BI.Entails.refl _

/-- After the last point the invariant gives the class invariant back: the accumulator's contents are forgotten. -/
theorem leave3 (c : Dev nD) : (dat3 V c).Φ (Fin.last cfg3.N) ⊢ Pipeline.ΦA spec3 c := by
  have hne : (Fin.last cfg3.N).val ≠ 0 := by rw [Fin.val_last]; have : cfg3.N = 64 := N_3; omega
  rw [show (dat3 V c).Φ (Fin.last cfg3.N) = phi3 V c (Fin.last cfg3.N).val (Nat.le_of_lt_succ (Fin.last cfg3.N).isLt) from rfl, phi3_pos V c _ _ hne, phiA3_eq]
  iintro ⟨⟨HS, Hrest⟩, Hg⟩
  isplitl [HS Hrest]
  · isplitl [HS]
    · iexists _; iexact HS
    iexact Hrest
  iexact Hg

end

end Cert.KernelIdeal.Hand

end
-- ==== Proof.Ideal.Whole.lean ====
/-
  The whole program as a sequence of seven segments — a stretch of host operations, two kernel regions, a
  stretch of host operations, two more kernel regions, a last stretch of host operations — run from the launch to
  the return.  The buffer contents at each segment boundary are named (`W0` … `W7`): a host stretch folds its
  operations over the contents it starts from; a region replaces its own arrays by what its pipeline leaves and
  keeps every other buffer.  The run ends with every unscoped buffer at `W7`.
-/
import proofs.«174668_j26645977104432_2_alg».proof.Proof.Ideal.Reg0.Data
import proofs.«174668_j26645977104432_2_alg».proof.Proof.Ideal.Reg1.Data
import proofs.«174668_j26645977104432_2_alg».proof.Proof.Ideal.Reg2.Data
import proofs.«174668_j26645977104432_2_alg».proof.Proof.Ideal.Reg3.Data
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

set_option maxHeartbeats 40000000 in
theorem hostOps0_fresh : (hostOps0 : List (HloOp τ sig (Elt F))).Forall fun op => op.fresh = ∅ := by
  simp only [List.Forall]; repeat' constructor
/-- The references the stretch `hostOps0` writes: one result buffer per operation. -/
abbrev written0 : List (Ref sig .tc) := [main_v0, main_v1, main_v2, main_v3, main_v4, main_v5, main_v6, main_v7, main_cst, main_v8, main_v9, main_v10, main_v11, main_v12, main_v13]
set_option maxHeartbeats 40000000 in
theorem hostOps0_writes : (hostOps0 : List (HloOp τ sig (Elt F))).Forall fun op => op.writes ⊆ (written0.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxHeartbeats 40000000 in
theorem hostOps2_fresh : (hostOps2 : List (HloOp τ sig (Elt F))).Forall fun op => op.fresh = ∅ := by
  simp only [List.Forall]; repeat' constructor
/-- The references the stretch `hostOps2` writes: one result buffer per operation. -/
abbrev written2 : List (Ref sig .tc) := [main_v16, main_v17, main_v18, main_v19, main_v20, main_v21, main_v22, main_v23, main_v24, main_v25, main_cst_0, main_v26, main_v27, main_cst_1, main_v28, main_v29, main_v30, main_v31, main_v32, main_v33, main_v34, main_v35, main_v36, main_v37, main_v38, main_v39, main_v40, main_v41, main_v42, main_cst_2, main_v43, main_v44, main_cst_3, main_v45, main_v46, main_v47, main_v48, main_v49, main_v50, main_v51, main_v52, main_v53, main_v54, main_v55, main_v56, main_v57, main_v58, main_v59, main_cst_4, main_v60, main_v61, main_cst_5, main_v62, main_v63, main_v64, main_v65, main_v66, main_v67, main_v68, main_v69, main_v70, main_v71, main_v72, main_v73, main_v74, main_v75, main_v76, main_cst_6, main_v77, main_v78, main_cst_7, main_v79, main_v80, main_v81, main_v82, main_v83, main_v84, main_cst_8, main_v85, main_v86, main_cst_9, main_v87, main_v88, main_v89, main_v90, main_v91, main_v92, main_v93, main_v94, main_v95, main_v96, main_v97, main_v98, main_v99, main_v100, main_v101, main_cst_10, main_v102, main_v103, main_cst_11, main_v104, main_v105, main_v106, main_v107, main_v108, main_v109, main_v110, main_v111, main_v112, main_v113, main_v114, main_v115, main_v116, main_v117, main_v118, main_cst_12, main_v119, main_v120, main_cst_13, main_v121, main_v122, main_v123, main_v124, main_v125, main_v126, main_v127, main_v128, main_v129, main_v130, main_v131, main_v132, main_v133, main_v134, main_v135, main_cst_14, main_v136, main_v137, main_cst_15, main_v138, main_v139, main_v140, main_v141, main_v142, main_v143]
set_option maxHeartbeats 40000000 in
theorem hostOps2_writes : (hostOps2 : List (HloOp τ sig (Elt F))).Forall fun op => op.writes ⊆ (written2.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxHeartbeats 40000000 in
theorem hostOps4_fresh : (hostOps4 : List (HloOp τ sig (Elt F))).Forall fun op => op.fresh = ∅ := by
  simp only [List.Forall]; repeat' constructor
/-- The references the stretch `hostOps4` writes: one result buffer per operation. -/
abbrev written4 : List (Ref sig .tc) := [main_v146, main_v147, main_v148, main_v149, main_v150, main_v151, main_v152, main_v153, main_cst_16, main_v154, main_v155, main_cst_17, main_v156, main_v157, main_v158, main_cst_18, main_v159, main_v160, main_cst_19, main_v161, main_v162, main_v163, main_v164, main_v165, main_v166, main_v167, main_v168, main_v169, main_v170, main_v171, main_v172, main_v173, main_v174, main_cst_20, main_v175, main_v176, main_cst_21, main_v177, main_v178, main_v179, main_v180, main_cst_22, main_v181, main_v182, main_cst_23, main_v183, main_v184, main_v185, main_v186, main_v187, main_v188, main_v189, main_v190, main_v191, main_v192, main_v193, main_v194, main_v195, main_v196, main_cst_24, main_v197, main_v198, main_cst_25, main_v199, main_v200, main_v201, main_v202, main_cst_26, main_v203, main_v204, main_cst_27, main_v205, main_v206, main_v207, main_v208, main_v209, main_v210, main_v211, main_v212, main_v213, main_v214, main_v215, main_v216, main_v217, main_v218, main_cst_28, main_v219, main_v220, main_cst_29, main_v221, main_v222, main_v223, main_v224, main_cst_30, main_v225, main_v226, main_cst_31, main_v227, main_v228, main_v229, main_cst_32, main_v230, main_v231, main_cst_33, main_v232, main_v233, main_v234, main_v235, main_v236, main_v237, main_v238, main_v239, main_v240, main_v241, main_v242, main_v243, main_v244, main_v245, main_cst_34, main_v246, main_v247, main_cst_35, main_v248, main_v249, main_v250, main_v251, main_cst_36, main_v252, main_v253, main_cst_37, main_v254, main_v255, main_v256, main_v257, main_v258, main_v259, main_v260, main_v261, main_v262, main_v263, main_v264, main_v265, main_v266, main_v267, main_cst_38, main_v268, main_v269, main_cst_39, main_v270, main_v271, main_v272, main_v273, main_cst_40, main_v274, main_v275, main_cst_41, main_v276, main_v277, main_v278, main_v279, main_v280, main_v281, main_v282, main_v283, main_v284, main_v285, main_v286, main_v287, main_v288, main_v289, main_cst_42, main_v290, main_v291, main_cst_43, main_v292, main_v293, main_v294, main_v295, main_v296, main_v297, main_v298, main_v299, main_v300]
set_option maxHeartbeats 40000000 in
theorem hostOps4_writes : (hostOps4 : List (HloOp τ sig (Elt F))).Forall fun op => op.writes ⊆ (written4.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ written0) : W1 m ρ c (Proc.devRef .tc r) = W0 m ρ c (Proc.devRef .tc r) :=
  StableHlo.after_of_writes_sub hostOps0 _ hostOps0_writes h

/-- At region 0's exit: its arrays at what the pipeline leaves (the inputs as entered, the output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (arr0_eq (V1 m ρ) c w))

/-- At region 1's exit: its arrays at what the pipeline leaves (the inputs as entered, the output with its write-backs
    folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (arr1_eq (V2 m ρ) c w))

/-- After the host stretch `hostOps2`. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
theorem W4_of (c : Dev nD) (r : Ref sig .tc) (h : r ∉ written2) : W4 m ρ c (Proc.devRef .tc r) = W3 m ρ c (Proc.devRef .tc r) :=
  StableHlo.after_of_writes_sub hostOps2 _ hostOps2_writes h

/-- At region 2's exit: its arrays at what the pipeline leaves (the inputs as entered, the output with its write-backs
    folded in), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves the region as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (arr2_eq (V4 m ρ) c w))

/-- At region 3's exit: its arrays at what the pipeline leaves (the inputs as entered, the output with its write-backs
    folded in), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- An input window's array leaves the region as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (arr3_eq (V5 m ρ) c w))

/-- After the host stretch `hostOps4`. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
theorem W7_of (c : Dev nD) (r : Ref sig .tc) (h : r ∉ written4) : W7 m ρ c (Proc.devRef .tc r) = W6 m ρ c (Proc.devRef .tc r) :=
  StableHlo.after_of_writes_sub hostOps4 _ hostOps4_writes h

/-! ## The proof data family and what rides beside the buffers -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`.  Its arrays
    are split out of the unscoped buffers and put back at their final contents; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter0 (V1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`.  Its arrays
    are split out of the unscoped buffers and put back at their final contents; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter1 (V2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`.  Its arrays
    are split out of the unscoped buffers and put back at their final contents; the generator register goes into the
    region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter2 (V4 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W5`, left with them at `W6`.  Its arrays
    are split out of the unscoped buffers and put back at their final contents; the generator register goes into the
    region invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (enter3 (V5 m ρ) c)
    unfold Pipeline.ΦA
    iintro ⟨Hp, -, Hr⟩
    isplitl [Hr]; · iexact Hr
    iexact Hp
  hout c := by
    rw [Pipeline.ownSems0_none]
    refine Idealize.SL.BI.BIBase.Entails.trans (leave3 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at `W7`. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.Ideal.Frame.lean ====
/-
  The argument arrays end as launched: no host operation writes one, and a region either does not touch it or
  stages it through an input window, which it leaves as it found it.  So the contents at the last boundary, read at an
  argument, walk back through the seven segments to the launch memory.
-/
import proofs.«174668_j26645977104432_2_alg».proof.Proof.Ideal.Whole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of_ne m ρ c main_arg0 (by decide)).trans <|
    (W4_of m ρ c main_arg0 (by decide)).trans <| (W3_in m ρ c 1 rfl).trans <| (W2_in m ρ c 1 rfl).trans <|
    (W1_of m ρ c main_arg0 (by decide)).trans rfl

theorem W7_main_arg1 (c : Dev nD) : W7 m ρ c (Proc.devRef .tc main_arg1) = m ((c : Thread nD τ).loc main_arg1) :=
  (W7_of m ρ c main_arg1 (by decide)).trans <| (W6_in m ρ c 0 rfl).trans <| (W5_of_ne m ρ c main_arg1 (by decide)).trans <|
    (W4_of m ρ c main_arg1 (by decide)).trans <| (W3_in m ρ c 0 rfl).trans <| (W2_of_ne m ρ c main_arg1 (by decide)).trans <|
    (W1_of m ρ c main_arg1 (by decide)).trans rfl

theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_in m ρ c 0 rfl).trans <|
    (W4_of m ρ c main_arg2 (by decide)).trans <| (W3_of_ne m ρ c main_arg2 (by decide)).trans <| (W2_in m ρ c 0 rfl).trans <|
    (W1_of m ρ c main_arg2 (by decide)).trans rfl

theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of_ne m ρ c main_arg3 (by decide)).trans <|
    (W4_of m ρ c main_arg3 (by decide)).trans <| (W3_of_ne m ρ c main_arg3 (by decide)).trans <| (W2_of_ne m ρ c main_arg3 (by decide)).trans <|
    (W1_of m ρ c main_arg3 (by decide)).trans rfl

theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of_ne m ρ c main_arg4 (by decide)).trans <|
    (W4_of m ρ c main_arg4 (by decide)).trans <| (W3_of_ne m ρ c main_arg4 (by decide)).trans <| (W2_of_ne m ρ c main_arg4 (by decide)).trans <|
    (W1_of m ρ c main_arg4 (by decide)).trans rfl

theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of_ne m ρ c main_arg5 (by decide)).trans <|
    (W4_of m ρ c main_arg5 (by decide)).trans <| (W3_of_ne m ρ c main_arg5 (by decide)).trans <| (W2_of_ne m ρ c main_arg5 (by decide)).trans <|
    (W1_of m ρ c main_arg5 (by decide)).trans rfl

theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of_ne m ρ c main_arg6 (by decide)).trans <|
    (W4_of m ρ c main_arg6 (by decide)).trans <| (W3_of_ne m ρ c main_arg6 (by decide)).trans <| (W2_of_ne m ρ c main_arg6 (by decide)).trans <|
    (W1_of m ρ c main_arg6 (by decide)).trans rfl

theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of_ne m ρ c main_arg7 (by decide)).trans <|
    (W4_of m ρ c main_arg7 (by decide)).trans <| (W3_of_ne m ρ c main_arg7 (by decide)).trans <| (W2_of_ne m ρ c main_arg7 (by decide)).trans <|
    (W1_of m ρ c main_arg7 (by decide)).trans rfl

theorem W7_main_arg8 (c : Dev nD) : W7 m ρ c (Proc.devRef .tc main_arg8) = m ((c : Thread nD τ).loc main_arg8) :=
  (W7_of m ρ c main_arg8 (by decide)).trans <| (W6_of_ne m ρ c main_arg8 (by decide)).trans <| (W5_of_ne m ρ c main_arg8 (by decide)).trans <|
    (W4_of m ρ c main_arg8 (by decide)).trans <| (W3_of_ne m ρ c main_arg8 (by decide)).trans <| (W2_of_ne m ρ c main_arg8 (by decide)).trans <|
    (W1_of m ρ c main_arg8 (by decide)).trans rfl

/-- Every weakly fair execution terminates, nothing faulting, with the nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_whole m ρ)

end Cert.KernelIdeal.Hand

end
-- ==== Proof.Ideal.Reg0.Values.lean ====
/-
  Region 0: the accumulator and the output block as values.

  One reduction step adds to the accumulator the product of the step's block of `A` (2048 × 512) with the
  product of 512 rows of `H` and the whole of `W` (`part0`).  Reading back the stores each case's run found:
  at reduction index 0 the accumulator becomes `zero + part`; at indices 1 … 15 it becomes `(what the point before
  left) + part`; at index 15 the output block is `max (accumulator + bias) 0`.  So after the point with
  reduction index `k` the accumulator is the ordered sum of the parts of steps 0 … k (`run0`, by induction on
  the grid point).
-/
import proofs.«174668_j26645977104432_2_alg».proof.Proof.Ideal.Reg0.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz0 : (![0, 0] : Fin 2 → Nat) = fun _ => 0 := funext fun a => by fin_cases a <;> rfl

/-- The 512 rows of `H` a point reads: those starting at 512 × (its reduction index). -/
abbrev rows0 (i : grid0.Coords) : Rect S8192x200 := Rect.unit (s := S8192x200) (k0_off1 i) S512x200.size (k0_off1_inb i)

/-- One reduction step's partial product `a · (h · w)`, as the body computes it. -/
def part0 (h : Vec F S512x200 .f32) (w : Vec F S200x200 .f32) (a : Vec F S2048x512 .f32) : FVec F S2048x200 .f32 :=
  matmul dot_S2048x512_S512x200_S2048x200_1_0_0_1_n_n none (truncf .bf16 a bitsLt_bf16_f32)
    (truncf .bf16 (matmul dot_S512x200_S200x200_S512x200_1_0_0_1_n_n none (truncf .bf16 h bitsLt_bf16_f32)
      (truncf .bf16 (shapeCast S200x200 w shapeCasts_S200x200_S200x200) bitsLt_bf16_f32) (constant S512x200 .f32 0x00000000#32)) bitsLt_bf16_f32)
    (constant S2048x200 .f32 0x00000000#32)

/-- The zero block the reset stores. -/
abbrev zero0 : FVec F S2048x200 .f32 := broadcast S2048x200 (Scalar.ofBits .f32 0x00000000#32)

theorem step0_eq (h : Vec F S512x200 .f32) (w : Vec F S200x200 .f32) (a : Vec F S2048x512 .f32) (acc : Vec F S2048x200 .f32) :
    k0_pay2 h w a acc = addf acc (part0 h w a) := by
  unfold k0_pay2 part0; simp only [shapeCast_self]
theorem reset0_eq : (k0_pay1 (F := F)) = zero0 := by
  unfold k0_pay1; simp only [shapeCast_self]
/-- The output block from the accumulator and the bias row. -/
def finish0 (b : Vec F S1x200 .f32) (acc : Vec F S2048x200 .f32) : FVec F S2048x200 .f32 :=
  maximumf (addf acc (broadcastTo S2048x200 b broadcasts_S1x200_S2048x200)) (broadcast S2048x200 (Scalar.ofBits .f32 0x00000000#32))
theorem finish0_eq (b : Vec F S1x200 .f32) (acc : Vec F S2048x200 .f32) : k0_pay3 b acc = finish0 b acc := by
  unfold k0_pay3 finish0; simp only [shapeCast_self]

/-! ## What each case leaves, as values -/

theorem accMid0_eq (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : ¬last0 i) (x0 : Vec F S2048x512 .f32) (x1 : Vec F S8192x200 .f32) (x2 : Vec F S200x200 .f32) (x3 : Vec F S1x200 .f32) (xs : Vec F S2048x200 .f32) :
    accMid0 c i a2 h2 a3 h3 a4 h4 a5 h5 a6 h6 a7 h7 hc0 hc1 x0 x1 x2 x3 xs = addf xs (part0 (View.ld x1 (rows0 i)) x2 x0) := by
  unfold accMid0
  rw [View.read_writes_eq_canon _ _ _ (accMid0_cover c i a2 h2 a3 h3 a4 h4 a5 h5 a6 h6 a7 h7 hc0 hc1 x0 x1 x2 x3 xs)]
  unfold runMid0
  dsimp only
  sl_unfold_words
  rw [View.canon_unit_zero zz0]
  simp only [View.readAt_eq_ld, h2.read_unread, h3.read_unread, h4.read_unread, h7.read_unread, View.ld_unit_zero (S := S2048x512) zz0, View.ld_unit_zero (S := S200x200) zz0, View.ld_unit_zero (S := S2048x200) zz0, step0_eq]
  rfl

theorem accFirst0_eq (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first0 i) (hc1 : ¬last0 i) (x0 : Vec F S2048x512 .f32) (x1 : Vec F S8192x200 .f32) (x2 : Vec F S200x200 .f32) (x3 : Vec F S1x200 .f32) :
    accFirst0 c i a2 h2 a3 h3 a4 h4 a5 h5 a6 h6 a7 h7 hc0 hc1 x0 x1 x2 x3 = addf zero0 (part0 (View.ld x1 (rows0 i)) x2 x0) := by
  unfold accFirst0
  rw [View.read_writes_eq_canon _ _ _ (accFirst0_cover c i a2 h2 a3 h3 a4 h4 a5 h5 a6 h6 a7 h7 hc0 hc1 x0 x1 x2 x3)]
  unfold runFirst0
  dsimp only
  sl_unfold_words
  rw [View.canon_cons_unit_zero (S := S2048x200) zz0, View.readCov_unit_zero (S := S2048x200) _ zz0]
  simp only [View.readAt_eq_ld, h2.read_unread, h3.read_unread, h4.read_unread, View.ld_unit_zero (S := S2048x512) zz0, View.ld_unit_zero (S := S200x200) zz0, step0_eq, reset0_eq]
  rfl

theorem accLast0_eq (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) :
    accLast0 c i a2 h2 a3 h3 a4 h4 a5 h5 a6 h6 a7 h7 hc0 hc1 x0 x1 x2 x3 xs = addf xs (part0 (View.ld x1 (rows0 i)) x2 x0) := by
  unfold accLast0
  rw [View.read_writes_eq_canon _ _ _ (accLast0_cover c i a2 h2 a3 h3 a4 h4 a5 h5 a6 h6 a7 h7 hc0 hc1 x0 x1 x2 x3 xs)]
  unfold runLast0
  dsimp only
  sl_unfold_words
  rw [View.canon_unit_zero zz0]
  simp only [View.readAt_eq_ld, h2.read_unread, h3.read_unread, h4.read_unread, h7.read_unread, View.ld_unit_zero (S := S2048x512) zz0, View.ld_unit_zero (S := S200x200) zz0, View.ld_unit_zero (S := S2048x200) zz0, step0_eq]
  rfl

theorem outLast0_eq (c : Dev nD) (i : grid0.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first0 i) (hc1 : last0 i) (x0 : Vec F S2048x512 .f32) (x1 : Vec F S8192x200 .f32) (x2 : Vec F S200x200 .f32) (x3 : Vec F S1x200 .f32) (xs : Vec F S2048x200 .f32) :
    outLast0 c i a2 h2 a3 h3 a4 h4 a5 h5 a6 h6 a7 h7 hc0 hc1 x0 x1 x2 x3 xs = finish0 x3 (addf xs (part0 (View.ld x1 (rows0 i)) x2 x0)) := by
  unfold outLast0
  rw [View.read_writes_eq_canon _ _ _ (outLast0_cover c i a2 h2 a3 h3 a4 h4 a5 h5 a6 h6 a7 h7 hc0 hc1 x0 x1 x2 x3 xs)]
  unfold runLast0
  dsimp only
  sl_unfold_words
  rw [View.canon_unit_zero zz0, View.readCov_unit_zero (S := S2048x200) _ zz0]
  simp only [View.readAt_eq_ld, h2.read_unread, h3.read_unread, h4.read_unread, h5.read_unread, h7.read_unread, View.ld_unit_zero (S := S2048x512) zz0, View.ld_unit_zero (S := S200x200) zz0, View.ld_unit_zero (S := S2048x200) zz0, View.ld_unit_zero (S := S1x200) zz0, step0_eq, finish0_eq]
  rfl

section
variable (V : (c : Dev nD) → (b : Ref sig .tc) → Buf (Elt F) ((c : Thread nD τ).loc b))

/-- The partial product of the point at grid position `n`. -/
def partAt0 (c : Dev nD) (t : Fin cfg0.N) : FVec F S2048x200 .f32 :=
  part0 (View.ld (block0 V c 1 t : Vec F S8192x200 .f32) (rows0 (grid0.coords t))) (block0 V c 2 t) (block0 V c 0 t)

/-- The ordered running sum: reset at reduction index 0, one more part at every point. -/
def run0 (c : Dev nD) : (n : ℕ) → n < cfg0.N → FVec F S2048x200 .f32
  | 0, hn => addf zero0 (partAt0 V c ⟨0, hn⟩)
  | n + 1, hn => if (n + 1) % 16 = 0 then addf zero0 (partAt0 V c ⟨n + 1, hn⟩)
      else addf (run0 c n (Nat.lt_of_succ_lt hn)) (partAt0 V c ⟨n + 1, hn⟩)

theorem run0_succ (c : Dev nD) (n : ℕ) (hn : n + 1 < cfg0.N) :
    run0 V c (n + 1) hn = if (n + 1) % 16 = 0 then addf zero0 (partAt0 V c ⟨n + 1, hn⟩)
      else addf (run0 V c n (Nat.lt_of_succ_lt hn)) (partAt0 V c ⟨n + 1, hn⟩) := rfl

/-- The accumulator after every point is the running sum. -/
theorem acc0_eq_run (c : Dev nD) : ∀ (n : ℕ) (hn : n < cfg0.N), (stateAt0 V c n hn).2 = run0 V c n hn
  | 0, hn => by
    have hl : ¬last0 (grid0.coords ⟨0, hn⟩) := fun h => by have h' := (last0_iff ⟨0, hn⟩).mp h; (try dsimp only at h'); omega
    rw [stateAt0_first V c ⟨0, hn⟩ (Nat.zero_mod _) hl]; dsimp only
    rw [accFirst0_eq]; rfl
  | n + 1, hn => by
    by_cases h0 : (n + 1) % 16 = 0
    · have hl : ¬last0 (grid0.coords ⟨n + 1, hn⟩) := fun h => by have h' := (last0_iff ⟨n + 1, hn⟩).mp h; (try dsimp only at h'); omega
      rw [stateAt0_first V c ⟨n + 1, hn⟩ h0 hl]; dsimp only
      rw [accFirst0_eq, run0_succ, if_pos h0]; rfl
    · by_cases h1 : (n + 1) % 16 = 15
      · rw [stateAt0_last V c ⟨n + 1, hn⟩ h0 h1]; dsimp only
        rw [accLast0_eq]
        show addf (stateAt0 V c n _).2 _ = _
        rw [acc0_eq_run c n, run0_succ, if_neg h0]; rfl
      · rw [stateAt0_mid V c ⟨n + 1, hn⟩ h0 h1]; dsimp only
        rw [accMid0_eq]
        show addf (stateAt0 V c n _).2 _ = _
        rw [acc0_eq_run c n, run0_succ, if_neg h0]; rfl

/-- The output block a point with reduction index 15 writes. -/
theorem out0_eq (c : Dev nD) (t : Fin cfg0.N) (h1 : t.val % 16 = 15) :
    (stateAt0 V c t.val t.isLt).1 = finish0 (block0 V c 3 t) (run0 V c t.val t.isLt) := by
  have h0 : ¬t.val % 16 = 0 := by omega
  have e := acc0_eq_run V c t.val t.isLt
  rw [stateAt0_last V c t h0 h1] at e ⊢; dsimp only at e ⊢
  rw [outLast0_eq]
  rw [accLast0_eq] at e
  rw [e]

end

end Cert.KernelIdeal.Hand

end
-- ==== Proof.Ideal.Tile.lean ====
/-
  The algebra of one tile of the blocked product, over the extended reals.

  An array of rank 2 is read through natural-number coordinates (`at2`: zero outside its extents), so that sums over a
  contraction axis are sums over `Finset.range` and blocks recombine by arithmetic on the summation index alone:
  a sum over `m · n` terms is the `n` sums over the consecutive blocks of `m` terms (`sum_blocks`).  The body's two
  matrix products, read at an output index, are such sums: a step's partial product at `(r, j)` is
  `∑ q < 512, a (r, q) · ∑ p < 200, h (q, p) · w (p, j)` — the conversions to bf16 are the identity here.
-/
import proofs.«174668_j26645977104432_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Alg

open Cert.KernelIdeal Cert.KernelIdeal.Gen Idealize.ShloMosaic Idealize.ShloMosaic.ValueIdx
open scoped BigOperators

/-! ## Arrays read through natural-number coordinates -/

/-- Entry `(r, c)` of a rank-2 array, zero outside its extents. -/
def at2 {n0 n1 : ℕ} (X : (⟨2, ![n0, n1]⟩ : Shape).Idx → EReal) (r c : ℕ) : EReal :=
  if h : r < n0 ∧ c < n1 then X (ix2 ⟨r, h.1⟩ ⟨c, h.2⟩) else 0

theorem at2_of {n0 n1 : ℕ} (X : (⟨2, ![n0, n1]⟩ : Shape).Idx → EReal) (j : (⟨2, ![n0, n1]⟩ : Shape).Idx) (r c : ℕ)
    (h0 : (j 0).val = r) (h1 : (j 1).val = c) : X j = at2 X r c := by
  subst h0 h1
  unfold at2
  rw [dif_pos ⟨idx2_lt0 j, idx2_lt1 j⟩]
  exact congrArg X (eq_ix2 j)

theorem at2_ix2 {n0 n1 : ℕ} (X : (⟨2, ![n0, n1]⟩ : Shape).Idx → EReal) (r : Fin n0) (c : Fin n1) : at2 X r.val c.val = X (ix2 r c) :=
  (at2_of X (ix2 r c) r.val c.val rfl rfl).symm

/-- A sum over `m · n` consecutive terms, block by block. -/
theorem sum_blocks (f : ℕ → EReal) (m n : ℕ) :
    ∑ k ∈ Finset.range n, ∑ q ∈ Finset.range m, f (m * k + q) = ∑ K ∈ Finset.range (m * n), f K := by
  induction n with
  | zero => simp
  | succ n ih => rw [Finset.sum_range_succ, ih, Nat.mul_succ, Finset.sum_range_add]

/-! ## The two contractions' index maps -/

abbrev Dh := dot_S512x200_S200x200_S512x200_1_0_0_1_n_n
abbrev Da := dot_S2048x512_S512x200_S2048x200_1_0_0_1_n_n

theorem dh_l0 (i : S512x200.Idx) (q : Dh.contr.Idx) : (Dh.lhsIdx i q 0).val = (i 0).val := by
  unfold DotDims.lhsIdx
  rw [dif_neg (show ¬(0 : Fin S512x200.rank) ∈ Dh.lhsBatch by decide), dif_pos (show (0 : Fin S512x200.rank) ∈ Dh.lhsNonContracting by decide)]
  rfl
theorem dh_l1 (i : S512x200.Idx) (q : Dh.contr.Idx) : (Dh.lhsIdx i q 1).val = (q ⟨0, by decide⟩).val :=
  Dh.lhsIdx_val_of_single rfl i q
theorem dh_r0 (i : S512x200.Idx) (q : Dh.contr.Idx) : (Dh.rhsIdx i q 0).val = (q ⟨0, by decide⟩).val :=
  Dh.rhsIdx_val_of_single rfl i q
theorem dh_r1 (i : S512x200.Idx) (q : Dh.contr.Idx) : (Dh.rhsIdx i q 1).val = (i 1).val := by
  unfold DotDims.rhsIdx
  rw [dif_neg (show ¬(1 : Fin S200x200.rank) ∈ Dh.rhsBatch by decide), dif_pos (show (1 : Fin S200x200.rank) ∈ Dh.rhsNonContracting by decide)]
  rfl

theorem da_l0 (i : S2048x200.Idx) (q : Da.contr.Idx) : (Da.lhsIdx i q 0).val = (i 0).val := by
  unfold DotDims.lhsIdx
  rw [dif_neg (show ¬(0 : Fin S2048x512.rank) ∈ Da.lhsBatch by decide), dif_pos (show (0 : Fin S2048x512.rank) ∈ Da.lhsNonContracting by decide)]
  rfl
theorem da_l1 (i : S2048x200.Idx) (q : Da.contr.Idx) : (Da.lhsIdx i q 1).val = (q ⟨0, by decide⟩).val :=
  Da.lhsIdx_val_of_single rfl i q
theorem da_r0 (i : S2048x200.Idx) (q : Da.contr.Idx) : (Da.rhsIdx i q 0).val = (q ⟨0, by decide⟩).val :=
  Da.rhsIdx_val_of_single rfl i q
theorem da_r1 (i : S2048x200.Idx) (q : Da.contr.Idx) : (Da.rhsIdx i q 1).val = (i 1).val := by
  unfold DotDims.rhsIdx
  rw [dif_neg (show ¬(1 : Fin S512x200.rank) ∈ Da.rhsBatch by decide), dif_pos (show (1 : Fin S512x200.rank) ∈ Da.rhsNonContracting by decide)]
  rfl

/-! ## The two matrix products at an index -/

/-- `h · w` (512 × 200 by 200 × 200) into a zero accumulator. -/
theorem mmh_apply (h : FVec Ideal S512x200 .bf16) (w : FVec Ideal S200x200 .bf16) (i : S512x200.Idx) :
    matmul Dh none h w (constant (F := Ideal) S512x200 .f32 0x00000000#32) i
      = ∑ p ∈ Finset.range 200, at2 h (i 0).val p * at2 w p (i 1).val := by
  simp only [matmul]
  rw [Ideal.matmul_constant_zero_apply, ← Equiv.sum_comp (contrEquiv1 Dh 200 rfl rfl).symm,
    ← Fin.sum_univ_eq_sum_range (fun p => at2 h (i 0).val p * at2 w p (i 1).val) 200]
  refine Finset.sum_congr rfl fun p _ => ?_
  have hp := contrEquiv1_symm_val Dh 200 rfl rfl p
  rw [at2_of h _ (i 0).val p.val (dh_l0 _ _) ((dh_l1 _ _).trans hp), at2_of w _ p.val (i 1).val ((dh_r0 _ _).trans hp) (dh_r1 _ _)]

/-- `a · x` (2048 × 512 by 512 × 200) into a zero accumulator. -/
theorem mma_apply (a : FVec Ideal S2048x512 .bf16) (x : FVec Ideal S512x200 .bf16) (i : S2048x200.Idx) :
    matmul Da none a x (constant (F := Ideal) S2048x200 .f32 0x00000000#32) i
      = ∑ q ∈ Finset.range 512, at2 a (i 0).val q * at2 x q (i 1).val := by
  simp only [matmul]
  rw [Ideal.matmul_constant_zero_apply, ← Equiv.sum_comp (contrEquiv1 Da 512 rfl rfl).symm,
    ← Fin.sum_univ_eq_sum_range (fun q => at2 a (i 0).val q * at2 x q (i 1).val) 512]
  refine Finset.sum_congr rfl fun q _ => ?_
  have hq := contrEquiv1_symm_val Da 512 rfl rfl q
  rw [at2_of a _ (i 0).val q.val (da_l0 _ _) ((da_l1 _ _).trans hq), at2_of x _ q.val (i 1).val ((da_r0 _ _).trans hq) (da_r1 _ _)]

/-! ## One step's partial product, and the finishing step -/

/-- One reduction step's partial product `a · (h · w)`, as the body computes it. -/
def tilePart (h : FVec Ideal S512x200 .f32) (w : FVec Ideal S200x200 .f32) (a : FVec Ideal S2048x512 .f32) : FVec Ideal S2048x200 .f32 :=
  matmul Da none (truncf .bf16 a bitsLt_bf16_f32)
    (truncf .bf16 (matmul Dh none (truncf .bf16 h bitsLt_bf16_f32)
      (truncf .bf16 (shapeCast S200x200 w shapeCasts_S200x200_S200x200) bitsLt_bf16_f32) (constant (F := Ideal) S512x200 .f32 0x00000000#32)) bitsLt_bf16_f32)
    (constant (F := Ideal) S2048x200 .f32 0x00000000#32)

theorem tilePart_apply (h : FVec Ideal S512x200 .f32) (w : FVec Ideal S200x200 .f32) (a : FVec Ideal S2048x512 .f32) (i : S2048x200.Idx) :
    tilePart h w a i = ∑ q ∈ Finset.range 512, at2 a (i 0).val q * ∑ p ∈ Finset.range 200, at2 h q p * at2 w p (i 1).val := by
  unfold tilePart
  rw [mma_apply]
  refine Finset.sum_congr rfl fun q hq => ?_
  have hq' : q < 512 := Finset.mem_range.mp hq
  have hj : (i 1).val < 200 := idx2_lt1 i
  congr 1
  unfold at2
  rw [dif_pos ⟨hq', hj⟩]
  rw [truncf_apply, mmh_apply]
  simp only [shapeCast_self]
  rfl

/-- The output block from the accumulator and the bias row: `max (acc + bias) 0`. -/
def tileFinish (b : FVec Ideal S1x200 .f32) (acc : FVec Ideal S2048x200 .f32) : FVec Ideal S2048x200 .f32 :=
  maximumf (addf acc (broadcastTo S2048x200 b broadcasts_S1x200_S2048x200)) (broadcast S2048x200 (Scalar.ofBits (F := Ideal) .f32 0x00000000#32))

theorem tileFinish_apply (b : FVec Ideal S1x200 .f32) (acc : FVec Ideal S2048x200 .f32) (i : S2048x200.Idx) :
    tileFinish b acc i = max (acc i + at2 b 0 (i 1).val) 0 := by
  unfold tileFinish
  rw [maximumf_apply, addf_apply, broadcast_apply]
  have hb : broadcastTo S2048x200 b broadcasts_S1x200_S2048x200 i = at2 b 0 (i 1).val := by
    have hj : (i 1).val < 200 := idx2_lt1 i
    rw [broadcastTo_apply b broadcasts_S1x200_S2048x200 i (ix2 (0 : Fin 1) ⟨(i 1).val, hj⟩) (fun a => by
      match a with
      | ⟨0, _⟩ => rfl
      | ⟨1, _⟩ => rfl)]
    exact at2_of b _ 0 (i 1).val rfl rfl
  rw [hb]
  show max _ (Ideal.ofBits .f32 0x00000000#32) = _
  rw [Ideal.ofBits_zero_f32]

/-! ## The whole output array of one region -/

/-- Term `K` of the contraction for output entry `(R, j)`: `A (R, K) · ∑ p < 200, H (K, p) · W (p, j)`. -/
def tileTerm (A : FVec Ideal S8192x8192 .f32) (H : FVec Ideal S8192x200 .f32) (W : FVec Ideal S200x200 .f32) (R j K : ℕ) : EReal :=
  at2 A R K * ∑ p ∈ Finset.range 200, at2 H K p * at2 W p j

/-- What a region leaves in its output array: `max (∑ K < 8192, A (R, K) · (H · W) (K, j) + b (0, j)) 0` at `(R, j)`. -/
def tileOut (A : FVec Ideal S8192x8192 .f32) (H : FVec Ideal S8192x200 .f32) (W : FVec Ideal S200x200 .f32) (b : FVec Ideal S1x200 .f32) :
    FVec Ideal S8192x200 .f32 :=
  fun i => max ((∑ K ∈ Finset.range 8192, tileTerm A H W (i 0).val (i 1).val K) + at2 b 0 (i 1).val) 0

end Cert.KernelIdeal.Alg

end
-- ==== Proof.Ideal.Reg0.Array.lean ====
/-
  Region 0 at the ideal instance: its output array after the run, as one function of the four arrays it reads.

  A block of the window of `A` at the grid point `16 i + k` is rows `2048 i …`, columns `512 k …` of `A`; the other three
  input windows are whole arrays; the body reads rows `512 k …` of `H`.  So the point's partial product at `(r, j)` is the
  terms `512 k ≤ K < 512 (k + 1)` of the contraction for entry `(2048 i + r, j)`, the running sum after it is the terms
  `K < 512 (k + 1)` (induction on the point; consecutive ranges join), and the block written at `k = 15` is
  `max (all 8192 terms + bias) 0`.  The four written blocks cover the array.
-/
import proofs.«174668_j26645977104432_2_alg».proof.Proof.Ideal.Reg0.Values
import proofs.«174668_j26645977104432_2_alg».proof.Proof.Ideal.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.ValueIdx
open scoped BigOperators

section
variable (V : (c : Dev nD) → (b : Ref sig .tc) → Buf (Elt Ideal) ((c : Thread nD τ).loc b))

/-- The four arrays the region reads, as it finds them. -/
abbrev arrA0 (c : Dev nD) : FVec Ideal S8192x8192 .f32 := V c (Pipeline.arrRef spec0 0)
abbrev arrH0 (c : Dev nD) : FVec Ideal S8192x200 .f32 := V c (Pipeline.arrRef spec0 1)
abbrev arrW0 (c : Dev nD) : FVec Ideal S200x200 .f32 := V c (Pipeline.arrRef spec0 2)
abbrev arrB0 (c : Dev nD) : FVec Ideal S1x200 .f32 := V c (Pipeline.arrRef spec0 3)

theorem part0_tile (h : Vec Ideal S512x200 .f32) (w : Vec Ideal S200x200 .f32) (a : Vec Ideal S2048x512 .f32) :
    part0 (F := Ideal) h w a = tilePart h w a := rfl
theorem finish0_tile (b : Vec Ideal S1x200 .f32) (acc : Vec Ideal S2048x200 .f32) :
    finish0 (F := Ideal) b acc = tileFinish b acc := rfl

/-- The printed index maps and the body's row offset, decided over the grid. -/
theorem where0 : ∀ t : Fin cfg0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0
    ∧ k0_off1 (grid0.coords t) (0 : Fin 2) = 512 * (t.val % 16) ∧ k0_off1 (grid0.coords t) (1 : Fin 2) = 0 :=
  (by decide +kernel : ∀ t : Fin grid0.N, _)

/-! ## The windows' blocks at an index -/

theorem blockA0_at (c : Dev nD) (t : Fin cfg0.N) (r q : ℕ) (hr : r < 2048) (hq : q < 512) :
    at2 (block0 V c 0 t : FVec Ideal S2048x512 .f32) r q = at2 (arrA0 V c) (2048 * (t.val / 16) + r) (512 * (t.val % 16) + q) := by
  have hN : t.val < 64 := lt_of_lt_of_eq t.isLt (show cfg0.N = 64 from N_0)
  obtain ⟨e0, e1, -⟩ := where0 t
  unfold at2
  rw [dif_pos ⟨hr, hq⟩, dif_pos ⟨by omega, by omega⟩]
  unfold block0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 2048 + 1 * r = 2048 * (t.val / 16) + r; rw [e0]; omega
  | ⟨1, _⟩ => show win0_0.index t (1 : Fin 2) * 512 + 1 * q = 512 * (t.val % 16) + q; rw [e1]; omega

theorem blockH0_eq (c : Dev nD) (t : Fin cfg0.N) : (block0 V c 1 t : FVec Ideal S8192x200 .f32) = arrH0 V c := by
  obtain ⟨-, -, e0, e1, -⟩ := where0 t
  funext y
  unfold block0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 8192 + 1 * (y 0).val = (y 0).val; rw [e0]; omega
  | ⟨1, _⟩ => show win0_1.index t (1 : Fin 2) * 200 + 1 * (y 1).val = (y 1).val; rw [e1]; omega

theorem blockW0_eq (c : Dev nD) (t : Fin cfg0.N) : (block0 V c 2 t : FVec Ideal S200x200 .f32) = arrW0 V c := by
  obtain ⟨-, -, -, -, e0, e1, -⟩ := where0 t
  funext y
  unfold block0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 200 + 1 * (y 0).val = (y 0).val; rw [e0]; omega
  | ⟨1, _⟩ => show win0_2.index t (1 : Fin 2) * 200 + 1 * (y 1).val = (y 1).val; rw [e1]; omega

theorem blockB0_eq (c : Dev nD) (t : Fin cfg0.N) : (block0 V c 3 t : FVec Ideal S1x200 .f32) = arrB0 V c := by
  obtain ⟨-, -, -, -, -, -, e0, e1, -⟩ := where0 t
  funext y
  unfold block0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 200 + 1 * (y 1).val = (y 1).val; rw [e1]; omega

/-- The rows of `H` a point loads, at an index. -/
theorem rows0_at (X : FVec Ideal S8192x200 .f32) (t : Fin cfg0.N) (q p : ℕ) (hq : q < 512) (hp : p < 200) :
    at2 (n0 := 512) (n1 := 200) (View.ld (Val := Elt Ideal) (e' := EltTy.f32) X (rows0 (grid0.coords t))) q p = at2 X (512 * (t.val % 16) + q) p := by
  have hN : t.val < 64 := lt_of_lt_of_eq t.isLt (show cfg0.N = 64 from N_0)
  obtain ⟨-, -, -, -, -, -, -, -, -, -, e0, e1⟩ := where0 t
  unfold at2
  rw [dif_pos ⟨hq, hp⟩, dif_pos ⟨by omega, hp⟩]
  show X ((rows0 (grid0.coords t)).idx _) = X _
  refine congrArg _ (funext fun a => Fin.ext ?_)
  match a with
  | ⟨0, _⟩ => show k0_off1 (grid0.coords t) (0 : Fin 2) + 1 * q = 512 * (t.val % 16) + q; rw [e0]; omega
  | ⟨1, _⟩ => show k0_off1 (grid0.coords t) (1 : Fin 2) + 1 * p = p; rw [e1]; omega

/-! ## The partial product of a point, the running sum, the written block -/

theorem partAt0_sum (c : Dev nD) (t : Fin cfg0.N) (i : S2048x200.Idx) :
    partAt0 V c t i = ∑ q ∈ Finset.range 512,
      tileTerm (arrA0 V c) (arrH0 V c) (arrW0 V c) (2048 * (t.val / 16) + (i 0).val) (i 1).val (512 * (t.val % 16) + q) := by
  unfold partAt0
  rw [part0_tile, tilePart_apply, blockH0_eq, blockW0_eq]
  refine Finset.sum_congr rfl fun q hq => ?_
  have hq' : q < 512 := Finset.mem_range.mp hq
  unfold tileTerm
  rw [blockA0_at V c t (i 0).val q (idx2_lt0 i) hq']
  congr 1
  refine Finset.sum_congr rfl fun p hp => ?_
  exact congrArg (fun z => z * at2 (arrW0 V c) p (i 1).val) (rows0_at (arrH0 V c) t q p hq' (Finset.mem_range.mp hp))

theorem zero0_apply (i : S2048x200.Idx) : (zero0 (F := Ideal)) i = 0 := by
  show Ideal.ofBits .f32 0x00000000#32 = 0
  exact Ideal.ofBits_zero_f32

/-- After the point at position `n` the accumulator holds the terms `K < 512 (n % 16 + 1)` of the contraction. -/
theorem run0_sum (c : Dev nD) : ∀ (n : ℕ) (hn : n < cfg0.N) (i : S2048x200.Idx),
    run0 V c n hn i = ∑ K ∈ Finset.range (512 * (n % 16 + 1)),
      tileTerm (arrA0 V c) (arrH0 V c) (arrW0 V c) (2048 * (n / 16) + (i 0).val) (i 1).val K
  | 0, hn, i => by
    show addf zero0 (partAt0 V c ⟨0, hn⟩) i = _
    rw [addf_apply, zero0_apply, zero_add, partAt0_sum]
    refine Finset.sum_congr rfl fun q _ => ?_
    show tileTerm _ _ _ (2048 * (0 / 16) + (i 0).val) (i 1).val (512 * (0 % 16) + q) = _
    simp only [Nat.zero_div, Nat.zero_mod, Nat.mul_zero, Nat.zero_add]
  | n + 1, hn, i => by
    rw [run0_succ]
    by_cases h0 : (n + 1) % 16 = 0
    · rw [if_pos h0, addf_apply, zero0_apply, zero_add, partAt0_sum]
      show ∑ q ∈ Finset.range 512, tileTerm _ _ _ (2048 * ((n + 1) / 16) + (i 0).val) (i 1).val (512 * ((n + 1) % 16) + q) = _
      rw [h0]
      refine Finset.sum_congr rfl fun q _ => ?_
      simp only [Nat.mul_zero, Nat.zero_add]
    · rw [if_neg h0, addf_apply, run0_sum c n _ i, partAt0_sum]
      show (∑ K ∈ Finset.range (512 * (n % 16 + 1)), tileTerm _ _ _ (2048 * (n / 16) + (i 0).val) (i 1).val K)
          + ∑ q ∈ Finset.range 512, tileTerm _ _ _ (2048 * ((n + 1) / 16) + (i 0).val) (i 1).val (512 * ((n + 1) % 16) + q) = _
      have e1 : (n + 1) / 16 = n / 16 := by omega
      have e2 : (n + 1) % 16 = n % 16 + 1 := by omega
      rw [e1, e2, show 512 * (n % 16 + 1 + 1) = 512 * (n % 16 + 1) + 512 from by omega, Finset.sum_range_add]

/-- The block a point with reduction index 15 writes, at an index. -/
theorem out0_apply (c : Dev nD) (t : Fin cfg0.N) (h1 : t.val % 16 = 15) (i : S2048x200.Idx) :
    (stateAt0 V c t.val t.isLt).1 i
      = tileOut (arrA0 V c) (arrH0 V c) (arrW0 V c) (arrB0 V c) (ix2 ⟨2048 * (t.val / 16) + (i 0).val, by
          have hN : t.val < 64 := lt_of_lt_of_eq t.isLt (show cfg0.N = 64 from N_0); have := idx2_lt0 i; omega⟩ ⟨(i 1).val, idx2_lt1 i⟩) := by
  rw [out0_eq V c t h1, finish0_tile, tileFinish_apply, run0_sum, blockB0_eq, h1]
  rfl

/-! ## From the written blocks to the array -/

theorem mem_out0 (t : Fin cfg0.N) (i : S8192x200.Idx) :
    i ∈ ((cfg0.win 4).blk t).view.set ↔ ∀ a : Fin 2, win0_4.index t a * S2048x200.size a ≤ (i a).val ∧ (i a).val < win0_4.index t a * S2048x200.size a + S2048x200.size a := by
  show i ∈ ((View.whole (Pipeline.arrRef spec0 4)).slice (win0_4.rect t)).set ↔ _
  rw [View.set_slice_whole, Rect.mem_set_unit]
  exact Iff.rfl

/-- What a writing point writes back is its block of `tileOut` of the four arrays. -/
theorem flushed0_eq (c : Dev nD) (t : Fin cfg0.N) (hf : (cfg0.win 4).flush t = true) :
    (dat0 V c).flushed 4 t = ((cfg0.win 4).blk t).view.read (Elt Ideal) (tileOut (arrA0 V c) (arrH0 V c) (arrW0 V c) (arrB0 V c)) := by
  have h1 : t.val % 16 = 15 := (flush0_4 t).mp hf
  obtain ⟨-, -, -, -, -, -, -, -, e0, e1, -⟩ := where0 t
  show (cfg0.win 4).cut (grid0.coords t) ((dat0 V c).after 4 t) = _
  rw [after0_4]
  funext y
  show (stateAt0 V c t.val t.isLt).1 y = tileOut _ _ _ _ (((cfg0.win 4).blk t).view.emb y)
  rw [out0_apply V c t h1 y]
  refine congrArg _ (funext fun a => Fin.ext ?_)
  match a with
  | ⟨0, _⟩ => show 2048 * (t.val / 16) + (y 0).val = win0_4.index t (0 : Fin 2) * 2048 + 1 * (y 0).val; rw [e0]; omega
  | ⟨1, _⟩ => show (y 1).val = win0_4.index t (1 : Fin 2) * 200 + 1 * (y 1).val; rw [e1]; omega

/-- THE ARRAY after the region: `tileOut` of the four arrays it read. -/
theorem final0 (c : Dev nD) : (dat0 V c).arrAt 4 cfg0.N = tileOut (arrA0 V c) (arrH0 V c) (arrW0 V c) (arrB0 V c) :=
  (dat0 V c).arrAt_eq_of_cover 4 _ (flushed0_eq V c) fun i => by
    have hi0 : (i 0).val < 8192 := idx2_lt0 i
    have hi1 : (i 1).val < 200 := idx2_lt1 i
    have hN : cfg0.N = 64 := N_0
    let t : Fin cfg0.N := ⟨16 * ((i 0).val / 2048) + 15, by omega⟩
    obtain ⟨-, -, -, -, -, -, -, -, e0, e1, -⟩ := where0 t
    have ht : t.val = 16 * ((i 0).val / 2048) + 15 := rfl
    refine ⟨t, (flush0_4 t).mpr (by rw [ht]; omega), ?_⟩
    rw [mem_out0]
    intro a
    match a with
    | ⟨0, _⟩ => show win0_4.index t (0 : Fin 2) * 2048 ≤ (i 0).val ∧ (i 0).val < win0_4.index t (0 : Fin 2) * 2048 + 2048; rw [e0, ht]; omega
    | ⟨1, _⟩ => show win0_4.index t (1 : Fin 2) * 200 ≤ (i 1).val ∧ (i 1).val < win0_4.index t (1 : Fin 2) * 200 + 200; rw [e1]; omega

end

end Cert.KernelIdeal.Hand

end
-- ==== Proof.Ideal.Reg1.Values.lean ====
/-
  Region 1: the accumulator and the output block as values.

  One reduction step adds to the accumulator the product of the step's block of `A` (2048 × 512) with the
  product of 512 rows of `H` and the whole of `W` (`part1`).  Reading back the stores each case's run found:
  at reduction index 0 the accumulator becomes `zero + part`; at indices 1 … 15 it becomes `(what the point before
  left) + part`; at index 15 the output block is `max (accumulator + bias) 0`.  So after the point with
  reduction index `k` the accumulator is the ordered sum of the parts of steps 0 … k (`run1`, by induction on
  the grid point).
-/
import proofs.«174668_j26645977104432_2_alg».proof.Proof.Ideal.Reg1.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz1 : (![0, 0] : Fin 2 → Nat) = fun _ => 0 := funext fun a => by fin_cases a <;> rfl

/-- The 512 rows of `H` a point reads: those starting at 512 × (its reduction index). -/
abbrev rows1 (i : grid1.Coords) : Rect S8192x200 := Rect.unit (s := S8192x200) (k1_off1 i) S512x200.size (k1_off1_inb i)

/-- One reduction step's partial product `a · (h · w)`, as the body computes it. -/
def part1 (h : Vec F S512x200 .f32) (w : Vec F S200x200 .f32) (a : Vec F S2048x512 .f32) : FVec F S2048x200 .f32 :=
  matmul dot_S2048x512_S512x200_S2048x200_1_0_0_1_n_n none (truncf .bf16 a bitsLt_bf16_f32)
    (truncf .bf16 (matmul dot_S512x200_S200x200_S512x200_1_0_0_1_n_n none (truncf .bf16 h bitsLt_bf16_f32)
      (truncf .bf16 (shapeCast S200x200 w shapeCasts_S200x200_S200x200) bitsLt_bf16_f32) (constant S512x200 .f32 0x00000000#32)) bitsLt_bf16_f32)
    (constant S2048x200 .f32 0x00000000#32)

/-- The zero block the reset stores. -/
abbrev zero1 : FVec F S2048x200 .f32 := broadcast S2048x200 (Scalar.ofBits .f32 0x00000000#32)

theorem step1_eq (h : Vec F S512x200 .f32) (w : Vec F S200x200 .f32) (a : Vec F S2048x512 .f32) (acc : Vec F S2048x200 .f32) :
    k1_pay2 h w a acc = addf acc (part1 h w a) := by
  unfold k1_pay2 part1; simp only [shapeCast_self]
theorem reset1_eq : (k1_pay1 (F := F)) = zero1 := by
  unfold k1_pay1; simp only [shapeCast_self]
/-- The output block from the accumulator and the bias row. -/
def finish1 (b : Vec F S1x200 .f32) (acc : Vec F S2048x200 .f32) : FVec F S2048x200 .f32 :=
  maximumf (addf acc (broadcastTo S2048x200 b broadcasts_S1x200_S2048x200)) (broadcast S2048x200 (Scalar.ofBits .f32 0x00000000#32))
theorem finish1_eq (b : Vec F S1x200 .f32) (acc : Vec F S2048x200 .f32) : k1_pay3 b acc = finish1 b acc := by
  unfold k1_pay3 finish1; simp only [shapeCast_self]

/-! ## What each case leaves, as values -/

theorem accMid1_eq (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : ¬last1 i) (x0 : Vec F S2048x512 .f32) (x1 : Vec F S8192x200 .f32) (x2 : Vec F S200x200 .f32) (x3 : Vec F S1x200 .f32) (xs : Vec F S2048x200 .f32) :
    accMid1 c i a2 h2 a3 h3 a4 h4 a5 h5 a6 h6 a7 h7 hc0 hc1 x0 x1 x2 x3 xs = addf xs (part1 (View.ld x1 (rows1 i)) x2 x0) := by
  unfold accMid1
  rw [View.read_writes_eq_canon _ _ _ (accMid1_cover c i a2 h2 a3 h3 a4 h4 a5 h5 a6 h6 a7 h7 hc0 hc1 x0 x1 x2 x3 xs)]
  unfold runMid1
  dsimp only
  sl_unfold_words
  rw [View.canon_unit_zero zz1]
  simp only [View.readAt_eq_ld, h2.read_unread, h3.read_unread, h4.read_unread, h7.read_unread, View.ld_unit_zero (S := S2048x512) zz1, View.ld_unit_zero (S := S200x200) zz1, View.ld_unit_zero (S := S2048x200) zz1, step1_eq]
  rfl

theorem accFirst1_eq (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first1 i) (hc1 : ¬last1 i) (x0 : Vec F S2048x512 .f32) (x1 : Vec F S8192x200 .f32) (x2 : Vec F S200x200 .f32) (x3 : Vec F S1x200 .f32) :
    accFirst1 c i a2 h2 a3 h3 a4 h4 a5 h5 a6 h6 a7 h7 hc0 hc1 x0 x1 x2 x3 = addf zero1 (part1 (View.ld x1 (rows1 i)) x2 x0) := by
  unfold accFirst1
  rw [View.read_writes_eq_canon _ _ _ (accFirst1_cover c i a2 h2 a3 h3 a4 h4 a5 h5 a6 h6 a7 h7 hc0 hc1 x0 x1 x2 x3)]
  unfold runFirst1
  dsimp only
  sl_unfold_words
  rw [View.canon_cons_unit_zero (S := S2048x200) zz1, View.readCov_unit_zero (S := S2048x200) _ zz1]
  simp only [View.readAt_eq_ld, h2.read_unread, h3.read_unread, h4.read_unread, View.ld_unit_zero (S := S2048x512) zz1, View.ld_unit_zero (S := S200x200) zz1, step1_eq, reset1_eq]
  rfl

theorem accLast1_eq (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) :
    accLast1 c i a2 h2 a3 h3 a4 h4 a5 h5 a6 h6 a7 h7 hc0 hc1 x0 x1 x2 x3 xs = addf xs (part1 (View.ld x1 (rows1 i)) x2 x0) := by
  unfold accLast1
  rw [View.read_writes_eq_canon _ _ _ (accLast1_cover c i a2 h2 a3 h3 a4 h4 a5 h5 a6 h6 a7 h7 hc0 hc1 x0 x1 x2 x3 xs)]
  unfold runLast1
  dsimp only
  sl_unfold_words
  rw [View.canon_unit_zero zz1]
  simp only [View.readAt_eq_ld, h2.read_unread, h3.read_unread, h4.read_unread, h7.read_unread, View.ld_unit_zero (S := S2048x512) zz1, View.ld_unit_zero (S := S200x200) zz1, View.ld_unit_zero (S := S2048x200) zz1, step1_eq]
  rfl

theorem outLast1_eq (c : Dev nD) (i : grid1.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first1 i) (hc1 : last1 i) (x0 : Vec F S2048x512 .f32) (x1 : Vec F S8192x200 .f32) (x2 : Vec F S200x200 .f32) (x3 : Vec F S1x200 .f32) (xs : Vec F S2048x200 .f32) :
    outLast1 c i a2 h2 a3 h3 a4 h4 a5 h5 a6 h6 a7 h7 hc0 hc1 x0 x1 x2 x3 xs = finish1 x3 (addf xs (part1 (View.ld x1 (rows1 i)) x2 x0)) := by
  unfold outLast1
  rw [View.read_writes_eq_canon _ _ _ (outLast1_cover c i a2 h2 a3 h3 a4 h4 a5 h5 a6 h6 a7 h7 hc0 hc1 x0 x1 x2 x3 xs)]
  unfold runLast1
  dsimp only
  sl_unfold_words
  rw [View.canon_unit_zero zz1, View.readCov_unit_zero (S := S2048x200) _ zz1]
  simp only [View.readAt_eq_ld, h2.read_unread, h3.read_unread, h4.read_unread, h5.read_unread, h7.read_unread, View.ld_unit_zero (S := S2048x512) zz1, View.ld_unit_zero (S := S200x200) zz1, View.ld_unit_zero (S := S2048x200) zz1, View.ld_unit_zero (S := S1x200) zz1, step1_eq, finish1_eq]
  rfl

section
variable (V : (c : Dev nD) → (b : Ref sig .tc) → Buf (Elt F) ((c : Thread nD τ).loc b))

/-- The partial product of the point at grid position `n`. -/
def partAt1 (c : Dev nD) (t : Fin cfg1.N) : FVec F S2048x200 .f32 :=
  part1 (View.ld (block1 V c 1 t : Vec F S8192x200 .f32) (rows1 (grid1.coords t))) (block1 V c 2 t) (block1 V c 0 t)

/-- The ordered running sum: reset at reduction index 0, one more part at every point. -/
def run1 (c : Dev nD) : (n : ℕ) → n < cfg1.N → FVec F S2048x200 .f32
  | 0, hn => addf zero1 (partAt1 V c ⟨0, hn⟩)
  | n + 1, hn => if (n + 1) % 16 = 0 then addf zero1 (partAt1 V c ⟨n + 1, hn⟩)
      else addf (run1 c n (Nat.lt_of_succ_lt hn)) (partAt1 V c ⟨n + 1, hn⟩)

theorem run1_succ (c : Dev nD) (n : ℕ) (hn : n + 1 < cfg1.N) :
    run1 V c (n + 1) hn = if (n + 1) % 16 = 0 then addf zero1 (partAt1 V c ⟨n + 1, hn⟩)
      else addf (run1 V c n (Nat.lt_of_succ_lt hn)) (partAt1 V c ⟨n + 1, hn⟩) := rfl

/-- The accumulator after every point is the running sum. -/
theorem acc1_eq_run (c : Dev nD) : ∀ (n : ℕ) (hn : n < cfg1.N), (stateAt1 V c n hn).2 = run1 V c n hn
  | 0, hn => by
    have hl : ¬last1 (grid1.coords ⟨0, hn⟩) := fun h => by have h' := (last1_iff ⟨0, hn⟩).mp h; (try dsimp only at h'); omega
    rw [stateAt1_first V c ⟨0, hn⟩ (Nat.zero_mod _) hl]; dsimp only
    rw [accFirst1_eq]; rfl
  | n + 1, hn => by
    by_cases h0 : (n + 1) % 16 = 0
    · have hl : ¬last1 (grid1.coords ⟨n + 1, hn⟩) := fun h => by have h' := (last1_iff ⟨n + 1, hn⟩).mp h; (try dsimp only at h'); omega
      rw [stateAt1_first V c ⟨n + 1, hn⟩ h0 hl]; dsimp only
      rw [accFirst1_eq, run1_succ, if_pos h0]; rfl
    · by_cases h1 : (n + 1) % 16 = 15
      · rw [stateAt1_last V c ⟨n + 1, hn⟩ h0 h1]; dsimp only
        rw [accLast1_eq]
        show addf (stateAt1 V c n _).2 _ = _
        rw [acc1_eq_run c n, run1_succ, if_neg h0]; rfl
      · rw [stateAt1_mid V c ⟨n + 1, hn⟩ h0 h1]; dsimp only
        rw [accMid1_eq]
        show addf (stateAt1 V c n _).2 _ = _
        rw [acc1_eq_run c n, run1_succ, if_neg h0]; rfl

/-- The output block a point with reduction index 15 writes. -/
theorem out1_eq (c : Dev nD) (t : Fin cfg1.N) (h1 : t.val % 16 = 15) :
    (stateAt1 V c t.val t.isLt).1 = finish1 (block1 V c 3 t) (run1 V c t.val t.isLt) := by
  have h0 : ¬t.val % 16 = 0 := by omega
  have e := acc1_eq_run V c t.val t.isLt
  rw [stateAt1_last V c t h0 h1] at e ⊢; dsimp only at e ⊢
  rw [outLast1_eq]
  rw [accLast1_eq] at e
  rw [e]

end

end Cert.KernelIdeal.Hand

end
-- ==== Proof.Ideal.Reg1.Array.lean ====
/-
  Region 1 at the ideal instance: its output array after the run, as one function of the four arrays it reads.

  A block of the window of `A` at the grid point `16 i + k` is rows `2048 i …`, columns `512 k …` of `A`; the other three
  input windows are whole arrays; the body reads rows `512 k …` of `H`.  So the point's partial product at `(r, j)` is the
  terms `512 k ≤ K < 512 (k + 1)` of the contraction for entry `(2048 i + r, j)`, the running sum after it is the terms
  `K < 512 (k + 1)` (induction on the point; consecutive ranges join), and the block written at `k = 15` is
  `max (all 8192 terms + bias) 0`.  The four written blocks cover the array.
-/
import proofs.«174668_j26645977104432_2_alg».proof.Proof.Ideal.Reg1.Values
import proofs.«174668_j26645977104432_2_alg».proof.Proof.Ideal.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.ValueIdx
open scoped BigOperators

section
variable (V : (c : Dev nD) → (b : Ref sig .tc) → Buf (Elt Ideal) ((c : Thread nD τ).loc b))

/-- The four arrays the region reads, as it finds them. -/
abbrev arrA1 (c : Dev nD) : FVec Ideal S8192x8192 .f32 := V c (Pipeline.arrRef spec1 0)
abbrev arrH1 (c : Dev nD) : FVec Ideal S8192x200 .f32 := V c (Pipeline.arrRef spec1 1)
abbrev arrW1 (c : Dev nD) : FVec Ideal S200x200 .f32 := V c (Pipeline.arrRef spec1 2)
abbrev arrB1 (c : Dev nD) : FVec Ideal S1x200 .f32 := V c (Pipeline.arrRef spec1 3)

theorem part1_tile (h : Vec Ideal S512x200 .f32) (w : Vec Ideal S200x200 .f32) (a : Vec Ideal S2048x512 .f32) :
    part1 (F := Ideal) h w a = tilePart h w a := rfl
theorem finish1_tile (b : Vec Ideal S1x200 .f32) (acc : Vec Ideal S2048x200 .f32) :
    finish1 (F := Ideal) b acc = tileFinish b acc := rfl

/-- The printed index maps and the body's row offset, decided over the grid. -/
theorem where1 : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0
    ∧ k1_off1 (grid1.coords t) (0 : Fin 2) = 512 * (t.val % 16) ∧ k1_off1 (grid1.coords t) (1 : Fin 2) = 0 :=
  (by decide +kernel : ∀ t : Fin grid1.N, _)

/-! ## The windows' blocks at an index -/

theorem blockA1_at (c : Dev nD) (t : Fin cfg1.N) (r q : ℕ) (hr : r < 2048) (hq : q < 512) :
    at2 (block1 V c 0 t : FVec Ideal S2048x512 .f32) r q = at2 (arrA1 V c) (2048 * (t.val / 16) + r) (512 * (t.val % 16) + q) := by
  have hN : t.val < 64 := lt_of_lt_of_eq t.isLt (show cfg1.N = 64 from N_1)
  obtain ⟨e0, e1, -⟩ := where1 t
  unfold at2
  rw [dif_pos ⟨hr, hq⟩, dif_pos ⟨by omega, by omega⟩]
  unfold block1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 2048 + 1 * r = 2048 * (t.val / 16) + r; rw [e0]; omega
  | ⟨1, _⟩ => show win1_0.index t (1 : Fin 2) * 512 + 1 * q = 512 * (t.val % 16) + q; rw [e1]; omega

theorem blockH1_eq (c : Dev nD) (t : Fin cfg1.N) : (block1 V c 1 t : FVec Ideal S8192x200 .f32) = arrH1 V c := by
  obtain ⟨-, -, e0, e1, -⟩ := where1 t
  funext y
  unfold block1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 8192 + 1 * (y 0).val = (y 0).val; rw [e0]; omega
  | ⟨1, _⟩ => show win1_1.index t (1 : Fin 2) * 200 + 1 * (y 1).val = (y 1).val; rw [e1]; omega

theorem blockW1_eq (c : Dev nD) (t : Fin cfg1.N) : (block1 V c 2 t : FVec Ideal S200x200 .f32) = arrW1 V c := by
  obtain ⟨-, -, -, -, e0, e1, -⟩ := where1 t
  funext y
  unfold block1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 200 + 1 * (y 0).val = (y 0).val; rw [e0]; omega
  | ⟨1, _⟩ => show win1_2.index t (1 : Fin 2) * 200 + 1 * (y 1).val = (y 1).val; rw [e1]; omega

theorem blockB1_eq (c : Dev nD) (t : Fin cfg1.N) : (block1 V c 3 t : FVec Ideal S1x200 .f32) = arrB1 V c := by
  obtain ⟨-, -, -, -, -, -, e0, e1, -⟩ := where1 t
  funext y
  unfold block1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 200 + 1 * (y 1).val = (y 1).val; rw [e1]; omega

/-- The rows of `H` a point loads, at an index. -/
theorem rows1_at (X : FVec Ideal S8192x200 .f32) (t : Fin cfg1.N) (q p : ℕ) (hq : q < 512) (hp : p < 200) :
    at2 (n0 := 512) (n1 := 200) (View.ld (Val := Elt Ideal) (e' := EltTy.f32) X (rows1 (grid1.coords t))) q p = at2 X (512 * (t.val % 16) + q) p := by
  have hN : t.val < 64 := lt_of_lt_of_eq t.isLt (show cfg1.N = 64 from N_1)
  obtain ⟨-, -, -, -, -, -, -, -, -, -, e0, e1⟩ := where1 t
  unfold at2
  rw [dif_pos ⟨hq, hp⟩, dif_pos ⟨by omega, hp⟩]
  show X ((rows1 (grid1.coords t)).idx _) = X _
  refine congrArg _ (funext fun a => Fin.ext ?_)
  match a with
  | ⟨0, _⟩ => show k1_off1 (grid1.coords t) (0 : Fin 2) + 1 * q = 512 * (t.val % 16) + q; rw [e0]; omega
  | ⟨1, _⟩ => show k1_off1 (grid1.coords t) (1 : Fin 2) + 1 * p = p; rw [e1]; omega

/-! ## The partial product of a point, the running sum, the written block -/

theorem partAt1_sum (c : Dev nD) (t : Fin cfg1.N) (i : S2048x200.Idx) :
    partAt1 V c t i = ∑ q ∈ Finset.range 512,
      tileTerm (arrA1 V c) (arrH1 V c) (arrW1 V c) (2048 * (t.val / 16) + (i 0).val) (i 1).val (512 * (t.val % 16) + q) := by
  unfold partAt1
  rw [part1_tile, tilePart_apply, blockH1_eq, blockW1_eq]
  refine Finset.sum_congr rfl fun q hq => ?_
  have hq' : q < 512 := Finset.mem_range.mp hq
  unfold tileTerm
  rw [blockA1_at V c t (i 0).val q (idx2_lt0 i) hq']
  congr 1
  refine Finset.sum_congr rfl fun p hp => ?_
  exact congrArg (fun z => z * at2 (arrW1 V c) p (i 1).val) (rows1_at (arrH1 V c) t q p hq' (Finset.mem_range.mp hp))

theorem zero1_apply (i : S2048x200.Idx) : (zero1 (F := Ideal)) i = 0 := by
  show Ideal.ofBits .f32 0x00000000#32 = 0
  exact Ideal.ofBits_zero_f32

/-- After the point at position `n` the accumulator holds the terms `K < 512 (n % 16 + 1)` of the contraction. -/
theorem run1_sum (c : Dev nD) : ∀ (n : ℕ) (hn : n < cfg1.N) (i : S2048x200.Idx),
    run1 V c n hn i = ∑ K ∈ Finset.range (512 * (n % 16 + 1)),
      tileTerm (arrA1 V c) (arrH1 V c) (arrW1 V c) (2048 * (n / 16) + (i 0).val) (i 1).val K
  | 0, hn, i => by
    show addf zero1 (partAt1 V c ⟨0, hn⟩) i = _
    rw [addf_apply, zero1_apply, zero_add, partAt1_sum]
    refine Finset.sum_congr rfl fun q _ => ?_
    show tileTerm _ _ _ (2048 * (0 / 16) + (i 0).val) (i 1).val (512 * (0 % 16) + q) = _
    simp only [Nat.zero_div, Nat.zero_mod, Nat.mul_zero, Nat.zero_add]
  | n + 1, hn, i => by
    rw [run1_succ]
    by_cases h0 : (n + 1) % 16 = 0
    · rw [if_pos h0, addf_apply, zero1_apply, zero_add, partAt1_sum]
      show ∑ q ∈ Finset.range 512, tileTerm _ _ _ (2048 * ((n + 1) / 16) + (i 0).val) (i 1).val (512 * ((n + 1) % 16) + q) = _
      rw [h0]
      refine Finset.sum_congr rfl fun q _ => ?_
      simp only [Nat.mul_zero, Nat.zero_add]
    · rw [if_neg h0, addf_apply, run1_sum c n _ i, partAt1_sum]
      show (∑ K ∈ Finset.range (512 * (n % 16 + 1)), tileTerm _ _ _ (2048 * (n / 16) + (i 0).val) (i 1).val K)
          + ∑ q ∈ Finset.range 512, tileTerm _ _ _ (2048 * ((n + 1) / 16) + (i 0).val) (i 1).val (512 * ((n + 1) % 16) + q) = _
      have e1 : (n + 1) / 16 = n / 16 := by omega
      have e2 : (n + 1) % 16 = n % 16 + 1 := by omega
      rw [e1, e2, show 512 * (n % 16 + 1 + 1) = 512 * (n % 16 + 1) + 512 from by omega, Finset.sum_range_add]

/-- The block a point with reduction index 15 writes, at an index. -/
theorem out1_apply (c : Dev nD) (t : Fin cfg1.N) (h1 : t.val % 16 = 15) (i : S2048x200.Idx) :
    (stateAt1 V c t.val t.isLt).1 i
      = tileOut (arrA1 V c) (arrH1 V c) (arrW1 V c) (arrB1 V c) (ix2 ⟨2048 * (t.val / 16) + (i 0).val, by
          have hN : t.val < 64 := lt_of_lt_of_eq t.isLt (show cfg1.N = 64 from N_1); have := idx2_lt0 i; omega⟩ ⟨(i 1).val, idx2_lt1 i⟩) := by
  rw [out1_eq V c t h1, finish1_tile, tileFinish_apply, run1_sum, blockB1_eq, h1]
  rfl

/-! ## From the written blocks to the array -/

theorem mem_out1 (t : Fin cfg1.N) (i : S8192x200.Idx) :
    i ∈ ((cfg1.win 4).blk t).view.set ↔ ∀ a : Fin 2, win1_4.index t a * S2048x200.size a ≤ (i a).val ∧ (i a).val < win1_4.index t a * S2048x200.size a + S2048x200.size a := by
  show i ∈ ((View.whole (Pipeline.arrRef spec1 4)).slice (win1_4.rect t)).set ↔ _
  rw [View.set_slice_whole, Rect.mem_set_unit]
  exact Iff.rfl

/-- What a writing point writes back is its block of `tileOut` of the four arrays. -/
theorem flushed1_eq (c : Dev nD) (t : Fin cfg1.N) (hf : (cfg1.win 4).flush t = true) :
    (dat1 V c).flushed 4 t = ((cfg1.win 4).blk t).view.read (Elt Ideal) (tileOut (arrA1 V c) (arrH1 V c) (arrW1 V c) (arrB1 V c)) := by
  have h1 : t.val % 16 = 15 := (flush1_4 t).mp hf
  obtain ⟨-, -, -, -, -, -, -, -, e0, e1, -⟩ := where1 t
  show (cfg1.win 4).cut (grid1.coords t) ((dat1 V c).after 4 t) = _
  rw [after1_4]
  funext y
  show (stateAt1 V c t.val t.isLt).1 y = tileOut _ _ _ _ (((cfg1.win 4).blk t).view.emb y)
  rw [out1_apply V c t h1 y]
  refine congrArg _ (funext fun a => Fin.ext ?_)
  match a with
  | ⟨0, _⟩ => show 2048 * (t.val / 16) + (y 0).val = win1_4.index t (0 : Fin 2) * 2048 + 1 * (y 0).val; rw [e0]; omega
  | ⟨1, _⟩ => show (y 1).val = win1_4.index t (1 : Fin 2) * 200 + 1 * (y 1).val; rw [e1]; omega

/-- THE ARRAY after the region: `tileOut` of the four arrays it read. -/
theorem final1 (c : Dev nD) : (dat1 V c).arrAt 4 cfg1.N = tileOut (arrA1 V c) (arrH1 V c) (arrW1 V c) (arrB1 V c) :=
  (dat1 V c).arrAt_eq_of_cover 4 _ (flushed1_eq V c) fun i => by
    have hi0 : (i 0).val < 8192 := idx2_lt0 i
    have hi1 : (i 1).val < 200 := idx2_lt1 i
    have hN : cfg1.N = 64 := N_1
    let t : Fin cfg1.N := ⟨16 * ((i 0).val / 2048) + 15, by omega⟩
    obtain ⟨-, -, -, -, -, -, -, -, e0, e1, -⟩ := where1 t
    have ht : t.val = 16 * ((i 0).val / 2048) + 15 := rfl
    refine ⟨t, (flush1_4 t).mpr (by rw [ht]; omega), ?_⟩
    rw [mem_out1]
    intro a
    match a with
    | ⟨0, _⟩ => show win1_4.index t (0 : Fin 2) * 2048 ≤ (i 0).val ∧ (i 0).val < win1_4.index t (0 : Fin 2) * 2048 + 2048; rw [e0, ht]; omega
    | ⟨1, _⟩ => show win1_4.index t (1 : Fin 2) * 200 ≤ (i 1).val ∧ (i 1).val < win1_4.index t (1 : Fin 2) * 200 + 200; rw [e1]; omega

end

end Cert.KernelIdeal.Hand

end
-- ==== Proof.Ideal.Reg2.Values.lean ====
/-
  Region 2: the accumulator and the output block as values.

  One reduction step adds to the accumulator the product of the step's block of `A` (2048 × 512) with the
  product of 512 rows of `H` and the whole of `W` (`part2`).  Reading back the stores each case's run found:
  at reduction index 0 the accumulator becomes `zero + part`; at indices 1 … 15 it becomes `(what the point before
  left) + part`; at index 15 the output block is `max (accumulator + bias) 0`.  So after the point with
  reduction index `k` the accumulator is the ordered sum of the parts of steps 0 … k (`run2`, by induction on
  the grid point).
-/
import proofs.«174668_j26645977104432_2_alg».proof.Proof.Ideal.Reg2.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz2 : (![0, 0] : Fin 2 → Nat) = fun _ => 0 := funext fun a => by fin_cases a <;> rfl

/-- The 512 rows of `H` a point reads: those starting at 512 × (its reduction index). -/
abbrev rows2 (i : grid2.Coords) : Rect S8192x200 := Rect.unit (s := S8192x200) (k2_off1 i) S512x200.size (k2_off1_inb i)

/-- One reduction step's partial product `a · (h · w)`, as the body computes it. -/
def part2 (h : Vec F S512x200 .f32) (w : Vec F S200x200 .f32) (a : Vec F S2048x512 .f32) : FVec F S2048x200 .f32 :=
  matmul dot_S2048x512_S512x200_S2048x200_1_0_0_1_n_n none (truncf .bf16 a bitsLt_bf16_f32)
    (truncf .bf16 (matmul dot_S512x200_S200x200_S512x200_1_0_0_1_n_n none (truncf .bf16 h bitsLt_bf16_f32)
      (truncf .bf16 (shapeCast S200x200 w shapeCasts_S200x200_S200x200) bitsLt_bf16_f32) (constant S512x200 .f32 0x00000000#32)) bitsLt_bf16_f32)
    (constant S2048x200 .f32 0x00000000#32)

/-- The zero block the reset stores. -/
abbrev zero2 : FVec F S2048x200 .f32 := broadcast S2048x200 (Scalar.ofBits .f32 0x00000000#32)

theorem step2_eq (h : Vec F S512x200 .f32) (w : Vec F S200x200 .f32) (a : Vec F S2048x512 .f32) (acc : Vec F S2048x200 .f32) :
    k2_pay2 h w a acc = addf acc (part2 h w a) := by
  unfold k2_pay2 part2; simp only [shapeCast_self]
theorem reset2_eq : (k2_pay1 (F := F)) = zero2 := by
  unfold k2_pay1; simp only [shapeCast_self]
/-- The output block from the accumulator and the bias row. -/
def finish2 (b : Vec F S1x200 .f32) (acc : Vec F S2048x200 .f32) : FVec F S2048x200 .f32 :=
  maximumf (addf acc (broadcastTo S2048x200 b broadcasts_S1x200_S2048x200)) (broadcast S2048x200 (Scalar.ofBits .f32 0x00000000#32))
theorem finish2_eq (b : Vec F S1x200 .f32) (acc : Vec F S2048x200 .f32) : k2_pay3 b acc = finish2 b acc := by
  unfold k2_pay3 finish2; simp only [shapeCast_self]

/-! ## What each case leaves, as values -/

theorem accMid2_eq (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : ¬last2 i) (x0 : Vec F S2048x512 .f32) (x1 : Vec F S8192x200 .f32) (x2 : Vec F S200x200 .f32) (x3 : Vec F S1x200 .f32) (xs : Vec F S2048x200 .f32) :
    accMid2 c i a2 h2 a3 h3 a4 h4 a5 h5 a6 h6 a7 h7 hc0 hc1 x0 x1 x2 x3 xs = addf xs (part2 (View.ld x1 (rows2 i)) x2 x0) := by
  unfold accMid2
  rw [View.read_writes_eq_canon _ _ _ (accMid2_cover c i a2 h2 a3 h3 a4 h4 a5 h5 a6 h6 a7 h7 hc0 hc1 x0 x1 x2 x3 xs)]
  unfold runMid2
  dsimp only
  sl_unfold_words
  rw [View.canon_unit_zero zz2]
  simp only [View.readAt_eq_ld, h2.read_unread, h3.read_unread, h4.read_unread, h7.read_unread, View.ld_unit_zero (S := S2048x512) zz2, View.ld_unit_zero (S := S200x200) zz2, View.ld_unit_zero (S := S2048x200) zz2, step2_eq]
  rfl

theorem accFirst2_eq (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first2 i) (hc1 : ¬last2 i) (x0 : Vec F S2048x512 .f32) (x1 : Vec F S8192x200 .f32) (x2 : Vec F S200x200 .f32) (x3 : Vec F S1x200 .f32) :
    accFirst2 c i a2 h2 a3 h3 a4 h4 a5 h5 a6 h6 a7 h7 hc0 hc1 x0 x1 x2 x3 = addf zero2 (part2 (View.ld x1 (rows2 i)) x2 x0) := by
  unfold accFirst2
  rw [View.read_writes_eq_canon _ _ _ (accFirst2_cover c i a2 h2 a3 h3 a4 h4 a5 h5 a6 h6 a7 h7 hc0 hc1 x0 x1 x2 x3)]
  unfold runFirst2
  dsimp only
  sl_unfold_words
  rw [View.canon_cons_unit_zero (S := S2048x200) zz2, View.readCov_unit_zero (S := S2048x200) _ zz2]
  simp only [View.readAt_eq_ld, h2.read_unread, h3.read_unread, h4.read_unread, View.ld_unit_zero (S := S2048x512) zz2, View.ld_unit_zero (S := S200x200) zz2, step2_eq, reset2_eq]
  rfl

theorem accLast2_eq (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) :
    accLast2 c i a2 h2 a3 h3 a4 h4 a5 h5 a6 h6 a7 h7 hc0 hc1 x0 x1 x2 x3 xs = addf xs (part2 (View.ld x1 (rows2 i)) x2 x0) := by
  unfold accLast2
  rw [View.read_writes_eq_canon _ _ _ (accLast2_cover c i a2 h2 a3 h3 a4 h4 a5 h5 a6 h6 a7 h7 hc0 hc1 x0 x1 x2 x3 xs)]
  unfold runLast2
  dsimp only
  sl_unfold_words
  rw [View.canon_unit_zero zz2]
  simp only [View.readAt_eq_ld, h2.read_unread, h3.read_unread, h4.read_unread, h7.read_unread, View.ld_unit_zero (S := S2048x512) zz2, View.ld_unit_zero (S := S200x200) zz2, View.ld_unit_zero (S := S2048x200) zz2, step2_eq]
  rfl

theorem outLast2_eq (c : Dev nD) (i : grid2.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first2 i) (hc1 : last2 i) (x0 : Vec F S2048x512 .f32) (x1 : Vec F S8192x200 .f32) (x2 : Vec F S200x200 .f32) (x3 : Vec F S1x200 .f32) (xs : Vec F S2048x200 .f32) :
    outLast2 c i a2 h2 a3 h3 a4 h4 a5 h5 a6 h6 a7 h7 hc0 hc1 x0 x1 x2 x3 xs = finish2 x3 (addf xs (part2 (View.ld x1 (rows2 i)) x2 x0)) := by
  unfold outLast2
  rw [View.read_writes_eq_canon _ _ _ (outLast2_cover c i a2 h2 a3 h3 a4 h4 a5 h5 a6 h6 a7 h7 hc0 hc1 x0 x1 x2 x3 xs)]
  unfold runLast2
  dsimp only
  sl_unfold_words
  rw [View.canon_unit_zero zz2, View.readCov_unit_zero (S := S2048x200) _ zz2]
  simp only [View.readAt_eq_ld, h2.read_unread, h3.read_unread, h4.read_unread, h5.read_unread, h7.read_unread, View.ld_unit_zero (S := S2048x512) zz2, View.ld_unit_zero (S := S200x200) zz2, View.ld_unit_zero (S := S2048x200) zz2, View.ld_unit_zero (S := S1x200) zz2, step2_eq, finish2_eq]
  rfl

section
variable (V : (c : Dev nD) → (b : Ref sig .tc) → Buf (Elt F) ((c : Thread nD τ).loc b))

/-- The partial product of the point at grid position `n`. -/
def partAt2 (c : Dev nD) (t : Fin cfg2.N) : FVec F S2048x200 .f32 :=
  part2 (View.ld (block2 V c 1 t : Vec F S8192x200 .f32) (rows2 (grid2.coords t))) (block2 V c 2 t) (block2 V c 0 t)

/-- The ordered running sum: reset at reduction index 0, one more part at every point. -/
def run2 (c : Dev nD) : (n : ℕ) → n < cfg2.N → FVec F S2048x200 .f32
  | 0, hn => addf zero2 (partAt2 V c ⟨0, hn⟩)
  | n + 1, hn => if (n + 1) % 16 = 0 then addf zero2 (partAt2 V c ⟨n + 1, hn⟩)
      else addf (run2 c n (Nat.lt_of_succ_lt hn)) (partAt2 V c ⟨n + 1, hn⟩)

theorem run2_succ (c : Dev nD) (n : ℕ) (hn : n + 1 < cfg2.N) :
    run2 V c (n + 1) hn = if (n + 1) % 16 = 0 then addf zero2 (partAt2 V c ⟨n + 1, hn⟩)
      else addf (run2 V c n (Nat.lt_of_succ_lt hn)) (partAt2 V c ⟨n + 1, hn⟩) := rfl

/-- The accumulator after every point is the running sum. -/
theorem acc2_eq_run (c : Dev nD) : ∀ (n : ℕ) (hn : n < cfg2.N), (stateAt2 V c n hn).2 = run2 V c n hn
  | 0, hn => by
    have hl : ¬last2 (grid2.coords ⟨0, hn⟩) := fun h => by have h' := (last2_iff ⟨0, hn⟩).mp h; (try dsimp only at h'); omega
    rw [stateAt2_first V c ⟨0, hn⟩ (Nat.zero_mod _) hl]; dsimp only
    rw [accFirst2_eq]; rfl
  | n + 1, hn => by
    by_cases h0 : (n + 1) % 16 = 0
    · have hl : ¬last2 (grid2.coords ⟨n + 1, hn⟩) := fun h => by have h' := (last2_iff ⟨n + 1, hn⟩).mp h; (try dsimp only at h'); omega
      rw [stateAt2_first V c ⟨n + 1, hn⟩ h0 hl]; dsimp only
      rw [accFirst2_eq, run2_succ, if_pos h0]; rfl
    · by_cases h1 : (n + 1) % 16 = 15
      · rw [stateAt2_last V c ⟨n + 1, hn⟩ h0 h1]; dsimp only
        rw [accLast2_eq]
        show addf (stateAt2 V c n _).2 _ = _
        rw [acc2_eq_run c n, run2_succ, if_neg h0]; rfl
      · rw [stateAt2_mid V c ⟨n + 1, hn⟩ h0 h1]; dsimp only
        rw [accMid2_eq]
        show addf (stateAt2 V c n _).2 _ = _
        rw [acc2_eq_run c n, run2_succ, if_neg h0]; rfl

/-- The output block a point with reduction index 15 writes. -/
theorem out2_eq (c : Dev nD) (t : Fin cfg2.N) (h1 : t.val % 16 = 15) :
    (stateAt2 V c t.val t.isLt).1 = finish2 (block2 V c 3 t) (run2 V c t.val t.isLt) := by
  have h0 : ¬t.val % 16 = 0 := by omega
  have e := acc2_eq_run V c t.val t.isLt
  rw [stateAt2_last V c t h0 h1] at e ⊢; dsimp only at e ⊢
  rw [outLast2_eq]
  rw [accLast2_eq] at e
  rw [e]

end

end Cert.KernelIdeal.Hand

end
-- ==== Proof.Ideal.Reg2.Array.lean ====
/-
  Region 2 at the ideal instance: its output array after the run, as one function of the four arrays it reads.

  A block of the window of `A` at the grid point `16 i + k` is rows `2048 i …`, columns `512 k …` of `A`; the other three
  input windows are whole arrays; the body reads rows `512 k …` of `H`.  So the point's partial product at `(r, j)` is the
  terms `512 k ≤ K < 512 (k + 1)` of the contraction for entry `(2048 i + r, j)`, the running sum after it is the terms
  `K < 512 (k + 1)` (induction on the point; consecutive ranges join), and the block written at `k = 15` is
  `max (all 8192 terms + bias) 0`.  The four written blocks cover the array.
-/
import proofs.«174668_j26645977104432_2_alg».proof.Proof.Ideal.Reg2.Values
import proofs.«174668_j26645977104432_2_alg».proof.Proof.Ideal.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.ValueIdx
open scoped BigOperators

section
variable (V : (c : Dev nD) → (b : Ref sig .tc) → Buf (Elt Ideal) ((c : Thread nD τ).loc b))

/-- The four arrays the region reads, as it finds them. -/
abbrev arrA2 (c : Dev nD) : FVec Ideal S8192x8192 .f32 := V c (Pipeline.arrRef spec2 0)
abbrev arrH2 (c : Dev nD) : FVec Ideal S8192x200 .f32 := V c (Pipeline.arrRef spec2 1)
abbrev arrW2 (c : Dev nD) : FVec Ideal S200x200 .f32 := V c (Pipeline.arrRef spec2 2)
abbrev arrB2 (c : Dev nD) : FVec Ideal S1x200 .f32 := V c (Pipeline.arrRef spec2 3)

theorem part2_tile (h : Vec Ideal S512x200 .f32) (w : Vec Ideal S200x200 .f32) (a : Vec Ideal S2048x512 .f32) :
    part2 (F := Ideal) h w a = tilePart h w a := rfl
theorem finish2_tile (b : Vec Ideal S1x200 .f32) (acc : Vec Ideal S2048x200 .f32) :
    finish2 (F := Ideal) b acc = tileFinish b acc := rfl

/-- The printed index maps and the body's row offset, decided over the grid. -/
theorem where2 : ∀ t : Fin cfg2.N,
    win2_0.index t (0 : Fin 2) = t.val / 16 ∧ win2_0.index t (1 : Fin 2) = t.val % 16
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 16 ∧ win2_4.index t (1 : Fin 2) = 0
    ∧ k2_off1 (grid2.coords t) (0 : Fin 2) = 512 * (t.val % 16) ∧ k2_off1 (grid2.coords t) (1 : Fin 2) = 0 :=
  (by decide +kernel : ∀ t : Fin grid2.N, _)

/-! ## The windows' blocks at an index -/

theorem blockA2_at (c : Dev nD) (t : Fin cfg2.N) (r q : ℕ) (hr : r < 2048) (hq : q < 512) :
    at2 (block2 V c 0 t : FVec Ideal S2048x512 .f32) r q = at2 (arrA2 V c) (2048 * (t.val / 16) + r) (512 * (t.val % 16) + q) := by
  have hN : t.val < 64 := lt_of_lt_of_eq t.isLt (show cfg2.N = 64 from N_2)
  obtain ⟨e0, e1, -⟩ := where2 t
  unfold at2
  rw [dif_pos ⟨hr, hq⟩, dif_pos ⟨by omega, by omega⟩]
  unfold block2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2048 + 1 * r = 2048 * (t.val / 16) + r; rw [e0]; omega
  | ⟨1, _⟩ => show win2_0.index t (1 : Fin 2) * 512 + 1 * q = 512 * (t.val % 16) + q; rw [e1]; omega

theorem blockH2_eq (c : Dev nD) (t : Fin cfg2.N) : (block2 V c 1 t : FVec Ideal S8192x200 .f32) = arrH2 V c := by
  obtain ⟨-, -, e0, e1, -⟩ := where2 t
  funext y
  unfold block2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 8192 + 1 * (y 0).val = (y 0).val; rw [e0]; omega
  | ⟨1, _⟩ => show win2_1.index t (1 : Fin 2) * 200 + 1 * (y 1).val = (y 1).val; rw [e1]; omega

theorem blockW2_eq (c : Dev nD) (t : Fin cfg2.N) : (block2 V c 2 t : FVec Ideal S200x200 .f32) = arrW2 V c := by
  obtain ⟨-, -, -, -, e0, e1, -⟩ := where2 t
  funext y
  unfold block2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 200 + 1 * (y 0).val = (y 0).val; rw [e0]; omega
  | ⟨1, _⟩ => show win2_2.index t (1 : Fin 2) * 200 + 1 * (y 1).val = (y 1).val; rw [e1]; omega

theorem blockB2_eq (c : Dev nD) (t : Fin cfg2.N) : (block2 V c 3 t : FVec Ideal S1x200 .f32) = arrB2 V c := by
  obtain ⟨-, -, -, -, -, -, e0, e1, -⟩ := where2 t
  funext y
  unfold block2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 200 + 1 * (y 1).val = (y 1).val; rw [e1]; omega

/-- The rows of `H` a point loads, at an index. -/
theorem rows2_at (X : FVec Ideal S8192x200 .f32) (t : Fin cfg2.N) (q p : ℕ) (hq : q < 512) (hp : p < 200) :
    at2 (n0 := 512) (n1 := 200) (View.ld (Val := Elt Ideal) (e' := EltTy.f32) X (rows2 (grid2.coords t))) q p = at2 X (512 * (t.val % 16) + q) p := by
  have hN : t.val < 64 := lt_of_lt_of_eq t.isLt (show cfg2.N = 64 from N_2)
  obtain ⟨-, -, -, -, -, -, -, -, -, -, e0, e1⟩ := where2 t
  unfold at2
  rw [dif_pos ⟨hq, hp⟩, dif_pos ⟨by omega, hp⟩]
  show X ((rows2 (grid2.coords t)).idx _) = X _
  refine congrArg _ (funext fun a => Fin.ext ?_)
  match a with
  | ⟨0, _⟩ => show k2_off1 (grid2.coords t) (0 : Fin 2) + 1 * q = 512 * (t.val % 16) + q; rw [e0]; omega
  | ⟨1, _⟩ => show k2_off1 (grid2.coords t) (1 : Fin 2) + 1 * p = p; rw [e1]; omega

/-! ## The partial product of a point, the running sum, the written block -/

theorem partAt2_sum (c : Dev nD) (t : Fin cfg2.N) (i : S2048x200.Idx) :
    partAt2 V c t i = ∑ q ∈ Finset.range 512,
      tileTerm (arrA2 V c) (arrH2 V c) (arrW2 V c) (2048 * (t.val / 16) + (i 0).val) (i 1).val (512 * (t.val % 16) + q) := by
  unfold partAt2
  rw [part2_tile, tilePart_apply, blockH2_eq, blockW2_eq]
  refine Finset.sum_congr rfl fun q hq => ?_
  have hq' : q < 512 := Finset.mem_range.mp hq
  unfold tileTerm
  rw [blockA2_at V c t (i 0).val q (idx2_lt0 i) hq']
  congr 1
  refine Finset.sum_congr rfl fun p hp => ?_
  exact congrArg (fun z => z * at2 (arrW2 V c) p (i 1).val) (rows2_at (arrH2 V c) t q p hq' (Finset.mem_range.mp hp))

theorem zero2_apply (i : S2048x200.Idx) : (zero2 (F := Ideal)) i = 0 := by
  show Ideal.ofBits .f32 0x00000000#32 = 0
  exact Ideal.ofBits_zero_f32

/-- After the point at position `n` the accumulator holds the terms `K < 512 (n % 16 + 1)` of the contraction. -/
theorem run2_sum (c : Dev nD) : ∀ (n : ℕ) (hn : n < cfg2.N) (i : S2048x200.Idx),
    run2 V c n hn i = ∑ K ∈ Finset.range (512 * (n % 16 + 1)),
      tileTerm (arrA2 V c) (arrH2 V c) (arrW2 V c) (2048 * (n / 16) + (i 0).val) (i 1).val K
  | 0, hn, i => by
    show addf zero2 (partAt2 V c ⟨0, hn⟩) i = _
    rw [addf_apply, zero2_apply, zero_add, partAt2_sum]
    refine Finset.sum_congr rfl fun q _ => ?_
    show tileTerm _ _ _ (2048 * (0 / 16) + (i 0).val) (i 1).val (512 * (0 % 16) + q) = _
    simp only [Nat.zero_div, Nat.zero_mod, Nat.mul_zero, Nat.zero_add]
  | n + 1, hn, i => by
    rw [run2_succ]
    by_cases h0 : (n + 1) % 16 = 0
    · rw [if_pos h0, addf_apply, zero2_apply, zero_add, partAt2_sum]
      show ∑ q ∈ Finset.range 512, tileTerm _ _ _ (2048 * ((n + 1) / 16) + (i 0).val) (i 1).val (512 * ((n + 1) % 16) + q) = _
      rw [h0]
      refine Finset.sum_congr rfl fun q _ => ?_
      simp only [Nat.mul_zero, Nat.zero_add]
    · rw [if_neg h0, addf_apply, run2_sum c n _ i, partAt2_sum]
      show (∑ K ∈ Finset.range (512 * (n % 16 + 1)), tileTerm _ _ _ (2048 * (n / 16) + (i 0).val) (i 1).val K)
          + ∑ q ∈ Finset.range 512, tileTerm _ _ _ (2048 * ((n + 1) / 16) + (i 0).val) (i 1).val (512 * ((n + 1) % 16) + q) = _
      have e1 : (n + 1) / 16 = n / 16 := by omega
      have e2 : (n + 1) % 16 = n % 16 + 1 := by omega
      rw [e1, e2, show 512 * (n % 16 + 1 + 1) = 512 * (n % 16 + 1) + 512 from by omega, Finset.sum_range_add]

/-- The block a point with reduction index 15 writes, at an index. -/
theorem out2_apply (c : Dev nD) (t : Fin cfg2.N) (h1 : t.val % 16 = 15) (i : S2048x200.Idx) :
    (stateAt2 V c t.val t.isLt).1 i
      = tileOut (arrA2 V c) (arrH2 V c) (arrW2 V c) (arrB2 V c) (ix2 ⟨2048 * (t.val / 16) + (i 0).val, by
          have hN : t.val < 64 := lt_of_lt_of_eq t.isLt (show cfg2.N = 64 from N_2); have := idx2_lt0 i; omega⟩ ⟨(i 1).val, idx2_lt1 i⟩) := by
  rw [out2_eq V c t h1, finish2_tile, tileFinish_apply, run2_sum, blockB2_eq, h1]
  rfl

/-! ## From the written blocks to the array -/

theorem mem_out2 (t : Fin cfg2.N) (i : S8192x200.Idx) :
    i ∈ ((cfg2.win 4).blk t).view.set ↔ ∀ a : Fin 2, win2_4.index t a * S2048x200.size a ≤ (i a).val ∧ (i a).val < win2_4.index t a * S2048x200.size a + S2048x200.size a := by
  show i ∈ ((View.whole (Pipeline.arrRef spec2 4)).slice (win2_4.rect t)).set ↔ _
  rw [View.set_slice_whole, Rect.mem_set_unit]
  exact Iff.rfl

/-- What a writing point writes back is its block of `tileOut` of the four arrays. -/
theorem flushed2_eq (c : Dev nD) (t : Fin cfg2.N) (hf : (cfg2.win 4).flush t = true) :
    (dat2 V c).flushed 4 t = ((cfg2.win 4).blk t).view.read (Elt Ideal) (tileOut (arrA2 V c) (arrH2 V c) (arrW2 V c) (arrB2 V c)) := by
  have h1 : t.val % 16 = 15 := (flush2_4 t).mp hf
  obtain ⟨-, -, -, -, -, -, -, -, e0, e1, -⟩ := where2 t
  show (cfg2.win 4).cut (grid2.coords t) ((dat2 V c).after 4 t) = _
  rw [after2_4]
  funext y
  show (stateAt2 V c t.val t.isLt).1 y = tileOut _ _ _ _ (((cfg2.win 4).blk t).view.emb y)
  rw [out2_apply V c t h1 y]
  refine congrArg _ (funext fun a => Fin.ext ?_)
  match a with
  | ⟨0, _⟩ => show 2048 * (t.val / 16) + (y 0).val = win2_4.index t (0 : Fin 2) * 2048 + 1 * (y 0).val; rw [e0]; omega
  | ⟨1, _⟩ => show (y 1).val = win2_4.index t (1 : Fin 2) * 200 + 1 * (y 1).val; rw [e1]; omega

/-- THE ARRAY after the region: `tileOut` of the four arrays it read. -/
theorem final2 (c : Dev nD) : (dat2 V c).arrAt 4 cfg2.N = tileOut (arrA2 V c) (arrH2 V c) (arrW2 V c) (arrB2 V c) :=
  (dat2 V c).arrAt_eq_of_cover 4 _ (flushed2_eq V c) fun i => by
    have hi0 : (i 0).val < 8192 := idx2_lt0 i
    have hi1 : (i 1).val < 200 := idx2_lt1 i
    have hN : cfg2.N = 64 := N_2
    let t : Fin cfg2.N := ⟨16 * ((i 0).val / 2048) + 15, by omega⟩
    obtain ⟨-, -, -, -, -, -, -, -, e0, e1, -⟩ := where2 t
    have ht : t.val = 16 * ((i 0).val / 2048) + 15 := rfl
    refine ⟨t, (flush2_4 t).mpr (by rw [ht]; omega), ?_⟩
    rw [mem_out2]
    intro a
    match a with
    | ⟨0, _⟩ => show win2_4.index t (0 : Fin 2) * 2048 ≤ (i 0).val ∧ (i 0).val < win2_4.index t (0 : Fin 2) * 2048 + 2048; rw [e0, ht]; omega
    | ⟨1, _⟩ => show win2_4.index t (1 : Fin 2) * 200 ≤ (i 1).val ∧ (i 1).val < win2_4.index t (1 : Fin 2) * 200 + 200; rw [e1]; omega

end

end Cert.KernelIdeal.Hand

end
-- ==== Proof.Ideal.Reg3.Values.lean ====
/-
  Region 3: the accumulator and the output block as values.

  One reduction step adds to the accumulator the product of the step's block of `A` (2048 × 512) with the
  product of 512 rows of `H` and the whole of `W` (`part3`).  Reading back the stores each case's run found:
  at reduction index 0 the accumulator becomes `zero + part`; at indices 1 … 15 it becomes `(what the point before
  left) + part`; at index 15 the output block is `max (accumulator + bias) 0`.  So after the point with
  reduction index `k` the accumulator is the ordered sum of the parts of steps 0 … k (`run3`, by induction on
  the grid point).
-/
import proofs.«174668_j26645977104432_2_alg».proof.Proof.Ideal.Reg3.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz3 : (![0, 0] : Fin 2 → Nat) = fun _ => 0 := funext fun a => by fin_cases a <;> rfl

/-- The 512 rows of `H` a point reads: those starting at 512 × (its reduction index). -/
abbrev rows3 (i : grid3.Coords) : Rect S8192x200 := Rect.unit (s := S8192x200) (k3_off1 i) S512x200.size (k3_off1_inb i)

/-- One reduction step's partial product `a · (h · w)`, as the body computes it. -/
def part3 (h : Vec F S512x200 .f32) (w : Vec F S200x200 .f32) (a : Vec F S2048x512 .f32) : FVec F S2048x200 .f32 :=
  matmul dot_S2048x512_S512x200_S2048x200_1_0_0_1_n_n none (truncf .bf16 a bitsLt_bf16_f32)
    (truncf .bf16 (matmul dot_S512x200_S200x200_S512x200_1_0_0_1_n_n none (truncf .bf16 h bitsLt_bf16_f32)
      (truncf .bf16 (shapeCast S200x200 w shapeCasts_S200x200_S200x200) bitsLt_bf16_f32) (constant S512x200 .f32 0x00000000#32)) bitsLt_bf16_f32)
    (constant S2048x200 .f32 0x00000000#32)

/-- The zero block the reset stores. -/
abbrev zero3 : FVec F S2048x200 .f32 := broadcast S2048x200 (Scalar.ofBits .f32 0x00000000#32)

theorem step3_eq (h : Vec F S512x200 .f32) (w : Vec F S200x200 .f32) (a : Vec F S2048x512 .f32) (acc : Vec F S2048x200 .f32) :
    k3_pay2 h w a acc = addf acc (part3 h w a) := by
  unfold k3_pay2 part3; simp only [shapeCast_self]
theorem reset3_eq : (k3_pay1 (F := F)) = zero3 := by
  unfold k3_pay1; simp only [shapeCast_self]
/-- The output block from the accumulator and the bias row. -/
def finish3 (b : Vec F S1x200 .f32) (acc : Vec F S2048x200 .f32) : FVec F S2048x200 .f32 :=
  maximumf (addf acc (broadcastTo S2048x200 b broadcasts_S1x200_S2048x200)) (broadcast S2048x200 (Scalar.ofBits .f32 0x00000000#32))
theorem finish3_eq (b : Vec F S1x200 .f32) (acc : Vec F S2048x200 .f32) : k3_pay3 b acc = finish3 b acc := by
  unfold k3_pay3 finish3; simp only [shapeCast_self]

/-! ## What each case leaves, as values -/

theorem accMid3_eq (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : ¬last3 i) (x0 : Vec F S2048x512 .f32) (x1 : Vec F S8192x200 .f32) (x2 : Vec F S200x200 .f32) (x3 : Vec F S1x200 .f32) (xs : Vec F S2048x200 .f32) :
    accMid3 c i a2 h2 a3 h3 a4 h4 a5 h5 a6 h6 a7 h7 hc0 hc1 x0 x1 x2 x3 xs = addf xs (part3 (View.ld x1 (rows3 i)) x2 x0) := by
  unfold accMid3
  rw [View.read_writes_eq_canon _ _ _ (accMid3_cover c i a2 h2 a3 h3 a4 h4 a5 h5 a6 h6 a7 h7 hc0 hc1 x0 x1 x2 x3 xs)]
  unfold runMid3
  dsimp only
  sl_unfold_words
  rw [View.canon_unit_zero zz3]
  simp only [View.readAt_eq_ld, h2.read_unread, h3.read_unread, h4.read_unread, h7.read_unread, View.ld_unit_zero (S := S2048x512) zz3, View.ld_unit_zero (S := S200x200) zz3, View.ld_unit_zero (S := S2048x200) zz3, step3_eq]
  rfl

theorem accFirst3_eq (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : first3 i) (hc1 : ¬last3 i) (x0 : Vec F S2048x512 .f32) (x1 : Vec F S8192x200 .f32) (x2 : Vec F S200x200 .f32) (x3 : Vec F S1x200 .f32) :
    accFirst3 c i a2 h2 a3 h3 a4 h4 a5 h5 a6 h6 a7 h7 hc0 hc1 x0 x1 x2 x3 = addf zero3 (part3 (View.ld x1 (rows3 i)) x2 x0) := by
  unfold accFirst3
  rw [View.read_writes_eq_canon _ _ _ (accFirst3_cover c i a2 h2 a3 h3 a4 h4 a5 h5 a6 h6 a7 h7 hc0 hc1 x0 x1 x2 x3)]
  unfold runFirst3
  dsimp only
  sl_unfold_words
  rw [View.canon_cons_unit_zero (S := S2048x200) zz3, View.readCov_unit_zero (S := S2048x200) _ zz3]
  simp only [View.readAt_eq_ld, h2.read_unread, h3.read_unread, h4.read_unread, View.ld_unit_zero (S := S2048x512) zz3, View.ld_unit_zero (S := S200x200) zz3, step3_eq, reset3_eq]
  rfl

theorem accLast3_eq (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) :
    accLast3 c i a2 h2 a3 h3 a4 h4 a5 h5 a6 h6 a7 h7 hc0 hc1 x0 x1 x2 x3 xs = addf xs (part3 (View.ld x1 (rows3 i)) x2 x0) := by
  unfold accLast3
  rw [View.read_writes_eq_canon _ _ _ (accLast3_cover c i a2 h2 a3 h3 a4 h4 a5 h5 a6 h6 a7 h7 hc0 hc1 x0 x1 x2 x3 xs)]
  unfold runLast3
  dsimp only
  sl_unfold_words
  rw [View.canon_unit_zero zz3]
  simp only [View.readAt_eq_ld, h2.read_unread, h3.read_unread, h4.read_unread, h7.read_unread, View.ld_unit_zero (S := S2048x512) zz3, View.ld_unit_zero (S := S200x200) zz3, View.ld_unit_zero (S := S2048x200) zz3, step3_eq]
  rfl

theorem outLast3_eq (c : Dev nD) (i : grid3.Coords) (a2 : Memref sig .tc .vmem S2048x512 .f32) (h2 : a2.IsWhole) (a3 : Memref sig .tc .vmem S8192x200 .f32) (h3 : a3.IsWhole) (a4 : Memref sig .tc .vmem S200x200 .f32) (h4 : a4.IsWhole) (a5 : Memref sig .tc .vmem S1x200 .f32) (h5 : a5.IsWhole) (a6 : Memref sig .tc .vmem S2048x200 .f32) (h6 : a6.IsWhole) (a7 : Memref sig .tc .vmem S2048x200 .f32) (h7 : a7.IsWhole) (hc0 : ¬first3 i) (hc1 : last3 i) (x0 : Vec F S2048x512 .f32) (x1 : Vec F S8192x200 .f32) (x2 : Vec F S200x200 .f32) (x3 : Vec F S1x200 .f32) (xs : Vec F S2048x200 .f32) :
    outLast3 c i a2 h2 a3 h3 a4 h4 a5 h5 a6 h6 a7 h7 hc0 hc1 x0 x1 x2 x3 xs = finish3 x3 (addf xs (part3 (View.ld x1 (rows3 i)) x2 x0)) := by
  unfold outLast3
  rw [View.read_writes_eq_canon _ _ _ (outLast3_cover c i a2 h2 a3 h3 a4 h4 a5 h5 a6 h6 a7 h7 hc0 hc1 x0 x1 x2 x3 xs)]
  unfold runLast3
  dsimp only
  sl_unfold_words
  rw [View.canon_unit_zero zz3, View.readCov_unit_zero (S := S2048x200) _ zz3]
  simp only [View.readAt_eq_ld, h2.read_unread, h3.read_unread, h4.read_unread, h5.read_unread, h7.read_unread, View.ld_unit_zero (S := S2048x512) zz3, View.ld_unit_zero (S := S200x200) zz3, View.ld_unit_zero (S := S2048x200) zz3, View.ld_unit_zero (S := S1x200) zz3, step3_eq, finish3_eq]
  rfl

section
variable (V : (c : Dev nD) → (b : Ref sig .tc) → Buf (Elt F) ((c : Thread nD τ).loc b))

/-- The partial product of the point at grid position `n`. -/
def partAt3 (c : Dev nD) (t : Fin cfg3.N) : FVec F S2048x200 .f32 :=
  part3 (View.ld (block3 V c 1 t : Vec F S8192x200 .f32) (rows3 (grid3.coords t))) (block3 V c 2 t) (block3 V c 0 t)

/-- The ordered running sum: reset at reduction index 0, one more part at every point. -/
def run3 (c : Dev nD) : (n : ℕ) → n < cfg3.N → FVec F S2048x200 .f32
  | 0, hn => addf zero3 (partAt3 V c ⟨0, hn⟩)
  | n + 1, hn => if (n + 1) % 16 = 0 then addf zero3 (partAt3 V c ⟨n + 1, hn⟩)
      else addf (run3 c n (Nat.lt_of_succ_lt hn)) (partAt3 V c ⟨n + 1, hn⟩)

theorem run3_succ (c : Dev nD) (n : ℕ) (hn : n + 1 < cfg3.N) :
    run3 V c (n + 1) hn = if (n + 1) % 16 = 0 then addf zero3 (partAt3 V c ⟨n + 1, hn⟩)
      else addf (run3 V c n (Nat.lt_of_succ_lt hn)) (partAt3 V c ⟨n + 1, hn⟩) := rfl

/-- The accumulator after every point is the running sum. -/
theorem acc3_eq_run (c : Dev nD) : ∀ (n : ℕ) (hn : n < cfg3.N), (stateAt3 V c n hn).2 = run3 V c n hn
  | 0, hn => by
    have hl : ¬last3 (grid3.coords ⟨0, hn⟩) := fun h => by have h' := (last3_iff ⟨0, hn⟩).mp h; (try dsimp only at h'); omega
    rw [stateAt3_first V c ⟨0, hn⟩ (Nat.zero_mod _) hl]; dsimp only
    rw [accFirst3_eq]; rfl
  | n + 1, hn => by
    by_cases h0 : (n + 1) % 16 = 0
    · have hl : ¬last3 (grid3.coords ⟨n + 1, hn⟩) := fun h => by have h' := (last3_iff ⟨n + 1, hn⟩).mp h; (try dsimp only at h'); omega
      rw [stateAt3_first V c ⟨n + 1, hn⟩ h0 hl]; dsimp only
      rw [accFirst3_eq, run3_succ, if_pos h0]; rfl
    · by_cases h1 : (n + 1) % 16 = 15
      · rw [stateAt3_last V c ⟨n + 1, hn⟩ h0 h1]; dsimp only
        rw [accLast3_eq]
        show addf (stateAt3 V c n _).2 _ = _
        rw [acc3_eq_run c n, run3_succ, if_neg h0]; rfl
      · rw [stateAt3_mid V c ⟨n + 1, hn⟩ h0 h1]; dsimp only
        rw [accMid3_eq]
        show addf (stateAt3 V c n _).2 _ = _
        rw [acc3_eq_run c n, run3_succ, if_neg h0]; rfl

/-- The output block a point with reduction index 15 writes. -/
theorem out3_eq (c : Dev nD) (t : Fin cfg3.N) (h1 : t.val % 16 = 15) :
    (stateAt3 V c t.val t.isLt).1 = finish3 (block3 V c 3 t) (run3 V c t.val t.isLt) := by
  have h0 : ¬t.val % 16 = 0 := by omega
  have e := acc3_eq_run V c t.val t.isLt
  rw [stateAt3_last V c t h0 h1] at e ⊢; dsimp only at e ⊢
  rw [outLast3_eq]
  rw [accLast3_eq] at e
  rw [e]

end

end Cert.KernelIdeal.Hand

end
-- ==== Proof.Ideal.Reg3.Array.lean ====
/-
  Region 3 at the ideal instance: its output array after the run, as one function of the four arrays it reads.

  A block of the window of `A` at the grid point `16 i + k` is rows `2048 i …`, columns `512 k …` of `A`; the other three
  input windows are whole arrays; the body reads rows `512 k …` of `H`.  So the point's partial product at `(r, j)` is the
  terms `512 k ≤ K < 512 (k + 1)` of the contraction for entry `(2048 i + r, j)`, the running sum after it is the terms
  `K < 512 (k + 1)` (induction on the point; consecutive ranges join), and the block written at `k = 15` is
  `max (all 8192 terms + bias) 0`.  The four written blocks cover the array.
-/
import proofs.«174668_j26645977104432_2_alg».proof.Proof.Ideal.Reg3.Values
import proofs.«174668_j26645977104432_2_alg».proof.Proof.Ideal.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.ValueIdx
open scoped BigOperators

section
variable (V : (c : Dev nD) → (b : Ref sig .tc) → Buf (Elt Ideal) ((c : Thread nD τ).loc b))

/-- The four arrays the region reads, as it finds them. -/
abbrev arrA3 (c : Dev nD) : FVec Ideal S8192x8192 .f32 := V c (Pipeline.arrRef spec3 0)
abbrev arrH3 (c : Dev nD) : FVec Ideal S8192x200 .f32 := V c (Pipeline.arrRef spec3 1)
abbrev arrW3 (c : Dev nD) : FVec Ideal S200x200 .f32 := V c (Pipeline.arrRef spec3 2)
abbrev arrB3 (c : Dev nD) : FVec Ideal S1x200 .f32 := V c (Pipeline.arrRef spec3 3)

theorem part3_tile (h : Vec Ideal S512x200 .f32) (w : Vec Ideal S200x200 .f32) (a : Vec Ideal S2048x512 .f32) :
    part3 (F := Ideal) h w a = tilePart h w a := rfl
theorem finish3_tile (b : Vec Ideal S1x200 .f32) (acc : Vec Ideal S2048x200 .f32) :
    finish3 (F := Ideal) b acc = tileFinish b acc := rfl

/-- The printed index maps and the body's row offset, decided over the grid. -/
theorem where3 : ∀ t : Fin cfg3.N,
    win3_0.index t (0 : Fin 2) = t.val / 16 ∧ win3_0.index t (1 : Fin 2) = t.val % 16
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 16 ∧ win3_4.index t (1 : Fin 2) = 0
    ∧ k3_off1 (grid3.coords t) (0 : Fin 2) = 512 * (t.val % 16) ∧ k3_off1 (grid3.coords t) (1 : Fin 2) = 0 :=
  (by decide +kernel : ∀ t : Fin grid3.N, _)

/-! ## The windows' blocks at an index -/

theorem blockA3_at (c : Dev nD) (t : Fin cfg3.N) (r q : ℕ) (hr : r < 2048) (hq : q < 512) :
    at2 (block3 V c 0 t : FVec Ideal S2048x512 .f32) r q = at2 (arrA3 V c) (2048 * (t.val / 16) + r) (512 * (t.val % 16) + q) := by
  have hN : t.val < 64 := lt_of_lt_of_eq t.isLt (show cfg3.N = 64 from N_3)
  obtain ⟨e0, e1, -⟩ := where3 t
  unfold at2
  rw [dif_pos ⟨hr, hq⟩, dif_pos ⟨by omega, by omega⟩]
  unfold block3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 2048 + 1 * r = 2048 * (t.val / 16) + r; rw [e0]; omega
  | ⟨1, _⟩ => show win3_0.index t (1 : Fin 2) * 512 + 1 * q = 512 * (t.val % 16) + q; rw [e1]; omega

theorem blockH3_eq (c : Dev nD) (t : Fin cfg3.N) : (block3 V c 1 t : FVec Ideal S8192x200 .f32) = arrH3 V c := by
  obtain ⟨-, -, e0, e1, -⟩ := where3 t
  funext y
  unfold block3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 8192 + 1 * (y 0).val = (y 0).val; rw [e0]; omega
  | ⟨1, _⟩ => show win3_1.index t (1 : Fin 2) * 200 + 1 * (y 1).val = (y 1).val; rw [e1]; omega

theorem blockW3_eq (c : Dev nD) (t : Fin cfg3.N) : (block3 V c 2 t : FVec Ideal S200x200 .f32) = arrW3 V c := by
  obtain ⟨-, -, -, -, e0, e1, -⟩ := where3 t
  funext y
  unfold block3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 200 + 1 * (y 0).val = (y 0).val; rw [e0]; omega
  | ⟨1, _⟩ => show win3_2.index t (1 : Fin 2) * 200 + 1 * (y 1).val = (y 1).val; rw [e1]; omega

theorem blockB3_eq (c : Dev nD) (t : Fin cfg3.N) : (block3 V c 3 t : FVec Ideal S1x200 .f32) = arrB3 V c := by
  obtain ⟨-, -, -, -, -, -, e0, e1, -⟩ := where3 t
  funext y
  unfold block3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 200 + 1 * (y 1).val = (y 1).val; rw [e1]; omega

/-- The rows of `H` a point loads, at an index. -/
theorem rows3_at (X : FVec Ideal S8192x200 .f32) (t : Fin cfg3.N) (q p : ℕ) (hq : q < 512) (hp : p < 200) :
    at2 (n0 := 512) (n1 := 200) (View.ld (Val := Elt Ideal) (e' := EltTy.f32) X (rows3 (grid3.coords t))) q p = at2 X (512 * (t.val % 16) + q) p := by
  have hN : t.val < 64 := lt_of_lt_of_eq t.isLt (show cfg3.N = 64 from N_3)
  obtain ⟨-, -, -, -, -, -, -, -, -, -, e0, e1⟩ := where3 t
  unfold at2
  rw [dif_pos ⟨hq, hp⟩, dif_pos ⟨by omega, hp⟩]
  show X ((rows3 (grid3.coords t)).idx _) = X _
  refine congrArg _ (funext fun a => Fin.ext ?_)
  match a with
  | ⟨0, _⟩ => show k3_off1 (grid3.coords t) (0 : Fin 2) + 1 * q = 512 * (t.val % 16) + q; rw [e0]; omega
  | ⟨1, _⟩ => show k3_off1 (grid3.coords t) (1 : Fin 2) + 1 * p = p; rw [e1]; omega

/-! ## The partial product of a point, the running sum, the written block -/

theorem partAt3_sum (c : Dev nD) (t : Fin cfg3.N) (i : S2048x200.Idx) :
    partAt3 V c t i = ∑ q ∈ Finset.range 512,
      tileTerm (arrA3 V c) (arrH3 V c) (arrW3 V c) (2048 * (t.val / 16) + (i 0).val) (i 1).val (512 * (t.val % 16) + q) := by
  unfold partAt3
  rw [part3_tile, tilePart_apply, blockH3_eq, blockW3_eq]
  refine Finset.sum_congr rfl fun q hq => ?_
  have hq' : q < 512 := Finset.mem_range.mp hq
  unfold tileTerm
  rw [blockA3_at V c t (i 0).val q (idx2_lt0 i) hq']
  congr 1
  refine Finset.sum_congr rfl fun p hp => ?_
  exact congrArg (fun z => z * at2 (arrW3 V c) p (i 1).val) (rows3_at (arrH3 V c) t q p hq' (Finset.mem_range.mp hp))

theorem zero3_apply (i : S2048x200.Idx) : (zero3 (F := Ideal)) i = 0 := by
  show Ideal.ofBits .f32 0x00000000#32 = 0
  exact Ideal.ofBits_zero_f32

/-- After the point at position `n` the accumulator holds the terms `K < 512 (n % 16 + 1)` of the contraction. -/
theorem run3_sum (c : Dev nD) : ∀ (n : ℕ) (hn : n < cfg3.N) (i : S2048x200.Idx),
    run3 V c n hn i = ∑ K ∈ Finset.range (512 * (n % 16 + 1)),
      tileTerm (arrA3 V c) (arrH3 V c) (arrW3 V c) (2048 * (n / 16) + (i 0).val) (i 1).val K
  | 0, hn, i => by
    show addf zero3 (partAt3 V c ⟨0, hn⟩) i = _
    rw [addf_apply, zero3_apply, zero_add, partAt3_sum]
    refine Finset.sum_congr rfl fun q _ => ?_
    show tileTerm _ _ _ (2048 * (0 / 16) + (i 0).val) (i 1).val (512 * (0 % 16) + q) = _
    simp only [Nat.zero_div, Nat.zero_mod, Nat.mul_zero, Nat.zero_add]
  | n + 1, hn, i => by
    rw [run3_succ]
    by_cases h0 : (n + 1) % 16 = 0
    · rw [if_pos h0, addf_apply, zero3_apply, zero_add, partAt3_sum]
      show ∑ q ∈ Finset.range 512, tileTerm _ _ _ (2048 * ((n + 1) / 16) + (i 0).val) (i 1).val (512 * ((n + 1) % 16) + q) = _
      rw [h0]
      refine Finset.sum_congr rfl fun q _ => ?_
      simp only [Nat.mul_zero, Nat.zero_add]
    · rw [if_neg h0, addf_apply, run3_sum c n _ i, partAt3_sum]
      show (∑ K ∈ Finset.range (512 * (n % 16 + 1)), tileTerm _ _ _ (2048 * (n / 16) + (i 0).val) (i 1).val K)
          + ∑ q ∈ Finset.range 512, tileTerm _ _ _ (2048 * ((n + 1) / 16) + (i 0).val) (i 1).val (512 * ((n + 1) % 16) + q) = _
      have e1 : (n + 1) / 16 = n / 16 := by omega
      have e2 : (n + 1) % 16 = n % 16 + 1 := by omega
      rw [e1, e2, show 512 * (n % 16 + 1 + 1) = 512 * (n % 16 + 1) + 512 from by omega, Finset.sum_range_add]

/-- The block a point with reduction index 15 writes, at an index. -/
theorem out3_apply (c : Dev nD) (t : Fin cfg3.N) (h1 : t.val % 16 = 15) (i : S2048x200.Idx) :
    (stateAt3 V c t.val t.isLt).1 i
      = tileOut (arrA3 V c) (arrH3 V c) (arrW3 V c) (arrB3 V c) (ix2 ⟨2048 * (t.val / 16) + (i 0).val, by
          have hN : t.val < 64 := lt_of_lt_of_eq t.isLt (show cfg3.N = 64 from N_3); have := idx2_lt0 i; omega⟩ ⟨(i 1).val, idx2_lt1 i⟩) := by
  rw [out3_eq V c t h1, finish3_tile, tileFinish_apply, run3_sum, blockB3_eq, h1]
  rfl

/-! ## From the written blocks to the array -/

theorem mem_out3 (t : Fin cfg3.N) (i : S8192x200.Idx) :
    i ∈ ((cfg3.win 4).blk t).view.set ↔ ∀ a : Fin 2, win3_4.index t a * S2048x200.size a ≤ (i a).val ∧ (i a).val < win3_4.index t a * S2048x200.size a + S2048x200.size a := by
  show i ∈ ((View.whole (Pipeline.arrRef spec3 4)).slice (win3_4.rect t)).set ↔ _
  rw [View.set_slice_whole, Rect.mem_set_unit]
  exact Iff.rfl

/-- What a writing point writes back is its block of `tileOut` of the four arrays. -/
theorem flushed3_eq (c : Dev nD) (t : Fin cfg3.N) (hf : (cfg3.win 4).flush t = true) :
    (dat3 V c).flushed 4 t = ((cfg3.win 4).blk t).view.read (Elt Ideal) (tileOut (arrA3 V c) (arrH3 V c) (arrW3 V c) (arrB3 V c)) := by
  have h1 : t.val % 16 = 15 := (flush3_4 t).mp hf
  obtain ⟨-, -, -, -, -, -, -, -, e0, e1, -⟩ := where3 t
  show (cfg3.win 4).cut (grid3.coords t) ((dat3 V c).after 4 t) = _
  rw [after3_4]
  funext y
  show (stateAt3 V c t.val t.isLt).1 y = tileOut _ _ _ _ (((cfg3.win 4).blk t).view.emb y)
  rw [out3_apply V c t h1 y]
  refine congrArg _ (funext fun a => Fin.ext ?_)
  match a with
  | ⟨0, _⟩ => show 2048 * (t.val / 16) + (y 0).val = win3_4.index t (0 : Fin 2) * 2048 + 1 * (y 0).val; rw [e0]; omega
  | ⟨1, _⟩ => show (y 1).val = win3_4.index t (1 : Fin 2) * 200 + 1 * (y 1).val; rw [e1]; omega

/-- THE ARRAY after the region: `tileOut` of the four arrays it read. -/
theorem final3 (c : Dev nD) : (dat3 V c).arrAt 4 cfg3.N = tileOut (arrA3 V c) (arrH3 V c) (arrW3 V c) (arrB3 V c) :=
  (dat3 V c).arrAt_eq_of_cover 4 _ (flushed3_eq V c) fun i => by
    have hi0 : (i 0).val < 8192 := idx2_lt0 i
    have hi1 : (i 1).val < 200 := idx2_lt1 i
    have hN : cfg3.N = 64 := N_3
    let t : Fin cfg3.N := ⟨16 * ((i 0).val / 2048) + 15, by omega⟩
    obtain ⟨-, -, -, -, -, -, -, -, e0, e1, -⟩ := where3 t
    have ht : t.val = 16 * ((i 0).val / 2048) + 15 := rfl
    refine ⟨t, (flush3_4 t).mpr (by rw [ht]; omega), ?_⟩
    rw [mem_out3]
    intro a
    match a with
    | ⟨0, _⟩ => show win3_4.index t (0 : Fin 2) * 2048 ≤ (i 0).val ∧ (i 0).val < win3_4.index t (0 : Fin 2) * 2048 + 2048; rw [e0, ht]; omega
    | ⟨1, _⟩ => show win3_4.index t (1 : Fin 2) * 200 ≤ (i 1).val ∧ (i 1).val < win3_4.index t (1 : Fin 2) * 200 + 200; rw [e1]; omega

end

end Cert.KernelIdeal.Hand

end
-- ==== Proof.Ideal.HostVals.lean ====
/-
  The kernel program's host side as values.  Every host operation of the program's main function writes one buffer; the
  value it writes is a function of the nine argument arrays (`Ins`): the operation's own function applied to the values
  of the buffers it reads.  The four kernel regions' outputs are `tileOut` of the arrays they read.  The definitions
  follow the program's operations one for one, in program order.
-/
import proofs.«174668_j26645977104432_2_alg».proof.Proof.Ideal.Tile

noncomputable section

namespace Cert.KernelIdeal.Hand

open Cert.KernelIdeal Cert.KernelIdeal.Gen Cert.KernelIdeal.Alg Idealize.ShloMosaic

/-- The nine argument arrays. -/
structure Ins where
  x0 : FVec Ideal S8192x200 .f32
  x1 : FVec Ideal S8192x8192 .f32
  x2 : FVec Ideal S8192x8192 .f32
  x3 : FVec Ideal S50x50 .f32
  x4 : FVec Ideal S50 .f32
  x5 : FVec Ideal S12x100x50 .f32
  x6 : FVec Ideal S12x50 .f32
  x7 : FVec Ideal S400x300 .f32
  x8 : FVec Ideal S300 .f32

def kv_main_v0 (a : Ins) := ((extractStridedSlice S8192x50 ![0, 0] · slices_S8192x200_S8192x50_0_0) : (⟨S8192x200, .f32⟩ : BufTy).Contents (Elt Ideal) → (⟨S8192x50, .f32⟩ : BufTy).Contents (Elt Ideal)) a.x0
def kv_main_v1 (a : Ins) := ((extractStridedSlice S8192x50 ![0, 50] · slices_S8192x200_S8192x50_0_50) : (⟨S8192x200, .f32⟩ : BufTy).Contents (Elt Ideal) → (⟨S8192x50, .f32⟩ : BufTy).Contents (Elt Ideal)) a.x0
def kv_main_v2 (a : Ins) := ((extractStridedSlice S8192x50 ![0, 100] · slices_S8192x200_S8192x50_0_100) : (⟨S8192x200, .f32⟩ : BufTy).Contents (Elt Ideal) → (⟨S8192x50, .f32⟩ : BufTy).Contents (Elt Ideal)) a.x0
def kv_main_v3 (a : Ins) := ((extractStridedSlice S8192x50 ![0, 150] · slices_S8192x200_S8192x50_0_150) : (⟨S8192x200, .f32⟩ : BufTy).Contents (Elt Ideal) → (⟨S8192x50, .f32⟩ : BufTy).Contents (Elt Ideal)) a.x0
def kv_main_v4 (a : Ins) := shapeCast S1x50 a.x4 shapeCasts_S50_S1x50
def kv_main_v5 (a : Ins) := (broadcastInDim S4x50 ![0, 1] bcast_S1x50_S4x50_0_1 : (⟨S1x50, .f32⟩ : BufTy).Contents (Elt Ideal) → (⟨S4x50, .f32⟩ : BufTy).Contents (Elt Ideal)) (kv_main_v4 a)
def kv_main_v6 (a : Ins) := shapeCast S200 (kv_main_v5 a) shapeCasts_S4x50_S200
def kv_main_v7 (a : Ins) := shapeCast S1x200 (kv_main_v6 a) shapeCasts_S200_S1x200
def kv_main_cst (a : Ins) := (constant (F := Ideal) S_ .f32 0x00000000#32)
def kv_main_v8 (a : Ins) := (broadcastInDim S50x50 ![] bcast_S_S50x50 : (⟨S_, .f32⟩ : BufTy).Contents (Elt Ideal) → (⟨S50x50, .f32⟩ : BufTy).Contents (Elt Ideal)) (kv_main_cst a)
def kv_main_v9 (a : Ins) := concatenate S50x200 1 [⟨S50x50, a.x3⟩, ⟨S50x50, (kv_main_v8 a)⟩, ⟨S50x50, (kv_main_v8 a)⟩, ⟨S50x50, (kv_main_v8 a)⟩] concatenates_S50x50_S50x50_S50x50_S50x50_S50x200_d1
def kv_main_v10 (a : Ins) := concatenate S50x200 1 [⟨S50x50, (kv_main_v8 a)⟩, ⟨S50x50, a.x3⟩, ⟨S50x50, (kv_main_v8 a)⟩, ⟨S50x50, (kv_main_v8 a)⟩] concatenates_S50x50_S50x50_S50x50_S50x50_S50x200_d1
def kv_main_v11 (a : Ins) := concatenate S50x200 1 [⟨S50x50, (kv_main_v8 a)⟩, ⟨S50x50, (kv_main_v8 a)⟩, ⟨S50x50, a.x3⟩, ⟨S50x50, (kv_main_v8 a)⟩] concatenates_S50x50_S50x50_S50x50_S50x50_S50x200_d1
def kv_main_v12 (a : Ins) := concatenate S50x200 1 [⟨S50x50, (kv_main_v8 a)⟩, ⟨S50x50, (kv_main_v8 a)⟩, ⟨S50x50, (kv_main_v8 a)⟩, ⟨S50x50, a.x3⟩] concatenates_S50x50_S50x50_S50x50_S50x50_S50x200_d1
def kv_main_v13 (a : Ins) := concatenate S200x200 0 [⟨S50x200, (kv_main_v9 a)⟩, ⟨S50x200, (kv_main_v10 a)⟩, ⟨S50x200, (kv_main_v11 a)⟩, ⟨S50x200, (kv_main_v12 a)⟩] concatenates_S50x200_S50x200_S50x200_S50x200_S200x200_d0
/-- What the region writing this buffer leaves in it. -/
def kv_main_v14 (a : Ins) : FVec Ideal S8192x200 .f32 := tileOut a.x2 a.x0 (kv_main_v13 a) (kv_main_v7 a)
/-- What the region writing this buffer leaves in it. -/
def kv_main_v15 (a : Ins) : FVec Ideal S8192x200 .f32 := tileOut a.x1 a.x0 (kv_main_v13 a) (kv_main_v7 a)
def kv_main_v16 (a : Ins) := ((extractStridedSlice S8192x50 ![0, 0] · slices_S8192x200_S8192x50_0_0) : (⟨S8192x200, .f32⟩ : BufTy).Contents (Elt Ideal) → (⟨S8192x50, .f32⟩ : BufTy).Contents (Elt Ideal)) (kv_main_v14 a)
def kv_main_v17 (a : Ins) := ((extractStridedSlice S8192x50 ![0, 50] · slices_S8192x200_S8192x50_0_50) : (⟨S8192x200, .f32⟩ : BufTy).Contents (Elt Ideal) → (⟨S8192x50, .f32⟩ : BufTy).Contents (Elt Ideal)) (kv_main_v14 a)
def kv_main_v18 (a : Ins) := ((extractStridedSlice S8192x50 ![0, 100] · slices_S8192x200_S8192x50_0_100) : (⟨S8192x200, .f32⟩ : BufTy).Contents (Elt Ideal) → (⟨S8192x50, .f32⟩ : BufTy).Contents (Elt Ideal)) (kv_main_v14 a)
def kv_main_v19 (a : Ins) := ((extractStridedSlice S8192x50 ![0, 150] · slices_S8192x200_S8192x50_0_150) : (⟨S8192x200, .f32⟩ : BufTy).Contents (Elt Ideal) → (⟨S8192x50, .f32⟩ : BufTy).Contents (Elt Ideal)) (kv_main_v14 a)
def kv_main_v20 (a : Ins) := ((extractStridedSlice S8192x50 ![0, 0] · slices_S8192x200_S8192x50_0_0) : (⟨S8192x200, .f32⟩ : BufTy).Contents (Elt Ideal) → (⟨S8192x50, .f32⟩ : BufTy).Contents (Elt Ideal)) (kv_main_v15 a)
def kv_main_v21 (a : Ins) := ((extractStridedSlice S8192x50 ![0, 50] · slices_S8192x200_S8192x50_0_50) : (⟨S8192x200, .f32⟩ : BufTy).Contents (Elt Ideal) → (⟨S8192x50, .f32⟩ : BufTy).Contents (Elt Ideal)) (kv_main_v15 a)
def kv_main_v22 (a : Ins) := ((extractStridedSlice S8192x50 ![0, 100] · slices_S8192x200_S8192x50_0_100) : (⟨S8192x200, .f32⟩ : BufTy).Contents (Elt Ideal) → (⟨S8192x50, .f32⟩ : BufTy).Contents (Elt Ideal)) (kv_main_v15 a)
def kv_main_v23 (a : Ins) := ((extractStridedSlice S8192x50 ![0, 150] · slices_S8192x200_S8192x50_0_150) : (⟨S8192x200, .f32⟩ : BufTy).Contents (Elt Ideal) → (⟨S8192x50, .f32⟩ : BufTy).Contents (Elt Ideal)) (kv_main_v15 a)
def kv_main_v24 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v0 a) (kv_main_v16 a)
def kv_main_v25 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v1 a) (kv_main_v17 a)
def kv_main_cst_0 (a : Ins) := (constant (F := Ideal) S_ .f32 0x3E4CCCCD#32)
def kv_main_v26 (a : Ins) := (broadcastInDim S8192x50 ![] bcast_S_S8192x50 : (⟨S_, .f32⟩ : BufTy).Contents (Elt Ideal) → (⟨S8192x50, .f32⟩ : BufTy).Contents (Elt Ideal)) (kv_main_cst_0 a)
def kv_main_v27 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v26 a) (kv_main_v2 a)
def kv_main_cst_1 (a : Ins) := (constant (F := Ideal) S_ .f32 0x3F4CCCCD#32)
def kv_main_v28 (a : Ins) := (broadcastInDim S8192x50 ![] bcast_S_S8192x50 : (⟨S_, .f32⟩ : BufTy).Contents (Elt Ideal) → (⟨S8192x50, .f32⟩ : BufTy).Contents (Elt Ideal)) (kv_main_cst_1 a)
def kv_main_v29 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v28 a) (kv_main_v18 a)
def kv_main_v30 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v27 a) (kv_main_v29 a)
def kv_main_v31 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v3 a) (kv_main_v19 a)
def kv_main_v32 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v20 a) (kv_main_v21 a)
def kv_main_v33 (a : Ins) := ((extractStridedSlice S1x100x50 ![0, 0, 0] · slices_S12x100x50_S1x100x50_0_0_0) : (⟨S12x100x50, .f32⟩ : BufTy).Contents (Elt Ideal) → (⟨S1x100x50, .f32⟩ : BufTy).Contents (Elt Ideal)) a.x5
def kv_main_v34 (a : Ins) := shapeCast S100x50 (kv_main_v33 a) shapeCasts_S1x100x50_S100x50
def kv_main_v35 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v32 a) (kv_main_v34 a)
def kv_main_v36 (a : Ins) := ((extractStridedSlice S1x50 ![0, 0] · slices_S12x50_S1x50_0_0) : (⟨S12x50, .f32⟩ : BufTy).Contents (Elt Ideal) → (⟨S1x50, .f32⟩ : BufTy).Contents (Elt Ideal)) a.x6
def kv_main_v37 (a : Ins) := shapeCast S50 (kv_main_v36 a) shapeCasts_S1x50_S50
def kv_main_v38 (a : Ins) := (broadcastInDim S1x50 ![1] bcast_S50_S1x50_1 : (⟨S50, .f32⟩ : BufTy).Contents (Elt Ideal) → (⟨S1x50, .f32⟩ : BufTy).Contents (Elt Ideal)) (kv_main_v37 a)
def kv_main_v39 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v38 a)
def kv_main_v40 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v35 a) (kv_main_v39 a)
def kv_main_v41 (a : Ins) := (Host.negf (F := Ideal) (φ := .f32) : (⟨S8192x50, .f32⟩ : BufTy).Contents (Elt Ideal) → (⟨S8192x50, .f32⟩ : BufTy).Contents (Elt Ideal)) (kv_main_v40 a)
def kv_main_v42 (a : Ins) := (Host.exp (F := Ideal) (φ := .f32) : (⟨S8192x50, .f32⟩ : BufTy).Contents (Elt Ideal) → (⟨S8192x50, .f32⟩ : BufTy).Contents (Elt Ideal)) (kv_main_v41 a)
def kv_main_cst_2 (a : Ins) := (constant (F := Ideal) S_ .f32 0x3F800000#32)
def kv_main_v43 (a : Ins) := (broadcastInDim S8192x50 ![] bcast_S_S8192x50 : (⟨S_, .f32⟩ : BufTy).Contents (Elt Ideal) → (⟨S8192x50, .f32⟩ : BufTy).Contents (Elt Ideal)) (kv_main_cst_2 a)
def kv_main_v44 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v43 a) (kv_main_v42 a)
def kv_main_cst_3 (a : Ins) := (constant (F := Ideal) S_ .f32 0x3F800000#32)
def kv_main_v45 (a : Ins) := (broadcastInDim S8192x50 ![] bcast_S_S8192x50 : (⟨S_, .f32⟩ : BufTy).Contents (Elt Ideal) → (⟨S8192x50, .f32⟩ : BufTy).Contents (Elt Ideal)) (kv_main_cst_3 a)
def kv_main_v46 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v45 a) (kv_main_v44 a)
def kv_main_v47 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v46 a) (kv_main_v20 a)
def kv_main_v48 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v21 a) (kv_main_v47 a)
def kv_main_v49 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v48 a) (kv_main_v22 a)
def kv_main_v50 (a : Ins) := ((extractStridedSlice S1x100x50 ![1, 0, 0] · slices_S12x100x50_S1x100x50_1_0_0) : (⟨S12x100x50, .f32⟩ : BufTy).Contents (Elt Ideal) → (⟨S1x100x50, .f32⟩ : BufTy).Contents (Elt Ideal)) a.x5
def kv_main_v51 (a : Ins) := shapeCast S100x50 (kv_main_v50 a) shapeCasts_S1x100x50_S100x50
def kv_main_v52 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v49 a) (kv_main_v51 a)
def kv_main_v53 (a : Ins) := ((extractStridedSlice S1x50 ![1, 0] · slices_S12x50_S1x50_1_0) : (⟨S12x50, .f32⟩ : BufTy).Contents (Elt Ideal) → (⟨S1x50, .f32⟩ : BufTy).Contents (Elt Ideal)) a.x6
def kv_main_v54 (a : Ins) := shapeCast S50 (kv_main_v53 a) shapeCasts_S1x50_S50
def kv_main_v55 (a : Ins) := (broadcastInDim S1x50 ![1] bcast_S50_S1x50_1 : (⟨S50, .f32⟩ : BufTy).Contents (Elt Ideal) → (⟨S1x50, .f32⟩ : BufTy).Contents (Elt Ideal)) (kv_main_v54 a)
def kv_main_v56 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v55 a)
def kv_main_v57 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v52 a) (kv_main_v56 a)
def kv_main_v58 (a : Ins) := (Host.negf (F := Ideal) (φ := .f32) : (⟨S8192x50, .f32⟩ : BufTy).Contents (Elt Ideal) → (⟨S8192x50, .f32⟩ : BufTy).Contents (Elt Ideal)) (kv_main_v57 a)
def kv_main_v59 (a : Ins) := (Host.exp (F := Ideal) (φ := .f32) : (⟨S8192x50, .f32⟩ : BufTy).Contents (Elt Ideal) → (⟨S8192x50, .f32⟩ : BufTy).Contents (Elt Ideal)) (kv_main_v58 a)
def kv_main_cst_4 (a : Ins) := (constant (F := Ideal) S_ .f32 0x3F800000#32)
def kv_main_v60 (a : Ins) := (broadcastInDim S8192x50 ![] bcast_S_S8192x50 : (⟨S_, .f32⟩ : BufTy).Contents (Elt Ideal) → (⟨S8192x50, .f32⟩ : BufTy).Contents (Elt Ideal)) (kv_main_cst_4 a)
def kv_main_v61 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v60 a) (kv_main_v59 a)
def kv_main_cst_5 (a : Ins) := (constant (F := Ideal) S_ .f32 0x3F800000#32)
def kv_main_v62 (a : Ins) := (broadcastInDim S8192x50 ![] bcast_S_S8192x50 : (⟨S_, .f32⟩ : BufTy).Contents (Elt Ideal) → (⟨S8192x50, .f32⟩ : BufTy).Contents (Elt Ideal)) (kv_main_cst_5 a)
def kv_main_v63 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v62 a) (kv_main_v61 a)
def kv_main_v64 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v63 a) (kv_main_v48 a)
def kv_main_v65 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v22 a) (kv_main_v64 a)
def kv_main_v66 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v65 a) (kv_main_v23 a)
def kv_main_v67 (a : Ins) := ((extractStridedSlice S1x100x50 ![2, 0, 0] · slices_S12x100x50_S1x100x50_2_0_0) : (⟨S12x100x50, .f32⟩ : BufTy).Contents (Elt Ideal) → (⟨S1x100x50, .f32⟩ : BufTy).Contents (Elt Ideal)) a.x5
def kv_main_v68 (a : Ins) := shapeCast S100x50 (kv_main_v67 a) shapeCasts_S1x100x50_S100x50
def kv_main_v69 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v66 a) (kv_main_v68 a)
def kv_main_v70 (a : Ins) := ((extractStridedSlice S1x50 ![2, 0] · slices_S12x50_S1x50_2_0) : (⟨S12x50, .f32⟩ : BufTy).Contents (Elt Ideal) → (⟨S1x50, .f32⟩ : BufTy).Contents (Elt Ideal)) a.x6
def kv_main_v71 (a : Ins) := shapeCast S50 (kv_main_v70 a) shapeCasts_S1x50_S50
def kv_main_v72 (a : Ins) := (broadcastInDim S1x50 ![1] bcast_S50_S1x50_1 : (⟨S50, .f32⟩ : BufTy).Contents (Elt Ideal) → (⟨S1x50, .f32⟩ : BufTy).Contents (Elt Ideal)) (kv_main_v71 a)
def kv_main_v73 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v72 a)
def kv_main_v74 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v69 a) (kv_main_v73 a)
def kv_main_v75 (a : Ins) := (Host.negf (F := Ideal) (φ := .f32) : (⟨S8192x50, .f32⟩ : BufTy).Contents (Elt Ideal) → (⟨S8192x50, .f32⟩ : BufTy).Contents (Elt Ideal)) (kv_main_v74 a)
def kv_main_v76 (a : Ins) := (Host.exp (F := Ideal) (φ := .f32) : (⟨S8192x50, .f32⟩ : BufTy).Contents (Elt Ideal) → (⟨S8192x50, .f32⟩ : BufTy).Contents (Elt Ideal)) (kv_main_v75 a)
def kv_main_cst_6 (a : Ins) := (constant (F := Ideal) S_ .f32 0x3F800000#32)
def kv_main_v77 (a : Ins) := (broadcastInDim S8192x50 ![] bcast_S_S8192x50 : (⟨S_, .f32⟩ : BufTy).Contents (Elt Ideal) → (⟨S8192x50, .f32⟩ : BufTy).Contents (Elt Ideal)) (kv_main_cst_6 a)
def kv_main_v78 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v77 a) (kv_main_v76 a)
def kv_main_cst_7 (a : Ins) := (constant (F := Ideal) S_ .f32 0x3F800000#32)
def kv_main_v79 (a : Ins) := (broadcastInDim S8192x50 ![] bcast_S_S8192x50 : (⟨S_, .f32⟩ : BufTy).Contents (Elt Ideal) → (⟨S8192x50, .f32⟩ : BufTy).Contents (Elt Ideal)) (kv_main_cst_7 a)
def kv_main_v80 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v79 a) (kv_main_v78 a)
def kv_main_v81 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v80 a) (kv_main_v65 a)
def kv_main_v82 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v23 a) (kv_main_v81 a)
def kv_main_v83 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v0 a) (kv_main_v20 a)
def kv_main_v84 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v1 a) (kv_main_v21 a)
def kv_main_cst_8 (a : Ins) := (constant (F := Ideal) S_ .f32 0x3E4CCCCD#32)
def kv_main_v85 (a : Ins) := (broadcastInDim S8192x50 ![] bcast_S_S8192x50 : (⟨S_, .f32⟩ : BufTy).Contents (Elt Ideal) → (⟨S8192x50, .f32⟩ : BufTy).Contents (Elt Ideal)) (kv_main_cst_8 a)
def kv_main_v86 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v85 a) (kv_main_v2 a)
def kv_main_cst_9 (a : Ins) := (constant (F := Ideal) S_ .f32 0x3F4CCCCD#32)
def kv_main_v87 (a : Ins) := (broadcastInDim S8192x50 ![] bcast_S_S8192x50 : (⟨S_, .f32⟩ : BufTy).Contents (Elt Ideal) → (⟨S8192x50, .f32⟩ : BufTy).Contents (Elt Ideal)) (kv_main_cst_9 a)
def kv_main_v88 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v87 a) (kv_main_v22 a)
def kv_main_v89 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v86 a) (kv_main_v88 a)
def kv_main_v90 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v3 a) (kv_main_v23 a)
def kv_main_v91 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v16 a) (kv_main_v17 a)
def kv_main_v92 (a : Ins) := ((extractStridedSlice S1x100x50 ![9, 0, 0] · slices_S12x100x50_S1x100x50_9_0_0) : (⟨S12x100x50, .f32⟩ : BufTy).Contents (Elt Ideal) → (⟨S1x100x50, .f32⟩ : BufTy).Contents (Elt Ideal)) a.x5
def kv_main_v93 (a : Ins) := shapeCast S100x50 (kv_main_v92 a) shapeCasts_S1x100x50_S100x50
def kv_main_v94 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v91 a) (kv_main_v93 a)
def kv_main_v95 (a : Ins) := ((extractStridedSlice S1x50 ![9, 0] · slices_S12x50_S1x50_9_0) : (⟨S12x50, .f32⟩ : BufTy).Contents (Elt Ideal) → (⟨S1x50, .f32⟩ : BufTy).Contents (Elt Ideal)) a.x6
def kv_main_v96 (a : Ins) := shapeCast S50 (kv_main_v95 a) shapeCasts_S1x50_S50
def kv_main_v97 (a : Ins) := (broadcastInDim S1x50 ![1] bcast_S50_S1x50_1 : (⟨S50, .f32⟩ : BufTy).Contents (Elt Ideal) → (⟨S1x50, .f32⟩ : BufTy).Contents (Elt Ideal)) (kv_main_v96 a)
def kv_main_v98 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v97 a)
def kv_main_v99 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v94 a) (kv_main_v98 a)
def kv_main_v100 (a : Ins) := (Host.negf (F := Ideal) (φ := .f32) : (⟨S8192x50, .f32⟩ : BufTy).Contents (Elt Ideal) → (⟨S8192x50, .f32⟩ : BufTy).Contents (Elt Ideal)) (kv_main_v99 a)
def kv_main_v101 (a : Ins) := (Host.exp (F := Ideal) (φ := .f32) : (⟨S8192x50, .f32⟩ : BufTy).Contents (Elt Ideal) → (⟨S8192x50, .f32⟩ : BufTy).Contents (Elt Ideal)) (kv_main_v100 a)
def kv_main_cst_10 (a : Ins) := (constant (F := Ideal) S_ .f32 0x3F800000#32)
def kv_main_v102 (a : Ins) := (broadcastInDim S8192x50 ![] bcast_S_S8192x50 : (⟨S_, .f32⟩ : BufTy).Contents (Elt Ideal) → (⟨S8192x50, .f32⟩ : BufTy).Contents (Elt Ideal)) (kv_main_cst_10 a)
def kv_main_v103 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v102 a) (kv_main_v101 a)
def kv_main_cst_11 (a : Ins) := (constant (F := Ideal) S_ .f32 0x3F800000#32)
def kv_main_v104 (a : Ins) := (broadcastInDim S8192x50 ![] bcast_S_S8192x50 : (⟨S_, .f32⟩ : BufTy).Contents (Elt Ideal) → (⟨S8192x50, .f32⟩ : BufTy).Contents (Elt Ideal)) (kv_main_cst_11 a)
def kv_main_v105 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v104 a) (kv_main_v103 a)
def kv_main_v106 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v105 a) (kv_main_v16 a)
def kv_main_v107 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v17 a) (kv_main_v106 a)
def kv_main_v108 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v107 a) (kv_main_v18 a)
def kv_main_v109 (a : Ins) := ((extractStridedSlice S1x100x50 ![10, 0, 0] · slices_S12x100x50_S1x100x50_10_0_0) : (⟨S12x100x50, .f32⟩ : BufTy).Contents (Elt Ideal) → (⟨S1x100x50, .f32⟩ : BufTy).Contents (Elt Ideal)) a.x5
def kv_main_v110 (a : Ins) := shapeCast S100x50 (kv_main_v109 a) shapeCasts_S1x100x50_S100x50
def kv_main_v111 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v108 a) (kv_main_v110 a)
def kv_main_v112 (a : Ins) := ((extractStridedSlice S1x50 ![10, 0] · slices_S12x50_S1x50_10_0) : (⟨S12x50, .f32⟩ : BufTy).Contents (Elt Ideal) → (⟨S1x50, .f32⟩ : BufTy).Contents (Elt Ideal)) a.x6
def kv_main_v113 (a : Ins) := shapeCast S50 (kv_main_v112 a) shapeCasts_S1x50_S50
def kv_main_v114 (a : Ins) := (broadcastInDim S1x50 ![1] bcast_S50_S1x50_1 : (⟨S50, .f32⟩ : BufTy).Contents (Elt Ideal) → (⟨S1x50, .f32⟩ : BufTy).Contents (Elt Ideal)) (kv_main_v113 a)
def kv_main_v115 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v114 a)
def kv_main_v116 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v111 a) (kv_main_v115 a)
def kv_main_v117 (a : Ins) := (Host.negf (F := Ideal) (φ := .f32) : (⟨S8192x50, .f32⟩ : BufTy).Contents (Elt Ideal) → (⟨S8192x50, .f32⟩ : BufTy).Contents (Elt Ideal)) (kv_main_v116 a)
def kv_main_v118 (a : Ins) := (Host.exp (F := Ideal) (φ := .f32) : (⟨S8192x50, .f32⟩ : BufTy).Contents (Elt Ideal) → (⟨S8192x50, .f32⟩ : BufTy).Contents (Elt Ideal)) (kv_main_v117 a)
def kv_main_cst_12 (a : Ins) := (constant (F := Ideal) S_ .f32 0x3F800000#32)
def kv_main_v119 (a : Ins) := (broadcastInDim S8192x50 ![] bcast_S_S8192x50 : (⟨S_, .f32⟩ : BufTy).Contents (Elt Ideal) → (⟨S8192x50, .f32⟩ : BufTy).Contents (Elt Ideal)) (kv_main_cst_12 a)
def kv_main_v120 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v119 a) (kv_main_v118 a)
def kv_main_cst_13 (a : Ins) := (constant (F := Ideal) S_ .f32 0x3F800000#32)
def kv_main_v121 (a : Ins) := (broadcastInDim S8192x50 ![] bcast_S_S8192x50 : (⟨S_, .f32⟩ : BufTy).Contents (Elt Ideal) → (⟨S8192x50, .f32⟩ : BufTy).Contents (Elt Ideal)) (kv_main_cst_13 a)
def kv_main_v122 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v121 a) (kv_main_v120 a)
def kv_main_v123 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v122 a) (kv_main_v107 a)
def kv_main_v124 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v18 a) (kv_main_v123 a)
def kv_main_v125 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v124 a) (kv_main_v19 a)
def kv_main_v126 (a : Ins) := ((extractStridedSlice S1x100x50 ![11, 0, 0] · slices_S12x100x50_S1x100x50_11_0_0) : (⟨S12x100x50, .f32⟩ : BufTy).Contents (Elt Ideal) → (⟨S1x100x50, .f32⟩ : BufTy).Contents (Elt Ideal)) a.x5
def kv_main_v127 (a : Ins) := shapeCast S100x50 (kv_main_v126 a) shapeCasts_S1x100x50_S100x50
def kv_main_v128 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v125 a) (kv_main_v127 a)
def kv_main_v129 (a : Ins) := ((extractStridedSlice S1x50 ![11, 0] · slices_S12x50_S1x50_11_0) : (⟨S12x50, .f32⟩ : BufTy).Contents (Elt Ideal) → (⟨S1x50, .f32⟩ : BufTy).Contents (Elt Ideal)) a.x6
def kv_main_v130 (a : Ins) := shapeCast S50 (kv_main_v129 a) shapeCasts_S1x50_S50
def kv_main_v131 (a : Ins) := (broadcastInDim S1x50 ![1] bcast_S50_S1x50_1 : (⟨S50, .f32⟩ : BufTy).Contents (Elt Ideal) → (⟨S1x50, .f32⟩ : BufTy).Contents (Elt Ideal)) (kv_main_v130 a)
def kv_main_v132 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v131 a)
def kv_main_v133 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v128 a) (kv_main_v132 a)
def kv_main_v134 (a : Ins) := (Host.negf (F := Ideal) (φ := .f32) : (⟨S8192x50, .f32⟩ : BufTy).Contents (Elt Ideal) → (⟨S8192x50, .f32⟩ : BufTy).Contents (Elt Ideal)) (kv_main_v133 a)
def kv_main_v135 (a : Ins) := (Host.exp (F := Ideal) (φ := .f32) : (⟨S8192x50, .f32⟩ : BufTy).Contents (Elt Ideal) → (⟨S8192x50, .f32⟩ : BufTy).Contents (Elt Ideal)) (kv_main_v134 a)
def kv_main_cst_14 (a : Ins) := (constant (F := Ideal) S_ .f32 0x3F800000#32)
def kv_main_v136 (a : Ins) := (broadcastInDim S8192x50 ![] bcast_S_S8192x50 : (⟨S_, .f32⟩ : BufTy).Contents (Elt Ideal) → (⟨S8192x50, .f32⟩ : BufTy).Contents (Elt Ideal)) (kv_main_cst_14 a)
def kv_main_v137 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v136 a) (kv_main_v135 a)
def kv_main_cst_15 (a : Ins) := (constant (F := Ideal) S_ .f32 0x3F800000#32)
def kv_main_v138 (a : Ins) := (broadcastInDim S8192x50 ![] bcast_S_S8192x50 : (⟨S_, .f32⟩ : BufTy).Contents (Elt Ideal) → (⟨S8192x50, .f32⟩ : BufTy).Contents (Elt Ideal)) (kv_main_cst_15 a)
def kv_main_v139 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v138 a) (kv_main_v137 a)
def kv_main_v140 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v139 a) (kv_main_v124 a)
def kv_main_v141 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v19 a) (kv_main_v140 a)
def kv_main_v142 (a : Ins) := concatenate S8192x200 1 [⟨S8192x50, (kv_main_v24 a)⟩, ⟨S8192x50, (kv_main_v25 a)⟩, ⟨S8192x50, (kv_main_v30 a)⟩, ⟨S8192x50, (kv_main_v31 a)⟩] concatenates_S8192x50_S8192x50_S8192x50_S8192x50_S8192x200_d1
def kv_main_v143 (a : Ins) := concatenate S8192x200 1 [⟨S8192x50, (kv_main_v83 a)⟩, ⟨S8192x50, (kv_main_v84 a)⟩, ⟨S8192x50, (kv_main_v89 a)⟩, ⟨S8192x50, (kv_main_v90 a)⟩] concatenates_S8192x50_S8192x50_S8192x50_S8192x50_S8192x200_d1
/-- What the region writing this buffer leaves in it. -/
def kv_main_v144 (a : Ins) : FVec Ideal S8192x200 .f32 := tileOut a.x2 (kv_main_v142 a) (kv_main_v13 a) (kv_main_v7 a)
/-- What the region writing this buffer leaves in it. -/
def kv_main_v145 (a : Ins) : FVec Ideal S8192x200 .f32 := tileOut a.x1 (kv_main_v143 a) (kv_main_v13 a) (kv_main_v7 a)
def kv_main_v146 (a : Ins) := ((extractStridedSlice S8192x50 ![0, 0] · slices_S8192x200_S8192x50_0_0) : (⟨S8192x200, .f32⟩ : BufTy).Contents (Elt Ideal) → (⟨S8192x50, .f32⟩ : BufTy).Contents (Elt Ideal)) (kv_main_v144 a)
def kv_main_v147 (a : Ins) := ((extractStridedSlice S8192x50 ![0, 50] · slices_S8192x200_S8192x50_0_50) : (⟨S8192x200, .f32⟩ : BufTy).Contents (Elt Ideal) → (⟨S8192x50, .f32⟩ : BufTy).Contents (Elt Ideal)) (kv_main_v144 a)
def kv_main_v148 (a : Ins) := ((extractStridedSlice S8192x50 ![0, 100] · slices_S8192x200_S8192x50_0_100) : (⟨S8192x200, .f32⟩ : BufTy).Contents (Elt Ideal) → (⟨S8192x50, .f32⟩ : BufTy).Contents (Elt Ideal)) (kv_main_v144 a)
def kv_main_v149 (a : Ins) := ((extractStridedSlice S8192x50 ![0, 150] · slices_S8192x200_S8192x50_0_150) : (⟨S8192x200, .f32⟩ : BufTy).Contents (Elt Ideal) → (⟨S8192x50, .f32⟩ : BufTy).Contents (Elt Ideal)) (kv_main_v144 a)
def kv_main_v150 (a : Ins) := ((extractStridedSlice S8192x50 ![0, 0] · slices_S8192x200_S8192x50_0_0) : (⟨S8192x200, .f32⟩ : BufTy).Contents (Elt Ideal) → (⟨S8192x50, .f32⟩ : BufTy).Contents (Elt Ideal)) (kv_main_v145 a)
def kv_main_v151 (a : Ins) := ((extractStridedSlice S8192x50 ![0, 50] · slices_S8192x200_S8192x50_0_50) : (⟨S8192x200, .f32⟩ : BufTy).Contents (Elt Ideal) → (⟨S8192x50, .f32⟩ : BufTy).Contents (Elt Ideal)) (kv_main_v145 a)
def kv_main_v152 (a : Ins) := ((extractStridedSlice S8192x50 ![0, 100] · slices_S8192x200_S8192x50_0_100) : (⟨S8192x200, .f32⟩ : BufTy).Contents (Elt Ideal) → (⟨S8192x50, .f32⟩ : BufTy).Contents (Elt Ideal)) (kv_main_v145 a)
def kv_main_v153 (a : Ins) := ((extractStridedSlice S8192x50 ![0, 150] · slices_S8192x200_S8192x50_0_150) : (⟨S8192x200, .f32⟩ : BufTy).Contents (Elt Ideal) → (⟨S8192x50, .f32⟩ : BufTy).Contents (Elt Ideal)) (kv_main_v145 a)
def kv_main_cst_16 (a : Ins) := (constant (F := Ideal) S_ .f32 0x3E4CCCCD#32)
def kv_main_v154 (a : Ins) := (broadcastInDim S8192x50 ![] bcast_S_S8192x50 : (⟨S_, .f32⟩ : BufTy).Contents (Elt Ideal) → (⟨S8192x50, .f32⟩ : BufTy).Contents (Elt Ideal)) (kv_main_cst_16 a)
def kv_main_v155 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v154 a) (kv_main_v20 a)
def kv_main_cst_17 (a : Ins) := (constant (F := Ideal) S_ .f32 0x3F4CCCCD#32)
def kv_main_v156 (a : Ins) := (broadcastInDim S8192x50 ![] bcast_S_S8192x50 : (⟨S_, .f32⟩ : BufTy).Contents (Elt Ideal) → (⟨S8192x50, .f32⟩ : BufTy).Contents (Elt Ideal)) (kv_main_cst_17 a)
def kv_main_v157 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v156 a) (kv_main_v146 a)
def kv_main_v158 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v155 a) (kv_main_v157 a)
def kv_main_cst_18 (a : Ins) := (constant (F := Ideal) S_ .f32 0x3E4CCCCD#32)
def kv_main_v159 (a : Ins) := (broadcastInDim S8192x50 ![] bcast_S_S8192x50 : (⟨S_, .f32⟩ : BufTy).Contents (Elt Ideal) → (⟨S8192x50, .f32⟩ : BufTy).Contents (Elt Ideal)) (kv_main_cst_18 a)
def kv_main_v160 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v159 a) (kv_main_v48 a)
def kv_main_cst_19 (a : Ins) := (constant (F := Ideal) S_ .f32 0x3F4CCCCD#32)
def kv_main_v161 (a : Ins) := (broadcastInDim S8192x50 ![] bcast_S_S8192x50 : (⟨S_, .f32⟩ : BufTy).Contents (Elt Ideal) → (⟨S8192x50, .f32⟩ : BufTy).Contents (Elt Ideal)) (kv_main_cst_19 a)
def kv_main_v162 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v161 a) (kv_main_v147 a)
def kv_main_v163 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v160 a) (kv_main_v162 a)
def kv_main_v164 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v158 a) (kv_main_v163 a)
def kv_main_v165 (a : Ins) := ((extractStridedSlice S1x100x50 ![3, 0, 0] · slices_S12x100x50_S1x100x50_3_0_0) : (⟨S12x100x50, .f32⟩ : BufTy).Contents (Elt Ideal) → (⟨S1x100x50, .f32⟩ : BufTy).Contents (Elt Ideal)) a.x5
def kv_main_v166 (a : Ins) := shapeCast S100x50 (kv_main_v165 a) shapeCasts_S1x100x50_S100x50
def kv_main_v167 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v164 a) (kv_main_v166 a)
def kv_main_v168 (a : Ins) := ((extractStridedSlice S1x50 ![3, 0] · slices_S12x50_S1x50_3_0) : (⟨S12x50, .f32⟩ : BufTy).Contents (Elt Ideal) → (⟨S1x50, .f32⟩ : BufTy).Contents (Elt Ideal)) a.x6
def kv_main_v169 (a : Ins) := shapeCast S50 (kv_main_v168 a) shapeCasts_S1x50_S50
def kv_main_v170 (a : Ins) := (broadcastInDim S1x50 ![1] bcast_S50_S1x50_1 : (⟨S50, .f32⟩ : BufTy).Contents (Elt Ideal) → (⟨S1x50, .f32⟩ : BufTy).Contents (Elt Ideal)) (kv_main_v169 a)
def kv_main_v171 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v170 a)
def kv_main_v172 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v167 a) (kv_main_v171 a)
def kv_main_v173 (a : Ins) := (Host.negf (F := Ideal) (φ := .f32) : (⟨S8192x50, .f32⟩ : BufTy).Contents (Elt Ideal) → (⟨S8192x50, .f32⟩ : BufTy).Contents (Elt Ideal)) (kv_main_v172 a)
def kv_main_v174 (a : Ins) := (Host.exp (F := Ideal) (φ := .f32) : (⟨S8192x50, .f32⟩ : BufTy).Contents (Elt Ideal) → (⟨S8192x50, .f32⟩ : BufTy).Contents (Elt Ideal)) (kv_main_v173 a)
def kv_main_cst_20 (a : Ins) := (constant (F := Ideal) S_ .f32 0x3F800000#32)
def kv_main_v175 (a : Ins) := (broadcastInDim S8192x50 ![] bcast_S_S8192x50 : (⟨S_, .f32⟩ : BufTy).Contents (Elt Ideal) → (⟨S8192x50, .f32⟩ : BufTy).Contents (Elt Ideal)) (kv_main_cst_20 a)
def kv_main_v176 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v175 a) (kv_main_v174 a)
def kv_main_cst_21 (a : Ins) := (constant (F := Ideal) S_ .f32 0x3F800000#32)
def kv_main_v177 (a : Ins) := (broadcastInDim S8192x50 ![] bcast_S_S8192x50 : (⟨S_, .f32⟩ : BufTy).Contents (Elt Ideal) → (⟨S8192x50, .f32⟩ : BufTy).Contents (Elt Ideal)) (kv_main_cst_21 a)
def kv_main_v178 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v177 a) (kv_main_v176 a)
def kv_main_v179 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v178 a) (kv_main_v158 a)
def kv_main_v180 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v179 a) (kv_main_v163 a)
def kv_main_cst_22 (a : Ins) := (constant (F := Ideal) S_ .f32 0x3E4CCCCD#32)
def kv_main_v181 (a : Ins) := (broadcastInDim S8192x50 ![] bcast_S_S8192x50 : (⟨S_, .f32⟩ : BufTy).Contents (Elt Ideal) → (⟨S8192x50, .f32⟩ : BufTy).Contents (Elt Ideal)) (kv_main_cst_22 a)
def kv_main_v182 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v181 a) (kv_main_v65 a)
def kv_main_cst_23 (a : Ins) := (constant (F := Ideal) S_ .f32 0x3F4CCCCD#32)
def kv_main_v183 (a : Ins) := (broadcastInDim S8192x50 ![] bcast_S_S8192x50 : (⟨S_, .f32⟩ : BufTy).Contents (Elt Ideal) → (⟨S8192x50, .f32⟩ : BufTy).Contents (Elt Ideal)) (kv_main_cst_23 a)
def kv_main_v184 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v183 a) (kv_main_v148 a)
def kv_main_v185 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v182 a) (kv_main_v184 a)
def kv_main_v186 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v180 a) (kv_main_v185 a)
def kv_main_v187 (a : Ins) := ((extractStridedSlice S1x100x50 ![4, 0, 0] · slices_S12x100x50_S1x100x50_4_0_0) : (⟨S12x100x50, .f32⟩ : BufTy).Contents (Elt Ideal) → (⟨S1x100x50, .f32⟩ : BufTy).Contents (Elt Ideal)) a.x5
def kv_main_v188 (a : Ins) := shapeCast S100x50 (kv_main_v187 a) shapeCasts_S1x100x50_S100x50
def kv_main_v189 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v186 a) (kv_main_v188 a)
def kv_main_v190 (a : Ins) := ((extractStridedSlice S1x50 ![4, 0] · slices_S12x50_S1x50_4_0) : (⟨S12x50, .f32⟩ : BufTy).Contents (Elt Ideal) → (⟨S1x50, .f32⟩ : BufTy).Contents (Elt Ideal)) a.x6
def kv_main_v191 (a : Ins) := shapeCast S50 (kv_main_v190 a) shapeCasts_S1x50_S50
def kv_main_v192 (a : Ins) := (broadcastInDim S1x50 ![1] bcast_S50_S1x50_1 : (⟨S50, .f32⟩ : BufTy).Contents (Elt Ideal) → (⟨S1x50, .f32⟩ : BufTy).Contents (Elt Ideal)) (kv_main_v191 a)
def kv_main_v193 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v192 a)
def kv_main_v194 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v189 a) (kv_main_v193 a)
def kv_main_v195 (a : Ins) := (Host.negf (F := Ideal) (φ := .f32) : (⟨S8192x50, .f32⟩ : BufTy).Contents (Elt Ideal) → (⟨S8192x50, .f32⟩ : BufTy).Contents (Elt Ideal)) (kv_main_v194 a)
def kv_main_v196 (a : Ins) := (Host.exp (F := Ideal) (φ := .f32) : (⟨S8192x50, .f32⟩ : BufTy).Contents (Elt Ideal) → (⟨S8192x50, .f32⟩ : BufTy).Contents (Elt Ideal)) (kv_main_v195 a)
def kv_main_cst_24 (a : Ins) := (constant (F := Ideal) S_ .f32 0x3F800000#32)
def kv_main_v197 (a : Ins) := (broadcastInDim S8192x50 ![] bcast_S_S8192x50 : (⟨S_, .f32⟩ : BufTy).Contents (Elt Ideal) → (⟨S8192x50, .f32⟩ : BufTy).Contents (Elt Ideal)) (kv_main_cst_24 a)
def kv_main_v198 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v197 a) (kv_main_v196 a)
def kv_main_cst_25 (a : Ins) := (constant (F := Ideal) S_ .f32 0x3F800000#32)
def kv_main_v199 (a : Ins) := (broadcastInDim S8192x50 ![] bcast_S_S8192x50 : (⟨S_, .f32⟩ : BufTy).Contents (Elt Ideal) → (⟨S8192x50, .f32⟩ : BufTy).Contents (Elt Ideal)) (kv_main_cst_25 a)
def kv_main_v200 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v199 a) (kv_main_v198 a)
def kv_main_v201 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v200 a) (kv_main_v180 a)
def kv_main_v202 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v201 a) (kv_main_v185 a)
def kv_main_cst_26 (a : Ins) := (constant (F := Ideal) S_ .f32 0x3E4CCCCD#32)
def kv_main_v203 (a : Ins) := (broadcastInDim S8192x50 ![] bcast_S_S8192x50 : (⟨S_, .f32⟩ : BufTy).Contents (Elt Ideal) → (⟨S8192x50, .f32⟩ : BufTy).Contents (Elt Ideal)) (kv_main_cst_26 a)
def kv_main_v204 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v203 a) (kv_main_v82 a)
def kv_main_cst_27 (a : Ins) := (constant (F := Ideal) S_ .f32 0x3F4CCCCD#32)
def kv_main_v205 (a : Ins) := (broadcastInDim S8192x50 ![] bcast_S_S8192x50 : (⟨S_, .f32⟩ : BufTy).Contents (Elt Ideal) → (⟨S8192x50, .f32⟩ : BufTy).Contents (Elt Ideal)) (kv_main_cst_27 a)
def kv_main_v206 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v205 a) (kv_main_v149 a)
def kv_main_v207 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v204 a) (kv_main_v206 a)
def kv_main_v208 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v202 a) (kv_main_v207 a)
def kv_main_v209 (a : Ins) := ((extractStridedSlice S1x100x50 ![5, 0, 0] · slices_S12x100x50_S1x100x50_5_0_0) : (⟨S12x100x50, .f32⟩ : BufTy).Contents (Elt Ideal) → (⟨S1x100x50, .f32⟩ : BufTy).Contents (Elt Ideal)) a.x5
def kv_main_v210 (a : Ins) := shapeCast S100x50 (kv_main_v209 a) shapeCasts_S1x100x50_S100x50
def kv_main_v211 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v208 a) (kv_main_v210 a)
def kv_main_v212 (a : Ins) := ((extractStridedSlice S1x50 ![5, 0] · slices_S12x50_S1x50_5_0) : (⟨S12x50, .f32⟩ : BufTy).Contents (Elt Ideal) → (⟨S1x50, .f32⟩ : BufTy).Contents (Elt Ideal)) a.x6
def kv_main_v213 (a : Ins) := shapeCast S50 (kv_main_v212 a) shapeCasts_S1x50_S50
def kv_main_v214 (a : Ins) := (broadcastInDim S1x50 ![1] bcast_S50_S1x50_1 : (⟨S50, .f32⟩ : BufTy).Contents (Elt Ideal) → (⟨S1x50, .f32⟩ : BufTy).Contents (Elt Ideal)) (kv_main_v213 a)
def kv_main_v215 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v214 a)
def kv_main_v216 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v211 a) (kv_main_v215 a)
def kv_main_v217 (a : Ins) := (Host.negf (F := Ideal) (φ := .f32) : (⟨S8192x50, .f32⟩ : BufTy).Contents (Elt Ideal) → (⟨S8192x50, .f32⟩ : BufTy).Contents (Elt Ideal)) (kv_main_v216 a)
def kv_main_v218 (a : Ins) := (Host.exp (F := Ideal) (φ := .f32) : (⟨S8192x50, .f32⟩ : BufTy).Contents (Elt Ideal) → (⟨S8192x50, .f32⟩ : BufTy).Contents (Elt Ideal)) (kv_main_v217 a)
def kv_main_cst_28 (a : Ins) := (constant (F := Ideal) S_ .f32 0x3F800000#32)
def kv_main_v219 (a : Ins) := (broadcastInDim S8192x50 ![] bcast_S_S8192x50 : (⟨S_, .f32⟩ : BufTy).Contents (Elt Ideal) → (⟨S8192x50, .f32⟩ : BufTy).Contents (Elt Ideal)) (kv_main_cst_28 a)
def kv_main_v220 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v219 a) (kv_main_v218 a)
def kv_main_cst_29 (a : Ins) := (constant (F := Ideal) S_ .f32 0x3F800000#32)
def kv_main_v221 (a : Ins) := (broadcastInDim S8192x50 ![] bcast_S_S8192x50 : (⟨S_, .f32⟩ : BufTy).Contents (Elt Ideal) → (⟨S8192x50, .f32⟩ : BufTy).Contents (Elt Ideal)) (kv_main_cst_29 a)
def kv_main_v222 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v221 a) (kv_main_v220 a)
def kv_main_v223 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v222 a) (kv_main_v202 a)
def kv_main_v224 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v223 a) (kv_main_v207 a)
def kv_main_cst_30 (a : Ins) := (constant (F := Ideal) S_ .f32 0x3E4CCCCD#32)
def kv_main_v225 (a : Ins) := (broadcastInDim S8192x50 ![] bcast_S_S8192x50 : (⟨S_, .f32⟩ : BufTy).Contents (Elt Ideal) → (⟨S8192x50, .f32⟩ : BufTy).Contents (Elt Ideal)) (kv_main_cst_30 a)
def kv_main_v226 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v225 a) (kv_main_v16 a)
def kv_main_cst_31 (a : Ins) := (constant (F := Ideal) S_ .f32 0x3F4CCCCD#32)
def kv_main_v227 (a : Ins) := (broadcastInDim S8192x50 ![] bcast_S_S8192x50 : (⟨S_, .f32⟩ : BufTy).Contents (Elt Ideal) → (⟨S8192x50, .f32⟩ : BufTy).Contents (Elt Ideal)) (kv_main_cst_31 a)
def kv_main_v228 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v227 a) (kv_main_v150 a)
def kv_main_v229 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v226 a) (kv_main_v228 a)
def kv_main_cst_32 (a : Ins) := (constant (F := Ideal) S_ .f32 0x3E4CCCCD#32)
def kv_main_v230 (a : Ins) := (broadcastInDim S8192x50 ![] bcast_S_S8192x50 : (⟨S_, .f32⟩ : BufTy).Contents (Elt Ideal) → (⟨S8192x50, .f32⟩ : BufTy).Contents (Elt Ideal)) (kv_main_cst_32 a)
def kv_main_v231 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v230 a) (kv_main_v107 a)
def kv_main_cst_33 (a : Ins) := (constant (F := Ideal) S_ .f32 0x3F4CCCCD#32)
def kv_main_v232 (a : Ins) := (broadcastInDim S8192x50 ![] bcast_S_S8192x50 : (⟨S_, .f32⟩ : BufTy).Contents (Elt Ideal) → (⟨S8192x50, .f32⟩ : BufTy).Contents (Elt Ideal)) (kv_main_cst_33 a)
def kv_main_v233 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v232 a) (kv_main_v151 a)
def kv_main_v234 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v231 a) (kv_main_v233 a)
def kv_main_v235 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v229 a) (kv_main_v234 a)
def kv_main_v236 (a : Ins) := ((extractStridedSlice S1x100x50 ![6, 0, 0] · slices_S12x100x50_S1x100x50_6_0_0) : (⟨S12x100x50, .f32⟩ : BufTy).Contents (Elt Ideal) → (⟨S1x100x50, .f32⟩ : BufTy).Contents (Elt Ideal)) a.x5
def kv_main_v237 (a : Ins) := shapeCast S100x50 (kv_main_v236 a) shapeCasts_S1x100x50_S100x50
def kv_main_v238 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v235 a) (kv_main_v237 a)
def kv_main_v239 (a : Ins) := ((extractStridedSlice S1x50 ![6, 0] · slices_S12x50_S1x50_6_0) : (⟨S12x50, .f32⟩ : BufTy).Contents (Elt Ideal) → (⟨S1x50, .f32⟩ : BufTy).Contents (Elt Ideal)) a.x6
def kv_main_v240 (a : Ins) := shapeCast S50 (kv_main_v239 a) shapeCasts_S1x50_S50
def kv_main_v241 (a : Ins) := (broadcastInDim S1x50 ![1] bcast_S50_S1x50_1 : (⟨S50, .f32⟩ : BufTy).Contents (Elt Ideal) → (⟨S1x50, .f32⟩ : BufTy).Contents (Elt Ideal)) (kv_main_v240 a)
def kv_main_v242 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v241 a)
def kv_main_v243 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v238 a) (kv_main_v242 a)
def kv_main_v244 (a : Ins) := (Host.negf (F := Ideal) (φ := .f32) : (⟨S8192x50, .f32⟩ : BufTy).Contents (Elt Ideal) → (⟨S8192x50, .f32⟩ : BufTy).Contents (Elt Ideal)) (kv_main_v243 a)
def kv_main_v245 (a : Ins) := (Host.exp (F := Ideal) (φ := .f32) : (⟨S8192x50, .f32⟩ : BufTy).Contents (Elt Ideal) → (⟨S8192x50, .f32⟩ : BufTy).Contents (Elt Ideal)) (kv_main_v244 a)
def kv_main_cst_34 (a : Ins) := (constant (F := Ideal) S_ .f32 0x3F800000#32)
def kv_main_v246 (a : Ins) := (broadcastInDim S8192x50 ![] bcast_S_S8192x50 : (⟨S_, .f32⟩ : BufTy).Contents (Elt Ideal) → (⟨S8192x50, .f32⟩ : BufTy).Contents (Elt Ideal)) (kv_main_cst_34 a)
def kv_main_v247 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v246 a) (kv_main_v245 a)
def kv_main_cst_35 (a : Ins) := (constant (F := Ideal) S_ .f32 0x3F800000#32)
def kv_main_v248 (a : Ins) := (broadcastInDim S8192x50 ![] bcast_S_S8192x50 : (⟨S_, .f32⟩ : BufTy).Contents (Elt Ideal) → (⟨S8192x50, .f32⟩ : BufTy).Contents (Elt Ideal)) (kv_main_cst_35 a)
def kv_main_v249 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v248 a) (kv_main_v247 a)
def kv_main_v250 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v249 a) (kv_main_v229 a)
def kv_main_v251 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v250 a) (kv_main_v234 a)
def kv_main_cst_36 (a : Ins) := (constant (F := Ideal) S_ .f32 0x3E4CCCCD#32)
def kv_main_v252 (a : Ins) := (broadcastInDim S8192x50 ![] bcast_S_S8192x50 : (⟨S_, .f32⟩ : BufTy).Contents (Elt Ideal) → (⟨S8192x50, .f32⟩ : BufTy).Contents (Elt Ideal)) (kv_main_cst_36 a)
def kv_main_v253 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v252 a) (kv_main_v124 a)
def kv_main_cst_37 (a : Ins) := (constant (F := Ideal) S_ .f32 0x3F4CCCCD#32)
def kv_main_v254 (a : Ins) := (broadcastInDim S8192x50 ![] bcast_S_S8192x50 : (⟨S_, .f32⟩ : BufTy).Contents (Elt Ideal) → (⟨S8192x50, .f32⟩ : BufTy).Contents (Elt Ideal)) (kv_main_cst_37 a)
def kv_main_v255 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v254 a) (kv_main_v152 a)
def kv_main_v256 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v253 a) (kv_main_v255 a)
def kv_main_v257 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v251 a) (kv_main_v256 a)
def kv_main_v258 (a : Ins) := ((extractStridedSlice S1x100x50 ![7, 0, 0] · slices_S12x100x50_S1x100x50_7_0_0) : (⟨S12x100x50, .f32⟩ : BufTy).Contents (Elt Ideal) → (⟨S1x100x50, .f32⟩ : BufTy).Contents (Elt Ideal)) a.x5
def kv_main_v259 (a : Ins) := shapeCast S100x50 (kv_main_v258 a) shapeCasts_S1x100x50_S100x50
def kv_main_v260 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v257 a) (kv_main_v259 a)
def kv_main_v261 (a : Ins) := ((extractStridedSlice S1x50 ![7, 0] · slices_S12x50_S1x50_7_0) : (⟨S12x50, .f32⟩ : BufTy).Contents (Elt Ideal) → (⟨S1x50, .f32⟩ : BufTy).Contents (Elt Ideal)) a.x6
def kv_main_v262 (a : Ins) := shapeCast S50 (kv_main_v261 a) shapeCasts_S1x50_S50
def kv_main_v263 (a : Ins) := (broadcastInDim S1x50 ![1] bcast_S50_S1x50_1 : (⟨S50, .f32⟩ : BufTy).Contents (Elt Ideal) → (⟨S1x50, .f32⟩ : BufTy).Contents (Elt Ideal)) (kv_main_v262 a)
def kv_main_v264 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v263 a)
def kv_main_v265 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v260 a) (kv_main_v264 a)
def kv_main_v266 (a : Ins) := (Host.negf (F := Ideal) (φ := .f32) : (⟨S8192x50, .f32⟩ : BufTy).Contents (Elt Ideal) → (⟨S8192x50, .f32⟩ : BufTy).Contents (Elt Ideal)) (kv_main_v265 a)
def kv_main_v267 (a : Ins) := (Host.exp (F := Ideal) (φ := .f32) : (⟨S8192x50, .f32⟩ : BufTy).Contents (Elt Ideal) → (⟨S8192x50, .f32⟩ : BufTy).Contents (Elt Ideal)) (kv_main_v266 a)
def kv_main_cst_38 (a : Ins) := (constant (F := Ideal) S_ .f32 0x3F800000#32)
def kv_main_v268 (a : Ins) := (broadcastInDim S8192x50 ![] bcast_S_S8192x50 : (⟨S_, .f32⟩ : BufTy).Contents (Elt Ideal) → (⟨S8192x50, .f32⟩ : BufTy).Contents (Elt Ideal)) (kv_main_cst_38 a)
def kv_main_v269 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v268 a) (kv_main_v267 a)
def kv_main_cst_39 (a : Ins) := (constant (F := Ideal) S_ .f32 0x3F800000#32)
def kv_main_v270 (a : Ins) := (broadcastInDim S8192x50 ![] bcast_S_S8192x50 : (⟨S_, .f32⟩ : BufTy).Contents (Elt Ideal) → (⟨S8192x50, .f32⟩ : BufTy).Contents (Elt Ideal)) (kv_main_cst_39 a)
def kv_main_v271 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v270 a) (kv_main_v269 a)
def kv_main_v272 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v271 a) (kv_main_v251 a)
def kv_main_v273 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v272 a) (kv_main_v256 a)
def kv_main_cst_40 (a : Ins) := (constant (F := Ideal) S_ .f32 0x3E4CCCCD#32)
def kv_main_v274 (a : Ins) := (broadcastInDim S8192x50 ![] bcast_S_S8192x50 : (⟨S_, .f32⟩ : BufTy).Contents (Elt Ideal) → (⟨S8192x50, .f32⟩ : BufTy).Contents (Elt Ideal)) (kv_main_cst_40 a)
def kv_main_v275 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v274 a) (kv_main_v141 a)
def kv_main_cst_41 (a : Ins) := (constant (F := Ideal) S_ .f32 0x3F4CCCCD#32)
def kv_main_v276 (a : Ins) := (broadcastInDim S8192x50 ![] bcast_S_S8192x50 : (⟨S_, .f32⟩ : BufTy).Contents (Elt Ideal) → (⟨S8192x50, .f32⟩ : BufTy).Contents (Elt Ideal)) (kv_main_cst_41 a)
def kv_main_v277 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v276 a) (kv_main_v153 a)
def kv_main_v278 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v275 a) (kv_main_v277 a)
def kv_main_v279 (a : Ins) := ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (kv_main_v273 a) (kv_main_v278 a)
def kv_main_v280 (a : Ins) := ((extractStridedSlice S1x100x50 ![8, 0, 0] · slices_S12x100x50_S1x100x50_8_0_0) : (⟨S12x100x50, .f32⟩ : BufTy).Contents (Elt Ideal) → (⟨S1x100x50, .f32⟩ : BufTy).Contents (Elt Ideal)) a.x5
def kv_main_v281 (a : Ins) := shapeCast S100x50 (kv_main_v280 a) shapeCasts_S1x100x50_S100x50
def kv_main_v282 (a : Ins) := ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (kv_main_v279 a) (kv_main_v281 a)
def kv_main_v283 (a : Ins) := ((extractStridedSlice S1x50 ![8, 0] · slices_S12x50_S1x50_8_0) : (⟨S12x50, .f32⟩ : BufTy).Contents (Elt Ideal) → (⟨S1x50, .f32⟩ : BufTy).Contents (Elt Ideal)) a.x6
def kv_main_v284 (a : Ins) := shapeCast S50 (kv_main_v283 a) shapeCasts_S1x50_S50
def kv_main_v285 (a : Ins) := (broadcastInDim S1x50 ![1] bcast_S50_S1x50_1 : (⟨S50, .f32⟩ : BufTy).Contents (Elt Ideal) → (⟨S1x50, .f32⟩ : BufTy).Contents (Elt Ideal)) (kv_main_v284 a)
def kv_main_v286 (a : Ins) := (broadcastInDim S8192x50 ![0, 1] bcast_S1x50_S8192x50_0_1 : (⟨S1x50, .f32⟩ : BufTy).Contents (Elt Ideal) → (⟨S8192x50, .f32⟩ : BufTy).Contents (Elt Ideal)) (kv_main_v285 a)
def kv_main_v287 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v282 a) (kv_main_v286 a)
def kv_main_v288 (a : Ins) := (Host.negf (F := Ideal) (φ := .f32) : (⟨S8192x50, .f32⟩ : BufTy).Contents (Elt Ideal) → (⟨S8192x50, .f32⟩ : BufTy).Contents (Elt Ideal)) (kv_main_v287 a)
def kv_main_v289 (a : Ins) := (Host.exp (F := Ideal) (φ := .f32) : (⟨S8192x50, .f32⟩ : BufTy).Contents (Elt Ideal) → (⟨S8192x50, .f32⟩ : BufTy).Contents (Elt Ideal)) (kv_main_v288 a)
def kv_main_cst_42 (a : Ins) := (constant (F := Ideal) S_ .f32 0x3F800000#32)
def kv_main_v290 (a : Ins) := (broadcastInDim S8192x50 ![] bcast_S_S8192x50 : (⟨S_, .f32⟩ : BufTy).Contents (Elt Ideal) → (⟨S8192x50, .f32⟩ : BufTy).Contents (Elt Ideal)) (kv_main_cst_42 a)
def kv_main_v291 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v290 a) (kv_main_v289 a)
def kv_main_cst_43 (a : Ins) := (constant (F := Ideal) S_ .f32 0x3F800000#32)
def kv_main_v292 (a : Ins) := (broadcastInDim S8192x50 ![] bcast_S_S8192x50 : (⟨S_, .f32⟩ : BufTy).Contents (Elt Ideal) → (⟨S8192x50, .f32⟩ : BufTy).Contents (Elt Ideal)) (kv_main_cst_43 a)
def kv_main_v293 (a : Ins) := (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v292 a) (kv_main_v291 a)
def kv_main_v294 (a : Ins) := (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v293 a) (kv_main_v273 a)
def kv_main_v295 (a : Ins) := (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (kv_main_v294 a) (kv_main_v278 a)
def kv_main_v296 (a : Ins) := concatenate S8192x400 1 [⟨S8192x50, (kv_main_v158 a)⟩, ⟨S8192x50, (kv_main_v229 a)⟩, ⟨S8192x50, (kv_main_v180 a)⟩, ⟨S8192x50, (kv_main_v251 a)⟩, ⟨S8192x50, (kv_main_v202 a)⟩, ⟨S8192x50, (kv_main_v273 a)⟩, ⟨S8192x50, (kv_main_v224 a)⟩, ⟨S8192x50, (kv_main_v295 a)⟩] concatenates_S8192x50_S8192x50_S8192x50_S8192x50_S8192x50_S8192x50_S8192x50_S8192x50_S8192x400_d1
def kv_main_v297 (a : Ins) := ((fun l r => Host.dotGeneral (F := Ideal) (φ₁ := .f32) (φ₂ := .f32) dot_S8192x400_S400x300_S8192x300_1_0_0_1_n_n none l r) : (⟨S8192x400, .f32⟩ : BufTy).Contents (Elt Ideal) → (⟨S400x300, .f32⟩ : BufTy).Contents (Elt Ideal) → (⟨S8192x300, .f32⟩ : BufTy).Contents (Elt Ideal)) (kv_main_v296 a) a.x7
def kv_main_v298 (a : Ins) := (broadcastInDim S1x300 ![1] bcast_S300_S1x300_1 : (⟨S300, .f32⟩ : BufTy).Contents (Elt Ideal) → (⟨S1x300, .f32⟩ : BufTy).Contents (Elt Ideal)) a.x8
def kv_main_v299 (a : Ins) := (broadcastInDim S8192x300 ![0, 1] bcast_S1x300_S8192x300_0_1 : (⟨S1x300, .f32⟩ : BufTy).Contents (Elt Ideal) → (⟨S8192x300, .f32⟩ : BufTy).Contents (Elt Ideal)) (kv_main_v298 a)
def kv_main_v300 (a : Ins) := (addf (F := Ideal) (φ := .f32) : (⟨S8192x300, .f32⟩ : BufTy).Contents (Elt Ideal) → (⟨S8192x300, .f32⟩ : BufTy).Contents (Elt Ideal) → (⟨S8192x300, .f32⟩ : BufTy).Contents (Elt Ideal)) (kv_main_v297 a) (kv_main_v299 a)

end Cert.KernelIdeal.Hand

end
-- ==== Proof.Ideal.HostRunDefs.lean ====
/-
  The kernel program's run, read as values: at each segment boundary every buffer a later segment reads holds its
  `kv_` value of the nine argument arrays as launched.  A buffer is carried from boundary to boundary unchanged (no host
  stretch rewrites it; a region keeps every buffer but its output); a host stretch's results are its operations applied
  to the values it starts from; a region's output array is `tileOut` of the four arrays it reads.
-/
import proofs.«174668_j26645977104432_2_alg».proof.Proof.Ideal.Frame
import proofs.«174668_j26645977104432_2_alg».proof.Proof.Ideal.Reg0.Array
import proofs.«174668_j26645977104432_2_alg».proof.Proof.Ideal.Reg1.Array
import proofs.«174668_j26645977104432_2_alg».proof.Proof.Ideal.Reg2.Array
import proofs.«174668_j26645977104432_2_alg».proof.Proof.Ideal.Reg3.Array
import proofs.«174668_j26645977104432_2_alg».proof.Proof.Ideal.HostVals
import Idealize.ShloMosaic.Lib.StableHlo.Run

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

/-- The nine argument arrays of core `c` at launch. -/
def ins (c : Dev nD) : Ins :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8)⟩

/-- The contents after two lines of host operations run one after the other. -/
theorem after_append' {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-! ## The two long host stretches, in pieces -/

section
variable {F : FTy → Type} [FloatOps F]

/-- 25 consecutive host operations of the program, in order. -/
abbrev q0 : List (HloOp τ sig (Elt F)) :=
  [ StableHlo.unary main_v14 main_v16 ((extractStridedSlice S8192x50 ![0, 0] · slices_S8192x200_S8192x50_0_0) : (⟨S8192x200, .f32⟩ : BufTy).Contents (Elt F) → (⟨S8192x50, .f32⟩ : BufTy).Contents (Elt F)),
    StableHlo.unary main_v14 main_v17 ((extractStridedSlice S8192x50 ![0, 50] · slices_S8192x200_S8192x50_0_50) : (⟨S8192x200, .f32⟩ : BufTy).Contents (Elt F) → (⟨S8192x50, .f32⟩ : BufTy).Contents (Elt F)),
    StableHlo.unary main_v14 main_v18 ((extractStridedSlice S8192x50 ![0, 100] · slices_S8192x200_S8192x50_0_100) : (⟨S8192x200, .f32⟩ : BufTy).Contents (Elt F) → (⟨S8192x50, .f32⟩ : BufTy).Contents (Elt F)),
    StableHlo.unary main_v14 main_v19 ((extractStridedSlice S8192x50 ![0, 150] · slices_S8192x200_S8192x50_0_150) : (⟨S8192x200, .f32⟩ : BufTy).Contents (Elt F) → (⟨S8192x50, .f32⟩ : BufTy).Contents (Elt F)),
    StableHlo.unary main_v15 main_v20 ((extractStridedSlice S8192x50 ![0, 0] · slices_S8192x200_S8192x50_0_0) : (⟨S8192x200, .f32⟩ : BufTy).Contents (Elt F) → (⟨S8192x50, .f32⟩ : BufTy).Contents (Elt F)),
    StableHlo.unary main_v15 main_v21 ((extractStridedSlice S8192x50 ![0, 50] · slices_S8192x200_S8192x50_0_50) : (⟨S8192x200, .f32⟩ : BufTy).Contents (Elt F) → (⟨S8192x50, .f32⟩ : BufTy).Contents (Elt F)),
    StableHlo.unary main_v15 main_v22 ((extractStridedSlice S8192x50 ![0, 100] · slices_S8192x200_S8192x50_0_100) : (⟨S8192x200, .f32⟩ : BufTy).Contents (Elt F) → (⟨S8192x50, .f32⟩ : BufTy).Contents (Elt F)),
    StableHlo.unary main_v15 main_v23 ((extractStridedSlice S8192x50 ![0, 150] · slices_S8192x200_S8192x50_0_150) : (⟨S8192x200, .f32⟩ : BufTy).Contents (Elt F) → (⟨S8192x50, .f32⟩ : BufTy).Contents (Elt F)),
    StableHlo.binary main_v0 main_v16 main_v24 (addf : (⟨S8192x50, .f32⟩ : BufTy).Contents (Elt F) → (⟨S8192x50, .f32⟩ : BufTy).Contents (Elt F) → (⟨S8192x50, .f32⟩ : BufTy).Contents (Elt F)),
    StableHlo.binary main_v1 main_v17 main_v25 (addf : (⟨S8192x50, .f32⟩ : BufTy).Contents (Elt F) → (⟨S8192x50, .f32⟩ : BufTy).Contents (Elt F) → (⟨S8192x50, .f32⟩ : BufTy).Contents (Elt F)),
    StableHlo.nullary main_cst_0 (constant S_ .f32 0x3E4CCCCD#32),
    StableHlo.unary main_cst_0 main_v26 (broadcastInDim S8192x50 ![] bcast_S_S8192x50 : (⟨S_, .f32⟩ : BufTy).Contents (Elt F) → (⟨S8192x50, .f32⟩ : BufTy).Contents (Elt F)),
    StableHlo.binary main_v26 main_v2 main_v27 (mulf : (⟨S8192x50, .f32⟩ : BufTy).Contents (Elt F) → (⟨S8192x50, .f32⟩ : BufTy).Contents (Elt F) → (⟨S8192x50, .f32⟩ : BufTy).Contents (Elt F)),
    StableHlo.nullary main_cst_1 (constant S_ .f32 0x3F4CCCCD#32),
    StableHlo.unary main_cst_1 main_v28 (broadcastInDim S8192x50 ![] bcast_S_S8192x50 : (⟨S_, .f32⟩ : BufTy).Contents (Elt F) → (⟨S8192x50, .f32⟩ : BufTy).Contents (Elt F)),
    StableHlo.binary main_v28 main_v18 main_v29 (mulf : (⟨S8192x50, .f32⟩ : BufTy).Contents (Elt F) → (⟨S8192x50, .f32⟩ : BufTy).Contents (Elt F) → (⟨S8192x50, .f32⟩ : BufTy).Contents (Elt F)),
    StableHlo.binary main_v27 main_v29 main_v30 (addf : (⟨S8192x50, .f32⟩ : BufTy).Contents (Elt F) → (⟨S8192x50, .f32⟩ : BufTy).Contents (Elt F) → (⟨S8192x50, .f32⟩ : BufTy).Contents (Elt F)),
    StableHlo.binary main_v3 main_v19 main_v31 (addf : (⟨S8192x50, .f32⟩ : BufTy).Contents (Elt F) → (⟨S8192x50, .f32⟩ : BufTy).Contents (Elt F) → (⟨S8192x50, .f32⟩ : BufTy).Contents (Elt F)),
    StableHlo.binary main_v20 main_v21 main_v32 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v33 ((extractStridedSlice S1x100x50 ![0, 0, 0] · slices_S12x100x50_S1x100x50_0_0_0) : (⟨S12x100x50, .f32⟩ : BufTy).Contents (Elt F) → (⟨S1x100x50, .f32⟩ : BufTy).Contents (Elt F)),
    StableHlo.reshape main_v33 main_v34 rfl shapeCasts_S1x100x50_S100x50,
    StableHlo.binary main_v32 main_v34 main_v35 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v36 ((extractStridedSlice S1x50 ![0, 0] · slices_S12x50_S1x50_0_0) : (⟨S12x50, .f32⟩ : BufTy).Contents (Elt F) → (⟨S1x50, .f32⟩ : BufTy).Contents (Elt F)),
    StableHlo.reshape main_v36 main_v37 rfl shapeCasts_S1x50_S50,
    StableHlo.unary main_v37 main_v38 (broadcastInDim S1x50 ![1] bcast_S50_S1x50_1 : (⟨S50, .f32⟩ : BufTy).Contents (Elt F) → (⟨S1x50, .f32⟩ : BufTy).Contents (Elt F)) ]
abbrev wq0 : List (Ref sig .tc) := [main_v16, main_v17, main_v18, main_v19, main_v20, main_v21, main_v22, main_v23, main_v24, main_v25, main_cst_0, main_v26, main_v27, main_cst_1, main_v28, main_v29, main_v30, main_v31, main_v32, main_v33, main_v34, main_v35, main_v36, main_v37, main_v38]
set_option maxHeartbeats 40000000 in
theorem q0_writes : (q0 : List (HloOp τ sig (Elt F))).Forall fun op => op.writes ⊆ (wq0.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev q1 : List (HloOp τ sig (Elt F)) :=
  [ StableHlo.unary main_v38 main_v39 (broadcastInDim S8192x50 ![0, 1] bcast_S1x50_S8192x50_0_1 : (⟨S1x50, .f32⟩ : BufTy).Contents (Elt F) → (⟨S8192x50, .f32⟩ : BufTy).Contents (Elt F)),
    StableHlo.binary main_v35 main_v39 main_v40 (addf : (⟨S8192x50, .f32⟩ : BufTy).Contents (Elt F) → (⟨S8192x50, .f32⟩ : BufTy).Contents (Elt F) → (⟨S8192x50, .f32⟩ : BufTy).Contents (Elt F)),
    StableHlo.unary main_v40 main_v41 (Host.negf : (⟨S8192x50, .f32⟩ : BufTy).Contents (Elt F) → (⟨S8192x50, .f32⟩ : BufTy).Contents (Elt F)),
    StableHlo.unary main_v41 main_v42 (Host.exp : (⟨S8192x50, .f32⟩ : BufTy).Contents (Elt F) → (⟨S8192x50, .f32⟩ : BufTy).Contents (Elt F)),
    StableHlo.nullary main_cst_2 (constant S_ .f32 0x3F800000#32),
    StableHlo.unary main_cst_2 main_v43 (broadcastInDim S8192x50 ![] bcast_S_S8192x50 : (⟨S_, .f32⟩ : BufTy).Contents (Elt F) → (⟨S8192x50, .f32⟩ : BufTy).Contents (Elt F)),
    StableHlo.binary main_v43 main_v42 main_v44 (addf : (⟨S8192x50, .f32⟩ : BufTy).Contents (Elt F) → (⟨S8192x50, .f32⟩ : BufTy).Contents (Elt F) → (⟨S8192x50, .f32⟩ : BufTy).Contents (Elt F)),
    StableHlo.nullary main_cst_3 (constant S_ .f32 0x3F800000#32),
    StableHlo.unary main_cst_3 main_v45 (broadcastInDim S8192x50 ![] bcast_S_S8192x50 : (⟨S_, .f32⟩ : BufTy).Contents (Elt F) → (⟨S8192x50, .f32⟩ : BufTy).Contents (Elt F)),
    StableHlo.binary main_v45 main_v44 main_v46 (Host.divf : (⟨S8192x50, .f32⟩ : BufTy).Contents (Elt F) → (⟨S8192x50, .f32⟩ : BufTy).Contents (Elt F) → (⟨S8192x50, .f32⟩ : BufTy).Contents (Elt F)),
    StableHlo.binary main_v46 main_v20 main_v47 (mulf : (⟨S8192x50, .f32⟩ : BufTy).Contents (Elt F) → (⟨S8192x50, .f32⟩ : BufTy).Contents (Elt F) → (⟨S8192x50, .f32⟩ : BufTy).Contents (Elt F)),
    StableHlo.binary main_v21 main_v47 main_v48 (addf : (⟨S8192x50, .f32⟩ : BufTy).Contents (Elt F) → (⟨S8192x50, .f32⟩ : BufTy).Contents (Elt F) → (⟨S8192x50, .f32⟩ : BufTy).Contents (Elt F)),
    StableHlo.binary main_v48 main_v22 main_v49 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v50 ((extractStridedSlice S1x100x50 ![1, 0, 0] · slices_S12x100x50_S1x100x50_1_0_0) : (⟨S12x100x50, .f32⟩ : BufTy).Contents (Elt F) → (⟨S1x100x50, .f32⟩ : BufTy).Contents (Elt F)),
    StableHlo.reshape main_v50 main_v51 rfl shapeCasts_S1x100x50_S100x50,
    StableHlo.binary main_v49 main_v51 main_v52 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v53 ((extractStridedSlice S1x50 ![1, 0] · slices_S12x50_S1x50_1_0) : (⟨S12x50, .f32⟩ : BufTy).Contents (Elt F) → (⟨S1x50, .f32⟩ : BufTy).Contents (Elt F)),
    StableHlo.reshape main_v53 main_v54 rfl shapeCasts_S1x50_S50,
    StableHlo.unary main_v54 main_v55 (broadcastInDim S1x50 ![1] bcast_S50_S1x50_1 : (⟨S50, .f32⟩ : BufTy).Contents (Elt F) → (⟨S1x50, .f32⟩ : BufTy).Contents (Elt F)),
    StableHlo.unary main_v55 main_v56 (broadcastInDim S8192x50 ![0, 1] bcast_S1x50_S8192x50_0_1 : (⟨S1x50, .f32⟩ : BufTy).Contents (Elt F) → (⟨S8192x50, .f32⟩ : BufTy).Contents (Elt F)),
    StableHlo.binary main_v52 main_v56 main_v57 (addf : (⟨S8192x50, .f32⟩ : BufTy).Contents (Elt F) → (⟨S8192x50, .f32⟩ : BufTy).Contents (Elt F) → (⟨S8192x50, .f32⟩ : BufTy).Contents (Elt F)),
    StableHlo.unary main_v57 main_v58 (Host.negf : (⟨S8192x50, .f32⟩ : BufTy).Contents (Elt F) → (⟨S8192x50, .f32⟩ : BufTy).Contents (Elt F)),
    StableHlo.unary main_v58 main_v59 (Host.exp : (⟨S8192x50, .f32⟩ : BufTy).Contents (Elt F) → (⟨S8192x50, .f32⟩ : BufTy).Contents (Elt F)),
    StableHlo.nullary main_cst_4 (constant S_ .f32 0x3F800000#32),
    StableHlo.unary main_cst_4 main_v60 (broadcastInDim S8192x50 ![] bcast_S_S8192x50 : (⟨S_, .f32⟩ : BufTy).Contents (Elt F) → (⟨S8192x50, .f32⟩ : BufTy).Contents (Elt F)) ]
abbrev wq1 : List (Ref sig .tc) := [main_v39, main_v40, main_v41, main_v42, main_cst_2, main_v43, main_v44, main_cst_3, main_v45, main_v46, main_v47, main_v48, main_v49, main_v50, main_v51, main_v52, main_v53, main_v54, main_v55, main_v56, main_v57, main_v58, main_v59, main_cst_4, main_v60]
set_option maxHeartbeats 40000000 in
theorem q1_writes : (q1 : List (HloOp τ sig (Elt F))).Forall fun op => op.writes ⊆ (wq1.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev q2 : List (HloOp τ sig (Elt F)) :=
  [ StableHlo.binary main_v60 main_v59 main_v61 (addf : (⟨S8192x50, .f32⟩ : BufTy).Contents (Elt F) → (⟨S8192x50, .f32⟩ : BufTy).Contents (Elt F) → (⟨S8192x50, .f32⟩ : BufTy).Contents (Elt F)),
    StableHlo.nullary main_cst_5 (constant S_ .f32 0x3F800000#32),
    StableHlo.unary main_cst_5 main_v62 (broadcastInDim S8192x50 ![] bcast_S_S8192x50 : (⟨S_, .f32⟩ : BufTy).Contents (Elt F) → (⟨S8192x50, .f32⟩ : BufTy).Contents (Elt F)),
    StableHlo.binary main_v62 main_v61 main_v63 (Host.divf : (⟨S8192x50, .f32⟩ : BufTy).Contents (Elt F) → (⟨S8192x50, .f32⟩ : BufTy).Contents (Elt F) → (⟨S8192x50, .f32⟩ : BufTy).Contents (Elt F)),
    StableHlo.binary main_v63 main_v48 main_v64 (mulf : (⟨S8192x50, .f32⟩ : BufTy).Contents (Elt F) → (⟨S8192x50, .f32⟩ : BufTy).Contents (Elt F) → (⟨S8192x50, .f32⟩ : BufTy).Contents (Elt F)),
    StableHlo.binary main_v22 main_v64 main_v65 (addf : (⟨S8192x50, .f32⟩ : BufTy).Contents (Elt F) → (⟨S8192x50, .f32⟩ : BufTy).Contents (Elt F) → (⟨S8192x50, .f32⟩ : BufTy).Contents (Elt F)),
    StableHlo.binary main_v65 main_v23 main_v66 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v67 ((extractStridedSlice S1x100x50 ![2, 0, 0] · slices_S12x100x50_S1x100x50_2_0_0) : (⟨S12x100x50, .f32⟩ : BufTy).Contents (Elt F) → (⟨S1x100x50, .f32⟩ : BufTy).Contents (Elt F)),
    StableHlo.reshape main_v67 main_v68 rfl shapeCasts_S1x100x50_S100x50,
    StableHlo.binary main_v66 main_v68 main_v69 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v70 ((extractStridedSlice S1x50 ![2, 0] · slices_S12x50_S1x50_2_0) : (⟨S12x50, .f32⟩ : BufTy).Contents (Elt F) → (⟨S1x50, .f32⟩ : BufTy).Contents (Elt F)),
    StableHlo.reshape main_v70 main_v71 rfl shapeCasts_S1x50_S50,
    StableHlo.unary main_v71 main_v72 (broadcastInDim S1x50 ![1] bcast_S50_S1x50_1 : (⟨S50, .f32⟩ : BufTy).Contents (Elt F) → (⟨S1x50, .f32⟩ : BufTy).Contents (Elt F)),
    StableHlo.unary main_v72 main_v73 (broadcastInDim S8192x50 ![0, 1] bcast_S1x50_S8192x50_0_1 : (⟨S1x50, .f32⟩ : BufTy).Contents (Elt F) → (⟨S8192x50, .f32⟩ : BufTy).Contents (Elt F)),
    StableHlo.binary main_v69 main_v73 main_v74 (addf : (⟨S8192x50, .f32⟩ : BufTy).Contents (Elt F) → (⟨S8192x50, .f32⟩ : BufTy).Contents (Elt F) → (⟨S8192x50, .f32⟩ : BufTy).Contents (Elt F)),
    StableHlo.unary main_v74 main_v75 (Host.negf : (⟨S8192x50, .f32⟩ : BufTy).Contents (Elt F) → (⟨S8192x50, .f32⟩ : BufTy).Contents (Elt F)),
    StableHlo.unary main_v75 main_v76 (Host.exp : (⟨S8192x50, .f32⟩ : BufTy).Contents (Elt F) → (⟨S8192x50, .f32⟩ : BufTy).Contents (Elt F)),
    StableHlo.nullary main_cst_6 (constant S_ .f32 0x3F800000#32),
    StableHlo.unary main_cst_6 main_v77 (broadcastInDim S8192x50 ![] bcast_S_S8192x50 : (⟨S_, .f32⟩ : BufTy).Contents (Elt F) → (⟨S8192x50, .f32⟩ : BufTy).Contents (Elt F)),
    StableHlo.binary main_v77 main_v76 main_v78 (addf : (⟨S8192x50, .f32⟩ : BufTy).Contents (Elt F) → (⟨S8192x50, .f32⟩ : BufTy).Contents (Elt F) → (⟨S8192x50, .f32⟩ : BufTy).Contents (Elt F)),
    StableHlo.nullary main_cst_7 (constant S_ .f32 0x3F800000#32),
    StableHlo.unary main_cst_7 main_v79 (broadcastInDim S8192x50 ![] bcast_S_S8192x50 : (⟨S_, .f32⟩ : BufTy).Contents (Elt F) → (⟨S8192x50, .f32⟩ : BufTy).Contents (Elt F)),
    StableHlo.binary main_v79 main_v78 main_v80 (Host.divf : (⟨S8192x50, .f32⟩ : BufTy).Contents (Elt F) → (⟨S8192x50, .f32⟩ : BufTy).Contents (Elt F) → (⟨S8192x50, .f32⟩ : BufTy).Contents (Elt F)),
    StableHlo.binary main_v80 main_v65 main_v81 (mulf : (⟨S8192x50, .f32⟩ : BufTy).Contents (Elt F) → (⟨S8192x50, .f32⟩ : BufTy).Contents (Elt F) → (⟨S8192x50, .f32⟩ : BufTy).Contents (Elt F)),
    StableHlo.binary main_v23 main_v81 main_v82 (addf : (⟨S8192x50, .f32⟩ : BufTy).Contents (Elt F) → (⟨S8192x50, .f32⟩ : BufTy).Contents (Elt F) → (⟨S8192x50, .f32⟩ : BufTy).Contents (Elt F)) ]
abbrev wq2 : List (Ref sig .tc) := [main_v61, main_cst_5, main_v62, main_v63, main_v64, main_v65, main_v66, main_v67, main_v68, main_v69, main_v70, main_v71, main_v72, main_v73, main_v74, main_v75, main_v76, main_cst_6, main_v77, main_v78, main_cst_7, main_v79, main_v80, main_v81, main_v82]
set_option maxHeartbeats 40000000 in
theorem q2_writes : (q2 : List (HloOp τ sig (Elt F))).Forall fun op => op.writes ⊆ (wq2.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev q3 : List (HloOp τ sig (Elt F)) :=
  [ StableHlo.binary main_v0 main_v20 main_v83 (addf : (⟨S8192x50, .f32⟩ : BufTy).Contents (Elt F) → (⟨S8192x50, .f32⟩ : BufTy).Contents (Elt F) → (⟨S8192x50, .f32⟩ : BufTy).Contents (Elt F)),
    StableHlo.binary main_v1 main_v21 main_v84 (addf : (⟨S8192x50, .f32⟩ : BufTy).Contents (Elt F) → (⟨S8192x50, .f32⟩ : BufTy).Contents (Elt F) → (⟨S8192x50, .f32⟩ : BufTy).Contents (Elt F)),
    StableHlo.nullary main_cst_8 (constant S_ .f32 0x3E4CCCCD#32),
    StableHlo.unary main_cst_8 main_v85 (broadcastInDim S8192x50 ![] bcast_S_S8192x50 : (⟨S_, .f32⟩ : BufTy).Contents (Elt F) → (⟨S8192x50, .f32⟩ : BufTy).Contents (Elt F)),
    StableHlo.binary main_v85 main_v2 main_v86 (mulf : (⟨S8192x50, .f32⟩ : BufTy).Contents (Elt F) → (⟨S8192x50, .f32⟩ : BufTy).Contents (Elt F) → (⟨S8192x50, .f32⟩ : BufTy).Contents (Elt F)),
    StableHlo.nullary main_cst_9 (constant S_ .f32 0x3F4CCCCD#32),
    StableHlo.unary main_cst_9 main_v87 (broadcastInDim S8192x50 ![] bcast_S_S8192x50 : (⟨S_, .f32⟩ : BufTy).Contents (Elt F) → (⟨S8192x50, .f32⟩ : BufTy).Contents (Elt F)),
    StableHlo.binary main_v87 main_v22 main_v88 (mulf : (⟨S8192x50, .f32⟩ : BufTy).Contents (Elt F) → (⟨S8192x50, .f32⟩ : BufTy).Contents (Elt F) → (⟨S8192x50, .f32⟩ : BufTy).Contents (Elt F)),
    StableHlo.binary main_v86 main_v88 main_v89 (addf : (⟨S8192x50, .f32⟩ : BufTy).Contents (Elt F) → (⟨S8192x50, .f32⟩ : BufTy).Contents (Elt F) → (⟨S8192x50, .f32⟩ : BufTy).Contents (Elt F)),
    StableHlo.binary main_v3 main_v23 main_v90 (addf : (⟨S8192x50, .f32⟩ : BufTy).Contents (Elt F) → (⟨S8192x50, .f32⟩ : BufTy).Contents (Elt F) → (⟨S8192x50, .f32⟩ : BufTy).Contents (Elt F)),
    StableHlo.binary main_v16 main_v17 main_v91 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v92 ((extractStridedSlice S1x100x50 ![9, 0, 0] · slices_S12x100x50_S1x100x50_9_0_0) : (⟨S12x100x50, .f32⟩ : BufTy).Contents (Elt F) → (⟨S1x100x50, .f32⟩ : BufTy).Contents (Elt F)),
    StableHlo.reshape main_v92 main_v93 rfl shapeCasts_S1x100x50_S100x50,
    StableHlo.binary main_v91 main_v93 main_v94 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v95 ((extractStridedSlice S1x50 ![9, 0] · slices_S12x50_S1x50_9_0) : (⟨S12x50, .f32⟩ : BufTy).Contents (Elt F) → (⟨S1x50, .f32⟩ : BufTy).Contents (Elt F)),
    StableHlo.reshape main_v95 main_v96 rfl shapeCasts_S1x50_S50,
    StableHlo.unary main_v96 main_v97 (broadcastInDim S1x50 ![1] bcast_S50_S1x50_1 : (⟨S50, .f32⟩ : BufTy).Contents (Elt F) → (⟨S1x50, .f32⟩ : BufTy).Contents (Elt F)),
    StableHlo.unary main_v97 main_v98 (broadcastInDim S8192x50 ![0, 1] bcast_S1x50_S8192x50_0_1 : (⟨S1x50, .f32⟩ : BufTy).Contents (Elt F) → (⟨S8192x50, .f32⟩ : BufTy).Contents (Elt F)),
    StableHlo.binary main_v94 main_v98 main_v99 (addf : (⟨S8192x50, .f32⟩ : BufTy).Contents (Elt F) → (⟨S8192x50, .f32⟩ : BufTy).Contents (Elt F) → (⟨S8192x50, .f32⟩ : BufTy).Contents (Elt F)),
    StableHlo.unary main_v99 main_v100 (Host.negf : (⟨S8192x50, .f32⟩ : BufTy).Contents (Elt F) → (⟨S8192x50, .f32⟩ : BufTy).Contents (Elt F)),
    StableHlo.unary main_v100 main_v101 (Host.exp : (⟨S8192x50, .f32⟩ : BufTy).Contents (Elt F) → (⟨S8192x50, .f32⟩ : BufTy).Contents (Elt F)),
    StableHlo.nullary main_cst_10 (constant S_ .f32 0x3F800000#32),
    StableHlo.unary main_cst_10 main_v102 (broadcastInDim S8192x50 ![] bcast_S_S8192x50 : (⟨S_, .f32⟩ : BufTy).Contents (Elt F) → (⟨S8192x50, .f32⟩ : BufTy).Contents (Elt F)),
    StableHlo.binary main_v102 main_v101 main_v103 (addf : (⟨S8192x50, .f32⟩ : BufTy).Contents (Elt F) → (⟨S8192x50, .f32⟩ : BufTy).Contents (Elt F) → (⟨S8192x50, .f32⟩ : BufTy).Contents (Elt F)),
    StableHlo.nullary main_cst_11 (constant S_ .f32 0x3F800000#32) ]
abbrev wq3 : List (Ref sig .tc) := [main_v83, main_v84, main_cst_8, main_v85, main_v86, main_cst_9, main_v87, main_v88, main_v89, main_v90, main_v91, main_v92, main_v93, main_v94, main_v95, main_v96, main_v97, main_v98, main_v99, main_v100, main_v101, main_cst_10, main_v102, main_v103, main_cst_11]
set_option maxHeartbeats 40000000 in
theorem q3_writes : (q3 : List (HloOp τ sig (Elt F))).Forall fun op => op.writes ⊆ (wq3.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev q4 : List (HloOp τ sig (Elt F)) :=
  [ StableHlo.unary main_cst_11 main_v104 (broadcastInDim S8192x50 ![] bcast_S_S8192x50 : (⟨S_, .f32⟩ : BufTy).Contents (Elt F) → (⟨S8192x50, .f32⟩ : BufTy).Contents (Elt F)),
    StableHlo.binary main_v104 main_v103 main_v105 (Host.divf : (⟨S8192x50, .f32⟩ : BufTy).Contents (Elt F) → (⟨S8192x50, .f32⟩ : BufTy).Contents (Elt F) → (⟨S8192x50, .f32⟩ : BufTy).Contents (Elt F)),
    StableHlo.binary main_v105 main_v16 main_v106 (mulf : (⟨S8192x50, .f32⟩ : BufTy).Contents (Elt F) → (⟨S8192x50, .f32⟩ : BufTy).Contents (Elt F) → (⟨S8192x50, .f32⟩ : BufTy).Contents (Elt F)),
    StableHlo.binary main_v17 main_v106 main_v107 (addf : (⟨S8192x50, .f32⟩ : BufTy).Contents (Elt F) → (⟨S8192x50, .f32⟩ : BufTy).Contents (Elt F) → (⟨S8192x50, .f32⟩ : BufTy).Contents (Elt F)),
    StableHlo.binary main_v107 main_v18 main_v108 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v109 ((extractStridedSlice S1x100x50 ![10, 0, 0] · slices_S12x100x50_S1x100x50_10_0_0) : (⟨S12x100x50, .f32⟩ : BufTy).Contents (Elt F) → (⟨S1x100x50, .f32⟩ : BufTy).Contents (Elt F)),
    StableHlo.reshape main_v109 main_v110 rfl shapeCasts_S1x100x50_S100x50,
    StableHlo.binary main_v108 main_v110 main_v111 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v112 ((extractStridedSlice S1x50 ![10, 0] · slices_S12x50_S1x50_10_0) : (⟨S12x50, .f32⟩ : BufTy).Contents (Elt F) → (⟨S1x50, .f32⟩ : BufTy).Contents (Elt F)),
    StableHlo.reshape main_v112 main_v113 rfl shapeCasts_S1x50_S50,
    StableHlo.unary main_v113 main_v114 (broadcastInDim S1x50 ![1] bcast_S50_S1x50_1 : (⟨S50, .f32⟩ : BufTy).Contents (Elt F) → (⟨S1x50, .f32⟩ : BufTy).Contents (Elt F)),
    StableHlo.unary main_v114 main_v115 (broadcastInDim S8192x50 ![0, 1] bcast_S1x50_S8192x50_0_1 : (⟨S1x50, .f32⟩ : BufTy).Contents (Elt F) → (⟨S8192x50, .f32⟩ : BufTy).Contents (Elt F)),
    StableHlo.binary main_v111 main_v115 main_v116 (addf : (⟨S8192x50, .f32⟩ : BufTy).Contents (Elt F) → (⟨S8192x50, .f32⟩ : BufTy).Contents (Elt F) → (⟨S8192x50, .f32⟩ : BufTy).Contents (Elt F)),
    StableHlo.unary main_v116 main_v117 (Host.negf : (⟨S8192x50, .f32⟩ : BufTy).Contents (Elt F) → (⟨S8192x50, .f32⟩ : BufTy).Contents (Elt F)),
    StableHlo.unary main_v117 main_v118 (Host.exp : (⟨S8192x50, .f32⟩ : BufTy).Contents (Elt F) → (⟨S8192x50, .f32⟩ : BufTy).Contents (Elt F)),
    StableHlo.nullary main_cst_12 (constant S_ .f32 0x3F800000#32),
    StableHlo.unary main_cst_12 main_v119 (broadcastInDim S8192x50 ![] bcast_S_S8192x50 : (⟨S_, .f32⟩ : BufTy).Contents (Elt F) → (⟨S8192x50, .f32⟩ : BufTy).Contents (Elt F)),
    StableHlo.binary main_v119 main_v118 main_v120 (addf : (⟨S8192x50, .f32⟩ : BufTy).Contents (Elt F) → (⟨S8192x50, .f32⟩ : BufTy).Contents (Elt F) → (⟨S8192x50, .f32⟩ : BufTy).Contents (Elt F)),
    StableHlo.nullary main_cst_13 (constant S_ .f32 0x3F800000#32),
    StableHlo.unary main_cst_13 main_v121 (broadcastInDim S8192x50 ![] bcast_S_S8192x50 : (⟨S_, .f32⟩ : BufTy).Contents (Elt F) → (⟨S8192x50, .f32⟩ : BufTy).Contents (Elt F)),
    StableHlo.binary main_v121 main_v120 main_v122 (Host.divf : (⟨S8192x50, .f32⟩ : BufTy).Contents (Elt F) → (⟨S8192x50, .f32⟩ : BufTy).Contents (Elt F) → (⟨S8192x50, .f32⟩ : BufTy).Contents (Elt F)),
    StableHlo.binary main_v122 main_v107 main_v123 (mulf : (⟨S8192x50, .f32⟩ : BufTy).Contents (Elt F) → (⟨S8192x50, .f32⟩ : BufTy).Contents (Elt F) → (⟨S8192x50, .f32⟩ : BufTy).Contents (Elt F)),
    StableHlo.binary main_v18 main_v123 main_v124 (addf : (⟨S8192x50, .f32⟩ : BufTy).Contents (Elt F) → (⟨S8192x50, .f32⟩ : BufTy).Contents (Elt F) → (⟨S8192x50, .f32⟩ : BufTy).Contents (Elt F)),
    StableHlo.binary main_v124 main_v19 main_v125 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v126 ((extractStridedSlice S1x100x50 ![11, 0, 0] · slices_S12x100x50_S1x100x50_11_0_0) : (⟨S12x100x50, .f32⟩ : BufTy).Contents (Elt F) → (⟨S1x100x50, .f32⟩ : BufTy).Contents (Elt F)) ]
abbrev wq4 : List (Ref sig .tc) := [main_v104, main_v105, main_v106, main_v107, main_v108, main_v109, main_v110, main_v111, main_v112, main_v113, main_v114, main_v115, main_v116, main_v117, main_v118, main_cst_12, main_v119, main_v120, main_cst_13, main_v121, main_v122, main_v123, main_v124, main_v125, main_v126]
set_option maxHeartbeats 40000000 in
theorem q4_writes : (q4 : List (HloOp τ sig (Elt F))).Forall fun op => op.writes ⊆ (wq4.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 17 consecutive host operations of the program, in order. -/
abbrev q5 : List (HloOp τ sig (Elt F)) :=
  [ StableHlo.reshape main_v126 main_v127 rfl shapeCasts_S1x100x50_S100x50,
    StableHlo.binary main_v125 main_v127 main_v128 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v129 ((extractStridedSlice S1x50 ![11, 0] · slices_S12x50_S1x50_11_0) : (⟨S12x50, .f32⟩ : BufTy).Contents (Elt F) → (⟨S1x50, .f32⟩ : BufTy).Contents (Elt F)),
    StableHlo.reshape main_v129 main_v130 rfl shapeCasts_S1x50_S50,
    StableHlo.unary main_v130 main_v131 (broadcastInDim S1x50 ![1] bcast_S50_S1x50_1 : (⟨S50, .f32⟩ : BufTy).Contents (Elt F) → (⟨S1x50, .f32⟩ : BufTy).Contents (Elt F)),
    StableHlo.unary main_v131 main_v132 (broadcastInDim S8192x50 ![0, 1] bcast_S1x50_S8192x50_0_1 : (⟨S1x50, .f32⟩ : BufTy).Contents (Elt F) → (⟨S8192x50, .f32⟩ : BufTy).Contents (Elt F)),
    StableHlo.binary main_v128 main_v132 main_v133 (addf : (⟨S8192x50, .f32⟩ : BufTy).Contents (Elt F) → (⟨S8192x50, .f32⟩ : BufTy).Contents (Elt F) → (⟨S8192x50, .f32⟩ : BufTy).Contents (Elt F)),
    StableHlo.unary main_v133 main_v134 (Host.negf : (⟨S8192x50, .f32⟩ : BufTy).Contents (Elt F) → (⟨S8192x50, .f32⟩ : BufTy).Contents (Elt F)),
    StableHlo.unary main_v134 main_v135 (Host.exp : (⟨S8192x50, .f32⟩ : BufTy).Contents (Elt F) → (⟨S8192x50, .f32⟩ : BufTy).Contents (Elt F)),
    StableHlo.nullary main_cst_14 (constant S_ .f32 0x3F800000#32),
    StableHlo.unary main_cst_14 main_v136 (broadcastInDim S8192x50 ![] bcast_S_S8192x50 : (⟨S_, .f32⟩ : BufTy).Contents (Elt F) → (⟨S8192x50, .f32⟩ : BufTy).Contents (Elt F)),
    StableHlo.binary main_v136 main_v135 main_v137 (addf : (⟨S8192x50, .f32⟩ : BufTy).Contents (Elt F) → (⟨S8192x50, .f32⟩ : BufTy).Contents (Elt F) → (⟨S8192x50, .f32⟩ : BufTy).Contents (Elt F)),
    StableHlo.nullary main_cst_15 (constant S_ .f32 0x3F800000#32),
    StableHlo.unary main_cst_15 main_v138 (broadcastInDim S8192x50 ![] bcast_S_S8192x50 : (⟨S_, .f32⟩ : BufTy).Contents (Elt F) → (⟨S8192x50, .f32⟩ : BufTy).Contents (Elt F)),
    StableHlo.binary main_v138 main_v137 main_v139 (Host.divf : (⟨S8192x50, .f32⟩ : BufTy).Contents (Elt F) → (⟨S8192x50, .f32⟩ : BufTy).Contents (Elt F) → (⟨S8192x50, .f32⟩ : BufTy).Contents (Elt F)),
    StableHlo.binary main_v139 main_v124 main_v140 (mulf : (⟨S8192x50, .f32⟩ : BufTy).Contents (Elt F) → (⟨S8192x50, .f32⟩ : BufTy).Contents (Elt F) → (⟨S8192x50, .f32⟩ : BufTy).Contents (Elt F)),
    StableHlo.binary main_v19 main_v140 main_v141 (addf : (⟨S8192x50, .f32⟩ : BufTy).Contents (Elt F) → (⟨S8192x50, .f32⟩ : BufTy).Contents (Elt F) → (⟨S8192x50, .f32⟩ : BufTy).Contents (Elt F)) ]
abbrev wq5 : List (Ref sig .tc) := [main_v127, main_v128, main_v129, main_v130, main_v131, main_v132, main_v133, main_v134, main_v135, main_cst_14, main_v136, main_v137, main_cst_15, main_v138, main_v139, main_v140, main_v141]
set_option maxHeartbeats 40000000 in
theorem q5_writes : (q5 : List (HloOp τ sig (Elt F))).Forall fun op => op.writes ⊆ (wq5.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 2 consecutive host operations of the program, in order. -/
abbrev q6 : List (HloOp τ sig (Elt F)) :=
  [ StableHlo.nary ![main_v24, main_v25, main_v30, main_v31] main_v142 (fun u => concatenate S8192x200 1 [⟨S8192x50, u 0⟩, ⟨S8192x50, u 1⟩, ⟨S8192x50, u 2⟩, ⟨S8192x50, u 3⟩] concatenates_S8192x50_S8192x50_S8192x50_S8192x50_S8192x200_d1),
    StableHlo.nary ![main_v83, main_v84, main_v89, main_v90] main_v143 (fun u => concatenate S8192x200 1 [⟨S8192x50, u 0⟩, ⟨S8192x50, u 1⟩, ⟨S8192x50, u 2⟩, ⟨S8192x50, u 3⟩] concatenates_S8192x50_S8192x50_S8192x50_S8192x50_S8192x200_d1) ]
abbrev wq6 : List (Ref sig .tc) := [main_v142, main_v143]
set_option maxHeartbeats 40000000 in
theorem q6_writes : (q6 : List (HloOp τ sig (Elt F))).Forall fun op => op.writes ⊆ (wq6.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z0 : List (HloOp τ sig (Elt F)) :=
  [ StableHlo.unary main_v144 main_v146 ((extractStridedSlice S8192x50 ![0, 0] · slices_S8192x200_S8192x50_0_0) : (⟨S8192x200, .f32⟩ : BufTy).Contents (Elt F) → (⟨S8192x50, .f32⟩ : BufTy).Contents (Elt F)),
    StableHlo.unary main_v144 main_v147 ((extractStridedSlice S8192x50 ![0, 50] · slices_S8192x200_S8192x50_0_50) : (⟨S8192x200, .f32⟩ : BufTy).Contents (Elt F) → (⟨S8192x50, .f32⟩ : BufTy).Contents (Elt F)),
    StableHlo.unary main_v144 main_v148 ((extractStridedSlice S8192x50 ![0, 100] · slices_S8192x200_S8192x50_0_100) : (⟨S8192x200, .f32⟩ : BufTy).Contents (Elt F) → (⟨S8192x50, .f32⟩ : BufTy).Contents (Elt F)),
    StableHlo.unary main_v144 main_v149 ((extractStridedSlice S8192x50 ![0, 150] · slices_S8192x200_S8192x50_0_150) : (⟨S8192x200, .f32⟩ : BufTy).Contents (Elt F) → (⟨S8192x50, .f32⟩ : BufTy).Contents (Elt F)),
    StableHlo.unary main_v145 main_v150 ((extractStridedSlice S8192x50 ![0, 0] · slices_S8192x200_S8192x50_0_0) : (⟨S8192x200, .f32⟩ : BufTy).Contents (Elt F) → (⟨S8192x50, .f32⟩ : BufTy).Contents (Elt F)),
    StableHlo.unary main_v145 main_v151 ((extractStridedSlice S8192x50 ![0, 50] · slices_S8192x200_S8192x50_0_50) : (⟨S8192x200, .f32⟩ : BufTy).Contents (Elt F) → (⟨S8192x50, .f32⟩ : BufTy).Contents (Elt F)),
    StableHlo.unary main_v145 main_v152 ((extractStridedSlice S8192x50 ![0, 100] · slices_S8192x200_S8192x50_0_100) : (⟨S8192x200, .f32⟩ : BufTy).Contents (Elt F) → (⟨S8192x50, .f32⟩ : BufTy).Contents (Elt F)),
    StableHlo.unary main_v145 main_v153 ((extractStridedSlice S8192x50 ![0, 150] · slices_S8192x200_S8192x50_0_150) : (⟨S8192x200, .f32⟩ : BufTy).Contents (Elt F) → (⟨S8192x50, .f32⟩ : BufTy).Contents (Elt F)),
    StableHlo.nullary main_cst_16 (constant S_ .f32 0x3E4CCCCD#32),
    StableHlo.unary main_cst_16 main_v154 (broadcastInDim S8192x50 ![] bcast_S_S8192x50 : (⟨S_, .f32⟩ : BufTy).Contents (Elt F) → (⟨S8192x50, .f32⟩ : BufTy).Contents (Elt F)),
    StableHlo.binary main_v154 main_v20 main_v155 (mulf : (⟨S8192x50, .f32⟩ : BufTy).Contents (Elt F) → (⟨S8192x50, .f32⟩ : BufTy).Contents (Elt F) → (⟨S8192x50, .f32⟩ : BufTy).Contents (Elt F)),
    StableHlo.nullary main_cst_17 (constant S_ .f32 0x3F4CCCCD#32),
    StableHlo.unary main_cst_17 main_v156 (broadcastInDim S8192x50 ![] bcast_S_S8192x50 : (⟨S_, .f32⟩ : BufTy).Contents (Elt F) → (⟨S8192x50, .f32⟩ : BufTy).Contents (Elt F)),
    StableHlo.binary main_v156 main_v146 main_v157 (mulf : (⟨S8192x50, .f32⟩ : BufTy).Contents (Elt F) → (⟨S8192x50, .f32⟩ : BufTy).Contents (Elt F) → (⟨S8192x50, .f32⟩ : BufTy).Contents (Elt F)),
    StableHlo.binary main_v155 main_v157 main_v158 (addf : (⟨S8192x50, .f32⟩ : BufTy).Contents (Elt F) → (⟨S8192x50, .f32⟩ : BufTy).Contents (Elt F) → (⟨S8192x50, .f32⟩ : BufTy).Contents (Elt F)),
    StableHlo.nullary main_cst_18 (constant S_ .f32 0x3E4CCCCD#32),
    StableHlo.unary main_cst_18 main_v159 (broadcastInDim S8192x50 ![] bcast_S_S8192x50 : (⟨S_, .f32⟩ : BufTy).Contents (Elt F) → (⟨S8192x50, .f32⟩ : BufTy).Contents (Elt F)),
    StableHlo.binary main_v159 main_v48 main_v160 (mulf : (⟨S8192x50, .f32⟩ : BufTy).Contents (Elt F) → (⟨S8192x50, .f32⟩ : BufTy).Contents (Elt F) → (⟨S8192x50, .f32⟩ : BufTy).Contents (Elt F)),
    StableHlo.nullary main_cst_19 (constant S_ .f32 0x3F4CCCCD#32),
    StableHlo.unary main_cst_19 main_v161 (broadcastInDim S8192x50 ![] bcast_S_S8192x50 : (⟨S_, .f32⟩ : BufTy).Contents (Elt F) → (⟨S8192x50, .f32⟩ : BufTy).Contents (Elt F)),
    StableHlo.binary main_v161 main_v147 main_v162 (mulf : (⟨S8192x50, .f32⟩ : BufTy).Contents (Elt F) → (⟨S8192x50, .f32⟩ : BufTy).Contents (Elt F) → (⟨S8192x50, .f32⟩ : BufTy).Contents (Elt F)),
    StableHlo.binary main_v160 main_v162 main_v163 (addf : (⟨S8192x50, .f32⟩ : BufTy).Contents (Elt F) → (⟨S8192x50, .f32⟩ : BufTy).Contents (Elt F) → (⟨S8192x50, .f32⟩ : BufTy).Contents (Elt F)),
    StableHlo.binary main_v158 main_v163 main_v164 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v165 ((extractStridedSlice S1x100x50 ![3, 0, 0] · slices_S12x100x50_S1x100x50_3_0_0) : (⟨S12x100x50, .f32⟩ : BufTy).Contents (Elt F) → (⟨S1x100x50, .f32⟩ : BufTy).Contents (Elt F)),
    StableHlo.reshape main_v165 main_v166 rfl shapeCasts_S1x100x50_S100x50 ]
abbrev wz0 : List (Ref sig .tc) := [main_v146, main_v147, main_v148, main_v149, main_v150, main_v151, main_v152, main_v153, main_cst_16, main_v154, main_v155, main_cst_17, main_v156, main_v157, main_v158, main_cst_18, main_v159, main_v160, main_cst_19, main_v161, main_v162, main_v163, main_v164, main_v165, main_v166]
set_option maxHeartbeats 40000000 in
theorem z0_writes : (z0 : List (HloOp τ sig (Elt F))).Forall fun op => op.writes ⊆ (wz0.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z1 : List (HloOp τ sig (Elt F)) :=
  [ StableHlo.binary main_v164 main_v166 main_v167 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v168 ((extractStridedSlice S1x50 ![3, 0] · slices_S12x50_S1x50_3_0) : (⟨S12x50, .f32⟩ : BufTy).Contents (Elt F) → (⟨S1x50, .f32⟩ : BufTy).Contents (Elt F)),
    StableHlo.reshape main_v168 main_v169 rfl shapeCasts_S1x50_S50,
    StableHlo.unary main_v169 main_v170 (broadcastInDim S1x50 ![1] bcast_S50_S1x50_1 : (⟨S50, .f32⟩ : BufTy).Contents (Elt F) → (⟨S1x50, .f32⟩ : BufTy).Contents (Elt F)),
    StableHlo.unary main_v170 main_v171 (broadcastInDim S8192x50 ![0, 1] bcast_S1x50_S8192x50_0_1 : (⟨S1x50, .f32⟩ : BufTy).Contents (Elt F) → (⟨S8192x50, .f32⟩ : BufTy).Contents (Elt F)),
    StableHlo.binary main_v167 main_v171 main_v172 (addf : (⟨S8192x50, .f32⟩ : BufTy).Contents (Elt F) → (⟨S8192x50, .f32⟩ : BufTy).Contents (Elt F) → (⟨S8192x50, .f32⟩ : BufTy).Contents (Elt F)),
    StableHlo.unary main_v172 main_v173 (Host.negf : (⟨S8192x50, .f32⟩ : BufTy).Contents (Elt F) → (⟨S8192x50, .f32⟩ : BufTy).Contents (Elt F)),
    StableHlo.unary main_v173 main_v174 (Host.exp : (⟨S8192x50, .f32⟩ : BufTy).Contents (Elt F) → (⟨S8192x50, .f32⟩ : BufTy).Contents (Elt F)),
    StableHlo.nullary main_cst_20 (constant S_ .f32 0x3F800000#32),
    StableHlo.unary main_cst_20 main_v175 (broadcastInDim S8192x50 ![] bcast_S_S8192x50 : (⟨S_, .f32⟩ : BufTy).Contents (Elt F) → (⟨S8192x50, .f32⟩ : BufTy).Contents (Elt F)),
    StableHlo.binary main_v175 main_v174 main_v176 (addf : (⟨S8192x50, .f32⟩ : BufTy).Contents (Elt F) → (⟨S8192x50, .f32⟩ : BufTy).Contents (Elt F) → (⟨S8192x50, .f32⟩ : BufTy).Contents (Elt F)),
    StableHlo.nullary main_cst_21 (constant S_ .f32 0x3F800000#32),
    StableHlo.unary main_cst_21 main_v177 (broadcastInDim S8192x50 ![] bcast_S_S8192x50 : (⟨S_, .f32⟩ : BufTy).Contents (Elt F) → (⟨S8192x50, .f32⟩ : BufTy).Contents (Elt F)),
    StableHlo.binary main_v177 main_v176 main_v178 (Host.divf : (⟨S8192x50, .f32⟩ : BufTy).Contents (Elt F) → (⟨S8192x50, .f32⟩ : BufTy).Contents (Elt F) → (⟨S8192x50, .f32⟩ : BufTy).Contents (Elt F)),
    StableHlo.binary main_v178 main_v158 main_v179 (mulf : (⟨S8192x50, .f32⟩ : BufTy).Contents (Elt F) → (⟨S8192x50, .f32⟩ : BufTy).Contents (Elt F) → (⟨S8192x50, .f32⟩ : BufTy).Contents (Elt F)),
    StableHlo.binary main_v179 main_v163 main_v180 (addf : (⟨S8192x50, .f32⟩ : BufTy).Contents (Elt F) → (⟨S8192x50, .f32⟩ : BufTy).Contents (Elt F) → (⟨S8192x50, .f32⟩ : BufTy).Contents (Elt F)),
    StableHlo.nullary main_cst_22 (constant S_ .f32 0x3E4CCCCD#32),
    StableHlo.unary main_cst_22 main_v181 (broadcastInDim S8192x50 ![] bcast_S_S8192x50 : (⟨S_, .f32⟩ : BufTy).Contents (Elt F) → (⟨S8192x50, .f32⟩ : BufTy).Contents (Elt F)),
    StableHlo.binary main_v181 main_v65 main_v182 (mulf : (⟨S8192x50, .f32⟩ : BufTy).Contents (Elt F) → (⟨S8192x50, .f32⟩ : BufTy).Contents (Elt F) → (⟨S8192x50, .f32⟩ : BufTy).Contents (Elt F)),
    StableHlo.nullary main_cst_23 (constant S_ .f32 0x3F4CCCCD#32),
    StableHlo.unary main_cst_23 main_v183 (broadcastInDim S8192x50 ![] bcast_S_S8192x50 : (⟨S_, .f32⟩ : BufTy).Contents (Elt F) → (⟨S8192x50, .f32⟩ : BufTy).Contents (Elt F)),
    StableHlo.binary main_v183 main_v148 main_v184 (mulf : (⟨S8192x50, .f32⟩ : BufTy).Contents (Elt F) → (⟨S8192x50, .f32⟩ : BufTy).Contents (Elt F) → (⟨S8192x50, .f32⟩ : BufTy).Contents (Elt F)),
    StableHlo.binary main_v182 main_v184 main_v185 (addf : (⟨S8192x50, .f32⟩ : BufTy).Contents (Elt F) → (⟨S8192x50, .f32⟩ : BufTy).Contents (Elt F) → (⟨S8192x50, .f32⟩ : BufTy).Contents (Elt F)),
    StableHlo.binary main_v180 main_v185 main_v186 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v187 ((extractStridedSlice S1x100x50 ![4, 0, 0] · slices_S12x100x50_S1x100x50_4_0_0) : (⟨S12x100x50, .f32⟩ : BufTy).Contents (Elt F) → (⟨S1x100x50, .f32⟩ : BufTy).Contents (Elt F)) ]
abbrev wz1 : List (Ref sig .tc) := [main_v167, main_v168, main_v169, main_v170, main_v171, main_v172, main_v173, main_v174, main_cst_20, main_v175, main_v176, main_cst_21, main_v177, main_v178, main_v179, main_v180, main_cst_22, main_v181, main_v182, main_cst_23, main_v183, main_v184, main_v185, main_v186, main_v187]
set_option maxHeartbeats 40000000 in
theorem z1_writes : (z1 : List (HloOp τ sig (Elt F))).Forall fun op => op.writes ⊆ (wz1.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z2 : List (HloOp τ sig (Elt F)) :=
  [ StableHlo.reshape main_v187 main_v188 rfl shapeCasts_S1x100x50_S100x50,
    StableHlo.binary main_v186 main_v188 main_v189 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v190 ((extractStridedSlice S1x50 ![4, 0] · slices_S12x50_S1x50_4_0) : (⟨S12x50, .f32⟩ : BufTy).Contents (Elt F) → (⟨S1x50, .f32⟩ : BufTy).Contents (Elt F)),
    StableHlo.reshape main_v190 main_v191 rfl shapeCasts_S1x50_S50,
    StableHlo.unary main_v191 main_v192 (broadcastInDim S1x50 ![1] bcast_S50_S1x50_1 : (⟨S50, .f32⟩ : BufTy).Contents (Elt F) → (⟨S1x50, .f32⟩ : BufTy).Contents (Elt F)),
    StableHlo.unary main_v192 main_v193 (broadcastInDim S8192x50 ![0, 1] bcast_S1x50_S8192x50_0_1 : (⟨S1x50, .f32⟩ : BufTy).Contents (Elt F) → (⟨S8192x50, .f32⟩ : BufTy).Contents (Elt F)),
    StableHlo.binary main_v189 main_v193 main_v194 (addf : (⟨S8192x50, .f32⟩ : BufTy).Contents (Elt F) → (⟨S8192x50, .f32⟩ : BufTy).Contents (Elt F) → (⟨S8192x50, .f32⟩ : BufTy).Contents (Elt F)),
    StableHlo.unary main_v194 main_v195 (Host.negf : (⟨S8192x50, .f32⟩ : BufTy).Contents (Elt F) → (⟨S8192x50, .f32⟩ : BufTy).Contents (Elt F)),
    StableHlo.unary main_v195 main_v196 (Host.exp : (⟨S8192x50, .f32⟩ : BufTy).Contents (Elt F) → (⟨S8192x50, .f32⟩ : BufTy).Contents (Elt F)),
    StableHlo.nullary main_cst_24 (constant S_ .f32 0x3F800000#32),
    StableHlo.unary main_cst_24 main_v197 (broadcastInDim S8192x50 ![] bcast_S_S8192x50 : (⟨S_, .f32⟩ : BufTy).Contents (Elt F) → (⟨S8192x50, .f32⟩ : BufTy).Contents (Elt F)),
    StableHlo.binary main_v197 main_v196 main_v198 (addf : (⟨S8192x50, .f32⟩ : BufTy).Contents (Elt F) → (⟨S8192x50, .f32⟩ : BufTy).Contents (Elt F) → (⟨S8192x50, .f32⟩ : BufTy).Contents (Elt F)),
    StableHlo.nullary main_cst_25 (constant S_ .f32 0x3F800000#32),
    StableHlo.unary main_cst_25 main_v199 (broadcastInDim S8192x50 ![] bcast_S_S8192x50 : (⟨S_, .f32⟩ : BufTy).Contents (Elt F) → (⟨S8192x50, .f32⟩ : BufTy).Contents (Elt F)),
    StableHlo.binary main_v199 main_v198 main_v200 (Host.divf : (⟨S8192x50, .f32⟩ : BufTy).Contents (Elt F) → (⟨S8192x50, .f32⟩ : BufTy).Contents (Elt F) → (⟨S8192x50, .f32⟩ : BufTy).Contents (Elt F)),
    StableHlo.binary main_v200 main_v180 main_v201 (mulf : (⟨S8192x50, .f32⟩ : BufTy).Contents (Elt F) → (⟨S8192x50, .f32⟩ : BufTy).Contents (Elt F) → (⟨S8192x50, .f32⟩ : BufTy).Contents (Elt F)),
    StableHlo.binary main_v201 main_v185 main_v202 (addf : (⟨S8192x50, .f32⟩ : BufTy).Contents (Elt F) → (⟨S8192x50, .f32⟩ : BufTy).Contents (Elt F) → (⟨S8192x50, .f32⟩ : BufTy).Contents (Elt F)),
    StableHlo.nullary main_cst_26 (constant S_ .f32 0x3E4CCCCD#32),
    StableHlo.unary main_cst_26 main_v203 (broadcastInDim S8192x50 ![] bcast_S_S8192x50 : (⟨S_, .f32⟩ : BufTy).Contents (Elt F) → (⟨S8192x50, .f32⟩ : BufTy).Contents (Elt F)),
    StableHlo.binary main_v203 main_v82 main_v204 (mulf : (⟨S8192x50, .f32⟩ : BufTy).Contents (Elt F) → (⟨S8192x50, .f32⟩ : BufTy).Contents (Elt F) → (⟨S8192x50, .f32⟩ : BufTy).Contents (Elt F)),
    StableHlo.nullary main_cst_27 (constant S_ .f32 0x3F4CCCCD#32),
    StableHlo.unary main_cst_27 main_v205 (broadcastInDim S8192x50 ![] bcast_S_S8192x50 : (⟨S_, .f32⟩ : BufTy).Contents (Elt F) → (⟨S8192x50, .f32⟩ : BufTy).Contents (Elt F)),
    StableHlo.binary main_v205 main_v149 main_v206 (mulf : (⟨S8192x50, .f32⟩ : BufTy).Contents (Elt F) → (⟨S8192x50, .f32⟩ : BufTy).Contents (Elt F) → (⟨S8192x50, .f32⟩ : BufTy).Contents (Elt F)),
    StableHlo.binary main_v204 main_v206 main_v207 (addf : (⟨S8192x50, .f32⟩ : BufTy).Contents (Elt F) → (⟨S8192x50, .f32⟩ : BufTy).Contents (Elt F) → (⟨S8192x50, .f32⟩ : BufTy).Contents (Elt F)),
    StableHlo.binary main_v202 main_v207 main_v208 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)) ]
abbrev wz2 : List (Ref sig .tc) := [main_v188, main_v189, main_v190, main_v191, main_v192, main_v193, main_v194, main_v195, main_v196, main_cst_24, main_v197, main_v198, main_cst_25, main_v199, main_v200, main_v201, main_v202, main_cst_26, main_v203, main_v204, main_cst_27, main_v205, main_v206, main_v207, main_v208]
set_option maxHeartbeats 40000000 in
theorem z2_writes : (z2 : List (HloOp τ sig (Elt F))).Forall fun op => op.writes ⊆ (wz2.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z3 : List (HloOp τ sig (Elt F)) :=
  [ StableHlo.unary main_arg5 main_v209 ((extractStridedSlice S1x100x50 ![5, 0, 0] · slices_S12x100x50_S1x100x50_5_0_0) : (⟨S12x100x50, .f32⟩ : BufTy).Contents (Elt F) → (⟨S1x100x50, .f32⟩ : BufTy).Contents (Elt F)),
    StableHlo.reshape main_v209 main_v210 rfl shapeCasts_S1x100x50_S100x50,
    StableHlo.binary main_v208 main_v210 main_v211 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v212 ((extractStridedSlice S1x50 ![5, 0] · slices_S12x50_S1x50_5_0) : (⟨S12x50, .f32⟩ : BufTy).Contents (Elt F) → (⟨S1x50, .f32⟩ : BufTy).Contents (Elt F)),
    StableHlo.reshape main_v212 main_v213 rfl shapeCasts_S1x50_S50,
    StableHlo.unary main_v213 main_v214 (broadcastInDim S1x50 ![1] bcast_S50_S1x50_1 : (⟨S50, .f32⟩ : BufTy).Contents (Elt F) → (⟨S1x50, .f32⟩ : BufTy).Contents (Elt F)),
    StableHlo.unary main_v214 main_v215 (broadcastInDim S8192x50 ![0, 1] bcast_S1x50_S8192x50_0_1 : (⟨S1x50, .f32⟩ : BufTy).Contents (Elt F) → (⟨S8192x50, .f32⟩ : BufTy).Contents (Elt F)),
    StableHlo.binary main_v211 main_v215 main_v216 (addf : (⟨S8192x50, .f32⟩ : BufTy).Contents (Elt F) → (⟨S8192x50, .f32⟩ : BufTy).Contents (Elt F) → (⟨S8192x50, .f32⟩ : BufTy).Contents (Elt F)),
    StableHlo.unary main_v216 main_v217 (Host.negf : (⟨S8192x50, .f32⟩ : BufTy).Contents (Elt F) → (⟨S8192x50, .f32⟩ : BufTy).Contents (Elt F)),
    StableHlo.unary main_v217 main_v218 (Host.exp : (⟨S8192x50, .f32⟩ : BufTy).Contents (Elt F) → (⟨S8192x50, .f32⟩ : BufTy).Contents (Elt F)),
    StableHlo.nullary main_cst_28 (constant S_ .f32 0x3F800000#32),
    StableHlo.unary main_cst_28 main_v219 (broadcastInDim S8192x50 ![] bcast_S_S8192x50 : (⟨S_, .f32⟩ : BufTy).Contents (Elt F) → (⟨S8192x50, .f32⟩ : BufTy).Contents (Elt F)),
    StableHlo.binary main_v219 main_v218 main_v220 (addf : (⟨S8192x50, .f32⟩ : BufTy).Contents (Elt F) → (⟨S8192x50, .f32⟩ : BufTy).Contents (Elt F) → (⟨S8192x50, .f32⟩ : BufTy).Contents (Elt F)),
    StableHlo.nullary main_cst_29 (constant S_ .f32 0x3F800000#32),
    StableHlo.unary main_cst_29 main_v221 (broadcastInDim S8192x50 ![] bcast_S_S8192x50 : (⟨S_, .f32⟩ : BufTy).Contents (Elt F) → (⟨S8192x50, .f32⟩ : BufTy).Contents (Elt F)),
    StableHlo.binary main_v221 main_v220 main_v222 (Host.divf : (⟨S8192x50, .f32⟩ : BufTy).Contents (Elt F) → (⟨S8192x50, .f32⟩ : BufTy).Contents (Elt F) → (⟨S8192x50, .f32⟩ : BufTy).Contents (Elt F)),
    StableHlo.binary main_v222 main_v202 main_v223 (mulf : (⟨S8192x50, .f32⟩ : BufTy).Contents (Elt F) → (⟨S8192x50, .f32⟩ : BufTy).Contents (Elt F) → (⟨S8192x50, .f32⟩ : BufTy).Contents (Elt F)),
    StableHlo.binary main_v223 main_v207 main_v224 (addf : (⟨S8192x50, .f32⟩ : BufTy).Contents (Elt F) → (⟨S8192x50, .f32⟩ : BufTy).Contents (Elt F) → (⟨S8192x50, .f32⟩ : BufTy).Contents (Elt F)),
    StableHlo.nullary main_cst_30 (constant S_ .f32 0x3E4CCCCD#32),
    StableHlo.unary main_cst_30 main_v225 (broadcastInDim S8192x50 ![] bcast_S_S8192x50 : (⟨S_, .f32⟩ : BufTy).Contents (Elt F) → (⟨S8192x50, .f32⟩ : BufTy).Contents (Elt F)),
    StableHlo.binary main_v225 main_v16 main_v226 (mulf : (⟨S8192x50, .f32⟩ : BufTy).Contents (Elt F) → (⟨S8192x50, .f32⟩ : BufTy).Contents (Elt F) → (⟨S8192x50, .f32⟩ : BufTy).Contents (Elt F)),
    StableHlo.nullary main_cst_31 (constant S_ .f32 0x3F4CCCCD#32),
    StableHlo.unary main_cst_31 main_v227 (broadcastInDim S8192x50 ![] bcast_S_S8192x50 : (⟨S_, .f32⟩ : BufTy).Contents (Elt F) → (⟨S8192x50, .f32⟩ : BufTy).Contents (Elt F)),
    StableHlo.binary main_v227 main_v150 main_v228 (mulf : (⟨S8192x50, .f32⟩ : BufTy).Contents (Elt F) → (⟨S8192x50, .f32⟩ : BufTy).Contents (Elt F) → (⟨S8192x50, .f32⟩ : BufTy).Contents (Elt F)),
    StableHlo.binary main_v226 main_v228 main_v229 (addf : (⟨S8192x50, .f32⟩ : BufTy).Contents (Elt F) → (⟨S8192x50, .f32⟩ : BufTy).Contents (Elt F) → (⟨S8192x50, .f32⟩ : BufTy).Contents (Elt F)) ]
abbrev wz3 : List (Ref sig .tc) := [main_v209, main_v210, main_v211, main_v212, main_v213, main_v214, main_v215, main_v216, main_v217, main_v218, main_cst_28, main_v219, main_v220, main_cst_29, main_v221, main_v222, main_v223, main_v224, main_cst_30, main_v225, main_v226, main_cst_31, main_v227, main_v228, main_v229]
set_option maxHeartbeats 40000000 in
theorem z3_writes : (z3 : List (HloOp τ sig (Elt F))).Forall fun op => op.writes ⊆ (wz3.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z4 : List (HloOp τ sig (Elt F)) :=
  [ StableHlo.nullary main_cst_32 (constant S_ .f32 0x3E4CCCCD#32),
    StableHlo.unary main_cst_32 main_v230 (broadcastInDim S8192x50 ![] bcast_S_S8192x50 : (⟨S_, .f32⟩ : BufTy).Contents (Elt F) → (⟨S8192x50, .f32⟩ : BufTy).Contents (Elt F)),
    StableHlo.binary main_v230 main_v107 main_v231 (mulf : (⟨S8192x50, .f32⟩ : BufTy).Contents (Elt F) → (⟨S8192x50, .f32⟩ : BufTy).Contents (Elt F) → (⟨S8192x50, .f32⟩ : BufTy).Contents (Elt F)),
    StableHlo.nullary main_cst_33 (constant S_ .f32 0x3F4CCCCD#32),
    StableHlo.unary main_cst_33 main_v232 (broadcastInDim S8192x50 ![] bcast_S_S8192x50 : (⟨S_, .f32⟩ : BufTy).Contents (Elt F) → (⟨S8192x50, .f32⟩ : BufTy).Contents (Elt F)),
    StableHlo.binary main_v232 main_v151 main_v233 (mulf : (⟨S8192x50, .f32⟩ : BufTy).Contents (Elt F) → (⟨S8192x50, .f32⟩ : BufTy).Contents (Elt F) → (⟨S8192x50, .f32⟩ : BufTy).Contents (Elt F)),
    StableHlo.binary main_v231 main_v233 main_v234 (addf : (⟨S8192x50, .f32⟩ : BufTy).Contents (Elt F) → (⟨S8192x50, .f32⟩ : BufTy).Contents (Elt F) → (⟨S8192x50, .f32⟩ : BufTy).Contents (Elt F)),
    StableHlo.binary main_v229 main_v234 main_v235 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v236 ((extractStridedSlice S1x100x50 ![6, 0, 0] · slices_S12x100x50_S1x100x50_6_0_0) : (⟨S12x100x50, .f32⟩ : BufTy).Contents (Elt F) → (⟨S1x100x50, .f32⟩ : BufTy).Contents (Elt F)),
    StableHlo.reshape main_v236 main_v237 rfl shapeCasts_S1x100x50_S100x50,
    StableHlo.binary main_v235 main_v237 main_v238 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v239 ((extractStridedSlice S1x50 ![6, 0] · slices_S12x50_S1x50_6_0) : (⟨S12x50, .f32⟩ : BufTy).Contents (Elt F) → (⟨S1x50, .f32⟩ : BufTy).Contents (Elt F)),
    StableHlo.reshape main_v239 main_v240 rfl shapeCasts_S1x50_S50,
    StableHlo.unary main_v240 main_v241 (broadcastInDim S1x50 ![1] bcast_S50_S1x50_1 : (⟨S50, .f32⟩ : BufTy).Contents (Elt F) → (⟨S1x50, .f32⟩ : BufTy).Contents (Elt F)),
    StableHlo.unary main_v241 main_v242 (broadcastInDim S8192x50 ![0, 1] bcast_S1x50_S8192x50_0_1 : (⟨S1x50, .f32⟩ : BufTy).Contents (Elt F) → (⟨S8192x50, .f32⟩ : BufTy).Contents (Elt F)),
    StableHlo.binary main_v238 main_v242 main_v243 (addf : (⟨S8192x50, .f32⟩ : BufTy).Contents (Elt F) → (⟨S8192x50, .f32⟩ : BufTy).Contents (Elt F) → (⟨S8192x50, .f32⟩ : BufTy).Contents (Elt F)),
    StableHlo.unary main_v243 main_v244 (Host.negf : (⟨S8192x50, .f32⟩ : BufTy).Contents (Elt F) → (⟨S8192x50, .f32⟩ : BufTy).Contents (Elt F)),
    StableHlo.unary main_v244 main_v245 (Host.exp : (⟨S8192x50, .f32⟩ : BufTy).Contents (Elt F) → (⟨S8192x50, .f32⟩ : BufTy).Contents (Elt F)),
    StableHlo.nullary main_cst_34 (constant S_ .f32 0x3F800000#32),
    StableHlo.unary main_cst_34 main_v246 (broadcastInDim S8192x50 ![] bcast_S_S8192x50 : (⟨S_, .f32⟩ : BufTy).Contents (Elt F) → (⟨S8192x50, .f32⟩ : BufTy).Contents (Elt F)),
    StableHlo.binary main_v246 main_v245 main_v247 (addf : (⟨S8192x50, .f32⟩ : BufTy).Contents (Elt F) → (⟨S8192x50, .f32⟩ : BufTy).Contents (Elt F) → (⟨S8192x50, .f32⟩ : BufTy).Contents (Elt F)),
    StableHlo.nullary main_cst_35 (constant S_ .f32 0x3F800000#32),
    StableHlo.unary main_cst_35 main_v248 (broadcastInDim S8192x50 ![] bcast_S_S8192x50 : (⟨S_, .f32⟩ : BufTy).Contents (Elt F) → (⟨S8192x50, .f32⟩ : BufTy).Contents (Elt F)),
    StableHlo.binary main_v248 main_v247 main_v249 (Host.divf : (⟨S8192x50, .f32⟩ : BufTy).Contents (Elt F) → (⟨S8192x50, .f32⟩ : BufTy).Contents (Elt F) → (⟨S8192x50, .f32⟩ : BufTy).Contents (Elt F)),
    StableHlo.binary main_v249 main_v229 main_v250 (mulf : (⟨S8192x50, .f32⟩ : BufTy).Contents (Elt F) → (⟨S8192x50, .f32⟩ : BufTy).Contents (Elt F) → (⟨S8192x50, .f32⟩ : BufTy).Contents (Elt F)) ]
abbrev wz4 : List (Ref sig .tc) := [main_cst_32, main_v230, main_v231, main_cst_33, main_v232, main_v233, main_v234, main_v235, main_v236, main_v237, main_v238, main_v239, main_v240, main_v241, main_v242, main_v243, main_v244, main_v245, main_cst_34, main_v246, main_v247, main_cst_35, main_v248, main_v249, main_v250]
set_option maxHeartbeats 40000000 in
theorem z4_writes : (z4 : List (HloOp τ sig (Elt F))).Forall fun op => op.writes ⊆ (wz4.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z5 : List (HloOp τ sig (Elt F)) :=
  [ StableHlo.binary main_v250 main_v234 main_v251 (addf : (⟨S8192x50, .f32⟩ : BufTy).Contents (Elt F) → (⟨S8192x50, .f32⟩ : BufTy).Contents (Elt F) → (⟨S8192x50, .f32⟩ : BufTy).Contents (Elt F)),
    StableHlo.nullary main_cst_36 (constant S_ .f32 0x3E4CCCCD#32),
    StableHlo.unary main_cst_36 main_v252 (broadcastInDim S8192x50 ![] bcast_S_S8192x50 : (⟨S_, .f32⟩ : BufTy).Contents (Elt F) → (⟨S8192x50, .f32⟩ : BufTy).Contents (Elt F)),
    StableHlo.binary main_v252 main_v124 main_v253 (mulf : (⟨S8192x50, .f32⟩ : BufTy).Contents (Elt F) → (⟨S8192x50, .f32⟩ : BufTy).Contents (Elt F) → (⟨S8192x50, .f32⟩ : BufTy).Contents (Elt F)),
    StableHlo.nullary main_cst_37 (constant S_ .f32 0x3F4CCCCD#32),
    StableHlo.unary main_cst_37 main_v254 (broadcastInDim S8192x50 ![] bcast_S_S8192x50 : (⟨S_, .f32⟩ : BufTy).Contents (Elt F) → (⟨S8192x50, .f32⟩ : BufTy).Contents (Elt F)),
    StableHlo.binary main_v254 main_v152 main_v255 (mulf : (⟨S8192x50, .f32⟩ : BufTy).Contents (Elt F) → (⟨S8192x50, .f32⟩ : BufTy).Contents (Elt F) → (⟨S8192x50, .f32⟩ : BufTy).Contents (Elt F)),
    StableHlo.binary main_v253 main_v255 main_v256 (addf : (⟨S8192x50, .f32⟩ : BufTy).Contents (Elt F) → (⟨S8192x50, .f32⟩ : BufTy).Contents (Elt F) → (⟨S8192x50, .f32⟩ : BufTy).Contents (Elt F)),
    StableHlo.binary main_v251 main_v256 main_v257 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v258 ((extractStridedSlice S1x100x50 ![7, 0, 0] · slices_S12x100x50_S1x100x50_7_0_0) : (⟨S12x100x50, .f32⟩ : BufTy).Contents (Elt F) → (⟨S1x100x50, .f32⟩ : BufTy).Contents (Elt F)),
    StableHlo.reshape main_v258 main_v259 rfl shapeCasts_S1x100x50_S100x50,
    StableHlo.binary main_v257 main_v259 main_v260 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v261 ((extractStridedSlice S1x50 ![7, 0] · slices_S12x50_S1x50_7_0) : (⟨S12x50, .f32⟩ : BufTy).Contents (Elt F) → (⟨S1x50, .f32⟩ : BufTy).Contents (Elt F)),
    StableHlo.reshape main_v261 main_v262 rfl shapeCasts_S1x50_S50,
    StableHlo.unary main_v262 main_v263 (broadcastInDim S1x50 ![1] bcast_S50_S1x50_1 : (⟨S50, .f32⟩ : BufTy).Contents (Elt F) → (⟨S1x50, .f32⟩ : BufTy).Contents (Elt F)),
    StableHlo.unary main_v263 main_v264 (broadcastInDim S8192x50 ![0, 1] bcast_S1x50_S8192x50_0_1 : (⟨S1x50, .f32⟩ : BufTy).Contents (Elt F) → (⟨S8192x50, .f32⟩ : BufTy).Contents (Elt F)),
    StableHlo.binary main_v260 main_v264 main_v265 (addf : (⟨S8192x50, .f32⟩ : BufTy).Contents (Elt F) → (⟨S8192x50, .f32⟩ : BufTy).Contents (Elt F) → (⟨S8192x50, .f32⟩ : BufTy).Contents (Elt F)),
    StableHlo.unary main_v265 main_v266 (Host.negf : (⟨S8192x50, .f32⟩ : BufTy).Contents (Elt F) → (⟨S8192x50, .f32⟩ : BufTy).Contents (Elt F)),
    StableHlo.unary main_v266 main_v267 (Host.exp : (⟨S8192x50, .f32⟩ : BufTy).Contents (Elt F) → (⟨S8192x50, .f32⟩ : BufTy).Contents (Elt F)),
    StableHlo.nullary main_cst_38 (constant S_ .f32 0x3F800000#32),
    StableHlo.unary main_cst_38 main_v268 (broadcastInDim S8192x50 ![] bcast_S_S8192x50 : (⟨S_, .f32⟩ : BufTy).Contents (Elt F) → (⟨S8192x50, .f32⟩ : BufTy).Contents (Elt F)),
    StableHlo.binary main_v268 main_v267 main_v269 (addf : (⟨S8192x50, .f32⟩ : BufTy).Contents (Elt F) → (⟨S8192x50, .f32⟩ : BufTy).Contents (Elt F) → (⟨S8192x50, .f32⟩ : BufTy).Contents (Elt F)),
    StableHlo.nullary main_cst_39 (constant S_ .f32 0x3F800000#32),
    StableHlo.unary main_cst_39 main_v270 (broadcastInDim S8192x50 ![] bcast_S_S8192x50 : (⟨S_, .f32⟩ : BufTy).Contents (Elt F) → (⟨S8192x50, .f32⟩ : BufTy).Contents (Elt F)),
    StableHlo.binary main_v270 main_v269 main_v271 (Host.divf : (⟨S8192x50, .f32⟩ : BufTy).Contents (Elt F) → (⟨S8192x50, .f32⟩ : BufTy).Contents (Elt F) → (⟨S8192x50, .f32⟩ : BufTy).Contents (Elt F)) ]
abbrev wz5 : List (Ref sig .tc) := [main_v251, main_cst_36, main_v252, main_v253, main_cst_37, main_v254, main_v255, main_v256, main_v257, main_v258, main_v259, main_v260, main_v261, main_v262, main_v263, main_v264, main_v265, main_v266, main_v267, main_cst_38, main_v268, main_v269, main_cst_39, main_v270, main_v271]
set_option maxHeartbeats 40000000 in
theorem z5_writes : (z5 : List (HloOp τ sig (Elt F))).Forall fun op => op.writes ⊆ (wz5.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 25 consecutive host operations of the program, in order. -/
abbrev z6 : List (HloOp τ sig (Elt F)) :=
  [ StableHlo.binary main_v271 main_v251 main_v272 (mulf : (⟨S8192x50, .f32⟩ : BufTy).Contents (Elt F) → (⟨S8192x50, .f32⟩ : BufTy).Contents (Elt F) → (⟨S8192x50, .f32⟩ : BufTy).Contents (Elt F)),
    StableHlo.binary main_v272 main_v256 main_v273 (addf : (⟨S8192x50, .f32⟩ : BufTy).Contents (Elt F) → (⟨S8192x50, .f32⟩ : BufTy).Contents (Elt F) → (⟨S8192x50, .f32⟩ : BufTy).Contents (Elt F)),
    StableHlo.nullary main_cst_40 (constant S_ .f32 0x3E4CCCCD#32),
    StableHlo.unary main_cst_40 main_v274 (broadcastInDim S8192x50 ![] bcast_S_S8192x50 : (⟨S_, .f32⟩ : BufTy).Contents (Elt F) → (⟨S8192x50, .f32⟩ : BufTy).Contents (Elt F)),
    StableHlo.binary main_v274 main_v141 main_v275 (mulf : (⟨S8192x50, .f32⟩ : BufTy).Contents (Elt F) → (⟨S8192x50, .f32⟩ : BufTy).Contents (Elt F) → (⟨S8192x50, .f32⟩ : BufTy).Contents (Elt F)),
    StableHlo.nullary main_cst_41 (constant S_ .f32 0x3F4CCCCD#32),
    StableHlo.unary main_cst_41 main_v276 (broadcastInDim S8192x50 ![] bcast_S_S8192x50 : (⟨S_, .f32⟩ : BufTy).Contents (Elt F) → (⟨S8192x50, .f32⟩ : BufTy).Contents (Elt F)),
    StableHlo.binary main_v276 main_v153 main_v277 (mulf : (⟨S8192x50, .f32⟩ : BufTy).Contents (Elt F) → (⟨S8192x50, .f32⟩ : BufTy).Contents (Elt F) → (⟨S8192x50, .f32⟩ : BufTy).Contents (Elt F)),
    StableHlo.binary main_v275 main_v277 main_v278 (addf : (⟨S8192x50, .f32⟩ : BufTy).Contents (Elt F) → (⟨S8192x50, .f32⟩ : BufTy).Contents (Elt F) → (⟨S8192x50, .f32⟩ : BufTy).Contents (Elt F)),
    StableHlo.binary main_v273 main_v278 main_v279 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    StableHlo.unary main_arg5 main_v280 ((extractStridedSlice S1x100x50 ![8, 0, 0] · slices_S12x100x50_S1x100x50_8_0_0) : (⟨S12x100x50, .f32⟩ : BufTy).Contents (Elt F) → (⟨S1x100x50, .f32⟩ : BufTy).Contents (Elt F)),
    StableHlo.reshape main_v280 main_v281 rfl shapeCasts_S1x100x50_S100x50,
    StableHlo.binary main_v279 main_v281 main_v282 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    StableHlo.unary main_arg6 main_v283 ((extractStridedSlice S1x50 ![8, 0] · slices_S12x50_S1x50_8_0) : (⟨S12x50, .f32⟩ : BufTy).Contents (Elt F) → (⟨S1x50, .f32⟩ : BufTy).Contents (Elt F)),
    StableHlo.reshape main_v283 main_v284 rfl shapeCasts_S1x50_S50,
    StableHlo.unary main_v284 main_v285 (broadcastInDim S1x50 ![1] bcast_S50_S1x50_1 : (⟨S50, .f32⟩ : BufTy).Contents (Elt F) → (⟨S1x50, .f32⟩ : BufTy).Contents (Elt F)),
    StableHlo.unary main_v285 main_v286 (broadcastInDim S8192x50 ![0, 1] bcast_S1x50_S8192x50_0_1 : (⟨S1x50, .f32⟩ : BufTy).Contents (Elt F) → (⟨S8192x50, .f32⟩ : BufTy).Contents (Elt F)),
    StableHlo.binary main_v282 main_v286 main_v287 (addf : (⟨S8192x50, .f32⟩ : BufTy).Contents (Elt F) → (⟨S8192x50, .f32⟩ : BufTy).Contents (Elt F) → (⟨S8192x50, .f32⟩ : BufTy).Contents (Elt F)),
    StableHlo.unary main_v287 main_v288 (Host.negf : (⟨S8192x50, .f32⟩ : BufTy).Contents (Elt F) → (⟨S8192x50, .f32⟩ : BufTy).Contents (Elt F)),
    StableHlo.unary main_v288 main_v289 (Host.exp : (⟨S8192x50, .f32⟩ : BufTy).Contents (Elt F) → (⟨S8192x50, .f32⟩ : BufTy).Contents (Elt F)),
    StableHlo.nullary main_cst_42 (constant S_ .f32 0x3F800000#32),
    StableHlo.unary main_cst_42 main_v290 (broadcastInDim S8192x50 ![] bcast_S_S8192x50 : (⟨S_, .f32⟩ : BufTy).Contents (Elt F) → (⟨S8192x50, .f32⟩ : BufTy).Contents (Elt F)),
    StableHlo.binary main_v290 main_v289 main_v291 (addf : (⟨S8192x50, .f32⟩ : BufTy).Contents (Elt F) → (⟨S8192x50, .f32⟩ : BufTy).Contents (Elt F) → (⟨S8192x50, .f32⟩ : BufTy).Contents (Elt F)),
    StableHlo.nullary main_cst_43 (constant S_ .f32 0x3F800000#32),
    StableHlo.unary main_cst_43 main_v292 (broadcastInDim S8192x50 ![] bcast_S_S8192x50 : (⟨S_, .f32⟩ : BufTy).Contents (Elt F) → (⟨S8192x50, .f32⟩ : BufTy).Contents (Elt F)) ]
abbrev wz6 : List (Ref sig .tc) := [main_v272, main_v273, main_cst_40, main_v274, main_v275, main_cst_41, main_v276, main_v277, main_v278, main_v279, main_v280, main_v281, main_v282, main_v283, main_v284, main_v285, main_v286, main_v287, main_v288, main_v289, main_cst_42, main_v290, main_v291, main_cst_43, main_v292]
set_option maxHeartbeats 40000000 in
theorem z6_writes : (z6 : List (HloOp τ sig (Elt F))).Forall fun op => op.writes ⊆ (wz6.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 3 consecutive host operations of the program, in order. -/
abbrev z7 : List (HloOp τ sig (Elt F)) :=
  [ StableHlo.binary main_v292 main_v291 main_v293 (Host.divf : (⟨S8192x50, .f32⟩ : BufTy).Contents (Elt F) → (⟨S8192x50, .f32⟩ : BufTy).Contents (Elt F) → (⟨S8192x50, .f32⟩ : BufTy).Contents (Elt F)),
    StableHlo.binary main_v293 main_v273 main_v294 (mulf : (⟨S8192x50, .f32⟩ : BufTy).Contents (Elt F) → (⟨S8192x50, .f32⟩ : BufTy).Contents (Elt F) → (⟨S8192x50, .f32⟩ : BufTy).Contents (Elt F)),
    StableHlo.binary main_v294 main_v278 main_v295 (addf : (⟨S8192x50, .f32⟩ : BufTy).Contents (Elt F) → (⟨S8192x50, .f32⟩ : BufTy).Contents (Elt F) → (⟨S8192x50, .f32⟩ : BufTy).Contents (Elt F)) ]
abbrev wz7 : List (Ref sig .tc) := [main_v293, main_v294, main_v295]
set_option maxHeartbeats 40000000 in
theorem z7_writes : (z7 : List (HloOp τ sig (Elt F))).Forall fun op => op.writes ⊆ (wz7.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-- 5 consecutive host operations of the program, in order. -/
abbrev z8 : List (HloOp τ sig (Elt F)) :=
  [ StableHlo.nary ![main_v158, main_v229, main_v180, main_v251, main_v202, main_v273, main_v224, main_v295] main_v296 (fun u => concatenate S8192x400 1 [⟨S8192x50, u 0⟩, ⟨S8192x50, u 1⟩, ⟨S8192x50, u 2⟩, ⟨S8192x50, u 3⟩, ⟨S8192x50, u 4⟩, ⟨S8192x50, u 5⟩, ⟨S8192x50, u 6⟩, ⟨S8192x50, u 7⟩] concatenates_S8192x50_S8192x50_S8192x50_S8192x50_S8192x50_S8192x50_S8192x50_S8192x50_S8192x400_d1),
    StableHlo.binary main_v296 main_arg7 main_v297 ((fun l r => Host.dotGeneral dot_S8192x400_S400x300_S8192x300_1_0_0_1_n_n none l r) : (⟨S8192x400, .f32⟩ : BufTy).Contents (Elt F) → (⟨S400x300, .f32⟩ : BufTy).Contents (Elt F) → (⟨S8192x300, .f32⟩ : BufTy).Contents (Elt F)),
    StableHlo.unary main_arg8 main_v298 (broadcastInDim S1x300 ![1] bcast_S300_S1x300_1 : (⟨S300, .f32⟩ : BufTy).Contents (Elt F) → (⟨S1x300, .f32⟩ : BufTy).Contents (Elt F)),
    StableHlo.unary main_v298 main_v299 (broadcastInDim S8192x300 ![0, 1] bcast_S1x300_S8192x300_0_1 : (⟨S1x300, .f32⟩ : BufTy).Contents (Elt F) → (⟨S8192x300, .f32⟩ : BufTy).Contents (Elt F)),
    StableHlo.binary main_v297 main_v299 main_v300 (addf : (⟨S8192x300, .f32⟩ : BufTy).Contents (Elt F) → (⟨S8192x300, .f32⟩ : BufTy).Contents (Elt F) → (⟨S8192x300, .f32⟩ : BufTy).Contents (Elt F)) ]
abbrev wz8 : List (Ref sig .tc) := [main_v296, main_v297, main_v298, main_v299, main_v300]
set_option maxHeartbeats 40000000 in
theorem z8_writes : (z8 : List (HloOp τ sig (Elt F))).Forall fun op => op.writes ⊆ (wz8.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxRecDepth 65536 in
set_option maxHeartbeats 40000000 in
theorem hostOps2_split : (hostOps2 : List (HloOp τ sig (Elt F))) = q0 ++ (q1 ++ (q2 ++ (q3 ++ (q4 ++ (q5 ++ (q6)))))) := rfl
set_option maxRecDepth 65536 in
set_option maxHeartbeats 40000000 in
theorem hostOps4_split : (hostOps4 : List (HloOp τ sig (Elt F))) = z0 ++ (z1 ++ (z2 ++ (z3 ++ (z4 ++ (z5 ++ (z6 ++ (z7 ++ (z8)))))))) := rfl

end

/-! ## The contents after each piece -/

def Y1 (c : Dev nD) : Valuation τ sig (Elt Ideal) := StableHlo.after (q0 (F := Ideal)) (W3 m ρ c)
theorem Y1_of (c : Dev nD) (r : Ref sig .tc) (h : r ∉ wq0) : Y1 m ρ c (Proc.devRef .tc r) = W3 m ρ c (Proc.devRef .tc r) :=
  StableHlo.after_of_writes_sub (q0 (F := Ideal)) _ q0_writes h
def Y2 (c : Dev nD) : Valuation τ sig (Elt Ideal) := StableHlo.after (q1 (F := Ideal)) (Y1 m ρ c)
theorem Y2_of (c : Dev nD) (r : Ref sig .tc) (h : r ∉ wq1) : Y2 m ρ c (Proc.devRef .tc r) = Y1 m ρ c (Proc.devRef .tc r) :=
  StableHlo.after_of_writes_sub (q1 (F := Ideal)) _ q1_writes h
def Y3 (c : Dev nD) : Valuation τ sig (Elt Ideal) := StableHlo.after (q2 (F := Ideal)) (Y2 m ρ c)
theorem Y3_of (c : Dev nD) (r : Ref sig .tc) (h : r ∉ wq2) : Y3 m ρ c (Proc.devRef .tc r) = Y2 m ρ c (Proc.devRef .tc r) :=
  StableHlo.after_of_writes_sub (q2 (F := Ideal)) _ q2_writes h
def Y4 (c : Dev nD) : Valuation τ sig (Elt Ideal) := StableHlo.after (q3 (F := Ideal)) (Y3 m ρ c)
theorem Y4_of (c : Dev nD) (r : Ref sig .tc) (h : r ∉ wq3) : Y4 m ρ c (Proc.devRef .tc r) = Y3 m ρ c (Proc.devRef .tc r) :=
  StableHlo.after_of_writes_sub (q3 (F := Ideal)) _ q3_writes h
def Y5 (c : Dev nD) : Valuation τ sig (Elt Ideal) := StableHlo.after (q4 (F := Ideal)) (Y4 m ρ c)
theorem Y5_of (c : Dev nD) (r : Ref sig .tc) (h : r ∉ wq4) : Y5 m ρ c (Proc.devRef .tc r) = Y4 m ρ c (Proc.devRef .tc r) :=
  StableHlo.after_of_writes_sub (q4 (F := Ideal)) _ q4_writes h
def Y6 (c : Dev nD) : Valuation τ sig (Elt Ideal) := StableHlo.after (q5 (F := Ideal)) (Y5 m ρ c)
theorem Y6_of (c : Dev nD) (r : Ref sig .tc) (h : r ∉ wq5) : Y6 m ρ c (Proc.devRef .tc r) = Y5 m ρ c (Proc.devRef .tc r) :=
  StableHlo.after_of_writes_sub (q5 (F := Ideal)) _ q5_writes h
def Y7 (c : Dev nD) : Valuation τ sig (Elt Ideal) := StableHlo.after (q6 (F := Ideal)) (Y6 m ρ c)
theorem Y7_of (c : Dev nD) (r : Ref sig .tc) (h : r ∉ wq6) : Y7 m ρ c (Proc.devRef .tc r) = Y6 m ρ c (Proc.devRef .tc r) :=
  StableHlo.after_of_writes_sub (q6 (F := Ideal)) _ q6_writes h
theorem W4_eq (c : Dev nD) : W4 m ρ c = Y7 m ρ c := by
  show StableHlo.after (hostOps2 (F := Ideal)) (W3 m ρ c) = _
  rw [hostOps2_split]
  simp only [after_append']
  rfl
def Z1 (c : Dev nD) : Valuation τ sig (Elt Ideal) := StableHlo.after (z0 (F := Ideal)) (W6 m ρ c)
theorem Z1_of (c : Dev nD) (r : Ref sig .tc) (h : r ∉ wz0) : Z1 m ρ c (Proc.devRef .tc r) = W6 m ρ c (Proc.devRef .tc r) :=
  StableHlo.after_of_writes_sub (z0 (F := Ideal)) _ z0_writes h
def Z2 (c : Dev nD) : Valuation τ sig (Elt Ideal) := StableHlo.after (z1 (F := Ideal)) (Z1 m ρ c)
theorem Z2_of (c : Dev nD) (r : Ref sig .tc) (h : r ∉ wz1) : Z2 m ρ c (Proc.devRef .tc r) = Z1 m ρ c (Proc.devRef .tc r) :=
  StableHlo.after_of_writes_sub (z1 (F := Ideal)) _ z1_writes h
def Z3 (c : Dev nD) : Valuation τ sig (Elt Ideal) := StableHlo.after (z2 (F := Ideal)) (Z2 m ρ c)
theorem Z3_of (c : Dev nD) (r : Ref sig .tc) (h : r ∉ wz2) : Z3 m ρ c (Proc.devRef .tc r) = Z2 m ρ c (Proc.devRef .tc r) :=
  StableHlo.after_of_writes_sub (z2 (F := Ideal)) _ z2_writes h
def Z4 (c : Dev nD) : Valuation τ sig (Elt Ideal) := StableHlo.after (z3 (F := Ideal)) (Z3 m ρ c)
theorem Z4_of (c : Dev nD) (r : Ref sig .tc) (h : r ∉ wz3) : Z4 m ρ c (Proc.devRef .tc r) = Z3 m ρ c (Proc.devRef .tc r) :=
  StableHlo.after_of_writes_sub (z3 (F := Ideal)) _ z3_writes h
def Z5 (c : Dev nD) : Valuation τ sig (Elt Ideal) := StableHlo.after (z4 (F := Ideal)) (Z4 m ρ c)
theorem Z5_of (c : Dev nD) (r : Ref sig .tc) (h : r ∉ wz4) : Z5 m ρ c (Proc.devRef .tc r) = Z4 m ρ c (Proc.devRef .tc r) :=
  StableHlo.after_of_writes_sub (z4 (F := Ideal)) _ z4_writes h
def Z6 (c : Dev nD) : Valuation τ sig (Elt Ideal) := StableHlo.after (z5 (F := Ideal)) (Z5 m ρ c)
theorem Z6_of (c : Dev nD) (r : Ref sig .tc) (h : r ∉ wz5) : Z6 m ρ c (Proc.devRef .tc r) = Z5 m ρ c (Proc.devRef .tc r) :=
  StableHlo.after_of_writes_sub (z5 (F := Ideal)) _ z5_writes h
def Z7 (c : Dev nD) : Valuation τ sig (Elt Ideal) := StableHlo.after (z6 (F := Ideal)) (Z6 m ρ c)
theorem Z7_of (c : Dev nD) (r : Ref sig .tc) (h : r ∉ wz6) : Z7 m ρ c (Proc.devRef .tc r) = Z6 m ρ c (Proc.devRef .tc r) :=
  StableHlo.after_of_writes_sub (z6 (F := Ideal)) _ z6_writes h
def Z8 (c : Dev nD) : Valuation τ sig (Elt Ideal) := StableHlo.after (z7 (F := Ideal)) (Z7 m ρ c)
theorem Z8_of (c : Dev nD) (r : Ref sig .tc) (h : r ∉ wz7) : Z8 m ρ c (Proc.devRef .tc r) = Z7 m ρ c (Proc.devRef .tc r) :=
  StableHlo.after_of_writes_sub (z7 (F := Ideal)) _ z7_writes h
def Z9 (c : Dev nD) : Valuation τ sig (Elt Ideal) := StableHlo.after (z8 (F := Ideal)) (Z8 m ρ c)
theorem Z9_of (c : Dev nD) (r : Ref sig .tc) (h : r ∉ wz8) : Z9 m ρ c (Proc.devRef .tc r) = Z8 m ρ c (Proc.devRef .tc r) :=
  StableHlo.after_of_writes_sub (z8 (F := Ideal)) _ z8_writes h
theorem W7_eq (c : Dev nD) : W7 m ρ c = Z9 m ρ c := by
  show StableHlo.after (hostOps4 (F := Ideal)) (W6 m ρ c) = _
  rw [hostOps4_split]
  simp only [after_append']
  rfl

end Cert.KernelIdeal.Hand

end
-- ==== Proof.Ideal.HostRunP0.lean ====
/-
  The kernel program's run read as values, continued: the value of every buffer a later segment reads, at every boundary
  (one lemma per buffer and boundary, in dependency order).
-/
import proofs.«174668_j26645977104432_2_alg».proof.Proof.Ideal.HostRunDefs

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_W0_main_arg1 (c : Dev nD) : W0 m ρ c (Proc.devRef .tc main_arg1) = (ins m c).x1 := rfl

theorem bd_W1_main_arg1 (c : Dev nD) : W1 m ρ c (Proc.devRef .tc main_arg1) = (ins m c).x1 :=
  (W1_of m ρ c main_arg1 (by decide)).trans (bd_W0_main_arg1 m ρ c)

theorem bd_W2_main_arg1 (c : Dev nD) : W2 m ρ c (Proc.devRef .tc main_arg1) = (ins m c).x1 :=
  (W2_of_ne m ρ c main_arg1 (by decide)).trans (bd_W1_main_arg1 m ρ c)

theorem bd_W0_main_arg0 (c : Dev nD) : W0 m ρ c (Proc.devRef .tc main_arg0) = (ins m c).x0 := rfl

theorem bd_W1_main_arg0 (c : Dev nD) : W1 m ρ c (Proc.devRef .tc main_arg0) = (ins m c).x0 :=
  (W1_of m ρ c main_arg0 (by decide)).trans (bd_W0_main_arg0 m ρ c)

theorem bd_W2_main_arg0 (c : Dev nD) : W2 m ρ c (Proc.devRef .tc main_arg0) = (ins m c).x0 :=
  (W2_in m ρ c 1 rfl).trans (bd_W1_main_arg0 m ρ c)

theorem bd_W0_main_arg3 (c : Dev nD) : W0 m ρ c (Proc.devRef .tc main_arg3) = (ins m c).x3 := rfl

set_option maxRecDepth 65536 in
set_option maxHeartbeats 4000000 in
theorem bd_W1_main_v13 (c : Dev nD) : W1 m ρ c (Proc.devRef .tc main_v13) = kv_main_v13 (ins m c) := by
  show StableHlo.after (hostOps0 (F := Ideal)) (W0 m ρ c) (Proc.devRef .tc main_v13) = _
  after_results_simp
  show concatenate S200x200 0 [⟨S50x200, (concatenate S50x200 1 [⟨S50x50, (W0 m ρ c (Proc.devRef .tc main_arg3))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩] concatenates_S50x50_S50x50_S50x50_S50x50_S50x200_d1)⟩, ⟨S50x200, (concatenate S50x200 1 [⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, (W0 m ρ c (Proc.devRef .tc main_arg3))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩] concatenates_S50x50_S50x50_S50x50_S50x50_S50x200_d1)⟩, ⟨S50x200, (concatenate S50x200 1 [⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, (W0 m ρ c (Proc.devRef .tc main_arg3))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩] concatenates_S50x50_S50x50_S50x50_S50x50_S50x200_d1)⟩, ⟨S50x200, (concatenate S50x200 1 [⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, ((broadcastInDim S50x50 ![] bcast_S_S50x50 : (⟨S_, .f32⟩ : BufTy).Contents (Elt Ideal) → (⟨S50x50, .f32⟩ : BufTy).Contents (Elt Ideal)) ((constant (F := Ideal) S_ .f32 0x00000000#32)))⟩, ⟨S50x50, (W0 m ρ c (Proc.devRef .tc main_arg3))⟩] concatenates_S50x50_S50x50_S50x50_S50x50_S50x200_d1)⟩] concatenates_S50x200_S50x200_S50x200_S50x200_S200x200_d0 = _
  try rw [bd_W0_main_arg3 m ρ c]
  rfl

theorem bd_W2_main_v13 (c : Dev nD) : W2 m ρ c (Proc.devRef .tc main_v13) = kv_main_v13 (ins m c) :=
  (W2_in m ρ c 2 rfl).trans (bd_W1_main_v13 m ρ c)

theorem bd_W0_main_arg4 (c : Dev nD) : W0 m ρ c (Proc.devRef .tc main_arg4) = (ins m c).x4 := rfl

set_option maxRecDepth 65536 in
set_option maxHeartbeats 4000000 in
theorem bd_W1_main_v7 (c : Dev nD) : W1 m ρ c (Proc.devRef .tc main_v7) = kv_main_v7 (ins m c) := by
  show StableHlo.after (hostOps0 (F := Ideal)) (W0 m ρ c) (Proc.devRef .tc main_v7) = _
  after_results_simp
  show shapeCast S1x200 (shapeCast S200 ((broadcastInDim S4x50 ![0, 1] bcast_S1x50_S4x50_0_1 : (⟨S1x50, .f32⟩ : BufTy).Contents (Elt Ideal) → (⟨S4x50, .f32⟩ : BufTy).Contents (Elt Ideal)) (shapeCast S1x50 (W0 m ρ c (Proc.devRef .tc main_arg4)) shapeCasts_S50_S1x50)) shapeCasts_S4x50_S200) shapeCasts_S200_S1x200 = _
  try rw [bd_W0_main_arg4 m ρ c]
  rfl

theorem bd_W2_main_v7 (c : Dev nD) : W2 m ρ c (Proc.devRef .tc main_v7) = kv_main_v7 (ins m c) :=
  (W2_in m ρ c 3 rfl).trans (bd_W1_main_v7 m ρ c)

theorem bd_W3_main_v15 (c : Dev nD) : W3 m ρ c (Proc.devRef .tc main_v15) = kv_main_v15 (ins m c) := by
  refine (W3_arr m ρ c 4).trans ((final1 (V2 m ρ) c).trans ?_)
  show tileOut (W2 m ρ c (Proc.devRef .tc main_arg1)) (W2 m ρ c (Proc.devRef .tc main_arg0)) (W2 m ρ c (Proc.devRef .tc main_v13)) (W2 m ρ c (Proc.devRef .tc main_v7)) = _
  rw [bd_W2_main_arg1 m ρ c, bd_W2_main_arg0 m ρ c, bd_W2_main_v13 m ρ c, bd_W2_main_v7 m ρ c]
  rfl

set_option maxRecDepth 65536 in
set_option maxHeartbeats 4000000 in
theorem bd_Y1_main_v20 (c : Dev nD) : Y1 m ρ c (Proc.devRef .tc main_v20) = kv_main_v20 (ins m c) := by
  show StableHlo.after (q0 (F := Ideal)) (W3 m ρ c) (Proc.devRef .tc main_v20) = _
  after_results_simp
  show ((extractStridedSlice S8192x50 ![0, 0] · slices_S8192x200_S8192x50_0_0) : (⟨S8192x200, .f32⟩ : BufTy).Contents (Elt Ideal) → (⟨S8192x50, .f32⟩ : BufTy).Contents (Elt Ideal)) (W3 m ρ c (Proc.devRef .tc main_v15)) = _
  try rw [bd_W3_main_v15 m ρ c]
  rfl

theorem bd_Y2_main_v20 (c : Dev nD) : Y2 m ρ c (Proc.devRef .tc main_v20) = kv_main_v20 (ins m c) :=
  (Y2_of m ρ c main_v20 (by decide)).trans (bd_Y1_main_v20 m ρ c)

theorem bd_Y3_main_v20 (c : Dev nD) : Y3 m ρ c (Proc.devRef .tc main_v20) = kv_main_v20 (ins m c) :=
  (Y3_of m ρ c main_v20 (by decide)).trans (bd_Y2_main_v20 m ρ c)

theorem bd_Y4_main_v20 (c : Dev nD) : Y4 m ρ c (Proc.devRef .tc main_v20) = kv_main_v20 (ins m c) :=
  (Y4_of m ρ c main_v20 (by decide)).trans (bd_Y3_main_v20 m ρ c)

theorem bd_Y5_main_v20 (c : Dev nD) : Y5 m ρ c (Proc.devRef .tc main_v20) = kv_main_v20 (ins m c) :=
  (Y5_of m ρ c main_v20 (by decide)).trans (bd_Y4_main_v20 m ρ c)

theorem bd_Y6_main_v20 (c : Dev nD) : Y6 m ρ c (Proc.devRef .tc main_v20) = kv_main_v20 (ins m c) :=
  (Y6_of m ρ c main_v20 (by decide)).trans (bd_Y5_main_v20 m ρ c)

theorem bd_Y7_main_v20 (c : Dev nD) : Y7 m ρ c (Proc.devRef .tc main_v20) = kv_main_v20 (ins m c) :=
  (Y7_of m ρ c main_v20 (by decide)).trans (bd_Y6_main_v20 m ρ c)

theorem bd_W4_main_v20 (c : Dev nD) : W4 m ρ c (Proc.devRef .tc main_v20) = kv_main_v20 (ins m c) :=
  (congrFun (W4_eq m ρ c) _).trans (bd_Y7_main_v20 m ρ c)

theorem bd_W5_main_v20 (c : Dev nD) : W5 m ρ c (Proc.devRef .tc main_v20) = kv_main_v20 (ins m c) :=
  (W5_of_ne m ρ c main_v20 (by decide)).trans (bd_W4_main_v20 m ρ c)

theorem bd_W6_main_v20 (c : Dev nD) : W6 m ρ c (Proc.devRef .tc main_v20) = kv_main_v20 (ins m c) :=
  (W6_of_ne m ρ c main_v20 (by decide)).trans (bd_W5_main_v20 m ρ c)

theorem bd_W0_main_arg2 (c : Dev nD) : W0 m ρ c (Proc.devRef .tc main_arg2) = (ins m c).x2 := rfl

theorem bd_W1_main_arg2 (c : Dev nD) : W1 m ρ c (Proc.devRef .tc main_arg2) = (ins m c).x2 :=
  (W1_of m ρ c main_arg2 (by decide)).trans (bd_W0_main_arg2 m ρ c)

theorem bd_W2_main_arg2 (c : Dev nD) : W2 m ρ c (Proc.devRef .tc main_arg2) = (ins m c).x2 :=
  (W2_in m ρ c 0 rfl).trans (bd_W1_main_arg2 m ρ c)

theorem bd_W3_main_arg2 (c : Dev nD) : W3 m ρ c (Proc.devRef .tc main_arg2) = (ins m c).x2 :=
  (W3_of_ne m ρ c main_arg2 (by decide)).trans (bd_W2_main_arg2 m ρ c)

theorem bd_Y1_main_arg2 (c : Dev nD) : Y1 m ρ c (Proc.devRef .tc main_arg2) = (ins m c).x2 :=
  (Y1_of m ρ c main_arg2 (by decide)).trans (bd_W3_main_arg2 m ρ c)

theorem bd_Y2_main_arg2 (c : Dev nD) : Y2 m ρ c (Proc.devRef .tc main_arg2) = (ins m c).x2 :=
  (Y2_of m ρ c main_arg2 (by decide)).trans (bd_Y1_main_arg2 m ρ c)

theorem bd_Y3_main_arg2 (c : Dev nD) : Y3 m ρ c (Proc.devRef .tc main_arg2) = (ins m c).x2 :=
  (Y3_of m ρ c main_arg2 (by decide)).trans (bd_Y2_main_arg2 m ρ c)

end Cert.KernelIdeal.Hand

end
-- ==== Proof.Ideal.HostRunP1.lean ====
/-
  The kernel program's run read as values, continued: the value of every buffer a later segment reads, at every boundary
  (one lemma per buffer and boundary, in dependency order).
-/
import proofs.«174668_j26645977104432_2_alg».proof.Proof.Ideal.HostRunP0

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y4_main_arg2 (c : Dev nD) : Y4 m ρ c (Proc.devRef .tc main_arg2) = (ins m c).x2 :=
  (Y4_of m ρ c main_arg2 (by decide)).trans (bd_Y3_main_arg2 m ρ c)

theorem bd_Y5_main_arg2 (c : Dev nD) : Y5 m ρ c (Proc.devRef .tc main_arg2) = (ins m c).x2 :=
  (Y5_of m ρ c main_arg2 (by decide)).trans (bd_Y4_main_arg2 m ρ c)

theorem bd_Y6_main_arg2 (c : Dev nD) : Y6 m ρ c (Proc.devRef .tc main_arg2) = (ins m c).x2 :=
  (Y6_of m ρ c main_arg2 (by decide)).trans (bd_Y5_main_arg2 m ρ c)

theorem bd_Y7_main_arg2 (c : Dev nD) : Y7 m ρ c (Proc.devRef .tc main_arg2) = (ins m c).x2 :=
  (Y7_of m ρ c main_arg2 (by decide)).trans (bd_Y6_main_arg2 m ρ c)

theorem bd_W4_main_arg2 (c : Dev nD) : W4 m ρ c (Proc.devRef .tc main_arg2) = (ins m c).x2 :=
  (congrFun (W4_eq m ρ c) _).trans (bd_Y7_main_arg2 m ρ c)

set_option maxRecDepth 65536 in
set_option maxHeartbeats 4000000 in
theorem bd_W1_main_v0 (c : Dev nD) : W1 m ρ c (Proc.devRef .tc main_v0) = kv_main_v0 (ins m c) := by
  show StableHlo.after (hostOps0 (F := Ideal)) (W0 m ρ c) (Proc.devRef .tc main_v0) = _
  after_results_simp
  show ((extractStridedSlice S8192x50 ![0, 0] · slices_S8192x200_S8192x50_0_0) : (⟨S8192x200, .f32⟩ : BufTy).Contents (Elt Ideal) → (⟨S8192x50, .f32⟩ : BufTy).Contents (Elt Ideal)) (W0 m ρ c (Proc.devRef .tc main_arg0)) = _
  try rw [bd_W0_main_arg0 m ρ c]
  rfl

theorem bd_W2_main_v0 (c : Dev nD) : W2 m ρ c (Proc.devRef .tc main_v0) = kv_main_v0 (ins m c) :=
  (W2_of_ne m ρ c main_v0 (by decide)).trans (bd_W1_main_v0 m ρ c)

theorem bd_W3_main_v0 (c : Dev nD) : W3 m ρ c (Proc.devRef .tc main_v0) = kv_main_v0 (ins m c) :=
  (W3_of_ne m ρ c main_v0 (by decide)).trans (bd_W2_main_v0 m ρ c)

theorem bd_W2_main_v14 (c : Dev nD) : W2 m ρ c (Proc.devRef .tc main_v14) = kv_main_v14 (ins m c) := by
  refine (W2_arr m ρ c 4).trans ((final0 (V1 m ρ) c).trans ?_)
  show tileOut (W1 m ρ c (Proc.devRef .tc main_arg2)) (W1 m ρ c (Proc.devRef .tc main_arg0)) (W1 m ρ c (Proc.devRef .tc main_v13)) (W1 m ρ c (Proc.devRef .tc main_v7)) = _
  rw [bd_W1_main_arg2 m ρ c, bd_W1_main_arg0 m ρ c, bd_W1_main_v13 m ρ c, bd_W1_main_v7 m ρ c]
  rfl

theorem bd_W3_main_v14 (c : Dev nD) : W3 m ρ c (Proc.devRef .tc main_v14) = kv_main_v14 (ins m c) :=
  (W3_of_ne m ρ c main_v14 (by decide)).trans (bd_W2_main_v14 m ρ c)

set_option maxRecDepth 65536 in
set_option maxHeartbeats 4000000 in
theorem bd_Y1_main_v24 (c : Dev nD) : Y1 m ρ c (Proc.devRef .tc main_v24) = kv_main_v24 (ins m c) := by
  show StableHlo.after (q0 (F := Ideal)) (W3 m ρ c) (Proc.devRef .tc main_v24) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (W3 m ρ c (Proc.devRef .tc main_v0)) (((extractStridedSlice S8192x50 ![0, 0] · slices_S8192x200_S8192x50_0_0) : (⟨S8192x200, .f32⟩ : BufTy).Contents (Elt Ideal) → (⟨S8192x50, .f32⟩ : BufTy).Contents (Elt Ideal)) (W3 m ρ c (Proc.devRef .tc main_v14))) = _
  try rw [bd_W3_main_v0 m ρ c]
  try rw [bd_W3_main_v14 m ρ c]
  rfl

theorem bd_Y2_main_v24 (c : Dev nD) : Y2 m ρ c (Proc.devRef .tc main_v24) = kv_main_v24 (ins m c) :=
  (Y2_of m ρ c main_v24 (by decide)).trans (bd_Y1_main_v24 m ρ c)

theorem bd_Y3_main_v24 (c : Dev nD) : Y3 m ρ c (Proc.devRef .tc main_v24) = kv_main_v24 (ins m c) :=
  (Y3_of m ρ c main_v24 (by decide)).trans (bd_Y2_main_v24 m ρ c)

theorem bd_Y4_main_v24 (c : Dev nD) : Y4 m ρ c (Proc.devRef .tc main_v24) = kv_main_v24 (ins m c) :=
  (Y4_of m ρ c main_v24 (by decide)).trans (bd_Y3_main_v24 m ρ c)

theorem bd_Y5_main_v24 (c : Dev nD) : Y5 m ρ c (Proc.devRef .tc main_v24) = kv_main_v24 (ins m c) :=
  (Y5_of m ρ c main_v24 (by decide)).trans (bd_Y4_main_v24 m ρ c)

theorem bd_Y6_main_v24 (c : Dev nD) : Y6 m ρ c (Proc.devRef .tc main_v24) = kv_main_v24 (ins m c) :=
  (Y6_of m ρ c main_v24 (by decide)).trans (bd_Y5_main_v24 m ρ c)

set_option maxRecDepth 65536 in
set_option maxHeartbeats 4000000 in
theorem bd_W1_main_v1 (c : Dev nD) : W1 m ρ c (Proc.devRef .tc main_v1) = kv_main_v1 (ins m c) := by
  show StableHlo.after (hostOps0 (F := Ideal)) (W0 m ρ c) (Proc.devRef .tc main_v1) = _
  after_results_simp
  show ((extractStridedSlice S8192x50 ![0, 50] · slices_S8192x200_S8192x50_0_50) : (⟨S8192x200, .f32⟩ : BufTy).Contents (Elt Ideal) → (⟨S8192x50, .f32⟩ : BufTy).Contents (Elt Ideal)) (W0 m ρ c (Proc.devRef .tc main_arg0)) = _
  try rw [bd_W0_main_arg0 m ρ c]
  rfl

theorem bd_W2_main_v1 (c : Dev nD) : W2 m ρ c (Proc.devRef .tc main_v1) = kv_main_v1 (ins m c) :=
  (W2_of_ne m ρ c main_v1 (by decide)).trans (bd_W1_main_v1 m ρ c)

theorem bd_W3_main_v1 (c : Dev nD) : W3 m ρ c (Proc.devRef .tc main_v1) = kv_main_v1 (ins m c) :=
  (W3_of_ne m ρ c main_v1 (by decide)).trans (bd_W2_main_v1 m ρ c)

set_option maxRecDepth 65536 in
set_option maxHeartbeats 4000000 in
theorem bd_Y1_main_v25 (c : Dev nD) : Y1 m ρ c (Proc.devRef .tc main_v25) = kv_main_v25 (ins m c) := by
  show StableHlo.after (q0 (F := Ideal)) (W3 m ρ c) (Proc.devRef .tc main_v25) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (W3 m ρ c (Proc.devRef .tc main_v1)) (((extractStridedSlice S8192x50 ![0, 50] · slices_S8192x200_S8192x50_0_50) : (⟨S8192x200, .f32⟩ : BufTy).Contents (Elt Ideal) → (⟨S8192x50, .f32⟩ : BufTy).Contents (Elt Ideal)) (W3 m ρ c (Proc.devRef .tc main_v14))) = _
  try rw [bd_W3_main_v1 m ρ c]
  try rw [bd_W3_main_v14 m ρ c]
  rfl

theorem bd_Y2_main_v25 (c : Dev nD) : Y2 m ρ c (Proc.devRef .tc main_v25) = kv_main_v25 (ins m c) :=
  (Y2_of m ρ c main_v25 (by decide)).trans (bd_Y1_main_v25 m ρ c)

theorem bd_Y3_main_v25 (c : Dev nD) : Y3 m ρ c (Proc.devRef .tc main_v25) = kv_main_v25 (ins m c) :=
  (Y3_of m ρ c main_v25 (by decide)).trans (bd_Y2_main_v25 m ρ c)

theorem bd_Y4_main_v25 (c : Dev nD) : Y4 m ρ c (Proc.devRef .tc main_v25) = kv_main_v25 (ins m c) :=
  (Y4_of m ρ c main_v25 (by decide)).trans (bd_Y3_main_v25 m ρ c)

theorem bd_Y5_main_v25 (c : Dev nD) : Y5 m ρ c (Proc.devRef .tc main_v25) = kv_main_v25 (ins m c) :=
  (Y5_of m ρ c main_v25 (by decide)).trans (bd_Y4_main_v25 m ρ c)

theorem bd_Y6_main_v25 (c : Dev nD) : Y6 m ρ c (Proc.devRef .tc main_v25) = kv_main_v25 (ins m c) :=
  (Y6_of m ρ c main_v25 (by decide)).trans (bd_Y5_main_v25 m ρ c)

set_option maxRecDepth 65536 in
set_option maxHeartbeats 4000000 in
theorem bd_W1_main_v2 (c : Dev nD) : W1 m ρ c (Proc.devRef .tc main_v2) = kv_main_v2 (ins m c) := by
  show StableHlo.after (hostOps0 (F := Ideal)) (W0 m ρ c) (Proc.devRef .tc main_v2) = _
  after_results_simp
  show ((extractStridedSlice S8192x50 ![0, 100] · slices_S8192x200_S8192x50_0_100) : (⟨S8192x200, .f32⟩ : BufTy).Contents (Elt Ideal) → (⟨S8192x50, .f32⟩ : BufTy).Contents (Elt Ideal)) (W0 m ρ c (Proc.devRef .tc main_arg0)) = _
  try rw [bd_W0_main_arg0 m ρ c]
  rfl

theorem bd_W2_main_v2 (c : Dev nD) : W2 m ρ c (Proc.devRef .tc main_v2) = kv_main_v2 (ins m c) :=
  (W2_of_ne m ρ c main_v2 (by decide)).trans (bd_W1_main_v2 m ρ c)

theorem bd_W3_main_v2 (c : Dev nD) : W3 m ρ c (Proc.devRef .tc main_v2) = kv_main_v2 (ins m c) :=
  (W3_of_ne m ρ c main_v2 (by decide)).trans (bd_W2_main_v2 m ρ c)

set_option maxRecDepth 65536 in
set_option maxHeartbeats 4000000 in
theorem bd_Y1_main_v30 (c : Dev nD) : Y1 m ρ c (Proc.devRef .tc main_v30) = kv_main_v30 (ins m c) := by
  show StableHlo.after (q0 (F := Ideal)) (W3 m ρ c) (Proc.devRef .tc main_v30) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (W3 m ρ c (Proc.devRef .tc main_v2))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (((extractStridedSlice S8192x50 ![0, 100] · slices_S8192x200_S8192x50_0_100) : (⟨S8192x200, .f32⟩ : BufTy).Contents (Elt Ideal) → (⟨S8192x50, .f32⟩ : BufTy).Contents (Elt Ideal)) (W3 m ρ c (Proc.devRef .tc main_v14)))) = _
  try rw [bd_W3_main_v2 m ρ c]
  try rw [bd_W3_main_v14 m ρ c]
  rfl

theorem bd_Y2_main_v30 (c : Dev nD) : Y2 m ρ c (Proc.devRef .tc main_v30) = kv_main_v30 (ins m c) :=
  (Y2_of m ρ c main_v30 (by decide)).trans (bd_Y1_main_v30 m ρ c)

end Cert.KernelIdeal.Hand

end
-- ==== Proof.Ideal.HostRunP2.lean ====
/-
  The kernel program's run read as values, continued: the value of every buffer a later segment reads, at every boundary
  (one lemma per buffer and boundary, in dependency order).
-/
import proofs.«174668_j26645977104432_2_alg».proof.Proof.Ideal.HostRunP1

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y3_main_v30 (c : Dev nD) : Y3 m ρ c (Proc.devRef .tc main_v30) = kv_main_v30 (ins m c) :=
  (Y3_of m ρ c main_v30 (by decide)).trans (bd_Y2_main_v30 m ρ c)

theorem bd_Y4_main_v30 (c : Dev nD) : Y4 m ρ c (Proc.devRef .tc main_v30) = kv_main_v30 (ins m c) :=
  (Y4_of m ρ c main_v30 (by decide)).trans (bd_Y3_main_v30 m ρ c)

theorem bd_Y5_main_v30 (c : Dev nD) : Y5 m ρ c (Proc.devRef .tc main_v30) = kv_main_v30 (ins m c) :=
  (Y5_of m ρ c main_v30 (by decide)).trans (bd_Y4_main_v30 m ρ c)

theorem bd_Y6_main_v30 (c : Dev nD) : Y6 m ρ c (Proc.devRef .tc main_v30) = kv_main_v30 (ins m c) :=
  (Y6_of m ρ c main_v30 (by decide)).trans (bd_Y5_main_v30 m ρ c)

set_option maxRecDepth 65536 in
set_option maxHeartbeats 4000000 in
theorem bd_W1_main_v3 (c : Dev nD) : W1 m ρ c (Proc.devRef .tc main_v3) = kv_main_v3 (ins m c) := by
  show StableHlo.after (hostOps0 (F := Ideal)) (W0 m ρ c) (Proc.devRef .tc main_v3) = _
  after_results_simp
  show ((extractStridedSlice S8192x50 ![0, 150] · slices_S8192x200_S8192x50_0_150) : (⟨S8192x200, .f32⟩ : BufTy).Contents (Elt Ideal) → (⟨S8192x50, .f32⟩ : BufTy).Contents (Elt Ideal)) (W0 m ρ c (Proc.devRef .tc main_arg0)) = _
  try rw [bd_W0_main_arg0 m ρ c]
  rfl

theorem bd_W2_main_v3 (c : Dev nD) : W2 m ρ c (Proc.devRef .tc main_v3) = kv_main_v3 (ins m c) :=
  (W2_of_ne m ρ c main_v3 (by decide)).trans (bd_W1_main_v3 m ρ c)

theorem bd_W3_main_v3 (c : Dev nD) : W3 m ρ c (Proc.devRef .tc main_v3) = kv_main_v3 (ins m c) :=
  (W3_of_ne m ρ c main_v3 (by decide)).trans (bd_W2_main_v3 m ρ c)

set_option maxRecDepth 65536 in
set_option maxHeartbeats 4000000 in
theorem bd_Y1_main_v31 (c : Dev nD) : Y1 m ρ c (Proc.devRef .tc main_v31) = kv_main_v31 (ins m c) := by
  show StableHlo.after (q0 (F := Ideal)) (W3 m ρ c) (Proc.devRef .tc main_v31) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (W3 m ρ c (Proc.devRef .tc main_v3)) (((extractStridedSlice S8192x50 ![0, 150] · slices_S8192x200_S8192x50_0_150) : (⟨S8192x200, .f32⟩ : BufTy).Contents (Elt Ideal) → (⟨S8192x50, .f32⟩ : BufTy).Contents (Elt Ideal)) (W3 m ρ c (Proc.devRef .tc main_v14))) = _
  try rw [bd_W3_main_v3 m ρ c]
  try rw [bd_W3_main_v14 m ρ c]
  rfl

theorem bd_Y2_main_v31 (c : Dev nD) : Y2 m ρ c (Proc.devRef .tc main_v31) = kv_main_v31 (ins m c) :=
  (Y2_of m ρ c main_v31 (by decide)).trans (bd_Y1_main_v31 m ρ c)

theorem bd_Y3_main_v31 (c : Dev nD) : Y3 m ρ c (Proc.devRef .tc main_v31) = kv_main_v31 (ins m c) :=
  (Y3_of m ρ c main_v31 (by decide)).trans (bd_Y2_main_v31 m ρ c)

theorem bd_Y4_main_v31 (c : Dev nD) : Y4 m ρ c (Proc.devRef .tc main_v31) = kv_main_v31 (ins m c) :=
  (Y4_of m ρ c main_v31 (by decide)).trans (bd_Y3_main_v31 m ρ c)

theorem bd_Y5_main_v31 (c : Dev nD) : Y5 m ρ c (Proc.devRef .tc main_v31) = kv_main_v31 (ins m c) :=
  (Y5_of m ρ c main_v31 (by decide)).trans (bd_Y4_main_v31 m ρ c)

theorem bd_Y6_main_v31 (c : Dev nD) : Y6 m ρ c (Proc.devRef .tc main_v31) = kv_main_v31 (ins m c) :=
  (Y6_of m ρ c main_v31 (by decide)).trans (bd_Y5_main_v31 m ρ c)

set_option maxRecDepth 65536 in
set_option maxHeartbeats 4000000 in
theorem bd_Y7_main_v142 (c : Dev nD) : Y7 m ρ c (Proc.devRef .tc main_v142) = kv_main_v142 (ins m c) := by
  show StableHlo.after (q6 (F := Ideal)) (Y6 m ρ c) (Proc.devRef .tc main_v142) = _
  after_results_simp
  show concatenate S8192x200 1 [⟨S8192x50, (Y6 m ρ c (Proc.devRef .tc main_v24))⟩, ⟨S8192x50, (Y6 m ρ c (Proc.devRef .tc main_v25))⟩, ⟨S8192x50, (Y6 m ρ c (Proc.devRef .tc main_v30))⟩, ⟨S8192x50, (Y6 m ρ c (Proc.devRef .tc main_v31))⟩] concatenates_S8192x50_S8192x50_S8192x50_S8192x50_S8192x200_d1 = _
  try rw [bd_Y6_main_v24 m ρ c]
  try rw [bd_Y6_main_v25 m ρ c]
  try rw [bd_Y6_main_v30 m ρ c]
  try rw [bd_Y6_main_v31 m ρ c]
  rfl

theorem bd_W4_main_v142 (c : Dev nD) : W4 m ρ c (Proc.devRef .tc main_v142) = kv_main_v142 (ins m c) :=
  (congrFun (W4_eq m ρ c) _).trans (bd_Y7_main_v142 m ρ c)

theorem bd_W3_main_v13 (c : Dev nD) : W3 m ρ c (Proc.devRef .tc main_v13) = kv_main_v13 (ins m c) :=
  (W3_in m ρ c 2 rfl).trans (bd_W2_main_v13 m ρ c)

theorem bd_Y1_main_v13 (c : Dev nD) : Y1 m ρ c (Proc.devRef .tc main_v13) = kv_main_v13 (ins m c) :=
  (Y1_of m ρ c main_v13 (by decide)).trans (bd_W3_main_v13 m ρ c)

theorem bd_Y2_main_v13 (c : Dev nD) : Y2 m ρ c (Proc.devRef .tc main_v13) = kv_main_v13 (ins m c) :=
  (Y2_of m ρ c main_v13 (by decide)).trans (bd_Y1_main_v13 m ρ c)

theorem bd_Y3_main_v13 (c : Dev nD) : Y3 m ρ c (Proc.devRef .tc main_v13) = kv_main_v13 (ins m c) :=
  (Y3_of m ρ c main_v13 (by decide)).trans (bd_Y2_main_v13 m ρ c)

theorem bd_Y4_main_v13 (c : Dev nD) : Y4 m ρ c (Proc.devRef .tc main_v13) = kv_main_v13 (ins m c) :=
  (Y4_of m ρ c main_v13 (by decide)).trans (bd_Y3_main_v13 m ρ c)

theorem bd_Y5_main_v13 (c : Dev nD) : Y5 m ρ c (Proc.devRef .tc main_v13) = kv_main_v13 (ins m c) :=
  (Y5_of m ρ c main_v13 (by decide)).trans (bd_Y4_main_v13 m ρ c)

theorem bd_Y6_main_v13 (c : Dev nD) : Y6 m ρ c (Proc.devRef .tc main_v13) = kv_main_v13 (ins m c) :=
  (Y6_of m ρ c main_v13 (by decide)).trans (bd_Y5_main_v13 m ρ c)

theorem bd_Y7_main_v13 (c : Dev nD) : Y7 m ρ c (Proc.devRef .tc main_v13) = kv_main_v13 (ins m c) :=
  (Y7_of m ρ c main_v13 (by decide)).trans (bd_Y6_main_v13 m ρ c)

theorem bd_W4_main_v13 (c : Dev nD) : W4 m ρ c (Proc.devRef .tc main_v13) = kv_main_v13 (ins m c) :=
  (congrFun (W4_eq m ρ c) _).trans (bd_Y7_main_v13 m ρ c)

theorem bd_W3_main_v7 (c : Dev nD) : W3 m ρ c (Proc.devRef .tc main_v7) = kv_main_v7 (ins m c) :=
  (W3_in m ρ c 3 rfl).trans (bd_W2_main_v7 m ρ c)

theorem bd_Y1_main_v7 (c : Dev nD) : Y1 m ρ c (Proc.devRef .tc main_v7) = kv_main_v7 (ins m c) :=
  (Y1_of m ρ c main_v7 (by decide)).trans (bd_W3_main_v7 m ρ c)

theorem bd_Y2_main_v7 (c : Dev nD) : Y2 m ρ c (Proc.devRef .tc main_v7) = kv_main_v7 (ins m c) :=
  (Y2_of m ρ c main_v7 (by decide)).trans (bd_Y1_main_v7 m ρ c)

theorem bd_Y3_main_v7 (c : Dev nD) : Y3 m ρ c (Proc.devRef .tc main_v7) = kv_main_v7 (ins m c) :=
  (Y3_of m ρ c main_v7 (by decide)).trans (bd_Y2_main_v7 m ρ c)

theorem bd_Y4_main_v7 (c : Dev nD) : Y4 m ρ c (Proc.devRef .tc main_v7) = kv_main_v7 (ins m c) :=
  (Y4_of m ρ c main_v7 (by decide)).trans (bd_Y3_main_v7 m ρ c)

theorem bd_Y5_main_v7 (c : Dev nD) : Y5 m ρ c (Proc.devRef .tc main_v7) = kv_main_v7 (ins m c) :=
  (Y5_of m ρ c main_v7 (by decide)).trans (bd_Y4_main_v7 m ρ c)

end Cert.KernelIdeal.Hand

end
-- ==== Proof.Ideal.HostRunP3.lean ====
/-
  The kernel program's run read as values, continued: the value of every buffer a later segment reads, at every boundary
  (one lemma per buffer and boundary, in dependency order).
-/
import proofs.«174668_j26645977104432_2_alg».proof.Proof.Ideal.HostRunP2

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y6_main_v7 (c : Dev nD) : Y6 m ρ c (Proc.devRef .tc main_v7) = kv_main_v7 (ins m c) :=
  (Y6_of m ρ c main_v7 (by decide)).trans (bd_Y5_main_v7 m ρ c)

theorem bd_Y7_main_v7 (c : Dev nD) : Y7 m ρ c (Proc.devRef .tc main_v7) = kv_main_v7 (ins m c) :=
  (Y7_of m ρ c main_v7 (by decide)).trans (bd_Y6_main_v7 m ρ c)

theorem bd_W4_main_v7 (c : Dev nD) : W4 m ρ c (Proc.devRef .tc main_v7) = kv_main_v7 (ins m c) :=
  (congrFun (W4_eq m ρ c) _).trans (bd_Y7_main_v7 m ρ c)

theorem bd_W5_main_v144 (c : Dev nD) : W5 m ρ c (Proc.devRef .tc main_v144) = kv_main_v144 (ins m c) := by
  refine (W5_arr m ρ c 4).trans ((final2 (V4 m ρ) c).trans ?_)
  show tileOut (W4 m ρ c (Proc.devRef .tc main_arg2)) (W4 m ρ c (Proc.devRef .tc main_v142)) (W4 m ρ c (Proc.devRef .tc main_v13)) (W4 m ρ c (Proc.devRef .tc main_v7)) = _
  rw [bd_W4_main_arg2 m ρ c, bd_W4_main_v142 m ρ c, bd_W4_main_v13 m ρ c, bd_W4_main_v7 m ρ c]
  rfl

theorem bd_W6_main_v144 (c : Dev nD) : W6 m ρ c (Proc.devRef .tc main_v144) = kv_main_v144 (ins m c) :=
  (W6_of_ne m ρ c main_v144 (by decide)).trans (bd_W5_main_v144 m ρ c)

set_option maxRecDepth 65536 in
set_option maxHeartbeats 4000000 in
theorem bd_Z1_main_v158 (c : Dev nD) : Z1 m ρ c (Proc.devRef .tc main_v158) = kv_main_v158 (ins m c) := by
  show StableHlo.after (z0 (F := Ideal)) (W6 m ρ c) (Proc.devRef .tc main_v158) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (W6 m ρ c (Proc.devRef .tc main_v20))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (((extractStridedSlice S8192x50 ![0, 0] · slices_S8192x200_S8192x50_0_0) : (⟨S8192x200, .f32⟩ : BufTy).Contents (Elt Ideal) → (⟨S8192x50, .f32⟩ : BufTy).Contents (Elt Ideal)) (W6 m ρ c (Proc.devRef .tc main_v144)))) = _
  try rw [bd_W6_main_v20 m ρ c]
  try rw [bd_W6_main_v144 m ρ c]
  rfl

theorem bd_Z2_main_v158 (c : Dev nD) : Z2 m ρ c (Proc.devRef .tc main_v158) = kv_main_v158 (ins m c) :=
  (Z2_of m ρ c main_v158 (by decide)).trans (bd_Z1_main_v158 m ρ c)

theorem bd_Z3_main_v158 (c : Dev nD) : Z3 m ρ c (Proc.devRef .tc main_v158) = kv_main_v158 (ins m c) :=
  (Z3_of m ρ c main_v158 (by decide)).trans (bd_Z2_main_v158 m ρ c)

theorem bd_Z4_main_v158 (c : Dev nD) : Z4 m ρ c (Proc.devRef .tc main_v158) = kv_main_v158 (ins m c) :=
  (Z4_of m ρ c main_v158 (by decide)).trans (bd_Z3_main_v158 m ρ c)

theorem bd_Z5_main_v158 (c : Dev nD) : Z5 m ρ c (Proc.devRef .tc main_v158) = kv_main_v158 (ins m c) :=
  (Z5_of m ρ c main_v158 (by decide)).trans (bd_Z4_main_v158 m ρ c)

theorem bd_Z6_main_v158 (c : Dev nD) : Z6 m ρ c (Proc.devRef .tc main_v158) = kv_main_v158 (ins m c) :=
  (Z6_of m ρ c main_v158 (by decide)).trans (bd_Z5_main_v158 m ρ c)

theorem bd_Z7_main_v158 (c : Dev nD) : Z7 m ρ c (Proc.devRef .tc main_v158) = kv_main_v158 (ins m c) :=
  (Z7_of m ρ c main_v158 (by decide)).trans (bd_Z6_main_v158 m ρ c)

theorem bd_Z8_main_v158 (c : Dev nD) : Z8 m ρ c (Proc.devRef .tc main_v158) = kv_main_v158 (ins m c) :=
  (Z8_of m ρ c main_v158 (by decide)).trans (bd_Z7_main_v158 m ρ c)

set_option maxRecDepth 65536 in
set_option maxHeartbeats 4000000 in
theorem bd_Y1_main_v16 (c : Dev nD) : Y1 m ρ c (Proc.devRef .tc main_v16) = kv_main_v16 (ins m c) := by
  show StableHlo.after (q0 (F := Ideal)) (W3 m ρ c) (Proc.devRef .tc main_v16) = _
  after_results_simp
  show ((extractStridedSlice S8192x50 ![0, 0] · slices_S8192x200_S8192x50_0_0) : (⟨S8192x200, .f32⟩ : BufTy).Contents (Elt Ideal) → (⟨S8192x50, .f32⟩ : BufTy).Contents (Elt Ideal)) (W3 m ρ c (Proc.devRef .tc main_v14)) = _
  try rw [bd_W3_main_v14 m ρ c]
  rfl

theorem bd_Y2_main_v16 (c : Dev nD) : Y2 m ρ c (Proc.devRef .tc main_v16) = kv_main_v16 (ins m c) :=
  (Y2_of m ρ c main_v16 (by decide)).trans (bd_Y1_main_v16 m ρ c)

theorem bd_Y3_main_v16 (c : Dev nD) : Y3 m ρ c (Proc.devRef .tc main_v16) = kv_main_v16 (ins m c) :=
  (Y3_of m ρ c main_v16 (by decide)).trans (bd_Y2_main_v16 m ρ c)

theorem bd_Y4_main_v16 (c : Dev nD) : Y4 m ρ c (Proc.devRef .tc main_v16) = kv_main_v16 (ins m c) :=
  (Y4_of m ρ c main_v16 (by decide)).trans (bd_Y3_main_v16 m ρ c)

theorem bd_Y5_main_v16 (c : Dev nD) : Y5 m ρ c (Proc.devRef .tc main_v16) = kv_main_v16 (ins m c) :=
  (Y5_of m ρ c main_v16 (by decide)).trans (bd_Y4_main_v16 m ρ c)

theorem bd_Y6_main_v16 (c : Dev nD) : Y6 m ρ c (Proc.devRef .tc main_v16) = kv_main_v16 (ins m c) :=
  (Y6_of m ρ c main_v16 (by decide)).trans (bd_Y5_main_v16 m ρ c)

theorem bd_Y7_main_v16 (c : Dev nD) : Y7 m ρ c (Proc.devRef .tc main_v16) = kv_main_v16 (ins m c) :=
  (Y7_of m ρ c main_v16 (by decide)).trans (bd_Y6_main_v16 m ρ c)

theorem bd_W4_main_v16 (c : Dev nD) : W4 m ρ c (Proc.devRef .tc main_v16) = kv_main_v16 (ins m c) :=
  (congrFun (W4_eq m ρ c) _).trans (bd_Y7_main_v16 m ρ c)

theorem bd_W5_main_v16 (c : Dev nD) : W5 m ρ c (Proc.devRef .tc main_v16) = kv_main_v16 (ins m c) :=
  (W5_of_ne m ρ c main_v16 (by decide)).trans (bd_W4_main_v16 m ρ c)

theorem bd_W6_main_v16 (c : Dev nD) : W6 m ρ c (Proc.devRef .tc main_v16) = kv_main_v16 (ins m c) :=
  (W6_of_ne m ρ c main_v16 (by decide)).trans (bd_W5_main_v16 m ρ c)

theorem bd_Z1_main_v16 (c : Dev nD) : Z1 m ρ c (Proc.devRef .tc main_v16) = kv_main_v16 (ins m c) :=
  (Z1_of m ρ c main_v16 (by decide)).trans (bd_W6_main_v16 m ρ c)

theorem bd_Z2_main_v16 (c : Dev nD) : Z2 m ρ c (Proc.devRef .tc main_v16) = kv_main_v16 (ins m c) :=
  (Z2_of m ρ c main_v16 (by decide)).trans (bd_Z1_main_v16 m ρ c)

theorem bd_Z3_main_v16 (c : Dev nD) : Z3 m ρ c (Proc.devRef .tc main_v16) = kv_main_v16 (ins m c) :=
  (Z3_of m ρ c main_v16 (by decide)).trans (bd_Z2_main_v16 m ρ c)

theorem bd_W3_main_arg1 (c : Dev nD) : W3 m ρ c (Proc.devRef .tc main_arg1) = (ins m c).x1 :=
  (W3_in m ρ c 0 rfl).trans (bd_W2_main_arg1 m ρ c)

theorem bd_Y1_main_arg1 (c : Dev nD) : Y1 m ρ c (Proc.devRef .tc main_arg1) = (ins m c).x1 :=
  (Y1_of m ρ c main_arg1 (by decide)).trans (bd_W3_main_arg1 m ρ c)

theorem bd_Y2_main_arg1 (c : Dev nD) : Y2 m ρ c (Proc.devRef .tc main_arg1) = (ins m c).x1 :=
  (Y2_of m ρ c main_arg1 (by decide)).trans (bd_Y1_main_arg1 m ρ c)

theorem bd_Y3_main_arg1 (c : Dev nD) : Y3 m ρ c (Proc.devRef .tc main_arg1) = (ins m c).x1 :=
  (Y3_of m ρ c main_arg1 (by decide)).trans (bd_Y2_main_arg1 m ρ c)

end Cert.KernelIdeal.Hand

end
-- ==== Proof.Ideal.HostRunP4.lean ====
/-
  The kernel program's run read as values, continued: the value of every buffer a later segment reads, at every boundary
  (one lemma per buffer and boundary, in dependency order).
-/
import proofs.«174668_j26645977104432_2_alg».proof.Proof.Ideal.HostRunP3

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y4_main_arg1 (c : Dev nD) : Y4 m ρ c (Proc.devRef .tc main_arg1) = (ins m c).x1 :=
  (Y4_of m ρ c main_arg1 (by decide)).trans (bd_Y3_main_arg1 m ρ c)

theorem bd_Y5_main_arg1 (c : Dev nD) : Y5 m ρ c (Proc.devRef .tc main_arg1) = (ins m c).x1 :=
  (Y5_of m ρ c main_arg1 (by decide)).trans (bd_Y4_main_arg1 m ρ c)

theorem bd_Y6_main_arg1 (c : Dev nD) : Y6 m ρ c (Proc.devRef .tc main_arg1) = (ins m c).x1 :=
  (Y6_of m ρ c main_arg1 (by decide)).trans (bd_Y5_main_arg1 m ρ c)

theorem bd_Y7_main_arg1 (c : Dev nD) : Y7 m ρ c (Proc.devRef .tc main_arg1) = (ins m c).x1 :=
  (Y7_of m ρ c main_arg1 (by decide)).trans (bd_Y6_main_arg1 m ρ c)

theorem bd_W4_main_arg1 (c : Dev nD) : W4 m ρ c (Proc.devRef .tc main_arg1) = (ins m c).x1 :=
  (congrFun (W4_eq m ρ c) _).trans (bd_Y7_main_arg1 m ρ c)

theorem bd_W5_main_arg1 (c : Dev nD) : W5 m ρ c (Proc.devRef .tc main_arg1) = (ins m c).x1 :=
  (W5_of_ne m ρ c main_arg1 (by decide)).trans (bd_W4_main_arg1 m ρ c)

theorem bd_Y1_main_v0 (c : Dev nD) : Y1 m ρ c (Proc.devRef .tc main_v0) = kv_main_v0 (ins m c) :=
  (Y1_of m ρ c main_v0 (by decide)).trans (bd_W3_main_v0 m ρ c)

theorem bd_Y2_main_v0 (c : Dev nD) : Y2 m ρ c (Proc.devRef .tc main_v0) = kv_main_v0 (ins m c) :=
  (Y2_of m ρ c main_v0 (by decide)).trans (bd_Y1_main_v0 m ρ c)

theorem bd_Y3_main_v0 (c : Dev nD) : Y3 m ρ c (Proc.devRef .tc main_v0) = kv_main_v0 (ins m c) :=
  (Y3_of m ρ c main_v0 (by decide)).trans (bd_Y2_main_v0 m ρ c)

set_option maxRecDepth 65536 in
set_option maxHeartbeats 4000000 in
theorem bd_Y4_main_v83 (c : Dev nD) : Y4 m ρ c (Proc.devRef .tc main_v83) = kv_main_v83 (ins m c) := by
  show StableHlo.after (q3 (F := Ideal)) (Y3 m ρ c) (Proc.devRef .tc main_v83) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y3 m ρ c (Proc.devRef .tc main_v0)) (Y3 m ρ c (Proc.devRef .tc main_v20)) = _
  try rw [bd_Y3_main_v0 m ρ c]
  try rw [bd_Y3_main_v20 m ρ c]
  rfl

theorem bd_Y5_main_v83 (c : Dev nD) : Y5 m ρ c (Proc.devRef .tc main_v83) = kv_main_v83 (ins m c) :=
  (Y5_of m ρ c main_v83 (by decide)).trans (bd_Y4_main_v83 m ρ c)

theorem bd_Y6_main_v83 (c : Dev nD) : Y6 m ρ c (Proc.devRef .tc main_v83) = kv_main_v83 (ins m c) :=
  (Y6_of m ρ c main_v83 (by decide)).trans (bd_Y5_main_v83 m ρ c)

theorem bd_Y1_main_v1 (c : Dev nD) : Y1 m ρ c (Proc.devRef .tc main_v1) = kv_main_v1 (ins m c) :=
  (Y1_of m ρ c main_v1 (by decide)).trans (bd_W3_main_v1 m ρ c)

theorem bd_Y2_main_v1 (c : Dev nD) : Y2 m ρ c (Proc.devRef .tc main_v1) = kv_main_v1 (ins m c) :=
  (Y2_of m ρ c main_v1 (by decide)).trans (bd_Y1_main_v1 m ρ c)

theorem bd_Y3_main_v1 (c : Dev nD) : Y3 m ρ c (Proc.devRef .tc main_v1) = kv_main_v1 (ins m c) :=
  (Y3_of m ρ c main_v1 (by decide)).trans (bd_Y2_main_v1 m ρ c)

set_option maxRecDepth 65536 in
set_option maxHeartbeats 4000000 in
theorem bd_Y1_main_v21 (c : Dev nD) : Y1 m ρ c (Proc.devRef .tc main_v21) = kv_main_v21 (ins m c) := by
  show StableHlo.after (q0 (F := Ideal)) (W3 m ρ c) (Proc.devRef .tc main_v21) = _
  after_results_simp
  show ((extractStridedSlice S8192x50 ![0, 50] · slices_S8192x200_S8192x50_0_50) : (⟨S8192x200, .f32⟩ : BufTy).Contents (Elt Ideal) → (⟨S8192x50, .f32⟩ : BufTy).Contents (Elt Ideal)) (W3 m ρ c (Proc.devRef .tc main_v15)) = _
  try rw [bd_W3_main_v15 m ρ c]
  rfl

theorem bd_Y2_main_v21 (c : Dev nD) : Y2 m ρ c (Proc.devRef .tc main_v21) = kv_main_v21 (ins m c) :=
  (Y2_of m ρ c main_v21 (by decide)).trans (bd_Y1_main_v21 m ρ c)

theorem bd_Y3_main_v21 (c : Dev nD) : Y3 m ρ c (Proc.devRef .tc main_v21) = kv_main_v21 (ins m c) :=
  (Y3_of m ρ c main_v21 (by decide)).trans (bd_Y2_main_v21 m ρ c)

set_option maxRecDepth 65536 in
set_option maxHeartbeats 4000000 in
theorem bd_Y4_main_v84 (c : Dev nD) : Y4 m ρ c (Proc.devRef .tc main_v84) = kv_main_v84 (ins m c) := by
  show StableHlo.after (q3 (F := Ideal)) (Y3 m ρ c) (Proc.devRef .tc main_v84) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y3 m ρ c (Proc.devRef .tc main_v1)) (Y3 m ρ c (Proc.devRef .tc main_v21)) = _
  try rw [bd_Y3_main_v1 m ρ c]
  try rw [bd_Y3_main_v21 m ρ c]
  rfl

theorem bd_Y5_main_v84 (c : Dev nD) : Y5 m ρ c (Proc.devRef .tc main_v84) = kv_main_v84 (ins m c) :=
  (Y5_of m ρ c main_v84 (by decide)).trans (bd_Y4_main_v84 m ρ c)

theorem bd_Y6_main_v84 (c : Dev nD) : Y6 m ρ c (Proc.devRef .tc main_v84) = kv_main_v84 (ins m c) :=
  (Y6_of m ρ c main_v84 (by decide)).trans (bd_Y5_main_v84 m ρ c)

theorem bd_Y1_main_v2 (c : Dev nD) : Y1 m ρ c (Proc.devRef .tc main_v2) = kv_main_v2 (ins m c) :=
  (Y1_of m ρ c main_v2 (by decide)).trans (bd_W3_main_v2 m ρ c)

theorem bd_Y2_main_v2 (c : Dev nD) : Y2 m ρ c (Proc.devRef .tc main_v2) = kv_main_v2 (ins m c) :=
  (Y2_of m ρ c main_v2 (by decide)).trans (bd_Y1_main_v2 m ρ c)

theorem bd_Y3_main_v2 (c : Dev nD) : Y3 m ρ c (Proc.devRef .tc main_v2) = kv_main_v2 (ins m c) :=
  (Y3_of m ρ c main_v2 (by decide)).trans (bd_Y2_main_v2 m ρ c)

set_option maxRecDepth 65536 in
set_option maxHeartbeats 4000000 in
theorem bd_Y1_main_v22 (c : Dev nD) : Y1 m ρ c (Proc.devRef .tc main_v22) = kv_main_v22 (ins m c) := by
  show StableHlo.after (q0 (F := Ideal)) (W3 m ρ c) (Proc.devRef .tc main_v22) = _
  after_results_simp
  show ((extractStridedSlice S8192x50 ![0, 100] · slices_S8192x200_S8192x50_0_100) : (⟨S8192x200, .f32⟩ : BufTy).Contents (Elt Ideal) → (⟨S8192x50, .f32⟩ : BufTy).Contents (Elt Ideal)) (W3 m ρ c (Proc.devRef .tc main_v15)) = _
  try rw [bd_W3_main_v15 m ρ c]
  rfl

theorem bd_Y2_main_v22 (c : Dev nD) : Y2 m ρ c (Proc.devRef .tc main_v22) = kv_main_v22 (ins m c) :=
  (Y2_of m ρ c main_v22 (by decide)).trans (bd_Y1_main_v22 m ρ c)

theorem bd_Y3_main_v22 (c : Dev nD) : Y3 m ρ c (Proc.devRef .tc main_v22) = kv_main_v22 (ins m c) :=
  (Y3_of m ρ c main_v22 (by decide)).trans (bd_Y2_main_v22 m ρ c)

set_option maxRecDepth 65536 in
set_option maxHeartbeats 4000000 in
theorem bd_Y4_main_v89 (c : Dev nD) : Y4 m ρ c (Proc.devRef .tc main_v89) = kv_main_v89 (ins m c) := by
  show StableHlo.after (q3 (F := Ideal)) (Y3 m ρ c) (Proc.devRef .tc main_v89) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Y3 m ρ c (Proc.devRef .tc main_v2))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Y3 m ρ c (Proc.devRef .tc main_v22))) = _
  try rw [bd_Y3_main_v2 m ρ c]
  try rw [bd_Y3_main_v22 m ρ c]
  rfl

theorem bd_Y5_main_v89 (c : Dev nD) : Y5 m ρ c (Proc.devRef .tc main_v89) = kv_main_v89 (ins m c) :=
  (Y5_of m ρ c main_v89 (by decide)).trans (bd_Y4_main_v89 m ρ c)

theorem bd_Y6_main_v89 (c : Dev nD) : Y6 m ρ c (Proc.devRef .tc main_v89) = kv_main_v89 (ins m c) :=
  (Y6_of m ρ c main_v89 (by decide)).trans (bd_Y5_main_v89 m ρ c)

end Cert.KernelIdeal.Hand

end
-- ==== Proof.Ideal.HostRunP5.lean ====
/-
  The kernel program's run read as values, continued: the value of every buffer a later segment reads, at every boundary
  (one lemma per buffer and boundary, in dependency order).
-/
import proofs.«174668_j26645977104432_2_alg».proof.Proof.Ideal.HostRunP4

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y1_main_v3 (c : Dev nD) : Y1 m ρ c (Proc.devRef .tc main_v3) = kv_main_v3 (ins m c) :=
  (Y1_of m ρ c main_v3 (by decide)).trans (bd_W3_main_v3 m ρ c)

theorem bd_Y2_main_v3 (c : Dev nD) : Y2 m ρ c (Proc.devRef .tc main_v3) = kv_main_v3 (ins m c) :=
  (Y2_of m ρ c main_v3 (by decide)).trans (bd_Y1_main_v3 m ρ c)

theorem bd_Y3_main_v3 (c : Dev nD) : Y3 m ρ c (Proc.devRef .tc main_v3) = kv_main_v3 (ins m c) :=
  (Y3_of m ρ c main_v3 (by decide)).trans (bd_Y2_main_v3 m ρ c)

set_option maxRecDepth 65536 in
set_option maxHeartbeats 4000000 in
theorem bd_Y1_main_v23 (c : Dev nD) : Y1 m ρ c (Proc.devRef .tc main_v23) = kv_main_v23 (ins m c) := by
  show StableHlo.after (q0 (F := Ideal)) (W3 m ρ c) (Proc.devRef .tc main_v23) = _
  after_results_simp
  show ((extractStridedSlice S8192x50 ![0, 150] · slices_S8192x200_S8192x50_0_150) : (⟨S8192x200, .f32⟩ : BufTy).Contents (Elt Ideal) → (⟨S8192x50, .f32⟩ : BufTy).Contents (Elt Ideal)) (W3 m ρ c (Proc.devRef .tc main_v15)) = _
  try rw [bd_W3_main_v15 m ρ c]
  rfl

theorem bd_Y2_main_v23 (c : Dev nD) : Y2 m ρ c (Proc.devRef .tc main_v23) = kv_main_v23 (ins m c) :=
  (Y2_of m ρ c main_v23 (by decide)).trans (bd_Y1_main_v23 m ρ c)

theorem bd_Y3_main_v23 (c : Dev nD) : Y3 m ρ c (Proc.devRef .tc main_v23) = kv_main_v23 (ins m c) :=
  (Y3_of m ρ c main_v23 (by decide)).trans (bd_Y2_main_v23 m ρ c)

set_option maxRecDepth 65536 in
set_option maxHeartbeats 4000000 in
theorem bd_Y4_main_v90 (c : Dev nD) : Y4 m ρ c (Proc.devRef .tc main_v90) = kv_main_v90 (ins m c) := by
  show StableHlo.after (q3 (F := Ideal)) (Y3 m ρ c) (Proc.devRef .tc main_v90) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y3 m ρ c (Proc.devRef .tc main_v3)) (Y3 m ρ c (Proc.devRef .tc main_v23)) = _
  try rw [bd_Y3_main_v3 m ρ c]
  try rw [bd_Y3_main_v23 m ρ c]
  rfl

theorem bd_Y5_main_v90 (c : Dev nD) : Y5 m ρ c (Proc.devRef .tc main_v90) = kv_main_v90 (ins m c) :=
  (Y5_of m ρ c main_v90 (by decide)).trans (bd_Y4_main_v90 m ρ c)

theorem bd_Y6_main_v90 (c : Dev nD) : Y6 m ρ c (Proc.devRef .tc main_v90) = kv_main_v90 (ins m c) :=
  (Y6_of m ρ c main_v90 (by decide)).trans (bd_Y5_main_v90 m ρ c)

set_option maxRecDepth 65536 in
set_option maxHeartbeats 4000000 in
theorem bd_Y7_main_v143 (c : Dev nD) : Y7 m ρ c (Proc.devRef .tc main_v143) = kv_main_v143 (ins m c) := by
  show StableHlo.after (q6 (F := Ideal)) (Y6 m ρ c) (Proc.devRef .tc main_v143) = _
  after_results_simp
  show concatenate S8192x200 1 [⟨S8192x50, (Y6 m ρ c (Proc.devRef .tc main_v83))⟩, ⟨S8192x50, (Y6 m ρ c (Proc.devRef .tc main_v84))⟩, ⟨S8192x50, (Y6 m ρ c (Proc.devRef .tc main_v89))⟩, ⟨S8192x50, (Y6 m ρ c (Proc.devRef .tc main_v90))⟩] concatenates_S8192x50_S8192x50_S8192x50_S8192x50_S8192x200_d1 = _
  try rw [bd_Y6_main_v83 m ρ c]
  try rw [bd_Y6_main_v84 m ρ c]
  try rw [bd_Y6_main_v89 m ρ c]
  try rw [bd_Y6_main_v90 m ρ c]
  rfl

theorem bd_W4_main_v143 (c : Dev nD) : W4 m ρ c (Proc.devRef .tc main_v143) = kv_main_v143 (ins m c) :=
  (congrFun (W4_eq m ρ c) _).trans (bd_Y7_main_v143 m ρ c)

theorem bd_W5_main_v143 (c : Dev nD) : W5 m ρ c (Proc.devRef .tc main_v143) = kv_main_v143 (ins m c) :=
  (W5_of_ne m ρ c main_v143 (by decide)).trans (bd_W4_main_v143 m ρ c)

theorem bd_W5_main_v13 (c : Dev nD) : W5 m ρ c (Proc.devRef .tc main_v13) = kv_main_v13 (ins m c) :=
  (W5_in m ρ c 2 rfl).trans (bd_W4_main_v13 m ρ c)

theorem bd_W5_main_v7 (c : Dev nD) : W5 m ρ c (Proc.devRef .tc main_v7) = kv_main_v7 (ins m c) :=
  (W5_in m ρ c 3 rfl).trans (bd_W4_main_v7 m ρ c)

theorem bd_W6_main_v145 (c : Dev nD) : W6 m ρ c (Proc.devRef .tc main_v145) = kv_main_v145 (ins m c) := by
  refine (W6_arr m ρ c 4).trans ((final3 (V5 m ρ) c).trans ?_)
  show tileOut (W5 m ρ c (Proc.devRef .tc main_arg1)) (W5 m ρ c (Proc.devRef .tc main_v143)) (W5 m ρ c (Proc.devRef .tc main_v13)) (W5 m ρ c (Proc.devRef .tc main_v7)) = _
  rw [bd_W5_main_arg1 m ρ c, bd_W5_main_v143 m ρ c, bd_W5_main_v13 m ρ c, bd_W5_main_v7 m ρ c]
  rfl

set_option maxRecDepth 65536 in
set_option maxHeartbeats 4000000 in
theorem bd_Z1_main_v150 (c : Dev nD) : Z1 m ρ c (Proc.devRef .tc main_v150) = kv_main_v150 (ins m c) := by
  show StableHlo.after (z0 (F := Ideal)) (W6 m ρ c) (Proc.devRef .tc main_v150) = _
  after_results_simp
  show ((extractStridedSlice S8192x50 ![0, 0] · slices_S8192x200_S8192x50_0_0) : (⟨S8192x200, .f32⟩ : BufTy).Contents (Elt Ideal) → (⟨S8192x50, .f32⟩ : BufTy).Contents (Elt Ideal)) (W6 m ρ c (Proc.devRef .tc main_v145)) = _
  try rw [bd_W6_main_v145 m ρ c]
  rfl

theorem bd_Z2_main_v150 (c : Dev nD) : Z2 m ρ c (Proc.devRef .tc main_v150) = kv_main_v150 (ins m c) :=
  (Z2_of m ρ c main_v150 (by decide)).trans (bd_Z1_main_v150 m ρ c)

theorem bd_Z3_main_v150 (c : Dev nD) : Z3 m ρ c (Proc.devRef .tc main_v150) = kv_main_v150 (ins m c) :=
  (Z3_of m ρ c main_v150 (by decide)).trans (bd_Z2_main_v150 m ρ c)

set_option maxRecDepth 65536 in
set_option maxHeartbeats 4000000 in
theorem bd_Z4_main_v229 (c : Dev nD) : Z4 m ρ c (Proc.devRef .tc main_v229) = kv_main_v229 (ins m c) := by
  show StableHlo.after (z3 (F := Ideal)) (Z3 m ρ c) (Proc.devRef .tc main_v229) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z3 m ρ c (Proc.devRef .tc main_v16))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z3 m ρ c (Proc.devRef .tc main_v150))) = _
  try rw [bd_Z3_main_v16 m ρ c]
  try rw [bd_Z3_main_v150 m ρ c]
  rfl

theorem bd_Z5_main_v229 (c : Dev nD) : Z5 m ρ c (Proc.devRef .tc main_v229) = kv_main_v229 (ins m c) :=
  (Z5_of m ρ c main_v229 (by decide)).trans (bd_Z4_main_v229 m ρ c)

theorem bd_Z6_main_v229 (c : Dev nD) : Z6 m ρ c (Proc.devRef .tc main_v229) = kv_main_v229 (ins m c) :=
  (Z6_of m ρ c main_v229 (by decide)).trans (bd_Z5_main_v229 m ρ c)

theorem bd_Z7_main_v229 (c : Dev nD) : Z7 m ρ c (Proc.devRef .tc main_v229) = kv_main_v229 (ins m c) :=
  (Z7_of m ρ c main_v229 (by decide)).trans (bd_Z6_main_v229 m ρ c)

theorem bd_Z8_main_v229 (c : Dev nD) : Z8 m ρ c (Proc.devRef .tc main_v229) = kv_main_v229 (ins m c) :=
  (Z8_of m ρ c main_v229 (by decide)).trans (bd_Z7_main_v229 m ρ c)

theorem bd_W0_main_arg5 (c : Dev nD) : W0 m ρ c (Proc.devRef .tc main_arg5) = (ins m c).x5 := rfl

theorem bd_W1_main_arg5 (c : Dev nD) : W1 m ρ c (Proc.devRef .tc main_arg5) = (ins m c).x5 :=
  (W1_of m ρ c main_arg5 (by decide)).trans (bd_W0_main_arg5 m ρ c)

theorem bd_W2_main_arg5 (c : Dev nD) : W2 m ρ c (Proc.devRef .tc main_arg5) = (ins m c).x5 :=
  (W2_of_ne m ρ c main_arg5 (by decide)).trans (bd_W1_main_arg5 m ρ c)

theorem bd_W3_main_arg5 (c : Dev nD) : W3 m ρ c (Proc.devRef .tc main_arg5) = (ins m c).x5 :=
  (W3_of_ne m ρ c main_arg5 (by decide)).trans (bd_W2_main_arg5 m ρ c)

set_option maxRecDepth 65536 in
set_option maxHeartbeats 4000000 in
theorem bd_Y1_main_v35 (c : Dev nD) : Y1 m ρ c (Proc.devRef .tc main_v35) = kv_main_v35 (ins m c) := by
  show StableHlo.after (q0 (F := Ideal)) (W3 m ρ c) (Proc.devRef .tc main_v35) = _
  after_results_simp
  show ((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (((extractStridedSlice S8192x50 ![0, 0] · slices_S8192x200_S8192x50_0_0) : (⟨S8192x200, .f32⟩ : BufTy).Contents (Elt Ideal) → (⟨S8192x50, .f32⟩ : BufTy).Contents (Elt Ideal)) (W3 m ρ c (Proc.devRef .tc main_v15))) (((extractStridedSlice S8192x50 ![0, 50] · slices_S8192x200_S8192x50_0_50) : (⟨S8192x200, .f32⟩ : BufTy).Contents (Elt Ideal) → (⟨S8192x50, .f32⟩ : BufTy).Contents (Elt Ideal)) (W3 m ρ c (Proc.devRef .tc main_v15)))) (shapeCast S100x50 (((extractStridedSlice S1x100x50 ![0, 0, 0] · slices_S12x100x50_S1x100x50_0_0_0) : (⟨S12x100x50, .f32⟩ : BufTy).Contents (Elt Ideal) → (⟨S1x100x50, .f32⟩ : BufTy).Contents (Elt Ideal)) (W3 m ρ c (Proc.devRef .tc main_arg5))) shapeCasts_S1x100x50_S100x50) = _
  try rw [bd_W3_main_v15 m ρ c]
  try rw [bd_W3_main_arg5 m ρ c]
  rfl

theorem bd_W0_main_arg6 (c : Dev nD) : W0 m ρ c (Proc.devRef .tc main_arg6) = (ins m c).x6 := rfl

theorem bd_W1_main_arg6 (c : Dev nD) : W1 m ρ c (Proc.devRef .tc main_arg6) = (ins m c).x6 :=
  (W1_of m ρ c main_arg6 (by decide)).trans (bd_W0_main_arg6 m ρ c)

end Cert.KernelIdeal.Hand

end
-- ==== Proof.Ideal.HostRunP6.lean ====
/-
  The kernel program's run read as values, continued: the value of every buffer a later segment reads, at every boundary
  (one lemma per buffer and boundary, in dependency order).
-/
import proofs.«174668_j26645977104432_2_alg».proof.Proof.Ideal.HostRunP5

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_W2_main_arg6 (c : Dev nD) : W2 m ρ c (Proc.devRef .tc main_arg6) = (ins m c).x6 :=
  (W2_of_ne m ρ c main_arg6 (by decide)).trans (bd_W1_main_arg6 m ρ c)

theorem bd_W3_main_arg6 (c : Dev nD) : W3 m ρ c (Proc.devRef .tc main_arg6) = (ins m c).x6 :=
  (W3_of_ne m ρ c main_arg6 (by decide)).trans (bd_W2_main_arg6 m ρ c)

set_option maxRecDepth 65536 in
set_option maxHeartbeats 4000000 in
theorem bd_Y1_main_v38 (c : Dev nD) : Y1 m ρ c (Proc.devRef .tc main_v38) = kv_main_v38 (ins m c) := by
  show StableHlo.after (q0 (F := Ideal)) (W3 m ρ c) (Proc.devRef .tc main_v38) = _
  after_results_simp
  show (broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![0, 0] · slices_S12x50_S1x50_0_0) : (⟨S12x50, .f32⟩ : BufTy).Contents (Elt Ideal) → (⟨S1x50, .f32⟩ : BufTy).Contents (Elt Ideal)) (W3 m ρ c (Proc.devRef .tc main_arg6))) shapeCasts_S1x50_S50) = _
  try rw [bd_W3_main_arg6 m ρ c]
  rfl

set_option maxRecDepth 65536 in
set_option maxHeartbeats 4000000 in
theorem bd_Y2_main_v48 (c : Dev nD) : Y2 m ρ c (Proc.devRef .tc main_v48) = kv_main_v48 (ins m c) := by
  show StableHlo.after (q1 (F := Ideal)) (Y1 m ρ c) (Proc.devRef .tc main_v48) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y1 m ρ c (Proc.devRef .tc main_v21)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y1 m ρ c (Proc.devRef .tc main_v35)) ((broadcastInDim S8192x50 ![0, 1] bcast_S1x50_S8192x50_0_1 : (⟨S1x50, .f32⟩ : BufTy).Contents (Elt Ideal) → (⟨S8192x50, .f32⟩ : BufTy).Contents (Elt Ideal)) (Y1 m ρ c (Proc.devRef .tc main_v38)))))))) (Y1 m ρ c (Proc.devRef .tc main_v20))) = _
  try rw [bd_Y1_main_v21 m ρ c]
  try rw [bd_Y1_main_v35 m ρ c]
  try rw [bd_Y1_main_v38 m ρ c]
  try rw [bd_Y1_main_v20 m ρ c]
  rfl

theorem bd_Y3_main_v48 (c : Dev nD) : Y3 m ρ c (Proc.devRef .tc main_v48) = kv_main_v48 (ins m c) :=
  (Y3_of m ρ c main_v48 (by decide)).trans (bd_Y2_main_v48 m ρ c)

theorem bd_Y4_main_v48 (c : Dev nD) : Y4 m ρ c (Proc.devRef .tc main_v48) = kv_main_v48 (ins m c) :=
  (Y4_of m ρ c main_v48 (by decide)).trans (bd_Y3_main_v48 m ρ c)

theorem bd_Y5_main_v48 (c : Dev nD) : Y5 m ρ c (Proc.devRef .tc main_v48) = kv_main_v48 (ins m c) :=
  (Y5_of m ρ c main_v48 (by decide)).trans (bd_Y4_main_v48 m ρ c)

theorem bd_Y6_main_v48 (c : Dev nD) : Y6 m ρ c (Proc.devRef .tc main_v48) = kv_main_v48 (ins m c) :=
  (Y6_of m ρ c main_v48 (by decide)).trans (bd_Y5_main_v48 m ρ c)

theorem bd_Y7_main_v48 (c : Dev nD) : Y7 m ρ c (Proc.devRef .tc main_v48) = kv_main_v48 (ins m c) :=
  (Y7_of m ρ c main_v48 (by decide)).trans (bd_Y6_main_v48 m ρ c)

theorem bd_W4_main_v48 (c : Dev nD) : W4 m ρ c (Proc.devRef .tc main_v48) = kv_main_v48 (ins m c) :=
  (congrFun (W4_eq m ρ c) _).trans (bd_Y7_main_v48 m ρ c)

theorem bd_W5_main_v48 (c : Dev nD) : W5 m ρ c (Proc.devRef .tc main_v48) = kv_main_v48 (ins m c) :=
  (W5_of_ne m ρ c main_v48 (by decide)).trans (bd_W4_main_v48 m ρ c)

theorem bd_W6_main_v48 (c : Dev nD) : W6 m ρ c (Proc.devRef .tc main_v48) = kv_main_v48 (ins m c) :=
  (W6_of_ne m ρ c main_v48 (by decide)).trans (bd_W5_main_v48 m ρ c)

set_option maxRecDepth 65536 in
set_option maxHeartbeats 4000000 in
theorem bd_Z1_main_v164 (c : Dev nD) : Z1 m ρ c (Proc.devRef .tc main_v164) = kv_main_v164 (ins m c) := by
  show StableHlo.after (z0 (F := Ideal)) (W6 m ρ c) (Proc.devRef .tc main_v164) = _
  after_results_simp
  show ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (W6 m ρ c (Proc.devRef .tc main_v20))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (((extractStridedSlice S8192x50 ![0, 0] · slices_S8192x200_S8192x50_0_0) : (⟨S8192x200, .f32⟩ : BufTy).Contents (Elt Ideal) → (⟨S8192x50, .f32⟩ : BufTy).Contents (Elt Ideal)) (W6 m ρ c (Proc.devRef .tc main_v144))))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (W6 m ρ c (Proc.devRef .tc main_v48))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (((extractStridedSlice S8192x50 ![0, 50] · slices_S8192x200_S8192x50_0_50) : (⟨S8192x200, .f32⟩ : BufTy).Contents (Elt Ideal) → (⟨S8192x50, .f32⟩ : BufTy).Contents (Elt Ideal)) (W6 m ρ c (Proc.devRef .tc main_v144))))) = _
  try rw [bd_W6_main_v20 m ρ c]
  try rw [bd_W6_main_v144 m ρ c]
  try rw [bd_W6_main_v48 m ρ c]
  rfl

theorem bd_Y1_main_arg5 (c : Dev nD) : Y1 m ρ c (Proc.devRef .tc main_arg5) = (ins m c).x5 :=
  (Y1_of m ρ c main_arg5 (by decide)).trans (bd_W3_main_arg5 m ρ c)

theorem bd_Y2_main_arg5 (c : Dev nD) : Y2 m ρ c (Proc.devRef .tc main_arg5) = (ins m c).x5 :=
  (Y2_of m ρ c main_arg5 (by decide)).trans (bd_Y1_main_arg5 m ρ c)

theorem bd_Y3_main_arg5 (c : Dev nD) : Y3 m ρ c (Proc.devRef .tc main_arg5) = (ins m c).x5 :=
  (Y3_of m ρ c main_arg5 (by decide)).trans (bd_Y2_main_arg5 m ρ c)

theorem bd_Y4_main_arg5 (c : Dev nD) : Y4 m ρ c (Proc.devRef .tc main_arg5) = (ins m c).x5 :=
  (Y4_of m ρ c main_arg5 (by decide)).trans (bd_Y3_main_arg5 m ρ c)

theorem bd_Y5_main_arg5 (c : Dev nD) : Y5 m ρ c (Proc.devRef .tc main_arg5) = (ins m c).x5 :=
  (Y5_of m ρ c main_arg5 (by decide)).trans (bd_Y4_main_arg5 m ρ c)

theorem bd_Y6_main_arg5 (c : Dev nD) : Y6 m ρ c (Proc.devRef .tc main_arg5) = (ins m c).x5 :=
  (Y6_of m ρ c main_arg5 (by decide)).trans (bd_Y5_main_arg5 m ρ c)

theorem bd_Y7_main_arg5 (c : Dev nD) : Y7 m ρ c (Proc.devRef .tc main_arg5) = (ins m c).x5 :=
  (Y7_of m ρ c main_arg5 (by decide)).trans (bd_Y6_main_arg5 m ρ c)

theorem bd_W4_main_arg5 (c : Dev nD) : W4 m ρ c (Proc.devRef .tc main_arg5) = (ins m c).x5 :=
  (congrFun (W4_eq m ρ c) _).trans (bd_Y7_main_arg5 m ρ c)

theorem bd_W5_main_arg5 (c : Dev nD) : W5 m ρ c (Proc.devRef .tc main_arg5) = (ins m c).x5 :=
  (W5_of_ne m ρ c main_arg5 (by decide)).trans (bd_W4_main_arg5 m ρ c)

theorem bd_W6_main_arg5 (c : Dev nD) : W6 m ρ c (Proc.devRef .tc main_arg5) = (ins m c).x5 :=
  (W6_of_ne m ρ c main_arg5 (by decide)).trans (bd_W5_main_arg5 m ρ c)

set_option maxRecDepth 65536 in
set_option maxHeartbeats 4000000 in
theorem bd_Z1_main_v166 (c : Dev nD) : Z1 m ρ c (Proc.devRef .tc main_v166) = kv_main_v166 (ins m c) := by
  show StableHlo.after (z0 (F := Ideal)) (W6 m ρ c) (Proc.devRef .tc main_v166) = _
  after_results_simp
  show shapeCast S100x50 (((extractStridedSlice S1x100x50 ![3, 0, 0] · slices_S12x100x50_S1x100x50_3_0_0) : (⟨S12x100x50, .f32⟩ : BufTy).Contents (Elt Ideal) → (⟨S1x100x50, .f32⟩ : BufTy).Contents (Elt Ideal)) (W6 m ρ c (Proc.devRef .tc main_arg5))) shapeCasts_S1x100x50_S100x50 = _
  try rw [bd_W6_main_arg5 m ρ c]
  rfl

theorem bd_Y1_main_arg6 (c : Dev nD) : Y1 m ρ c (Proc.devRef .tc main_arg6) = (ins m c).x6 :=
  (Y1_of m ρ c main_arg6 (by decide)).trans (bd_W3_main_arg6 m ρ c)

theorem bd_Y2_main_arg6 (c : Dev nD) : Y2 m ρ c (Proc.devRef .tc main_arg6) = (ins m c).x6 :=
  (Y2_of m ρ c main_arg6 (by decide)).trans (bd_Y1_main_arg6 m ρ c)

theorem bd_Y3_main_arg6 (c : Dev nD) : Y3 m ρ c (Proc.devRef .tc main_arg6) = (ins m c).x6 :=
  (Y3_of m ρ c main_arg6 (by decide)).trans (bd_Y2_main_arg6 m ρ c)

theorem bd_Y4_main_arg6 (c : Dev nD) : Y4 m ρ c (Proc.devRef .tc main_arg6) = (ins m c).x6 :=
  (Y4_of m ρ c main_arg6 (by decide)).trans (bd_Y3_main_arg6 m ρ c)

theorem bd_Y5_main_arg6 (c : Dev nD) : Y5 m ρ c (Proc.devRef .tc main_arg6) = (ins m c).x6 :=
  (Y5_of m ρ c main_arg6 (by decide)).trans (bd_Y4_main_arg6 m ρ c)

theorem bd_Y6_main_arg6 (c : Dev nD) : Y6 m ρ c (Proc.devRef .tc main_arg6) = (ins m c).x6 :=
  (Y6_of m ρ c main_arg6 (by decide)).trans (bd_Y5_main_arg6 m ρ c)

end Cert.KernelIdeal.Hand

end
-- ==== Proof.Ideal.HostRunP7.lean ====
/-
  The kernel program's run read as values, continued: the value of every buffer a later segment reads, at every boundary
  (one lemma per buffer and boundary, in dependency order).
-/
import proofs.«174668_j26645977104432_2_alg».proof.Proof.Ideal.HostRunP6

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y7_main_arg6 (c : Dev nD) : Y7 m ρ c (Proc.devRef .tc main_arg6) = (ins m c).x6 :=
  (Y7_of m ρ c main_arg6 (by decide)).trans (bd_Y6_main_arg6 m ρ c)

theorem bd_W4_main_arg6 (c : Dev nD) : W4 m ρ c (Proc.devRef .tc main_arg6) = (ins m c).x6 :=
  (congrFun (W4_eq m ρ c) _).trans (bd_Y7_main_arg6 m ρ c)

theorem bd_W5_main_arg6 (c : Dev nD) : W5 m ρ c (Proc.devRef .tc main_arg6) = (ins m c).x6 :=
  (W5_of_ne m ρ c main_arg6 (by decide)).trans (bd_W4_main_arg6 m ρ c)

theorem bd_W6_main_arg6 (c : Dev nD) : W6 m ρ c (Proc.devRef .tc main_arg6) = (ins m c).x6 :=
  (W6_of_ne m ρ c main_arg6 (by decide)).trans (bd_W5_main_arg6 m ρ c)

theorem bd_Z1_main_arg6 (c : Dev nD) : Z1 m ρ c (Proc.devRef .tc main_arg6) = (ins m c).x6 :=
  (Z1_of m ρ c main_arg6 (by decide)).trans (bd_W6_main_arg6 m ρ c)

set_option maxRecDepth 65536 in
set_option maxHeartbeats 4000000 in
theorem bd_Z1_main_v163 (c : Dev nD) : Z1 m ρ c (Proc.devRef .tc main_v163) = kv_main_v163 (ins m c) := by
  show StableHlo.after (z0 (F := Ideal)) (W6 m ρ c) (Proc.devRef .tc main_v163) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (W6 m ρ c (Proc.devRef .tc main_v48))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (((extractStridedSlice S8192x50 ![0, 50] · slices_S8192x200_S8192x50_0_50) : (⟨S8192x200, .f32⟩ : BufTy).Contents (Elt Ideal) → (⟨S8192x50, .f32⟩ : BufTy).Contents (Elt Ideal)) (W6 m ρ c (Proc.devRef .tc main_v144)))) = _
  try rw [bd_W6_main_v48 m ρ c]
  try rw [bd_W6_main_v144 m ρ c]
  rfl

set_option maxRecDepth 65536 in
set_option maxHeartbeats 4000000 in
theorem bd_Z2_main_v180 (c : Dev nD) : Z2 m ρ c (Proc.devRef .tc main_v180) = kv_main_v180 (ins m c) := by
  show StableHlo.after (z1 (F := Ideal)) (Z1 m ρ c) (Proc.devRef .tc main_v180) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (Z1 m ρ c (Proc.devRef .tc main_v164)) (Z1 m ρ c (Proc.devRef .tc main_v166))) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![3, 0] · slices_S12x50_S1x50_3_0) : (⟨S12x50, .f32⟩ : BufTy).Contents (Elt Ideal) → (⟨S1x50, .f32⟩ : BufTy).Contents (Elt Ideal)) (Z1 m ρ c (Proc.devRef .tc main_arg6))) shapeCasts_S1x50_S50)))))))) (Z1 m ρ c (Proc.devRef .tc main_v158))) (Z1 m ρ c (Proc.devRef .tc main_v163)) = _
  try rw [bd_Z1_main_v164 m ρ c]
  try rw [bd_Z1_main_v166 m ρ c]
  try rw [bd_Z1_main_arg6 m ρ c]
  try rw [bd_Z1_main_v158 m ρ c]
  try rw [bd_Z1_main_v163 m ρ c]
  rfl

theorem bd_Z3_main_v180 (c : Dev nD) : Z3 m ρ c (Proc.devRef .tc main_v180) = kv_main_v180 (ins m c) :=
  (Z3_of m ρ c main_v180 (by decide)).trans (bd_Z2_main_v180 m ρ c)

theorem bd_Z4_main_v180 (c : Dev nD) : Z4 m ρ c (Proc.devRef .tc main_v180) = kv_main_v180 (ins m c) :=
  (Z4_of m ρ c main_v180 (by decide)).trans (bd_Z3_main_v180 m ρ c)

theorem bd_Z5_main_v180 (c : Dev nD) : Z5 m ρ c (Proc.devRef .tc main_v180) = kv_main_v180 (ins m c) :=
  (Z5_of m ρ c main_v180 (by decide)).trans (bd_Z4_main_v180 m ρ c)

theorem bd_Z6_main_v180 (c : Dev nD) : Z6 m ρ c (Proc.devRef .tc main_v180) = kv_main_v180 (ins m c) :=
  (Z6_of m ρ c main_v180 (by decide)).trans (bd_Z5_main_v180 m ρ c)

theorem bd_Z7_main_v180 (c : Dev nD) : Z7 m ρ c (Proc.devRef .tc main_v180) = kv_main_v180 (ins m c) :=
  (Z7_of m ρ c main_v180 (by decide)).trans (bd_Z6_main_v180 m ρ c)

theorem bd_Z8_main_v180 (c : Dev nD) : Z8 m ρ c (Proc.devRef .tc main_v180) = kv_main_v180 (ins m c) :=
  (Z8_of m ρ c main_v180 (by decide)).trans (bd_Z7_main_v180 m ρ c)

set_option maxRecDepth 65536 in
set_option maxHeartbeats 4000000 in
theorem bd_Y1_main_v17 (c : Dev nD) : Y1 m ρ c (Proc.devRef .tc main_v17) = kv_main_v17 (ins m c) := by
  show StableHlo.after (q0 (F := Ideal)) (W3 m ρ c) (Proc.devRef .tc main_v17) = _
  after_results_simp
  show ((extractStridedSlice S8192x50 ![0, 50] · slices_S8192x200_S8192x50_0_50) : (⟨S8192x200, .f32⟩ : BufTy).Contents (Elt Ideal) → (⟨S8192x50, .f32⟩ : BufTy).Contents (Elt Ideal)) (W3 m ρ c (Proc.devRef .tc main_v14)) = _
  try rw [bd_W3_main_v14 m ρ c]
  rfl

theorem bd_Y2_main_v17 (c : Dev nD) : Y2 m ρ c (Proc.devRef .tc main_v17) = kv_main_v17 (ins m c) :=
  (Y2_of m ρ c main_v17 (by decide)).trans (bd_Y1_main_v17 m ρ c)

theorem bd_Y3_main_v17 (c : Dev nD) : Y3 m ρ c (Proc.devRef .tc main_v17) = kv_main_v17 (ins m c) :=
  (Y3_of m ρ c main_v17 (by decide)).trans (bd_Y2_main_v17 m ρ c)

theorem bd_Y4_main_v17 (c : Dev nD) : Y4 m ρ c (Proc.devRef .tc main_v17) = kv_main_v17 (ins m c) :=
  (Y4_of m ρ c main_v17 (by decide)).trans (bd_Y3_main_v17 m ρ c)

set_option maxRecDepth 65536 in
set_option maxHeartbeats 4000000 in
theorem bd_Y4_main_cst_11 (c : Dev nD) : Y4 m ρ c (Proc.devRef .tc main_cst_11) = kv_main_cst_11 (ins m c) := by
  show StableHlo.after (q3 (F := Ideal)) (Y3 m ρ c) (Proc.devRef .tc main_cst_11) = _
  after_results_simp
  show (constant (F := Ideal) S_ .f32 0x3F800000#32) = _
  skip
  rfl

set_option maxRecDepth 65536 in
set_option maxHeartbeats 4000000 in
theorem bd_Y4_main_v103 (c : Dev nD) : Y4 m ρ c (Proc.devRef .tc main_v103) = kv_main_v103 (ins m c) := by
  show StableHlo.after (q3 (F := Ideal)) (Y3 m ρ c) (Proc.devRef .tc main_v103) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (Y3 m ρ c (Proc.devRef .tc main_v16)) (Y3 m ρ c (Proc.devRef .tc main_v17))) (shapeCast S100x50 (((extractStridedSlice S1x100x50 ![9, 0, 0] · slices_S12x100x50_S1x100x50_9_0_0) : (⟨S12x100x50, .f32⟩ : BufTy).Contents (Elt Ideal) → (⟨S1x100x50, .f32⟩ : BufTy).Contents (Elt Ideal)) (Y3 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![9, 0] · slices_S12x50_S1x50_9_0) : (⟨S12x50, .f32⟩ : BufTy).Contents (Elt Ideal) → (⟨S1x50, .f32⟩ : BufTy).Contents (Elt Ideal)) (Y3 m ρ c (Proc.devRef .tc main_arg6))) shapeCasts_S1x50_S50)))))) = _
  try rw [bd_Y3_main_v16 m ρ c]
  try rw [bd_Y3_main_v17 m ρ c]
  try rw [bd_Y3_main_arg5 m ρ c]
  try rw [bd_Y3_main_arg6 m ρ c]
  rfl

set_option maxRecDepth 65536 in
set_option maxHeartbeats 4000000 in
theorem bd_Y5_main_v107 (c : Dev nD) : Y5 m ρ c (Proc.devRef .tc main_v107) = kv_main_v107 (ins m c) := by
  show StableHlo.after (q4 (F := Ideal)) (Y4 m ρ c) (Proc.devRef .tc main_v107) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v17)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) (Y4 m ρ c (Proc.devRef .tc main_cst_11))) (Y4 m ρ c (Proc.devRef .tc main_v103))) (Y4 m ρ c (Proc.devRef .tc main_v16))) = _
  try rw [bd_Y4_main_v17 m ρ c]
  try rw [bd_Y4_main_cst_11 m ρ c]
  try rw [bd_Y4_main_v103 m ρ c]
  try rw [bd_Y4_main_v16 m ρ c]
  rfl

theorem bd_Y6_main_v107 (c : Dev nD) : Y6 m ρ c (Proc.devRef .tc main_v107) = kv_main_v107 (ins m c) :=
  (Y6_of m ρ c main_v107 (by decide)).trans (bd_Y5_main_v107 m ρ c)

theorem bd_Y7_main_v107 (c : Dev nD) : Y7 m ρ c (Proc.devRef .tc main_v107) = kv_main_v107 (ins m c) :=
  (Y7_of m ρ c main_v107 (by decide)).trans (bd_Y6_main_v107 m ρ c)

theorem bd_W4_main_v107 (c : Dev nD) : W4 m ρ c (Proc.devRef .tc main_v107) = kv_main_v107 (ins m c) :=
  (congrFun (W4_eq m ρ c) _).trans (bd_Y7_main_v107 m ρ c)

theorem bd_W5_main_v107 (c : Dev nD) : W5 m ρ c (Proc.devRef .tc main_v107) = kv_main_v107 (ins m c) :=
  (W5_of_ne m ρ c main_v107 (by decide)).trans (bd_W4_main_v107 m ρ c)

theorem bd_W6_main_v107 (c : Dev nD) : W6 m ρ c (Proc.devRef .tc main_v107) = kv_main_v107 (ins m c) :=
  (W6_of_ne m ρ c main_v107 (by decide)).trans (bd_W5_main_v107 m ρ c)

theorem bd_Z1_main_v107 (c : Dev nD) : Z1 m ρ c (Proc.devRef .tc main_v107) = kv_main_v107 (ins m c) :=
  (Z1_of m ρ c main_v107 (by decide)).trans (bd_W6_main_v107 m ρ c)

theorem bd_Z2_main_v107 (c : Dev nD) : Z2 m ρ c (Proc.devRef .tc main_v107) = kv_main_v107 (ins m c) :=
  (Z2_of m ρ c main_v107 (by decide)).trans (bd_Z1_main_v107 m ρ c)

theorem bd_Z3_main_v107 (c : Dev nD) : Z3 m ρ c (Proc.devRef .tc main_v107) = kv_main_v107 (ins m c) :=
  (Z3_of m ρ c main_v107 (by decide)).trans (bd_Z2_main_v107 m ρ c)

theorem bd_Z4_main_v107 (c : Dev nD) : Z4 m ρ c (Proc.devRef .tc main_v107) = kv_main_v107 (ins m c) :=
  (Z4_of m ρ c main_v107 (by decide)).trans (bd_Z3_main_v107 m ρ c)

set_option maxRecDepth 65536 in
set_option maxHeartbeats 4000000 in
theorem bd_Z1_main_v151 (c : Dev nD) : Z1 m ρ c (Proc.devRef .tc main_v151) = kv_main_v151 (ins m c) := by
  show StableHlo.after (z0 (F := Ideal)) (W6 m ρ c) (Proc.devRef .tc main_v151) = _
  after_results_simp
  show ((extractStridedSlice S8192x50 ![0, 50] · slices_S8192x200_S8192x50_0_50) : (⟨S8192x200, .f32⟩ : BufTy).Contents (Elt Ideal) → (⟨S8192x50, .f32⟩ : BufTy).Contents (Elt Ideal)) (W6 m ρ c (Proc.devRef .tc main_v145)) = _
  try rw [bd_W6_main_v145 m ρ c]
  rfl

end Cert.KernelIdeal.Hand

end
-- ==== Proof.Ideal.HostRunP8.lean ====
/-
  The kernel program's run read as values, continued: the value of every buffer a later segment reads, at every boundary
  (one lemma per buffer and boundary, in dependency order).
-/
import proofs.«174668_j26645977104432_2_alg».proof.Proof.Ideal.HostRunP7

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Z2_main_v151 (c : Dev nD) : Z2 m ρ c (Proc.devRef .tc main_v151) = kv_main_v151 (ins m c) :=
  (Z2_of m ρ c main_v151 (by decide)).trans (bd_Z1_main_v151 m ρ c)

theorem bd_Z3_main_v151 (c : Dev nD) : Z3 m ρ c (Proc.devRef .tc main_v151) = kv_main_v151 (ins m c) :=
  (Z3_of m ρ c main_v151 (by decide)).trans (bd_Z2_main_v151 m ρ c)

theorem bd_Z4_main_v151 (c : Dev nD) : Z4 m ρ c (Proc.devRef .tc main_v151) = kv_main_v151 (ins m c) :=
  (Z4_of m ρ c main_v151 (by decide)).trans (bd_Z3_main_v151 m ρ c)

theorem bd_Z1_main_arg5 (c : Dev nD) : Z1 m ρ c (Proc.devRef .tc main_arg5) = (ins m c).x5 :=
  (Z1_of m ρ c main_arg5 (by decide)).trans (bd_W6_main_arg5 m ρ c)

theorem bd_Z2_main_arg5 (c : Dev nD) : Z2 m ρ c (Proc.devRef .tc main_arg5) = (ins m c).x5 :=
  (Z2_of m ρ c main_arg5 (by decide)).trans (bd_Z1_main_arg5 m ρ c)

theorem bd_Z3_main_arg5 (c : Dev nD) : Z3 m ρ c (Proc.devRef .tc main_arg5) = (ins m c).x5 :=
  (Z3_of m ρ c main_arg5 (by decide)).trans (bd_Z2_main_arg5 m ρ c)

theorem bd_Z4_main_arg5 (c : Dev nD) : Z4 m ρ c (Proc.devRef .tc main_arg5) = (ins m c).x5 :=
  (Z4_of m ρ c main_arg5 (by decide)).trans (bd_Z3_main_arg5 m ρ c)

theorem bd_Z2_main_arg6 (c : Dev nD) : Z2 m ρ c (Proc.devRef .tc main_arg6) = (ins m c).x6 :=
  (Z2_of m ρ c main_arg6 (by decide)).trans (bd_Z1_main_arg6 m ρ c)

theorem bd_Z3_main_arg6 (c : Dev nD) : Z3 m ρ c (Proc.devRef .tc main_arg6) = (ins m c).x6 :=
  (Z3_of m ρ c main_arg6 (by decide)).trans (bd_Z2_main_arg6 m ρ c)

theorem bd_Z4_main_arg6 (c : Dev nD) : Z4 m ρ c (Proc.devRef .tc main_arg6) = (ins m c).x6 :=
  (Z4_of m ρ c main_arg6 (by decide)).trans (bd_Z3_main_arg6 m ρ c)

set_option maxRecDepth 65536 in
set_option maxHeartbeats 4000000 in
theorem bd_Z5_main_v250 (c : Dev nD) : Z5 m ρ c (Proc.devRef .tc main_v250) = kv_main_v250 (ins m c) := by
  show StableHlo.after (z4 (F := Ideal)) (Z4 m ρ c) (Proc.devRef .tc main_v250) = _
  after_results_simp
  show (mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) (Z4 m ρ c (Proc.devRef .tc main_v229)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z4 m ρ c (Proc.devRef .tc main_v107))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z4 m ρ c (Proc.devRef .tc main_v151))))) (shapeCast S100x50 (((extractStridedSlice S1x100x50 ![6, 0, 0] · slices_S12x100x50_S1x100x50_6_0_0) : (⟨S12x100x50, .f32⟩ : BufTy).Contents (Elt Ideal) → (⟨S1x100x50, .f32⟩ : BufTy).Contents (Elt Ideal)) (Z4 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![6, 0] · slices_S12x50_S1x50_6_0) : (⟨S12x50, .f32⟩ : BufTy).Contents (Elt Ideal) → (⟨S1x50, .f32⟩ : BufTy).Contents (Elt Ideal)) (Z4 m ρ c (Proc.devRef .tc main_arg6))) shapeCasts_S1x50_S50)))))))) (Z4 m ρ c (Proc.devRef .tc main_v229)) = _
  try rw [bd_Z4_main_v229 m ρ c]
  try rw [bd_Z4_main_v107 m ρ c]
  try rw [bd_Z4_main_v151 m ρ c]
  try rw [bd_Z4_main_arg5 m ρ c]
  try rw [bd_Z4_main_arg6 m ρ c]
  rfl

set_option maxRecDepth 65536 in
set_option maxHeartbeats 4000000 in
theorem bd_Z5_main_v234 (c : Dev nD) : Z5 m ρ c (Proc.devRef .tc main_v234) = kv_main_v234 (ins m c) := by
  show StableHlo.after (z4 (F := Ideal)) (Z4 m ρ c) (Proc.devRef .tc main_v234) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z4 m ρ c (Proc.devRef .tc main_v107))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z4 m ρ c (Proc.devRef .tc main_v151))) = _
  try rw [bd_Z4_main_v107 m ρ c]
  try rw [bd_Z4_main_v151 m ρ c]
  rfl

set_option maxRecDepth 65536 in
set_option maxHeartbeats 4000000 in
theorem bd_Z6_main_v251 (c : Dev nD) : Z6 m ρ c (Proc.devRef .tc main_v251) = kv_main_v251 (ins m c) := by
  show StableHlo.after (z5 (F := Ideal)) (Z5 m ρ c) (Proc.devRef .tc main_v251) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Z5 m ρ c (Proc.devRef .tc main_v250)) (Z5 m ρ c (Proc.devRef .tc main_v234)) = _
  try rw [bd_Z5_main_v250 m ρ c]
  try rw [bd_Z5_main_v234 m ρ c]
  rfl

theorem bd_Z7_main_v251 (c : Dev nD) : Z7 m ρ c (Proc.devRef .tc main_v251) = kv_main_v251 (ins m c) :=
  (Z7_of m ρ c main_v251 (by decide)).trans (bd_Z6_main_v251 m ρ c)

theorem bd_Z8_main_v251 (c : Dev nD) : Z8 m ρ c (Proc.devRef .tc main_v251) = kv_main_v251 (ins m c) :=
  (Z8_of m ρ c main_v251 (by decide)).trans (bd_Z7_main_v251 m ρ c)

set_option maxRecDepth 65536 in
set_option maxHeartbeats 4000000 in
theorem bd_Y2_main_v60 (c : Dev nD) : Y2 m ρ c (Proc.devRef .tc main_v60) = kv_main_v60 (ins m c) := by
  show StableHlo.after (q1 (F := Ideal)) (Y1 m ρ c) (Proc.devRef .tc main_v60) = _
  after_results_simp
  show (broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32)) = _
  skip
  rfl

set_option maxRecDepth 65536 in
set_option maxHeartbeats 4000000 in
theorem bd_Y2_main_v59 (c : Dev nD) : Y2 m ρ c (Proc.devRef .tc main_v59) = kv_main_v59 (ins m c) := by
  show StableHlo.after (q1 (F := Ideal)) (Y1 m ρ c) (Proc.devRef .tc main_v59) = _
  after_results_simp
  show (Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y1 m ρ c (Proc.devRef .tc main_v21)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y1 m ρ c (Proc.devRef .tc main_v35)) ((broadcastInDim S8192x50 ![0, 1] bcast_S1x50_S8192x50_0_1 : (⟨S1x50, .f32⟩ : BufTy).Contents (Elt Ideal) → (⟨S8192x50, .f32⟩ : BufTy).Contents (Elt Ideal)) (Y1 m ρ c (Proc.devRef .tc main_v38)))))))) (Y1 m ρ c (Proc.devRef .tc main_v20)))) (Y1 m ρ c (Proc.devRef .tc main_v22))) (shapeCast S100x50 (((extractStridedSlice S1x100x50 ![1, 0, 0] · slices_S12x100x50_S1x100x50_1_0_0) : (⟨S12x100x50, .f32⟩ : BufTy).Contents (Elt Ideal) → (⟨S1x100x50, .f32⟩ : BufTy).Contents (Elt Ideal)) (Y1 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![1, 0] · slices_S12x50_S1x50_1_0) : (⟨S12x50, .f32⟩ : BufTy).Contents (Elt Ideal) → (⟨S1x50, .f32⟩ : BufTy).Contents (Elt Ideal)) (Y1 m ρ c (Proc.devRef .tc main_arg6))) shapeCasts_S1x50_S50))))) = _
  try rw [bd_Y1_main_v21 m ρ c]
  try rw [bd_Y1_main_v35 m ρ c]
  try rw [bd_Y1_main_v38 m ρ c]
  try rw [bd_Y1_main_v20 m ρ c]
  try rw [bd_Y1_main_v22 m ρ c]
  try rw [bd_Y1_main_arg5 m ρ c]
  try rw [bd_Y1_main_arg6 m ρ c]
  rfl

set_option maxRecDepth 65536 in
set_option maxHeartbeats 4000000 in
theorem bd_Y3_main_v65 (c : Dev nD) : Y3 m ρ c (Proc.devRef .tc main_v65) = kv_main_v65 (ins m c) := by
  show StableHlo.after (q2 (F := Ideal)) (Y2 m ρ c) (Proc.devRef .tc main_v65) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v22)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v60)) (Y2 m ρ c (Proc.devRef .tc main_v59)))) (Y2 m ρ c (Proc.devRef .tc main_v48))) = _
  try rw [bd_Y2_main_v22 m ρ c]
  try rw [bd_Y2_main_v60 m ρ c]
  try rw [bd_Y2_main_v59 m ρ c]
  try rw [bd_Y2_main_v48 m ρ c]
  rfl

theorem bd_Y4_main_v65 (c : Dev nD) : Y4 m ρ c (Proc.devRef .tc main_v65) = kv_main_v65 (ins m c) :=
  (Y4_of m ρ c main_v65 (by decide)).trans (bd_Y3_main_v65 m ρ c)

theorem bd_Y5_main_v65 (c : Dev nD) : Y5 m ρ c (Proc.devRef .tc main_v65) = kv_main_v65 (ins m c) :=
  (Y5_of m ρ c main_v65 (by decide)).trans (bd_Y4_main_v65 m ρ c)

theorem bd_Y6_main_v65 (c : Dev nD) : Y6 m ρ c (Proc.devRef .tc main_v65) = kv_main_v65 (ins m c) :=
  (Y6_of m ρ c main_v65 (by decide)).trans (bd_Y5_main_v65 m ρ c)

theorem bd_Y7_main_v65 (c : Dev nD) : Y7 m ρ c (Proc.devRef .tc main_v65) = kv_main_v65 (ins m c) :=
  (Y7_of m ρ c main_v65 (by decide)).trans (bd_Y6_main_v65 m ρ c)

theorem bd_W4_main_v65 (c : Dev nD) : W4 m ρ c (Proc.devRef .tc main_v65) = kv_main_v65 (ins m c) :=
  (congrFun (W4_eq m ρ c) _).trans (bd_Y7_main_v65 m ρ c)

theorem bd_W5_main_v65 (c : Dev nD) : W5 m ρ c (Proc.devRef .tc main_v65) = kv_main_v65 (ins m c) :=
  (W5_of_ne m ρ c main_v65 (by decide)).trans (bd_W4_main_v65 m ρ c)

theorem bd_W6_main_v65 (c : Dev nD) : W6 m ρ c (Proc.devRef .tc main_v65) = kv_main_v65 (ins m c) :=
  (W6_of_ne m ρ c main_v65 (by decide)).trans (bd_W5_main_v65 m ρ c)

theorem bd_Z1_main_v65 (c : Dev nD) : Z1 m ρ c (Proc.devRef .tc main_v65) = kv_main_v65 (ins m c) :=
  (Z1_of m ρ c main_v65 (by decide)).trans (bd_W6_main_v65 m ρ c)

set_option maxRecDepth 65536 in
set_option maxHeartbeats 4000000 in
theorem bd_Z1_main_v148 (c : Dev nD) : Z1 m ρ c (Proc.devRef .tc main_v148) = kv_main_v148 (ins m c) := by
  show StableHlo.after (z0 (F := Ideal)) (W6 m ρ c) (Proc.devRef .tc main_v148) = _
  after_results_simp
  show ((extractStridedSlice S8192x50 ![0, 100] · slices_S8192x200_S8192x50_0_100) : (⟨S8192x200, .f32⟩ : BufTy).Contents (Elt Ideal) → (⟨S8192x50, .f32⟩ : BufTy).Contents (Elt Ideal)) (W6 m ρ c (Proc.devRef .tc main_v144)) = _
  try rw [bd_W6_main_v144 m ρ c]
  rfl

set_option maxRecDepth 65536 in
set_option maxHeartbeats 4000000 in
theorem bd_Z2_main_v186 (c : Dev nD) : Z2 m ρ c (Proc.devRef .tc main_v186) = kv_main_v186 (ins m c) := by
  show StableHlo.after (z1 (F := Ideal)) (Z1 m ρ c) (Proc.devRef .tc main_v186) = _
  after_results_simp
  show ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (Z1 m ρ c (Proc.devRef .tc main_v164)) (Z1 m ρ c (Proc.devRef .tc main_v166))) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![3, 0] · slices_S12x50_S1x50_3_0) : (⟨S12x50, .f32⟩ : BufTy).Contents (Elt Ideal) → (⟨S1x50, .f32⟩ : BufTy).Contents (Elt Ideal)) (Z1 m ρ c (Proc.devRef .tc main_arg6))) shapeCasts_S1x50_S50)))))))) (Z1 m ρ c (Proc.devRef .tc main_v158))) (Z1 m ρ c (Proc.devRef .tc main_v163))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z1 m ρ c (Proc.devRef .tc main_v65))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z1 m ρ c (Proc.devRef .tc main_v148)))) = _
  try rw [bd_Z1_main_v164 m ρ c]
  try rw [bd_Z1_main_v166 m ρ c]
  try rw [bd_Z1_main_arg6 m ρ c]
  try rw [bd_Z1_main_v158 m ρ c]
  try rw [bd_Z1_main_v163 m ρ c]
  try rw [bd_Z1_main_v65 m ρ c]
  try rw [bd_Z1_main_v148 m ρ c]
  rfl

set_option maxRecDepth 65536 in
set_option maxHeartbeats 4000000 in
theorem bd_Z2_main_v187 (c : Dev nD) : Z2 m ρ c (Proc.devRef .tc main_v187) = kv_main_v187 (ins m c) := by
  show StableHlo.after (z1 (F := Ideal)) (Z1 m ρ c) (Proc.devRef .tc main_v187) = _
  after_results_simp
  show ((extractStridedSlice S1x100x50 ![4, 0, 0] · slices_S12x100x50_S1x100x50_4_0_0) : (⟨S12x100x50, .f32⟩ : BufTy).Contents (Elt Ideal) → (⟨S1x100x50, .f32⟩ : BufTy).Contents (Elt Ideal)) (Z1 m ρ c (Proc.devRef .tc main_arg5)) = _
  try rw [bd_Z1_main_arg5 m ρ c]
  rfl

set_option maxRecDepth 65536 in
set_option maxHeartbeats 4000000 in
theorem bd_Z2_main_v185 (c : Dev nD) : Z2 m ρ c (Proc.devRef .tc main_v185) = kv_main_v185 (ins m c) := by
  show StableHlo.after (z1 (F := Ideal)) (Z1 m ρ c) (Proc.devRef .tc main_v185) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z1 m ρ c (Proc.devRef .tc main_v65))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z1 m ρ c (Proc.devRef .tc main_v148))) = _
  try rw [bd_Z1_main_v65 m ρ c]
  try rw [bd_Z1_main_v148 m ρ c]
  rfl

end Cert.KernelIdeal.Hand

end
-- ==== Proof.Ideal.HostRunP9.lean ====
/-
  The kernel program's run read as values, continued: the value of every buffer a later segment reads, at every boundary
  (one lemma per buffer and boundary, in dependency order).
-/
import proofs.«174668_j26645977104432_2_alg».proof.Proof.Ideal.HostRunP8

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

set_option maxRecDepth 65536 in
set_option maxHeartbeats 4000000 in
theorem bd_Z3_main_v202 (c : Dev nD) : Z3 m ρ c (Proc.devRef .tc main_v202) = kv_main_v202 (ins m c) := by
  show StableHlo.after (z2 (F := Ideal)) (Z2 m ρ c) (Proc.devRef .tc main_v202) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (Z2 m ρ c (Proc.devRef .tc main_v186)) (shapeCast S100x50 (Z2 m ρ c (Proc.devRef .tc main_v187)) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![4, 0] · slices_S12x50_S1x50_4_0) : (⟨S12x50, .f32⟩ : BufTy).Contents (Elt Ideal) → (⟨S1x50, .f32⟩ : BufTy).Contents (Elt Ideal)) (Z2 m ρ c (Proc.devRef .tc main_arg6))) shapeCasts_S1x50_S50)))))))) (Z2 m ρ c (Proc.devRef .tc main_v180))) (Z2 m ρ c (Proc.devRef .tc main_v185)) = _
  try rw [bd_Z2_main_v186 m ρ c]
  try rw [bd_Z2_main_v187 m ρ c]
  try rw [bd_Z2_main_arg6 m ρ c]
  try rw [bd_Z2_main_v180 m ρ c]
  try rw [bd_Z2_main_v185 m ρ c]
  rfl

theorem bd_Z4_main_v202 (c : Dev nD) : Z4 m ρ c (Proc.devRef .tc main_v202) = kv_main_v202 (ins m c) :=
  (Z4_of m ρ c main_v202 (by decide)).trans (bd_Z3_main_v202 m ρ c)

theorem bd_Z5_main_v202 (c : Dev nD) : Z5 m ρ c (Proc.devRef .tc main_v202) = kv_main_v202 (ins m c) :=
  (Z5_of m ρ c main_v202 (by decide)).trans (bd_Z4_main_v202 m ρ c)

theorem bd_Z6_main_v202 (c : Dev nD) : Z6 m ρ c (Proc.devRef .tc main_v202) = kv_main_v202 (ins m c) :=
  (Z6_of m ρ c main_v202 (by decide)).trans (bd_Z5_main_v202 m ρ c)

theorem bd_Z7_main_v202 (c : Dev nD) : Z7 m ρ c (Proc.devRef .tc main_v202) = kv_main_v202 (ins m c) :=
  (Z7_of m ρ c main_v202 (by decide)).trans (bd_Z6_main_v202 m ρ c)

theorem bd_Z8_main_v202 (c : Dev nD) : Z8 m ρ c (Proc.devRef .tc main_v202) = kv_main_v202 (ins m c) :=
  (Z8_of m ρ c main_v202 (by decide)).trans (bd_Z7_main_v202 m ρ c)

set_option maxRecDepth 65536 in
set_option maxHeartbeats 4000000 in
theorem bd_Y1_main_v18 (c : Dev nD) : Y1 m ρ c (Proc.devRef .tc main_v18) = kv_main_v18 (ins m c) := by
  show StableHlo.after (q0 (F := Ideal)) (W3 m ρ c) (Proc.devRef .tc main_v18) = _
  after_results_simp
  show ((extractStridedSlice S8192x50 ![0, 100] · slices_S8192x200_S8192x50_0_100) : (⟨S8192x200, .f32⟩ : BufTy).Contents (Elt Ideal) → (⟨S8192x50, .f32⟩ : BufTy).Contents (Elt Ideal)) (W3 m ρ c (Proc.devRef .tc main_v14)) = _
  try rw [bd_W3_main_v14 m ρ c]
  rfl

theorem bd_Y2_main_v18 (c : Dev nD) : Y2 m ρ c (Proc.devRef .tc main_v18) = kv_main_v18 (ins m c) :=
  (Y2_of m ρ c main_v18 (by decide)).trans (bd_Y1_main_v18 m ρ c)

theorem bd_Y3_main_v18 (c : Dev nD) : Y3 m ρ c (Proc.devRef .tc main_v18) = kv_main_v18 (ins m c) :=
  (Y3_of m ρ c main_v18 (by decide)).trans (bd_Y2_main_v18 m ρ c)

theorem bd_Y4_main_v18 (c : Dev nD) : Y4 m ρ c (Proc.devRef .tc main_v18) = kv_main_v18 (ins m c) :=
  (Y4_of m ρ c main_v18 (by decide)).trans (bd_Y3_main_v18 m ρ c)

set_option maxRecDepth 65536 in
set_option maxHeartbeats 4000000 in
theorem bd_Y5_main_v124 (c : Dev nD) : Y5 m ρ c (Proc.devRef .tc main_v124) = kv_main_v124 (ins m c) := by
  show StableHlo.after (q4 (F := Ideal)) (Y4 m ρ c) (Proc.devRef .tc main_v124) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v18)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v17)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) (Y4 m ρ c (Proc.devRef .tc main_cst_11))) (Y4 m ρ c (Proc.devRef .tc main_v103))) (Y4 m ρ c (Proc.devRef .tc main_v16)))) (Y4 m ρ c (Proc.devRef .tc main_v18))) (shapeCast S100x50 (((extractStridedSlice S1x100x50 ![10, 0, 0] · slices_S12x100x50_S1x100x50_10_0_0) : (⟨S12x100x50, .f32⟩ : BufTy).Contents (Elt Ideal) → (⟨S1x100x50, .f32⟩ : BufTy).Contents (Elt Ideal)) (Y4 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![10, 0] · slices_S12x50_S1x50_10_0) : (⟨S12x50, .f32⟩ : BufTy).Contents (Elt Ideal) → (⟨S1x50, .f32⟩ : BufTy).Contents (Elt Ideal)) (Y4 m ρ c (Proc.devRef .tc main_arg6))) shapeCasts_S1x50_S50)))))))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v17)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) (Y4 m ρ c (Proc.devRef .tc main_cst_11))) (Y4 m ρ c (Proc.devRef .tc main_v103))) (Y4 m ρ c (Proc.devRef .tc main_v16))))) = _
  try rw [bd_Y4_main_v18 m ρ c]
  try rw [bd_Y4_main_v17 m ρ c]
  try rw [bd_Y4_main_cst_11 m ρ c]
  try rw [bd_Y4_main_v103 m ρ c]
  try rw [bd_Y4_main_v16 m ρ c]
  try rw [bd_Y4_main_arg5 m ρ c]
  try rw [bd_Y4_main_arg6 m ρ c]
  rfl

theorem bd_Y6_main_v124 (c : Dev nD) : Y6 m ρ c (Proc.devRef .tc main_v124) = kv_main_v124 (ins m c) :=
  (Y6_of m ρ c main_v124 (by decide)).trans (bd_Y5_main_v124 m ρ c)

theorem bd_Y7_main_v124 (c : Dev nD) : Y7 m ρ c (Proc.devRef .tc main_v124) = kv_main_v124 (ins m c) :=
  (Y7_of m ρ c main_v124 (by decide)).trans (bd_Y6_main_v124 m ρ c)

theorem bd_W4_main_v124 (c : Dev nD) : W4 m ρ c (Proc.devRef .tc main_v124) = kv_main_v124 (ins m c) :=
  (congrFun (W4_eq m ρ c) _).trans (bd_Y7_main_v124 m ρ c)

theorem bd_W5_main_v124 (c : Dev nD) : W5 m ρ c (Proc.devRef .tc main_v124) = kv_main_v124 (ins m c) :=
  (W5_of_ne m ρ c main_v124 (by decide)).trans (bd_W4_main_v124 m ρ c)

theorem bd_W6_main_v124 (c : Dev nD) : W6 m ρ c (Proc.devRef .tc main_v124) = kv_main_v124 (ins m c) :=
  (W6_of_ne m ρ c main_v124 (by decide)).trans (bd_W5_main_v124 m ρ c)

theorem bd_Z1_main_v124 (c : Dev nD) : Z1 m ρ c (Proc.devRef .tc main_v124) = kv_main_v124 (ins m c) :=
  (Z1_of m ρ c main_v124 (by decide)).trans (bd_W6_main_v124 m ρ c)

theorem bd_Z2_main_v124 (c : Dev nD) : Z2 m ρ c (Proc.devRef .tc main_v124) = kv_main_v124 (ins m c) :=
  (Z2_of m ρ c main_v124 (by decide)).trans (bd_Z1_main_v124 m ρ c)

theorem bd_Z3_main_v124 (c : Dev nD) : Z3 m ρ c (Proc.devRef .tc main_v124) = kv_main_v124 (ins m c) :=
  (Z3_of m ρ c main_v124 (by decide)).trans (bd_Z2_main_v124 m ρ c)

theorem bd_Z4_main_v124 (c : Dev nD) : Z4 m ρ c (Proc.devRef .tc main_v124) = kv_main_v124 (ins m c) :=
  (Z4_of m ρ c main_v124 (by decide)).trans (bd_Z3_main_v124 m ρ c)

theorem bd_Z5_main_v124 (c : Dev nD) : Z5 m ρ c (Proc.devRef .tc main_v124) = kv_main_v124 (ins m c) :=
  (Z5_of m ρ c main_v124 (by decide)).trans (bd_Z4_main_v124 m ρ c)

set_option maxRecDepth 65536 in
set_option maxHeartbeats 4000000 in
theorem bd_Z1_main_v152 (c : Dev nD) : Z1 m ρ c (Proc.devRef .tc main_v152) = kv_main_v152 (ins m c) := by
  show StableHlo.after (z0 (F := Ideal)) (W6 m ρ c) (Proc.devRef .tc main_v152) = _
  after_results_simp
  show ((extractStridedSlice S8192x50 ![0, 100] · slices_S8192x200_S8192x50_0_100) : (⟨S8192x200, .f32⟩ : BufTy).Contents (Elt Ideal) → (⟨S8192x50, .f32⟩ : BufTy).Contents (Elt Ideal)) (W6 m ρ c (Proc.devRef .tc main_v145)) = _
  try rw [bd_W6_main_v145 m ρ c]
  rfl

theorem bd_Z2_main_v152 (c : Dev nD) : Z2 m ρ c (Proc.devRef .tc main_v152) = kv_main_v152 (ins m c) :=
  (Z2_of m ρ c main_v152 (by decide)).trans (bd_Z1_main_v152 m ρ c)

theorem bd_Z3_main_v152 (c : Dev nD) : Z3 m ρ c (Proc.devRef .tc main_v152) = kv_main_v152 (ins m c) :=
  (Z3_of m ρ c main_v152 (by decide)).trans (bd_Z2_main_v152 m ρ c)

theorem bd_Z4_main_v152 (c : Dev nD) : Z4 m ρ c (Proc.devRef .tc main_v152) = kv_main_v152 (ins m c) :=
  (Z4_of m ρ c main_v152 (by decide)).trans (bd_Z3_main_v152 m ρ c)

theorem bd_Z5_main_v152 (c : Dev nD) : Z5 m ρ c (Proc.devRef .tc main_v152) = kv_main_v152 (ins m c) :=
  (Z5_of m ρ c main_v152 (by decide)).trans (bd_Z4_main_v152 m ρ c)

theorem bd_Z5_main_arg5 (c : Dev nD) : Z5 m ρ c (Proc.devRef .tc main_arg5) = (ins m c).x5 :=
  (Z5_of m ρ c main_arg5 (by decide)).trans (bd_Z4_main_arg5 m ρ c)

theorem bd_Z5_main_arg6 (c : Dev nD) : Z5 m ρ c (Proc.devRef .tc main_arg6) = (ins m c).x6 :=
  (Z5_of m ρ c main_arg6 (by decide)).trans (bd_Z4_main_arg6 m ρ c)

set_option maxRecDepth 65536 in
set_option maxHeartbeats 4000000 in
theorem bd_Z6_main_v271 (c : Dev nD) : Z6 m ρ c (Proc.devRef .tc main_v271) = kv_main_v271 (ins m c) := by
  show StableHlo.after (z5 (F := Ideal)) (Z5 m ρ c) (Proc.devRef .tc main_v271) = _
  after_results_simp
  show (Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Z5 m ρ c (Proc.devRef .tc main_v250)) (Z5 m ρ c (Proc.devRef .tc main_v234))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z5 m ρ c (Proc.devRef .tc main_v124))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z5 m ρ c (Proc.devRef .tc main_v152))))) (shapeCast S100x50 (((extractStridedSlice S1x100x50 ![7, 0, 0] · slices_S12x100x50_S1x100x50_7_0_0) : (⟨S12x100x50, .f32⟩ : BufTy).Contents (Elt Ideal) → (⟨S1x100x50, .f32⟩ : BufTy).Contents (Elt Ideal)) (Z5 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![7, 0] · slices_S12x50_S1x50_7_0) : (⟨S12x50, .f32⟩ : BufTy).Contents (Elt Ideal) → (⟨S1x50, .f32⟩ : BufTy).Contents (Elt Ideal)) (Z5 m ρ c (Proc.devRef .tc main_arg6))) shapeCasts_S1x50_S50))))))) = _
  try rw [bd_Z5_main_v250 m ρ c]
  try rw [bd_Z5_main_v234 m ρ c]
  try rw [bd_Z5_main_v124 m ρ c]
  try rw [bd_Z5_main_v152 m ρ c]
  try rw [bd_Z5_main_arg5 m ρ c]
  try rw [bd_Z5_main_arg6 m ρ c]
  rfl

set_option maxRecDepth 65536 in
set_option maxHeartbeats 4000000 in
theorem bd_Z6_main_v256 (c : Dev nD) : Z6 m ρ c (Proc.devRef .tc main_v256) = kv_main_v256 (ins m c) := by
  show StableHlo.after (z5 (F := Ideal)) (Z5 m ρ c) (Proc.devRef .tc main_v256) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z5 m ρ c (Proc.devRef .tc main_v124))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z5 m ρ c (Proc.devRef .tc main_v152))) = _
  try rw [bd_Z5_main_v124 m ρ c]
  try rw [bd_Z5_main_v152 m ρ c]
  rfl

end Cert.KernelIdeal.Hand

end
-- ==== Proof.Ideal.HostRunP10.lean ====
/-
  The kernel program's run read as values, continued: the value of every buffer a later segment reads, at every boundary
  (one lemma per buffer and boundary, in dependency order).
-/
import proofs.«174668_j26645977104432_2_alg».proof.Proof.Ideal.HostRunP9

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

set_option maxRecDepth 65536 in
set_option maxHeartbeats 4000000 in
theorem bd_Z7_main_v273 (c : Dev nD) : Z7 m ρ c (Proc.devRef .tc main_v273) = kv_main_v273 (ins m c) := by
  show StableHlo.after (z6 (F := Ideal)) (Z6 m ρ c) (Proc.devRef .tc main_v273) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Z6 m ρ c (Proc.devRef .tc main_v271)) (Z6 m ρ c (Proc.devRef .tc main_v251))) (Z6 m ρ c (Proc.devRef .tc main_v256)) = _
  try rw [bd_Z6_main_v271 m ρ c]
  try rw [bd_Z6_main_v251 m ρ c]
  try rw [bd_Z6_main_v256 m ρ c]
  rfl

theorem bd_Z8_main_v273 (c : Dev nD) : Z8 m ρ c (Proc.devRef .tc main_v273) = kv_main_v273 (ins m c) :=
  (Z8_of m ρ c main_v273 (by decide)).trans (bd_Z7_main_v273 m ρ c)

set_option maxRecDepth 65536 in
set_option maxHeartbeats 4000000 in
theorem bd_Y3_main_v82 (c : Dev nD) : Y3 m ρ c (Proc.devRef .tc main_v82) = kv_main_v82 (ins m c) := by
  show StableHlo.after (q2 (F := Ideal)) (Y2 m ρ c) (Proc.devRef .tc main_v82) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v23)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v22)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v60)) (Y2 m ρ c (Proc.devRef .tc main_v59)))) (Y2 m ρ c (Proc.devRef .tc main_v48)))) (Y2 m ρ c (Proc.devRef .tc main_v23))) (shapeCast S100x50 (((extractStridedSlice S1x100x50 ![2, 0, 0] · slices_S12x100x50_S1x100x50_2_0_0) : (⟨S12x100x50, .f32⟩ : BufTy).Contents (Elt Ideal) → (⟨S1x100x50, .f32⟩ : BufTy).Contents (Elt Ideal)) (Y2 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![2, 0] · slices_S12x50_S1x50_2_0) : (⟨S12x50, .f32⟩ : BufTy).Contents (Elt Ideal) → (⟨S1x50, .f32⟩ : BufTy).Contents (Elt Ideal)) (Y2 m ρ c (Proc.devRef .tc main_arg6))) shapeCasts_S1x50_S50)))))))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v22)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y2 m ρ c (Proc.devRef .tc main_v60)) (Y2 m ρ c (Proc.devRef .tc main_v59)))) (Y2 m ρ c (Proc.devRef .tc main_v48))))) = _
  try rw [bd_Y2_main_v23 m ρ c]
  try rw [bd_Y2_main_v22 m ρ c]
  try rw [bd_Y2_main_v60 m ρ c]
  try rw [bd_Y2_main_v59 m ρ c]
  try rw [bd_Y2_main_v48 m ρ c]
  try rw [bd_Y2_main_arg5 m ρ c]
  try rw [bd_Y2_main_arg6 m ρ c]
  rfl

theorem bd_Y4_main_v82 (c : Dev nD) : Y4 m ρ c (Proc.devRef .tc main_v82) = kv_main_v82 (ins m c) :=
  (Y4_of m ρ c main_v82 (by decide)).trans (bd_Y3_main_v82 m ρ c)

theorem bd_Y5_main_v82 (c : Dev nD) : Y5 m ρ c (Proc.devRef .tc main_v82) = kv_main_v82 (ins m c) :=
  (Y5_of m ρ c main_v82 (by decide)).trans (bd_Y4_main_v82 m ρ c)

theorem bd_Y6_main_v82 (c : Dev nD) : Y6 m ρ c (Proc.devRef .tc main_v82) = kv_main_v82 (ins m c) :=
  (Y6_of m ρ c main_v82 (by decide)).trans (bd_Y5_main_v82 m ρ c)

theorem bd_Y7_main_v82 (c : Dev nD) : Y7 m ρ c (Proc.devRef .tc main_v82) = kv_main_v82 (ins m c) :=
  (Y7_of m ρ c main_v82 (by decide)).trans (bd_Y6_main_v82 m ρ c)

theorem bd_W4_main_v82 (c : Dev nD) : W4 m ρ c (Proc.devRef .tc main_v82) = kv_main_v82 (ins m c) :=
  (congrFun (W4_eq m ρ c) _).trans (bd_Y7_main_v82 m ρ c)

theorem bd_W5_main_v82 (c : Dev nD) : W5 m ρ c (Proc.devRef .tc main_v82) = kv_main_v82 (ins m c) :=
  (W5_of_ne m ρ c main_v82 (by decide)).trans (bd_W4_main_v82 m ρ c)

theorem bd_W6_main_v82 (c : Dev nD) : W6 m ρ c (Proc.devRef .tc main_v82) = kv_main_v82 (ins m c) :=
  (W6_of_ne m ρ c main_v82 (by decide)).trans (bd_W5_main_v82 m ρ c)

theorem bd_Z1_main_v82 (c : Dev nD) : Z1 m ρ c (Proc.devRef .tc main_v82) = kv_main_v82 (ins m c) :=
  (Z1_of m ρ c main_v82 (by decide)).trans (bd_W6_main_v82 m ρ c)

theorem bd_Z2_main_v82 (c : Dev nD) : Z2 m ρ c (Proc.devRef .tc main_v82) = kv_main_v82 (ins m c) :=
  (Z2_of m ρ c main_v82 (by decide)).trans (bd_Z1_main_v82 m ρ c)

set_option maxRecDepth 65536 in
set_option maxHeartbeats 4000000 in
theorem bd_Z1_main_v149 (c : Dev nD) : Z1 m ρ c (Proc.devRef .tc main_v149) = kv_main_v149 (ins m c) := by
  show StableHlo.after (z0 (F := Ideal)) (W6 m ρ c) (Proc.devRef .tc main_v149) = _
  after_results_simp
  show ((extractStridedSlice S8192x50 ![0, 150] · slices_S8192x200_S8192x50_0_150) : (⟨S8192x200, .f32⟩ : BufTy).Contents (Elt Ideal) → (⟨S8192x50, .f32⟩ : BufTy).Contents (Elt Ideal)) (W6 m ρ c (Proc.devRef .tc main_v144)) = _
  try rw [bd_W6_main_v144 m ρ c]
  rfl

theorem bd_Z2_main_v149 (c : Dev nD) : Z2 m ρ c (Proc.devRef .tc main_v149) = kv_main_v149 (ins m c) :=
  (Z2_of m ρ c main_v149 (by decide)).trans (bd_Z1_main_v149 m ρ c)

set_option maxRecDepth 65536 in
set_option maxHeartbeats 4000000 in
theorem bd_Z3_main_v208 (c : Dev nD) : Z3 m ρ c (Proc.devRef .tc main_v208) = kv_main_v208 (ins m c) := by
  show StableHlo.after (z2 (F := Ideal)) (Z2 m ρ c) (Proc.devRef .tc main_v208) = _
  after_results_simp
  show ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (Z2 m ρ c (Proc.devRef .tc main_v186)) (shapeCast S100x50 (Z2 m ρ c (Proc.devRef .tc main_v187)) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![4, 0] · slices_S12x50_S1x50_4_0) : (⟨S12x50, .f32⟩ : BufTy).Contents (Elt Ideal) → (⟨S1x50, .f32⟩ : BufTy).Contents (Elt Ideal)) (Z2 m ρ c (Proc.devRef .tc main_arg6))) shapeCasts_S1x50_S50)))))))) (Z2 m ρ c (Proc.devRef .tc main_v180))) (Z2 m ρ c (Proc.devRef .tc main_v185))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z2 m ρ c (Proc.devRef .tc main_v82))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z2 m ρ c (Proc.devRef .tc main_v149)))) = _
  try rw [bd_Z2_main_v186 m ρ c]
  try rw [bd_Z2_main_v187 m ρ c]
  try rw [bd_Z2_main_arg6 m ρ c]
  try rw [bd_Z2_main_v180 m ρ c]
  try rw [bd_Z2_main_v185 m ρ c]
  try rw [bd_Z2_main_v82 m ρ c]
  try rw [bd_Z2_main_v149 m ρ c]
  rfl

set_option maxRecDepth 65536 in
set_option maxHeartbeats 4000000 in
theorem bd_Z3_main_v207 (c : Dev nD) : Z3 m ρ c (Proc.devRef .tc main_v207) = kv_main_v207 (ins m c) := by
  show StableHlo.after (z2 (F := Ideal)) (Z2 m ρ c) (Proc.devRef .tc main_v207) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z2 m ρ c (Proc.devRef .tc main_v82))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z2 m ρ c (Proc.devRef .tc main_v149))) = _
  try rw [bd_Z2_main_v82 m ρ c]
  try rw [bd_Z2_main_v149 m ρ c]
  rfl

set_option maxRecDepth 65536 in
set_option maxHeartbeats 4000000 in
theorem bd_Z4_main_v224 (c : Dev nD) : Z4 m ρ c (Proc.devRef .tc main_v224) = kv_main_v224 (ins m c) := by
  show StableHlo.after (z3 (F := Ideal)) (Z3 m ρ c) (Proc.devRef .tc main_v224) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (Z3 m ρ c (Proc.devRef .tc main_v208)) (shapeCast S100x50 (((extractStridedSlice S1x100x50 ![5, 0, 0] · slices_S12x100x50_S1x100x50_5_0_0) : (⟨S12x100x50, .f32⟩ : BufTy).Contents (Elt Ideal) → (⟨S1x100x50, .f32⟩ : BufTy).Contents (Elt Ideal)) (Z3 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![5, 0] · slices_S12x50_S1x50_5_0) : (⟨S12x50, .f32⟩ : BufTy).Contents (Elt Ideal) → (⟨S1x50, .f32⟩ : BufTy).Contents (Elt Ideal)) (Z3 m ρ c (Proc.devRef .tc main_arg6))) shapeCasts_S1x50_S50)))))))) (Z3 m ρ c (Proc.devRef .tc main_v202))) (Z3 m ρ c (Proc.devRef .tc main_v207)) = _
  try rw [bd_Z3_main_v208 m ρ c]
  try rw [bd_Z3_main_arg5 m ρ c]
  try rw [bd_Z3_main_arg6 m ρ c]
  try rw [bd_Z3_main_v202 m ρ c]
  try rw [bd_Z3_main_v207 m ρ c]
  rfl

theorem bd_Z5_main_v224 (c : Dev nD) : Z5 m ρ c (Proc.devRef .tc main_v224) = kv_main_v224 (ins m c) :=
  (Z5_of m ρ c main_v224 (by decide)).trans (bd_Z4_main_v224 m ρ c)

theorem bd_Z6_main_v224 (c : Dev nD) : Z6 m ρ c (Proc.devRef .tc main_v224) = kv_main_v224 (ins m c) :=
  (Z6_of m ρ c main_v224 (by decide)).trans (bd_Z5_main_v224 m ρ c)

theorem bd_Z7_main_v224 (c : Dev nD) : Z7 m ρ c (Proc.devRef .tc main_v224) = kv_main_v224 (ins m c) :=
  (Z7_of m ρ c main_v224 (by decide)).trans (bd_Z6_main_v224 m ρ c)

theorem bd_Z8_main_v224 (c : Dev nD) : Z8 m ρ c (Proc.devRef .tc main_v224) = kv_main_v224 (ins m c) :=
  (Z8_of m ρ c main_v224 (by decide)).trans (bd_Z7_main_v224 m ρ c)

set_option maxRecDepth 65536 in
set_option maxHeartbeats 4000000 in
theorem bd_Z7_main_v292 (c : Dev nD) : Z7 m ρ c (Proc.devRef .tc main_v292) = kv_main_v292 (ins m c) := by
  show StableHlo.after (z6 (F := Ideal)) (Z6 m ρ c) (Proc.devRef .tc main_v292) = _
  after_results_simp
  show (broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32)) = _
  skip
  rfl

set_option maxRecDepth 65536 in
set_option maxHeartbeats 4000000 in
theorem bd_Y1_main_v19 (c : Dev nD) : Y1 m ρ c (Proc.devRef .tc main_v19) = kv_main_v19 (ins m c) := by
  show StableHlo.after (q0 (F := Ideal)) (W3 m ρ c) (Proc.devRef .tc main_v19) = _
  after_results_simp
  show ((extractStridedSlice S8192x50 ![0, 150] · slices_S8192x200_S8192x50_0_150) : (⟨S8192x200, .f32⟩ : BufTy).Contents (Elt Ideal) → (⟨S8192x50, .f32⟩ : BufTy).Contents (Elt Ideal)) (W3 m ρ c (Proc.devRef .tc main_v14)) = _
  try rw [bd_W3_main_v14 m ρ c]
  rfl

theorem bd_Y2_main_v19 (c : Dev nD) : Y2 m ρ c (Proc.devRef .tc main_v19) = kv_main_v19 (ins m c) :=
  (Y2_of m ρ c main_v19 (by decide)).trans (bd_Y1_main_v19 m ρ c)

theorem bd_Y3_main_v19 (c : Dev nD) : Y3 m ρ c (Proc.devRef .tc main_v19) = kv_main_v19 (ins m c) :=
  (Y3_of m ρ c main_v19 (by decide)).trans (bd_Y2_main_v19 m ρ c)

theorem bd_Y4_main_v19 (c : Dev nD) : Y4 m ρ c (Proc.devRef .tc main_v19) = kv_main_v19 (ins m c) :=
  (Y4_of m ρ c main_v19 (by decide)).trans (bd_Y3_main_v19 m ρ c)

theorem bd_Y5_main_v19 (c : Dev nD) : Y5 m ρ c (Proc.devRef .tc main_v19) = kv_main_v19 (ins m c) :=
  (Y5_of m ρ c main_v19 (by decide)).trans (bd_Y4_main_v19 m ρ c)

set_option maxRecDepth 65536 in
set_option maxHeartbeats 4000000 in
theorem bd_Y5_main_v125 (c : Dev nD) : Y5 m ρ c (Proc.devRef .tc main_v125) = kv_main_v125 (ins m c) := by
  show StableHlo.after (q4 (F := Ideal)) (Y4 m ρ c) (Proc.devRef .tc main_v125) = _
  after_results_simp
  show ((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v18)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v17)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) (Y4 m ρ c (Proc.devRef .tc main_cst_11))) (Y4 m ρ c (Proc.devRef .tc main_v103))) (Y4 m ρ c (Proc.devRef .tc main_v16)))) (Y4 m ρ c (Proc.devRef .tc main_v18))) (shapeCast S100x50 (((extractStridedSlice S1x100x50 ![10, 0, 0] · slices_S12x100x50_S1x100x50_10_0_0) : (⟨S12x100x50, .f32⟩ : BufTy).Contents (Elt Ideal) → (⟨S1x100x50, .f32⟩ : BufTy).Contents (Elt Ideal)) (Y4 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![10, 0] · slices_S12x50_S1x50_10_0) : (⟨S12x50, .f32⟩ : BufTy).Contents (Elt Ideal) → (⟨S1x50, .f32⟩ : BufTy).Contents (Elt Ideal)) (Y4 m ρ c (Proc.devRef .tc main_arg6))) shapeCasts_S1x50_S50)))))))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y4 m ρ c (Proc.devRef .tc main_v17)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) (Y4 m ρ c (Proc.devRef .tc main_cst_11))) (Y4 m ρ c (Proc.devRef .tc main_v103))) (Y4 m ρ c (Proc.devRef .tc main_v16)))))) (Y4 m ρ c (Proc.devRef .tc main_v19)) = _
  try rw [bd_Y4_main_v18 m ρ c]
  try rw [bd_Y4_main_v17 m ρ c]
  try rw [bd_Y4_main_cst_11 m ρ c]
  try rw [bd_Y4_main_v103 m ρ c]
  try rw [bd_Y4_main_v16 m ρ c]
  try rw [bd_Y4_main_arg5 m ρ c]
  try rw [bd_Y4_main_arg6 m ρ c]
  try rw [bd_Y4_main_v19 m ρ c]
  rfl

set_option maxRecDepth 65536 in
set_option maxHeartbeats 4000000 in
theorem bd_Y5_main_v126 (c : Dev nD) : Y5 m ρ c (Proc.devRef .tc main_v126) = kv_main_v126 (ins m c) := by
  show StableHlo.after (q4 (F := Ideal)) (Y4 m ρ c) (Proc.devRef .tc main_v126) = _
  after_results_simp
  show ((extractStridedSlice S1x100x50 ![11, 0, 0] · slices_S12x100x50_S1x100x50_11_0_0) : (⟨S12x100x50, .f32⟩ : BufTy).Contents (Elt Ideal) → (⟨S1x100x50, .f32⟩ : BufTy).Contents (Elt Ideal)) (Y4 m ρ c (Proc.devRef .tc main_arg5)) = _
  try rw [bd_Y4_main_arg5 m ρ c]
  rfl

set_option maxRecDepth 65536 in
set_option maxHeartbeats 4000000 in
theorem bd_Y6_main_v141 (c : Dev nD) : Y6 m ρ c (Proc.devRef .tc main_v141) = kv_main_v141 (ins m c) := by
  show StableHlo.after (q5 (F := Ideal)) (Y5 m ρ c) (Proc.devRef .tc main_v141) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Y5 m ρ c (Proc.devRef .tc main_v19)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (Y5 m ρ c (Proc.devRef .tc main_v125)) (shapeCast S100x50 (Y5 m ρ c (Proc.devRef .tc main_v126)) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![11, 0] · slices_S12x50_S1x50_11_0) : (⟨S12x50, .f32⟩ : BufTy).Contents (Elt Ideal) → (⟨S1x50, .f32⟩ : BufTy).Contents (Elt Ideal)) (Y5 m ρ c (Proc.devRef .tc main_arg6))) shapeCasts_S1x50_S50)))))))) (Y5 m ρ c (Proc.devRef .tc main_v124))) = _
  try rw [bd_Y5_main_v19 m ρ c]
  try rw [bd_Y5_main_v125 m ρ c]
  try rw [bd_Y5_main_v126 m ρ c]
  try rw [bd_Y5_main_arg6 m ρ c]
  try rw [bd_Y5_main_v124 m ρ c]
  rfl

end Cert.KernelIdeal.Hand

end
-- ==== Proof.Ideal.HostRunP11.lean ====
/-
  The kernel program's run read as values, continued: the value of every buffer a later segment reads, at every boundary
  (one lemma per buffer and boundary, in dependency order).
-/
import proofs.«174668_j26645977104432_2_alg».proof.Proof.Ideal.HostRunP10

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y7_main_v141 (c : Dev nD) : Y7 m ρ c (Proc.devRef .tc main_v141) = kv_main_v141 (ins m c) :=
  (Y7_of m ρ c main_v141 (by decide)).trans (bd_Y6_main_v141 m ρ c)

theorem bd_W4_main_v141 (c : Dev nD) : W4 m ρ c (Proc.devRef .tc main_v141) = kv_main_v141 (ins m c) :=
  (congrFun (W4_eq m ρ c) _).trans (bd_Y7_main_v141 m ρ c)

theorem bd_W5_main_v141 (c : Dev nD) : W5 m ρ c (Proc.devRef .tc main_v141) = kv_main_v141 (ins m c) :=
  (W5_of_ne m ρ c main_v141 (by decide)).trans (bd_W4_main_v141 m ρ c)

theorem bd_W6_main_v141 (c : Dev nD) : W6 m ρ c (Proc.devRef .tc main_v141) = kv_main_v141 (ins m c) :=
  (W6_of_ne m ρ c main_v141 (by decide)).trans (bd_W5_main_v141 m ρ c)

theorem bd_Z1_main_v141 (c : Dev nD) : Z1 m ρ c (Proc.devRef .tc main_v141) = kv_main_v141 (ins m c) :=
  (Z1_of m ρ c main_v141 (by decide)).trans (bd_W6_main_v141 m ρ c)

theorem bd_Z2_main_v141 (c : Dev nD) : Z2 m ρ c (Proc.devRef .tc main_v141) = kv_main_v141 (ins m c) :=
  (Z2_of m ρ c main_v141 (by decide)).trans (bd_Z1_main_v141 m ρ c)

theorem bd_Z3_main_v141 (c : Dev nD) : Z3 m ρ c (Proc.devRef .tc main_v141) = kv_main_v141 (ins m c) :=
  (Z3_of m ρ c main_v141 (by decide)).trans (bd_Z2_main_v141 m ρ c)

theorem bd_Z4_main_v141 (c : Dev nD) : Z4 m ρ c (Proc.devRef .tc main_v141) = kv_main_v141 (ins m c) :=
  (Z4_of m ρ c main_v141 (by decide)).trans (bd_Z3_main_v141 m ρ c)

theorem bd_Z5_main_v141 (c : Dev nD) : Z5 m ρ c (Proc.devRef .tc main_v141) = kv_main_v141 (ins m c) :=
  (Z5_of m ρ c main_v141 (by decide)).trans (bd_Z4_main_v141 m ρ c)

theorem bd_Z6_main_v141 (c : Dev nD) : Z6 m ρ c (Proc.devRef .tc main_v141) = kv_main_v141 (ins m c) :=
  (Z6_of m ρ c main_v141 (by decide)).trans (bd_Z5_main_v141 m ρ c)

set_option maxRecDepth 65536 in
set_option maxHeartbeats 4000000 in
theorem bd_Z1_main_v153 (c : Dev nD) : Z1 m ρ c (Proc.devRef .tc main_v153) = kv_main_v153 (ins m c) := by
  show StableHlo.after (z0 (F := Ideal)) (W6 m ρ c) (Proc.devRef .tc main_v153) = _
  after_results_simp
  show ((extractStridedSlice S8192x50 ![0, 150] · slices_S8192x200_S8192x50_0_150) : (⟨S8192x200, .f32⟩ : BufTy).Contents (Elt Ideal) → (⟨S8192x50, .f32⟩ : BufTy).Contents (Elt Ideal)) (W6 m ρ c (Proc.devRef .tc main_v145)) = _
  try rw [bd_W6_main_v145 m ρ c]
  rfl

theorem bd_Z2_main_v153 (c : Dev nD) : Z2 m ρ c (Proc.devRef .tc main_v153) = kv_main_v153 (ins m c) :=
  (Z2_of m ρ c main_v153 (by decide)).trans (bd_Z1_main_v153 m ρ c)

theorem bd_Z3_main_v153 (c : Dev nD) : Z3 m ρ c (Proc.devRef .tc main_v153) = kv_main_v153 (ins m c) :=
  (Z3_of m ρ c main_v153 (by decide)).trans (bd_Z2_main_v153 m ρ c)

theorem bd_Z4_main_v153 (c : Dev nD) : Z4 m ρ c (Proc.devRef .tc main_v153) = kv_main_v153 (ins m c) :=
  (Z4_of m ρ c main_v153 (by decide)).trans (bd_Z3_main_v153 m ρ c)

theorem bd_Z5_main_v153 (c : Dev nD) : Z5 m ρ c (Proc.devRef .tc main_v153) = kv_main_v153 (ins m c) :=
  (Z5_of m ρ c main_v153 (by decide)).trans (bd_Z4_main_v153 m ρ c)

theorem bd_Z6_main_v153 (c : Dev nD) : Z6 m ρ c (Proc.devRef .tc main_v153) = kv_main_v153 (ins m c) :=
  (Z6_of m ρ c main_v153 (by decide)).trans (bd_Z5_main_v153 m ρ c)

theorem bd_Z6_main_arg5 (c : Dev nD) : Z6 m ρ c (Proc.devRef .tc main_arg5) = (ins m c).x5 :=
  (Z6_of m ρ c main_arg5 (by decide)).trans (bd_Z5_main_arg5 m ρ c)

theorem bd_Z6_main_arg6 (c : Dev nD) : Z6 m ρ c (Proc.devRef .tc main_arg6) = (ins m c).x6 :=
  (Z6_of m ρ c main_arg6 (by decide)).trans (bd_Z5_main_arg6 m ρ c)

set_option maxRecDepth 65536 in
set_option maxHeartbeats 4000000 in
theorem bd_Z7_main_v291 (c : Dev nD) : Z7 m ρ c (Proc.devRef .tc main_v291) = kv_main_v291 (ins m c) := by
  show StableHlo.after (z6 (F := Ideal)) (Z6 m ρ c) (Proc.devRef .tc main_v291) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F800000#32))) ((Host.exp (F := Ideal) (φ := .f32) : (⟨S8192x50, .f32⟩ : BufTy).Contents (Elt Ideal) → (⟨S8192x50, .f32⟩ : BufTy).Contents (Elt Ideal)) ((Host.negf (F := Ideal) (φ := .f32) : (⟨S8192x50, .f32⟩ : BufTy).Contents (Elt Ideal) → (⟨S8192x50, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (((fun l r => Host.dotGeneral (F := Ideal) (φ₁ := .f32) (φ₂ := .f32) dot_S8192x100_S100x50_S8192x50_1_0_0_1_n_n none l r) : (⟨S8192x100, .f32⟩ : BufTy).Contents (Elt Ideal) → (⟨S100x50, .f32⟩ : BufTy).Contents (Elt Ideal) → (⟨S8192x50, .f32⟩ : BufTy).Contents (Elt Ideal)) (((fun a b => concatenate S8192x100 1 [⟨S8192x50, a⟩, ⟨S8192x50, b⟩] concatenates_S8192x50_S8192x50_S8192x100_d1) : (⟨S8192x50, .f32⟩ : BufTy).Contents (Elt Ideal) → (⟨S8192x50, .f32⟩ : BufTy).Contents (Elt Ideal) → (⟨S8192x100, .f32⟩ : BufTy).Contents (Elt Ideal)) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Z6 m ρ c (Proc.devRef .tc main_v271)) (Z6 m ρ c (Proc.devRef .tc main_v251))) (Z6 m ρ c (Proc.devRef .tc main_v256))) ((addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z6 m ρ c (Proc.devRef .tc main_v141))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z6 m ρ c (Proc.devRef .tc main_v153))))) (shapeCast S100x50 (((extractStridedSlice S1x100x50 ![8, 0, 0] · slices_S12x100x50_S1x100x50_8_0_0) : (⟨S12x100x50, .f32⟩ : BufTy).Contents (Elt Ideal) → (⟨S1x100x50, .f32⟩ : BufTy).Contents (Elt Ideal)) (Z6 m ρ c (Proc.devRef .tc main_arg5))) shapeCasts_S1x100x50_S100x50)) ((broadcastInDim S8192x50 ![0, 1] bcast_S1x50_S8192x50_0_1 : (⟨S1x50, .f32⟩ : BufTy).Contents (Elt Ideal) → (⟨S8192x50, .f32⟩ : BufTy).Contents (Elt Ideal)) ((broadcastInDim S1x50 ![1] bcast_S50_S1x50_1 : (⟨S50, .f32⟩ : BufTy).Contents (Elt Ideal) → (⟨S1x50, .f32⟩ : BufTy).Contents (Elt Ideal)) (shapeCast S50 (((extractStridedSlice S1x50 ![8, 0] · slices_S12x50_S1x50_8_0) : (⟨S12x50, .f32⟩ : BufTy).Contents (Elt Ideal) → (⟨S1x50, .f32⟩ : BufTy).Contents (Elt Ideal)) (Z6 m ρ c (Proc.devRef .tc main_arg6))) shapeCasts_S1x50_S50)))))) = _
  try rw [bd_Z6_main_v271 m ρ c]
  try rw [bd_Z6_main_v251 m ρ c]
  try rw [bd_Z6_main_v256 m ρ c]
  try rw [bd_Z6_main_v141 m ρ c]
  try rw [bd_Z6_main_v153 m ρ c]
  try rw [bd_Z6_main_arg5 m ρ c]
  try rw [bd_Z6_main_arg6 m ρ c]
  rfl

set_option maxRecDepth 65536 in
set_option maxHeartbeats 4000000 in
theorem bd_Z7_main_v278 (c : Dev nD) : Z7 m ρ c (Proc.devRef .tc main_v278) = kv_main_v278 (ins m c) := by
  show StableHlo.after (z6 (F := Ideal)) (Z6 m ρ c) (Proc.devRef .tc main_v278) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3E4CCCCD#32))) (Z6 m ρ c (Proc.devRef .tc main_v141))) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((broadcastInDim S8192x50 ![] bcast_S_S8192x50 : (⟨S_, .f32⟩ : BufTy).Contents (Elt Ideal) → (⟨S8192x50, .f32⟩ : BufTy).Contents (Elt Ideal)) ((constant (F := Ideal) S_ .f32 0x3F4CCCCD#32))) (Z6 m ρ c (Proc.devRef .tc main_v153))) = _
  try rw [bd_Z6_main_v141 m ρ c]
  try rw [bd_Z6_main_v153 m ρ c]
  rfl

set_option maxRecDepth 65536 in
set_option maxHeartbeats 4000000 in
theorem bd_Z8_main_v295 (c : Dev nD) : Z8 m ρ c (Proc.devRef .tc main_v295) = kv_main_v295 (ins m c) := by
  show StableHlo.after (z7 (F := Ideal)) (Z7 m ρ c) (Proc.devRef .tc main_v295) = _
  after_results_simp
  show (addf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((mulf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) ((Host.divf (F := Ideal) (φ := .f32) : (⟨S8192x50, .f32⟩ : BufTy).Contents (Elt Ideal) → (⟨S8192x50, .f32⟩ : BufTy).Contents (Elt Ideal) → (⟨S8192x50, .f32⟩ : BufTy).Contents (Elt Ideal)) (Z7 m ρ c (Proc.devRef .tc main_v292)) (Z7 m ρ c (Proc.devRef .tc main_v291))) (Z7 m ρ c (Proc.devRef .tc main_v273))) (Z7 m ρ c (Proc.devRef .tc main_v278)) = _
  try rw [bd_Z7_main_v292 m ρ c]
  try rw [bd_Z7_main_v291 m ρ c]
  try rw [bd_Z7_main_v273 m ρ c]
  try rw [bd_Z7_main_v278 m ρ c]
  rfl

theorem bd_W0_main_arg7 (c : Dev nD) : W0 m ρ c (Proc.devRef .tc main_arg7) = (ins m c).x7 := rfl

theorem bd_W1_main_arg7 (c : Dev nD) : W1 m ρ c (Proc.devRef .tc main_arg7) = (ins m c).x7 :=
  (W1_of m ρ c main_arg7 (by decide)).trans (bd_W0_main_arg7 m ρ c)

theorem bd_W2_main_arg7 (c : Dev nD) : W2 m ρ c (Proc.devRef .tc main_arg7) = (ins m c).x7 :=
  (W2_of_ne m ρ c main_arg7 (by decide)).trans (bd_W1_main_arg7 m ρ c)

theorem bd_W3_main_arg7 (c : Dev nD) : W3 m ρ c (Proc.devRef .tc main_arg7) = (ins m c).x7 :=
  (W3_of_ne m ρ c main_arg7 (by decide)).trans (bd_W2_main_arg7 m ρ c)

theorem bd_Y1_main_arg7 (c : Dev nD) : Y1 m ρ c (Proc.devRef .tc main_arg7) = (ins m c).x7 :=
  (Y1_of m ρ c main_arg7 (by decide)).trans (bd_W3_main_arg7 m ρ c)

theorem bd_Y2_main_arg7 (c : Dev nD) : Y2 m ρ c (Proc.devRef .tc main_arg7) = (ins m c).x7 :=
  (Y2_of m ρ c main_arg7 (by decide)).trans (bd_Y1_main_arg7 m ρ c)

theorem bd_Y3_main_arg7 (c : Dev nD) : Y3 m ρ c (Proc.devRef .tc main_arg7) = (ins m c).x7 :=
  (Y3_of m ρ c main_arg7 (by decide)).trans (bd_Y2_main_arg7 m ρ c)

theorem bd_Y4_main_arg7 (c : Dev nD) : Y4 m ρ c (Proc.devRef .tc main_arg7) = (ins m c).x7 :=
  (Y4_of m ρ c main_arg7 (by decide)).trans (bd_Y3_main_arg7 m ρ c)

theorem bd_Y5_main_arg7 (c : Dev nD) : Y5 m ρ c (Proc.devRef .tc main_arg7) = (ins m c).x7 :=
  (Y5_of m ρ c main_arg7 (by decide)).trans (bd_Y4_main_arg7 m ρ c)

end Cert.KernelIdeal.Hand

end
-- ==== Proof.Ideal.HostRunP12.lean ====
/-
  The kernel program's run read as values, continued: the value of every buffer a later segment reads, at every boundary
  (one lemma per buffer and boundary, in dependency order).
-/
import proofs.«174668_j26645977104432_2_alg».proof.Proof.Ideal.HostRunP11

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Y6_main_arg7 (c : Dev nD) : Y6 m ρ c (Proc.devRef .tc main_arg7) = (ins m c).x7 :=
  (Y6_of m ρ c main_arg7 (by decide)).trans (bd_Y5_main_arg7 m ρ c)

theorem bd_Y7_main_arg7 (c : Dev nD) : Y7 m ρ c (Proc.devRef .tc main_arg7) = (ins m c).x7 :=
  (Y7_of m ρ c main_arg7 (by decide)).trans (bd_Y6_main_arg7 m ρ c)

theorem bd_W4_main_arg7 (c : Dev nD) : W4 m ρ c (Proc.devRef .tc main_arg7) = (ins m c).x7 :=
  (congrFun (W4_eq m ρ c) _).trans (bd_Y7_main_arg7 m ρ c)

theorem bd_W5_main_arg7 (c : Dev nD) : W5 m ρ c (Proc.devRef .tc main_arg7) = (ins m c).x7 :=
  (W5_of_ne m ρ c main_arg7 (by decide)).trans (bd_W4_main_arg7 m ρ c)

theorem bd_W6_main_arg7 (c : Dev nD) : W6 m ρ c (Proc.devRef .tc main_arg7) = (ins m c).x7 :=
  (W6_of_ne m ρ c main_arg7 (by decide)).trans (bd_W5_main_arg7 m ρ c)

theorem bd_Z1_main_arg7 (c : Dev nD) : Z1 m ρ c (Proc.devRef .tc main_arg7) = (ins m c).x7 :=
  (Z1_of m ρ c main_arg7 (by decide)).trans (bd_W6_main_arg7 m ρ c)

theorem bd_Z2_main_arg7 (c : Dev nD) : Z2 m ρ c (Proc.devRef .tc main_arg7) = (ins m c).x7 :=
  (Z2_of m ρ c main_arg7 (by decide)).trans (bd_Z1_main_arg7 m ρ c)

theorem bd_Z3_main_arg7 (c : Dev nD) : Z3 m ρ c (Proc.devRef .tc main_arg7) = (ins m c).x7 :=
  (Z3_of m ρ c main_arg7 (by decide)).trans (bd_Z2_main_arg7 m ρ c)

theorem bd_Z4_main_arg7 (c : Dev nD) : Z4 m ρ c (Proc.devRef .tc main_arg7) = (ins m c).x7 :=
  (Z4_of m ρ c main_arg7 (by decide)).trans (bd_Z3_main_arg7 m ρ c)

theorem bd_Z5_main_arg7 (c : Dev nD) : Z5 m ρ c (Proc.devRef .tc main_arg7) = (ins m c).x7 :=
  (Z5_of m ρ c main_arg7 (by decide)).trans (bd_Z4_main_arg7 m ρ c)

theorem bd_Z6_main_arg7 (c : Dev nD) : Z6 m ρ c (Proc.devRef .tc main_arg7) = (ins m c).x7 :=
  (Z6_of m ρ c main_arg7 (by decide)).trans (bd_Z5_main_arg7 m ρ c)

theorem bd_Z7_main_arg7 (c : Dev nD) : Z7 m ρ c (Proc.devRef .tc main_arg7) = (ins m c).x7 :=
  (Z7_of m ρ c main_arg7 (by decide)).trans (bd_Z6_main_arg7 m ρ c)

theorem bd_Z8_main_arg7 (c : Dev nD) : Z8 m ρ c (Proc.devRef .tc main_arg7) = (ins m c).x7 :=
  (Z8_of m ρ c main_arg7 (by decide)).trans (bd_Z7_main_arg7 m ρ c)

theorem bd_W0_main_arg8 (c : Dev nD) : W0 m ρ c (Proc.devRef .tc main_arg8) = (ins m c).x8 := rfl

theorem bd_W1_main_arg8 (c : Dev nD) : W1 m ρ c (Proc.devRef .tc main_arg8) = (ins m c).x8 :=
  (W1_of m ρ c main_arg8 (by decide)).trans (bd_W0_main_arg8 m ρ c)

theorem bd_W2_main_arg8 (c : Dev nD) : W2 m ρ c (Proc.devRef .tc main_arg8) = (ins m c).x8 :=
  (W2_of_ne m ρ c main_arg8 (by decide)).trans (bd_W1_main_arg8 m ρ c)

theorem bd_W3_main_arg8 (c : Dev nD) : W3 m ρ c (Proc.devRef .tc main_arg8) = (ins m c).x8 :=
  (W3_of_ne m ρ c main_arg8 (by decide)).trans (bd_W2_main_arg8 m ρ c)

theorem bd_Y1_main_arg8 (c : Dev nD) : Y1 m ρ c (Proc.devRef .tc main_arg8) = (ins m c).x8 :=
  (Y1_of m ρ c main_arg8 (by decide)).trans (bd_W3_main_arg8 m ρ c)

theorem bd_Y2_main_arg8 (c : Dev nD) : Y2 m ρ c (Proc.devRef .tc main_arg8) = (ins m c).x8 :=
  (Y2_of m ρ c main_arg8 (by decide)).trans (bd_Y1_main_arg8 m ρ c)

theorem bd_Y3_main_arg8 (c : Dev nD) : Y3 m ρ c (Proc.devRef .tc main_arg8) = (ins m c).x8 :=
  (Y3_of m ρ c main_arg8 (by decide)).trans (bd_Y2_main_arg8 m ρ c)

theorem bd_Y4_main_arg8 (c : Dev nD) : Y4 m ρ c (Proc.devRef .tc main_arg8) = (ins m c).x8 :=
  (Y4_of m ρ c main_arg8 (by decide)).trans (bd_Y3_main_arg8 m ρ c)

theorem bd_Y5_main_arg8 (c : Dev nD) : Y5 m ρ c (Proc.devRef .tc main_arg8) = (ins m c).x8 :=
  (Y5_of m ρ c main_arg8 (by decide)).trans (bd_Y4_main_arg8 m ρ c)

theorem bd_Y6_main_arg8 (c : Dev nD) : Y6 m ρ c (Proc.devRef .tc main_arg8) = (ins m c).x8 :=
  (Y6_of m ρ c main_arg8 (by decide)).trans (bd_Y5_main_arg8 m ρ c)

theorem bd_Y7_main_arg8 (c : Dev nD) : Y7 m ρ c (Proc.devRef .tc main_arg8) = (ins m c).x8 :=
  (Y7_of m ρ c main_arg8 (by decide)).trans (bd_Y6_main_arg8 m ρ c)

theorem bd_W4_main_arg8 (c : Dev nD) : W4 m ρ c (Proc.devRef .tc main_arg8) = (ins m c).x8 :=
  (congrFun (W4_eq m ρ c) _).trans (bd_Y7_main_arg8 m ρ c)

theorem bd_W5_main_arg8 (c : Dev nD) : W5 m ρ c (Proc.devRef .tc main_arg8) = (ins m c).x8 :=
  (W5_of_ne m ρ c main_arg8 (by decide)).trans (bd_W4_main_arg8 m ρ c)

theorem bd_W6_main_arg8 (c : Dev nD) : W6 m ρ c (Proc.devRef .tc main_arg8) = (ins m c).x8 :=
  (W6_of_ne m ρ c main_arg8 (by decide)).trans (bd_W5_main_arg8 m ρ c)

theorem bd_Z1_main_arg8 (c : Dev nD) : Z1 m ρ c (Proc.devRef .tc main_arg8) = (ins m c).x8 :=
  (Z1_of m ρ c main_arg8 (by decide)).trans (bd_W6_main_arg8 m ρ c)

theorem bd_Z2_main_arg8 (c : Dev nD) : Z2 m ρ c (Proc.devRef .tc main_arg8) = (ins m c).x8 :=
  (Z2_of m ρ c main_arg8 (by decide)).trans (bd_Z1_main_arg8 m ρ c)

theorem bd_Z3_main_arg8 (c : Dev nD) : Z3 m ρ c (Proc.devRef .tc main_arg8) = (ins m c).x8 :=
  (Z3_of m ρ c main_arg8 (by decide)).trans (bd_Z2_main_arg8 m ρ c)

end Cert.KernelIdeal.Hand

end
-- ==== Proof.Ideal.HostRunP13.lean ====
/-
  The kernel program's run read as values, continued: the value of every buffer a later segment reads, at every boundary
  (one lemma per buffer and boundary, in dependency order).
-/
import proofs.«174668_j26645977104432_2_alg».proof.Proof.Ideal.HostRunP12

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

theorem bd_Z4_main_arg8 (c : Dev nD) : Z4 m ρ c (Proc.devRef .tc main_arg8) = (ins m c).x8 :=
  (Z4_of m ρ c main_arg8 (by decide)).trans (bd_Z3_main_arg8 m ρ c)

theorem bd_Z5_main_arg8 (c : Dev nD) : Z5 m ρ c (Proc.devRef .tc main_arg8) = (ins m c).x8 :=
  (Z5_of m ρ c main_arg8 (by decide)).trans (bd_Z4_main_arg8 m ρ c)

theorem bd_Z6_main_arg8 (c : Dev nD) : Z6 m ρ c (Proc.devRef .tc main_arg8) = (ins m c).x8 :=
  (Z6_of m ρ c main_arg8 (by decide)).trans (bd_Z5_main_arg8 m ρ c)

theorem bd_Z7_main_arg8 (c : Dev nD) : Z7 m ρ c (Proc.devRef .tc main_arg8) = (ins m c).x8 :=
  (Z7_of m ρ c main_arg8 (by decide)).trans (bd_Z6_main_arg8 m ρ c)

theorem bd_Z8_main_arg8 (c : Dev nD) : Z8 m ρ c (Proc.devRef .tc main_arg8) = (ins m c).x8 :=
  (Z8_of m ρ c main_arg8 (by decide)).trans (bd_Z7_main_arg8 m ρ c)

set_option maxRecDepth 65536 in
set_option maxHeartbeats 4000000 in
theorem bd_Z9_main_v300 (c : Dev nD) : Z9 m ρ c (Proc.devRef .tc main_v300) = kv_main_v300 (ins m c) := by
  show StableHlo.after (z8 (F := Ideal)) (Z8 m ρ c) (Proc.devRef .tc main_v300) = _
  after_results_simp
  show (addf (F := Ideal) (φ := .f32) : (⟨S8192x300, .f32⟩ : BufTy).Contents (Elt Ideal) → (⟨S8192x300, .f32⟩ : BufTy).Contents (Elt Ideal) → (⟨S8192x300, .f32⟩ : BufTy).Contents (Elt Ideal)) (((fun l r => Host.dotGeneral (F := Ideal) (φ₁ := .f32) (φ₂ := .f32) dot_S8192x400_S400x300_S8192x300_1_0_0_1_n_n none l r) : (⟨S8192x400, .f32⟩ : BufTy).Contents (Elt Ideal) → (⟨S400x300, .f32⟩ : BufTy).Contents (Elt Ideal) → (⟨S8192x300, .f32⟩ : BufTy).Contents (Elt Ideal)) (concatenate S8192x400 1 [⟨S8192x50, (Z8 m ρ c (Proc.devRef .tc main_v158))⟩, ⟨S8192x50, (Z8 m ρ c (Proc.devRef .tc main_v229))⟩, ⟨S8192x50, (Z8 m ρ c (Proc.devRef .tc main_v180))⟩, ⟨S8192x50, (Z8 m ρ c (Proc.devRef .tc main_v251))⟩, ⟨S8192x50, (Z8 m ρ c (Proc.devRef .tc main_v202))⟩, ⟨S8192x50, (Z8 m ρ c (Proc.devRef .tc main_v273))⟩, ⟨S8192x50, (Z8 m ρ c (Proc.devRef .tc main_v224))⟩, ⟨S8192x50, (Z8 m ρ c (Proc.devRef .tc main_v295))⟩] concatenates_S8192x50_S8192x50_S8192x50_S8192x50_S8192x50_S8192x50_S8192x50_S8192x50_S8192x400_d1) (Z8 m ρ c (Proc.devRef .tc main_arg7))) ((broadcastInDim S8192x300 ![0, 1] bcast_S1x300_S8192x300_0_1 : (⟨S1x300, .f32⟩ : BufTy).Contents (Elt Ideal) → (⟨S8192x300, .f32⟩ : BufTy).Contents (Elt Ideal)) ((broadcastInDim S1x300 ![1] bcast_S300_S1x300_1 : (⟨S300, .f32⟩ : BufTy).Contents (Elt Ideal) → (⟨S1x300, .f32⟩ : BufTy).Contents (Elt Ideal)) (Z8 m ρ c (Proc.devRef .tc main_arg8)))) = _
  try rw [bd_Z8_main_v158 m ρ c]
  try rw [bd_Z8_main_v229 m ρ c]
  try rw [bd_Z8_main_v180 m ρ c]
  try rw [bd_Z8_main_v251 m ρ c]
  try rw [bd_Z8_main_v202 m ρ c]
  try rw [bd_Z8_main_v273 m ρ c]
  try rw [bd_Z8_main_v224 m ρ c]
  try rw [bd_Z8_main_v295 m ρ c]
  try rw [bd_Z8_main_arg7 m ρ c]
  try rw [bd_Z8_main_arg8 m ρ c]
  rfl

theorem bd_W7_main_v300 (c : Dev nD) : W7 m ρ c (Proc.devRef .tc main_v300) = kv_main_v300 (ins m c) :=
  (congrFun (W7_eq m ρ c) _).trans (bd_Z9_main_v300 m ρ c)

end Cert.KernelIdeal.Hand

end
-- ==== Proof.Ideal.HostRun.lean ====
/-
  The kernel program's run read as values, continued: the value of every buffer a later segment reads, at every boundary
  (one lemma per buffer and boundary, in dependency order).
-/
import proofs.«174668_j26645977104432_2_alg».proof.Proof.Ideal.HostRunP13

-- the lemmas below each walk a line of host operations; elaborated one after the other they stay small
set_option Elab.async false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Alg Idealize.ShloMosaic.StableHlo

variable (m : (ℓ : Loc nD τ sig) → Buf (Elt Ideal) ℓ) (ρ : Dev nD → PrngReg)

/-- THE RUN: every weakly fair execution terminates, nothing faulting, with the result buffer at `kv_main_v300` of the
    argument arrays and the nine argument arrays unchanged. -/
theorem kernel_run : θ_run defs (onTc (τ := τ) (main (F := Ideal))) ⟨m, fun _ => 0, ρ⟩ (fun r => ∀ c : Dev nD,
      r.2.mem ((c.tc : Thread nD τ).loc main_v300) = kv_main_v300 (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v300 (by decide))).trans (bd_W7_main_v300 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_whole m ρ)

end Cert.KernelIdeal.Hand

end
-- ==== Proof.Ideal.Canon.lean ====
/-
  The common form of the two programs' host computations: one definition per distinct value, each the operation that
  produces it applied to the values it reads, over the nine argument arrays.  Both the reference program's stages and
  the kernel program's host values are shown equal to these, node by node.
-/
import proofs.«174668_j26645977104432_2_alg».proof.Proof.Ideal.HostVals
import proofs.«174668_j26645977104432_2_alg».proof.ReferenceIdeal
import proofs.«174668_j26645977104432_2_alg».proof.Proof.Gen.ReferenceIdeal

noncomputable section

namespace Cert.Bridge

open Cert.ReferenceIdeal Cert.ReferenceIdeal.Gen Idealize.ShloMosaic
open Cert.KernelIdeal.Hand (Ins)

def cv_0 (a : Ins) : (⟨S8192x50, .f32⟩ : BufTy).Contents (Elt Ideal) :=
  extractStridedSlice S8192x50 ![0, 0] a.x0 slices_S8192x200_S8192x50_0_0
def cv_1 (a : Ins) : (⟨S8192x50, .f32⟩ : BufTy).Contents (Elt Ideal) :=
  extractStridedSlice S8192x50 ![0, 50] a.x0 slices_S8192x200_S8192x50_0_50
def cv_2 (a : Ins) : (⟨S8192x50, .f32⟩ : BufTy).Contents (Elt Ideal) :=
  extractStridedSlice S8192x50 ![0, 100] a.x0 slices_S8192x200_S8192x50_0_100
def cv_3 (a : Ins) : (⟨S8192x50, .f32⟩ : BufTy).Contents (Elt Ideal) :=
  extractStridedSlice S8192x50 ![0, 150] a.x0 slices_S8192x200_S8192x50_0_150
def cv_4 (a : Ins) : (⟨S8192x50, .f32⟩ : BufTy).Contents (Elt Ideal) :=
  Host.dotGeneral (F := Ideal) (φ₁ := .f32) (φ₂ := .f32) dot_S8192x50_S50x50_S8192x50_1_0_0_1_n_n none (cv_0 a) a.x3
def cv_5 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_4 a)
def cv_6 (a : Ins) : (⟨S1x50, .f32⟩ : BufTy).Contents (Elt Ideal) :=
  broadcastInDim S1x50 ![1] bcast_S50_S1x50_1 a.x4
def cv_7 (a : Ins) : (⟨S8192x50, .f32⟩ : BufTy).Contents (Elt Ideal) :=
  broadcastInDim S8192x50 ![0, 1] bcast_S1x50_S8192x50_0_1 (cv_6 a)
def cv_8 (a : Ins) : (⟨S8192x50, .f32⟩ : BufTy).Contents (Elt Ideal) :=
  addf (F := Ideal) (φ := .f32) (cv_5 a) (cv_7 a)
def cv_9 (a : Ins) : (⟨S_, .f32⟩ : BufTy).Contents (Elt Ideal) :=
  constant (F := Ideal) S_ .f32 0x00000000#32
def cv_10 (a : Ins) : (⟨S8192x50, .f32⟩ : BufTy).Contents (Elt Ideal) :=
  broadcastInDim S8192x50 ![] bcast_S_S8192x50 (cv_9 a)
def cv_11 (a : Ins) : (⟨S8192x50, .f32⟩ : BufTy).Contents (Elt Ideal) :=
  maximumf (F := Ideal) (φ := .f32) (cv_8 a) (cv_10 a)
def cv_12 (a : Ins) : (⟨S8192x50, .f32⟩ : BufTy).Contents (Elt Ideal) :=
  addf (F := Ideal) (φ := .f32) (cv_0 a) (cv_11 a)
def cv_13 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_4 a)
def cv_14 (a : Ins) : (⟨S8192x50, .f32⟩ : BufTy).Contents (Elt Ideal) :=
  addf (F := Ideal) (φ := .f32) (cv_13 a) (cv_7 a)
def cv_15 (a : Ins) : (⟨S8192x50, .f32⟩ : BufTy).Contents (Elt Ideal) :=
  maximumf (F := Ideal) (φ := .f32) (cv_14 a) (cv_10 a)
def cv_16 (a : Ins) : (⟨S_, .f32⟩ : BufTy).Contents (Elt Ideal) :=
  constant (F := Ideal) S_ .f32 0x3E4CCCCD#32
def cv_17 (a : Ins) : (⟨S8192x50, .f32⟩ : BufTy).Contents (Elt Ideal) :=
  broadcastInDim S8192x50 ![] bcast_S_S8192x50 (cv_16 a)
def cv_18 (a : Ins) : (⟨S8192x50, .f32⟩ : BufTy).Contents (Elt Ideal) :=
  mulf (F := Ideal) (φ := .f32) (cv_17 a) (cv_15 a)
def cv_19 (a : Ins) : (⟨S8192x50, .f32⟩ : BufTy).Contents (Elt Ideal) :=
  Host.dotGeneral (F := Ideal) (φ₁ := .f32) (φ₂ := .f32) dot_S8192x50_S50x50_S8192x50_1_0_0_1_n_n none (cv_12 a) a.x3
def cv_20 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_19 a)
def cv_21 (a : Ins) : (⟨S8192x50, .f32⟩ : BufTy).Contents (Elt Ideal) :=
  addf (F := Ideal) (φ := .f32) (cv_20 a) (cv_7 a)
def cv_22 (a : Ins) : (⟨S8192x50, .f32⟩ : BufTy).Contents (Elt Ideal) :=
  maximumf (F := Ideal) (φ := .f32) (cv_21 a) (cv_10 a)
def cv_23 (a : Ins) : (⟨S_, .f32⟩ : BufTy).Contents (Elt Ideal) :=
  constant (F := Ideal) S_ .f32 0x3F4CCCCD#32
def cv_24 (a : Ins) : (⟨S8192x50, .f32⟩ : BufTy).Contents (Elt Ideal) :=
  broadcastInDim S8192x50 ![] bcast_S_S8192x50 (cv_23 a)
def cv_25 (a : Ins) : (⟨S8192x50, .f32⟩ : BufTy).Contents (Elt Ideal) :=
  mulf (F := Ideal) (φ := .f32) (cv_24 a) (cv_22 a)
def cv_26 (a : Ins) : (⟨S8192x50, .f32⟩ : BufTy).Contents (Elt Ideal) :=
  addf (F := Ideal) (φ := .f32) (cv_18 a) (cv_25 a)
def cv_27 (a : Ins) : (⟨S8192x50, .f32⟩ : BufTy).Contents (Elt Ideal) :=
  Host.dotGeneral (F := Ideal) (φ₁ := .f32) (φ₂ := .f32) dot_S8192x50_S50x50_S8192x50_1_0_0_1_n_n none (cv_1 a) a.x3
def cv_28 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_27 a)
def cv_29 (a : Ins) : (⟨S8192x50, .f32⟩ : BufTy).Contents (Elt Ideal) :=
  addf (F := Ideal) (φ := .f32) (cv_28 a) (cv_7 a)
def cv_30 (a : Ins) : (⟨S8192x50, .f32⟩ : BufTy).Contents (Elt Ideal) :=
  maximumf (F := Ideal) (φ := .f32) (cv_29 a) (cv_10 a)
def cv_31 (a : Ins) : (⟨S8192x50, .f32⟩ : BufTy).Contents (Elt Ideal) :=
  addf (F := Ideal) (φ := .f32) (cv_1 a) (cv_30 a)
def cv_32 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_27 a)
def cv_33 (a : Ins) : (⟨S8192x50, .f32⟩ : BufTy).Contents (Elt Ideal) :=
  addf (F := Ideal) (φ := .f32) (cv_32 a) (cv_7 a)
def cv_34 (a : Ins) : (⟨S8192x50, .f32⟩ : BufTy).Contents (Elt Ideal) :=
  maximumf (F := Ideal) (φ := .f32) (cv_33 a) (cv_10 a)
def cv_35 (a : Ins) : (⟨S8192x100, .f32⟩ : BufTy).Contents (Elt Ideal) :=
  concatenate S8192x100 1 [⟨S8192x50, (cv_15 a)⟩, ⟨S8192x50, (cv_34 a)⟩] concatenates_S8192x50_S8192x50_S8192x100_d1
def cv_36 (a : Ins) : (⟨S1x100x50, .f32⟩ : BufTy).Contents (Elt Ideal) :=
  extractStridedSlice S1x100x50 ![0, 0, 0] a.x5 slices_S12x100x50_S1x100x50_0_0_0
def cv_37 (a : Ins) : (⟨S100x50, .f32⟩ : BufTy).Contents (Elt Ideal) :=
  shapeCast _ (cv_36 a) shapeCasts_S1x100x50_S100x50
def cv_38 (a : Ins) : (⟨S8192x50, .f32⟩ : BufTy).Contents (Elt Ideal) :=
  Host.dotGeneral (F := Ideal) (φ₁ := .f32) (φ₂ := .f32) dot_S8192x100_S100x50_S8192x50_1_0_0_1_n_n none (cv_35 a) (cv_37 a)
def cv_39 (a : Ins) : (⟨S1x50, .f32⟩ : BufTy).Contents (Elt Ideal) :=
  extractStridedSlice S1x50 ![0, 0] a.x6 slices_S12x50_S1x50_0_0
def cv_40 (a : Ins) : (⟨S50, .f32⟩ : BufTy).Contents (Elt Ideal) :=
  shapeCast _ (cv_39 a) shapeCasts_S1x50_S50
def cv_41 (a : Ins) : (⟨S1x50, .f32⟩ : BufTy).Contents (Elt Ideal) :=
  broadcastInDim S1x50 ![1] bcast_S50_S1x50_1 (cv_40 a)
def cv_42 (a : Ins) : (⟨S8192x50, .f32⟩ : BufTy).Contents (Elt Ideal) :=
  broadcastInDim S8192x50 ![0, 1] bcast_S1x50_S8192x50_0_1 (cv_41 a)
def cv_43 (a : Ins) : (⟨S8192x50, .f32⟩ : BufTy).Contents (Elt Ideal) :=
  addf (F := Ideal) (φ := .f32) (cv_38 a) (cv_42 a)
def cv_44 (a : Ins) : (⟨S8192x50, .f32⟩ : BufTy).Contents (Elt Ideal) :=
  Host.negf (F := Ideal) (φ := .f32) (cv_43 a)
def cv_45 (a : Ins) : (⟨S8192x50, .f32⟩ : BufTy).Contents (Elt Ideal) :=
  Host.exp (F := Ideal) (φ := .f32) (cv_44 a)
def cv_46 (a : Ins) : (⟨S_, .f32⟩ : BufTy).Contents (Elt Ideal) :=
  constant (F := Ideal) S_ .f32 0x3F800000#32
def cv_47 (a : Ins) : (⟨S8192x50, .f32⟩ : BufTy).Contents (Elt Ideal) :=
  broadcastInDim S8192x50 ![] bcast_S_S8192x50 (cv_46 a)
def cv_48 (a : Ins) : (⟨S8192x50, .f32⟩ : BufTy).Contents (Elt Ideal) :=
  addf (F := Ideal) (φ := .f32) (cv_47 a) (cv_45 a)
def cv_49 (a : Ins) : (⟨S8192x50, .f32⟩ : BufTy).Contents (Elt Ideal) :=
  Host.divf (F := Ideal) (φ := .f32) (cv_47 a) (cv_48 a)
def cv_50 (a : Ins) : (⟨S8192x50, .f32⟩ : BufTy).Contents (Elt Ideal) :=
  mulf (F := Ideal) (φ := .f32) (cv_49 a) (cv_15 a)
def cv_51 (a : Ins) : (⟨S8192x50, .f32⟩ : BufTy).Contents (Elt Ideal) :=
  addf (F := Ideal) (φ := .f32) (cv_34 a) (cv_50 a)
def cv_52 (a : Ins) : (⟨S8192x50, .f32⟩ : BufTy).Contents (Elt Ideal) :=
  mulf (F := Ideal) (φ := .f32) (cv_17 a) (cv_51 a)
def cv_53 (a : Ins) : (⟨S8192x50, .f32⟩ : BufTy).Contents (Elt Ideal) :=
  Host.dotGeneral (F := Ideal) (φ₁ := .f32) (φ₂ := .f32) dot_S8192x50_S50x50_S8192x50_1_0_0_1_n_n none (cv_31 a) a.x3
def cv_54 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_53 a)
def cv_55 (a : Ins) : (⟨S8192x50, .f32⟩ : BufTy).Contents (Elt Ideal) :=
  addf (F := Ideal) (φ := .f32) (cv_54 a) (cv_7 a)
def cv_56 (a : Ins) : (⟨S8192x50, .f32⟩ : BufTy).Contents (Elt Ideal) :=
  maximumf (F := Ideal) (φ := .f32) (cv_55 a) (cv_10 a)
def cv_57 (a : Ins) : (⟨S8192x50, .f32⟩ : BufTy).Contents (Elt Ideal) :=
  mulf (F := Ideal) (φ := .f32) (cv_24 a) (cv_56 a)
def cv_58 (a : Ins) : (⟨S8192x50, .f32⟩ : BufTy).Contents (Elt Ideal) :=
  addf (F := Ideal) (φ := .f32) (cv_52 a) (cv_57 a)
def cv_59 (a : Ins) : (⟨S8192x100, .f32⟩ : BufTy).Contents (Elt Ideal) :=
  concatenate S8192x100 1 [⟨S8192x50, (cv_26 a)⟩, ⟨S8192x50, (cv_58 a)⟩] concatenates_S8192x50_S8192x50_S8192x100_d1
def cv_60 (a : Ins) : (⟨S1x100x50, .f32⟩ : BufTy).Contents (Elt Ideal) :=
  extractStridedSlice S1x100x50 ![3, 0, 0] a.x5 slices_S12x100x50_S1x100x50_3_0_0
def cv_61 (a : Ins) : (⟨S100x50, .f32⟩ : BufTy).Contents (Elt Ideal) :=
  shapeCast _ (cv_60 a) shapeCasts_S1x100x50_S100x50
def cv_62 (a : Ins) : (⟨S8192x50, .f32⟩ : BufTy).Contents (Elt Ideal) :=
  Host.dotGeneral (F := Ideal) (φ₁ := .f32) (φ₂ := .f32) dot_S8192x100_S100x50_S8192x50_1_0_0_1_n_n none (cv_59 a) (cv_61 a)
def cv_63 (a : Ins) : (⟨S1x50, .f32⟩ : BufTy).Contents (Elt Ideal) :=
  extractStridedSlice S1x50 ![3, 0] a.x6 slices_S12x50_S1x50_3_0
def cv_64 (a : Ins) : (⟨S50, .f32⟩ : BufTy).Contents (Elt Ideal) :=
  shapeCast _ (cv_63 a) shapeCasts_S1x50_S50
def cv_65 (a : Ins) : (⟨S1x50, .f32⟩ : BufTy).Contents (Elt Ideal) :=
  broadcastInDim S1x50 ![1] bcast_S50_S1x50_1 (cv_64 a)
def cv_66 (a : Ins) : (⟨S8192x50, .f32⟩ : BufTy).Contents (Elt Ideal) :=
  broadcastInDim S8192x50 ![0, 1] bcast_S1x50_S8192x50_0_1 (cv_65 a)
def cv_67 (a : Ins) : (⟨S8192x50, .f32⟩ : BufTy).Contents (Elt Ideal) :=
  addf (F := Ideal) (φ := .f32) (cv_62 a) (cv_66 a)
def cv_68 (a : Ins) : (⟨S8192x50, .f32⟩ : BufTy).Contents (Elt Ideal) :=
  Host.negf (F := Ideal) (φ := .f32) (cv_67 a)
def cv_69 (a : Ins) : (⟨S8192x50, .f32⟩ : BufTy).Contents (Elt Ideal) :=
  Host.exp (F := Ideal) (φ := .f32) (cv_68 a)
def cv_70 (a : Ins) : (⟨S8192x50, .f32⟩ : BufTy).Contents (Elt Ideal) :=
  addf (F := Ideal) (φ := .f32) (cv_47 a) (cv_69 a)
def cv_71 (a : Ins) : (⟨S8192x50, .f32⟩ : BufTy).Contents (Elt Ideal) :=
  Host.divf (F := Ideal) (φ := .f32) (cv_47 a) (cv_70 a)
def cv_72 (a : Ins) : (⟨S8192x50, .f32⟩ : BufTy).Contents (Elt Ideal) :=
  mulf (F := Ideal) (φ := .f32) (cv_71 a) (cv_26 a)
def cv_73 (a : Ins) : (⟨S8192x50, .f32⟩ : BufTy).Contents (Elt Ideal) :=
  addf (F := Ideal) (φ := .f32) (cv_72 a) (cv_58 a)
def cv_74 (a : Ins) : (⟨S8192x50, .f32⟩ : BufTy).Contents (Elt Ideal) :=
  mulf (F := Ideal) (φ := .f32) (cv_17 a) (cv_2 a)
def cv_75 (a : Ins) : (⟨S8192x50, .f32⟩ : BufTy).Contents (Elt Ideal) :=
  Host.dotGeneral (F := Ideal) (φ₁ := .f32) (φ₂ := .f32) dot_S8192x50_S50x50_S8192x50_1_0_0_1_n_n none (cv_2 a) a.x3
def cv_76 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_75 a)
def cv_77 (a : Ins) : (⟨S8192x50, .f32⟩ : BufTy).Contents (Elt Ideal) :=
  addf (F := Ideal) (φ := .f32) (cv_76 a) (cv_7 a)
def cv_78 (a : Ins) : (⟨S8192x50, .f32⟩ : BufTy).Contents (Elt Ideal) :=
  maximumf (F := Ideal) (φ := .f32) (cv_77 a) (cv_10 a)
def cv_79 (a : Ins) : (⟨S8192x50, .f32⟩ : BufTy).Contents (Elt Ideal) :=
  mulf (F := Ideal) (φ := .f32) (cv_24 a) (cv_78 a)
def cv_80 (a : Ins) : (⟨S8192x50, .f32⟩ : BufTy).Contents (Elt Ideal) :=
  addf (F := Ideal) (φ := .f32) (cv_74 a) (cv_79 a)
def cv_81 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_75 a)
def cv_82 (a : Ins) : (⟨S8192x50, .f32⟩ : BufTy).Contents (Elt Ideal) :=
  addf (F := Ideal) (φ := .f32) (cv_81 a) (cv_7 a)
def cv_83 (a : Ins) : (⟨S8192x50, .f32⟩ : BufTy).Contents (Elt Ideal) :=
  maximumf (F := Ideal) (φ := .f32) (cv_82 a) (cv_10 a)
def cv_84 (a : Ins) : (⟨S8192x100, .f32⟩ : BufTy).Contents (Elt Ideal) :=
  concatenate S8192x100 1 [⟨S8192x50, (cv_51 a)⟩, ⟨S8192x50, (cv_83 a)⟩] concatenates_S8192x50_S8192x50_S8192x100_d1
def cv_85 (a : Ins) : (⟨S1x100x50, .f32⟩ : BufTy).Contents (Elt Ideal) :=
  extractStridedSlice S1x100x50 ![1, 0, 0] a.x5 slices_S12x100x50_S1x100x50_1_0_0
def cv_86 (a : Ins) : (⟨S100x50, .f32⟩ : BufTy).Contents (Elt Ideal) :=
  shapeCast _ (cv_85 a) shapeCasts_S1x100x50_S100x50
def cv_87 (a : Ins) : (⟨S8192x50, .f32⟩ : BufTy).Contents (Elt Ideal) :=
  Host.dotGeneral (F := Ideal) (φ₁ := .f32) (φ₂ := .f32) dot_S8192x100_S100x50_S8192x50_1_0_0_1_n_n none (cv_84 a) (cv_86 a)
def cv_88 (a : Ins) : (⟨S1x50, .f32⟩ : BufTy).Contents (Elt Ideal) :=
  extractStridedSlice S1x50 ![1, 0] a.x6 slices_S12x50_S1x50_1_0
def cv_89 (a : Ins) : (⟨S50, .f32⟩ : BufTy).Contents (Elt Ideal) :=
  shapeCast _ (cv_88 a) shapeCasts_S1x50_S50
def cv_90 (a : Ins) : (⟨S1x50, .f32⟩ : BufTy).Contents (Elt Ideal) :=
  broadcastInDim S1x50 ![1] bcast_S50_S1x50_1 (cv_89 a)
def cv_91 (a : Ins) : (⟨S8192x50, .f32⟩ : BufTy).Contents (Elt Ideal) :=
  broadcastInDim S8192x50 ![0, 1] bcast_S1x50_S8192x50_0_1 (cv_90 a)
def cv_92 (a : Ins) : (⟨S8192x50, .f32⟩ : BufTy).Contents (Elt Ideal) :=
  addf (F := Ideal) (φ := .f32) (cv_87 a) (cv_91 a)
def cv_93 (a : Ins) : (⟨S8192x50, .f32⟩ : BufTy).Contents (Elt Ideal) :=
  Host.negf (F := Ideal) (φ := .f32) (cv_92 a)
def cv_94 (a : Ins) : (⟨S8192x50, .f32⟩ : BufTy).Contents (Elt Ideal) :=
  Host.exp (F := Ideal) (φ := .f32) (cv_93 a)
def cv_95 (a : Ins) : (⟨S8192x50, .f32⟩ : BufTy).Contents (Elt Ideal) :=
  addf (F := Ideal) (φ := .f32) (cv_47 a) (cv_94 a)
def cv_96 (a : Ins) : (⟨S8192x50, .f32⟩ : BufTy).Contents (Elt Ideal) :=
  Host.divf (F := Ideal) (φ := .f32) (cv_47 a) (cv_95 a)
def cv_97 (a : Ins) : (⟨S8192x50, .f32⟩ : BufTy).Contents (Elt Ideal) :=
  mulf (F := Ideal) (φ := .f32) (cv_96 a) (cv_51 a)
def cv_98 (a : Ins) : (⟨S8192x50, .f32⟩ : BufTy).Contents (Elt Ideal) :=
  addf (F := Ideal) (φ := .f32) (cv_83 a) (cv_97 a)
def cv_99 (a : Ins) : (⟨S8192x50, .f32⟩ : BufTy).Contents (Elt Ideal) :=
  mulf (F := Ideal) (φ := .f32) (cv_17 a) (cv_98 a)
def cv_100 (a : Ins) : (⟨S8192x50, .f32⟩ : BufTy).Contents (Elt Ideal) :=
  Host.dotGeneral (F := Ideal) (φ₁ := .f32) (φ₂ := .f32) dot_S8192x50_S50x50_S8192x50_1_0_0_1_n_n none (cv_80 a) a.x3
def cv_101 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_100 a)
def cv_102 (a : Ins) : (⟨S8192x50, .f32⟩ : BufTy).Contents (Elt Ideal) :=
  addf (F := Ideal) (φ := .f32) (cv_101 a) (cv_7 a)
def cv_103 (a : Ins) : (⟨S8192x50, .f32⟩ : BufTy).Contents (Elt Ideal) :=
  maximumf (F := Ideal) (φ := .f32) (cv_102 a) (cv_10 a)
def cv_104 (a : Ins) : (⟨S8192x50, .f32⟩ : BufTy).Contents (Elt Ideal) :=
  mulf (F := Ideal) (φ := .f32) (cv_24 a) (cv_103 a)
def cv_105 (a : Ins) : (⟨S8192x50, .f32⟩ : BufTy).Contents (Elt Ideal) :=
  addf (F := Ideal) (φ := .f32) (cv_99 a) (cv_104 a)
def cv_106 (a : Ins) : (⟨S8192x100, .f32⟩ : BufTy).Contents (Elt Ideal) :=
  concatenate S8192x100 1 [⟨S8192x50, (cv_73 a)⟩, ⟨S8192x50, (cv_105 a)⟩] concatenates_S8192x50_S8192x50_S8192x100_d1
def cv_107 (a : Ins) : (⟨S1x100x50, .f32⟩ : BufTy).Contents (Elt Ideal) :=
  extractStridedSlice S1x100x50 ![4, 0, 0] a.x5 slices_S12x100x50_S1x100x50_4_0_0
def cv_108 (a : Ins) : (⟨S100x50, .f32⟩ : BufTy).Contents (Elt Ideal) :=
  shapeCast _ (cv_107 a) shapeCasts_S1x100x50_S100x50
def cv_109 (a : Ins) : (⟨S8192x50, .f32⟩ : BufTy).Contents (Elt Ideal) :=
  Host.dotGeneral (F := Ideal) (φ₁ := .f32) (φ₂ := .f32) dot_S8192x100_S100x50_S8192x50_1_0_0_1_n_n none (cv_106 a) (cv_108 a)
def cv_110 (a : Ins) : (⟨S1x50, .f32⟩ : BufTy).Contents (Elt Ideal) :=
  extractStridedSlice S1x50 ![4, 0] a.x6 slices_S12x50_S1x50_4_0
def cv_111 (a : Ins) : (⟨S50, .f32⟩ : BufTy).Contents (Elt Ideal) :=
  shapeCast _ (cv_110 a) shapeCasts_S1x50_S50
def cv_112 (a : Ins) : (⟨S1x50, .f32⟩ : BufTy).Contents (Elt Ideal) :=
  broadcastInDim S1x50 ![1] bcast_S50_S1x50_1 (cv_111 a)
def cv_113 (a : Ins) : (⟨S8192x50, .f32⟩ : BufTy).Contents (Elt Ideal) :=
  broadcastInDim S8192x50 ![0, 1] bcast_S1x50_S8192x50_0_1 (cv_112 a)
def cv_114 (a : Ins) : (⟨S8192x50, .f32⟩ : BufTy).Contents (Elt Ideal) :=
  addf (F := Ideal) (φ := .f32) (cv_109 a) (cv_113 a)
def cv_115 (a : Ins) : (⟨S8192x50, .f32⟩ : BufTy).Contents (Elt Ideal) :=
  Host.negf (F := Ideal) (φ := .f32) (cv_114 a)
def cv_116 (a : Ins) : (⟨S8192x50, .f32⟩ : BufTy).Contents (Elt Ideal) :=
  Host.exp (F := Ideal) (φ := .f32) (cv_115 a)
def cv_117 (a : Ins) : (⟨S8192x50, .f32⟩ : BufTy).Contents (Elt Ideal) :=
  addf (F := Ideal) (φ := .f32) (cv_47 a) (cv_116 a)
def cv_118 (a : Ins) : (⟨S8192x50, .f32⟩ : BufTy).Contents (Elt Ideal) :=
  Host.divf (F := Ideal) (φ := .f32) (cv_47 a) (cv_117 a)
def cv_119 (a : Ins) : (⟨S8192x50, .f32⟩ : BufTy).Contents (Elt Ideal) :=
  mulf (F := Ideal) (φ := .f32) (cv_118 a) (cv_73 a)
def cv_120 (a : Ins) : (⟨S8192x50, .f32⟩ : BufTy).Contents (Elt Ideal) :=
  addf (F := Ideal) (φ := .f32) (cv_119 a) (cv_105 a)
def cv_121 (a : Ins) : (⟨S8192x50, .f32⟩ : BufTy).Contents (Elt Ideal) :=
  Host.dotGeneral (F := Ideal) (φ₁ := .f32) (φ₂ := .f32) dot_S8192x50_S50x50_S8192x50_1_0_0_1_n_n none (cv_3 a) a.x3
def cv_122 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_121 a)
def cv_123 (a : Ins) : (⟨S8192x50, .f32⟩ : BufTy).Contents (Elt Ideal) :=
  addf (F := Ideal) (φ := .f32) (cv_122 a) (cv_7 a)
def cv_124 (a : Ins) : (⟨S8192x50, .f32⟩ : BufTy).Contents (Elt Ideal) :=
  maximumf (F := Ideal) (φ := .f32) (cv_123 a) (cv_10 a)
def cv_125 (a : Ins) : (⟨S8192x50, .f32⟩ : BufTy).Contents (Elt Ideal) :=
  addf (F := Ideal) (φ := .f32) (cv_3 a) (cv_124 a)
def cv_126 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_121 a)
def cv_127 (a : Ins) : (⟨S8192x50, .f32⟩ : BufTy).Contents (Elt Ideal) :=
  addf (F := Ideal) (φ := .f32) (cv_126 a) (cv_7 a)
def cv_128 (a : Ins) : (⟨S8192x50, .f32⟩ : BufTy).Contents (Elt Ideal) :=
  maximumf (F := Ideal) (φ := .f32) (cv_127 a) (cv_10 a)
def cv_129 (a : Ins) : (⟨S8192x100, .f32⟩ : BufTy).Contents (Elt Ideal) :=
  concatenate S8192x100 1 [⟨S8192x50, (cv_98 a)⟩, ⟨S8192x50, (cv_128 a)⟩] concatenates_S8192x50_S8192x50_S8192x100_d1
def cv_130 (a : Ins) : (⟨S1x100x50, .f32⟩ : BufTy).Contents (Elt Ideal) :=
  extractStridedSlice S1x100x50 ![2, 0, 0] a.x5 slices_S12x100x50_S1x100x50_2_0_0
def cv_131 (a : Ins) : (⟨S100x50, .f32⟩ : BufTy).Contents (Elt Ideal) :=
  shapeCast _ (cv_130 a) shapeCasts_S1x100x50_S100x50
def cv_132 (a : Ins) : (⟨S8192x50, .f32⟩ : BufTy).Contents (Elt Ideal) :=
  Host.dotGeneral (F := Ideal) (φ₁ := .f32) (φ₂ := .f32) dot_S8192x100_S100x50_S8192x50_1_0_0_1_n_n none (cv_129 a) (cv_131 a)
def cv_133 (a : Ins) : (⟨S1x50, .f32⟩ : BufTy).Contents (Elt Ideal) :=
  extractStridedSlice S1x50 ![2, 0] a.x6 slices_S12x50_S1x50_2_0
def cv_134 (a : Ins) : (⟨S50, .f32⟩ : BufTy).Contents (Elt Ideal) :=
  shapeCast _ (cv_133 a) shapeCasts_S1x50_S50
def cv_135 (a : Ins) : (⟨S1x50, .f32⟩ : BufTy).Contents (Elt Ideal) :=
  broadcastInDim S1x50 ![1] bcast_S50_S1x50_1 (cv_134 a)
def cv_136 (a : Ins) : (⟨S8192x50, .f32⟩ : BufTy).Contents (Elt Ideal) :=
  broadcastInDim S8192x50 ![0, 1] bcast_S1x50_S8192x50_0_1 (cv_135 a)
def cv_137 (a : Ins) : (⟨S8192x50, .f32⟩ : BufTy).Contents (Elt Ideal) :=
  addf (F := Ideal) (φ := .f32) (cv_132 a) (cv_136 a)
def cv_138 (a : Ins) : (⟨S8192x50, .f32⟩ : BufTy).Contents (Elt Ideal) :=
  Host.negf (F := Ideal) (φ := .f32) (cv_137 a)
def cv_139 (a : Ins) : (⟨S8192x50, .f32⟩ : BufTy).Contents (Elt Ideal) :=
  Host.exp (F := Ideal) (φ := .f32) (cv_138 a)
def cv_140 (a : Ins) : (⟨S8192x50, .f32⟩ : BufTy).Contents (Elt Ideal) :=
  addf (F := Ideal) (φ := .f32) (cv_47 a) (cv_139 a)
def cv_141 (a : Ins) : (⟨S8192x50, .f32⟩ : BufTy).Contents (Elt Ideal) :=
  Host.divf (F := Ideal) (φ := .f32) (cv_47 a) (cv_140 a)
def cv_142 (a : Ins) : (⟨S8192x50, .f32⟩ : BufTy).Contents (Elt Ideal) :=
  mulf (F := Ideal) (φ := .f32) (cv_141 a) (cv_98 a)
def cv_143 (a : Ins) : (⟨S8192x50, .f32⟩ : BufTy).Contents (Elt Ideal) :=
  addf (F := Ideal) (φ := .f32) (cv_128 a) (cv_142 a)
def cv_144 (a : Ins) : (⟨S8192x50, .f32⟩ : BufTy).Contents (Elt Ideal) :=
  mulf (F := Ideal) (φ := .f32) (cv_17 a) (cv_143 a)
def cv_145 (a : Ins) : (⟨S8192x50, .f32⟩ : BufTy).Contents (Elt Ideal) :=
  Host.dotGeneral (F := Ideal) (φ₁ := .f32) (φ₂ := .f32) dot_S8192x50_S50x50_S8192x50_1_0_0_1_n_n none (cv_125 a) a.x3
def cv_146 (a : Ins) : (⟨S8192x50, .f32⟩ : BufTy).Contents (Elt Ideal) :=
  Host.dotGeneral (F := Ideal) (φ₁ := .f32) (φ₂ := .f32) dot_S8192x8192_S8192x50_S8192x50_1_0_0_1_n_n none a.x2 (cv_145 a)
def cv_147 (a : Ins) : (⟨S8192x50, .f32⟩ : BufTy).Contents (Elt Ideal) :=
  addf (F := Ideal) (φ := .f32) (cv_146 a) (cv_7 a)
def cv_148 (a : Ins) : (⟨S8192x50, .f32⟩ : BufTy).Contents (Elt Ideal) :=
  maximumf (F := Ideal) (φ := .f32) (cv_147 a) (cv_10 a)
def cv_149 (a : Ins) : (⟨S8192x50, .f32⟩ : BufTy).Contents (Elt Ideal) :=
  mulf (F := Ideal) (φ := .f32) (cv_24 a) (cv_148 a)
def cv_150 (a : Ins) : (⟨S8192x50, .f32⟩ : BufTy).Contents (Elt Ideal) :=
  addf (F := Ideal) (φ := .f32) (cv_144 a) (cv_149 a)
def cv_151 (a : Ins) : (⟨S8192x100, .f32⟩ : BufTy).Contents (Elt Ideal) :=
  concatenate S8192x100 1 [⟨S8192x50, (cv_120 a)⟩, ⟨S8192x50, (cv_150 a)⟩] concatenates_S8192x50_S8192x50_S8192x100_d1
def cv_152 (a : Ins) : (⟨S1x100x50, .f32⟩ : BufTy).Contents (Elt Ideal) :=
  extractStridedSlice S1x100x50 ![5, 0, 0] a.x5 slices_S12x100x50_S1x100x50_5_0_0
def cv_153 (a : Ins) : (⟨S100x50, .f32⟩ : BufTy).Contents (Elt Ideal) :=
  shapeCast _ (cv_152 a) shapeCasts_S1x100x50_S100x50
def cv_154 (a : Ins) : (⟨S8192x50, .f32⟩ : BufTy).Contents (Elt Ideal) :=
  Host.dotGeneral (F := Ideal) (φ₁ := .f32) (φ₂ := .f32) dot_S8192x100_S100x50_S8192x50_1_0_0_1_n_n none (cv_151 a) (cv_153 a)
def cv_155 (a : Ins) : (⟨S1x50, .f32⟩ : BufTy).Contents (Elt Ideal) :=
  extractStridedSlice S1x50 ![5, 0] a.x6 slices_S12x50_S1x50_5_0
def cv_156 (a : Ins) : (⟨S50, .f32⟩ : BufTy).Contents (Elt Ideal) :=
  shapeCast _ (cv_155 a) shapeCasts_S1x50_S50
def cv_157 (a : Ins) : (⟨S1x50, .f32⟩ : BufTy).Contents (Elt Ideal) :=
  broadcastInDim S1x50 ![1] bcast_S50_S1x50_1 (cv_156 a)
def cv_158 (a : Ins) : (⟨S8192x50, .f32⟩ : BufTy).Contents (Elt Ideal) :=
  broadcastInDim S8192x50 ![0, 1] bcast_S1x50_S8192x50_0_1 (cv_157 a)
def cv_159 (a : Ins) : (⟨S8192x50, .f32⟩ : BufTy).Contents (Elt Ideal) :=
  addf (F := Ideal) (φ := .f32) (cv_154 a) (cv_158 a)
def cv_160 (a : Ins) : (⟨S8192x50, .f32⟩ : BufTy).Contents (Elt Ideal) :=
  Host.negf (F := Ideal) (φ := .f32) (cv_159 a)
def cv_161 (a : Ins) : (⟨S8192x50, .f32⟩ : BufTy).Contents (Elt Ideal) :=
  Host.exp (F := Ideal) (φ := .f32) (cv_160 a)
def cv_162 (a : Ins) : (⟨S8192x50, .f32⟩ : BufTy).Contents (Elt Ideal) :=
  addf (F := Ideal) (φ := .f32) (cv_47 a) (cv_161 a)
def cv_163 (a : Ins) : (⟨S8192x50, .f32⟩ : BufTy).Contents (Elt Ideal) :=
  Host.divf (F := Ideal) (φ := .f32) (cv_47 a) (cv_162 a)
def cv_164 (a : Ins) : (⟨S8192x50, .f32⟩ : BufTy).Contents (Elt Ideal) :=
  mulf (F := Ideal) (φ := .f32) (cv_163 a) (cv_120 a)
def cv_165 (a : Ins) : (⟨S8192x50, .f32⟩ : BufTy).Contents (Elt Ideal) :=
  addf (F := Ideal) (φ := .f32) (cv_164 a) (cv_150 a)
def cv_166 (a : Ins) : (⟨S8192x50, .f32⟩ : BufTy).Contents (Elt Ideal) :=
  addf (F := Ideal) (φ := .f32) (cv_0 a) (cv_15 a)
def cv_167 (a : Ins) : (⟨S8192x50, .f32⟩ : BufTy).Contents (Elt Ideal) :=
  mulf (F := Ideal) (φ := .f32) (cv_17 a) (cv_11 a)
def cv_168 (a : Ins) : (⟨S8192x50, .f32⟩ : BufTy).Contents (Elt Ideal) :=
  Host.dotGeneral (F := Ideal) (φ₁ := .f32) (φ₂ := .f32) dot_S8192x50_S50x50_S8192x50_1_0_0_1_n_n none (cv_166 a) a.x3
def cv_169 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_168 a)
def cv_170 (a : Ins) : (⟨S8192x50, .f32⟩ : BufTy).Contents (Elt Ideal) :=
  addf (F := Ideal) (φ := .f32) (cv_169 a) (cv_7 a)
def cv_171 (a : Ins) : (⟨S8192x50, .f32⟩ : BufTy).Contents (Elt Ideal) :=
  maximumf (F := Ideal) (φ := .f32) (cv_170 a) (cv_10 a)
def cv_172 (a : Ins) : (⟨S8192x50, .f32⟩ : BufTy).Contents (Elt Ideal) :=
  mulf (F := Ideal) (φ := .f32) (cv_24 a) (cv_171 a)
def cv_173 (a : Ins) : (⟨S8192x50, .f32⟩ : BufTy).Contents (Elt Ideal) :=
  addf (F := Ideal) (φ := .f32) (cv_167 a) (cv_172 a)
def cv_174 (a : Ins) : (⟨S8192x50, .f32⟩ : BufTy).Contents (Elt Ideal) :=
  addf (F := Ideal) (φ := .f32) (cv_1 a) (cv_34 a)
def cv_175 (a : Ins) : (⟨S8192x100, .f32⟩ : BufTy).Contents (Elt Ideal) :=
  concatenate S8192x100 1 [⟨S8192x50, (cv_11 a)⟩, ⟨S8192x50, (cv_30 a)⟩] concatenates_S8192x50_S8192x50_S8192x100_d1
def cv_176 (a : Ins) : (⟨S1x100x50, .f32⟩ : BufTy).Contents (Elt Ideal) :=
  extractStridedSlice S1x100x50 ![9, 0, 0] a.x5 slices_S12x100x50_S1x100x50_9_0_0
def cv_177 (a : Ins) : (⟨S100x50, .f32⟩ : BufTy).Contents (Elt Ideal) :=
  shapeCast _ (cv_176 a) shapeCasts_S1x100x50_S100x50
def cv_178 (a : Ins) : (⟨S8192x50, .f32⟩ : BufTy).Contents (Elt Ideal) :=
  Host.dotGeneral (F := Ideal) (φ₁ := .f32) (φ₂ := .f32) dot_S8192x100_S100x50_S8192x50_1_0_0_1_n_n none (cv_175 a) (cv_177 a)
def cv_179 (a : Ins) : (⟨S1x50, .f32⟩ : BufTy).Contents (Elt Ideal) :=
  extractStridedSlice S1x50 ![9, 0] a.x6 slices_S12x50_S1x50_9_0
def cv_180 (a : Ins) : (⟨S50, .f32⟩ : BufTy).Contents (Elt Ideal) :=
  shapeCast _ (cv_179 a) shapeCasts_S1x50_S50
def cv_181 (a : Ins) : (⟨S1x50, .f32⟩ : BufTy).Contents (Elt Ideal) :=
  broadcastInDim S1x50 ![1] bcast_S50_S1x50_1 (cv_180 a)
def cv_182 (a : Ins) : (⟨S8192x50, .f32⟩ : BufTy).Contents (Elt Ideal) :=
  broadcastInDim S8192x50 ![0, 1] bcast_S1x50_S8192x50_0_1 (cv_181 a)
def cv_183 (a : Ins) : (⟨S8192x50, .f32⟩ : BufTy).Contents (Elt Ideal) :=
  addf (F := Ideal) (φ := .f32) (cv_178 a) (cv_182 a)
def cv_184 (a : Ins) : (⟨S8192x50, .f32⟩ : BufTy).Contents (Elt Ideal) :=
  Host.negf (F := Ideal) (φ := .f32) (cv_183 a)
def cv_185 (a : Ins) : (⟨S8192x50, .f32⟩ : BufTy).Contents (Elt Ideal) :=
  Host.exp (F := Ideal) (φ := .f32) (cv_184 a)
def cv_186 (a : Ins) : (⟨S8192x50, .f32⟩ : BufTy).Contents (Elt Ideal) :=
  addf (F := Ideal) (φ := .f32) (cv_47 a) (cv_185 a)
def cv_187 (a : Ins) : (⟨S8192x50, .f32⟩ : BufTy).Contents (Elt Ideal) :=
  Host.divf (F := Ideal) (φ := .f32) (cv_47 a) (cv_186 a)
def cv_188 (a : Ins) : (⟨S8192x50, .f32⟩ : BufTy).Contents (Elt Ideal) :=
  mulf (F := Ideal) (φ := .f32) (cv_187 a) (cv_11 a)
def cv_189 (a : Ins) : (⟨S8192x50, .f32⟩ : BufTy).Contents (Elt Ideal) :=
  addf (F := Ideal) (φ := .f32) (cv_30 a) (cv_188 a)
def cv_190 (a : Ins) : (⟨S8192x50, .f32⟩ : BufTy).Contents (Elt Ideal) :=
  mulf (F := Ideal) (φ := .f32) (cv_17 a) (cv_189 a)
def cv_191 (a : Ins) : (⟨S8192x50, .f32⟩ : BufTy).Contents (Elt Ideal) :=
  Host.dotGeneral (F := Ideal) (φ₁ := .f32) (φ₂ := .f32) dot_S8192x50_S50x50_S8192x50_1_0_0_1_n_n none (cv_174 a) a.x3
def cv_192 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_191 a)
def cv_193 (a : Ins) : (⟨S8192x50, .f32⟩ : BufTy).Contents (Elt Ideal) :=
  addf (F := Ideal) (φ := .f32) (cv_192 a) (cv_7 a)
def cv_194 (a : Ins) : (⟨S8192x50, .f32⟩ : BufTy).Contents (Elt Ideal) :=
  maximumf (F := Ideal) (φ := .f32) (cv_193 a) (cv_10 a)
def cv_195 (a : Ins) : (⟨S8192x50, .f32⟩ : BufTy).Contents (Elt Ideal) :=
  mulf (F := Ideal) (φ := .f32) (cv_24 a) (cv_194 a)
def cv_196 (a : Ins) : (⟨S8192x50, .f32⟩ : BufTy).Contents (Elt Ideal) :=
  addf (F := Ideal) (φ := .f32) (cv_190 a) (cv_195 a)
def cv_197 (a : Ins) : (⟨S8192x100, .f32⟩ : BufTy).Contents (Elt Ideal) :=
  concatenate S8192x100 1 [⟨S8192x50, (cv_173 a)⟩, ⟨S8192x50, (cv_196 a)⟩] concatenates_S8192x50_S8192x50_S8192x100_d1
def cv_198 (a : Ins) : (⟨S1x100x50, .f32⟩ : BufTy).Contents (Elt Ideal) :=
  extractStridedSlice S1x100x50 ![6, 0, 0] a.x5 slices_S12x100x50_S1x100x50_6_0_0
def cv_199 (a : Ins) : (⟨S100x50, .f32⟩ : BufTy).Contents (Elt Ideal) :=
  shapeCast _ (cv_198 a) shapeCasts_S1x100x50_S100x50
def cv_200 (a : Ins) : (⟨S8192x50, .f32⟩ : BufTy).Contents (Elt Ideal) :=
  Host.dotGeneral (F := Ideal) (φ₁ := .f32) (φ₂ := .f32) dot_S8192x100_S100x50_S8192x50_1_0_0_1_n_n none (cv_197 a) (cv_199 a)
def cv_201 (a : Ins) : (⟨S1x50, .f32⟩ : BufTy).Contents (Elt Ideal) :=
  extractStridedSlice S1x50 ![6, 0] a.x6 slices_S12x50_S1x50_6_0
def cv_202 (a : Ins) : (⟨S50, .f32⟩ : BufTy).Contents (Elt Ideal) :=
  shapeCast _ (cv_201 a) shapeCasts_S1x50_S50
def cv_203 (a : Ins) : (⟨S1x50, .f32⟩ : BufTy).Contents (Elt Ideal) :=
  broadcastInDim S1x50 ![1] bcast_S50_S1x50_1 (cv_202 a)
def cv_204 (a : Ins) : (⟨S8192x50, .f32⟩ : BufTy).Contents (Elt Ideal) :=
  broadcastInDim S8192x50 ![0, 1] bcast_S1x50_S8192x50_0_1 (cv_203 a)
def cv_205 (a : Ins) : (⟨S8192x50, .f32⟩ : BufTy).Contents (Elt Ideal) :=
  addf (F := Ideal) (φ := .f32) (cv_200 a) (cv_204 a)
def cv_206 (a : Ins) : (⟨S8192x50, .f32⟩ : BufTy).Contents (Elt Ideal) :=
  Host.negf (F := Ideal) (φ := .f32) (cv_205 a)
def cv_207 (a : Ins) : (⟨S8192x50, .f32⟩ : BufTy).Contents (Elt Ideal) :=
  Host.exp (F := Ideal) (φ := .f32) (cv_206 a)
def cv_208 (a : Ins) : (⟨S8192x50, .f32⟩ : BufTy).Contents (Elt Ideal) :=
  addf (F := Ideal) (φ := .f32) (cv_47 a) (cv_207 a)
def cv_209 (a : Ins) : (⟨S8192x50, .f32⟩ : BufTy).Contents (Elt Ideal) :=
  Host.divf (F := Ideal) (φ := .f32) (cv_47 a) (cv_208 a)
def cv_210 (a : Ins) : (⟨S8192x50, .f32⟩ : BufTy).Contents (Elt Ideal) :=
  mulf (F := Ideal) (φ := .f32) (cv_209 a) (cv_173 a)
def cv_211 (a : Ins) : (⟨S8192x50, .f32⟩ : BufTy).Contents (Elt Ideal) :=
  addf (F := Ideal) (φ := .f32) (cv_210 a) (cv_196 a)
def cv_212 (a : Ins) : (⟨S8192x50, .f32⟩ : BufTy).Contents (Elt Ideal) :=
  mulf (F := Ideal) (φ := .f32) (cv_24 a) (cv_83 a)
def cv_213 (a : Ins) : (⟨S8192x50, .f32⟩ : BufTy).Contents (Elt Ideal) :=
  addf (F := Ideal) (φ := .f32) (cv_74 a) (cv_212 a)
def cv_214 (a : Ins) : (⟨S8192x100, .f32⟩ : BufTy).Contents (Elt Ideal) :=
  concatenate S8192x100 1 [⟨S8192x50, (cv_189 a)⟩, ⟨S8192x50, (cv_78 a)⟩] concatenates_S8192x50_S8192x50_S8192x100_d1
def cv_215 (a : Ins) : (⟨S1x100x50, .f32⟩ : BufTy).Contents (Elt Ideal) :=
  extractStridedSlice S1x100x50 ![10, 0, 0] a.x5 slices_S12x100x50_S1x100x50_10_0_0
def cv_216 (a : Ins) : (⟨S100x50, .f32⟩ : BufTy).Contents (Elt Ideal) :=
  shapeCast _ (cv_215 a) shapeCasts_S1x100x50_S100x50
def cv_217 (a : Ins) : (⟨S8192x50, .f32⟩ : BufTy).Contents (Elt Ideal) :=
  Host.dotGeneral (F := Ideal) (φ₁ := .f32) (φ₂ := .f32) dot_S8192x100_S100x50_S8192x50_1_0_0_1_n_n none (cv_214 a) (cv_216 a)
def cv_218 (a : Ins) : (⟨S1x50, .f32⟩ : BufTy).Contents (Elt Ideal) :=
  extractStridedSlice S1x50 ![10, 0] a.x6 slices_S12x50_S1x50_10_0
def cv_219 (a : Ins) : (⟨S50, .f32⟩ : BufTy).Contents (Elt Ideal) :=
  shapeCast _ (cv_218 a) shapeCasts_S1x50_S50
def cv_220 (a : Ins) : (⟨S1x50, .f32⟩ : BufTy).Contents (Elt Ideal) :=
  broadcastInDim S1x50 ![1] bcast_S50_S1x50_1 (cv_219 a)
def cv_221 (a : Ins) : (⟨S8192x50, .f32⟩ : BufTy).Contents (Elt Ideal) :=
  broadcastInDim S8192x50 ![0, 1] bcast_S1x50_S8192x50_0_1 (cv_220 a)
def cv_222 (a : Ins) : (⟨S8192x50, .f32⟩ : BufTy).Contents (Elt Ideal) :=
  addf (F := Ideal) (φ := .f32) (cv_217 a) (cv_221 a)
def cv_223 (a : Ins) : (⟨S8192x50, .f32⟩ : BufTy).Contents (Elt Ideal) :=
  Host.negf (F := Ideal) (φ := .f32) (cv_222 a)
def cv_224 (a : Ins) : (⟨S8192x50, .f32⟩ : BufTy).Contents (Elt Ideal) :=
  Host.exp (F := Ideal) (φ := .f32) (cv_223 a)
def cv_225 (a : Ins) : (⟨S8192x50, .f32⟩ : BufTy).Contents (Elt Ideal) :=
  addf (F := Ideal) (φ := .f32) (cv_47 a) (cv_224 a)
def cv_226 (a : Ins) : (⟨S8192x50, .f32⟩ : BufTy).Contents (Elt Ideal) :=
  Host.divf (F := Ideal) (φ := .f32) (cv_47 a) (cv_225 a)
def cv_227 (a : Ins) : (⟨S8192x50, .f32⟩ : BufTy).Contents (Elt Ideal) :=
  mulf (F := Ideal) (φ := .f32) (cv_226 a) (cv_189 a)
def cv_228 (a : Ins) : (⟨S8192x50, .f32⟩ : BufTy).Contents (Elt Ideal) :=
  addf (F := Ideal) (φ := .f32) (cv_78 a) (cv_227 a)
def cv_229 (a : Ins) : (⟨S8192x50, .f32⟩ : BufTy).Contents (Elt Ideal) :=
  mulf (F := Ideal) (φ := .f32) (cv_17 a) (cv_228 a)
def cv_230 (a : Ins) : (⟨S8192x50, .f32⟩ : BufTy).Contents (Elt Ideal) :=
  Host.dotGeneral (F := Ideal) (φ₁ := .f32) (φ₂ := .f32) dot_S8192x50_S50x50_S8192x50_1_0_0_1_n_n none (cv_213 a) a.x3
def cv_231 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_230 a)
def cv_232 (a : Ins) : (⟨S8192x50, .f32⟩ : BufTy).Contents (Elt Ideal) :=
  addf (F := Ideal) (φ := .f32) (cv_231 a) (cv_7 a)
def cv_233 (a : Ins) : (⟨S8192x50, .f32⟩ : BufTy).Contents (Elt Ideal) :=
  maximumf (F := Ideal) (φ := .f32) (cv_232 a) (cv_10 a)
def cv_234 (a : Ins) : (⟨S8192x50, .f32⟩ : BufTy).Contents (Elt Ideal) :=
  mulf (F := Ideal) (φ := .f32) (cv_24 a) (cv_233 a)
def cv_235 (a : Ins) : (⟨S8192x50, .f32⟩ : BufTy).Contents (Elt Ideal) :=
  addf (F := Ideal) (φ := .f32) (cv_229 a) (cv_234 a)
def cv_236 (a : Ins) : (⟨S8192x100, .f32⟩ : BufTy).Contents (Elt Ideal) :=
  concatenate S8192x100 1 [⟨S8192x50, (cv_211 a)⟩, ⟨S8192x50, (cv_235 a)⟩] concatenates_S8192x50_S8192x50_S8192x100_d1
def cv_237 (a : Ins) : (⟨S1x100x50, .f32⟩ : BufTy).Contents (Elt Ideal) :=
  extractStridedSlice S1x100x50 ![7, 0, 0] a.x5 slices_S12x100x50_S1x100x50_7_0_0
def cv_238 (a : Ins) : (⟨S100x50, .f32⟩ : BufTy).Contents (Elt Ideal) :=
  shapeCast _ (cv_237 a) shapeCasts_S1x100x50_S100x50
def cv_239 (a : Ins) : (⟨S8192x50, .f32⟩ : BufTy).Contents (Elt Ideal) :=
  Host.dotGeneral (F := Ideal) (φ₁ := .f32) (φ₂ := .f32) dot_S8192x100_S100x50_S8192x50_1_0_0_1_n_n none (cv_236 a) (cv_238 a)
def cv_240 (a : Ins) : (⟨S1x50, .f32⟩ : BufTy).Contents (Elt Ideal) :=
  extractStridedSlice S1x50 ![7, 0] a.x6 slices_S12x50_S1x50_7_0
def cv_241 (a : Ins) : (⟨S50, .f32⟩ : BufTy).Contents (Elt Ideal) :=
  shapeCast _ (cv_240 a) shapeCasts_S1x50_S50
def cv_242 (a : Ins) : (⟨S1x50, .f32⟩ : BufTy).Contents (Elt Ideal) :=
  broadcastInDim S1x50 ![1] bcast_S50_S1x50_1 (cv_241 a)
def cv_243 (a : Ins) : (⟨S8192x50, .f32⟩ : BufTy).Contents (Elt Ideal) :=
  broadcastInDim S8192x50 ![0, 1] bcast_S1x50_S8192x50_0_1 (cv_242 a)
def cv_244 (a : Ins) : (⟨S8192x50, .f32⟩ : BufTy).Contents (Elt Ideal) :=
  addf (F := Ideal) (φ := .f32) (cv_239 a) (cv_243 a)
def cv_245 (a : Ins) : (⟨S8192x50, .f32⟩ : BufTy).Contents (Elt Ideal) :=
  Host.negf (F := Ideal) (φ := .f32) (cv_244 a)
def cv_246 (a : Ins) : (⟨S8192x50, .f32⟩ : BufTy).Contents (Elt Ideal) :=
  Host.exp (F := Ideal) (φ := .f32) (cv_245 a)
def cv_247 (a : Ins) : (⟨S8192x50, .f32⟩ : BufTy).Contents (Elt Ideal) :=
  addf (F := Ideal) (φ := .f32) (cv_47 a) (cv_246 a)
def cv_248 (a : Ins) : (⟨S8192x50, .f32⟩ : BufTy).Contents (Elt Ideal) :=
  Host.divf (F := Ideal) (φ := .f32) (cv_47 a) (cv_247 a)
def cv_249 (a : Ins) : (⟨S8192x50, .f32⟩ : BufTy).Contents (Elt Ideal) :=
  mulf (F := Ideal) (φ := .f32) (cv_248 a) (cv_211 a)
def cv_250 (a : Ins) : (⟨S8192x50, .f32⟩ : BufTy).Contents (Elt Ideal) :=
  addf (F := Ideal) (φ := .f32) (cv_249 a) (cv_235 a)
def cv_251 (a : Ins) : (⟨S8192x50, .f32⟩ : BufTy).Contents (Elt Ideal) :=
  addf (F := Ideal) (φ := .f32) (cv_3 a) (cv_128 a)
def cv_252 (a : Ins) : (⟨S8192x100, .f32⟩ : BufTy).Contents (Elt Ideal) :=
  concatenate S8192x100 1 [⟨S8192x50, (cv_228 a)⟩, ⟨S8192x50, (cv_124 a)⟩] concatenates_S8192x50_S8192x50_S8192x100_d1
def cv_253 (a : Ins) : (⟨S1x100x50, .f32⟩ : BufTy).Contents (Elt Ideal) :=
  extractStridedSlice S1x100x50 ![11, 0, 0] a.x5 slices_S12x100x50_S1x100x50_11_0_0
def cv_254 (a : Ins) : (⟨S100x50, .f32⟩ : BufTy).Contents (Elt Ideal) :=
  shapeCast _ (cv_253 a) shapeCasts_S1x100x50_S100x50
def cv_255 (a : Ins) : (⟨S8192x50, .f32⟩ : BufTy).Contents (Elt Ideal) :=
  Host.dotGeneral (F := Ideal) (φ₁ := .f32) (φ₂ := .f32) dot_S8192x100_S100x50_S8192x50_1_0_0_1_n_n none (cv_252 a) (cv_254 a)
def cv_256 (a : Ins) : (⟨S1x50, .f32⟩ : BufTy).Contents (Elt Ideal) :=
  extractStridedSlice S1x50 ![11, 0] a.x6 slices_S12x50_S1x50_11_0
def cv_257 (a : Ins) : (⟨S50, .f32⟩ : BufTy).Contents (Elt Ideal) :=
  shapeCast _ (cv_256 a) shapeCasts_S1x50_S50
def cv_258 (a : Ins) : (⟨S1x50, .f32⟩ : BufTy).Contents (Elt Ideal) :=
  broadcastInDim S1x50 ![1] bcast_S50_S1x50_1 (cv_257 a)
def cv_259 (a : Ins) : (⟨S8192x50, .f32⟩ : BufTy).Contents (Elt Ideal) :=
  broadcastInDim S8192x50 ![0, 1] bcast_S1x50_S8192x50_0_1 (cv_258 a)
def cv_260 (a : Ins) : (⟨S8192x50, .f32⟩ : BufTy).Contents (Elt Ideal) :=
  addf (F := Ideal) (φ := .f32) (cv_255 a) (cv_259 a)
def cv_261 (a : Ins) : (⟨S8192x50, .f32⟩ : BufTy).Contents (Elt Ideal) :=
  Host.negf (F := Ideal) (φ := .f32) (cv_260 a)
def cv_262 (a : Ins) : (⟨S8192x50, .f32⟩ : BufTy).Contents (Elt Ideal) :=
  Host.exp (F := Ideal) (φ := .f32) (cv_261 a)
def cv_263 (a : Ins) : (⟨S8192x50, .f32⟩ : BufTy).Contents (Elt Ideal) :=
  addf (F := Ideal) (φ := .f32) (cv_47 a) (cv_262 a)
def cv_264 (a : Ins) : (⟨S8192x50, .f32⟩ : BufTy).Contents (Elt Ideal) :=
  Host.divf (F := Ideal) (φ := .f32) (cv_47 a) (cv_263 a)
def cv_265 (a : Ins) : (⟨S8192x50, .f32⟩ : BufTy).Contents (Elt Ideal) :=
  mulf (F := Ideal) (φ := .f32) (cv_264 a) (cv_228 a)
def cv_266 (a : Ins) : (⟨S8192x50, .f32⟩ : BufTy).Contents (Elt Ideal) :=
  addf (F := Ideal) (φ := .f32) (cv_124 a) (cv_265 a)
def cv_267 (a : Ins) : (⟨S8192x50, .f32⟩ : BufTy).Contents (Elt Ideal) :=
  mulf (F := Ideal) (φ := .f32) (cv_17 a) (cv_266 a)
def cv_268 (a : Ins) : (⟨S8192x50, .f32⟩ : BufTy).Contents (Elt Ideal) :=
  Host.dotGeneral (F := Ideal) (φ₁ := .f32) (φ₂ := .f32) dot_S8192x50_S50x50_S8192x50_1_0_0_1_n_n none (cv_251 a) a.x3
def cv_269 (a : Ins) : (⟨S8192x50, .f32⟩ : BufTy).Contents (Elt Ideal) :=
  Host.dotGeneral (F := Ideal) (φ₁ := .f32) (φ₂ := .f32) dot_S8192x8192_S8192x50_S8192x50_1_0_0_1_n_n none a.x1 (cv_268 a)
def cv_270 (a : Ins) : (⟨S8192x50, .f32⟩ : BufTy).Contents (Elt Ideal) :=
  addf (F := Ideal) (φ := .f32) (cv_269 a) (cv_7 a)
def cv_271 (a : Ins) : (⟨S8192x50, .f32⟩ : BufTy).Contents (Elt Ideal) :=
  maximumf (F := Ideal) (φ := .f32) (cv_270 a) (cv_10 a)
def cv_272 (a : Ins) : (⟨S8192x50, .f32⟩ : BufTy).Contents (Elt Ideal) :=
  mulf (F := Ideal) (φ := .f32) (cv_24 a) (cv_271 a)
def cv_273 (a : Ins) : (⟨S8192x50, .f32⟩ : BufTy).Contents (Elt Ideal) :=
  addf (F := Ideal) (φ := .f32) (cv_267 a) (cv_272 a)
def cv_274 (a : Ins) : (⟨S8192x100, .f32⟩ : BufTy).Contents (Elt Ideal) :=
  concatenate S8192x100 1 [⟨S8192x50, (cv_250 a)⟩, ⟨S8192x50, (cv_273 a)⟩] concatenates_S8192x50_S8192x50_S8192x100_d1
def cv_275 (a : Ins) : (⟨S1x100x50, .f32⟩ : BufTy).Contents (Elt Ideal) :=
  extractStridedSlice S1x100x50 ![8, 0, 0] a.x5 slices_S12x100x50_S1x100x50_8_0_0
def cv_276 (a : Ins) : (⟨S100x50, .f32⟩ : BufTy).Contents (Elt Ideal) :=
  shapeCast _ (cv_275 a) shapeCasts_S1x100x50_S100x50
def cv_277 (a : Ins) : (⟨S8192x50, .f32⟩ : BufTy).Contents (Elt Ideal) :=
  Host.dotGeneral (F := Ideal) (φ₁ := .f32) (φ₂ := .f32) dot_S8192x100_S100x50_S8192x50_1_0_0_1_n_n none (cv_274 a) (cv_276 a)
def cv_278 (a : Ins) : (⟨S1x50, .f32⟩ : BufTy).Contents (Elt Ideal) :=
  extractStridedSlice S1x50 ![8, 0] a.x6 slices_S12x50_S1x50_8_0
def cv_279 (a : Ins) : (⟨S50, .f32⟩ : BufTy).Contents (Elt Ideal) :=
  shapeCast _ (cv_278 a) shapeCasts_S1x50_S50
def cv_280 (a : Ins) : (⟨S1x50, .f32⟩ : BufTy).Contents (Elt Ideal) :=
  broadcastInDim S1x50 ![1] bcast_S50_S1x50_1 (cv_279 a)
def cv_281 (a : Ins) : (⟨S8192x50, .f32⟩ : BufTy).Contents (Elt Ideal) :=
  broadcastInDim S8192x50 ![0, 1] bcast_S1x50_S8192x50_0_1 (cv_280 a)
def cv_282 (a : Ins) : (⟨S8192x50, .f32⟩ : BufTy).Contents (Elt Ideal) :=
  addf (F := Ideal) (φ := .f32) (cv_277 a) (cv_281 a)
def cv_283 (a : Ins) : (⟨S8192x50, .f32⟩ : BufTy).Contents (Elt Ideal) :=
  Host.negf (F := Ideal) (φ := .f32) (cv_282 a)
def cv_284 (a : Ins) : (⟨S8192x50, .f32⟩ : BufTy).Contents (Elt Ideal) :=
  Host.exp (F := Ideal) (φ := .f32) (cv_283 a)
def cv_285 (a : Ins) : (⟨S8192x50, .f32⟩ : BufTy).Contents (Elt Ideal) :=
  addf (F := Ideal) (φ := .f32) (cv_47 a) (cv_284 a)
def cv_286 (a : Ins) : (⟨S8192x50, .f32⟩ : BufTy).Contents (Elt Ideal) :=
  Host.divf (F := Ideal) (φ := .f32) (cv_47 a) (cv_285 a)
def cv_287 (a : Ins) : (⟨S8192x50, .f32⟩ : BufTy).Contents (Elt Ideal) :=
  mulf (F := Ideal) (φ := .f32) (cv_286 a) (cv_250 a)
def cv_288 (a : Ins) : (⟨S8192x50, .f32⟩ : BufTy).Contents (Elt Ideal) :=
  addf (F := Ideal) (φ := .f32) (cv_287 a) (cv_273 a)
def cv_289 (a : Ins) : (⟨S8192x400, .f32⟩ : BufTy).Contents (Elt Ideal) :=
  concatenate S8192x400 1 [⟨S8192x50, (cv_26 a)⟩, ⟨S8192x50, (cv_173 a)⟩, ⟨S8192x50, (cv_73 a)⟩, ⟨S8192x50, (cv_211 a)⟩, ⟨S8192x50, (cv_120 a)⟩, ⟨S8192x50, (cv_250 a)⟩, ⟨S8192x50, (cv_165 a)⟩, ⟨S8192x50, (cv_288 a)⟩] concatenates_S8192x50_S8192x50_S8192x50_S8192x50_S8192x50_S8192x50_S8192x50_S8192x50_S8192x400_d1
def cv_290 (a : Ins) : (⟨S8192x300, .f32⟩ : BufTy).Contents (Elt Ideal) :=
  Host.dotGeneral (F := Ideal) (φ₁ := .f32) (φ₂ := .f32) dot_S8192x400_S400x300_S8192x300_1_0_0_1_n_n none (cv_289 a) a.x7
def cv_291 (a : Ins) : (⟨S1x300, .f32⟩ : BufTy).Contents (Elt Ideal) :=
  broadcastInDim S1x300 ![1] bcast_S300_S1x300_1 a.x8
def cv_292 (a : Ins) : (⟨S8192x300, .f32⟩ : BufTy).Contents (Elt Ideal) :=
  broadcastInDim S8192x300 ![0, 1] bcast_S1x300_S8192x300_0_1 (cv_291 a)
def cv_293 (a : Ins) : (⟨S8192x300, .f32⟩ : BufTy).Contents (Elt Ideal) :=
  addf (F := Ideal) (φ := .f32) (cv_290 a) (cv_292 a)

end Cert.Bridge

end
-- ==== Proof.Ideal.Star.lean ====
/-
  One column segment of a region's output against the reference's graph convolution, over the extended reals.

  The host lays four copies of the 50 × 50 weight matrix on the diagonal of a 200 × 200 matrix of zeros and repeats the
  bias row four times.  Read at row 50 u + q and column 50 v + q', that matrix is entry (q, q') of the weight matrix
  when u = v and zero otherwise; so a row of the input times column 50 s + j of it is the row's segment s times column j
  of the weight matrix — the other three segments meet zero blocks, and x · 0 = 0 for every extended real.  Column
  50 s + j of the repeated bias row is entry j of the bias.  Hence columns 50 s … 50 s + 49 of a region's output
  max (A · (X · Wfull) + bias) 0 are the reference's max (A · (Xs · W) + b) 0 for the input's column segment Xs.
-/
import proofs.«174668_j26645977104432_2_alg».proof.Proof.Ideal.Tile
import proofs.«174668_j26645977104432_2_alg».proof.ReferenceIdeal
import proofs.«174668_j26645977104432_2_alg».proof.Proof.Gen.ReferenceIdeal

noncomputable section

namespace Cert.KernelIdeal.Alg

open Cert.KernelIdeal Cert.KernelIdeal.Gen Idealize.ShloMosaic Idealize.ShloMosaic.ValueIdx
open scoped BigOperators

/-! ## The host's block-diagonal weight matrix and tiled bias row -/

/-- A 50 × 50 block of zeros, as the host builds it. -/
def zero50 : FVec Ideal S50x50 .f32 :=
  broadcastInDim S50x50 ![] bcast_S_S50x50 (constant (F := Ideal) S_ .f32 0x00000000#32)

/-- One block row of the block-diagonal matrix: W in column block 0, zeros elsewhere. -/
def wrow0 (W : FVec Ideal S50x50 .f32) : FVec Ideal S50x200 .f32 :=
  concatenate S50x200 1 [⟨S50x50, W⟩, ⟨S50x50, zero50⟩, ⟨S50x50, zero50⟩, ⟨S50x50, zero50⟩]
    concatenates_S50x50_S50x50_S50x50_S50x50_S50x200_d1
/-- W in column block 1, zeros elsewhere. -/
def wrow1 (W : FVec Ideal S50x50 .f32) : FVec Ideal S50x200 .f32 :=
  concatenate S50x200 1 [⟨S50x50, zero50⟩, ⟨S50x50, W⟩, ⟨S50x50, zero50⟩, ⟨S50x50, zero50⟩]
    concatenates_S50x50_S50x50_S50x50_S50x50_S50x200_d1
/-- W in column block 2, zeros elsewhere. -/
def wrow2 (W : FVec Ideal S50x50 .f32) : FVec Ideal S50x200 .f32 :=
  concatenate S50x200 1 [⟨S50x50, zero50⟩, ⟨S50x50, zero50⟩, ⟨S50x50, W⟩, ⟨S50x50, zero50⟩]
    concatenates_S50x50_S50x50_S50x50_S50x50_S50x200_d1
/-- W in column block 3, zeros elsewhere. -/
def wrow3 (W : FVec Ideal S50x50 .f32) : FVec Ideal S50x200 .f32 :=
  concatenate S50x200 1 [⟨S50x50, zero50⟩, ⟨S50x50, zero50⟩, ⟨S50x50, zero50⟩, ⟨S50x50, W⟩]
    concatenates_S50x50_S50x50_S50x50_S50x50_S50x200_d1

/-- Four copies of W on the diagonal of a 200 × 200 matrix of zeros. -/
def wfull (W : FVec Ideal S50x50 .f32) : FVec Ideal S200x200 .f32 :=
  concatenate S200x200 0 [⟨S50x200, wrow0 W⟩, ⟨S50x200, wrow1 W⟩, ⟨S50x200, wrow2 W⟩, ⟨S50x200, wrow3 W⟩]
    concatenates_S50x200_S50x200_S50x200_S50x200_S200x200_d0

/-- The bias row repeated four times, as a 1 × 200 row. -/
def bias4 (b : FVec Ideal S50 .f32) : FVec Ideal S1x200 .f32 :=
  shapeCast S1x200 (shapeCast S200 (broadcastInDim S4x50 ![0, 1] bcast_S1x50_S4x50_0_1
    (shapeCast S1x50 b shapeCasts_S50_S1x50)) shapeCasts_S4x50_S200) shapeCasts_S200_S1x200

/-- The reference's graph convolution relu (A · (h · W) + b), in the reference program's own spelling. -/
def refGcn (A : FVec Ideal Cert.ReferenceIdeal.S8192x8192 .f32) (h : FVec Ideal Cert.ReferenceIdeal.S8192x50 .f32)
    (W : FVec Ideal Cert.ReferenceIdeal.S50x50 .f32) (b : FVec Ideal Cert.ReferenceIdeal.S50 .f32) :
    FVec Ideal Cert.ReferenceIdeal.S8192x50 .f32 :=
  maximumf (addf (Host.dotGeneral Cert.ReferenceIdeal.dot_S8192x8192_S8192x50_S8192x50_1_0_0_1_n_n none A
      (Host.dotGeneral Cert.ReferenceIdeal.dot_S8192x50_S50x50_S8192x50_1_0_0_1_n_n none h W))
    (broadcastInDim Cert.ReferenceIdeal.S8192x50 ![0, 1] Cert.ReferenceIdeal.Gen.bcast_S1x50_S8192x50_0_1
      (broadcastInDim Cert.ReferenceIdeal.S1x50 ![1] Cert.ReferenceIdeal.Gen.bcast_S50_S1x50_1 b)))
    (broadcastInDim Cert.ReferenceIdeal.S8192x50 ![] Cert.ReferenceIdeal.Gen.bcast_S_S8192x50
      (constant (F := Ideal) Cert.ReferenceIdeal.S_ .f32 0x00000000#32))

/-! ## The zero block and the two concatenations, read at an index -/

theorem zero50_apply (i : S50x50.Idx) : zero50 i = 0 := by
  unfold zero50
  rw [broadcastInDim_apply (![] : Fin 0 → Fin S50x50.rank) bcast_S_S50x50 _ i ix0 (fun a => a.elim0), constant_apply,
    Ideal.ofBits_zero_f32]

/-- Four 50 × 50 pieces side by side: column 50 u + q of the row is column q of piece u. -/
theorem cat_cols (P0 P1 P2 P3 : FVec Ideal S50x50 .f32) (r q : Fin 50) (c : Fin 200) (u : ℕ) (hu : u < 4)
    (hc : c.val = 50 * u + q.val) :
    concatenate S50x200 1 [⟨S50x50, P0⟩, ⟨S50x50, P1⟩, ⟨S50x50, P2⟩, ⟨S50x50, P3⟩]
      concatenates_S50x50_S50x50_S50x50_S50x50_S50x200_d1 (ix2 r c)
      = (![P0, P1, P2, P3] ⟨u, hu⟩) (ix2 r q) := by
  have hi : ∀ b : Fin S50x50.rank, b.cast (rfl : S50x50.rank = S50x200.rank) ≠ (1 : Fin S50x200.rank) →
      ((ix2 r q : S50x50.Idx) b).val = ((ix2 r c : S50x200.Idx) (b.cast rfl)).val := by
    intro b hb
    match b with
    | ⟨0, _⟩ => rfl
    | ⟨1, _⟩ => exact absurd rfl hb
  interval_cases u
  · exact concatenate_apply_piece 1 _ _ (ix2 r c) 0 (by simp) S50x50 P0 rfl rfl 0 rfl (ix2 r q) hi
      (by show 0 + q.val = c.val; omega)
  · exact concatenate_apply_piece 1 _ _ (ix2 r c) 1 (by simp) S50x50 P1 rfl rfl 50 rfl (ix2 r q) hi
      (by show 50 + q.val = c.val; omega)
  · exact concatenate_apply_piece 1 _ _ (ix2 r c) 2 (by simp) S50x50 P2 rfl rfl 100 rfl (ix2 r q) hi
      (by show 100 + q.val = c.val; omega)
  · exact concatenate_apply_piece 1 _ _ (ix2 r c) 3 (by simp) S50x50 P3 rfl rfl 150 rfl (ix2 r q) hi
      (by show 150 + q.val = c.val; omega)

/-- Four 50 × 200 pieces on top of one another: row 50 u + q is row q of piece u. -/
theorem cat_rows (P0 P1 P2 P3 : FVec Ideal S50x200 .f32) (q : Fin 50) (p c : Fin 200) (u : ℕ) (hu : u < 4)
    (hp : p.val = 50 * u + q.val) :
    concatenate S200x200 0 [⟨S50x200, P0⟩, ⟨S50x200, P1⟩, ⟨S50x200, P2⟩, ⟨S50x200, P3⟩]
      concatenates_S50x200_S50x200_S50x200_S50x200_S200x200_d0 (ix2 p c)
      = (![P0, P1, P2, P3] ⟨u, hu⟩) (ix2 q c) := by
  have hi : ∀ b : Fin S50x200.rank, b.cast (rfl : S50x200.rank = S200x200.rank) ≠ (0 : Fin S200x200.rank) →
      ((ix2 q c : S50x200.Idx) b).val = ((ix2 p c : S200x200.Idx) (b.cast rfl)).val := by
    intro b hb
    match b with
    | ⟨0, _⟩ => exact absurd rfl hb
    | ⟨1, _⟩ => rfl
  interval_cases u
  · exact concatenate_apply_piece 0 _ _ (ix2 p c) 0 (by simp) S50x200 P0 rfl rfl 0 rfl (ix2 q c) hi
      (by show 0 + q.val = p.val; omega)
  · exact concatenate_apply_piece 0 _ _ (ix2 p c) 1 (by simp) S50x200 P1 rfl rfl 50 rfl (ix2 q c) hi
      (by show 50 + q.val = p.val; omega)
  · exact concatenate_apply_piece 0 _ _ (ix2 p c) 2 (by simp) S50x200 P2 rfl rfl 100 rfl (ix2 q c) hi
      (by show 100 + q.val = p.val; omega)
  · exact concatenate_apply_piece 0 _ _ (ix2 p c) 3 (by simp) S50x200 P3 rfl rfl 150 rfl (ix2 q c) hi
      (by show 150 + q.val = p.val; omega)

/-- Block row 0: column 50 v + q holds column q of W when v = 0, and zero otherwise. -/
theorem wrow0_apply (W : FVec Ideal S50x50 .f32) (r q : Fin 50) (c : Fin 200) (v : ℕ) (hv : v < 4)
    (hc : c.val = 50 * v + q.val) : wrow0 W (ix2 r c) = if v = 0 then W (ix2 r q) else 0 := by
  unfold wrow0
  rw [cat_cols W zero50 zero50 zero50 r q c v hv hc]
  interval_cases v
  · show W (ix2 r q) = _
    rw [if_pos rfl]
  · show zero50 (ix2 r q) = _
    rw [zero50_apply, if_neg (by decide)]
  · show zero50 (ix2 r q) = _
    rw [zero50_apply, if_neg (by decide)]
  · show zero50 (ix2 r q) = _
    rw [zero50_apply, if_neg (by decide)]

/-- Block row 1: column 50 v + q holds column q of W when v = 1, and zero otherwise. -/
theorem wrow1_apply (W : FVec Ideal S50x50 .f32) (r q : Fin 50) (c : Fin 200) (v : ℕ) (hv : v < 4)
    (hc : c.val = 50 * v + q.val) : wrow1 W (ix2 r c) = if v = 1 then W (ix2 r q) else 0 := by
  unfold wrow1
  rw [cat_cols zero50 W zero50 zero50 r q c v hv hc]
  interval_cases v
  · show zero50 (ix2 r q) = _
    rw [zero50_apply, if_neg (by decide)]
  · show W (ix2 r q) = _
    rw [if_pos rfl]
  · show zero50 (ix2 r q) = _
    rw [zero50_apply, if_neg (by decide)]
  · show zero50 (ix2 r q) = _
    rw [zero50_apply, if_neg (by decide)]

/-- Block row 2: column 50 v + q holds column q of W when v = 2, and zero otherwise. -/
theorem wrow2_apply (W : FVec Ideal S50x50 .f32) (r q : Fin 50) (c : Fin 200) (v : ℕ) (hv : v < 4)
    (hc : c.val = 50 * v + q.val) : wrow2 W (ix2 r c) = if v = 2 then W (ix2 r q) else 0 := by
  unfold wrow2
  rw [cat_cols zero50 zero50 W zero50 r q c v hv hc]
  interval_cases v
  · show zero50 (ix2 r q) = _
    rw [zero50_apply, if_neg (by decide)]
  · show zero50 (ix2 r q) = _
    rw [zero50_apply, if_neg (by decide)]
  · show W (ix2 r q) = _
    rw [if_pos rfl]
  · show zero50 (ix2 r q) = _
    rw [zero50_apply, if_neg (by decide)]

/-- Block row 3: column 50 v + q holds column q of W when v = 3, and zero otherwise. -/
theorem wrow3_apply (W : FVec Ideal S50x50 .f32) (r q : Fin 50) (c : Fin 200) (v : ℕ) (hv : v < 4)
    (hc : c.val = 50 * v + q.val) : wrow3 W (ix2 r c) = if v = 3 then W (ix2 r q) else 0 := by
  unfold wrow3
  rw [cat_cols zero50 zero50 zero50 W r q c v hv hc]
  interval_cases v
  · show zero50 (ix2 r q) = _
    rw [zero50_apply, if_neg (by decide)]
  · show zero50 (ix2 r q) = _
    rw [zero50_apply, if_neg (by decide)]
  · show zero50 (ix2 r q) = _
    rw [zero50_apply, if_neg (by decide)]
  · show W (ix2 r q) = _
    rw [if_pos rfl]

/-- The block-diagonal matrix at row 50 u + q and column 50 v + q': entry (q, q') of W on the diagonal blocks, zero off them. -/
theorem wfull_apply (W : FVec Ideal S50x50 .f32) (q q' : Fin 50) (p c : Fin 200) (u v : ℕ) (hu : u < 4) (hv : v < 4)
    (hp : p.val = 50 * u + q.val) (hc : c.val = 50 * v + q'.val) :
    wfull W (ix2 p c) = if v = u then W (ix2 q q') else 0 := by
  unfold wfull
  rw [cat_rows (wrow0 W) (wrow1 W) (wrow2 W) (wrow3 W) q p c u hu hp]
  interval_cases u
  · exact wrow0_apply W q q' c v hv hc
  · exact wrow1_apply W q q' c v hv hc
  · exact wrow2_apply W q q' c v hv hc
  · exact wrow3_apply W q q' c v hv hc

/-- The same through natural-number coordinates. -/
theorem wfull_at (W : FVec Ideal S50x50 .f32) (u v q q' : ℕ) (hu : u < 4) (hv : v < 4) (hq : q < 50) (hq' : q' < 50) :
    at2 (wfull W) (50 * u + q) (50 * v + q') = if v = u then at2 W q q' else 0 := by
  have hp : 50 * u + q < 200 := by omega
  have hc : 50 * v + q' < 200 := by omega
  refine (at2_ix2 (wfull W) ⟨50 * u + q, hp⟩ ⟨50 * v + q', hc⟩).trans ?_
  rw [wfull_apply W ⟨q, hq⟩ ⟨q', hq'⟩ ⟨50 * u + q, hp⟩ ⟨50 * v + q', hc⟩ u v hu hv rfl rfl]
  rw [← at2_ix2 W ⟨q, hq⟩ ⟨q', hq'⟩]

/-- A row times column 50 s + j of the block-diagonal matrix: only the row's segment s meets a nonzero block. -/
theorem sum_wfull (X : FVec Ideal S8192x200 .f32) (W : FVec Ideal S50x50 .f32) (K s j : ℕ) (hs : s < 4) (hj : j < 50) :
    ∑ p ∈ Finset.range 200, at2 X K p * at2 (wfull W) p (50 * s + j)
      = ∑ q ∈ Finset.range 50, at2 X K (50 * s + q) * at2 W q j := by
  refine (sum_blocks (fun p => at2 X K p * at2 (wfull W) p (50 * s + j)) 50 4).symm.trans ?_
  rw [Finset.sum_eq_single s]
  · refine Finset.sum_congr rfl fun q hq => ?_
    show at2 X K (50 * s + q) * at2 (wfull W) (50 * s + q) (50 * s + j) = _
    rw [wfull_at W s s q j hs hs (Finset.mem_range.mp hq) hj, if_pos rfl]
  · intro u hu hne
    refine Finset.sum_eq_zero fun q hq => ?_
    show at2 X K (50 * u + q) * at2 (wfull W) (50 * u + q) (50 * s + j) = 0
    rw [wfull_at W u s q j (Finset.mem_range.mp hu) hs (Finset.mem_range.mp hq) hj, if_neg (Ne.symm hne), mul_zero]
  · intro h
    exact absurd (Finset.mem_range.mpr hs) h

/-! ## The tiled bias row -/

/-- Column 50 s + j of the tiled bias row is entry j of the bias. -/
theorem bias4_at (b : FVec Ideal S50 .f32) (s j : ℕ) (hs : s < 4) (hj : j < 50) :
    at2 (bias4 b) 0 (50 * s + j) = b (ix1 ⟨j, hj⟩) := by
  have hc : 50 * s + j < 200 := by omega
  refine (at2_ix2 (bias4 b) (0 : Fin 1) ⟨50 * s + j, hc⟩).trans ?_
  unfold bias4
  rw [shapeCast_apply _ shapeCasts_S200_S1x200 (ix2 (0 : Fin 1) ⟨50 * s + j, hc⟩) (ix1 ⟨50 * s + j, hc⟩) (by
    rw [Shape.rowMajor_val_two, Shape.rowMajor_val_one]
    show 50 * s + j = 0 * 200 + (50 * s + j)
    omega)]
  rw [shapeCast_apply _ shapeCasts_S4x50_S200 (ix1 ⟨50 * s + j, hc⟩) (ix2 (⟨s, hs⟩ : Fin 4) (⟨j, hj⟩ : Fin 50)) (by
    rw [Shape.rowMajor_val_two, Shape.rowMajor_val_one]
    show s * 50 + j = 50 * s + j
    omega)]
  rw [broadcastInDim_apply (![0, 1] : Fin 2 → Fin S4x50.rank) bcast_S1x50_S4x50_0_1 _ (ix2 (⟨s, hs⟩ : Fin 4) (⟨j, hj⟩ : Fin 50))
    (ix2 (0 : Fin 1) (⟨j, hj⟩ : Fin 50)) (fun a => by
      match a with
      | ⟨0, _⟩ => rfl
      | ⟨1, _⟩ => rfl)]
  rw [shapeCast_apply _ shapeCasts_S50_S1x50 (ix2 (0 : Fin 1) (⟨j, hj⟩ : Fin 50)) (ix1 ⟨j, hj⟩) (by
    rw [Shape.rowMajor_val_two, Shape.rowMajor_val_one]
    show j = 0 * 50 + j
    omega)]

/-! ## The reference's two contractions -/

abbrev Rh := Cert.ReferenceIdeal.dot_S8192x50_S50x50_S8192x50_1_0_0_1_n_n
abbrev Ra := Cert.ReferenceIdeal.dot_S8192x8192_S8192x50_S8192x50_1_0_0_1_n_n

theorem rh_l0 (i : Cert.ReferenceIdeal.S8192x50.Idx) (q : Rh.contr.Idx) : (Rh.lhsIdx i q 0).val = (i 0).val := by
  unfold DotDims.lhsIdx
  rw [dif_neg (show ¬(0 : Fin Cert.ReferenceIdeal.S8192x50.rank) ∈ Rh.lhsBatch by decide),
    dif_pos (show (0 : Fin Cert.ReferenceIdeal.S8192x50.rank) ∈ Rh.lhsNonContracting by decide)]
  rfl
theorem rh_l1 (i : Cert.ReferenceIdeal.S8192x50.Idx) (q : Rh.contr.Idx) : (Rh.lhsIdx i q 1).val = (q ⟨0, by decide⟩).val :=
  Rh.lhsIdx_val_of_single rfl i q
theorem rh_r0 (i : Cert.ReferenceIdeal.S8192x50.Idx) (q : Rh.contr.Idx) : (Rh.rhsIdx i q 0).val = (q ⟨0, by decide⟩).val :=
  Rh.rhsIdx_val_of_single rfl i q
theorem rh_r1 (i : Cert.ReferenceIdeal.S8192x50.Idx) (q : Rh.contr.Idx) : (Rh.rhsIdx i q 1).val = (i 1).val := by
  unfold DotDims.rhsIdx
  rw [dif_neg (show ¬(1 : Fin Cert.ReferenceIdeal.S50x50.rank) ∈ Rh.rhsBatch by decide),
    dif_pos (show (1 : Fin Cert.ReferenceIdeal.S50x50.rank) ∈ Rh.rhsNonContracting by decide)]
  rfl

theorem ra_l0 (i : Cert.ReferenceIdeal.S8192x50.Idx) (q : Ra.contr.Idx) : (Ra.lhsIdx i q 0).val = (i 0).val := by
  unfold DotDims.lhsIdx
  rw [dif_neg (show ¬(0 : Fin Cert.ReferenceIdeal.S8192x8192.rank) ∈ Ra.lhsBatch by decide),
    dif_pos (show (0 : Fin Cert.ReferenceIdeal.S8192x8192.rank) ∈ Ra.lhsNonContracting by decide)]
  rfl
theorem ra_l1 (i : Cert.ReferenceIdeal.S8192x50.Idx) (q : Ra.contr.Idx) : (Ra.lhsIdx i q 1).val = (q ⟨0, by decide⟩).val :=
  Ra.lhsIdx_val_of_single rfl i q
theorem ra_r0 (i : Cert.ReferenceIdeal.S8192x50.Idx) (q : Ra.contr.Idx) : (Ra.rhsIdx i q 0).val = (q ⟨0, by decide⟩).val :=
  Ra.rhsIdx_val_of_single rfl i q
theorem ra_r1 (i : Cert.ReferenceIdeal.S8192x50.Idx) (q : Ra.contr.Idx) : (Ra.rhsIdx i q 1).val = (i 1).val := by
  unfold DotDims.rhsIdx
  rw [dif_neg (show ¬(1 : Fin Cert.ReferenceIdeal.S8192x50.rank) ∈ Ra.rhsBatch by decide),
    dif_pos (show (1 : Fin Cert.ReferenceIdeal.S8192x50.rank) ∈ Ra.rhsNonContracting by decide)]
  rfl

/-- h · W (8192 × 50 by 50 × 50) at an index. -/
theorem dotH_apply (h : FVec Ideal Cert.ReferenceIdeal.S8192x50 .f32) (w : FVec Ideal Cert.ReferenceIdeal.S50x50 .f32)
    (i : Cert.ReferenceIdeal.S8192x50.Idx) :
    Host.dotGeneral (F := Ideal) Rh none h w i = ∑ p ∈ Finset.range 50, at2 h (i 0).val p * at2 w p (i 1).val := by
  simp only [Host.dotGeneral]
  rw [Ideal.dotGeneral_apply, ← Equiv.sum_comp (contrEquiv1 Rh 50 rfl rfl).symm,
    ← Fin.sum_univ_eq_sum_range (fun p => at2 h (i 0).val p * at2 w p (i 1).val) 50]
  refine Finset.sum_congr rfl fun p _ => ?_
  have hp := contrEquiv1_symm_val Rh 50 rfl rfl p
  rw [at2_of h _ (i 0).val p.val (rh_l0 _ _) ((rh_l1 _ _).trans hp), at2_of w _ p.val (i 1).val ((rh_r0 _ _).trans hp) (rh_r1 _ _)]

/-- A · M (8192 × 8192 by 8192 × 50) at an index. -/
theorem dotA_apply (a : FVec Ideal Cert.ReferenceIdeal.S8192x8192 .f32) (m : FVec Ideal Cert.ReferenceIdeal.S8192x50 .f32)
    (i : Cert.ReferenceIdeal.S8192x50.Idx) :
    Host.dotGeneral (F := Ideal) Ra none a m i = ∑ K ∈ Finset.range 8192, at2 a (i 0).val K * at2 m K (i 1).val := by
  simp only [Host.dotGeneral]
  rw [Ideal.dotGeneral_apply, ← Equiv.sum_comp (contrEquiv1 Ra 8192 rfl rfl).symm,
    ← Fin.sum_univ_eq_sum_range (fun K => at2 a (i 0).val K * at2 m K (i 1).val) 8192]
  refine Finset.sum_congr rfl fun K _ => ?_
  have hK := contrEquiv1_symm_val Ra 8192 rfl rfl K
  rw [at2_of a _ (i 0).val K.val (ra_l0 _ _) ((ra_l1 _ _).trans hK), at2_of m _ K.val (i 1).val ((ra_r0 _ _).trans hK) (ra_r1 _ _)]

/-- The reference's graph convolution at (R, j): max (∑ K < 8192, A (R, K) · ∑ p < 50, h (K, p) · W (p, j) + b j) 0. -/
theorem refGcn_apply (A : FVec Ideal Cert.ReferenceIdeal.S8192x8192 .f32) (h : FVec Ideal Cert.ReferenceIdeal.S8192x50 .f32)
    (W : FVec Ideal Cert.ReferenceIdeal.S50x50 .f32) (b : FVec Ideal Cert.ReferenceIdeal.S50 .f32)
    (i : Cert.ReferenceIdeal.S8192x50.Idx) :
    refGcn A h W b i
      = max ((∑ K ∈ Finset.range 8192, at2 A (i 0).val K * ∑ p ∈ Finset.range 50, at2 h K p * at2 W p (i 1).val)
          + b (ix1 ⟨(i 1).val, idx2_lt1 i⟩)) 0 := by
  unfold refGcn
  rw [maximumf_apply, addf_apply, dotA_apply]
  have hsum : ∑ K ∈ Finset.range 8192, at2 A (i 0).val K
        * at2 (Host.dotGeneral (F := Ideal) Rh none h W) K (i 1).val
      = ∑ K ∈ Finset.range 8192, at2 A (i 0).val K * ∑ p ∈ Finset.range 50, at2 h K p * at2 W p (i 1).val := by
    refine Finset.sum_congr rfl fun K hK => ?_
    have hK' : K < 8192 := Finset.mem_range.mp hK
    have hj : (i 1).val < 50 := idx2_lt1 i
    congr 1
    unfold at2
    rw [dif_pos ⟨hK', hj⟩, dotH_apply]
    rfl
  rw [hsum]
  have hb : broadcastInDim Cert.ReferenceIdeal.S8192x50 ![0, 1] Cert.ReferenceIdeal.Gen.bcast_S1x50_S8192x50_0_1
      (broadcastInDim Cert.ReferenceIdeal.S1x50 ![1] Cert.ReferenceIdeal.Gen.bcast_S50_S1x50_1 b) i
      = b (ix1 ⟨(i 1).val, idx2_lt1 i⟩) := by
    rw [broadcastInDim_apply (![0, 1] : Fin 2 → Fin Cert.ReferenceIdeal.S8192x50.rank) Cert.ReferenceIdeal.Gen.bcast_S1x50_S8192x50_0_1 _ i
      (ix2 (0 : Fin 1) (⟨(i 1).val, idx2_lt1 i⟩ : Fin 50)) (fun a => by
        match a with
        | ⟨0, _⟩ => rfl
        | ⟨1, _⟩ => rfl)]
    rw [broadcastInDim_apply (![1] : Fin 1 → Fin Cert.ReferenceIdeal.S1x50.rank) Cert.ReferenceIdeal.Gen.bcast_S50_S1x50_1 _
      (ix2 (0 : Fin 1) (⟨(i 1).val, idx2_lt1 i⟩ : Fin 50)) (ix1 ⟨(i 1).val, idx2_lt1 i⟩) (fun a => by
        match a with
        | ⟨0, _⟩ => rfl)]
  rw [hb]
  rw [broadcastInDim_apply (![] : Fin 0 → Fin Cert.ReferenceIdeal.S8192x50.rank) Cert.ReferenceIdeal.Gen.bcast_S_S8192x50 _ i ix0
    (fun a => a.elim0), constant_apply, Ideal.ofBits_zero_f32]

/-! ## A column segment of an array -/

/-- Entry (K, p) of column segment s of an 8192 × 200 array is its entry (K, 50 s + p). -/
theorem seg_at (s : ℕ) (off : Fin 2 → Nat) (hoff : off = ![0, 50 * s]) (hs : S8192x200.Slices off S8192x50)
    (X : FVec Ideal S8192x200 .f32) (K p : ℕ) (hs4 : s < 4) (hK : K < 8192) (hp : p < 50) :
    at2 (extractStridedSlice S8192x50 off X hs) K p = at2 X K (50 * s + p) := by
  have hc : 50 * s + p < 200 := by omega
  refine (at2_ix2 (extractStridedSlice S8192x50 off X hs) ⟨K, hK⟩ ⟨p, hp⟩).trans ?_
  rw [extractStridedSlice_apply off X hs (ix2 ⟨K, hK⟩ ⟨p, hp⟩) (ix2 ⟨K, hK⟩ ⟨50 * s + p, hc⟩) (fun a => by
    subst hoff
    match a with
    | ⟨0, _⟩ => exact (Nat.zero_add K).symm
    | ⟨1, _⟩ => rfl)]
  exact (at2_ix2 X ⟨K, hK⟩ ⟨50 * s + p, hc⟩).symm

/-- Entry (R, j) of column segment s of a region's output. -/
theorem seg_tileOut (s : ℕ) (off : Fin 2 → Nat) (hoff : off = ![0, 50 * s]) (hs : S8192x200.Slices off S8192x50)
    (A : FVec Ideal S8192x8192 .f32) (X : FVec Ideal S8192x200 .f32) (W : FVec Ideal S200x200 .f32) (b : FVec Ideal S1x200 .f32)
    (hs4 : s < 4) (i : S8192x50.Idx) :
    extractStridedSlice S8192x50 off (tileOut A X W b) hs i
      = max ((∑ K ∈ Finset.range 8192, tileTerm A X W (i 0).val (50 * s + (i 1).val) K) + at2 b 0 (50 * s + (i 1).val)) 0 := by
  have hR : (i 0).val < 8192 := idx2_lt0 i
  have hj : (i 1).val < 50 := idx2_lt1 i
  have hc : 50 * s + (i 1).val < 200 := by omega
  rw [extractStridedSlice_apply off (tileOut A X W b) hs i (ix2 ⟨(i 0).val, hR⟩ ⟨50 * s + (i 1).val, hc⟩) (fun a => by
    subst hoff
    match a with
    | ⟨0, _⟩ => exact (Nat.zero_add (i 0).val).symm
    | ⟨1, _⟩ => rfl)]
  rfl

/-! ## The lemma -/

/-- Term K of the kernel's contraction at column 50 s + j is term K of the reference's at column j of segment s. -/
theorem star_term (s : ℕ) (off : Fin 2 → Nat) (hoff : off = ![0, 50 * s]) (hs : S8192x200.Slices off S8192x50)
    (A : FVec Ideal S8192x8192 .f32) (X : FVec Ideal S8192x200 .f32) (W : FVec Ideal S50x50 .f32)
    (R j K : ℕ) (hs4 : s < 4) (hj : j < 50) (hK : K < 8192) :
    tileTerm A X (wfull W) R (50 * s + j) K
      = at2 A R K * ∑ p ∈ Finset.range 50, at2 (extractStridedSlice S8192x50 off X hs) K p * at2 W p j := by
  unfold tileTerm
  rw [sum_wfull X W K s j hs4 hj]
  refine congrArg (fun t => at2 A R K * t) ?_
  refine Finset.sum_congr rfl fun p hp => ?_
  rw [seg_at s off hoff hs X K p hs4 hK (Finset.mem_range.mp hp)]

/-- The two sides at one index, before either is folded back into its array. -/
theorem star_point (s : ℕ) (off : Fin 2 → Nat) (hoff : off = ![0, 50 * s]) (hs : S8192x200.Slices off S8192x50)
    (A : FVec Ideal S8192x8192 .f32) (X : FVec Ideal S8192x200 .f32) (W : FVec Ideal S50x50 .f32) (b : FVec Ideal S50 .f32)
    (hs4 : s < 4) (i : S8192x50.Idx) :
    max ((∑ K ∈ Finset.range 8192, tileTerm A X (wfull W) (i 0).val (50 * s + (i 1).val) K) + at2 (bias4 b) 0 (50 * s + (i 1).val)) 0
      = max ((∑ K ∈ Finset.range 8192, at2 A (i 0).val K
            * ∑ p ∈ Finset.range 50, at2 (extractStridedSlice S8192x50 off X hs) K p * at2 W p (i 1).val)
          + b (ix1 ⟨(i 1).val, idx2_lt1 i⟩)) 0 := by
  rw [bias4_at b s (i 1).val hs4 (idx2_lt1 i)]
  rw [Finset.sum_congr rfl (fun K hK =>
    star_term s off hoff hs A X W (i 0).val (i 1).val K hs4 (idx2_lt1 i) (Finset.mem_range.mp hK))]

/-- Column segment s (columns 50 s … 50 s + 49) of a region's output is the reference's graph convolution of column
    segment s of its input. -/
theorem star (s : Fin 4) (off : Fin 2 → Nat) (hoff : off = ![0, 50 * s.val]) (hs : S8192x200.Slices off S8192x50)
    (A : FVec Ideal S8192x8192 .f32) (X : FVec Ideal S8192x200 .f32) (W : FVec Ideal S50x50 .f32) (b : FVec Ideal S50 .f32) :
    extractStridedSlice S8192x50 off (tileOut A X (wfull W) (bias4 b)) hs = refGcn A (extractStridedSlice S8192x50 off X hs) W b := by
  funext i
  have h1 := seg_tileOut s.val off hoff hs A X (wfull W) (bias4 b) s.isLt i
  have h2 := star_point s.val off hoff hs A X W b s.isLt i
  have h3 := refGcn_apply A (extractStridedSlice S8192x50 off X hs) W b i
  have h4 := h1.trans h2
  exact h4.trans h3.symm

end Cert.KernelIdeal.Alg

end
-- ==== Proof.Ideal.CatSlice.lean ====
/-
  A 50-column segment of a concatenation of four 8192 × 50 arrays along the columns is the corresponding piece:
  entry `(r, j)` of segment `s` is entry `(r, 50 s + j)` of the concatenation, which lies in piece `s` at `(r, j)`.
-/
import proofs.«174668_j26645977104432_2_alg».proof.Proof.Gen.KernelIdeal
import Idealize.ShloMosaic.Lib.ValueIdx
import Idealize.ShloMosaic.Lib.Pipeline.Value

noncomputable section

namespace Cert.KernelIdeal.Alg

open Cert.KernelIdeal Cert.KernelIdeal.Gen Idealize.ShloMosaic Idealize.ShloMosaic.ValueIdx

theorem catSlice0 (x0 x1 x2 x3 : FVec Ideal S8192x50 .f32)
    (h : Shape.Concatenates [S8192x50, S8192x50, S8192x50, S8192x50] S8192x200 1) (hs : S8192x200.Slices ![0, 0] S8192x50) :
    extractStridedSlice S8192x50 ![0, 0] (concatenate S8192x200 1 [⟨S8192x50, x0⟩, ⟨S8192x50, x1⟩, ⟨S8192x50, x2⟩, ⟨S8192x50, x3⟩] h) hs = x0 := by
  funext j
  have hj0 : (j 0).val < 8192 := idx2_lt0 j
  have hj1 : (j 1).val < 50 := idx2_lt1 j
  rw [extractStridedSlice_apply ![0, 0] _ hs j (ix2 ⟨(j 0).val, hj0⟩ ⟨0 + (j 1).val, by omega⟩) (fun a => by
    match a with
    | ⟨0, _⟩ => show (j 0).val = 0 + (j 0).val; omega
    | ⟨1, _⟩ => rfl)]
  exact concatenate_apply_piece (t := S8192x200) (1 : Fin 2) ([⟨S8192x50, x0⟩, ⟨S8192x50, x1⟩, ⟨S8192x50, x2⟩, ⟨S8192x50, x3⟩] : List ((s : Shape) × (s.Idx → Ideal .f32))) h _ 0 (by simp) S8192x50 x0 rfl rfl 0 rfl j
    (fun b hb => by
      match b with
      | ⟨0, _⟩ => rfl
      | ⟨1, _⟩ => exact absurd rfl hb)
    rfl

theorem catSlice1 (x0 x1 x2 x3 : FVec Ideal S8192x50 .f32)
    (h : Shape.Concatenates [S8192x50, S8192x50, S8192x50, S8192x50] S8192x200 1) (hs : S8192x200.Slices ![0, 50] S8192x50) :
    extractStridedSlice S8192x50 ![0, 50] (concatenate S8192x200 1 [⟨S8192x50, x0⟩, ⟨S8192x50, x1⟩, ⟨S8192x50, x2⟩, ⟨S8192x50, x3⟩] h) hs = x1 := by
  funext j
  have hj0 : (j 0).val < 8192 := idx2_lt0 j
  have hj1 : (j 1).val < 50 := idx2_lt1 j
  rw [extractStridedSlice_apply ![0, 50] _ hs j (ix2 ⟨(j 0).val, hj0⟩ ⟨50 + (j 1).val, by omega⟩) (fun a => by
    match a with
    | ⟨0, _⟩ => show (j 0).val = 0 + (j 0).val; omega
    | ⟨1, _⟩ => rfl)]
  exact concatenate_apply_piece (t := S8192x200) (1 : Fin 2) ([⟨S8192x50, x0⟩, ⟨S8192x50, x1⟩, ⟨S8192x50, x2⟩, ⟨S8192x50, x3⟩] : List ((s : Shape) × (s.Idx → Ideal .f32))) h _ 1 (by simp) S8192x50 x1 rfl rfl 50 rfl j
    (fun b hb => by
      match b with
      | ⟨0, _⟩ => rfl
      | ⟨1, _⟩ => exact absurd rfl hb)
    rfl

theorem catSlice2 (x0 x1 x2 x3 : FVec Ideal S8192x50 .f32)
    (h : Shape.Concatenates [S8192x50, S8192x50, S8192x50, S8192x50] S8192x200 1) (hs : S8192x200.Slices ![0, 100] S8192x50) :
    extractStridedSlice S8192x50 ![0, 100] (concatenate S8192x200 1 [⟨S8192x50, x0⟩, ⟨S8192x50, x1⟩, ⟨S8192x50, x2⟩, ⟨S8192x50, x3⟩] h) hs = x2 := by
  funext j
  have hj0 : (j 0).val < 8192 := idx2_lt0 j
  have hj1 : (j 1).val < 50 := idx2_lt1 j
  rw [extractStridedSlice_apply ![0, 100] _ hs j (ix2 ⟨(j 0).val, hj0⟩ ⟨100 + (j 1).val, by omega⟩) (fun a => by
    match a with
    | ⟨0, _⟩ => show (j 0).val = 0 + (j 0).val; omega
    | ⟨1, _⟩ => rfl)]
  exact concatenate_apply_piece (t := S8192x200) (1 : Fin 2) ([⟨S8192x50, x0⟩, ⟨S8192x50, x1⟩, ⟨S8192x50, x2⟩, ⟨S8192x50, x3⟩] : List ((s : Shape) × (s.Idx → Ideal .f32))) h _ 2 (by simp) S8192x50 x2 rfl rfl 100 rfl j
    (fun b hb => by
      match b with
      | ⟨0, _⟩ => rfl
      | ⟨1, _⟩ => exact absurd rfl hb)
    rfl

theorem catSlice3 (x0 x1 x2 x3 : FVec Ideal S8192x50 .f32)
    (h : Shape.Concatenates [S8192x50, S8192x50, S8192x50, S8192x50] S8192x200 1) (hs : S8192x200.Slices ![0, 150] S8192x50) :
    extractStridedSlice S8192x50 ![0, 150] (concatenate S8192x200 1 [⟨S8192x50, x0⟩, ⟨S8192x50, x1⟩, ⟨S8192x50, x2⟩, ⟨S8192x50, x3⟩] h) hs = x3 := by
  funext j
  have hj0 : (j 0).val < 8192 := idx2_lt0 j
  have hj1 : (j 1).val < 50 := idx2_lt1 j
  rw [extractStridedSlice_apply ![0, 150] _ hs j (ix2 ⟨(j 0).val, hj0⟩ ⟨150 + (j 1).val, by omega⟩) (fun a => by
    match a with
    | ⟨0, _⟩ => show (j 0).val = 0 + (j 0).val; omega
    | ⟨1, _⟩ => rfl)]
  exact concatenate_apply_piece (t := S8192x200) (1 : Fin 2) ([⟨S8192x50, x0⟩, ⟨S8192x50, x1⟩, ⟨S8192x50, x2⟩, ⟨S8192x50, x3⟩] : List ((s : Shape) × (s.Idx → Ideal .f32))) h _ 3 (by simp) S8192x50 x3 rfl rfl 150 rfl j
    (fun b hb => by
      match b with
      | ⟨0, _⟩ => rfl
      | ⟨1, _⟩ => exact absurd rfl hb)
    rfl

end Cert.KernelIdeal.Alg

end
-- ==== Proof.Ideal.KerCanon.lean ====
/-
  Every host value of the kernel program is its node of the common form.  For an ordinary operation this is the
  operation applied to equal operands.  Two steps carry the mathematics: a 50-column segment of a region's output is
  the reference's graph convolution of the same segment of the region's input (`star`), and a 50-column segment of a
  four-piece concatenation is the piece (`catSlice`).
-/
import proofs.«174668_j26645977104432_2_alg».proof.Proof.Ideal.Canon
import proofs.«174668_j26645977104432_2_alg».proof.Proof.Ideal.Star
import proofs.«174668_j26645977104432_2_alg».proof.Proof.Ideal.CatSlice

set_option maxRecDepth 16384

noncomputable section

namespace Cert.Bridge

open Cert.KernelIdeal Cert.KernelIdeal.Gen Cert.KernelIdeal.Alg Cert.KernelIdeal.Hand Idealize.ShloMosaic

theorem kc_main_cst_16 (a : Ins) : kv_main_cst_16 a = cv_16 a := rfl
theorem kc_main_v154 (a : Ins) : kv_main_v154 a = cv_17 a := by
  unfold kv_main_v154 cv_17
  rw [kc_main_cst_16 a]
  all_goals rfl
theorem kc_main_v20 (a : Ins) : kv_main_v20 a = cv_15 a := by
  unfold kv_main_v20 kv_main_v15
  rw [show kv_main_v13 a = wfull a.x3 from rfl, show kv_main_v7 a = bias4 a.x4 from rfl]
  refine (star ⟨0, by decide⟩ ![0, 0] rfl _ _ _ _ _).trans ?_
  unfold refGcn cv_15 cv_14 cv_13 cv_4 cv_7 cv_6 cv_10 cv_9 cv_0
  rfl
theorem kc_main_v155 (a : Ins) : kv_main_v155 a = cv_18 a := by
  unfold kv_main_v155 cv_18
  rw [kc_main_v154 a, kc_main_v20 a]
  all_goals rfl
theorem kc_main_cst_17 (a : Ins) : kv_main_cst_17 a = cv_23 a := rfl
theorem kc_main_v156 (a : Ins) : kv_main_v156 a = cv_24 a := by
  unfold kv_main_v156 cv_24
  rw [kc_main_cst_17 a]
  all_goals rfl
theorem kc_main_v0 (a : Ins) : kv_main_v0 a = cv_0 a := rfl
theorem kc_main_v16 (a : Ins) : kv_main_v16 a = cv_11 a := by
  unfold kv_main_v16 kv_main_v14
  rw [show kv_main_v13 a = wfull a.x3 from rfl, show kv_main_v7 a = bias4 a.x4 from rfl]
  refine (star ⟨0, by decide⟩ ![0, 0] rfl _ _ _ _ _).trans ?_
  unfold refGcn cv_11 cv_8 cv_5 cv_4 cv_7 cv_6 cv_10 cv_9 cv_0
  rfl
theorem kc_main_v24 (a : Ins) : kv_main_v24 a = cv_12 a := by
  unfold kv_main_v24 cv_12
  rw [kc_main_v0 a, kc_main_v16 a]
  all_goals rfl
theorem kc_main_v146 (a : Ins) : kv_main_v146 a = cv_22 a := by
  unfold kv_main_v146 kv_main_v144
  rw [show kv_main_v13 a = wfull a.x3 from rfl, show kv_main_v7 a = bias4 a.x4 from rfl]
  refine (star ⟨0, by decide⟩ ![0, 0] rfl _ _ _ _ _).trans ?_
  unfold kv_main_v142
  rw [catSlice0, kc_main_v24 a]
  unfold refGcn cv_22 cv_21 cv_20 cv_19 cv_7 cv_6 cv_10 cv_9
  rfl
theorem kc_main_v157 (a : Ins) : kv_main_v157 a = cv_25 a := by
  unfold kv_main_v157 cv_25
  rw [kc_main_v156 a, kc_main_v146 a]
  all_goals rfl
theorem kc_main_v158 (a : Ins) : kv_main_v158 a = cv_26 a := by
  unfold kv_main_v158 cv_26
  rw [kc_main_v155 a, kc_main_v157 a]
  all_goals rfl
theorem kc_main_cst_30 (a : Ins) : kv_main_cst_30 a = cv_16 a := rfl
theorem kc_main_v225 (a : Ins) : kv_main_v225 a = cv_17 a := by
  unfold kv_main_v225 cv_17
  rw [kc_main_cst_30 a]
  all_goals rfl
theorem kc_main_v226 (a : Ins) : kv_main_v226 a = cv_167 a := by
  unfold kv_main_v226 cv_167
  rw [kc_main_v225 a, kc_main_v16 a]
  all_goals rfl
theorem kc_main_cst_31 (a : Ins) : kv_main_cst_31 a = cv_23 a := rfl
theorem kc_main_v227 (a : Ins) : kv_main_v227 a = cv_24 a := by
  unfold kv_main_v227 cv_24
  rw [kc_main_cst_31 a]
  all_goals rfl
theorem kc_main_v83 (a : Ins) : kv_main_v83 a = cv_166 a := by
  unfold kv_main_v83 cv_166
  rw [kc_main_v0 a, kc_main_v20 a]
  all_goals rfl
theorem kc_main_v150 (a : Ins) : kv_main_v150 a = cv_171 a := by
  unfold kv_main_v150 kv_main_v145
  rw [show kv_main_v13 a = wfull a.x3 from rfl, show kv_main_v7 a = bias4 a.x4 from rfl]
  refine (star ⟨0, by decide⟩ ![0, 0] rfl _ _ _ _ _).trans ?_
  unfold kv_main_v143
  rw [catSlice0, kc_main_v83 a]
  unfold refGcn cv_171 cv_170 cv_169 cv_168 cv_7 cv_6 cv_10 cv_9
  rfl
theorem kc_main_v228 (a : Ins) : kv_main_v228 a = cv_172 a := by
  unfold kv_main_v228 cv_172
  rw [kc_main_v227 a, kc_main_v150 a]
  all_goals rfl
theorem kc_main_v229 (a : Ins) : kv_main_v229 a = cv_173 a := by
  unfold kv_main_v229 cv_173
  rw [kc_main_v226 a, kc_main_v228 a]
  all_goals rfl
theorem kc_main_cst_21 (a : Ins) : kv_main_cst_21 a = cv_46 a := rfl
theorem kc_main_v177 (a : Ins) : kv_main_v177 a = cv_47 a := by
  unfold kv_main_v177 cv_47
  rw [kc_main_cst_21 a]
  all_goals rfl
theorem kc_main_cst_20 (a : Ins) : kv_main_cst_20 a = cv_46 a := rfl
theorem kc_main_v175 (a : Ins) : kv_main_v175 a = cv_47 a := by
  unfold kv_main_v175 cv_47
  rw [kc_main_cst_20 a]
  all_goals rfl
theorem kc_main_cst_18 (a : Ins) : kv_main_cst_18 a = cv_16 a := rfl
theorem kc_main_v159 (a : Ins) : kv_main_v159 a = cv_17 a := by
  unfold kv_main_v159 cv_17
  rw [kc_main_cst_18 a]
  all_goals rfl
theorem kc_main_v21 (a : Ins) : kv_main_v21 a = cv_34 a := by
  unfold kv_main_v21 kv_main_v15
  rw [show kv_main_v13 a = wfull a.x3 from rfl, show kv_main_v7 a = bias4 a.x4 from rfl]
  refine (star ⟨1, by decide⟩ ![0, 50] rfl _ _ _ _ _).trans ?_
  unfold refGcn cv_34 cv_33 cv_32 cv_27 cv_7 cv_6 cv_10 cv_9 cv_1
  rfl
theorem kc_main_cst_3 (a : Ins) : kv_main_cst_3 a = cv_46 a := rfl
theorem kc_main_v45 (a : Ins) : kv_main_v45 a = cv_47 a := by
  unfold kv_main_v45 cv_47
  rw [kc_main_cst_3 a]
  all_goals rfl
theorem kc_main_cst_2 (a : Ins) : kv_main_cst_2 a = cv_46 a := rfl
theorem kc_main_v43 (a : Ins) : kv_main_v43 a = cv_47 a := by
  unfold kv_main_v43 cv_47
  rw [kc_main_cst_2 a]
  all_goals rfl
theorem kc_main_v32 (a : Ins) : kv_main_v32 a = cv_35 a := by
  unfold kv_main_v32 cv_35
  rw [kc_main_v20 a, kc_main_v21 a]
  all_goals rfl
theorem kc_main_v33 (a : Ins) : kv_main_v33 a = cv_36 a := rfl
theorem kc_main_v34 (a : Ins) : kv_main_v34 a = cv_37 a := by
  unfold kv_main_v34 cv_37
  rw [kc_main_v33 a]
  all_goals rfl
theorem kc_main_v35 (a : Ins) : kv_main_v35 a = cv_38 a := by
  unfold kv_main_v35 cv_38
  rw [kc_main_v32 a, kc_main_v34 a]
  all_goals rfl
theorem kc_main_v36 (a : Ins) : kv_main_v36 a = cv_39 a := rfl
theorem kc_main_v37 (a : Ins) : kv_main_v37 a = cv_40 a := by
  unfold kv_main_v37 cv_40
  rw [kc_main_v36 a]
  all_goals rfl
theorem kc_main_v38 (a : Ins) : kv_main_v38 a = cv_41 a := by
  unfold kv_main_v38 cv_41
  rw [kc_main_v37 a]
  all_goals rfl
theorem kc_main_v39 (a : Ins) : kv_main_v39 a = cv_42 a := by
  unfold kv_main_v39 cv_42
  rw [kc_main_v38 a]
  all_goals rfl
theorem kc_main_v40 (a : Ins) : kv_main_v40 a = cv_43 a := by
  unfold kv_main_v40 cv_43
  rw [kc_main_v35 a, kc_main_v39 a]
  all_goals rfl
theorem kc_main_v41 (a : Ins) : kv_main_v41 a = cv_44 a := by
  unfold kv_main_v41 cv_44
  rw [kc_main_v40 a]
  all_goals rfl
theorem kc_main_v42 (a : Ins) : kv_main_v42 a = cv_45 a := by
  unfold kv_main_v42 cv_45
  rw [kc_main_v41 a]
  all_goals rfl
theorem kc_main_v44 (a : Ins) : kv_main_v44 a = cv_48 a := by
  unfold kv_main_v44 cv_48
  rw [kc_main_v43 a, kc_main_v42 a]
  all_goals rfl
theorem kc_main_v46 (a : Ins) : kv_main_v46 a = cv_49 a := by
  unfold kv_main_v46 cv_49
  rw [kc_main_v45 a, kc_main_v44 a]
  all_goals rfl
theorem kc_main_v47 (a : Ins) : kv_main_v47 a = cv_50 a := by
  unfold kv_main_v47 cv_50
  rw [kc_main_v46 a, kc_main_v20 a]
  all_goals rfl
theorem kc_main_v48 (a : Ins) : kv_main_v48 a = cv_51 a := by
  unfold kv_main_v48 cv_51
  rw [kc_main_v21 a, kc_main_v47 a]
  all_goals rfl
theorem kc_main_v160 (a : Ins) : kv_main_v160 a = cv_52 a := by
  unfold kv_main_v160 cv_52
  rw [kc_main_v159 a, kc_main_v48 a]
  all_goals rfl
theorem kc_main_cst_19 (a : Ins) : kv_main_cst_19 a = cv_23 a := rfl
theorem kc_main_v161 (a : Ins) : kv_main_v161 a = cv_24 a := by
  unfold kv_main_v161 cv_24
  rw [kc_main_cst_19 a]
  all_goals rfl
theorem kc_main_v1 (a : Ins) : kv_main_v1 a = cv_1 a := rfl
theorem kc_main_v17 (a : Ins) : kv_main_v17 a = cv_30 a := by
  unfold kv_main_v17 kv_main_v14
  rw [show kv_main_v13 a = wfull a.x3 from rfl, show kv_main_v7 a = bias4 a.x4 from rfl]
  refine (star ⟨1, by decide⟩ ![0, 50] rfl _ _ _ _ _).trans ?_
  unfold refGcn cv_30 cv_29 cv_28 cv_27 cv_7 cv_6 cv_10 cv_9 cv_1
  rfl
theorem kc_main_v25 (a : Ins) : kv_main_v25 a = cv_31 a := by
  unfold kv_main_v25 cv_31
  rw [kc_main_v1 a, kc_main_v17 a]
  all_goals rfl
theorem kc_main_v147 (a : Ins) : kv_main_v147 a = cv_56 a := by
  unfold kv_main_v147 kv_main_v144
  rw [show kv_main_v13 a = wfull a.x3 from rfl, show kv_main_v7 a = bias4 a.x4 from rfl]
  refine (star ⟨1, by decide⟩ ![0, 50] rfl _ _ _ _ _).trans ?_
  unfold kv_main_v142
  rw [catSlice1, kc_main_v25 a]
  unfold refGcn cv_56 cv_55 cv_54 cv_53 cv_7 cv_6 cv_10 cv_9
  rfl
theorem kc_main_v162 (a : Ins) : kv_main_v162 a = cv_57 a := by
  unfold kv_main_v162 cv_57
  rw [kc_main_v161 a, kc_main_v147 a]
  all_goals rfl
theorem kc_main_v163 (a : Ins) : kv_main_v163 a = cv_58 a := by
  unfold kv_main_v163 cv_58
  rw [kc_main_v160 a, kc_main_v162 a]
  all_goals rfl
theorem kc_main_v164 (a : Ins) : kv_main_v164 a = cv_59 a := by
  unfold kv_main_v164 cv_59
  rw [kc_main_v158 a, kc_main_v163 a]
  all_goals rfl
theorem kc_main_v165 (a : Ins) : kv_main_v165 a = cv_60 a := rfl
theorem kc_main_v166 (a : Ins) : kv_main_v166 a = cv_61 a := by
  unfold kv_main_v166 cv_61
  rw [kc_main_v165 a]
  all_goals rfl
theorem kc_main_v167 (a : Ins) : kv_main_v167 a = cv_62 a := by
  unfold kv_main_v167 cv_62
  rw [kc_main_v164 a, kc_main_v166 a]
  all_goals rfl
theorem kc_main_v168 (a : Ins) : kv_main_v168 a = cv_63 a := rfl
theorem kc_main_v169 (a : Ins) : kv_main_v169 a = cv_64 a := by
  unfold kv_main_v169 cv_64
  rw [kc_main_v168 a]
  all_goals rfl
theorem kc_main_v170 (a : Ins) : kv_main_v170 a = cv_65 a := by
  unfold kv_main_v170 cv_65
  rw [kc_main_v169 a]
  all_goals rfl
theorem kc_main_v171 (a : Ins) : kv_main_v171 a = cv_66 a := by
  unfold kv_main_v171 cv_66
  rw [kc_main_v170 a]
  all_goals rfl
theorem kc_main_v172 (a : Ins) : kv_main_v172 a = cv_67 a := by
  unfold kv_main_v172 cv_67
  rw [kc_main_v167 a, kc_main_v171 a]
  all_goals rfl
theorem kc_main_v173 (a : Ins) : kv_main_v173 a = cv_68 a := by
  unfold kv_main_v173 cv_68
  rw [kc_main_v172 a]
  all_goals rfl
theorem kc_main_v174 (a : Ins) : kv_main_v174 a = cv_69 a := by
  unfold kv_main_v174 cv_69
  rw [kc_main_v173 a]
  all_goals rfl
theorem kc_main_v176 (a : Ins) : kv_main_v176 a = cv_70 a := by
  unfold kv_main_v176 cv_70
  rw [kc_main_v175 a, kc_main_v174 a]
  all_goals rfl
theorem kc_main_v178 (a : Ins) : kv_main_v178 a = cv_71 a := by
  unfold kv_main_v178 cv_71
  rw [kc_main_v177 a, kc_main_v176 a]
  all_goals rfl
theorem kc_main_v179 (a : Ins) : kv_main_v179 a = cv_72 a := by
  unfold kv_main_v179 cv_72
  rw [kc_main_v178 a, kc_main_v158 a]
  all_goals rfl
theorem kc_main_v180 (a : Ins) : kv_main_v180 a = cv_73 a := by
  unfold kv_main_v180 cv_73
  rw [kc_main_v179 a, kc_main_v163 a]
  all_goals rfl
theorem kc_main_cst_35 (a : Ins) : kv_main_cst_35 a = cv_46 a := rfl
theorem kc_main_v248 (a : Ins) : kv_main_v248 a = cv_47 a := by
  unfold kv_main_v248 cv_47
  rw [kc_main_cst_35 a]
  all_goals rfl
theorem kc_main_cst_34 (a : Ins) : kv_main_cst_34 a = cv_46 a := rfl
theorem kc_main_v246 (a : Ins) : kv_main_v246 a = cv_47 a := by
  unfold kv_main_v246 cv_47
  rw [kc_main_cst_34 a]
  all_goals rfl
theorem kc_main_cst_32 (a : Ins) : kv_main_cst_32 a = cv_16 a := rfl
theorem kc_main_v230 (a : Ins) : kv_main_v230 a = cv_17 a := by
  unfold kv_main_v230 cv_17
  rw [kc_main_cst_32 a]
  all_goals rfl
theorem kc_main_cst_11 (a : Ins) : kv_main_cst_11 a = cv_46 a := rfl
theorem kc_main_v104 (a : Ins) : kv_main_v104 a = cv_47 a := by
  unfold kv_main_v104 cv_47
  rw [kc_main_cst_11 a]
  all_goals rfl
theorem kc_main_cst_10 (a : Ins) : kv_main_cst_10 a = cv_46 a := rfl
theorem kc_main_v102 (a : Ins) : kv_main_v102 a = cv_47 a := by
  unfold kv_main_v102 cv_47
  rw [kc_main_cst_10 a]
  all_goals rfl
theorem kc_main_v91 (a : Ins) : kv_main_v91 a = cv_175 a := by
  unfold kv_main_v91 cv_175
  rw [kc_main_v16 a, kc_main_v17 a]
  all_goals rfl
theorem kc_main_v92 (a : Ins) : kv_main_v92 a = cv_176 a := rfl
theorem kc_main_v93 (a : Ins) : kv_main_v93 a = cv_177 a := by
  unfold kv_main_v93 cv_177
  rw [kc_main_v92 a]
  all_goals rfl
theorem kc_main_v94 (a : Ins) : kv_main_v94 a = cv_178 a := by
  unfold kv_main_v94 cv_178
  rw [kc_main_v91 a, kc_main_v93 a]
  all_goals rfl
theorem kc_main_v95 (a : Ins) : kv_main_v95 a = cv_179 a := rfl
theorem kc_main_v96 (a : Ins) : kv_main_v96 a = cv_180 a := by
  unfold kv_main_v96 cv_180
  rw [kc_main_v95 a]
  all_goals rfl
theorem kc_main_v97 (a : Ins) : kv_main_v97 a = cv_181 a := by
  unfold kv_main_v97 cv_181
  rw [kc_main_v96 a]
  all_goals rfl
theorem kc_main_v98 (a : Ins) : kv_main_v98 a = cv_182 a := by
  unfold kv_main_v98 cv_182
  rw [kc_main_v97 a]
  all_goals rfl
theorem kc_main_v99 (a : Ins) : kv_main_v99 a = cv_183 a := by
  unfold kv_main_v99 cv_183
  rw [kc_main_v94 a, kc_main_v98 a]
  all_goals rfl
theorem kc_main_v100 (a : Ins) : kv_main_v100 a = cv_184 a := by
  unfold kv_main_v100 cv_184
  rw [kc_main_v99 a]
  all_goals rfl
theorem kc_main_v101 (a : Ins) : kv_main_v101 a = cv_185 a := by
  unfold kv_main_v101 cv_185
  rw [kc_main_v100 a]
  all_goals rfl
theorem kc_main_v103 (a : Ins) : kv_main_v103 a = cv_186 a := by
  unfold kv_main_v103 cv_186
  rw [kc_main_v102 a, kc_main_v101 a]
  all_goals rfl
theorem kc_main_v105 (a : Ins) : kv_main_v105 a = cv_187 a := by
  unfold kv_main_v105 cv_187
  rw [kc_main_v104 a, kc_main_v103 a]
  all_goals rfl
theorem kc_main_v106 (a : Ins) : kv_main_v106 a = cv_188 a := by
  unfold kv_main_v106 cv_188
  rw [kc_main_v105 a, kc_main_v16 a]
  all_goals rfl
theorem kc_main_v107 (a : Ins) : kv_main_v107 a = cv_189 a := by
  unfold kv_main_v107 cv_189
  rw [kc_main_v17 a, kc_main_v106 a]
  all_goals rfl
theorem kc_main_v231 (a : Ins) : kv_main_v231 a = cv_190 a := by
  unfold kv_main_v231 cv_190
  rw [kc_main_v230 a, kc_main_v107 a]
  all_goals rfl
theorem kc_main_cst_33 (a : Ins) : kv_main_cst_33 a = cv_23 a := rfl
theorem kc_main_v232 (a : Ins) : kv_main_v232 a = cv_24 a := by
  unfold kv_main_v232 cv_24
  rw [kc_main_cst_33 a]
  all_goals rfl
theorem kc_main_v84 (a : Ins) : kv_main_v84 a = cv_174 a := by
  unfold kv_main_v84 cv_174
  rw [kc_main_v1 a, kc_main_v21 a]
  all_goals rfl
theorem kc_main_v151 (a : Ins) : kv_main_v151 a = cv_194 a := by
  unfold kv_main_v151 kv_main_v145
  rw [show kv_main_v13 a = wfull a.x3 from rfl, show kv_main_v7 a = bias4 a.x4 from rfl]
  refine (star ⟨1, by decide⟩ ![0, 50] rfl _ _ _ _ _).trans ?_
  unfold kv_main_v143
  rw [catSlice1, kc_main_v84 a]
  unfold refGcn cv_194 cv_193 cv_192 cv_191 cv_7 cv_6 cv_10 cv_9
  rfl
theorem kc_main_v233 (a : Ins) : kv_main_v233 a = cv_195 a := by
  unfold kv_main_v233 cv_195
  rw [kc_main_v232 a, kc_main_v151 a]
  all_goals rfl
theorem kc_main_v234 (a : Ins) : kv_main_v234 a = cv_196 a := by
  unfold kv_main_v234 cv_196
  rw [kc_main_v231 a, kc_main_v233 a]
  all_goals rfl
theorem kc_main_v235 (a : Ins) : kv_main_v235 a = cv_197 a := by
  unfold kv_main_v235 cv_197
  rw [kc_main_v229 a, kc_main_v234 a]
  all_goals rfl
theorem kc_main_v236 (a : Ins) : kv_main_v236 a = cv_198 a := rfl
theorem kc_main_v237 (a : Ins) : kv_main_v237 a = cv_199 a := by
  unfold kv_main_v237 cv_199
  rw [kc_main_v236 a]
  all_goals rfl
theorem kc_main_v238 (a : Ins) : kv_main_v238 a = cv_200 a := by
  unfold kv_main_v238 cv_200
  rw [kc_main_v235 a, kc_main_v237 a]
  all_goals rfl
theorem kc_main_v239 (a : Ins) : kv_main_v239 a = cv_201 a := rfl
theorem kc_main_v240 (a : Ins) : kv_main_v240 a = cv_202 a := by
  unfold kv_main_v240 cv_202
  rw [kc_main_v239 a]
  all_goals rfl
theorem kc_main_v241 (a : Ins) : kv_main_v241 a = cv_203 a := by
  unfold kv_main_v241 cv_203
  rw [kc_main_v240 a]
  all_goals rfl
theorem kc_main_v242 (a : Ins) : kv_main_v242 a = cv_204 a := by
  unfold kv_main_v242 cv_204
  rw [kc_main_v241 a]
  all_goals rfl
theorem kc_main_v243 (a : Ins) : kv_main_v243 a = cv_205 a := by
  unfold kv_main_v243 cv_205
  rw [kc_main_v238 a, kc_main_v242 a]
  all_goals rfl
theorem kc_main_v244 (a : Ins) : kv_main_v244 a = cv_206 a := by
  unfold kv_main_v244 cv_206
  rw [kc_main_v243 a]
  all_goals rfl
theorem kc_main_v245 (a : Ins) : kv_main_v245 a = cv_207 a := by
  unfold kv_main_v245 cv_207
  rw [kc_main_v244 a]
  all_goals rfl
theorem kc_main_v247 (a : Ins) : kv_main_v247 a = cv_208 a := by
  unfold kv_main_v247 cv_208
  rw [kc_main_v246 a, kc_main_v245 a]
  all_goals rfl
theorem kc_main_v249 (a : Ins) : kv_main_v249 a = cv_209 a := by
  unfold kv_main_v249 cv_209
  rw [kc_main_v248 a, kc_main_v247 a]
  all_goals rfl
theorem kc_main_v250 (a : Ins) : kv_main_v250 a = cv_210 a := by
  unfold kv_main_v250 cv_210
  rw [kc_main_v249 a, kc_main_v229 a]
  all_goals rfl
theorem kc_main_v251 (a : Ins) : kv_main_v251 a = cv_211 a := by
  unfold kv_main_v251 cv_211
  rw [kc_main_v250 a, kc_main_v234 a]
  all_goals rfl
theorem kc_main_cst_25 (a : Ins) : kv_main_cst_25 a = cv_46 a := rfl
theorem kc_main_v199 (a : Ins) : kv_main_v199 a = cv_47 a := by
  unfold kv_main_v199 cv_47
  rw [kc_main_cst_25 a]
  all_goals rfl
theorem kc_main_cst_24 (a : Ins) : kv_main_cst_24 a = cv_46 a := rfl
theorem kc_main_v197 (a : Ins) : kv_main_v197 a = cv_47 a := by
  unfold kv_main_v197 cv_47
  rw [kc_main_cst_24 a]
  all_goals rfl
theorem kc_main_cst_22 (a : Ins) : kv_main_cst_22 a = cv_16 a := rfl
theorem kc_main_v181 (a : Ins) : kv_main_v181 a = cv_17 a := by
  unfold kv_main_v181 cv_17
  rw [kc_main_cst_22 a]
  all_goals rfl
theorem kc_main_v22 (a : Ins) : kv_main_v22 a = cv_83 a := by
  unfold kv_main_v22 kv_main_v15
  rw [show kv_main_v13 a = wfull a.x3 from rfl, show kv_main_v7 a = bias4 a.x4 from rfl]
  refine (star ⟨2, by decide⟩ ![0, 100] rfl _ _ _ _ _).trans ?_
  unfold refGcn cv_83 cv_82 cv_81 cv_75 cv_7 cv_6 cv_10 cv_9 cv_2
  rfl
theorem kc_main_cst_5 (a : Ins) : kv_main_cst_5 a = cv_46 a := rfl
theorem kc_main_v62 (a : Ins) : kv_main_v62 a = cv_47 a := by
  unfold kv_main_v62 cv_47
  rw [kc_main_cst_5 a]
  all_goals rfl
theorem kc_main_cst_4 (a : Ins) : kv_main_cst_4 a = cv_46 a := rfl
theorem kc_main_v60 (a : Ins) : kv_main_v60 a = cv_47 a := by
  unfold kv_main_v60 cv_47
  rw [kc_main_cst_4 a]
  all_goals rfl
theorem kc_main_v49 (a : Ins) : kv_main_v49 a = cv_84 a := by
  unfold kv_main_v49 cv_84
  rw [kc_main_v48 a, kc_main_v22 a]
  all_goals rfl
theorem kc_main_v50 (a : Ins) : kv_main_v50 a = cv_85 a := rfl
theorem kc_main_v51 (a : Ins) : kv_main_v51 a = cv_86 a := by
  unfold kv_main_v51 cv_86
  rw [kc_main_v50 a]
  all_goals rfl
theorem kc_main_v52 (a : Ins) : kv_main_v52 a = cv_87 a := by
  unfold kv_main_v52 cv_87
  rw [kc_main_v49 a, kc_main_v51 a]
  all_goals rfl
theorem kc_main_v53 (a : Ins) : kv_main_v53 a = cv_88 a := rfl
theorem kc_main_v54 (a : Ins) : kv_main_v54 a = cv_89 a := by
  unfold kv_main_v54 cv_89
  rw [kc_main_v53 a]
  all_goals rfl
theorem kc_main_v55 (a : Ins) : kv_main_v55 a = cv_90 a := by
  unfold kv_main_v55 cv_90
  rw [kc_main_v54 a]
  all_goals rfl
theorem kc_main_v56 (a : Ins) : kv_main_v56 a = cv_91 a := by
  unfold kv_main_v56 cv_91
  rw [kc_main_v55 a]
  all_goals rfl
theorem kc_main_v57 (a : Ins) : kv_main_v57 a = cv_92 a := by
  unfold kv_main_v57 cv_92
  rw [kc_main_v52 a, kc_main_v56 a]
  all_goals rfl
theorem kc_main_v58 (a : Ins) : kv_main_v58 a = cv_93 a := by
  unfold kv_main_v58 cv_93
  rw [kc_main_v57 a]
  all_goals rfl
theorem kc_main_v59 (a : Ins) : kv_main_v59 a = cv_94 a := by
  unfold kv_main_v59 cv_94
  rw [kc_main_v58 a]
  all_goals rfl
theorem kc_main_v61 (a : Ins) : kv_main_v61 a = cv_95 a := by
  unfold kv_main_v61 cv_95
  rw [kc_main_v60 a, kc_main_v59 a]
  all_goals rfl
theorem kc_main_v63 (a : Ins) : kv_main_v63 a = cv_96 a := by
  unfold kv_main_v63 cv_96
  rw [kc_main_v62 a, kc_main_v61 a]
  all_goals rfl
theorem kc_main_v64 (a : Ins) : kv_main_v64 a = cv_97 a := by
  unfold kv_main_v64 cv_97
  rw [kc_main_v63 a, kc_main_v48 a]
  all_goals rfl
theorem kc_main_v65 (a : Ins) : kv_main_v65 a = cv_98 a := by
  unfold kv_main_v65 cv_98
  rw [kc_main_v22 a, kc_main_v64 a]
  all_goals rfl
theorem kc_main_v182 (a : Ins) : kv_main_v182 a = cv_99 a := by
  unfold kv_main_v182 cv_99
  rw [kc_main_v181 a, kc_main_v65 a]
  all_goals rfl
theorem kc_main_cst_23 (a : Ins) : kv_main_cst_23 a = cv_23 a := rfl
theorem kc_main_v183 (a : Ins) : kv_main_v183 a = cv_24 a := by
  unfold kv_main_v183 cv_24
  rw [kc_main_cst_23 a]
  all_goals rfl
theorem kc_main_cst_0 (a : Ins) : kv_main_cst_0 a = cv_16 a := rfl
theorem kc_main_v26 (a : Ins) : kv_main_v26 a = cv_17 a := by
  unfold kv_main_v26 cv_17
  rw [kc_main_cst_0 a]
  all_goals rfl
theorem kc_main_v2 (a : Ins) : kv_main_v2 a = cv_2 a := rfl
theorem kc_main_v27 (a : Ins) : kv_main_v27 a = cv_74 a := by
  unfold kv_main_v27 cv_74
  rw [kc_main_v26 a, kc_main_v2 a]
  all_goals rfl
theorem kc_main_cst_1 (a : Ins) : kv_main_cst_1 a = cv_23 a := rfl
theorem kc_main_v28 (a : Ins) : kv_main_v28 a = cv_24 a := by
  unfold kv_main_v28 cv_24
  rw [kc_main_cst_1 a]
  all_goals rfl
theorem kc_main_v18 (a : Ins) : kv_main_v18 a = cv_78 a := by
  unfold kv_main_v18 kv_main_v14
  rw [show kv_main_v13 a = wfull a.x3 from rfl, show kv_main_v7 a = bias4 a.x4 from rfl]
  refine (star ⟨2, by decide⟩ ![0, 100] rfl _ _ _ _ _).trans ?_
  unfold refGcn cv_78 cv_77 cv_76 cv_75 cv_7 cv_6 cv_10 cv_9 cv_2
  rfl
theorem kc_main_v29 (a : Ins) : kv_main_v29 a = cv_79 a := by
  unfold kv_main_v29 cv_79
  rw [kc_main_v28 a, kc_main_v18 a]
  all_goals rfl
theorem kc_main_v30 (a : Ins) : kv_main_v30 a = cv_80 a := by
  unfold kv_main_v30 cv_80
  rw [kc_main_v27 a, kc_main_v29 a]
  all_goals rfl
theorem kc_main_v148 (a : Ins) : kv_main_v148 a = cv_103 a := by
  unfold kv_main_v148 kv_main_v144
  rw [show kv_main_v13 a = wfull a.x3 from rfl, show kv_main_v7 a = bias4 a.x4 from rfl]
  refine (star ⟨2, by decide⟩ ![0, 100] rfl _ _ _ _ _).trans ?_
  unfold kv_main_v142
  rw [catSlice2, kc_main_v30 a]
  unfold refGcn cv_103 cv_102 cv_101 cv_100 cv_7 cv_6 cv_10 cv_9
  rfl
theorem kc_main_v184 (a : Ins) : kv_main_v184 a = cv_104 a := by
  unfold kv_main_v184 cv_104
  rw [kc_main_v183 a, kc_main_v148 a]
  all_goals rfl
theorem kc_main_v185 (a : Ins) : kv_main_v185 a = cv_105 a := by
  unfold kv_main_v185 cv_105
  rw [kc_main_v182 a, kc_main_v184 a]
  all_goals rfl
theorem kc_main_v186 (a : Ins) : kv_main_v186 a = cv_106 a := by
  unfold kv_main_v186 cv_106
  rw [kc_main_v180 a, kc_main_v185 a]
  all_goals rfl
theorem kc_main_v187 (a : Ins) : kv_main_v187 a = cv_107 a := rfl
theorem kc_main_v188 (a : Ins) : kv_main_v188 a = cv_108 a := by
  unfold kv_main_v188 cv_108
  rw [kc_main_v187 a]
  all_goals rfl
theorem kc_main_v189 (a : Ins) : kv_main_v189 a = cv_109 a := by
  unfold kv_main_v189 cv_109
  rw [kc_main_v186 a, kc_main_v188 a]
  all_goals rfl
theorem kc_main_v190 (a : Ins) : kv_main_v190 a = cv_110 a := rfl
theorem kc_main_v191 (a : Ins) : kv_main_v191 a = cv_111 a := by
  unfold kv_main_v191 cv_111
  rw [kc_main_v190 a]
  all_goals rfl
theorem kc_main_v192 (a : Ins) : kv_main_v192 a = cv_112 a := by
  unfold kv_main_v192 cv_112
  rw [kc_main_v191 a]
  all_goals rfl
theorem kc_main_v193 (a : Ins) : kv_main_v193 a = cv_113 a := by
  unfold kv_main_v193 cv_113
  rw [kc_main_v192 a]
  all_goals rfl
theorem kc_main_v194 (a : Ins) : kv_main_v194 a = cv_114 a := by
  unfold kv_main_v194 cv_114
  rw [kc_main_v189 a, kc_main_v193 a]
  all_goals rfl
theorem kc_main_v195 (a : Ins) : kv_main_v195 a = cv_115 a := by
  unfold kv_main_v195 cv_115
  rw [kc_main_v194 a]
  all_goals rfl
theorem kc_main_v196 (a : Ins) : kv_main_v196 a = cv_116 a := by
  unfold kv_main_v196 cv_116
  rw [kc_main_v195 a]
  all_goals rfl
theorem kc_main_v198 (a : Ins) : kv_main_v198 a = cv_117 a := by
  unfold kv_main_v198 cv_117
  rw [kc_main_v197 a, kc_main_v196 a]
  all_goals rfl
theorem kc_main_v200 (a : Ins) : kv_main_v200 a = cv_118 a := by
  unfold kv_main_v200 cv_118
  rw [kc_main_v199 a, kc_main_v198 a]
  all_goals rfl
theorem kc_main_v201 (a : Ins) : kv_main_v201 a = cv_119 a := by
  unfold kv_main_v201 cv_119
  rw [kc_main_v200 a, kc_main_v180 a]
  all_goals rfl
theorem kc_main_v202 (a : Ins) : kv_main_v202 a = cv_120 a := by
  unfold kv_main_v202 cv_120
  rw [kc_main_v201 a, kc_main_v185 a]
  all_goals rfl
theorem kc_main_cst_39 (a : Ins) : kv_main_cst_39 a = cv_46 a := rfl
theorem kc_main_v270 (a : Ins) : kv_main_v270 a = cv_47 a := by
  unfold kv_main_v270 cv_47
  rw [kc_main_cst_39 a]
  all_goals rfl
theorem kc_main_cst_38 (a : Ins) : kv_main_cst_38 a = cv_46 a := rfl
theorem kc_main_v268 (a : Ins) : kv_main_v268 a = cv_47 a := by
  unfold kv_main_v268 cv_47
  rw [kc_main_cst_38 a]
  all_goals rfl
theorem kc_main_cst_36 (a : Ins) : kv_main_cst_36 a = cv_16 a := rfl
theorem kc_main_v252 (a : Ins) : kv_main_v252 a = cv_17 a := by
  unfold kv_main_v252 cv_17
  rw [kc_main_cst_36 a]
  all_goals rfl
theorem kc_main_cst_13 (a : Ins) : kv_main_cst_13 a = cv_46 a := rfl
theorem kc_main_v121 (a : Ins) : kv_main_v121 a = cv_47 a := by
  unfold kv_main_v121 cv_47
  rw [kc_main_cst_13 a]
  all_goals rfl
theorem kc_main_cst_12 (a : Ins) : kv_main_cst_12 a = cv_46 a := rfl
theorem kc_main_v119 (a : Ins) : kv_main_v119 a = cv_47 a := by
  unfold kv_main_v119 cv_47
  rw [kc_main_cst_12 a]
  all_goals rfl
theorem kc_main_v108 (a : Ins) : kv_main_v108 a = cv_214 a := by
  unfold kv_main_v108 cv_214
  rw [kc_main_v107 a, kc_main_v18 a]
  all_goals rfl
theorem kc_main_v109 (a : Ins) : kv_main_v109 a = cv_215 a := rfl
theorem kc_main_v110 (a : Ins) : kv_main_v110 a = cv_216 a := by
  unfold kv_main_v110 cv_216
  rw [kc_main_v109 a]
  all_goals rfl
theorem kc_main_v111 (a : Ins) : kv_main_v111 a = cv_217 a := by
  unfold kv_main_v111 cv_217
  rw [kc_main_v108 a, kc_main_v110 a]
  all_goals rfl
theorem kc_main_v112 (a : Ins) : kv_main_v112 a = cv_218 a := rfl
theorem kc_main_v113 (a : Ins) : kv_main_v113 a = cv_219 a := by
  unfold kv_main_v113 cv_219
  rw [kc_main_v112 a]
  all_goals rfl
theorem kc_main_v114 (a : Ins) : kv_main_v114 a = cv_220 a := by
  unfold kv_main_v114 cv_220
  rw [kc_main_v113 a]
  all_goals rfl
theorem kc_main_v115 (a : Ins) : kv_main_v115 a = cv_221 a := by
  unfold kv_main_v115 cv_221
  rw [kc_main_v114 a]
  all_goals rfl
theorem kc_main_v116 (a : Ins) : kv_main_v116 a = cv_222 a := by
  unfold kv_main_v116 cv_222
  rw [kc_main_v111 a, kc_main_v115 a]
  all_goals rfl
theorem kc_main_v117 (a : Ins) : kv_main_v117 a = cv_223 a := by
  unfold kv_main_v117 cv_223
  rw [kc_main_v116 a]
  all_goals rfl
theorem kc_main_v118 (a : Ins) : kv_main_v118 a = cv_224 a := by
  unfold kv_main_v118 cv_224
  rw [kc_main_v117 a]
  all_goals rfl
theorem kc_main_v120 (a : Ins) : kv_main_v120 a = cv_225 a := by
  unfold kv_main_v120 cv_225
  rw [kc_main_v119 a, kc_main_v118 a]
  all_goals rfl
theorem kc_main_v122 (a : Ins) : kv_main_v122 a = cv_226 a := by
  unfold kv_main_v122 cv_226
  rw [kc_main_v121 a, kc_main_v120 a]
  all_goals rfl
theorem kc_main_v123 (a : Ins) : kv_main_v123 a = cv_227 a := by
  unfold kv_main_v123 cv_227
  rw [kc_main_v122 a, kc_main_v107 a]
  all_goals rfl
theorem kc_main_v124 (a : Ins) : kv_main_v124 a = cv_228 a := by
  unfold kv_main_v124 cv_228
  rw [kc_main_v18 a, kc_main_v123 a]
  all_goals rfl
theorem kc_main_v253 (a : Ins) : kv_main_v253 a = cv_229 a := by
  unfold kv_main_v253 cv_229
  rw [kc_main_v252 a, kc_main_v124 a]
  all_goals rfl
theorem kc_main_cst_37 (a : Ins) : kv_main_cst_37 a = cv_23 a := rfl
theorem kc_main_v254 (a : Ins) : kv_main_v254 a = cv_24 a := by
  unfold kv_main_v254 cv_24
  rw [kc_main_cst_37 a]
  all_goals rfl
theorem kc_main_cst_8 (a : Ins) : kv_main_cst_8 a = cv_16 a := rfl
theorem kc_main_v85 (a : Ins) : kv_main_v85 a = cv_17 a := by
  unfold kv_main_v85 cv_17
  rw [kc_main_cst_8 a]
  all_goals rfl
theorem kc_main_v86 (a : Ins) : kv_main_v86 a = cv_74 a := by
  unfold kv_main_v86 cv_74
  rw [kc_main_v85 a, kc_main_v2 a]
  all_goals rfl
theorem kc_main_cst_9 (a : Ins) : kv_main_cst_9 a = cv_23 a := rfl
theorem kc_main_v87 (a : Ins) : kv_main_v87 a = cv_24 a := by
  unfold kv_main_v87 cv_24
  rw [kc_main_cst_9 a]
  all_goals rfl
theorem kc_main_v88 (a : Ins) : kv_main_v88 a = cv_212 a := by
  unfold kv_main_v88 cv_212
  rw [kc_main_v87 a, kc_main_v22 a]
  all_goals rfl
theorem kc_main_v89 (a : Ins) : kv_main_v89 a = cv_213 a := by
  unfold kv_main_v89 cv_213
  rw [kc_main_v86 a, kc_main_v88 a]
  all_goals rfl
theorem kc_main_v152 (a : Ins) : kv_main_v152 a = cv_233 a := by
  unfold kv_main_v152 kv_main_v145
  rw [show kv_main_v13 a = wfull a.x3 from rfl, show kv_main_v7 a = bias4 a.x4 from rfl]
  refine (star ⟨2, by decide⟩ ![0, 100] rfl _ _ _ _ _).trans ?_
  unfold kv_main_v143
  rw [catSlice2, kc_main_v89 a]
  unfold refGcn cv_233 cv_232 cv_231 cv_230 cv_7 cv_6 cv_10 cv_9
  rfl
theorem kc_main_v255 (a : Ins) : kv_main_v255 a = cv_234 a := by
  unfold kv_main_v255 cv_234
  rw [kc_main_v254 a, kc_main_v152 a]
  all_goals rfl
theorem kc_main_v256 (a : Ins) : kv_main_v256 a = cv_235 a := by
  unfold kv_main_v256 cv_235
  rw [kc_main_v253 a, kc_main_v255 a]
  all_goals rfl
theorem kc_main_v257 (a : Ins) : kv_main_v257 a = cv_236 a := by
  unfold kv_main_v257 cv_236
  rw [kc_main_v251 a, kc_main_v256 a]
  all_goals rfl
theorem kc_main_v258 (a : Ins) : kv_main_v258 a = cv_237 a := rfl
theorem kc_main_v259 (a : Ins) : kv_main_v259 a = cv_238 a := by
  unfold kv_main_v259 cv_238
  rw [kc_main_v258 a]
  all_goals rfl
theorem kc_main_v260 (a : Ins) : kv_main_v260 a = cv_239 a := by
  unfold kv_main_v260 cv_239
  rw [kc_main_v257 a, kc_main_v259 a]
  all_goals rfl
theorem kc_main_v261 (a : Ins) : kv_main_v261 a = cv_240 a := rfl
theorem kc_main_v262 (a : Ins) : kv_main_v262 a = cv_241 a := by
  unfold kv_main_v262 cv_241
  rw [kc_main_v261 a]
  all_goals rfl
theorem kc_main_v263 (a : Ins) : kv_main_v263 a = cv_242 a := by
  unfold kv_main_v263 cv_242
  rw [kc_main_v262 a]
  all_goals rfl
theorem kc_main_v264 (a : Ins) : kv_main_v264 a = cv_243 a := by
  unfold kv_main_v264 cv_243
  rw [kc_main_v263 a]
  all_goals rfl
theorem kc_main_v265 (a : Ins) : kv_main_v265 a = cv_244 a := by
  unfold kv_main_v265 cv_244
  rw [kc_main_v260 a, kc_main_v264 a]
  all_goals rfl
theorem kc_main_v266 (a : Ins) : kv_main_v266 a = cv_245 a := by
  unfold kv_main_v266 cv_245
  rw [kc_main_v265 a]
  all_goals rfl
theorem kc_main_v267 (a : Ins) : kv_main_v267 a = cv_246 a := by
  unfold kv_main_v267 cv_246
  rw [kc_main_v266 a]
  all_goals rfl
theorem kc_main_v269 (a : Ins) : kv_main_v269 a = cv_247 a := by
  unfold kv_main_v269 cv_247
  rw [kc_main_v268 a, kc_main_v267 a]
  all_goals rfl
theorem kc_main_v271 (a : Ins) : kv_main_v271 a = cv_248 a := by
  unfold kv_main_v271 cv_248
  rw [kc_main_v270 a, kc_main_v269 a]
  all_goals rfl
theorem kc_main_v272 (a : Ins) : kv_main_v272 a = cv_249 a := by
  unfold kv_main_v272 cv_249
  rw [kc_main_v271 a, kc_main_v251 a]
  all_goals rfl
theorem kc_main_v273 (a : Ins) : kv_main_v273 a = cv_250 a := by
  unfold kv_main_v273 cv_250
  rw [kc_main_v272 a, kc_main_v256 a]
  all_goals rfl
theorem kc_main_cst_29 (a : Ins) : kv_main_cst_29 a = cv_46 a := rfl
theorem kc_main_v221 (a : Ins) : kv_main_v221 a = cv_47 a := by
  unfold kv_main_v221 cv_47
  rw [kc_main_cst_29 a]
  all_goals rfl
theorem kc_main_cst_28 (a : Ins) : kv_main_cst_28 a = cv_46 a := rfl
theorem kc_main_v219 (a : Ins) : kv_main_v219 a = cv_47 a := by
  unfold kv_main_v219 cv_47
  rw [kc_main_cst_28 a]
  all_goals rfl
theorem kc_main_cst_26 (a : Ins) : kv_main_cst_26 a = cv_16 a := rfl
theorem kc_main_v203 (a : Ins) : kv_main_v203 a = cv_17 a := by
  unfold kv_main_v203 cv_17
  rw [kc_main_cst_26 a]
  all_goals rfl
theorem kc_main_v23 (a : Ins) : kv_main_v23 a = cv_128 a := by
  unfold kv_main_v23 kv_main_v15
  rw [show kv_main_v13 a = wfull a.x3 from rfl, show kv_main_v7 a = bias4 a.x4 from rfl]
  refine (star ⟨3, by decide⟩ ![0, 150] rfl _ _ _ _ _).trans ?_
  unfold refGcn cv_128 cv_127 cv_126 cv_121 cv_7 cv_6 cv_10 cv_9 cv_3
  rfl
theorem kc_main_cst_7 (a : Ins) : kv_main_cst_7 a = cv_46 a := rfl
theorem kc_main_v79 (a : Ins) : kv_main_v79 a = cv_47 a := by
  unfold kv_main_v79 cv_47
  rw [kc_main_cst_7 a]
  all_goals rfl
theorem kc_main_cst_6 (a : Ins) : kv_main_cst_6 a = cv_46 a := rfl
theorem kc_main_v77 (a : Ins) : kv_main_v77 a = cv_47 a := by
  unfold kv_main_v77 cv_47
  rw [kc_main_cst_6 a]
  all_goals rfl
theorem kc_main_v66 (a : Ins) : kv_main_v66 a = cv_129 a := by
  unfold kv_main_v66 cv_129
  rw [kc_main_v65 a, kc_main_v23 a]
  all_goals rfl
theorem kc_main_v67 (a : Ins) : kv_main_v67 a = cv_130 a := rfl
theorem kc_main_v68 (a : Ins) : kv_main_v68 a = cv_131 a := by
  unfold kv_main_v68 cv_131
  rw [kc_main_v67 a]
  all_goals rfl
theorem kc_main_v69 (a : Ins) : kv_main_v69 a = cv_132 a := by
  unfold kv_main_v69 cv_132
  rw [kc_main_v66 a, kc_main_v68 a]
  all_goals rfl
theorem kc_main_v70 (a : Ins) : kv_main_v70 a = cv_133 a := rfl
theorem kc_main_v71 (a : Ins) : kv_main_v71 a = cv_134 a := by
  unfold kv_main_v71 cv_134
  rw [kc_main_v70 a]
  all_goals rfl
theorem kc_main_v72 (a : Ins) : kv_main_v72 a = cv_135 a := by
  unfold kv_main_v72 cv_135
  rw [kc_main_v71 a]
  all_goals rfl
theorem kc_main_v73 (a : Ins) : kv_main_v73 a = cv_136 a := by
  unfold kv_main_v73 cv_136
  rw [kc_main_v72 a]
  all_goals rfl
theorem kc_main_v74 (a : Ins) : kv_main_v74 a = cv_137 a := by
  unfold kv_main_v74 cv_137
  rw [kc_main_v69 a, kc_main_v73 a]
  all_goals rfl
theorem kc_main_v75 (a : Ins) : kv_main_v75 a = cv_138 a := by
  unfold kv_main_v75 cv_138
  rw [kc_main_v74 a]
  all_goals rfl
theorem kc_main_v76 (a : Ins) : kv_main_v76 a = cv_139 a := by
  unfold kv_main_v76 cv_139
  rw [kc_main_v75 a]
  all_goals rfl
theorem kc_main_v78 (a : Ins) : kv_main_v78 a = cv_140 a := by
  unfold kv_main_v78 cv_140
  rw [kc_main_v77 a, kc_main_v76 a]
  all_goals rfl
theorem kc_main_v80 (a : Ins) : kv_main_v80 a = cv_141 a := by
  unfold kv_main_v80 cv_141
  rw [kc_main_v79 a, kc_main_v78 a]
  all_goals rfl
theorem kc_main_v81 (a : Ins) : kv_main_v81 a = cv_142 a := by
  unfold kv_main_v81 cv_142
  rw [kc_main_v80 a, kc_main_v65 a]
  all_goals rfl
theorem kc_main_v82 (a : Ins) : kv_main_v82 a = cv_143 a := by
  unfold kv_main_v82 cv_143
  rw [kc_main_v23 a, kc_main_v81 a]
  all_goals rfl
theorem kc_main_v204 (a : Ins) : kv_main_v204 a = cv_144 a := by
  unfold kv_main_v204 cv_144
  rw [kc_main_v203 a, kc_main_v82 a]
  all_goals rfl
theorem kc_main_cst_27 (a : Ins) : kv_main_cst_27 a = cv_23 a := rfl
theorem kc_main_v205 (a : Ins) : kv_main_v205 a = cv_24 a := by
  unfold kv_main_v205 cv_24
  rw [kc_main_cst_27 a]
  all_goals rfl
theorem kc_main_v3 (a : Ins) : kv_main_v3 a = cv_3 a := rfl
theorem kc_main_v19 (a : Ins) : kv_main_v19 a = cv_124 a := by
  unfold kv_main_v19 kv_main_v14
  rw [show kv_main_v13 a = wfull a.x3 from rfl, show kv_main_v7 a = bias4 a.x4 from rfl]
  refine (star ⟨3, by decide⟩ ![0, 150] rfl _ _ _ _ _).trans ?_
  unfold refGcn cv_124 cv_123 cv_122 cv_121 cv_7 cv_6 cv_10 cv_9 cv_3
  rfl
theorem kc_main_v31 (a : Ins) : kv_main_v31 a = cv_125 a := by
  unfold kv_main_v31 cv_125
  rw [kc_main_v3 a, kc_main_v19 a]
  all_goals rfl
theorem kc_main_v149 (a : Ins) : kv_main_v149 a = cv_148 a := by
  unfold kv_main_v149 kv_main_v144
  rw [show kv_main_v13 a = wfull a.x3 from rfl, show kv_main_v7 a = bias4 a.x4 from rfl]
  refine (star ⟨3, by decide⟩ ![0, 150] rfl _ _ _ _ _).trans ?_
  unfold kv_main_v142
  rw [catSlice3, kc_main_v31 a]
  unfold refGcn cv_148 cv_147 cv_146 cv_145 cv_7 cv_6 cv_10 cv_9
  rfl
theorem kc_main_v206 (a : Ins) : kv_main_v206 a = cv_149 a := by
  unfold kv_main_v206 cv_149
  rw [kc_main_v205 a, kc_main_v149 a]
  all_goals rfl
theorem kc_main_v207 (a : Ins) : kv_main_v207 a = cv_150 a := by
  unfold kv_main_v207 cv_150
  rw [kc_main_v204 a, kc_main_v206 a]
  all_goals rfl
theorem kc_main_v208 (a : Ins) : kv_main_v208 a = cv_151 a := by
  unfold kv_main_v208 cv_151
  rw [kc_main_v202 a, kc_main_v207 a]
  all_goals rfl
theorem kc_main_v209 (a : Ins) : kv_main_v209 a = cv_152 a := rfl
theorem kc_main_v210 (a : Ins) : kv_main_v210 a = cv_153 a := by
  unfold kv_main_v210 cv_153
  rw [kc_main_v209 a]
  all_goals rfl
theorem kc_main_v211 (a : Ins) : kv_main_v211 a = cv_154 a := by
  unfold kv_main_v211 cv_154
  rw [kc_main_v208 a, kc_main_v210 a]
  all_goals rfl
theorem kc_main_v212 (a : Ins) : kv_main_v212 a = cv_155 a := rfl
theorem kc_main_v213 (a : Ins) : kv_main_v213 a = cv_156 a := by
  unfold kv_main_v213 cv_156
  rw [kc_main_v212 a]
  all_goals rfl
theorem kc_main_v214 (a : Ins) : kv_main_v214 a = cv_157 a := by
  unfold kv_main_v214 cv_157
  rw [kc_main_v213 a]
  all_goals rfl
theorem kc_main_v215 (a : Ins) : kv_main_v215 a = cv_158 a := by
  unfold kv_main_v215 cv_158
  rw [kc_main_v214 a]
  all_goals rfl
theorem kc_main_v216 (a : Ins) : kv_main_v216 a = cv_159 a := by
  unfold kv_main_v216 cv_159
  rw [kc_main_v211 a, kc_main_v215 a]
  all_goals rfl
theorem kc_main_v217 (a : Ins) : kv_main_v217 a = cv_160 a := by
  unfold kv_main_v217 cv_160
  rw [kc_main_v216 a]
  all_goals rfl
theorem kc_main_v218 (a : Ins) : kv_main_v218 a = cv_161 a := by
  unfold kv_main_v218 cv_161
  rw [kc_main_v217 a]
  all_goals rfl
theorem kc_main_v220 (a : Ins) : kv_main_v220 a = cv_162 a := by
  unfold kv_main_v220 cv_162
  rw [kc_main_v219 a, kc_main_v218 a]
  all_goals rfl
theorem kc_main_v222 (a : Ins) : kv_main_v222 a = cv_163 a := by
  unfold kv_main_v222 cv_163
  rw [kc_main_v221 a, kc_main_v220 a]
  all_goals rfl
theorem kc_main_v223 (a : Ins) : kv_main_v223 a = cv_164 a := by
  unfold kv_main_v223 cv_164
  rw [kc_main_v222 a, kc_main_v202 a]
  all_goals rfl
theorem kc_main_v224 (a : Ins) : kv_main_v224 a = cv_165 a := by
  unfold kv_main_v224 cv_165
  rw [kc_main_v223 a, kc_main_v207 a]
  all_goals rfl
theorem kc_main_cst_43 (a : Ins) : kv_main_cst_43 a = cv_46 a := rfl
theorem kc_main_v292 (a : Ins) : kv_main_v292 a = cv_47 a := by
  unfold kv_main_v292 cv_47
  rw [kc_main_cst_43 a]
  all_goals rfl
theorem kc_main_cst_42 (a : Ins) : kv_main_cst_42 a = cv_46 a := rfl
theorem kc_main_v290 (a : Ins) : kv_main_v290 a = cv_47 a := by
  unfold kv_main_v290 cv_47
  rw [kc_main_cst_42 a]
  all_goals rfl
theorem kc_main_cst_40 (a : Ins) : kv_main_cst_40 a = cv_16 a := rfl
theorem kc_main_v274 (a : Ins) : kv_main_v274 a = cv_17 a := by
  unfold kv_main_v274 cv_17
  rw [kc_main_cst_40 a]
  all_goals rfl
theorem kc_main_cst_15 (a : Ins) : kv_main_cst_15 a = cv_46 a := rfl
theorem kc_main_v138 (a : Ins) : kv_main_v138 a = cv_47 a := by
  unfold kv_main_v138 cv_47
  rw [kc_main_cst_15 a]
  all_goals rfl
theorem kc_main_cst_14 (a : Ins) : kv_main_cst_14 a = cv_46 a := rfl
theorem kc_main_v136 (a : Ins) : kv_main_v136 a = cv_47 a := by
  unfold kv_main_v136 cv_47
  rw [kc_main_cst_14 a]
  all_goals rfl
theorem kc_main_v125 (a : Ins) : kv_main_v125 a = cv_252 a := by
  unfold kv_main_v125 cv_252
  rw [kc_main_v124 a, kc_main_v19 a]
  all_goals rfl
theorem kc_main_v126 (a : Ins) : kv_main_v126 a = cv_253 a := rfl
theorem kc_main_v127 (a : Ins) : kv_main_v127 a = cv_254 a := by
  unfold kv_main_v127 cv_254
  rw [kc_main_v126 a]
  all_goals rfl
theorem kc_main_v128 (a : Ins) : kv_main_v128 a = cv_255 a := by
  unfold kv_main_v128 cv_255
  rw [kc_main_v125 a, kc_main_v127 a]
  all_goals rfl
theorem kc_main_v129 (a : Ins) : kv_main_v129 a = cv_256 a := rfl
theorem kc_main_v130 (a : Ins) : kv_main_v130 a = cv_257 a := by
  unfold kv_main_v130 cv_257
  rw [kc_main_v129 a]
  all_goals rfl
theorem kc_main_v131 (a : Ins) : kv_main_v131 a = cv_258 a := by
  unfold kv_main_v131 cv_258
  rw [kc_main_v130 a]
  all_goals rfl
theorem kc_main_v132 (a : Ins) : kv_main_v132 a = cv_259 a := by
  unfold kv_main_v132 cv_259
  rw [kc_main_v131 a]
  all_goals rfl
theorem kc_main_v133 (a : Ins) : kv_main_v133 a = cv_260 a := by
  unfold kv_main_v133 cv_260
  rw [kc_main_v128 a, kc_main_v132 a]
  all_goals rfl
theorem kc_main_v134 (a : Ins) : kv_main_v134 a = cv_261 a := by
  unfold kv_main_v134 cv_261
  rw [kc_main_v133 a]
  all_goals rfl
theorem kc_main_v135 (a : Ins) : kv_main_v135 a = cv_262 a := by
  unfold kv_main_v135 cv_262
  rw [kc_main_v134 a]
  all_goals rfl
theorem kc_main_v137 (a : Ins) : kv_main_v137 a = cv_263 a := by
  unfold kv_main_v137 cv_263
  rw [kc_main_v136 a, kc_main_v135 a]
  all_goals rfl
theorem kc_main_v139 (a : Ins) : kv_main_v139 a = cv_264 a := by
  unfold kv_main_v139 cv_264
  rw [kc_main_v138 a, kc_main_v137 a]
  all_goals rfl
theorem kc_main_v140 (a : Ins) : kv_main_v140 a = cv_265 a := by
  unfold kv_main_v140 cv_265
  rw [kc_main_v139 a, kc_main_v124 a]
  all_goals rfl
theorem kc_main_v141 (a : Ins) : kv_main_v141 a = cv_266 a := by
  unfold kv_main_v141 cv_266
  rw [kc_main_v19 a, kc_main_v140 a]
  all_goals rfl
theorem kc_main_v275 (a : Ins) : kv_main_v275 a = cv_267 a := by
  unfold kv_main_v275 cv_267
  rw [kc_main_v274 a, kc_main_v141 a]
  all_goals rfl
theorem kc_main_cst_41 (a : Ins) : kv_main_cst_41 a = cv_23 a := rfl
theorem kc_main_v276 (a : Ins) : kv_main_v276 a = cv_24 a := by
  unfold kv_main_v276 cv_24
  rw [kc_main_cst_41 a]
  all_goals rfl
theorem kc_main_v90 (a : Ins) : kv_main_v90 a = cv_251 a := by
  unfold kv_main_v90 cv_251
  rw [kc_main_v3 a, kc_main_v23 a]
  all_goals rfl
theorem kc_main_v153 (a : Ins) : kv_main_v153 a = cv_271 a := by
  unfold kv_main_v153 kv_main_v145
  rw [show kv_main_v13 a = wfull a.x3 from rfl, show kv_main_v7 a = bias4 a.x4 from rfl]
  refine (star ⟨3, by decide⟩ ![0, 150] rfl _ _ _ _ _).trans ?_
  unfold kv_main_v143
  rw [catSlice3, kc_main_v90 a]
  unfold refGcn cv_271 cv_270 cv_269 cv_268 cv_7 cv_6 cv_10 cv_9
  rfl
theorem kc_main_v277 (a : Ins) : kv_main_v277 a = cv_272 a := by
  unfold kv_main_v277 cv_272
  rw [kc_main_v276 a, kc_main_v153 a]
  all_goals rfl
theorem kc_main_v278 (a : Ins) : kv_main_v278 a = cv_273 a := by
  unfold kv_main_v278 cv_273
  rw [kc_main_v275 a, kc_main_v277 a]
  all_goals rfl
theorem kc_main_v279 (a : Ins) : kv_main_v279 a = cv_274 a := by
  unfold kv_main_v279 cv_274
  rw [kc_main_v273 a, kc_main_v278 a]
  all_goals rfl
theorem kc_main_v280 (a : Ins) : kv_main_v280 a = cv_275 a := rfl
theorem kc_main_v281 (a : Ins) : kv_main_v281 a = cv_276 a := by
  unfold kv_main_v281 cv_276
  rw [kc_main_v280 a]
  all_goals rfl
theorem kc_main_v282 (a : Ins) : kv_main_v282 a = cv_277 a := by
  unfold kv_main_v282 cv_277
  rw [kc_main_v279 a, kc_main_v281 a]
  all_goals rfl
theorem kc_main_v283 (a : Ins) : kv_main_v283 a = cv_278 a := rfl
theorem kc_main_v284 (a : Ins) : kv_main_v284 a = cv_279 a := by
  unfold kv_main_v284 cv_279
  rw [kc_main_v283 a]
  all_goals rfl
theorem kc_main_v285 (a : Ins) : kv_main_v285 a = cv_280 a := by
  unfold kv_main_v285 cv_280
  rw [kc_main_v284 a]
  all_goals rfl
theorem kc_main_v286 (a : Ins) : kv_main_v286 a = cv_281 a := by
  unfold kv_main_v286 cv_281
  rw [kc_main_v285 a]
  all_goals rfl
theorem kc_main_v287 (a : Ins) : kv_main_v287 a = cv_282 a := by
  unfold kv_main_v287 cv_282
  rw [kc_main_v282 a, kc_main_v286 a]
  all_goals rfl
theorem kc_main_v288 (a : Ins) : kv_main_v288 a = cv_283 a := by
  unfold kv_main_v288 cv_283
  rw [kc_main_v287 a]
  all_goals rfl
theorem kc_main_v289 (a : Ins) : kv_main_v289 a = cv_284 a := by
  unfold kv_main_v289 cv_284
  rw [kc_main_v288 a]
  all_goals rfl
theorem kc_main_v291 (a : Ins) : kv_main_v291 a = cv_285 a := by
  unfold kv_main_v291 cv_285
  rw [kc_main_v290 a, kc_main_v289 a]
  all_goals rfl
theorem kc_main_v293 (a : Ins) : kv_main_v293 a = cv_286 a := by
  unfold kv_main_v293 cv_286
  rw [kc_main_v292 a, kc_main_v291 a]
  all_goals rfl
theorem kc_main_v294 (a : Ins) : kv_main_v294 a = cv_287 a := by
  unfold kv_main_v294 cv_287
  rw [kc_main_v293 a, kc_main_v273 a]
  all_goals rfl
theorem kc_main_v295 (a : Ins) : kv_main_v295 a = cv_288 a := by
  unfold kv_main_v295 cv_288
  rw [kc_main_v294 a, kc_main_v278 a]
  all_goals rfl
theorem kc_main_v296 (a : Ins) : kv_main_v296 a = cv_289 a := by
  unfold kv_main_v296 cv_289
  rw [kc_main_v158 a, kc_main_v229 a, kc_main_v180 a, kc_main_v251 a, kc_main_v202 a, kc_main_v273 a, kc_main_v224 a, kc_main_v295 a]
  all_goals rfl
theorem kc_main_v297 (a : Ins) : kv_main_v297 a = cv_290 a := by
  unfold kv_main_v297 cv_290
  rw [kc_main_v296 a]
  all_goals rfl
theorem kc_main_v298 (a : Ins) : kv_main_v298 a = cv_291 a := rfl
theorem kc_main_v299 (a : Ins) : kv_main_v299 a = cv_292 a := by
  unfold kv_main_v299 cv_292
  rw [kc_main_v298 a]
  all_goals rfl
theorem kc_main_v300 (a : Ins) : kv_main_v300 a = cv_293 a := by
  unfold kv_main_v300 cv_293
  rw [kc_main_v297 a, kc_main_v299 a]
  all_goals rfl

end Cert.Bridge

end
-- ==== Proof.Ideal.RefRunDefs.lean ====
/-
  The reference program's run, read as values.  Its main function is printed as 8 windows of 60 statements; each window
  is cut into consecutive stretches of host operations (24 in all), and the buffer contents after each stretch are named
  (`U0` … `U24`).  A window is its stretches run in order, and the main function is the windows run in order, so it is
  the line of all the stretches' operations.  A stretch's results are its operations applied to the values it starts
  from; a buffer no operation of a stretch writes is carried through it.  So at every boundary each buffer a later
  stretch reads holds its node of the common form of the nine argument arrays, and the run ends with the result buffer
  at the last node and the arguments as launched.
-/
import proofs.«174668_j26645977104432_2_alg».proof.Proof.Ideal.Canon
import Idealize.ShloMosaic.Lib.StableHlo.Run

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A property of every element of two lists holds of every element of their concatenation. -/
theorem Forall.append' {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-! ## The stretches -/

section
variable {F : FTy → Type} [FloatOps F]

/-- Operations 0 … 24 of the reference program, in order. -/
abbrev ch0 : List (HloOp τ sig (Elt F)) :=
  [ unary main_arg0 main_v0 ((extractStridedSlice S8192x50 ![0, 0] · slices_S8192x200_S8192x50_0_0) : (⟨S8192x200, .f32⟩ : BufTy).Contents (Elt F) → (⟨S8192x50, .f32⟩ : BufTy).Contents (Elt F)),
    unary main_arg0 main_v1 ((extractStridedSlice S8192x50 ![0, 50] · slices_S8192x200_S8192x50_0_50) : (⟨S8192x200, .f32⟩ : BufTy).Contents (Elt F) → (⟨S8192x50, .f32⟩ : BufTy).Contents (Elt F)),
    unary main_arg0 main_v2 ((extractStridedSlice S8192x50 ![0, 100] · slices_S8192x200_S8192x50_0_100) : (⟨S8192x200, .f32⟩ : BufTy).Contents (Elt F) → (⟨S8192x50, .f32⟩ : BufTy).Contents (Elt F)),
    unary main_arg0 main_v3 ((extractStridedSlice S8192x50 ![0, 150] · slices_S8192x200_S8192x50_0_150) : (⟨S8192x200, .f32⟩ : BufTy).Contents (Elt F) → (⟨S8192x50, .f32⟩ : BufTy).Contents (Elt F)),
    binary main_v0 main_arg3 main_v4 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v4 main_v5 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v6 (broadcastInDim S1x50 ![1] bcast_S50_S1x50_1 : (⟨S50, .f32⟩ : BufTy).Contents (Elt F) → (⟨S1x50, .f32⟩ : BufTy).Contents (Elt F)),
    unary main_v6 main_v7 (broadcastInDim S8192x50 ![0, 1] bcast_S1x50_S8192x50_0_1 : (⟨S1x50, .f32⟩ : BufTy).Contents (Elt F) → (⟨S8192x50, .f32⟩ : BufTy).Contents (Elt F)),
    binary main_v5 main_v7 main_v8 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x50, .f32⟩) main_call0_v0) (broadcastInDim S8192x50 ![] bcast_S_S8192x50),
    TRef.binary (TRef.of (T := ⟨S8192x50, .f32⟩) main_v8) (TRef.of (T := ⟨S8192x50, .f32⟩) main_call0_v0) (TRef.of (T := ⟨S8192x50, .f32⟩) main_v9) maximumf,
    binary main_v0 main_v9 main_v10 (addf : (⟨S8192x50, .f32⟩ : BufTy).Contents (Elt F) → (⟨S8192x50, .f32⟩ : BufTy).Contents (Elt F) → (⟨S8192x50, .f32⟩ : BufTy).Contents (Elt F)),
    binary main_v0 main_arg3 main_v11 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v11 main_v12 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v13 (broadcastInDim S1x50 ![1] bcast_S50_S1x50_1 : (⟨S50, .f32⟩ : BufTy).Contents (Elt F) → (⟨S1x50, .f32⟩ : BufTy).Contents (Elt F)),
    unary main_v13 main_v14 (broadcastInDim S8192x50 ![0, 1] bcast_S1x50_S8192x50_0_1 : (⟨S1x50, .f32⟩ : BufTy).Contents (Elt F) → (⟨S8192x50, .f32⟩ : BufTy).Contents (Elt F)),
    binary main_v12 main_v14 main_v15 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x50, .f32⟩) main_call1_v0) (broadcastInDim S8192x50 ![] bcast_S_S8192x50),
    TRef.binary (TRef.of (T := ⟨S8192x50, .f32⟩) main_v15) (TRef.of (T := ⟨S8192x50, .f32⟩) main_call1_v0) (TRef.of (T := ⟨S8192x50, .f32⟩) main_v16) maximumf,
    nullary main_cst (constant S_ .f32 0x3E4CCCCD#32),
    unary main_cst main_v17 (broadcastInDim S8192x50 ![] bcast_S_S8192x50 : (⟨S_, .f32⟩ : BufTy).Contents (Elt F) → (⟨S8192x50, .f32⟩ : BufTy).Contents (Elt F)),
    binary main_v17 main_v16 main_v18 (mulf : (⟨S8192x50, .f32⟩ : BufTy).Contents (Elt F) → (⟨S8192x50, .f32⟩ : BufTy).Contents (Elt F) → (⟨S8192x50, .f32⟩ : BufTy).Contents (Elt F)),
    binary main_v10 main_arg3 main_v19 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)) ]
theorem ch0_sub : (ch0 : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub ..⟩
theorem ch0_fresh : (ch0 : List (HloOp τ sig (Elt F))).Forall fun op => op.fresh = ∅ := by
  simp only [List.Forall]; repeat' constructor
/-- The buffers they write: one result each. -/
abbrev wr0 : List (Ref sig .tc) := [main_v0, main_v1, main_v2, main_v3, main_v4, main_v5, main_v6, main_v7, main_v8, main_call0_cst, main_call0_v0, main_v9, main_v10, main_v11, main_v12, main_v13, main_v14, main_v15, main_call1_cst, main_call1_v0, main_v16, main_cst, main_v17, main_v18, main_v19]
set_option maxHeartbeats 40000000 in
theorem ch0_writes : (ch0 : List (HloOp τ sig (Elt F))).Forall fun op => op.writes ⊆ (wr0.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 25 … 49 of the reference program, in order. -/
abbrev ch1 : List (HloOp τ sig (Elt F)) :=
  [ binary main_arg2 main_v19 main_v20 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v21 (broadcastInDim S1x50 ![1] bcast_S50_S1x50_1 : (⟨S50, .f32⟩ : BufTy).Contents (Elt F) → (⟨S1x50, .f32⟩ : BufTy).Contents (Elt F)),
    unary main_v21 main_v22 (broadcastInDim S8192x50 ![0, 1] bcast_S1x50_S8192x50_0_1 : (⟨S1x50, .f32⟩ : BufTy).Contents (Elt F) → (⟨S8192x50, .f32⟩ : BufTy).Contents (Elt F)),
    binary main_v20 main_v22 main_v23 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x50, .f32⟩) main_call2_v0) (broadcastInDim S8192x50 ![] bcast_S_S8192x50),
    TRef.binary (TRef.of (T := ⟨S8192x50, .f32⟩) main_v23) (TRef.of (T := ⟨S8192x50, .f32⟩) main_call2_v0) (TRef.of (T := ⟨S8192x50, .f32⟩) main_v24) maximumf,
    nullary main_cst_0 (constant S_ .f32 0x3F4CCCCD#32),
    unary main_cst_0 main_v25 (broadcastInDim S8192x50 ![] bcast_S_S8192x50 : (⟨S_, .f32⟩ : BufTy).Contents (Elt F) → (⟨S8192x50, .f32⟩ : BufTy).Contents (Elt F)),
    binary main_v25 main_v24 main_v26 (mulf : (⟨S8192x50, .f32⟩ : BufTy).Contents (Elt F) → (⟨S8192x50, .f32⟩ : BufTy).Contents (Elt F) → (⟨S8192x50, .f32⟩ : BufTy).Contents (Elt F)),
    binary main_v18 main_v26 main_v27 (addf : (⟨S8192x50, .f32⟩ : BufTy).Contents (Elt F) → (⟨S8192x50, .f32⟩ : BufTy).Contents (Elt F) → (⟨S8192x50, .f32⟩ : BufTy).Contents (Elt F)),
    binary main_v1 main_arg3 main_v28 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v28 main_v29 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v30 (broadcastInDim S1x50 ![1] bcast_S50_S1x50_1 : (⟨S50, .f32⟩ : BufTy).Contents (Elt F) → (⟨S1x50, .f32⟩ : BufTy).Contents (Elt F)),
    unary main_v30 main_v31 (broadcastInDim S8192x50 ![0, 1] bcast_S1x50_S8192x50_0_1 : (⟨S1x50, .f32⟩ : BufTy).Contents (Elt F) → (⟨S8192x50, .f32⟩ : BufTy).Contents (Elt F)),
    binary main_v29 main_v31 main_v32 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x50, .f32⟩) main_call3_v0) (broadcastInDim S8192x50 ![] bcast_S_S8192x50),
    TRef.binary (TRef.of (T := ⟨S8192x50, .f32⟩) main_v32) (TRef.of (T := ⟨S8192x50, .f32⟩) main_call3_v0) (TRef.of (T := ⟨S8192x50, .f32⟩) main_v33) maximumf,
    binary main_v1 main_v33 main_v34 (addf : (⟨S8192x50, .f32⟩ : BufTy).Contents (Elt F) → (⟨S8192x50, .f32⟩ : BufTy).Contents (Elt F) → (⟨S8192x50, .f32⟩ : BufTy).Contents (Elt F)),
    binary main_v1 main_arg3 main_v35 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v35 main_v36 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v37 (broadcastInDim S1x50 ![1] bcast_S50_S1x50_1 : (⟨S50, .f32⟩ : BufTy).Contents (Elt F) → (⟨S1x50, .f32⟩ : BufTy).Contents (Elt F)),
    unary main_v37 main_v38 (broadcastInDim S8192x50 ![0, 1] bcast_S1x50_S8192x50_0_1 : (⟨S1x50, .f32⟩ : BufTy).Contents (Elt F) → (⟨S8192x50, .f32⟩ : BufTy).Contents (Elt F)),
    binary main_v36 main_v38 main_v39 (addf : (⟨S8192x50, .f32⟩ : BufTy).Contents (Elt F) → (⟨S8192x50, .f32⟩ : BufTy).Contents (Elt F) → (⟨S8192x50, .f32⟩ : BufTy).Contents (Elt F)) ]
theorem ch1_sub : (ch1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub ..⟩
theorem ch1_fresh : (ch1 : List (HloOp τ sig (Elt F))).Forall fun op => op.fresh = ∅ := by
  simp only [List.Forall]; repeat' constructor
/-- The buffers they write: one result each. -/
abbrev wr1 : List (Ref sig .tc) := [main_v20, main_v21, main_v22, main_v23, main_call2_cst, main_call2_v0, main_v24, main_cst_0, main_v25, main_v26, main_v27, main_v28, main_v29, main_v30, main_v31, main_v32, main_call3_cst, main_call3_v0, main_v33, main_v34, main_v35, main_v36, main_v37, main_v38, main_v39]
set_option maxHeartbeats 40000000 in
theorem ch1_writes : (ch1 : List (HloOp τ sig (Elt F))).Forall fun op => op.writes ⊆ (wr1.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 50 … 69 of the reference program, in order. -/
abbrev ch2 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S8192x50, .f32⟩) main_call4_v0) (broadcastInDim S8192x50 ![] bcast_S_S8192x50),
    TRef.binary (TRef.of (T := ⟨S8192x50, .f32⟩) main_v39) (TRef.of (T := ⟨S8192x50, .f32⟩) main_call4_v0) (TRef.of (T := ⟨S8192x50, .f32⟩) main_v40) maximumf,
    binary main_v16 main_v40 main_v41 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v42 ((extractStridedSlice S1x100x50 ![0, 0, 0] · slices_S12x100x50_S1x100x50_0_0_0) : (⟨S12x100x50, .f32⟩ : BufTy).Contents (Elt F) → (⟨S1x100x50, .f32⟩ : BufTy).Contents (Elt F)),
    reshape main_v42 main_v43 rfl shapeCasts_S1x100x50_S100x50,
    binary main_v41 main_v43 main_v44 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v45 ((extractStridedSlice S1x50 ![0, 0] · slices_S12x50_S1x50_0_0) : (⟨S12x50, .f32⟩ : BufTy).Contents (Elt F) → (⟨S1x50, .f32⟩ : BufTy).Contents (Elt F)),
    reshape main_v45 main_v46 rfl shapeCasts_S1x50_S50,
    unary main_v46 main_v47 (broadcastInDim S1x50 ![1] bcast_S50_S1x50_1 : (⟨S50, .f32⟩ : BufTy).Contents (Elt F) → (⟨S1x50, .f32⟩ : BufTy).Contents (Elt F)),
    unary main_v47 main_v48 (broadcastInDim S8192x50 ![0, 1] bcast_S1x50_S8192x50_0_1 : (⟨S1x50, .f32⟩ : BufTy).Contents (Elt F) → (⟨S8192x50, .f32⟩ : BufTy).Contents (Elt F)),
    binary main_v44 main_v48 main_v49 (addf : (⟨S8192x50, .f32⟩ : BufTy).Contents (Elt F) → (⟨S8192x50, .f32⟩ : BufTy).Contents (Elt F) → (⟨S8192x50, .f32⟩ : BufTy).Contents (Elt F)),
    unary main_v49 main_v50 (Host.negf : (⟨S8192x50, .f32⟩ : BufTy).Contents (Elt F) → (⟨S8192x50, .f32⟩ : BufTy).Contents (Elt F)),
    unary main_v50 main_v51 (Host.exp : (⟨S8192x50, .f32⟩ : BufTy).Contents (Elt F) → (⟨S8192x50, .f32⟩ : BufTy).Contents (Elt F)),
    nullary main_cst_1 (constant S_ .f32 0x3F800000#32),
    unary main_cst_1 main_v52 (broadcastInDim S8192x50 ![] bcast_S_S8192x50 : (⟨S_, .f32⟩ : BufTy).Contents (Elt F) → (⟨S8192x50, .f32⟩ : BufTy).Contents (Elt F)),
    binary main_v52 main_v51 main_v53 (addf : (⟨S8192x50, .f32⟩ : BufTy).Contents (Elt F) → (⟨S8192x50, .f32⟩ : BufTy).Contents (Elt F) → (⟨S8192x50, .f32⟩ : BufTy).Contents (Elt F)),
    nullary main_cst_2 (constant S_ .f32 0x3F800000#32),
    unary main_cst_2 main_v54 (broadcastInDim S8192x50 ![] bcast_S_S8192x50 : (⟨S_, .f32⟩ : BufTy).Contents (Elt F) → (⟨S8192x50, .f32⟩ : BufTy).Contents (Elt F)),
    binary main_v54 main_v53 main_v55 (Host.divf : (⟨S8192x50, .f32⟩ : BufTy).Contents (Elt F) → (⟨S8192x50, .f32⟩ : BufTy).Contents (Elt F) → (⟨S8192x50, .f32⟩ : BufTy).Contents (Elt F)) ]
theorem ch2_sub : (ch2 : List (HloOp τ sig (Elt F))).Forall fun op => op.bufs ⊆ tcRefs τ sig :=
  ⟨nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ch2_fresh : (ch2 : List (HloOp τ sig (Elt F))).Forall fun op => op.fresh = ∅ := by
  simp only [List.Forall]; repeat' constructor
/-- The buffers they write: one result each. -/
abbrev wr2 : List (Ref sig .tc) := [main_call4_cst, main_call4_v0, main_v40, main_v41, main_v42, main_v43, main_v44, main_v45, main_v46, main_v47, main_v48, main_v49, main_v50, main_v51, main_cst_1, main_v52, main_v53, main_cst_2, main_v54, main_v55]
set_option maxHeartbeats 40000000 in
theorem ch2_writes : (ch2 : List (HloOp τ sig (Elt F))).Forall fun op => op.writes ⊆ (wr2.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 70 … 94 of the reference program, in order. -/
abbrev ch3 : List (HloOp τ sig (Elt F)) :=
  [ binary main_v55 main_v16 main_v56 (mulf : (⟨S8192x50, .f32⟩ : BufTy).Contents (Elt F) → (⟨S8192x50, .f32⟩ : BufTy).Contents (Elt F) → (⟨S8192x50, .f32⟩ : BufTy).Contents (Elt F)),
    binary main_v40 main_v56 main_v57 (addf : (⟨S8192x50, .f32⟩ : BufTy).Contents (Elt F) → (⟨S8192x50, .f32⟩ : BufTy).Contents (Elt F) → (⟨S8192x50, .f32⟩ : BufTy).Contents (Elt F)),
    nullary main_cst_3 (constant S_ .f32 0x3E4CCCCD#32),
    unary main_cst_3 main_v58 (broadcastInDim S8192x50 ![] bcast_S_S8192x50 : (⟨S_, .f32⟩ : BufTy).Contents (Elt F) → (⟨S8192x50, .f32⟩ : BufTy).Contents (Elt F)),
    binary main_v58 main_v57 main_v59 (mulf : (⟨S8192x50, .f32⟩ : BufTy).Contents (Elt F) → (⟨S8192x50, .f32⟩ : BufTy).Contents (Elt F) → (⟨S8192x50, .f32⟩ : BufTy).Contents (Elt F)),
    binary main_v34 main_arg3 main_v60 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v60 main_v61 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v62 (broadcastInDim S1x50 ![1] bcast_S50_S1x50_1 : (⟨S50, .f32⟩ : BufTy).Contents (Elt F) → (⟨S1x50, .f32⟩ : BufTy).Contents (Elt F)),
    unary main_v62 main_v63 (broadcastInDim S8192x50 ![0, 1] bcast_S1x50_S8192x50_0_1 : (⟨S1x50, .f32⟩ : BufTy).Contents (Elt F) → (⟨S8192x50, .f32⟩ : BufTy).Contents (Elt F)),
    binary main_v61 main_v63 main_v64 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x50, .f32⟩) main_call5_v0) (broadcastInDim S8192x50 ![] bcast_S_S8192x50),
    TRef.binary (TRef.of (T := ⟨S8192x50, .f32⟩) main_v64) (TRef.of (T := ⟨S8192x50, .f32⟩) main_call5_v0) (TRef.of (T := ⟨S8192x50, .f32⟩) main_v65) maximumf,
    nullary main_cst_4 (constant S_ .f32 0x3F4CCCCD#32),
    unary main_cst_4 main_v66 (broadcastInDim S8192x50 ![] bcast_S_S8192x50 : (⟨S_, .f32⟩ : BufTy).Contents (Elt F) → (⟨S8192x50, .f32⟩ : BufTy).Contents (Elt F)),
    binary main_v66 main_v65 main_v67 (mulf : (⟨S8192x50, .f32⟩ : BufTy).Contents (Elt F) → (⟨S8192x50, .f32⟩ : BufTy).Contents (Elt F) → (⟨S8192x50, .f32⟩ : BufTy).Contents (Elt F)),
    binary main_v59 main_v67 main_v68 (addf : (⟨S8192x50, .f32⟩ : BufTy).Contents (Elt F) → (⟨S8192x50, .f32⟩ : BufTy).Contents (Elt F) → (⟨S8192x50, .f32⟩ : BufTy).Contents (Elt F)),
    binary main_v27 main_v68 main_v69 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v70 ((extractStridedSlice S1x100x50 ![3, 0, 0] · slices_S12x100x50_S1x100x50_3_0_0) : (⟨S12x100x50, .f32⟩ : BufTy).Contents (Elt F) → (⟨S1x100x50, .f32⟩ : BufTy).Contents (Elt F)),
    reshape main_v70 main_v71 rfl shapeCasts_S1x100x50_S100x50,
    binary main_v69 main_v71 main_v72 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v73 ((extractStridedSlice S1x50 ![3, 0] · slices_S12x50_S1x50_3_0) : (⟨S12x50, .f32⟩ : BufTy).Contents (Elt F) → (⟨S1x50, .f32⟩ : BufTy).Contents (Elt F)),
    reshape main_v73 main_v74 rfl shapeCasts_S1x50_S50,
    unary main_v74 main_v75 (broadcastInDim S1x50 ![1] bcast_S50_S1x50_1 : (⟨S50, .f32⟩ : BufTy).Contents (Elt F) → (⟨S1x50, .f32⟩ : BufTy).Contents (Elt F)),
    unary main_v75 main_v76 (broadcastInDim S8192x50 ![0, 1] bcast_S1x50_S8192x50_0_1 : (⟨S1x50, .f32⟩ : BufTy).Contents (Elt F) → (⟨S8192x50, .f32⟩ : BufTy).Contents (Elt F)) ]
theorem ch3_sub : (ch3 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub ..⟩
theorem ch3_fresh : (ch3 : List (HloOp τ sig (Elt F))).Forall fun op => op.fresh = ∅ := by
  simp only [List.Forall]; repeat' constructor
/-- The buffers they write: one result each. -/
abbrev wr3 : List (Ref sig .tc) := [main_v56, main_v57, main_cst_3, main_v58, main_v59, main_v60, main_v61, main_v62, main_v63, main_v64, main_call5_cst, main_call5_v0, main_v65, main_cst_4, main_v66, main_v67, main_v68, main_v69, main_v70, main_v71, main_v72, main_v73, main_v74, main_v75, main_v76]
set_option maxHeartbeats 40000000 in
theorem ch3_writes : (ch3 : List (HloOp τ sig (Elt F))).Forall fun op => op.writes ⊆ (wr3.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 95 … 119 of the reference program, in order. -/
abbrev ch4 : List (HloOp τ sig (Elt F)) :=
  [ binary main_v72 main_v76 main_v77 (addf : (⟨S8192x50, .f32⟩ : BufTy).Contents (Elt F) → (⟨S8192x50, .f32⟩ : BufTy).Contents (Elt F) → (⟨S8192x50, .f32⟩ : BufTy).Contents (Elt F)),
    unary main_v77 main_v78 (Host.negf : (⟨S8192x50, .f32⟩ : BufTy).Contents (Elt F) → (⟨S8192x50, .f32⟩ : BufTy).Contents (Elt F)),
    unary main_v78 main_v79 (Host.exp : (⟨S8192x50, .f32⟩ : BufTy).Contents (Elt F) → (⟨S8192x50, .f32⟩ : BufTy).Contents (Elt F)),
    nullary main_cst_5 (constant S_ .f32 0x3F800000#32),
    unary main_cst_5 main_v80 (broadcastInDim S8192x50 ![] bcast_S_S8192x50 : (⟨S_, .f32⟩ : BufTy).Contents (Elt F) → (⟨S8192x50, .f32⟩ : BufTy).Contents (Elt F)),
    binary main_v80 main_v79 main_v81 (addf : (⟨S8192x50, .f32⟩ : BufTy).Contents (Elt F) → (⟨S8192x50, .f32⟩ : BufTy).Contents (Elt F) → (⟨S8192x50, .f32⟩ : BufTy).Contents (Elt F)),
    nullary main_cst_6 (constant S_ .f32 0x3F800000#32),
    unary main_cst_6 main_v82 (broadcastInDim S8192x50 ![] bcast_S_S8192x50 : (⟨S_, .f32⟩ : BufTy).Contents (Elt F) → (⟨S8192x50, .f32⟩ : BufTy).Contents (Elt F)),
    binary main_v82 main_v81 main_v83 (Host.divf : (⟨S8192x50, .f32⟩ : BufTy).Contents (Elt F) → (⟨S8192x50, .f32⟩ : BufTy).Contents (Elt F) → (⟨S8192x50, .f32⟩ : BufTy).Contents (Elt F)),
    binary main_v83 main_v27 main_v84 (mulf : (⟨S8192x50, .f32⟩ : BufTy).Contents (Elt F) → (⟨S8192x50, .f32⟩ : BufTy).Contents (Elt F) → (⟨S8192x50, .f32⟩ : BufTy).Contents (Elt F)),
    binary main_v84 main_v68 main_v85 (addf : (⟨S8192x50, .f32⟩ : BufTy).Contents (Elt F) → (⟨S8192x50, .f32⟩ : BufTy).Contents (Elt F) → (⟨S8192x50, .f32⟩ : BufTy).Contents (Elt F)),
    nullary main_cst_7 (constant S_ .f32 0x3E4CCCCD#32),
    unary main_cst_7 main_v86 (broadcastInDim S8192x50 ![] bcast_S_S8192x50 : (⟨S_, .f32⟩ : BufTy).Contents (Elt F) → (⟨S8192x50, .f32⟩ : BufTy).Contents (Elt F)),
    binary main_v86 main_v2 main_v87 (mulf : (⟨S8192x50, .f32⟩ : BufTy).Contents (Elt F) → (⟨S8192x50, .f32⟩ : BufTy).Contents (Elt F) → (⟨S8192x50, .f32⟩ : BufTy).Contents (Elt F)),
    binary main_v2 main_arg3 main_v88 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v88 main_v89 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v90 (broadcastInDim S1x50 ![1] bcast_S50_S1x50_1 : (⟨S50, .f32⟩ : BufTy).Contents (Elt F) → (⟨S1x50, .f32⟩ : BufTy).Contents (Elt F)),
    unary main_v90 main_v91 (broadcastInDim S8192x50 ![0, 1] bcast_S1x50_S8192x50_0_1 : (⟨S1x50, .f32⟩ : BufTy).Contents (Elt F) → (⟨S8192x50, .f32⟩ : BufTy).Contents (Elt F)),
    binary main_v89 main_v91 main_v92 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x50, .f32⟩) main_call6_v0) (broadcastInDim S8192x50 ![] bcast_S_S8192x50),
    TRef.binary (TRef.of (T := ⟨S8192x50, .f32⟩) main_v92) (TRef.of (T := ⟨S8192x50, .f32⟩) main_call6_v0) (TRef.of (T := ⟨S8192x50, .f32⟩) main_v93) maximumf,
    nullary main_cst_8 (constant S_ .f32 0x3F4CCCCD#32),
    unary main_cst_8 main_v94 (broadcastInDim S8192x50 ![] bcast_S_S8192x50 : (⟨S_, .f32⟩ : BufTy).Contents (Elt F) → (⟨S8192x50, .f32⟩ : BufTy).Contents (Elt F)),
    binary main_v94 main_v93 main_v95 (mulf : (⟨S8192x50, .f32⟩ : BufTy).Contents (Elt F) → (⟨S8192x50, .f32⟩ : BufTy).Contents (Elt F) → (⟨S8192x50, .f32⟩ : BufTy).Contents (Elt F)) ]
theorem ch4_sub : (ch4 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem ch4_fresh : (ch4 : List (HloOp τ sig (Elt F))).Forall fun op => op.fresh = ∅ := by
  simp only [List.Forall]; repeat' constructor
/-- The buffers they write: one result each. -/
abbrev wr4 : List (Ref sig .tc) := [main_v77, main_v78, main_v79, main_cst_5, main_v80, main_v81, main_cst_6, main_v82, main_v83, main_v84, main_v85, main_cst_7, main_v86, main_v87, main_v88, main_v89, main_v90, main_v91, main_v92, main_call6_cst, main_call6_v0, main_v93, main_cst_8, main_v94, main_v95]
set_option maxHeartbeats 40000000 in
theorem ch4_writes : (ch4 : List (HloOp τ sig (Elt F))).Forall fun op => op.writes ⊆ (wr4.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 120 … 135 of the reference program, in order. -/
abbrev ch5 : List (HloOp τ sig (Elt F)) :=
  [ binary main_v87 main_v95 main_v96 (addf : (⟨S8192x50, .f32⟩ : BufTy).Contents (Elt F) → (⟨S8192x50, .f32⟩ : BufTy).Contents (Elt F) → (⟨S8192x50, .f32⟩ : BufTy).Contents (Elt F)),
    binary main_v2 main_arg3 main_v97 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v97 main_v98 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v99 (broadcastInDim S1x50 ![1] bcast_S50_S1x50_1 : (⟨S50, .f32⟩ : BufTy).Contents (Elt F) → (⟨S1x50, .f32⟩ : BufTy).Contents (Elt F)),
    unary main_v99 main_v100 (broadcastInDim S8192x50 ![0, 1] bcast_S1x50_S8192x50_0_1 : (⟨S1x50, .f32⟩ : BufTy).Contents (Elt F) → (⟨S8192x50, .f32⟩ : BufTy).Contents (Elt F)),
    binary main_v98 main_v100 main_v101 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x50, .f32⟩) main_call7_v0) (broadcastInDim S8192x50 ![] bcast_S_S8192x50),
    TRef.binary (TRef.of (T := ⟨S8192x50, .f32⟩) main_v101) (TRef.of (T := ⟨S8192x50, .f32⟩) main_call7_v0) (TRef.of (T := ⟨S8192x50, .f32⟩) main_v102) maximumf,
    binary main_v57 main_v102 main_v103 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v104 ((extractStridedSlice S1x100x50 ![1, 0, 0] · slices_S12x100x50_S1x100x50_1_0_0) : (⟨S12x100x50, .f32⟩ : BufTy).Contents (Elt F) → (⟨S1x100x50, .f32⟩ : BufTy).Contents (Elt F)),
    reshape main_v104 main_v105 rfl shapeCasts_S1x100x50_S100x50,
    binary main_v103 main_v105 main_v106 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v107 ((extractStridedSlice S1x50 ![1, 0] · slices_S12x50_S1x50_1_0) : (⟨S12x50, .f32⟩ : BufTy).Contents (Elt F) → (⟨S1x50, .f32⟩ : BufTy).Contents (Elt F)),
    reshape main_v107 main_v108 rfl shapeCasts_S1x50_S50,
    unary main_v108 main_v109 (broadcastInDim S1x50 ![1] bcast_S50_S1x50_1 : (⟨S50, .f32⟩ : BufTy).Contents (Elt F) → (⟨S1x50, .f32⟩ : BufTy).Contents (Elt F)) ]
theorem ch5_sub : (ch5 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub ..⟩
theorem ch5_fresh : (ch5 : List (HloOp τ sig (Elt F))).Forall fun op => op.fresh = ∅ := by
  simp only [List.Forall]; repeat' constructor
/-- The buffers they write: one result each. -/
abbrev wr5 : List (Ref sig .tc) := [main_v96, main_v97, main_v98, main_v99, main_v100, main_v101, main_call7_cst, main_call7_v0, main_v102, main_v103, main_v104, main_v105, main_v106, main_v107, main_v108, main_v109]
set_option maxHeartbeats 40000000 in
theorem ch5_writes : (ch5 : List (HloOp τ sig (Elt F))).Forall fun op => op.writes ⊆ (wr5.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 136 … 160 of the reference program, in order. -/
abbrev ch6 : List (HloOp τ sig (Elt F)) :=
  [ unary main_v109 main_v110 (broadcastInDim S8192x50 ![0, 1] bcast_S1x50_S8192x50_0_1 : (⟨S1x50, .f32⟩ : BufTy).Contents (Elt F) → (⟨S8192x50, .f32⟩ : BufTy).Contents (Elt F)),
    binary main_v106 main_v110 main_v111 (addf : (⟨S8192x50, .f32⟩ : BufTy).Contents (Elt F) → (⟨S8192x50, .f32⟩ : BufTy).Contents (Elt F) → (⟨S8192x50, .f32⟩ : BufTy).Contents (Elt F)),
    unary main_v111 main_v112 (Host.negf : (⟨S8192x50, .f32⟩ : BufTy).Contents (Elt F) → (⟨S8192x50, .f32⟩ : BufTy).Contents (Elt F)),
    unary main_v112 main_v113 (Host.exp : (⟨S8192x50, .f32⟩ : BufTy).Contents (Elt F) → (⟨S8192x50, .f32⟩ : BufTy).Contents (Elt F)),
    nullary main_cst_9 (constant S_ .f32 0x3F800000#32),
    unary main_cst_9 main_v114 (broadcastInDim S8192x50 ![] bcast_S_S8192x50 : (⟨S_, .f32⟩ : BufTy).Contents (Elt F) → (⟨S8192x50, .f32⟩ : BufTy).Contents (Elt F)),
    binary main_v114 main_v113 main_v115 (addf : (⟨S8192x50, .f32⟩ : BufTy).Contents (Elt F) → (⟨S8192x50, .f32⟩ : BufTy).Contents (Elt F) → (⟨S8192x50, .f32⟩ : BufTy).Contents (Elt F)),
    nullary main_cst_10 (constant S_ .f32 0x3F800000#32),
    unary main_cst_10 main_v116 (broadcastInDim S8192x50 ![] bcast_S_S8192x50 : (⟨S_, .f32⟩ : BufTy).Contents (Elt F) → (⟨S8192x50, .f32⟩ : BufTy).Contents (Elt F)),
    binary main_v116 main_v115 main_v117 (Host.divf : (⟨S8192x50, .f32⟩ : BufTy).Contents (Elt F) → (⟨S8192x50, .f32⟩ : BufTy).Contents (Elt F) → (⟨S8192x50, .f32⟩ : BufTy).Contents (Elt F)),
    binary main_v117 main_v57 main_v118 (mulf : (⟨S8192x50, .f32⟩ : BufTy).Contents (Elt F) → (⟨S8192x50, .f32⟩ : BufTy).Contents (Elt F) → (⟨S8192x50, .f32⟩ : BufTy).Contents (Elt F)),
    binary main_v102 main_v118 main_v119 (addf : (⟨S8192x50, .f32⟩ : BufTy).Contents (Elt F) → (⟨S8192x50, .f32⟩ : BufTy).Contents (Elt F) → (⟨S8192x50, .f32⟩ : BufTy).Contents (Elt F)),
    nullary main_cst_11 (constant S_ .f32 0x3E4CCCCD#32),
    unary main_cst_11 main_v120 (broadcastInDim S8192x50 ![] bcast_S_S8192x50 : (⟨S_, .f32⟩ : BufTy).Contents (Elt F) → (⟨S8192x50, .f32⟩ : BufTy).Contents (Elt F)),
    binary main_v120 main_v119 main_v121 (mulf : (⟨S8192x50, .f32⟩ : BufTy).Contents (Elt F) → (⟨S8192x50, .f32⟩ : BufTy).Contents (Elt F) → (⟨S8192x50, .f32⟩ : BufTy).Contents (Elt F)),
    binary main_v96 main_arg3 main_v122 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v122 main_v123 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v124 (broadcastInDim S1x50 ![1] bcast_S50_S1x50_1 : (⟨S50, .f32⟩ : BufTy).Contents (Elt F) → (⟨S1x50, .f32⟩ : BufTy).Contents (Elt F)),
    unary main_v124 main_v125 (broadcastInDim S8192x50 ![0, 1] bcast_S1x50_S8192x50_0_1 : (⟨S1x50, .f32⟩ : BufTy).Contents (Elt F) → (⟨S8192x50, .f32⟩ : BufTy).Contents (Elt F)),
    binary main_v123 main_v125 main_v126 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8192x50, .f32⟩) main_call8_v0) (broadcastInDim S8192x50 ![] bcast_S_S8192x50),
    TRef.binary (TRef.of (T := ⟨S8192x50, .f32⟩) main_v126) (TRef.of (T := ⟨S8192x50, .f32⟩) main_call8_v0) (TRef.of (T := ⟨S8192x50, .f32⟩) main_v127) maximumf,
    nullary main_cst_12 (constant S_ .f32 0x3F4CCCCD#32),
    unary main_cst_12 main_v128 (broadcastInDim S8192x50 ![] bcast_S_S8192x50 : (⟨S_, .f32⟩ : BufTy).Contents (Elt F) → (⟨S8192x50, .f32⟩ : BufTy).Contents (Elt F)) ]
theorem ch6_sub : (ch6 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub ..⟩
theorem ch6_fresh : (ch6 : List (HloOp τ sig (Elt F))).Forall fun op => op.fresh = ∅ := by
  simp only [List.Forall]; repeat' constructor
/-- The buffers they write: one result each. -/
abbrev wr6 : List (Ref sig .tc) := [main_v110, main_v111, main_v112, main_v113, main_cst_9, main_v114, main_v115, main_cst_10, main_v116, main_v117, main_v118, main_v119, main_cst_11, main_v120, main_v121, main_v122, main_v123, main_v124, main_v125, main_v126, main_call8_cst, main_call8_v0, main_v127, main_cst_12, main_v128]
set_option maxHeartbeats 40000000 in
theorem ch6_writes : (ch6 : List (HloOp τ sig (Elt F))).Forall fun op => op.writes ⊆ (wr6.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 161 … 185 of the reference program, in order. -/
abbrev ch7 : List (HloOp τ sig (Elt F)) :=
  [ binary main_v128 main_v127 main_v129 (mulf : (⟨S8192x50, .f32⟩ : BufTy).Contents (Elt F) → (⟨S8192x50, .f32⟩ : BufTy).Contents (Elt F) → (⟨S8192x50, .f32⟩ : BufTy).Contents (Elt F)),
    binary main_v121 main_v129 main_v130 (addf : (⟨S8192x50, .f32⟩ : BufTy).Contents (Elt F) → (⟨S8192x50, .f32⟩ : BufTy).Contents (Elt F) → (⟨S8192x50, .f32⟩ : BufTy).Contents (Elt F)),
    binary main_v85 main_v130 main_v131 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v132 ((extractStridedSlice S1x100x50 ![4, 0, 0] · slices_S12x100x50_S1x100x50_4_0_0) : (⟨S12x100x50, .f32⟩ : BufTy).Contents (Elt F) → (⟨S1x100x50, .f32⟩ : BufTy).Contents (Elt F)),
    reshape main_v132 main_v133 rfl shapeCasts_S1x100x50_S100x50,
    binary main_v131 main_v133 main_v134 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v135 ((extractStridedSlice S1x50 ![4, 0] · slices_S12x50_S1x50_4_0) : (⟨S12x50, .f32⟩ : BufTy).Contents (Elt F) → (⟨S1x50, .f32⟩ : BufTy).Contents (Elt F)),
    reshape main_v135 main_v136 rfl shapeCasts_S1x50_S50,
    unary main_v136 main_v137 (broadcastInDim S1x50 ![1] bcast_S50_S1x50_1 : (⟨S50, .f32⟩ : BufTy).Contents (Elt F) → (⟨S1x50, .f32⟩ : BufTy).Contents (Elt F)),
    unary main_v137 main_v138 (broadcastInDim S8192x50 ![0, 1] bcast_S1x50_S8192x50_0_1 : (⟨S1x50, .f32⟩ : BufTy).Contents (Elt F) → (⟨S8192x50, .f32⟩ : BufTy).Contents (Elt F)),
    binary main_v134 main_v138 main_v139 (addf : (⟨S8192x50, .f32⟩ : BufTy).Contents (Elt F) → (⟨S8192x50, .f32⟩ : BufTy).Contents (Elt F) → (⟨S8192x50, .f32⟩ : BufTy).Contents (Elt F)),
    unary main_v139 main_v140 (Host.negf : (⟨S8192x50, .f32⟩ : BufTy).Contents (Elt F) → (⟨S8192x50, .f32⟩ : BufTy).Contents (Elt F)),
    unary main_v140 main_v141 (Host.exp : (⟨S8192x50, .f32⟩ : BufTy).Contents (Elt F) → (⟨S8192x50, .f32⟩ : BufTy).Contents (Elt F)),
    nullary main_cst_13 (constant S_ .f32 0x3F800000#32),
    unary main_cst_13 main_v142 (broadcastInDim S8192x50 ![] bcast_S_S8192x50 : (⟨S_, .f32⟩ : BufTy).Contents (Elt F) → (⟨S8192x50, .f32⟩ : BufTy).Contents (Elt F)),
    binary main_v142 main_v141 main_v143 (addf : (⟨S8192x50, .f32⟩ : BufTy).Contents (Elt F) → (⟨S8192x50, .f32⟩ : BufTy).Contents (Elt F) → (⟨S8192x50, .f32⟩ : BufTy).Contents (Elt F)),
    nullary main_cst_14 (constant S_ .f32 0x3F800000#32),
    unary main_cst_14 main_v144 (broadcastInDim S8192x50 ![] bcast_S_S8192x50 : (⟨S_, .f32⟩ : BufTy).Contents (Elt F) → (⟨S8192x50, .f32⟩ : BufTy).Contents (Elt F)),
    binary main_v144 main_v143 main_v145 (Host.divf : (⟨S8192x50, .f32⟩ : BufTy).Contents (Elt F) → (⟨S8192x50, .f32⟩ : BufTy).Contents (Elt F) → (⟨S8192x50, .f32⟩ : BufTy).Contents (Elt F)),
    binary main_v145 main_v85 main_v146 (mulf : (⟨S8192x50, .f32⟩ : BufTy).Contents (Elt F) → (⟨S8192x50, .f32⟩ : BufTy).Contents (Elt F) → (⟨S8192x50, .f32⟩ : BufTy).Contents (Elt F)),
    binary main_v146 main_v130 main_v147 (addf : (⟨S8192x50, .f32⟩ : BufTy).Contents (Elt F) → (⟨S8192x50, .f32⟩ : BufTy).Contents (Elt F) → (⟨S8192x50, .f32⟩ : BufTy).Contents (Elt F)),
    binary main_v3 main_arg3 main_v148 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v148 main_v149 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v150 (broadcastInDim S1x50 ![1] bcast_S50_S1x50_1 : (⟨S50, .f32⟩ : BufTy).Contents (Elt F) → (⟨S1x50, .f32⟩ : BufTy).Contents (Elt F)),
    unary main_v150 main_v151 (broadcastInDim S8192x50 ![0, 1] bcast_S1x50_S8192x50_0_1 : (⟨S1x50, .f32⟩ : BufTy).Contents (Elt F) → (⟨S8192x50, .f32⟩ : BufTy).Contents (Elt F)) ]
theorem ch7_sub : (ch7 : List (HloOp τ sig (Elt F))).Forall fun op => op.bufs ⊆ tcRefs τ sig :=
  ⟨binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub ..⟩
theorem ch7_fresh : (ch7 : List (HloOp τ sig (Elt F))).Forall fun op => op.fresh = ∅ := by
  simp only [List.Forall]; repeat' constructor
/-- The buffers they write: one result each. -/
abbrev wr7 : List (Ref sig .tc) := [main_v129, main_v130, main_v131, main_v132, main_v133, main_v134, main_v135, main_v136, main_v137, main_v138, main_v139, main_v140, main_v141, main_cst_13, main_v142, main_v143, main_cst_14, main_v144, main_v145, main_v146, main_v147, main_v148, main_v149, main_v150, main_v151]
set_option maxHeartbeats 40000000 in
theorem ch7_writes : (ch7 : List (HloOp τ sig (Elt F))).Forall fun op => op.writes ⊆ (wr7.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 186 … 201 of the reference program, in order. -/
abbrev ch8 : List (HloOp τ sig (Elt F)) :=
  [ binary main_v149 main_v151 main_v152 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8192x50, .f32⟩) main_call9_v0) (broadcastInDim S8192x50 ![] bcast_S_S8192x50),
    TRef.binary (TRef.of (T := ⟨S8192x50, .f32⟩) main_v152) (TRef.of (T := ⟨S8192x50, .f32⟩) main_call9_v0) (TRef.of (T := ⟨S8192x50, .f32⟩) main_v153) maximumf,
    binary main_v3 main_v153 main_v154 (addf : (⟨S8192x50, .f32⟩ : BufTy).Contents (Elt F) → (⟨S8192x50, .f32⟩ : BufTy).Contents (Elt F) → (⟨S8192x50, .f32⟩ : BufTy).Contents (Elt F)),
    binary main_v3 main_arg3 main_v155 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v155 main_v156 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v157 (broadcastInDim S1x50 ![1] bcast_S50_S1x50_1 : (⟨S50, .f32⟩ : BufTy).Contents (Elt F) → (⟨S1x50, .f32⟩ : BufTy).Contents (Elt F)),
    unary main_v157 main_v158 (broadcastInDim S8192x50 ![0, 1] bcast_S1x50_S8192x50_0_1 : (⟨S1x50, .f32⟩ : BufTy).Contents (Elt F) → (⟨S8192x50, .f32⟩ : BufTy).Contents (Elt F)),
    binary main_v156 main_v158 main_v159 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S8192x50, .f32⟩) main_call10_v0) (broadcastInDim S8192x50 ![] bcast_S_S8192x50),
    TRef.binary (TRef.of (T := ⟨S8192x50, .f32⟩) main_v159) (TRef.of (T := ⟨S8192x50, .f32⟩) main_call10_v0) (TRef.of (T := ⟨S8192x50, .f32⟩) main_v160) maximumf,
    binary main_v119 main_v160 main_v161 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v162 ((extractStridedSlice S1x100x50 ![2, 0, 0] · slices_S12x100x50_S1x100x50_2_0_0) : (⟨S12x100x50, .f32⟩ : BufTy).Contents (Elt F) → (⟨S1x100x50, .f32⟩ : BufTy).Contents (Elt F)),
    reshape main_v162 main_v163 rfl shapeCasts_S1x100x50_S100x50 ]
theorem ch8_sub : (ch8 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub ..⟩
theorem ch8_fresh : (ch8 : List (HloOp τ sig (Elt F))).Forall fun op => op.fresh = ∅ := by
  simp only [List.Forall]; repeat' constructor
/-- The buffers they write: one result each. -/
abbrev wr8 : List (Ref sig .tc) := [main_v152, main_call9_cst, main_call9_v0, main_v153, main_v154, main_v155, main_v156, main_v157, main_v158, main_v159, main_call10_cst, main_call10_v0, main_v160, main_v161, main_v162, main_v163]
set_option maxHeartbeats 40000000 in
theorem ch8_writes : (ch8 : List (HloOp τ sig (Elt F))).Forall fun op => op.writes ⊆ (wr8.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 202 … 228 of the reference program, in order. -/
abbrev ch9 : List (HloOp τ sig (Elt F)) :=
  [ binary main_v161 main_v163 main_v164 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v165 ((extractStridedSlice S1x50 ![2, 0] · slices_S12x50_S1x50_2_0) : (⟨S12x50, .f32⟩ : BufTy).Contents (Elt F) → (⟨S1x50, .f32⟩ : BufTy).Contents (Elt F)),
    reshape main_v165 main_v166 rfl shapeCasts_S1x50_S50,
    unary main_v166 main_v167 (broadcastInDim S1x50 ![1] bcast_S50_S1x50_1 : (⟨S50, .f32⟩ : BufTy).Contents (Elt F) → (⟨S1x50, .f32⟩ : BufTy).Contents (Elt F)),
    unary main_v167 main_v168 (broadcastInDim S8192x50 ![0, 1] bcast_S1x50_S8192x50_0_1 : (⟨S1x50, .f32⟩ : BufTy).Contents (Elt F) → (⟨S8192x50, .f32⟩ : BufTy).Contents (Elt F)),
    binary main_v164 main_v168 main_v169 (addf : (⟨S8192x50, .f32⟩ : BufTy).Contents (Elt F) → (⟨S8192x50, .f32⟩ : BufTy).Contents (Elt F) → (⟨S8192x50, .f32⟩ : BufTy).Contents (Elt F)),
    unary main_v169 main_v170 (Host.negf : (⟨S8192x50, .f32⟩ : BufTy).Contents (Elt F) → (⟨S8192x50, .f32⟩ : BufTy).Contents (Elt F)),
    unary main_v170 main_v171 (Host.exp : (⟨S8192x50, .f32⟩ : BufTy).Contents (Elt F) → (⟨S8192x50, .f32⟩ : BufTy).Contents (Elt F)),
    nullary main_cst_15 (constant S_ .f32 0x3F800000#32),
    unary main_cst_15 main_v172 (broadcastInDim S8192x50 ![] bcast_S_S8192x50 : (⟨S_, .f32⟩ : BufTy).Contents (Elt F) → (⟨S8192x50, .f32⟩ : BufTy).Contents (Elt F)),
    binary main_v172 main_v171 main_v173 (addf : (⟨S8192x50, .f32⟩ : BufTy).Contents (Elt F) → (⟨S8192x50, .f32⟩ : BufTy).Contents (Elt F) → (⟨S8192x50, .f32⟩ : BufTy).Contents (Elt F)),
    nullary main_cst_16 (constant S_ .f32 0x3F800000#32),
    unary main_cst_16 main_v174 (broadcastInDim S8192x50 ![] bcast_S_S8192x50 : (⟨S_, .f32⟩ : BufTy).Contents (Elt F) → (⟨S8192x50, .f32⟩ : BufTy).Contents (Elt F)),
    binary main_v174 main_v173 main_v175 (Host.divf : (⟨S8192x50, .f32⟩ : BufTy).Contents (Elt F) → (⟨S8192x50, .f32⟩ : BufTy).Contents (Elt F) → (⟨S8192x50, .f32⟩ : BufTy).Contents (Elt F)),
    binary main_v175 main_v119 main_v176 (mulf : (⟨S8192x50, .f32⟩ : BufTy).Contents (Elt F) → (⟨S8192x50, .f32⟩ : BufTy).Contents (Elt F) → (⟨S8192x50, .f32⟩ : BufTy).Contents (Elt F)),
    binary main_v160 main_v176 main_v177 (addf : (⟨S8192x50, .f32⟩ : BufTy).Contents (Elt F) → (⟨S8192x50, .f32⟩ : BufTy).Contents (Elt F) → (⟨S8192x50, .f32⟩ : BufTy).Contents (Elt F)),
    nullary main_cst_17 (constant S_ .f32 0x3E4CCCCD#32),
    unary main_cst_17 main_v178 (broadcastInDim S8192x50 ![] bcast_S_S8192x50 : (⟨S_, .f32⟩ : BufTy).Contents (Elt F) → (⟨S8192x50, .f32⟩ : BufTy).Contents (Elt F)),
    binary main_v178 main_v177 main_v179 (mulf : (⟨S8192x50, .f32⟩ : BufTy).Contents (Elt F) → (⟨S8192x50, .f32⟩ : BufTy).Contents (Elt F) → (⟨S8192x50, .f32⟩ : BufTy).Contents (Elt F)),
    binary main_v154 main_arg3 main_v180 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v180 main_v181 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v182 (broadcastInDim S1x50 ![1] bcast_S50_S1x50_1 : (⟨S50, .f32⟩ : BufTy).Contents (Elt F) → (⟨S1x50, .f32⟩ : BufTy).Contents (Elt F)),
    unary main_v182 main_v183 (broadcastInDim S8192x50 ![0, 1] bcast_S1x50_S8192x50_0_1 : (⟨S1x50, .f32⟩ : BufTy).Contents (Elt F) → (⟨S8192x50, .f32⟩ : BufTy).Contents (Elt F)),
    binary main_v181 main_v183 main_v184 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S8192x50, .f32⟩) main_call11_v0) (broadcastInDim S8192x50 ![] bcast_S_S8192x50),
    TRef.binary (TRef.of (T := ⟨S8192x50, .f32⟩) main_v184) (TRef.of (T := ⟨S8192x50, .f32⟩) main_call11_v0) (TRef.of (T := ⟨S8192x50, .f32⟩) main_v185) maximumf ]
theorem ch9_sub : (ch9 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem ch9_fresh : (ch9 : List (HloOp τ sig (Elt F))).Forall fun op => op.fresh = ∅ := by
  simp only [List.Forall]; repeat' constructor
/-- The buffers they write: one result each. -/
abbrev wr9 : List (Ref sig .tc) := [main_v164, main_v165, main_v166, main_v167, main_v168, main_v169, main_v170, main_v171, main_cst_15, main_v172, main_v173, main_cst_16, main_v174, main_v175, main_v176, main_v177, main_cst_17, main_v178, main_v179, main_v180, main_v181, main_v182, main_v183, main_v184, main_call11_cst, main_call11_v0, main_v185]
set_option maxHeartbeats 40000000 in
theorem ch9_writes : (ch9 : List (HloOp τ sig (Elt F))).Forall fun op => op.writes ⊆ (wr9.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 229 … 253 of the reference program, in order. -/
abbrev ch10 : List (HloOp τ sig (Elt F)) :=
  [ nullary main_cst_18 (constant S_ .f32 0x3F4CCCCD#32),
    unary main_cst_18 main_v186 (broadcastInDim S8192x50 ![] bcast_S_S8192x50 : (⟨S_, .f32⟩ : BufTy).Contents (Elt F) → (⟨S8192x50, .f32⟩ : BufTy).Contents (Elt F)),
    binary main_v186 main_v185 main_v187 (mulf : (⟨S8192x50, .f32⟩ : BufTy).Contents (Elt F) → (⟨S8192x50, .f32⟩ : BufTy).Contents (Elt F) → (⟨S8192x50, .f32⟩ : BufTy).Contents (Elt F)),
    binary main_v179 main_v187 main_v188 (addf : (⟨S8192x50, .f32⟩ : BufTy).Contents (Elt F) → (⟨S8192x50, .f32⟩ : BufTy).Contents (Elt F) → (⟨S8192x50, .f32⟩ : BufTy).Contents (Elt F)),
    binary main_v147 main_v188 main_v189 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v190 ((extractStridedSlice S1x100x50 ![5, 0, 0] · slices_S12x100x50_S1x100x50_5_0_0) : (⟨S12x100x50, .f32⟩ : BufTy).Contents (Elt F) → (⟨S1x100x50, .f32⟩ : BufTy).Contents (Elt F)),
    reshape main_v190 main_v191 rfl shapeCasts_S1x100x50_S100x50,
    binary main_v189 main_v191 main_v192 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v193 ((extractStridedSlice S1x50 ![5, 0] · slices_S12x50_S1x50_5_0) : (⟨S12x50, .f32⟩ : BufTy).Contents (Elt F) → (⟨S1x50, .f32⟩ : BufTy).Contents (Elt F)),
    reshape main_v193 main_v194 rfl shapeCasts_S1x50_S50,
    unary main_v194 main_v195 (broadcastInDim S1x50 ![1] bcast_S50_S1x50_1 : (⟨S50, .f32⟩ : BufTy).Contents (Elt F) → (⟨S1x50, .f32⟩ : BufTy).Contents (Elt F)),
    unary main_v195 main_v196 (broadcastInDim S8192x50 ![0, 1] bcast_S1x50_S8192x50_0_1 : (⟨S1x50, .f32⟩ : BufTy).Contents (Elt F) → (⟨S8192x50, .f32⟩ : BufTy).Contents (Elt F)),
    binary main_v192 main_v196 main_v197 (addf : (⟨S8192x50, .f32⟩ : BufTy).Contents (Elt F) → (⟨S8192x50, .f32⟩ : BufTy).Contents (Elt F) → (⟨S8192x50, .f32⟩ : BufTy).Contents (Elt F)),
    unary main_v197 main_v198 (Host.negf : (⟨S8192x50, .f32⟩ : BufTy).Contents (Elt F) → (⟨S8192x50, .f32⟩ : BufTy).Contents (Elt F)),
    unary main_v198 main_v199 (Host.exp : (⟨S8192x50, .f32⟩ : BufTy).Contents (Elt F) → (⟨S8192x50, .f32⟩ : BufTy).Contents (Elt F)),
    nullary main_cst_19 (constant S_ .f32 0x3F800000#32),
    unary main_cst_19 main_v200 (broadcastInDim S8192x50 ![] bcast_S_S8192x50 : (⟨S_, .f32⟩ : BufTy).Contents (Elt F) → (⟨S8192x50, .f32⟩ : BufTy).Contents (Elt F)),
    binary main_v200 main_v199 main_v201 (addf : (⟨S8192x50, .f32⟩ : BufTy).Contents (Elt F) → (⟨S8192x50, .f32⟩ : BufTy).Contents (Elt F) → (⟨S8192x50, .f32⟩ : BufTy).Contents (Elt F)),
    nullary main_cst_20 (constant S_ .f32 0x3F800000#32),
    unary main_cst_20 main_v202 (broadcastInDim S8192x50 ![] bcast_S_S8192x50 : (⟨S_, .f32⟩ : BufTy).Contents (Elt F) → (⟨S8192x50, .f32⟩ : BufTy).Contents (Elt F)),
    binary main_v202 main_v201 main_v203 (Host.divf : (⟨S8192x50, .f32⟩ : BufTy).Contents (Elt F) → (⟨S8192x50, .f32⟩ : BufTy).Contents (Elt F) → (⟨S8192x50, .f32⟩ : BufTy).Contents (Elt F)),
    binary main_v203 main_v147 main_v204 (mulf : (⟨S8192x50, .f32⟩ : BufTy).Contents (Elt F) → (⟨S8192x50, .f32⟩ : BufTy).Contents (Elt F) → (⟨S8192x50, .f32⟩ : BufTy).Contents (Elt F)),
    binary main_v204 main_v188 main_v205 (addf : (⟨S8192x50, .f32⟩ : BufTy).Contents (Elt F) → (⟨S8192x50, .f32⟩ : BufTy).Contents (Elt F) → (⟨S8192x50, .f32⟩ : BufTy).Contents (Elt F)),
    binary main_v0 main_arg3 main_v206 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v206 main_v207 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)) ]
theorem ch10_sub : (ch10 : List (HloOp τ sig (Elt F))).Forall fun op => op.bufs ⊆ tcRefs τ sig :=
  ⟨nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩
theorem ch10_fresh : (ch10 : List (HloOp τ sig (Elt F))).Forall fun op => op.fresh = ∅ := by
  simp only [List.Forall]; repeat' constructor
/-- The buffers they write: one result each. -/
abbrev wr10 : List (Ref sig .tc) := [main_cst_18, main_v186, main_v187, main_v188, main_v189, main_v190, main_v191, main_v192, main_v193, main_v194, main_v195, main_v196, main_v197, main_v198, main_v199, main_cst_19, main_v200, main_v201, main_cst_20, main_v202, main_v203, main_v204, main_v205, main_v206, main_v207]
set_option maxHeartbeats 40000000 in
theorem ch10_writes : (ch10 : List (HloOp τ sig (Elt F))).Forall fun op => op.writes ⊆ (wr10.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 254 … 265 of the reference program, in order. -/
abbrev ch11 : List (HloOp τ sig (Elt F)) :=
  [ unary main_arg4 main_v208 (broadcastInDim S1x50 ![1] bcast_S50_S1x50_1 : (⟨S50, .f32⟩ : BufTy).Contents (Elt F) → (⟨S1x50, .f32⟩ : BufTy).Contents (Elt F)),
    unary main_v208 main_v209 (broadcastInDim S8192x50 ![0, 1] bcast_S1x50_S8192x50_0_1 : (⟨S1x50, .f32⟩ : BufTy).Contents (Elt F) → (⟨S8192x50, .f32⟩ : BufTy).Contents (Elt F)),
    binary main_v207 main_v209 main_v210 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8192x50, .f32⟩) main_call12_v0) (broadcastInDim S8192x50 ![] bcast_S_S8192x50),
    TRef.binary (TRef.of (T := ⟨S8192x50, .f32⟩) main_v210) (TRef.of (T := ⟨S8192x50, .f32⟩) main_call12_v0) (TRef.of (T := ⟨S8192x50, .f32⟩) main_v211) maximumf,
    binary main_v0 main_v211 main_v212 (addf : (⟨S8192x50, .f32⟩ : BufTy).Contents (Elt F) → (⟨S8192x50, .f32⟩ : BufTy).Contents (Elt F) → (⟨S8192x50, .f32⟩ : BufTy).Contents (Elt F)),
    binary main_v0 main_arg3 main_v213 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v213 main_v214 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v215 (broadcastInDim S1x50 ![1] bcast_S50_S1x50_1 : (⟨S50, .f32⟩ : BufTy).Contents (Elt F) → (⟨S1x50, .f32⟩ : BufTy).Contents (Elt F)),
    unary main_v215 main_v216 (broadcastInDim S8192x50 ![0, 1] bcast_S1x50_S8192x50_0_1 : (⟨S1x50, .f32⟩ : BufTy).Contents (Elt F) → (⟨S8192x50, .f32⟩ : BufTy).Contents (Elt F)),
    binary main_v214 main_v216 main_v217 (addf : (⟨S8192x50, .f32⟩ : BufTy).Contents (Elt F) → (⟨S8192x50, .f32⟩ : BufTy).Contents (Elt F) → (⟨S8192x50, .f32⟩ : BufTy).Contents (Elt F)) ]
theorem ch11_sub : (ch11 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub ..⟩
theorem ch11_fresh : (ch11 : List (HloOp τ sig (Elt F))).Forall fun op => op.fresh = ∅ := by
  simp only [List.Forall]; repeat' constructor
/-- The buffers they write: one result each. -/
abbrev wr11 : List (Ref sig .tc) := [main_v208, main_v209, main_v210, main_call12_cst, main_call12_v0, main_v211, main_v212, main_v213, main_v214, main_v215, main_v216, main_v217]
set_option maxHeartbeats 40000000 in
theorem ch11_writes : (ch11 : List (HloOp τ sig (Elt F))).Forall fun op => op.writes ⊆ (wr11.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 266 … 291 of the reference program, in order. -/
abbrev ch12 : List (HloOp τ sig (Elt F)) :=
  [ TRef.nullary (TRef.of (T := ⟨S_, .f32⟩) main_call13_cst) (constant S_ .f32 0x00000000#32),
    TRef.unary (TRef.of (T := ⟨S_, .f32⟩) main_call13_cst) (TRef.of (T := ⟨S8192x50, .f32⟩) main_call13_v0) (broadcastInDim S8192x50 ![] bcast_S_S8192x50),
    TRef.binary (TRef.of (T := ⟨S8192x50, .f32⟩) main_v217) (TRef.of (T := ⟨S8192x50, .f32⟩) main_call13_v0) (TRef.of (T := ⟨S8192x50, .f32⟩) main_v218) maximumf,
    nullary main_cst_21 (constant S_ .f32 0x3E4CCCCD#32),
    unary main_cst_21 main_v219 (broadcastInDim S8192x50 ![] bcast_S_S8192x50 : (⟨S_, .f32⟩ : BufTy).Contents (Elt F) → (⟨S8192x50, .f32⟩ : BufTy).Contents (Elt F)),
    binary main_v219 main_v218 main_v220 (mulf : (⟨S8192x50, .f32⟩ : BufTy).Contents (Elt F) → (⟨S8192x50, .f32⟩ : BufTy).Contents (Elt F) → (⟨S8192x50, .f32⟩ : BufTy).Contents (Elt F)),
    binary main_v212 main_arg3 main_v221 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v221 main_v222 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v223 (broadcastInDim S1x50 ![1] bcast_S50_S1x50_1 : (⟨S50, .f32⟩ : BufTy).Contents (Elt F) → (⟨S1x50, .f32⟩ : BufTy).Contents (Elt F)),
    unary main_v223 main_v224 (broadcastInDim S8192x50 ![0, 1] bcast_S1x50_S8192x50_0_1 : (⟨S1x50, .f32⟩ : BufTy).Contents (Elt F) → (⟨S8192x50, .f32⟩ : BufTy).Contents (Elt F)),
    binary main_v222 main_v224 main_v225 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S8192x50, .f32⟩) main_call14_v0) (broadcastInDim S8192x50 ![] bcast_S_S8192x50),
    TRef.binary (TRef.of (T := ⟨S8192x50, .f32⟩) main_v225) (TRef.of (T := ⟨S8192x50, .f32⟩) main_call14_v0) (TRef.of (T := ⟨S8192x50, .f32⟩) main_v226) maximumf,
    nullary main_cst_22 (constant S_ .f32 0x3F4CCCCD#32),
    unary main_cst_22 main_v227 (broadcastInDim S8192x50 ![] bcast_S_S8192x50 : (⟨S_, .f32⟩ : BufTy).Contents (Elt F) → (⟨S8192x50, .f32⟩ : BufTy).Contents (Elt F)),
    binary main_v227 main_v226 main_v228 (mulf : (⟨S8192x50, .f32⟩ : BufTy).Contents (Elt F) → (⟨S8192x50, .f32⟩ : BufTy).Contents (Elt F) → (⟨S8192x50, .f32⟩ : BufTy).Contents (Elt F)),
    binary main_v220 main_v228 main_v229 (addf : (⟨S8192x50, .f32⟩ : BufTy).Contents (Elt F) → (⟨S8192x50, .f32⟩ : BufTy).Contents (Elt F) → (⟨S8192x50, .f32⟩ : BufTy).Contents (Elt F)),
    binary main_v1 main_arg3 main_v230 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v230 main_v231 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v232 (broadcastInDim S1x50 ![1] bcast_S50_S1x50_1 : (⟨S50, .f32⟩ : BufTy).Contents (Elt F) → (⟨S1x50, .f32⟩ : BufTy).Contents (Elt F)),
    unary main_v232 main_v233 (broadcastInDim S8192x50 ![0, 1] bcast_S1x50_S8192x50_0_1 : (⟨S1x50, .f32⟩ : BufTy).Contents (Elt F) → (⟨S8192x50, .f32⟩ : BufTy).Contents (Elt F)),
    binary main_v231 main_v233 main_v234 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S8192x50, .f32⟩) main_call15_v0) (broadcastInDim S8192x50 ![] bcast_S_S8192x50),
    TRef.binary (TRef.of (T := ⟨S8192x50, .f32⟩) main_v234) (TRef.of (T := ⟨S8192x50, .f32⟩) main_call15_v0) (TRef.of (T := ⟨S8192x50, .f32⟩) main_v235) maximumf ]
theorem ch12_sub : (ch12 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
theorem ch12_fresh : (ch12 : List (HloOp τ sig (Elt F))).Forall fun op => op.fresh = ∅ := by
  simp only [List.Forall]; repeat' constructor
/-- The buffers they write: one result each. -/
abbrev wr12 : List (Ref sig .tc) := [main_call13_cst, main_call13_v0, main_v218, main_cst_21, main_v219, main_v220, main_v221, main_v222, main_v223, main_v224, main_v225, main_call14_cst, main_call14_v0, main_v226, main_cst_22, main_v227, main_v228, main_v229, main_v230, main_v231, main_v232, main_v233, main_v234, main_call15_cst, main_call15_v0, main_v235]
set_option maxHeartbeats 40000000 in
theorem ch12_writes : (ch12 : List (HloOp τ sig (Elt F))).Forall fun op => op.writes ⊆ (wr12.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 292 … 316 of the reference program, in order. -/
abbrev ch13 : List (HloOp τ sig (Elt F)) :=
  [ binary main_v1 main_v235 main_v236 (addf : (⟨S8192x50, .f32⟩ : BufTy).Contents (Elt F) → (⟨S8192x50, .f32⟩ : BufTy).Contents (Elt F) → (⟨S8192x50, .f32⟩ : BufTy).Contents (Elt F)),
    binary main_v1 main_arg3 main_v237 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v237 main_v238 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v239 (broadcastInDim S1x50 ![1] bcast_S50_S1x50_1 : (⟨S50, .f32⟩ : BufTy).Contents (Elt F) → (⟨S1x50, .f32⟩ : BufTy).Contents (Elt F)),
    unary main_v239 main_v240 (broadcastInDim S8192x50 ![0, 1] bcast_S1x50_S8192x50_0_1 : (⟨S1x50, .f32⟩ : BufTy).Contents (Elt F) → (⟨S8192x50, .f32⟩ : BufTy).Contents (Elt F)),
    binary main_v238 main_v240 main_v241 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S8192x50, .f32⟩) main_call16_v0) (broadcastInDim S8192x50 ![] bcast_S_S8192x50),
    TRef.binary (TRef.of (T := ⟨S8192x50, .f32⟩) main_v241) (TRef.of (T := ⟨S8192x50, .f32⟩) main_call16_v0) (TRef.of (T := ⟨S8192x50, .f32⟩) main_v242) maximumf,
    binary main_v218 main_v242 main_v243 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v244 ((extractStridedSlice S1x100x50 ![9, 0, 0] · slices_S12x100x50_S1x100x50_9_0_0) : (⟨S12x100x50, .f32⟩ : BufTy).Contents (Elt F) → (⟨S1x100x50, .f32⟩ : BufTy).Contents (Elt F)),
    reshape main_v244 main_v245 rfl shapeCasts_S1x100x50_S100x50,
    binary main_v243 main_v245 main_v246 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v247 ((extractStridedSlice S1x50 ![9, 0] · slices_S12x50_S1x50_9_0) : (⟨S12x50, .f32⟩ : BufTy).Contents (Elt F) → (⟨S1x50, .f32⟩ : BufTy).Contents (Elt F)),
    reshape main_v247 main_v248 rfl shapeCasts_S1x50_S50,
    unary main_v248 main_v249 (broadcastInDim S1x50 ![1] bcast_S50_S1x50_1 : (⟨S50, .f32⟩ : BufTy).Contents (Elt F) → (⟨S1x50, .f32⟩ : BufTy).Contents (Elt F)),
    unary main_v249 main_v250 (broadcastInDim S8192x50 ![0, 1] bcast_S1x50_S8192x50_0_1 : (⟨S1x50, .f32⟩ : BufTy).Contents (Elt F) → (⟨S8192x50, .f32⟩ : BufTy).Contents (Elt F)),
    binary main_v246 main_v250 main_v251 (addf : (⟨S8192x50, .f32⟩ : BufTy).Contents (Elt F) → (⟨S8192x50, .f32⟩ : BufTy).Contents (Elt F) → (⟨S8192x50, .f32⟩ : BufTy).Contents (Elt F)),
    unary main_v251 main_v252 (Host.negf : (⟨S8192x50, .f32⟩ : BufTy).Contents (Elt F) → (⟨S8192x50, .f32⟩ : BufTy).Contents (Elt F)),
    unary main_v252 main_v253 (Host.exp : (⟨S8192x50, .f32⟩ : BufTy).Contents (Elt F) → (⟨S8192x50, .f32⟩ : BufTy).Contents (Elt F)),
    nullary main_cst_23 (constant S_ .f32 0x3F800000#32),
    unary main_cst_23 main_v254 (broadcastInDim S8192x50 ![] bcast_S_S8192x50 : (⟨S_, .f32⟩ : BufTy).Contents (Elt F) → (⟨S8192x50, .f32⟩ : BufTy).Contents (Elt F)),
    binary main_v254 main_v253 main_v255 (addf : (⟨S8192x50, .f32⟩ : BufTy).Contents (Elt F) → (⟨S8192x50, .f32⟩ : BufTy).Contents (Elt F) → (⟨S8192x50, .f32⟩ : BufTy).Contents (Elt F)),
    nullary main_cst_24 (constant S_ .f32 0x3F800000#32),
    unary main_cst_24 main_v256 (broadcastInDim S8192x50 ![] bcast_S_S8192x50 : (⟨S_, .f32⟩ : BufTy).Contents (Elt F) → (⟨S8192x50, .f32⟩ : BufTy).Contents (Elt F)) ]
theorem ch13_sub : (ch13 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub ..⟩
theorem ch13_fresh : (ch13 : List (HloOp τ sig (Elt F))).Forall fun op => op.fresh = ∅ := by
  simp only [List.Forall]; repeat' constructor
/-- The buffers they write: one result each. -/
abbrev wr13 : List (Ref sig .tc) := [main_v236, main_v237, main_v238, main_v239, main_v240, main_v241, main_call16_cst, main_call16_v0, main_v242, main_v243, main_v244, main_v245, main_v246, main_v247, main_v248, main_v249, main_v250, main_v251, main_v252, main_v253, main_cst_23, main_v254, main_v255, main_cst_24, main_v256]
set_option maxHeartbeats 40000000 in
theorem ch13_writes : (ch13 : List (HloOp τ sig (Elt F))).Forall fun op => op.writes ⊆ (wr13.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 317 … 335 of the reference program, in order. -/
abbrev ch14 : List (HloOp τ sig (Elt F)) :=
  [ binary main_v256 main_v255 main_v257 (Host.divf : (⟨S8192x50, .f32⟩ : BufTy).Contents (Elt F) → (⟨S8192x50, .f32⟩ : BufTy).Contents (Elt F) → (⟨S8192x50, .f32⟩ : BufTy).Contents (Elt F)),
    binary main_v257 main_v218 main_v258 (mulf : (⟨S8192x50, .f32⟩ : BufTy).Contents (Elt F) → (⟨S8192x50, .f32⟩ : BufTy).Contents (Elt F) → (⟨S8192x50, .f32⟩ : BufTy).Contents (Elt F)),
    binary main_v242 main_v258 main_v259 (addf : (⟨S8192x50, .f32⟩ : BufTy).Contents (Elt F) → (⟨S8192x50, .f32⟩ : BufTy).Contents (Elt F) → (⟨S8192x50, .f32⟩ : BufTy).Contents (Elt F)),
    nullary main_cst_25 (constant S_ .f32 0x3E4CCCCD#32),
    unary main_cst_25 main_v260 (broadcastInDim S8192x50 ![] bcast_S_S8192x50 : (⟨S_, .f32⟩ : BufTy).Contents (Elt F) → (⟨S8192x50, .f32⟩ : BufTy).Contents (Elt F)),
    binary main_v260 main_v259 main_v261 (mulf : (⟨S8192x50, .f32⟩ : BufTy).Contents (Elt F) → (⟨S8192x50, .f32⟩ : BufTy).Contents (Elt F) → (⟨S8192x50, .f32⟩ : BufTy).Contents (Elt F)),
    binary main_v236 main_arg3 main_v262 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v262 main_v263 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v264 (broadcastInDim S1x50 ![1] bcast_S50_S1x50_1 : (⟨S50, .f32⟩ : BufTy).Contents (Elt F) → (⟨S1x50, .f32⟩ : BufTy).Contents (Elt F)),
    unary main_v264 main_v265 (broadcastInDim S8192x50 ![0, 1] bcast_S1x50_S8192x50_0_1 : (⟨S1x50, .f32⟩ : BufTy).Contents (Elt F) → (⟨S8192x50, .f32⟩ : BufTy).Contents (Elt F)),
    binary main_v263 main_v265 main_v266 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S8192x50, .f32⟩) main_call17_v0) (broadcastInDim S8192x50 ![] bcast_S_S8192x50),
    TRef.binary (TRef.of (T := ⟨S8192x50, .f32⟩) main_v266) (TRef.of (T := ⟨S8192x50, .f32⟩) main_call17_v0) (TRef.of (T := ⟨S8192x50, .f32⟩) main_v267) maximumf,
    nullary main_cst_26 (constant S_ .f32 0x3F4CCCCD#32),
    unary main_cst_26 main_v268 (broadcastInDim S8192x50 ![] bcast_S_S8192x50 : (⟨S_, .f32⟩ : BufTy).Contents (Elt F) → (⟨S8192x50, .f32⟩ : BufTy).Contents (Elt F)),
    binary main_v268 main_v267 main_v269 (mulf : (⟨S8192x50, .f32⟩ : BufTy).Contents (Elt F) → (⟨S8192x50, .f32⟩ : BufTy).Contents (Elt F) → (⟨S8192x50, .f32⟩ : BufTy).Contents (Elt F)),
    binary main_v261 main_v269 main_v270 (addf : (⟨S8192x50, .f32⟩ : BufTy).Contents (Elt F) → (⟨S8192x50, .f32⟩ : BufTy).Contents (Elt F) → (⟨S8192x50, .f32⟩ : BufTy).Contents (Elt F)),
    binary main_v229 main_v270 main_v271 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)) ]
theorem ch14_sub : (ch14 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩
theorem ch14_fresh : (ch14 : List (HloOp τ sig (Elt F))).Forall fun op => op.fresh = ∅ := by
  simp only [List.Forall]; repeat' constructor
/-- The buffers they write: one result each. -/
abbrev wr14 : List (Ref sig .tc) := [main_v257, main_v258, main_v259, main_cst_25, main_v260, main_v261, main_v262, main_v263, main_v264, main_v265, main_v266, main_call17_cst, main_call17_v0, main_v267, main_cst_26, main_v268, main_v269, main_v270, main_v271]
set_option maxHeartbeats 40000000 in
theorem ch14_writes : (ch14 : List (HloOp τ sig (Elt F))).Forall fun op => op.writes ⊆ (wr14.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 336 … 360 of the reference program, in order. -/
abbrev ch15 : List (HloOp τ sig (Elt F)) :=
  [ unary main_arg5 main_v272 ((extractStridedSlice S1x100x50 ![6, 0, 0] · slices_S12x100x50_S1x100x50_6_0_0) : (⟨S12x100x50, .f32⟩ : BufTy).Contents (Elt F) → (⟨S1x100x50, .f32⟩ : BufTy).Contents (Elt F)),
    reshape main_v272 main_v273 rfl shapeCasts_S1x100x50_S100x50,
    binary main_v271 main_v273 main_v274 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v275 ((extractStridedSlice S1x50 ![6, 0] · slices_S12x50_S1x50_6_0) : (⟨S12x50, .f32⟩ : BufTy).Contents (Elt F) → (⟨S1x50, .f32⟩ : BufTy).Contents (Elt F)),
    reshape main_v275 main_v276 rfl shapeCasts_S1x50_S50,
    unary main_v276 main_v277 (broadcastInDim S1x50 ![1] bcast_S50_S1x50_1 : (⟨S50, .f32⟩ : BufTy).Contents (Elt F) → (⟨S1x50, .f32⟩ : BufTy).Contents (Elt F)),
    unary main_v277 main_v278 (broadcastInDim S8192x50 ![0, 1] bcast_S1x50_S8192x50_0_1 : (⟨S1x50, .f32⟩ : BufTy).Contents (Elt F) → (⟨S8192x50, .f32⟩ : BufTy).Contents (Elt F)),
    binary main_v274 main_v278 main_v279 (addf : (⟨S8192x50, .f32⟩ : BufTy).Contents (Elt F) → (⟨S8192x50, .f32⟩ : BufTy).Contents (Elt F) → (⟨S8192x50, .f32⟩ : BufTy).Contents (Elt F)),
    unary main_v279 main_v280 (Host.negf : (⟨S8192x50, .f32⟩ : BufTy).Contents (Elt F) → (⟨S8192x50, .f32⟩ : BufTy).Contents (Elt F)),
    unary main_v280 main_v281 (Host.exp : (⟨S8192x50, .f32⟩ : BufTy).Contents (Elt F) → (⟨S8192x50, .f32⟩ : BufTy).Contents (Elt F)),
    nullary main_cst_27 (constant S_ .f32 0x3F800000#32),
    unary main_cst_27 main_v282 (broadcastInDim S8192x50 ![] bcast_S_S8192x50 : (⟨S_, .f32⟩ : BufTy).Contents (Elt F) → (⟨S8192x50, .f32⟩ : BufTy).Contents (Elt F)),
    binary main_v282 main_v281 main_v283 (addf : (⟨S8192x50, .f32⟩ : BufTy).Contents (Elt F) → (⟨S8192x50, .f32⟩ : BufTy).Contents (Elt F) → (⟨S8192x50, .f32⟩ : BufTy).Contents (Elt F)),
    nullary main_cst_28 (constant S_ .f32 0x3F800000#32),
    unary main_cst_28 main_v284 (broadcastInDim S8192x50 ![] bcast_S_S8192x50 : (⟨S_, .f32⟩ : BufTy).Contents (Elt F) → (⟨S8192x50, .f32⟩ : BufTy).Contents (Elt F)),
    binary main_v284 main_v283 main_v285 (Host.divf : (⟨S8192x50, .f32⟩ : BufTy).Contents (Elt F) → (⟨S8192x50, .f32⟩ : BufTy).Contents (Elt F) → (⟨S8192x50, .f32⟩ : BufTy).Contents (Elt F)),
    binary main_v285 main_v229 main_v286 (mulf : (⟨S8192x50, .f32⟩ : BufTy).Contents (Elt F) → (⟨S8192x50, .f32⟩ : BufTy).Contents (Elt F) → (⟨S8192x50, .f32⟩ : BufTy).Contents (Elt F)),
    binary main_v286 main_v270 main_v287 (addf : (⟨S8192x50, .f32⟩ : BufTy).Contents (Elt F) → (⟨S8192x50, .f32⟩ : BufTy).Contents (Elt F) → (⟨S8192x50, .f32⟩ : BufTy).Contents (Elt F)),
    nullary main_cst_29 (constant S_ .f32 0x3E4CCCCD#32),
    unary main_cst_29 main_v288 (broadcastInDim S8192x50 ![] bcast_S_S8192x50 : (⟨S_, .f32⟩ : BufTy).Contents (Elt F) → (⟨S8192x50, .f32⟩ : BufTy).Contents (Elt F)),
    binary main_v288 main_v2 main_v289 (mulf : (⟨S8192x50, .f32⟩ : BufTy).Contents (Elt F) → (⟨S8192x50, .f32⟩ : BufTy).Contents (Elt F) → (⟨S8192x50, .f32⟩ : BufTy).Contents (Elt F)),
    binary main_v2 main_arg3 main_v290 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v290 main_v291 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v292 (broadcastInDim S1x50 ![1] bcast_S50_S1x50_1 : (⟨S50, .f32⟩ : BufTy).Contents (Elt F) → (⟨S1x50, .f32⟩ : BufTy).Contents (Elt F)),
    unary main_v292 main_v293 (broadcastInDim S8192x50 ![0, 1] bcast_S1x50_S8192x50_0_1 : (⟨S1x50, .f32⟩ : BufTy).Contents (Elt F) → (⟨S8192x50, .f32⟩ : BufTy).Contents (Elt F)) ]
theorem ch15_sub : (ch15 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub ..⟩
theorem ch15_fresh : (ch15 : List (HloOp τ sig (Elt F))).Forall fun op => op.fresh = ∅ := by
  simp only [List.Forall]; repeat' constructor
/-- The buffers they write: one result each. -/
abbrev wr15 : List (Ref sig .tc) := [main_v272, main_v273, main_v274, main_v275, main_v276, main_v277, main_v278, main_v279, main_v280, main_v281, main_cst_27, main_v282, main_v283, main_cst_28, main_v284, main_v285, main_v286, main_v287, main_cst_29, main_v288, main_v289, main_v290, main_v291, main_v292, main_v293]
set_option maxHeartbeats 40000000 in
theorem ch15_writes : (ch15 : List (HloOp τ sig (Elt F))).Forall fun op => op.writes ⊆ (wr15.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 361 … 385 of the reference program, in order. -/
abbrev ch16 : List (HloOp τ sig (Elt F)) :=
  [ binary main_v291 main_v293 main_v294 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S8192x50, .f32⟩) main_call18_v0) (broadcastInDim S8192x50 ![] bcast_S_S8192x50),
    TRef.binary (TRef.of (T := ⟨S8192x50, .f32⟩) main_v294) (TRef.of (T := ⟨S8192x50, .f32⟩) main_call18_v0) (TRef.of (T := ⟨S8192x50, .f32⟩) main_v295) maximumf,
    nullary main_cst_30 (constant S_ .f32 0x3F4CCCCD#32),
    unary main_cst_30 main_v296 (broadcastInDim S8192x50 ![] bcast_S_S8192x50 : (⟨S_, .f32⟩ : BufTy).Contents (Elt F) → (⟨S8192x50, .f32⟩ : BufTy).Contents (Elt F)),
    binary main_v296 main_v295 main_v297 (mulf : (⟨S8192x50, .f32⟩ : BufTy).Contents (Elt F) → (⟨S8192x50, .f32⟩ : BufTy).Contents (Elt F) → (⟨S8192x50, .f32⟩ : BufTy).Contents (Elt F)),
    binary main_v289 main_v297 main_v298 (addf : (⟨S8192x50, .f32⟩ : BufTy).Contents (Elt F) → (⟨S8192x50, .f32⟩ : BufTy).Contents (Elt F) → (⟨S8192x50, .f32⟩ : BufTy).Contents (Elt F)),
    binary main_v2 main_arg3 main_v299 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v299 main_v300 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v301 (broadcastInDim S1x50 ![1] bcast_S50_S1x50_1 : (⟨S50, .f32⟩ : BufTy).Contents (Elt F) → (⟨S1x50, .f32⟩ : BufTy).Contents (Elt F)),
    unary main_v301 main_v302 (broadcastInDim S8192x50 ![0, 1] bcast_S1x50_S8192x50_0_1 : (⟨S1x50, .f32⟩ : BufTy).Contents (Elt F) → (⟨S8192x50, .f32⟩ : BufTy).Contents (Elt F)),
    binary main_v300 main_v302 main_v303 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S8192x50, .f32⟩) main_call19_v0) (broadcastInDim S8192x50 ![] bcast_S_S8192x50),
    TRef.binary (TRef.of (T := ⟨S8192x50, .f32⟩) main_v303) (TRef.of (T := ⟨S8192x50, .f32⟩) main_call19_v0) (TRef.of (T := ⟨S8192x50, .f32⟩) main_v304) maximumf,
    binary main_v259 main_v304 main_v305 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v306 ((extractStridedSlice S1x100x50 ![10, 0, 0] · slices_S12x100x50_S1x100x50_10_0_0) : (⟨S12x100x50, .f32⟩ : BufTy).Contents (Elt F) → (⟨S1x100x50, .f32⟩ : BufTy).Contents (Elt F)),
    reshape main_v306 main_v307 rfl shapeCasts_S1x100x50_S100x50,
    binary main_v305 main_v307 main_v308 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v309 ((extractStridedSlice S1x50 ![10, 0] · slices_S12x50_S1x50_10_0) : (⟨S12x50, .f32⟩ : BufTy).Contents (Elt F) → (⟨S1x50, .f32⟩ : BufTy).Contents (Elt F)),
    reshape main_v309 main_v310 rfl shapeCasts_S1x50_S50,
    unary main_v310 main_v311 (broadcastInDim S1x50 ![1] bcast_S50_S1x50_1 : (⟨S50, .f32⟩ : BufTy).Contents (Elt F) → (⟨S1x50, .f32⟩ : BufTy).Contents (Elt F)),
    unary main_v311 main_v312 (broadcastInDim S8192x50 ![0, 1] bcast_S1x50_S8192x50_0_1 : (⟨S1x50, .f32⟩ : BufTy).Contents (Elt F) → (⟨S8192x50, .f32⟩ : BufTy).Contents (Elt F)),
    binary main_v308 main_v312 main_v313 (addf : (⟨S8192x50, .f32⟩ : BufTy).Contents (Elt F) → (⟨S8192x50, .f32⟩ : BufTy).Contents (Elt F) → (⟨S8192x50, .f32⟩ : BufTy).Contents (Elt F)) ]
theorem ch16_sub : (ch16 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
theorem ch16_fresh : (ch16 : List (HloOp τ sig (Elt F))).Forall fun op => op.fresh = ∅ := by
  simp only [List.Forall]; repeat' constructor
/-- The buffers they write: one result each. -/
abbrev wr16 : List (Ref sig .tc) := [main_v294, main_call18_cst, main_call18_v0, main_v295, main_cst_30, main_v296, main_v297, main_v298, main_v299, main_v300, main_v301, main_v302, main_v303, main_call19_cst, main_call19_v0, main_v304, main_v305, main_v306, main_v307, main_v308, main_v309, main_v310, main_v311, main_v312, main_v313]
set_option maxHeartbeats 40000000 in
theorem ch16_writes : (ch16 : List (HloOp τ sig (Elt F))).Forall fun op => op.writes ⊆ (wr16.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 386 … 399 of the reference program, in order. -/
abbrev ch17 : List (HloOp τ sig (Elt F)) :=
  [ unary main_v313 main_v314 (Host.negf : (⟨S8192x50, .f32⟩ : BufTy).Contents (Elt F) → (⟨S8192x50, .f32⟩ : BufTy).Contents (Elt F)),
    unary main_v314 main_v315 (Host.exp : (⟨S8192x50, .f32⟩ : BufTy).Contents (Elt F) → (⟨S8192x50, .f32⟩ : BufTy).Contents (Elt F)),
    nullary main_cst_31 (constant S_ .f32 0x3F800000#32),
    unary main_cst_31 main_v316 (broadcastInDim S8192x50 ![] bcast_S_S8192x50 : (⟨S_, .f32⟩ : BufTy).Contents (Elt F) → (⟨S8192x50, .f32⟩ : BufTy).Contents (Elt F)),
    binary main_v316 main_v315 main_v317 (addf : (⟨S8192x50, .f32⟩ : BufTy).Contents (Elt F) → (⟨S8192x50, .f32⟩ : BufTy).Contents (Elt F) → (⟨S8192x50, .f32⟩ : BufTy).Contents (Elt F)),
    nullary main_cst_32 (constant S_ .f32 0x3F800000#32),
    unary main_cst_32 main_v318 (broadcastInDim S8192x50 ![] bcast_S_S8192x50 : (⟨S_, .f32⟩ : BufTy).Contents (Elt F) → (⟨S8192x50, .f32⟩ : BufTy).Contents (Elt F)),
    binary main_v318 main_v317 main_v319 (Host.divf : (⟨S8192x50, .f32⟩ : BufTy).Contents (Elt F) → (⟨S8192x50, .f32⟩ : BufTy).Contents (Elt F) → (⟨S8192x50, .f32⟩ : BufTy).Contents (Elt F)),
    binary main_v319 main_v259 main_v320 (mulf : (⟨S8192x50, .f32⟩ : BufTy).Contents (Elt F) → (⟨S8192x50, .f32⟩ : BufTy).Contents (Elt F) → (⟨S8192x50, .f32⟩ : BufTy).Contents (Elt F)),
    binary main_v304 main_v320 main_v321 (addf : (⟨S8192x50, .f32⟩ : BufTy).Contents (Elt F) → (⟨S8192x50, .f32⟩ : BufTy).Contents (Elt F) → (⟨S8192x50, .f32⟩ : BufTy).Contents (Elt F)),
    nullary main_cst_33 (constant S_ .f32 0x3E4CCCCD#32),
    unary main_cst_33 main_v322 (broadcastInDim S8192x50 ![] bcast_S_S8192x50 : (⟨S_, .f32⟩ : BufTy).Contents (Elt F) → (⟨S8192x50, .f32⟩ : BufTy).Contents (Elt F)),
    binary main_v322 main_v321 main_v323 (mulf : (⟨S8192x50, .f32⟩ : BufTy).Contents (Elt F) → (⟨S8192x50, .f32⟩ : BufTy).Contents (Elt F) → (⟨S8192x50, .f32⟩ : BufTy).Contents (Elt F)),
    binary main_v298 main_arg3 main_v324 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)) ]
theorem ch17_sub : (ch17 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩
theorem ch17_fresh : (ch17 : List (HloOp τ sig (Elt F))).Forall fun op => op.fresh = ∅ := by
  simp only [List.Forall]; repeat' constructor
/-- The buffers they write: one result each. -/
abbrev wr17 : List (Ref sig .tc) := [main_v314, main_v315, main_cst_31, main_v316, main_v317, main_cst_32, main_v318, main_v319, main_v320, main_v321, main_cst_33, main_v322, main_v323, main_v324]
set_option maxHeartbeats 40000000 in
theorem ch17_writes : (ch17 : List (HloOp τ sig (Elt F))).Forall fun op => op.writes ⊆ (wr17.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 400 … 424 of the reference program, in order. -/
abbrev ch18 : List (HloOp τ sig (Elt F)) :=
  [ binary main_arg1 main_v324 main_v325 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v326 (broadcastInDim S1x50 ![1] bcast_S50_S1x50_1 : (⟨S50, .f32⟩ : BufTy).Contents (Elt F) → (⟨S1x50, .f32⟩ : BufTy).Contents (Elt F)),
    unary main_v326 main_v327 (broadcastInDim S8192x50 ![0, 1] bcast_S1x50_S8192x50_0_1 : (⟨S1x50, .f32⟩ : BufTy).Contents (Elt F) → (⟨S8192x50, .f32⟩ : BufTy).Contents (Elt F)),
    binary main_v325 main_v327 main_v328 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S8192x50, .f32⟩) main_call20_v0) (broadcastInDim S8192x50 ![] bcast_S_S8192x50),
    TRef.binary (TRef.of (T := ⟨S8192x50, .f32⟩) main_v328) (TRef.of (T := ⟨S8192x50, .f32⟩) main_call20_v0) (TRef.of (T := ⟨S8192x50, .f32⟩) main_v329) maximumf,
    nullary main_cst_34 (constant S_ .f32 0x3F4CCCCD#32),
    unary main_cst_34 main_v330 (broadcastInDim S8192x50 ![] bcast_S_S8192x50 : (⟨S_, .f32⟩ : BufTy).Contents (Elt F) → (⟨S8192x50, .f32⟩ : BufTy).Contents (Elt F)),
    binary main_v330 main_v329 main_v331 (mulf : (⟨S8192x50, .f32⟩ : BufTy).Contents (Elt F) → (⟨S8192x50, .f32⟩ : BufTy).Contents (Elt F) → (⟨S8192x50, .f32⟩ : BufTy).Contents (Elt F)),
    binary main_v323 main_v331 main_v332 (addf : (⟨S8192x50, .f32⟩ : BufTy).Contents (Elt F) → (⟨S8192x50, .f32⟩ : BufTy).Contents (Elt F) → (⟨S8192x50, .f32⟩ : BufTy).Contents (Elt F)),
    binary main_v287 main_v332 main_v333 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v334 ((extractStridedSlice S1x100x50 ![7, 0, 0] · slices_S12x100x50_S1x100x50_7_0_0) : (⟨S12x100x50, .f32⟩ : BufTy).Contents (Elt F) → (⟨S1x100x50, .f32⟩ : BufTy).Contents (Elt F)),
    reshape main_v334 main_v335 rfl shapeCasts_S1x100x50_S100x50,
    binary main_v333 main_v335 main_v336 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v337 ((extractStridedSlice S1x50 ![7, 0] · slices_S12x50_S1x50_7_0) : (⟨S12x50, .f32⟩ : BufTy).Contents (Elt F) → (⟨S1x50, .f32⟩ : BufTy).Contents (Elt F)),
    reshape main_v337 main_v338 rfl shapeCasts_S1x50_S50,
    unary main_v338 main_v339 (broadcastInDim S1x50 ![1] bcast_S50_S1x50_1 : (⟨S50, .f32⟩ : BufTy).Contents (Elt F) → (⟨S1x50, .f32⟩ : BufTy).Contents (Elt F)),
    unary main_v339 main_v340 (broadcastInDim S8192x50 ![0, 1] bcast_S1x50_S8192x50_0_1 : (⟨S1x50, .f32⟩ : BufTy).Contents (Elt F) → (⟨S8192x50, .f32⟩ : BufTy).Contents (Elt F)),
    binary main_v336 main_v340 main_v341 (addf : (⟨S8192x50, .f32⟩ : BufTy).Contents (Elt F) → (⟨S8192x50, .f32⟩ : BufTy).Contents (Elt F) → (⟨S8192x50, .f32⟩ : BufTy).Contents (Elt F)),
    unary main_v341 main_v342 (Host.negf : (⟨S8192x50, .f32⟩ : BufTy).Contents (Elt F) → (⟨S8192x50, .f32⟩ : BufTy).Contents (Elt F)),
    unary main_v342 main_v343 (Host.exp : (⟨S8192x50, .f32⟩ : BufTy).Contents (Elt F) → (⟨S8192x50, .f32⟩ : BufTy).Contents (Elt F)),
    nullary main_cst_35 (constant S_ .f32 0x3F800000#32),
    unary main_cst_35 main_v344 (broadcastInDim S8192x50 ![] bcast_S_S8192x50 : (⟨S_, .f32⟩ : BufTy).Contents (Elt F) → (⟨S8192x50, .f32⟩ : BufTy).Contents (Elt F)),
    binary main_v344 main_v343 main_v345 (addf : (⟨S8192x50, .f32⟩ : BufTy).Contents (Elt F) → (⟨S8192x50, .f32⟩ : BufTy).Contents (Elt F) → (⟨S8192x50, .f32⟩ : BufTy).Contents (Elt F)) ]
theorem ch18_sub : (ch18 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub ..⟩
theorem ch18_fresh : (ch18 : List (HloOp τ sig (Elt F))).Forall fun op => op.fresh = ∅ := by
  simp only [List.Forall]; repeat' constructor
/-- The buffers they write: one result each. -/
abbrev wr18 : List (Ref sig .tc) := [main_v325, main_v326, main_v327, main_v328, main_call20_cst, main_call20_v0, main_v329, main_cst_34, main_v330, main_v331, main_v332, main_v333, main_v334, main_v335, main_v336, main_v337, main_v338, main_v339, main_v340, main_v341, main_v342, main_v343, main_cst_35, main_v344, main_v345]
set_option maxHeartbeats 40000000 in
theorem ch18_writes : (ch18 : List (HloOp τ sig (Elt F))).Forall fun op => op.writes ⊆ (wr18.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 425 … 449 of the reference program, in order. -/
abbrev ch19 : List (HloOp τ sig (Elt F)) :=
  [ nullary main_cst_36 (constant S_ .f32 0x3F800000#32),
    unary main_cst_36 main_v346 (broadcastInDim S8192x50 ![] bcast_S_S8192x50 : (⟨S_, .f32⟩ : BufTy).Contents (Elt F) → (⟨S8192x50, .f32⟩ : BufTy).Contents (Elt F)),
    binary main_v346 main_v345 main_v347 (Host.divf : (⟨S8192x50, .f32⟩ : BufTy).Contents (Elt F) → (⟨S8192x50, .f32⟩ : BufTy).Contents (Elt F) → (⟨S8192x50, .f32⟩ : BufTy).Contents (Elt F)),
    binary main_v347 main_v287 main_v348 (mulf : (⟨S8192x50, .f32⟩ : BufTy).Contents (Elt F) → (⟨S8192x50, .f32⟩ : BufTy).Contents (Elt F) → (⟨S8192x50, .f32⟩ : BufTy).Contents (Elt F)),
    binary main_v348 main_v332 main_v349 (addf : (⟨S8192x50, .f32⟩ : BufTy).Contents (Elt F) → (⟨S8192x50, .f32⟩ : BufTy).Contents (Elt F) → (⟨S8192x50, .f32⟩ : BufTy).Contents (Elt F)),
    binary main_v3 main_arg3 main_v350 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v350 main_v351 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v352 (broadcastInDim S1x50 ![1] bcast_S50_S1x50_1 : (⟨S50, .f32⟩ : BufTy).Contents (Elt F) → (⟨S1x50, .f32⟩ : BufTy).Contents (Elt F)),
    unary main_v352 main_v353 (broadcastInDim S8192x50 ![0, 1] bcast_S1x50_S8192x50_0_1 : (⟨S1x50, .f32⟩ : BufTy).Contents (Elt F) → (⟨S8192x50, .f32⟩ : BufTy).Contents (Elt F)),
    binary main_v351 main_v353 main_v354 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S8192x50, .f32⟩) main_call21_v0) (broadcastInDim S8192x50 ![] bcast_S_S8192x50),
    TRef.binary (TRef.of (T := ⟨S8192x50, .f32⟩) main_v354) (TRef.of (T := ⟨S8192x50, .f32⟩) main_call21_v0) (TRef.of (T := ⟨S8192x50, .f32⟩) main_v355) maximumf,
    binary main_v3 main_v355 main_v356 (addf : (⟨S8192x50, .f32⟩ : BufTy).Contents (Elt F) → (⟨S8192x50, .f32⟩ : BufTy).Contents (Elt F) → (⟨S8192x50, .f32⟩ : BufTy).Contents (Elt F)),
    binary main_v3 main_arg3 main_v357 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg2 main_v357 main_v358 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v359 (broadcastInDim S1x50 ![1] bcast_S50_S1x50_1 : (⟨S50, .f32⟩ : BufTy).Contents (Elt F) → (⟨S1x50, .f32⟩ : BufTy).Contents (Elt F)),
    unary main_v359 main_v360 (broadcastInDim S8192x50 ![0, 1] bcast_S1x50_S8192x50_0_1 : (⟨S1x50, .f32⟩ : BufTy).Contents (Elt F) → (⟨S8192x50, .f32⟩ : BufTy).Contents (Elt F)),
    binary main_v358 main_v360 main_v361 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S8192x50, .f32⟩) main_call22_v0) (broadcastInDim S8192x50 ![] bcast_S_S8192x50),
    TRef.binary (TRef.of (T := ⟨S8192x50, .f32⟩) main_v361) (TRef.of (T := ⟨S8192x50, .f32⟩) main_call22_v0) (TRef.of (T := ⟨S8192x50, .f32⟩) main_v362) maximumf,
    binary main_v321 main_v362 main_v363 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v364 ((extractStridedSlice S1x100x50 ![11, 0, 0] · slices_S12x100x50_S1x100x50_11_0_0) : (⟨S12x100x50, .f32⟩ : BufTy).Contents (Elt F) → (⟨S1x100x50, .f32⟩ : BufTy).Contents (Elt F)),
    reshape main_v364 main_v365 rfl shapeCasts_S1x100x50_S100x50 ]
theorem ch19_sub : (ch19 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub ..⟩
theorem ch19_fresh : (ch19 : List (HloOp τ sig (Elt F))).Forall fun op => op.fresh = ∅ := by
  simp only [List.Forall]; repeat' constructor
/-- The buffers they write: one result each. -/
abbrev wr19 : List (Ref sig .tc) := [main_cst_36, main_v346, main_v347, main_v348, main_v349, main_v350, main_v351, main_v352, main_v353, main_v354, main_call21_cst, main_call21_v0, main_v355, main_v356, main_v357, main_v358, main_v359, main_v360, main_v361, main_call22_cst, main_call22_v0, main_v362, main_v363, main_v364, main_v365]
set_option maxHeartbeats 40000000 in
theorem ch19_writes : (ch19 : List (HloOp τ sig (Elt F))).Forall fun op => op.writes ⊆ (wr19.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 450 … 465 of the reference program, in order. -/
abbrev ch20 : List (HloOp τ sig (Elt F)) :=
  [ binary main_v363 main_v365 main_v366 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v367 ((extractStridedSlice S1x50 ![11, 0] · slices_S12x50_S1x50_11_0) : (⟨S12x50, .f32⟩ : BufTy).Contents (Elt F) → (⟨S1x50, .f32⟩ : BufTy).Contents (Elt F)),
    reshape main_v367 main_v368 rfl shapeCasts_S1x50_S50,
    unary main_v368 main_v369 (broadcastInDim S1x50 ![1] bcast_S50_S1x50_1 : (⟨S50, .f32⟩ : BufTy).Contents (Elt F) → (⟨S1x50, .f32⟩ : BufTy).Contents (Elt F)),
    unary main_v369 main_v370 (broadcastInDim S8192x50 ![0, 1] bcast_S1x50_S8192x50_0_1 : (⟨S1x50, .f32⟩ : BufTy).Contents (Elt F) → (⟨S8192x50, .f32⟩ : BufTy).Contents (Elt F)),
    binary main_v366 main_v370 main_v371 (addf : (⟨S8192x50, .f32⟩ : BufTy).Contents (Elt F) → (⟨S8192x50, .f32⟩ : BufTy).Contents (Elt F) → (⟨S8192x50, .f32⟩ : BufTy).Contents (Elt F)),
    unary main_v371 main_v372 (Host.negf : (⟨S8192x50, .f32⟩ : BufTy).Contents (Elt F) → (⟨S8192x50, .f32⟩ : BufTy).Contents (Elt F)),
    unary main_v372 main_v373 (Host.exp : (⟨S8192x50, .f32⟩ : BufTy).Contents (Elt F) → (⟨S8192x50, .f32⟩ : BufTy).Contents (Elt F)),
    nullary main_cst_37 (constant S_ .f32 0x3F800000#32),
    unary main_cst_37 main_v374 (broadcastInDim S8192x50 ![] bcast_S_S8192x50 : (⟨S_, .f32⟩ : BufTy).Contents (Elt F) → (⟨S8192x50, .f32⟩ : BufTy).Contents (Elt F)),
    binary main_v374 main_v373 main_v375 (addf : (⟨S8192x50, .f32⟩ : BufTy).Contents (Elt F) → (⟨S8192x50, .f32⟩ : BufTy).Contents (Elt F) → (⟨S8192x50, .f32⟩ : BufTy).Contents (Elt F)),
    nullary main_cst_38 (constant S_ .f32 0x3F800000#32),
    unary main_cst_38 main_v376 (broadcastInDim S8192x50 ![] bcast_S_S8192x50 : (⟨S_, .f32⟩ : BufTy).Contents (Elt F) → (⟨S8192x50, .f32⟩ : BufTy).Contents (Elt F)),
    binary main_v376 main_v375 main_v377 (Host.divf : (⟨S8192x50, .f32⟩ : BufTy).Contents (Elt F) → (⟨S8192x50, .f32⟩ : BufTy).Contents (Elt F) → (⟨S8192x50, .f32⟩ : BufTy).Contents (Elt F)),
    binary main_v377 main_v321 main_v378 (mulf : (⟨S8192x50, .f32⟩ : BufTy).Contents (Elt F) → (⟨S8192x50, .f32⟩ : BufTy).Contents (Elt F) → (⟨S8192x50, .f32⟩ : BufTy).Contents (Elt F)),
    binary main_v362 main_v378 main_v379 (addf : (⟨S8192x50, .f32⟩ : BufTy).Contents (Elt F) → (⟨S8192x50, .f32⟩ : BufTy).Contents (Elt F) → (⟨S8192x50, .f32⟩ : BufTy).Contents (Elt F)) ]
theorem ch20_sub : (ch20 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem ch20_fresh : (ch20 : List (HloOp τ sig (Elt F))).Forall fun op => op.fresh = ∅ := by
  simp only [List.Forall]; repeat' constructor
/-- The buffers they write: one result each. -/
abbrev wr20 : List (Ref sig .tc) := [main_v366, main_v367, main_v368, main_v369, main_v370, main_v371, main_v372, main_v373, main_cst_37, main_v374, main_v375, main_cst_38, main_v376, main_v377, main_v378, main_v379]
set_option maxHeartbeats 40000000 in
theorem ch20_writes : (ch20 : List (HloOp τ sig (Elt F))).Forall fun op => op.writes ⊆ (wr20.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 466 … 490 of the reference program, in order. -/
abbrev ch21 : List (HloOp τ sig (Elt F)) :=
  [ nullary main_cst_39 (constant S_ .f32 0x3E4CCCCD#32),
    unary main_cst_39 main_v380 (broadcastInDim S8192x50 ![] bcast_S_S8192x50 : (⟨S_, .f32⟩ : BufTy).Contents (Elt F) → (⟨S8192x50, .f32⟩ : BufTy).Contents (Elt F)),
    binary main_v380 main_v379 main_v381 (mulf : (⟨S8192x50, .f32⟩ : BufTy).Contents (Elt F) → (⟨S8192x50, .f32⟩ : BufTy).Contents (Elt F) → (⟨S8192x50, .f32⟩ : BufTy).Contents (Elt F)),
    binary main_v356 main_arg3 main_v382 ((fun l r => Host.dotGeneral dot_S8192x50_S50x50_S8192x50_1_0_0_1_n_n none l r) : (⟨S8192x50, .f32⟩ : BufTy).Contents (Elt F) → (⟨S50x50, .f32⟩ : BufTy).Contents (Elt F) → (⟨S8192x50, .f32⟩ : BufTy).Contents (Elt F)),
    binary main_arg1 main_v382 main_v383 ((fun l r => Host.dotGeneral dot_S8192x8192_S8192x50_S8192x50_1_0_0_1_n_n none l r) : (⟨S8192x8192, .f32⟩ : BufTy).Contents (Elt F) → (⟨S8192x50, .f32⟩ : BufTy).Contents (Elt F) → (⟨S8192x50, .f32⟩ : BufTy).Contents (Elt F)),
    unary main_arg4 main_v384 (broadcastInDim S1x50 ![1] bcast_S50_S1x50_1 : (⟨S50, .f32⟩ : BufTy).Contents (Elt F) → (⟨S1x50, .f32⟩ : BufTy).Contents (Elt F)),
    unary main_v384 main_v385 (broadcastInDim S8192x50 ![0, 1] bcast_S1x50_S8192x50_0_1 : (⟨S1x50, .f32⟩ : BufTy).Contents (Elt F) → (⟨S8192x50, .f32⟩ : BufTy).Contents (Elt F)),
    binary main_v383 main_v385 main_v386 (addf : (⟨S8192x50, .f32⟩ : BufTy).Contents (Elt F) → (⟨S8192x50, .f32⟩ : BufTy).Contents (Elt F) → (⟨S8192x50, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S8192x50, .f32⟩) main_call23_v0) (broadcastInDim S8192x50 ![] bcast_S_S8192x50),
    TRef.binary (TRef.of (T := ⟨S8192x50, .f32⟩) main_v386) (TRef.of (T := ⟨S8192x50, .f32⟩) main_call23_v0) (TRef.of (T := ⟨S8192x50, .f32⟩) main_v387) maximumf,
    nullary main_cst_40 (constant S_ .f32 0x3F4CCCCD#32),
    unary main_cst_40 main_v388 (broadcastInDim S8192x50 ![] bcast_S_S8192x50 : (⟨S_, .f32⟩ : BufTy).Contents (Elt F) → (⟨S8192x50, .f32⟩ : BufTy).Contents (Elt F)),
    binary main_v388 main_v387 main_v389 (mulf : (⟨S8192x50, .f32⟩ : BufTy).Contents (Elt F) → (⟨S8192x50, .f32⟩ : BufTy).Contents (Elt F) → (⟨S8192x50, .f32⟩ : BufTy).Contents (Elt F)),
    binary main_v381 main_v389 main_v390 (addf : (⟨S8192x50, .f32⟩ : BufTy).Contents (Elt F) → (⟨S8192x50, .f32⟩ : BufTy).Contents (Elt F) → (⟨S8192x50, .f32⟩ : BufTy).Contents (Elt F)),
    binary main_v349 main_v390 main_v391 ((fun a b => concatenate S8192x100 1 [⟨S8192x50, a⟩, ⟨S8192x50, b⟩] concatenates_S8192x50_S8192x50_S8192x100_d1) : (⟨S8192x50, .f32⟩ : BufTy).Contents (Elt F) → (⟨S8192x50, .f32⟩ : BufTy).Contents (Elt F) → (⟨S8192x100, .f32⟩ : BufTy).Contents (Elt F)),
    unary main_arg5 main_v392 ((extractStridedSlice S1x100x50 ![8, 0, 0] · slices_S12x100x50_S1x100x50_8_0_0) : (⟨S12x100x50, .f32⟩ : BufTy).Contents (Elt F) → (⟨S1x100x50, .f32⟩ : BufTy).Contents (Elt F)),
    reshape main_v392 main_v393 rfl shapeCasts_S1x100x50_S100x50,
    binary main_v391 main_v393 main_v394 ((fun l r => Host.dotGeneral dot_S8192x100_S100x50_S8192x50_1_0_0_1_n_n none l r) : (⟨S8192x100, .f32⟩ : BufTy).Contents (Elt F) → (⟨S100x50, .f32⟩ : BufTy).Contents (Elt F) → (⟨S8192x50, .f32⟩ : BufTy).Contents (Elt F)),
    unary main_arg6 main_v395 ((extractStridedSlice S1x50 ![8, 0] · slices_S12x50_S1x50_8_0) : (⟨S12x50, .f32⟩ : BufTy).Contents (Elt F) → (⟨S1x50, .f32⟩ : BufTy).Contents (Elt F)),
    reshape main_v395 main_v396 rfl shapeCasts_S1x50_S50,
    unary main_v396 main_v397 (broadcastInDim S1x50 ![1] bcast_S50_S1x50_1 : (⟨S50, .f32⟩ : BufTy).Contents (Elt F) → (⟨S1x50, .f32⟩ : BufTy).Contents (Elt F)),
    unary main_v397 main_v398 (broadcastInDim S8192x50 ![0, 1] bcast_S1x50_S8192x50_0_1 : (⟨S1x50, .f32⟩ : BufTy).Contents (Elt F) → (⟨S8192x50, .f32⟩ : BufTy).Contents (Elt F)),
    binary main_v394 main_v398 main_v399 (addf : (⟨S8192x50, .f32⟩ : BufTy).Contents (Elt F) → (⟨S8192x50, .f32⟩ : BufTy).Contents (Elt F) → (⟨S8192x50, .f32⟩ : BufTy).Contents (Elt F)),
    unary main_v399 main_v400 (Host.negf : (⟨S8192x50, .f32⟩ : BufTy).Contents (Elt F) → (⟨S8192x50, .f32⟩ : BufTy).Contents (Elt F)) ]
theorem ch21_sub : (ch21 : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
theorem ch21_fresh : (ch21 : List (HloOp τ sig (Elt F))).Forall fun op => op.fresh = ∅ := by
  simp only [List.Forall]; repeat' constructor
/-- The buffers they write: one result each. -/
abbrev wr21 : List (Ref sig .tc) := [main_cst_39, main_v380, main_v381, main_v382, main_v383, main_v384, main_v385, main_v386, main_call23_cst, main_call23_v0, main_v387, main_cst_40, main_v388, main_v389, main_v390, main_v391, main_v392, main_v393, main_v394, main_v395, main_v396, main_v397, main_v398, main_v399, main_v400]
set_option maxHeartbeats 40000000 in
theorem ch21_writes : (ch21 : List (HloOp τ sig (Elt F))).Forall fun op => op.writes ⊆ (wr21.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 491 … 499 of the reference program, in order. -/
abbrev ch22 : List (HloOp τ sig (Elt F)) :=
  [ unary main_v400 main_v401 (Host.exp : (⟨S8192x50, .f32⟩ : BufTy).Contents (Elt F) → (⟨S8192x50, .f32⟩ : BufTy).Contents (Elt F)),
    nullary main_cst_41 (constant S_ .f32 0x3F800000#32),
    unary main_cst_41 main_v402 (broadcastInDim S8192x50 ![] bcast_S_S8192x50 : (⟨S_, .f32⟩ : BufTy).Contents (Elt F) → (⟨S8192x50, .f32⟩ : BufTy).Contents (Elt F)),
    binary main_v402 main_v401 main_v403 (addf : (⟨S8192x50, .f32⟩ : BufTy).Contents (Elt F) → (⟨S8192x50, .f32⟩ : BufTy).Contents (Elt F) → (⟨S8192x50, .f32⟩ : BufTy).Contents (Elt F)),
    nullary main_cst_42 (constant S_ .f32 0x3F800000#32),
    unary main_cst_42 main_v404 (broadcastInDim S8192x50 ![] bcast_S_S8192x50 : (⟨S_, .f32⟩ : BufTy).Contents (Elt F) → (⟨S8192x50, .f32⟩ : BufTy).Contents (Elt F)),
    binary main_v404 main_v403 main_v405 (Host.divf : (⟨S8192x50, .f32⟩ : BufTy).Contents (Elt F) → (⟨S8192x50, .f32⟩ : BufTy).Contents (Elt F) → (⟨S8192x50, .f32⟩ : BufTy).Contents (Elt F)),
    binary main_v405 main_v349 main_v406 (mulf : (⟨S8192x50, .f32⟩ : BufTy).Contents (Elt F) → (⟨S8192x50, .f32⟩ : BufTy).Contents (Elt F) → (⟨S8192x50, .f32⟩ : BufTy).Contents (Elt F)),
    binary main_v406 main_v390 main_v407 (addf : (⟨S8192x50, .f32⟩ : BufTy).Contents (Elt F) → (⟨S8192x50, .f32⟩ : BufTy).Contents (Elt F) → (⟨S8192x50, .f32⟩ : BufTy).Contents (Elt F)) ]
theorem ch22_sub : (ch22 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., binary_bufs_sub ..⟩
theorem ch22_fresh : (ch22 : List (HloOp τ sig (Elt F))).Forall fun op => op.fresh = ∅ := by
  simp only [List.Forall]; repeat' constructor
/-- The buffers they write: one result each. -/
abbrev wr22 : List (Ref sig .tc) := [main_v401, main_cst_41, main_v402, main_v403, main_cst_42, main_v404, main_v405, main_v406, main_v407]
set_option maxHeartbeats 40000000 in
theorem ch22_writes : (ch22 : List (HloOp τ sig (Elt F))).Forall fun op => op.writes ⊆ (wr22.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-- Operations 500 … 504 of the reference program, in order. -/
abbrev ch23 : List (HloOp τ sig (Elt F)) :=
  [ nary ![main_v27, main_v229, main_v85, main_v287, main_v147, main_v349, main_v205, main_v407] main_v408 (fun u => concatenate S8192x400 1 [⟨S8192x50, u 0⟩, ⟨S8192x50, u 1⟩, ⟨S8192x50, u 2⟩, ⟨S8192x50, u 3⟩, ⟨S8192x50, u 4⟩, ⟨S8192x50, u 5⟩, ⟨S8192x50, u 6⟩, ⟨S8192x50, u 7⟩] concatenates_S8192x50_S8192x50_S8192x50_S8192x50_S8192x50_S8192x50_S8192x50_S8192x50_S8192x400_d1),
    binary main_v408 main_arg7 main_v409 ((fun l r => Host.dotGeneral dot_S8192x400_S400x300_S8192x300_1_0_0_1_n_n none l r) : (⟨S8192x400, .f32⟩ : BufTy).Contents (Elt F) → (⟨S400x300, .f32⟩ : BufTy).Contents (Elt F) → (⟨S8192x300, .f32⟩ : BufTy).Contents (Elt F)),
    unary main_arg8 main_v410 (broadcastInDim S1x300 ![1] bcast_S300_S1x300_1 : (⟨S300, .f32⟩ : BufTy).Contents (Elt F) → (⟨S1x300, .f32⟩ : BufTy).Contents (Elt F)),
    unary main_v410 main_v411 (broadcastInDim S8192x300 ![0, 1] bcast_S1x300_S8192x300_0_1 : (⟨S1x300, .f32⟩ : BufTy).Contents (Elt F) → (⟨S8192x300, .f32⟩ : BufTy).Contents (Elt F)),
    binary main_v409 main_v411 main_v412 (addf : (⟨S8192x300, .f32⟩ : BufTy).Contents (Elt F) → (⟨S8192x300, .f32⟩ : BufTy).Contents (Elt F) → (⟨S8192x300, .f32⟩ : BufTy).Contents (Elt F)) ]
theorem ch23_sub : (ch23 : List (HloOp τ sig (Elt F))).Forall fun op => op.bufs ⊆ tcRefs τ sig :=
  ⟨nary_bufs_sub .., binary_bufs_sub .., unary_bufs_sub .., unary_bufs_sub .., binary_bufs_sub ..⟩
theorem ch23_fresh : (ch23 : List (HloOp τ sig (Elt F))).Forall fun op => op.fresh = ∅ := by
  simp only [List.Forall]; repeat' constructor
/-- The buffers they write: one result each. -/
abbrev wr23 : List (Ref sig .tc) := [main_v408, main_v409, main_v410, main_v411, main_v412]
set_option maxHeartbeats 40000000 in
theorem ch23_writes : (ch23 : List (HloOp τ sig (Elt F))).Forall fun op => op.writes ⊆ (wr23.map (Proc.devRef (τ := τ) .tc)).toFinset := by
  simp only [List.Forall]
  simp only [TRef.nullary, TRef.unary, TRef.binary, TRef.of, nullary_writes, unary_writes, binary_writes, reshape_writes, nary_writes, Finset.singleton_subset_iff, List.mem_toFinset]
  repeat' apply And.intro
  all_goals exact List.mem_map_of_mem (by decide)

/-! ## The windows, and the whole line -/

set_option maxRecDepth 8192 in
set_option maxHeartbeats 4000000 in
/-- Window 0 of the program's main function is its stretches run in order. -/
theorem part0_eq (d : Dev nD) : main_part0 (F := F) d = seq (ch0 ++ (ch1 ++ (ch2))) := rfl

set_option maxRecDepth 8192 in
set_option maxHeartbeats 4000000 in
/-- Window 1 of the program's main function is its stretches run in order. -/
theorem part1_eq (d : Dev nD) : main_part1 (F := F) d = seq (ch3 ++ (ch4 ++ (ch5))) := rfl

set_option maxRecDepth 8192 in
set_option maxHeartbeats 4000000 in
/-- Window 2 of the program's main function is its stretches run in order. -/
theorem part2_eq (d : Dev nD) : main_part2 (F := F) d = seq (ch6 ++ (ch7 ++ (ch8))) := rfl

set_option maxRecDepth 8192 in
set_option maxHeartbeats 4000000 in
/-- Window 3 of the program's main function is its stretches run in order. -/
theorem part3_eq (d : Dev nD) : main_part3 (F := F) d = seq (ch9 ++ (ch10 ++ (ch11))) := rfl

set_option maxRecDepth 8192 in
set_option maxHeartbeats 4000000 in
/-- Window 4 of the program's main function is its stretches run in order. -/
theorem part4_eq (d : Dev nD) : main_part4 (F := F) d = seq (ch12 ++ (ch13 ++ (ch14))) := rfl

set_option maxRecDepth 8192 in
set_option maxHeartbeats 4000000 in
/-- Window 5 of the program's main function is its stretches run in order. -/
theorem part5_eq (d : Dev nD) : main_part5 (F := F) d = seq (ch15 ++ (ch16 ++ (ch17))) := rfl

set_option maxRecDepth 8192 in
set_option maxHeartbeats 4000000 in
/-- Window 6 of the program's main function is its stretches run in order. -/
theorem part6_eq (d : Dev nD) : main_part6 (F := F) d = seq (ch18 ++ (ch19 ++ (ch20))) := rfl

set_option maxRecDepth 8192 in
set_option maxHeartbeats 4000000 in
/-- Window 7 of the program's main function is its stretches run in order. -/
theorem part7_eq (d : Dev nD) : main_part7 (F := F) d = seq (ch21 ++ (ch22 ++ (ch23))) := rfl

/-- Every operation of the program, in order. -/
abbrev allOps : List (HloOp τ sig (Elt F)) := ch0 ++ (ch1 ++ (ch2 ++ (ch3 ++ (ch4 ++ (ch5 ++ (ch6 ++ (ch7 ++ (ch8 ++ (ch9 ++ (ch10 ++ (ch11 ++ (ch12 ++ (ch13 ++ (ch14 ++ (ch15 ++ (ch16 ++ (ch17 ++ (ch18 ++ (ch19 ++ (ch20 ++ (ch21 ++ (ch22 ++ (ch23)))))))))))))))))))))))

/-- The main function is the line of all its operations. -/
theorem main_line (d : Dev nD) : main (F := F) d = seq allOps := by
  show (main_part0 (F := F) d >>= fun _ => main_part1 (F := F) d >>= fun _ => main_part2 (F := F) d >>= fun _ => main_part3 (F := F) d >>= fun _ => main_part4 (F := F) d >>= fun _ => main_part5 (F := F) d >>= fun _ => main_part6 (F := F) d >>= fun _ => main_part7 (F := F) d) = _
  rw [part0_eq, part1_eq, part2_eq, part3_eq, part4_eq, part5_eq, part6_eq, part7_eq]
  simp only [allOps, seq_append, bind_assoc]

theorem allOps_sub : (allOps : List (HloOp τ sig (Elt F))).Forall fun op => op.bufs ⊆ tcRefs τ sig :=
  Forall.append' ch0_sub (Forall.append' ch1_sub (Forall.append' ch2_sub (Forall.append' ch3_sub (Forall.append' ch4_sub (Forall.append' ch5_sub (Forall.append' ch6_sub (Forall.append' ch7_sub (Forall.append' ch8_sub (Forall.append' ch9_sub (Forall.append' ch10_sub (Forall.append' ch11_sub (Forall.append' ch12_sub (Forall.append' ch13_sub (Forall.append' ch14_sub (Forall.append' ch15_sub (Forall.append' ch16_sub (Forall.append' ch17_sub (Forall.append' ch18_sub (Forall.append' ch19_sub (Forall.append' ch20_sub (Forall.append' ch21_sub (Forall.append' ch22_sub (ch23_sub)))))))))))))))))))))))
theorem allOps_fresh : (allOps : List (HloOp τ sig (Elt F))).Forall fun op => op.fresh = ∅ :=
  Forall.append' ch0_fresh (Forall.append' ch1_fresh (Forall.append' ch2_fresh (Forall.append' ch3_fresh (Forall.append' ch4_fresh (Forall.append' ch5_fresh (Forall.append' ch6_fresh (Forall.append' ch7_fresh (Forall.append' ch8_fresh (Forall.append' ch9_fresh (Forall.append' ch10_fresh (Forall.append' ch11_fresh (Forall.append' ch12_fresh (Forall.append' ch13_fresh (Forall.append' ch14_fresh (Forall.append' ch15_fresh (Forall.append' ch16_fresh (Forall.append' ch17_fresh (Forall.append' ch18_fresh (Forall.append' ch19_fresh (Forall.append' ch20_fresh (Forall.append' ch21_fresh (Forall.append' ch22_fresh (ch23_fresh)))))))))))))))))))))))

theorem noScopedRefs : (Finset.univ.filter fun b : Ref sig .tc => b.isScoped) = ∅ := by decide
theorem noScopedSems : (Finset.univ.filter fun sm : SemLoc sig => sm.isScoped .tc) = ∅ := by decide

end

/-! ## The contents at each boundary -/

variable (m : (ℓ : Loc nD τ sig) → Buf (Elt Ideal) ℓ)

/-- The buffer contents at launch. -/
def U0 (c : Dev nD) : Valuation τ sig (Elt Ideal) := launchContents m c
/-- After stretch 0. -/
def U1 (c : Dev nD) : Valuation τ sig (Elt Ideal) := after (ch0 (F := Ideal)) (U0 m c)
theorem U1_of (c : Dev nD) (r : Ref sig .tc) (h : r ∉ wr0) : U1 m c (Proc.devRef .tc r) = U0 m c (Proc.devRef .tc r) :=
  after_of_writes_sub (ch0 (F := Ideal)) _ ch0_writes h
/-- After stretch 1. -/
def U2 (c : Dev nD) : Valuation τ sig (Elt Ideal) := after (ch1 (F := Ideal)) (U1 m c)
theorem U2_of (c : Dev nD) (r : Ref sig .tc) (h : r ∉ wr1) : U2 m c (Proc.devRef .tc r) = U1 m c (Proc.devRef .tc r) :=
  after_of_writes_sub (ch1 (F := Ideal)) _ ch1_writes h
/-- After stretch 2. -/
def U3 (c : Dev nD) : Valuation τ sig (Elt Ideal) := after (ch2 (F := Ideal)) (U2 m c)
theorem U3_of (c : Dev nD) (r : Ref sig .tc) (h : r ∉ wr2) : U3 m c (Proc.devRef .tc r) = U2 m c (Proc.devRef .tc r) :=
  after_of_writes_sub (ch2 (F := Ideal)) _ ch2_writes h
/-- After stretch 3. -/
def U4 (c : Dev nD) : Valuation τ sig (Elt Ideal) := after (ch3 (F := Ideal)) (U3 m c)
theorem U4_of (c : Dev nD) (r : Ref sig .tc) (h : r ∉ wr3) : U4 m c (Proc.devRef .tc r) = U3 m c (Proc.devRef .tc r) :=
  after_of_writes_sub (ch3 (F := Ideal)) _ ch3_writes h
/-- After stretch 4. -/
def U5 (c : Dev nD) : Valuation τ sig (Elt Ideal) := after (ch4 (F := Ideal)) (U4 m c)
theorem U5_of (c : Dev nD) (r : Ref sig .tc) (h : r ∉ wr4) : U5 m c (Proc.devRef .tc r) = U4 m c (Proc.devRef .tc r) :=
  after_of_writes_sub (ch4 (F := Ideal)) _ ch4_writes h
/-- After stretch 5. -/
def U6 (c : Dev nD) : Valuation τ sig (Elt Ideal) := after (ch5 (F := Ideal)) (U5 m c)
theorem U6_of (c : Dev nD) (r : Ref sig .tc) (h : r ∉ wr5) : U6 m c (Proc.devRef .tc r) = U5 m c (Proc.devRef .tc r) :=
  after_of_writes_sub (ch5 (F := Ideal)) _ ch5_writes h
/-- After stretch 6. -/
def U7 (c : Dev nD) : Valuation τ sig (Elt Ideal) := after (ch6 (F := Ideal)) (U6 m c)
theorem U7_of (c : Dev nD) (r : Ref sig .tc) (h : r ∉ wr6) : U7 m c (Proc.devRef .tc r) = U6 m c (Proc.devRef .tc r) :=
  after_of_writes_sub (ch6 (F := Ideal)) _ ch6_writes h
/-- After stretch 7. -/
def U8 (c : Dev nD) : Valuation τ sig (Elt Ideal) := after (ch7 (F := Ideal)) (U7 m c)
theorem U8_of (c : Dev nD) (r : Ref sig .tc) (h : r ∉ wr7) : U8 m c (Proc.devRef .tc r) = U7 m c (Proc.devRef .tc r) :=
  after_of_writes_sub (ch7 (F := Ideal)) _ ch7_writes h
/-- After stretch 8. -/
def U9 (c : Dev nD) : Valuation τ sig (Elt Ideal) := after (ch8 (F := Ideal)) (U8 m c)
theorem U9_of (c : Dev nD) (r : Ref sig .tc) (h : r ∉ wr8) : U9 m c (Proc.devRef .tc r) = U8 m c (Proc.devRef .tc r) :=
  after_of_writes_sub (ch8 (F := Ideal)) _ ch8_writes h
/-- After stretch 9. -/
def U10 (c : Dev nD) : Valuation τ sig (Elt Ideal) := after (ch9 (F := Ideal)) (U9 m c)
theorem U10_of (c : Dev nD) (r : Ref sig .tc) (h : r ∉ wr9) : U10 m c (Proc.devRef .tc r) = U9 m c (Proc.devRef .tc r) :=
  after_of_writes_sub (ch9 (F := Ideal)) _ ch9_writes h
/-- After stretch 10. -/
def U11 (c : Dev nD) : Valuation τ sig (Elt Ideal) := after (ch10 (F := Ideal)) (U10 m c)
theorem U11_of (c : Dev nD) (r : Ref sig .tc) (h : r ∉ wr10) : U11 m c (Proc.devRef .tc r) = U10 m c (Proc.devRef .tc r) :=
  after_of_writes_sub (ch10 (F := Ideal)) _ ch10_writes h
/-- After stretch 11. -/
def U12 (c : Dev nD) : Valuation τ sig (Elt Ideal) := after (ch11 (F := Ideal)) (U11 m c)
theorem U12_of (c : Dev nD) (r : Ref sig .tc) (h : r ∉ wr11) : U12 m c (Proc.devRef .tc r) = U11 m c (Proc.devRef .tc r) :=
  after_of_writes_sub (ch11 (F := Ideal)) _ ch11_writes h
/-- After stretch 12. -/
def U13 (c : Dev nD) : Valuation τ sig (Elt Ideal) := after (ch12 (F := Ideal)) (U12 m c)
theorem U13_of (c : Dev nD) (r : Ref sig .tc) (h : r ∉ wr12) : U13 m c (Proc.devRef .tc r) = U12 m c (Proc.devRef .tc r) :=
  after_of_writes_sub (ch12 (F := Ideal)) _ ch12_writes h
/-- After stretch 13. -/
def U14 (c : Dev nD) : Valuation τ sig (Elt Ideal) := after (ch13 (F := Ideal)) (U13 m c)
theorem U14_of (c : Dev nD) (r : Ref sig .tc) (h : r ∉ wr13) : U14 m c (Proc.devRef .tc r) = U13 m c (Proc.devRef .tc r) :=
  after_of_writes_sub (ch13 (F := Ideal)) _ ch13_writes h
/-- After stretch 14. -/
def U15 (c : Dev nD) : Valuation τ sig (Elt Ideal) := after (ch14 (F := Ideal)) (U14 m c)
theorem U15_of (c : Dev nD) (r : Ref sig .tc) (h : r ∉ wr14) : U15 m c (Proc.devRef .tc r) = U14 m c (Proc.devRef .tc r) :=
  after_of_writes_sub (ch14 (F := Ideal)) _ ch14_writes h
/-- After stretch 15. -/
def U16 (c : Dev nD) : Valuation τ sig (Elt Ideal) := after (ch15 (F := Ideal)) (U15 m c)
theorem U16_of (c : Dev nD) (r : Ref sig .tc) (h : r ∉ wr15) : U16 m c (Proc.devRef .tc r) = U15 m c (Proc.devRef .tc r) :=
  after_of_writes_sub (ch15 (F := Ideal)) _ ch15_writes h
/-- After stretch 16. -/
def U17 (c : Dev nD) : Valuation τ sig (Elt Ideal) := after (ch16 (F := Ideal)) (U16 m c)
theorem U17_of (c : Dev nD) (r : Ref sig .tc) (h : r ∉ wr16) : U17 m c (Proc.devRef .tc r) = U16 m c (Proc.devRef .tc r) :=
  after_of_writes_sub (ch16 (F := Ideal)) _ ch16_writes h
/-- After stretch 17. -/
def U18 (c : Dev nD) : Valuation τ sig (Elt Ideal) := after (ch17 (F := Ideal)) (U17 m c)
theorem U18_of (c : Dev nD) (r : Ref sig .tc) (h : r ∉ wr17) : U18 m c (Proc.devRef .tc r) = U17 m c (Proc.devRef .tc r) :=
  after_of_writes_sub (ch17 (F := Ideal)) _ ch17_writes h
/-- After stretch 18. -/
def U19 (c : Dev nD) : Valuation τ sig (Elt Ideal) := after (ch18 (F := Ideal)) (U18 m c)
theorem U19_of (c : Dev nD) (r : Ref sig .tc) (h : r ∉ wr18) : U19 m c (Proc.devRef .tc r) = U18 m c (Proc.devRef .tc r) :=
  after_of_writes_sub (ch18 (F := Ideal)) _ ch18_writes h
/-- After stretch 19. -/
def U20 (c : Dev nD) : Valuation τ sig (Elt Ideal) := after (ch19 (F := Ideal)) (U19 m c)
theorem U20_of (c : Dev nD) (r : Ref sig .tc) (h : r ∉ wr19) : U20 m c (Proc.devRef .tc r) = U19 m c (Proc.devRef .tc r) :=
  after_of_writes_sub (ch19 (F := Ideal)) _ ch19_writes h
/-- After stretch 20. -/
def U21 (c : Dev nD) : Valuation τ sig (Elt Ideal) := after (ch20 (F := Ideal)) (U20 m c)
theorem U21_of (c : Dev nD) (r : Ref sig .tc) (h : r ∉ wr20) : U21 m c (Proc.devRef .tc r) = U20 m c (Proc.devRef .tc r) :=
  after_of_writes_sub (ch20 (F := Ideal)) _ ch20_writes h
/-- After stretch 21. -/
def U22 (c : Dev nD) : Valuation τ sig (Elt Ideal) := after (ch21 (F := Ideal)) (U21 m c)
theorem U22_of (c : Dev nD) (r : Ref sig .tc) (h : r ∉ wr21) : U22 m c (Proc.devRef .tc r) = U21 m c (Proc.devRef .tc r) :=
  after_of_writes_sub (ch21 (F := Ideal)) _ ch21_writes h
/-- After stretch 22. -/
def U23 (c : Dev nD) : Valuation τ sig (Elt Ideal) := after (ch22 (F := Ideal)) (U22 m c)
theorem U23_of (c : Dev nD) (r : Ref sig .tc) (h : r ∉ wr22) : U23 m c (Proc.devRef .tc r) = U22 m c (Proc.devRef .tc r) :=
  after_of_writes_sub (ch22 (F := Ideal)) _ ch22_writes h
/-- After stretch 23. -/
def U24 (c : Dev nD) : Valuation τ sig (Elt Ideal) := after (ch23 (F := Ideal)) (U23 m c)
theorem U24_of (c : Dev nD) (r : Ref sig .tc) (h : r ∉ wr23) : U24 m c (Proc.devRef .tc r) = U23 m c (Proc.devRef .tc r) :=
  after_of_writes_sub (ch23 (F := Ideal)) _ ch23_writes h

theorem after_ops (c : Dev nD) : after (allOps (F := Ideal)) (launchContents m c) = U24 m c := by
  simp only [allOps, after_append]
  rfl

/-- The nine argument arrays of core `c` at launch. -/
def rins (c : Dev nD) : Ins :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

end Cert.Bridge

end
-- ==== Proof.Ideal.RefRunP0.lean ====
/-
  The reference program's run read as values, continued: the value of every buffer a later stretch reads, at every boundary
  (one lemma per buffer and boundary, in dependency order).
-/
import proofs.«174668_j26645977104432_2_alg».proof.Proof.Ideal.RefRunDefs

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb0_main_arg1 (c : Dev nD) : U0 m c (Proc.devRef .tc main_arg1) = (rins m c).x1 := rfl

theorem rb0_main_arg0 (c : Dev nD) : U0 m c (Proc.devRef .tc main_arg0) = (rins m c).x0 := rfl

theorem rb0_main_arg3 (c : Dev nD) : U0 m c (Proc.devRef .tc main_arg3) = (rins m c).x3 := rfl

theorem rb0_main_arg4 (c : Dev nD) : U0 m c (Proc.devRef .tc main_arg4) = (rins m c).x4 := rfl

set_option maxRecDepth 65536 in
set_option maxHeartbeats 4000000 in
theorem rb1_main_v18 (c : Dev nD) : U1 m c (Proc.devRef .tc main_v18) = cv_18 (rins m c) := by
  show after (ch0 (F := Ideal)) (U0 m c) (Proc.devRef .tc main_v18) = _
  after_results_simp
  show (mulf (F := Ideal) (φ := .f32) (broadcastInDim S8192x50 ![] bcast_S_S8192x50 (constant (F := Ideal) S_ .f32 0x3E4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U0 m c (Proc.devRef .tc main_arg1)) (Host.dotGeneral (F := Ideal) (φ₁ := .f32) (φ₂ := .f32) dot_S8192x50_S50x50_S8192x50_1_0_0_1_n_n none (extractStridedSlice S8192x50 ![0, 0] (U0 m c (Proc.devRef .tc main_arg0)) slices_S8192x200_S8192x50_0_0) (U0 m c (Proc.devRef .tc main_arg3)))) (broadcastInDim S8192x50 ![0, 1] bcast_S1x50_S8192x50_0_1 (broadcastInDim S1x50 ![1] bcast_S50_S1x50_1 (U0 m c (Proc.devRef .tc main_arg4))))) (broadcastInDim S8192x50 ![] bcast_S_S8192x50 (constant (F := Ideal) S_ .f32 0x00000000#32)))) = _
  try rw [rb0_main_arg1 m c]
  try rw [rb0_main_arg0 m c]
  try rw [rb0_main_arg3 m c]
  try rw [rb0_main_arg4 m c]
  rfl

theorem rb0_main_arg2 (c : Dev nD) : U0 m c (Proc.devRef .tc main_arg2) = (rins m c).x2 := rfl

theorem rb1_main_arg2 (c : Dev nD) : U1 m c (Proc.devRef .tc main_arg2) = (rins m c).x2 :=
  (U1_of m c main_arg2 (by decide)).trans (rb0_main_arg2 m c)

set_option maxRecDepth 65536 in
set_option maxHeartbeats 4000000 in
theorem rb1_main_v19 (c : Dev nD) : U1 m c (Proc.devRef .tc main_v19) = cv_19 (rins m c) := by
  show after (ch0 (F := Ideal)) (U0 m c) (Proc.devRef .tc main_v19) = _
  after_results_simp
  show (Host.dotGeneral (F := Ideal) (φ₁ := .f32) (φ₂ := .f32) dot_S8192x50_S50x50_S8192x50_1_0_0_1_n_n none (addf (F := Ideal) (φ := .f32) (extractStridedSlice S8192x50 ![0, 0] (U0 m c (Proc.devRef .tc main_arg0)) slices_S8192x200_S8192x50_0_0) (maximumf (F := Ideal) (φ := .f32) (addf (F := Ideal) (φ := .f32) (Host.dotGeneral (F := Ideal) (φ₁ := .f32) (φ₂ := .f32) dot_S8192x8192_S8192x50_S8192x50_1_0_0_1_n_n none (U0 m c (Proc.devRef .tc main_arg2)) (Host.dotGeneral (F := Ideal) (φ₁ := .f32) (φ₂ := .f32) dot_S8192x50_S50x50_S8192x50_1_0_0_1_n_n none (extractStridedSlice S8192x50 ![0, 0] (U0 m c (Proc.devRef .tc main_arg0)) slices_S8192x200_S8192x50_0_0) (U0 m c (Proc.devRef .tc main_arg3)))) (broadcastInDim S8192x50 ![0, 1] bcast_S1x50_S8192x50_0_1 (broadcastInDim S1x50 ![1] bcast_S50_S1x50_1 (U0 m c (Proc.devRef .tc main_arg4))))) (broadcastInDim S8192x50 ![] bcast_S_S8192x50 (constant (F := Ideal) S_ .f32 0x00000000#32)))) (U0 m c (Proc.devRef .tc main_arg3))) = _
  try rw [rb0_main_arg0 m c]
  try rw [rb0_main_arg2 m c]
  try rw [rb0_main_arg3 m c]
  try rw [rb0_main_arg4 m c]
  rfl

theorem rb1_main_arg4 (c : Dev nD) : U1 m c (Proc.devRef .tc main_arg4) = (rins m c).x4 :=
  (U1_of m c main_arg4 (by decide)).trans (rb0_main_arg4 m c)

set_option maxRecDepth 65536 in
set_option maxHeartbeats 4000000 in
theorem rb2_main_v27 (c : Dev nD) : U2 m c (Proc.devRef .tc main_v27) = cv_26 (rins m c) := by
  show after (ch1 (F := Ideal)) (U1 m c) (Proc.devRef .tc main_v27) = _
  after_results_simp
  show (addf (F := Ideal) (φ := .f32) (U1 m c (Proc.devRef .tc main_v18)) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U1 m c (Proc.devRef .tc main_arg2)) (U1 m c (Proc.devRef .tc main_v19))) (broadcastInDim S8192x50 ![0, 1] bcast_S1x50_S8192x50_0_1 (broadcastInDim S1x50 ![1] bcast_S50_S1x50_1 (U1 m c (Proc.devRef .tc main_arg4))))) (broadcastInDim S8192x50 ![] bcast_S_S8192x50 (constant (F := Ideal) S_ .f32 0x00000000#32))))) = _
  try rw [rb1_main_v18 m c]
  try rw [rb1_main_arg2 m c]
  try rw [rb1_main_v19 m c]
  try rw [rb1_main_arg4 m c]
  rfl

theorem rb3_main_v27 (c : Dev nD) : U3 m c (Proc.devRef .tc main_v27) = cv_26 (rins m c) :=
  (U3_of m c main_v27 (by decide)).trans (rb2_main_v27 m c)

theorem rb4_main_v27 (c : Dev nD) : U4 m c (Proc.devRef .tc main_v27) = cv_26 (rins m c) :=
  (U4_of m c main_v27 (by decide)).trans (rb3_main_v27 m c)

theorem rb5_main_v27 (c : Dev nD) : U5 m c (Proc.devRef .tc main_v27) = cv_26 (rins m c) :=
  (U5_of m c main_v27 (by decide)).trans (rb4_main_v27 m c)

theorem rb6_main_v27 (c : Dev nD) : U6 m c (Proc.devRef .tc main_v27) = cv_26 (rins m c) :=
  (U6_of m c main_v27 (by decide)).trans (rb5_main_v27 m c)

theorem rb7_main_v27 (c : Dev nD) : U7 m c (Proc.devRef .tc main_v27) = cv_26 (rins m c) :=
  (U7_of m c main_v27 (by decide)).trans (rb6_main_v27 m c)

theorem rb8_main_v27 (c : Dev nD) : U8 m c (Proc.devRef .tc main_v27) = cv_26 (rins m c) :=
  (U8_of m c main_v27 (by decide)).trans (rb7_main_v27 m c)

theorem rb9_main_v27 (c : Dev nD) : U9 m c (Proc.devRef .tc main_v27) = cv_26 (rins m c) :=
  (U9_of m c main_v27 (by decide)).trans (rb8_main_v27 m c)

theorem rb10_main_v27 (c : Dev nD) : U10 m c (Proc.devRef .tc main_v27) = cv_26 (rins m c) :=
  (U10_of m c main_v27 (by decide)).trans (rb9_main_v27 m c)

theorem rb11_main_v27 (c : Dev nD) : U11 m c (Proc.devRef .tc main_v27) = cv_26 (rins m c) :=
  (U11_of m c main_v27 (by decide)).trans (rb10_main_v27 m c)

theorem rb12_main_v27 (c : Dev nD) : U12 m c (Proc.devRef .tc main_v27) = cv_26 (rins m c) :=
  (U12_of m c main_v27 (by decide)).trans (rb11_main_v27 m c)

theorem rb13_main_v27 (c : Dev nD) : U13 m c (Proc.devRef .tc main_v27) = cv_26 (rins m c) :=
  (U13_of m c main_v27 (by decide)).trans (rb12_main_v27 m c)

theorem rb14_main_v27 (c : Dev nD) : U14 m c (Proc.devRef .tc main_v27) = cv_26 (rins m c) :=
  (U14_of m c main_v27 (by decide)).trans (rb13_main_v27 m c)

theorem rb15_main_v27 (c : Dev nD) : U15 m c (Proc.devRef .tc main_v27) = cv_26 (rins m c) :=
  (U15_of m c main_v27 (by decide)).trans (rb14_main_v27 m c)

theorem rb16_main_v27 (c : Dev nD) : U16 m c (Proc.devRef .tc main_v27) = cv_26 (rins m c) :=
  (U16_of m c main_v27 (by decide)).trans (rb15_main_v27 m c)

theorem rb17_main_v27 (c : Dev nD) : U17 m c (Proc.devRef .tc main_v27) = cv_26 (rins m c) :=
  (U17_of m c main_v27 (by decide)).trans (rb16_main_v27 m c)

theorem rb18_main_v27 (c : Dev nD) : U18 m c (Proc.devRef .tc main_v27) = cv_26 (rins m c) :=
  (U18_of m c main_v27 (by decide)).trans (rb17_main_v27 m c)

theorem rb19_main_v27 (c : Dev nD) : U19 m c (Proc.devRef .tc main_v27) = cv_26 (rins m c) :=
  (U19_of m c main_v27 (by decide)).trans (rb18_main_v27 m c)

theorem rb20_main_v27 (c : Dev nD) : U20 m c (Proc.devRef .tc main_v27) = cv_26 (rins m c) :=
  (U20_of m c main_v27 (by decide)).trans (rb19_main_v27 m c)

theorem rb21_main_v27 (c : Dev nD) : U21 m c (Proc.devRef .tc main_v27) = cv_26 (rins m c) :=
  (U21_of m c main_v27 (by decide)).trans (rb20_main_v27 m c)

theorem rb22_main_v27 (c : Dev nD) : U22 m c (Proc.devRef .tc main_v27) = cv_26 (rins m c) :=
  (U22_of m c main_v27 (by decide)).trans (rb21_main_v27 m c)

end Cert.Bridge

end
-- ==== Proof.Ideal.RefRunP1.lean ====
/-
  The reference program's run read as values, continued: the value of every buffer a later stretch reads, at every boundary
  (one lemma per buffer and boundary, in dependency order).
-/
import proofs.«174668_j26645977104432_2_alg».proof.Proof.Ideal.RefRunP0

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb23_main_v27 (c : Dev nD) : U23 m c (Proc.devRef .tc main_v27) = cv_26 (rins m c) :=
  (U23_of m c main_v27 (by decide)).trans (rb22_main_v27 m c)

theorem rb2_main_arg2 (c : Dev nD) : U2 m c (Proc.devRef .tc main_arg2) = (rins m c).x2 :=
  (U2_of m c main_arg2 (by decide)).trans (rb1_main_arg2 m c)

theorem rb3_main_arg2 (c : Dev nD) : U3 m c (Proc.devRef .tc main_arg2) = (rins m c).x2 :=
  (U3_of m c main_arg2 (by decide)).trans (rb2_main_arg2 m c)

theorem rb4_main_arg2 (c : Dev nD) : U4 m c (Proc.devRef .tc main_arg2) = (rins m c).x2 :=
  (U4_of m c main_arg2 (by decide)).trans (rb3_main_arg2 m c)

theorem rb5_main_arg2 (c : Dev nD) : U5 m c (Proc.devRef .tc main_arg2) = (rins m c).x2 :=
  (U5_of m c main_arg2 (by decide)).trans (rb4_main_arg2 m c)

theorem rb6_main_arg2 (c : Dev nD) : U6 m c (Proc.devRef .tc main_arg2) = (rins m c).x2 :=
  (U6_of m c main_arg2 (by decide)).trans (rb5_main_arg2 m c)

theorem rb7_main_arg2 (c : Dev nD) : U7 m c (Proc.devRef .tc main_arg2) = (rins m c).x2 :=
  (U7_of m c main_arg2 (by decide)).trans (rb6_main_arg2 m c)

theorem rb8_main_arg2 (c : Dev nD) : U8 m c (Proc.devRef .tc main_arg2) = (rins m c).x2 :=
  (U8_of m c main_arg2 (by decide)).trans (rb7_main_arg2 m c)

theorem rb9_main_arg2 (c : Dev nD) : U9 m c (Proc.devRef .tc main_arg2) = (rins m c).x2 :=
  (U9_of m c main_arg2 (by decide)).trans (rb8_main_arg2 m c)

theorem rb10_main_arg2 (c : Dev nD) : U10 m c (Proc.devRef .tc main_arg2) = (rins m c).x2 :=
  (U10_of m c main_arg2 (by decide)).trans (rb9_main_arg2 m c)

theorem rb11_main_arg2 (c : Dev nD) : U11 m c (Proc.devRef .tc main_arg2) = (rins m c).x2 :=
  (U11_of m c main_arg2 (by decide)).trans (rb10_main_arg2 m c)

set_option maxRecDepth 65536 in
set_option maxHeartbeats 4000000 in
theorem rb1_main_v0 (c : Dev nD) : U1 m c (Proc.devRef .tc main_v0) = cv_0 (rins m c) := by
  show after (ch0 (F := Ideal)) (U0 m c) (Proc.devRef .tc main_v0) = _
  after_results_simp
  show (extractStridedSlice S8192x50 ![0, 0] (U0 m c (Proc.devRef .tc main_arg0)) slices_S8192x200_S8192x50_0_0) = _
  try rw [rb0_main_arg0 m c]
  rfl

theorem rb2_main_v0 (c : Dev nD) : U2 m c (Proc.devRef .tc main_v0) = cv_0 (rins m c) :=
  (U2_of m c main_v0 (by decide)).trans (rb1_main_v0 m c)

theorem rb3_main_v0 (c : Dev nD) : U3 m c (Proc.devRef .tc main_v0) = cv_0 (rins m c) :=
  (U3_of m c main_v0 (by decide)).trans (rb2_main_v0 m c)

theorem rb4_main_v0 (c : Dev nD) : U4 m c (Proc.devRef .tc main_v0) = cv_0 (rins m c) :=
  (U4_of m c main_v0 (by decide)).trans (rb3_main_v0 m c)

theorem rb5_main_v0 (c : Dev nD) : U5 m c (Proc.devRef .tc main_v0) = cv_0 (rins m c) :=
  (U5_of m c main_v0 (by decide)).trans (rb4_main_v0 m c)

theorem rb6_main_v0 (c : Dev nD) : U6 m c (Proc.devRef .tc main_v0) = cv_0 (rins m c) :=
  (U6_of m c main_v0 (by decide)).trans (rb5_main_v0 m c)

theorem rb7_main_v0 (c : Dev nD) : U7 m c (Proc.devRef .tc main_v0) = cv_0 (rins m c) :=
  (U7_of m c main_v0 (by decide)).trans (rb6_main_v0 m c)

theorem rb8_main_v0 (c : Dev nD) : U8 m c (Proc.devRef .tc main_v0) = cv_0 (rins m c) :=
  (U8_of m c main_v0 (by decide)).trans (rb7_main_v0 m c)

theorem rb9_main_v0 (c : Dev nD) : U9 m c (Proc.devRef .tc main_v0) = cv_0 (rins m c) :=
  (U9_of m c main_v0 (by decide)).trans (rb8_main_v0 m c)

theorem rb10_main_v0 (c : Dev nD) : U10 m c (Proc.devRef .tc main_v0) = cv_0 (rins m c) :=
  (U10_of m c main_v0 (by decide)).trans (rb9_main_v0 m c)

theorem rb11_main_v0 (c : Dev nD) : U11 m c (Proc.devRef .tc main_v0) = cv_0 (rins m c) :=
  (U11_of m c main_v0 (by decide)).trans (rb10_main_v0 m c)

theorem rb1_main_arg3 (c : Dev nD) : U1 m c (Proc.devRef .tc main_arg3) = (rins m c).x3 :=
  (U1_of m c main_arg3 (by decide)).trans (rb0_main_arg3 m c)

theorem rb2_main_arg3 (c : Dev nD) : U2 m c (Proc.devRef .tc main_arg3) = (rins m c).x3 :=
  (U2_of m c main_arg3 (by decide)).trans (rb1_main_arg3 m c)

theorem rb3_main_arg3 (c : Dev nD) : U3 m c (Proc.devRef .tc main_arg3) = (rins m c).x3 :=
  (U3_of m c main_arg3 (by decide)).trans (rb2_main_arg3 m c)

theorem rb4_main_arg3 (c : Dev nD) : U4 m c (Proc.devRef .tc main_arg3) = (rins m c).x3 :=
  (U4_of m c main_arg3 (by decide)).trans (rb3_main_arg3 m c)

theorem rb5_main_arg3 (c : Dev nD) : U5 m c (Proc.devRef .tc main_arg3) = (rins m c).x3 :=
  (U5_of m c main_arg3 (by decide)).trans (rb4_main_arg3 m c)

theorem rb6_main_arg3 (c : Dev nD) : U6 m c (Proc.devRef .tc main_arg3) = (rins m c).x3 :=
  (U6_of m c main_arg3 (by decide)).trans (rb5_main_arg3 m c)

theorem rb7_main_arg3 (c : Dev nD) : U7 m c (Proc.devRef .tc main_arg3) = (rins m c).x3 :=
  (U7_of m c main_arg3 (by decide)).trans (rb6_main_arg3 m c)

theorem rb8_main_arg3 (c : Dev nD) : U8 m c (Proc.devRef .tc main_arg3) = (rins m c).x3 :=
  (U8_of m c main_arg3 (by decide)).trans (rb7_main_arg3 m c)

end Cert.Bridge

end
-- ==== Proof.Ideal.RefRunP2.lean ====
/-
  The reference program's run read as values, continued: the value of every buffer a later stretch reads, at every boundary
  (one lemma per buffer and boundary, in dependency order).
-/
import proofs.«174668_j26645977104432_2_alg».proof.Proof.Ideal.RefRunP1

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb9_main_arg3 (c : Dev nD) : U9 m c (Proc.devRef .tc main_arg3) = (rins m c).x3 :=
  (U9_of m c main_arg3 (by decide)).trans (rb8_main_arg3 m c)

theorem rb10_main_arg3 (c : Dev nD) : U10 m c (Proc.devRef .tc main_arg3) = (rins m c).x3 :=
  (U10_of m c main_arg3 (by decide)).trans (rb9_main_arg3 m c)

theorem rb11_main_arg3 (c : Dev nD) : U11 m c (Proc.devRef .tc main_arg3) = (rins m c).x3 :=
  (U11_of m c main_arg3 (by decide)).trans (rb10_main_arg3 m c)

theorem rb2_main_arg4 (c : Dev nD) : U2 m c (Proc.devRef .tc main_arg4) = (rins m c).x4 :=
  (U2_of m c main_arg4 (by decide)).trans (rb1_main_arg4 m c)

theorem rb3_main_arg4 (c : Dev nD) : U3 m c (Proc.devRef .tc main_arg4) = (rins m c).x4 :=
  (U3_of m c main_arg4 (by decide)).trans (rb2_main_arg4 m c)

theorem rb4_main_arg4 (c : Dev nD) : U4 m c (Proc.devRef .tc main_arg4) = (rins m c).x4 :=
  (U4_of m c main_arg4 (by decide)).trans (rb3_main_arg4 m c)

theorem rb5_main_arg4 (c : Dev nD) : U5 m c (Proc.devRef .tc main_arg4) = (rins m c).x4 :=
  (U5_of m c main_arg4 (by decide)).trans (rb4_main_arg4 m c)

theorem rb6_main_arg4 (c : Dev nD) : U6 m c (Proc.devRef .tc main_arg4) = (rins m c).x4 :=
  (U6_of m c main_arg4 (by decide)).trans (rb5_main_arg4 m c)

theorem rb7_main_arg4 (c : Dev nD) : U7 m c (Proc.devRef .tc main_arg4) = (rins m c).x4 :=
  (U7_of m c main_arg4 (by decide)).trans (rb6_main_arg4 m c)

theorem rb8_main_arg4 (c : Dev nD) : U8 m c (Proc.devRef .tc main_arg4) = (rins m c).x4 :=
  (U8_of m c main_arg4 (by decide)).trans (rb7_main_arg4 m c)

theorem rb9_main_arg4 (c : Dev nD) : U9 m c (Proc.devRef .tc main_arg4) = (rins m c).x4 :=
  (U9_of m c main_arg4 (by decide)).trans (rb8_main_arg4 m c)

theorem rb10_main_arg4 (c : Dev nD) : U10 m c (Proc.devRef .tc main_arg4) = (rins m c).x4 :=
  (U10_of m c main_arg4 (by decide)).trans (rb9_main_arg4 m c)

theorem rb11_main_arg4 (c : Dev nD) : U11 m c (Proc.devRef .tc main_arg4) = (rins m c).x4 :=
  (U11_of m c main_arg4 (by decide)).trans (rb10_main_arg4 m c)

set_option maxRecDepth 65536 in
set_option maxHeartbeats 4000000 in
theorem rb12_main_v217 (c : Dev nD) : U12 m c (Proc.devRef .tc main_v217) = cv_8 (rins m c) := by
  show after (ch11 (F := Ideal)) (U11 m c) (Proc.devRef .tc main_v217) = _
  after_results_simp
  show (addf (F := Ideal) (φ := .f32) (Host.dotGeneral (F := Ideal) (φ₁ := .f32) (φ₂ := .f32) dot_S8192x8192_S8192x50_S8192x50_1_0_0_1_n_n none (U11 m c (Proc.devRef .tc main_arg2)) (Host.dotGeneral (F := Ideal) (φ₁ := .f32) (φ₂ := .f32) dot_S8192x50_S50x50_S8192x50_1_0_0_1_n_n none (U11 m c (Proc.devRef .tc main_v0)) (U11 m c (Proc.devRef .tc main_arg3)))) (broadcastInDim S8192x50 ![0, 1] bcast_S1x50_S8192x50_0_1 (broadcastInDim S1x50 ![1] bcast_S50_S1x50_1 (U11 m c (Proc.devRef .tc main_arg4))))) = _
  try rw [rb11_main_arg2 m c]
  try rw [rb11_main_v0 m c]
  try rw [rb11_main_arg3 m c]
  try rw [rb11_main_arg4 m c]
  rfl

theorem rb1_main_arg1 (c : Dev nD) : U1 m c (Proc.devRef .tc main_arg1) = (rins m c).x1 :=
  (U1_of m c main_arg1 (by decide)).trans (rb0_main_arg1 m c)

theorem rb2_main_arg1 (c : Dev nD) : U2 m c (Proc.devRef .tc main_arg1) = (rins m c).x1 :=
  (U2_of m c main_arg1 (by decide)).trans (rb1_main_arg1 m c)

theorem rb3_main_arg1 (c : Dev nD) : U3 m c (Proc.devRef .tc main_arg1) = (rins m c).x1 :=
  (U3_of m c main_arg1 (by decide)).trans (rb2_main_arg1 m c)

theorem rb4_main_arg1 (c : Dev nD) : U4 m c (Proc.devRef .tc main_arg1) = (rins m c).x1 :=
  (U4_of m c main_arg1 (by decide)).trans (rb3_main_arg1 m c)

theorem rb5_main_arg1 (c : Dev nD) : U5 m c (Proc.devRef .tc main_arg1) = (rins m c).x1 :=
  (U5_of m c main_arg1 (by decide)).trans (rb4_main_arg1 m c)

theorem rb6_main_arg1 (c : Dev nD) : U6 m c (Proc.devRef .tc main_arg1) = (rins m c).x1 :=
  (U6_of m c main_arg1 (by decide)).trans (rb5_main_arg1 m c)

theorem rb7_main_arg1 (c : Dev nD) : U7 m c (Proc.devRef .tc main_arg1) = (rins m c).x1 :=
  (U7_of m c main_arg1 (by decide)).trans (rb6_main_arg1 m c)

theorem rb8_main_arg1 (c : Dev nD) : U8 m c (Proc.devRef .tc main_arg1) = (rins m c).x1 :=
  (U8_of m c main_arg1 (by decide)).trans (rb7_main_arg1 m c)

theorem rb9_main_arg1 (c : Dev nD) : U9 m c (Proc.devRef .tc main_arg1) = (rins m c).x1 :=
  (U9_of m c main_arg1 (by decide)).trans (rb8_main_arg1 m c)

theorem rb10_main_arg1 (c : Dev nD) : U10 m c (Proc.devRef .tc main_arg1) = (rins m c).x1 :=
  (U10_of m c main_arg1 (by decide)).trans (rb9_main_arg1 m c)

theorem rb11_main_arg1 (c : Dev nD) : U11 m c (Proc.devRef .tc main_arg1) = (rins m c).x1 :=
  (U11_of m c main_arg1 (by decide)).trans (rb10_main_arg1 m c)

theorem rb12_main_arg1 (c : Dev nD) : U12 m c (Proc.devRef .tc main_arg1) = (rins m c).x1 :=
  (U12_of m c main_arg1 (by decide)).trans (rb11_main_arg1 m c)

set_option maxRecDepth 65536 in
set_option maxHeartbeats 4000000 in
theorem rb11_main_v207 (c : Dev nD) : U11 m c (Proc.devRef .tc main_v207) = cv_13 (rins m c) := by
  show after (ch10 (F := Ideal)) (U10 m c) (Proc.devRef .tc main_v207) = _
  after_results_simp
  show (Host.dotGeneral (F := Ideal) (φ₁ := .f32) (φ₂ := .f32) dot_S8192x8192_S8192x50_S8192x50_1_0_0_1_n_n none (U10 m c (Proc.devRef .tc main_arg1)) (Host.dotGeneral (F := Ideal) (φ₁ := .f32) (φ₂ := .f32) dot_S8192x50_S50x50_S8192x50_1_0_0_1_n_n none (U10 m c (Proc.devRef .tc main_v0)) (U10 m c (Proc.devRef .tc main_arg3)))) = _
  try rw [rb10_main_arg1 m c]
  try rw [rb10_main_v0 m c]
  try rw [rb10_main_arg3 m c]
  rfl

set_option maxRecDepth 65536 in
set_option maxHeartbeats 4000000 in
theorem rb12_main_v212 (c : Dev nD) : U12 m c (Proc.devRef .tc main_v212) = cv_166 (rins m c) := by
  show after (ch11 (F := Ideal)) (U11 m c) (Proc.devRef .tc main_v212) = _
  after_results_simp
  show (addf (F := Ideal) (φ := .f32) (U11 m c (Proc.devRef .tc main_v0)) (maximumf (F := Ideal) (φ := .f32) (addf (F := Ideal) (φ := .f32) (U11 m c (Proc.devRef .tc main_v207)) (broadcastInDim S8192x50 ![0, 1] bcast_S1x50_S8192x50_0_1 (broadcastInDim S1x50 ![1] bcast_S50_S1x50_1 (U11 m c (Proc.devRef .tc main_arg4))))) (broadcastInDim S8192x50 ![] bcast_S_S8192x50 (constant (F := Ideal) S_ .f32 0x00000000#32)))) = _
  try rw [rb11_main_v0 m c]
  try rw [rb11_main_v207 m c]
  try rw [rb11_main_arg4 m c]
  rfl

theorem rb12_main_arg3 (c : Dev nD) : U12 m c (Proc.devRef .tc main_arg3) = (rins m c).x3 :=
  (U12_of m c main_arg3 (by decide)).trans (rb11_main_arg3 m c)

theorem rb12_main_arg4 (c : Dev nD) : U12 m c (Proc.devRef .tc main_arg4) = (rins m c).x4 :=
  (U12_of m c main_arg4 (by decide)).trans (rb11_main_arg4 m c)

end Cert.Bridge

end
-- ==== Proof.Ideal.RefRunP3.lean ====
/-
  The reference program's run read as values, continued: the value of every buffer a later stretch reads, at every boundary
  (one lemma per buffer and boundary, in dependency order).
-/
import proofs.«174668_j26645977104432_2_alg».proof.Proof.Ideal.RefRunP2

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

set_option maxRecDepth 65536 in
set_option maxHeartbeats 4000000 in
theorem rb13_main_v229 (c : Dev nD) : U13 m c (Proc.devRef .tc main_v229) = cv_173 (rins m c) := by
  show after (ch12 (F := Ideal)) (U12 m c) (Proc.devRef .tc main_v229) = _
  after_results_simp
  show (addf (F := Ideal) (φ := .f32) (mulf (F := Ideal) (φ := .f32) (broadcastInDim S8192x50 ![] bcast_S_S8192x50 (constant (F := Ideal) S_ .f32 0x3E4CCCCD#32)) (maximumf (F := Ideal) (φ := .f32) (U12 m c (Proc.devRef .tc main_v217)) (broadcastInDim S8192x50 ![] bcast_S_S8192x50 (constant (F := Ideal) S_ .f32 0x00000000#32)))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U12 m c (Proc.devRef .tc main_arg1)) (Host.dotGeneral (F := Ideal) (φ₁ := .f32) (φ₂ := .f32) dot_S8192x50_S50x50_S8192x50_1_0_0_1_n_n none (U12 m c (Proc.devRef .tc main_v212)) (U12 m c (Proc.devRef .tc main_arg3)))) (broadcastInDim S8192x50 ![0, 1] bcast_S1x50_S8192x50_0_1 (broadcastInDim S1x50 ![1] bcast_S50_S1x50_1 (U12 m c (Proc.devRef .tc main_arg4))))) (broadcastInDim S8192x50 ![] bcast_S_S8192x50 (constant (F := Ideal) S_ .f32 0x00000000#32))))) = _
  try rw [rb12_main_v217 m c]
  try rw [rb12_main_arg1 m c]
  try rw [rb12_main_v212 m c]
  try rw [rb12_main_arg3 m c]
  try rw [rb12_main_arg4 m c]
  rfl

theorem rb14_main_v229 (c : Dev nD) : U14 m c (Proc.devRef .tc main_v229) = cv_173 (rins m c) :=
  (U14_of m c main_v229 (by decide)).trans (rb13_main_v229 m c)

theorem rb15_main_v229 (c : Dev nD) : U15 m c (Proc.devRef .tc main_v229) = cv_173 (rins m c) :=
  (U15_of m c main_v229 (by decide)).trans (rb14_main_v229 m c)

theorem rb16_main_v229 (c : Dev nD) : U16 m c (Proc.devRef .tc main_v229) = cv_173 (rins m c) :=
  (U16_of m c main_v229 (by decide)).trans (rb15_main_v229 m c)

theorem rb17_main_v229 (c : Dev nD) : U17 m c (Proc.devRef .tc main_v229) = cv_173 (rins m c) :=
  (U17_of m c main_v229 (by decide)).trans (rb16_main_v229 m c)

theorem rb18_main_v229 (c : Dev nD) : U18 m c (Proc.devRef .tc main_v229) = cv_173 (rins m c) :=
  (U18_of m c main_v229 (by decide)).trans (rb17_main_v229 m c)

theorem rb19_main_v229 (c : Dev nD) : U19 m c (Proc.devRef .tc main_v229) = cv_173 (rins m c) :=
  (U19_of m c main_v229 (by decide)).trans (rb18_main_v229 m c)

theorem rb20_main_v229 (c : Dev nD) : U20 m c (Proc.devRef .tc main_v229) = cv_173 (rins m c) :=
  (U20_of m c main_v229 (by decide)).trans (rb19_main_v229 m c)

theorem rb21_main_v229 (c : Dev nD) : U21 m c (Proc.devRef .tc main_v229) = cv_173 (rins m c) :=
  (U21_of m c main_v229 (by decide)).trans (rb20_main_v229 m c)

theorem rb22_main_v229 (c : Dev nD) : U22 m c (Proc.devRef .tc main_v229) = cv_173 (rins m c) :=
  (U22_of m c main_v229 (by decide)).trans (rb21_main_v229 m c)

theorem rb23_main_v229 (c : Dev nD) : U23 m c (Proc.devRef .tc main_v229) = cv_173 (rins m c) :=
  (U23_of m c main_v229 (by decide)).trans (rb22_main_v229 m c)

set_option maxRecDepth 65536 in
set_option maxHeartbeats 4000000 in
theorem rb1_main_v1 (c : Dev nD) : U1 m c (Proc.devRef .tc main_v1) = cv_1 (rins m c) := by
  show after (ch0 (F := Ideal)) (U0 m c) (Proc.devRef .tc main_v1) = _
  after_results_simp
  show (extractStridedSlice S8192x50 ![0, 50] (U0 m c (Proc.devRef .tc main_arg0)) slices_S8192x200_S8192x50_0_50) = _
  try rw [rb0_main_arg0 m c]
  rfl

set_option maxRecDepth 65536 in
set_option maxHeartbeats 4000000 in
theorem rb2_main_v39 (c : Dev nD) : U2 m c (Proc.devRef .tc main_v39) = cv_33 (rins m c) := by
  show after (ch1 (F := Ideal)) (U1 m c) (Proc.devRef .tc main_v39) = _
  after_results_simp
  show (addf (F := Ideal) (φ := .f32) (Host.dotGeneral (F := Ideal) (φ₁ := .f32) (φ₂ := .f32) dot_S8192x8192_S8192x50_S8192x50_1_0_0_1_n_n none (U1 m c (Proc.devRef .tc main_arg1)) (Host.dotGeneral (F := Ideal) (φ₁ := .f32) (φ₂ := .f32) dot_S8192x50_S50x50_S8192x50_1_0_0_1_n_n none (U1 m c (Proc.devRef .tc main_v1)) (U1 m c (Proc.devRef .tc main_arg3)))) (broadcastInDim S8192x50 ![0, 1] bcast_S1x50_S8192x50_0_1 (broadcastInDim S1x50 ![1] bcast_S50_S1x50_1 (U1 m c (Proc.devRef .tc main_arg4))))) = _
  try rw [rb1_main_arg1 m c]
  try rw [rb1_main_v1 m c]
  try rw [rb1_main_arg3 m c]
  try rw [rb1_main_arg4 m c]
  rfl

set_option maxRecDepth 65536 in
set_option maxHeartbeats 4000000 in
theorem rb3_main_v40 (c : Dev nD) : U3 m c (Proc.devRef .tc main_v40) = cv_34 (rins m c) := by
  show after (ch2 (F := Ideal)) (U2 m c) (Proc.devRef .tc main_v40) = _
  after_results_simp
  show (maximumf (F := Ideal) (φ := .f32) (U2 m c (Proc.devRef .tc main_v39)) (broadcastInDim S8192x50 ![] bcast_S_S8192x50 (constant (F := Ideal) S_ .f32 0x00000000#32))) = _
  try rw [rb2_main_v39 m c]
  rfl

set_option maxRecDepth 65536 in
set_option maxHeartbeats 4000000 in
theorem rb1_main_v16 (c : Dev nD) : U1 m c (Proc.devRef .tc main_v16) = cv_15 (rins m c) := by
  show after (ch0 (F := Ideal)) (U0 m c) (Proc.devRef .tc main_v16) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U0 m c (Proc.devRef .tc main_arg1)) (Host.dotGeneral (F := Ideal) (φ₁ := .f32) (φ₂ := .f32) dot_S8192x50_S50x50_S8192x50_1_0_0_1_n_n none (extractStridedSlice S8192x50 ![0, 0] (U0 m c (Proc.devRef .tc main_arg0)) slices_S8192x200_S8192x50_0_0) (U0 m c (Proc.devRef .tc main_arg3)))) (broadcastInDim S8192x50 ![0, 1] bcast_S1x50_S8192x50_0_1 (broadcastInDim S1x50 ![1] bcast_S50_S1x50_1 (U0 m c (Proc.devRef .tc main_arg4))))) (broadcastInDim S8192x50 ![] bcast_S_S8192x50 (constant (F := Ideal) S_ .f32 0x00000000#32))) = _
  try rw [rb0_main_arg1 m c]
  try rw [rb0_main_arg0 m c]
  try rw [rb0_main_arg3 m c]
  try rw [rb0_main_arg4 m c]
  rfl

theorem rb2_main_v16 (c : Dev nD) : U2 m c (Proc.devRef .tc main_v16) = cv_15 (rins m c) :=
  (U2_of m c main_v16 (by decide)).trans (rb1_main_v16 m c)

theorem rb0_main_arg5 (c : Dev nD) : U0 m c (Proc.devRef .tc main_arg5) = (rins m c).x5 := rfl

theorem rb1_main_arg5 (c : Dev nD) : U1 m c (Proc.devRef .tc main_arg5) = (rins m c).x5 :=
  (U1_of m c main_arg5 (by decide)).trans (rb0_main_arg5 m c)

theorem rb2_main_arg5 (c : Dev nD) : U2 m c (Proc.devRef .tc main_arg5) = (rins m c).x5 :=
  (U2_of m c main_arg5 (by decide)).trans (rb1_main_arg5 m c)

theorem rb0_main_arg6 (c : Dev nD) : U0 m c (Proc.devRef .tc main_arg6) = (rins m c).x6 := rfl

theorem rb1_main_arg6 (c : Dev nD) : U1 m c (Proc.devRef .tc main_arg6) = (rins m c).x6 :=
  (U1_of m c main_arg6 (by decide)).trans (rb0_main_arg6 m c)

theorem rb2_main_arg6 (c : Dev nD) : U2 m c (Proc.devRef .tc main_arg6) = (rins m c).x6 :=
  (U2_of m c main_arg6 (by decide)).trans (rb1_main_arg6 m c)

set_option maxRecDepth 65536 in
set_option maxHeartbeats 4000000 in
theorem rb3_main_v55 (c : Dev nD) : U3 m c (Proc.devRef .tc main_v55) = cv_49 (rins m c) := by
  show after (ch2 (F := Ideal)) (U2 m c) (Proc.devRef .tc main_v55) = _
  after_results_simp
  show (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (concatenate S8192x100 1 [⟨S8192x50, (U2 m c (Proc.devRef .tc main_v16))⟩, ⟨S8192x50, (maximumf (F := Ideal) (φ := .f32) (U2 m c (Proc.devRef .tc main_v39)) (broadcastInDim S8192x50 ![] bcast_S_S8192x50 (constant (F := Ideal) S_ .f32 0x00000000#32)))⟩] concatenates_S8192x50_S8192x50_S8192x100_d1) (shapeCast _ (extractStridedSlice S1x100x50 ![0, 0, 0] (U2 m c (Proc.devRef .tc main_arg5)) slices_S12x100x50_S1x100x50_0_0_0) shapeCasts_S1x100x50_S100x50)) (broadcastInDim S8192x50 ![0, 1] bcast_S1x50_S8192x50_0_1 (broadcastInDim S1x50 ![1] bcast_S50_S1x50_1 (shapeCast _ (extractStridedSlice S1x50 ![0, 0] (U2 m c (Proc.devRef .tc main_arg6)) slices_S12x50_S1x50_0_0) shapeCasts_S1x50_S50)))))))) = _
  try rw [rb2_main_v16 m c]
  try rw [rb2_main_v39 m c]
  try rw [rb2_main_arg5 m c]
  try rw [rb2_main_arg6 m c]
  rfl

theorem rb3_main_v16 (c : Dev nD) : U3 m c (Proc.devRef .tc main_v16) = cv_15 (rins m c) :=
  (U3_of m c main_v16 (by decide)).trans (rb2_main_v16 m c)

set_option maxRecDepth 65536 in
set_option maxHeartbeats 4000000 in
theorem rb2_main_v34 (c : Dev nD) : U2 m c (Proc.devRef .tc main_v34) = cv_31 (rins m c) := by
  show after (ch1 (F := Ideal)) (U1 m c) (Proc.devRef .tc main_v34) = _
  after_results_simp
  show (addf (F := Ideal) (φ := .f32) (U1 m c (Proc.devRef .tc main_v1)) (maximumf (F := Ideal) (φ := .f32) (addf (F := Ideal) (φ := .f32) (Host.dotGeneral (F := Ideal) (φ₁ := .f32) (φ₂ := .f32) dot_S8192x8192_S8192x50_S8192x50_1_0_0_1_n_n none (U1 m c (Proc.devRef .tc main_arg2)) (Host.dotGeneral (F := Ideal) (φ₁ := .f32) (φ₂ := .f32) dot_S8192x50_S50x50_S8192x50_1_0_0_1_n_n none (U1 m c (Proc.devRef .tc main_v1)) (U1 m c (Proc.devRef .tc main_arg3)))) (broadcastInDim S8192x50 ![0, 1] bcast_S1x50_S8192x50_0_1 (broadcastInDim S1x50 ![1] bcast_S50_S1x50_1 (U1 m c (Proc.devRef .tc main_arg4))))) (broadcastInDim S8192x50 ![] bcast_S_S8192x50 (constant (F := Ideal) S_ .f32 0x00000000#32)))) = _
  try rw [rb1_main_v1 m c]
  try rw [rb1_main_arg2 m c]
  try rw [rb1_main_arg3 m c]
  try rw [rb1_main_arg4 m c]
  rfl

theorem rb3_main_v34 (c : Dev nD) : U3 m c (Proc.devRef .tc main_v34) = cv_31 (rins m c) :=
  (U3_of m c main_v34 (by decide)).trans (rb2_main_v34 m c)

theorem rb3_main_arg5 (c : Dev nD) : U3 m c (Proc.devRef .tc main_arg5) = (rins m c).x5 :=
  (U3_of m c main_arg5 (by decide)).trans (rb2_main_arg5 m c)

set_option maxRecDepth 65536 in
set_option maxHeartbeats 4000000 in
theorem rb4_main_v72 (c : Dev nD) : U4 m c (Proc.devRef .tc main_v72) = cv_62 (rins m c) := by
  show after (ch3 (F := Ideal)) (U3 m c) (Proc.devRef .tc main_v72) = _
  after_results_simp
  show (Host.dotGeneral (F := Ideal) (φ₁ := .f32) (φ₂ := .f32) dot_S8192x100_S100x50_S8192x50_1_0_0_1_n_n none (concatenate S8192x100 1 [⟨S8192x50, (U3 m c (Proc.devRef .tc main_v27))⟩, ⟨S8192x50, (addf (F := Ideal) (φ := .f32) (mulf (F := Ideal) (φ := .f32) (broadcastInDim S8192x50 ![] bcast_S_S8192x50 (constant (F := Ideal) S_ .f32 0x3E4CCCCD#32)) (addf (F := Ideal) (φ := .f32) (U3 m c (Proc.devRef .tc main_v40)) (mulf (F := Ideal) (φ := .f32) (U3 m c (Proc.devRef .tc main_v55)) (U3 m c (Proc.devRef .tc main_v16))))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U3 m c (Proc.devRef .tc main_arg2)) (Host.dotGeneral (F := Ideal) (φ₁ := .f32) (φ₂ := .f32) dot_S8192x50_S50x50_S8192x50_1_0_0_1_n_n none (U3 m c (Proc.devRef .tc main_v34)) (U3 m c (Proc.devRef .tc main_arg3)))) (broadcastInDim S8192x50 ![0, 1] bcast_S1x50_S8192x50_0_1 (broadcastInDim S1x50 ![1] bcast_S50_S1x50_1 (U3 m c (Proc.devRef .tc main_arg4))))) (broadcastInDim S8192x50 ![] bcast_S_S8192x50 (constant (F := Ideal) S_ .f32 0x00000000#32)))))⟩] concatenates_S8192x50_S8192x50_S8192x100_d1) (shapeCast _ (extractStridedSlice S1x100x50 ![3, 0, 0] (U3 m c (Proc.devRef .tc main_arg5)) slices_S12x100x50_S1x100x50_3_0_0) shapeCasts_S1x100x50_S100x50)) = _
  try rw [rb3_main_v27 m c]
  try rw [rb3_main_v40 m c]
  try rw [rb3_main_v55 m c]
  try rw [rb3_main_v16 m c]
  try rw [rb3_main_arg2 m c]
  try rw [rb3_main_v34 m c]
  try rw [rb3_main_arg3 m c]
  try rw [rb3_main_arg4 m c]
  try rw [rb3_main_arg5 m c]
  rfl

theorem rb3_main_arg6 (c : Dev nD) : U3 m c (Proc.devRef .tc main_arg6) = (rins m c).x6 :=
  (U3_of m c main_arg6 (by decide)).trans (rb2_main_arg6 m c)

set_option maxRecDepth 65536 in
set_option maxHeartbeats 4000000 in
theorem rb4_main_v76 (c : Dev nD) : U4 m c (Proc.devRef .tc main_v76) = cv_66 (rins m c) := by
  show after (ch3 (F := Ideal)) (U3 m c) (Proc.devRef .tc main_v76) = _
  after_results_simp
  show (broadcastInDim S8192x50 ![0, 1] bcast_S1x50_S8192x50_0_1 (broadcastInDim S1x50 ![1] bcast_S50_S1x50_1 (shapeCast _ (extractStridedSlice S1x50 ![3, 0] (U3 m c (Proc.devRef .tc main_arg6)) slices_S12x50_S1x50_3_0) shapeCasts_S1x50_S50))) = _
  try rw [rb3_main_arg6 m c]
  rfl

end Cert.Bridge

end
-- ==== Proof.Ideal.RefRunP4.lean ====
/-
  The reference program's run read as values, continued: the value of every buffer a later stretch reads, at every boundary
  (one lemma per buffer and boundary, in dependency order).
-/
import proofs.«174668_j26645977104432_2_alg».proof.Proof.Ideal.RefRunP3

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

set_option maxRecDepth 65536 in
set_option maxHeartbeats 4000000 in
theorem rb4_main_v68 (c : Dev nD) : U4 m c (Proc.devRef .tc main_v68) = cv_58 (rins m c) := by
  show after (ch3 (F := Ideal)) (U3 m c) (Proc.devRef .tc main_v68) = _
  after_results_simp
  show (addf (F := Ideal) (φ := .f32) (mulf (F := Ideal) (φ := .f32) (broadcastInDim S8192x50 ![] bcast_S_S8192x50 (constant (F := Ideal) S_ .f32 0x3E4CCCCD#32)) (addf (F := Ideal) (φ := .f32) (U3 m c (Proc.devRef .tc main_v40)) (mulf (F := Ideal) (φ := .f32) (U3 m c (Proc.devRef .tc main_v55)) (U3 m c (Proc.devRef .tc main_v16))))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U3 m c (Proc.devRef .tc main_arg2)) (Host.dotGeneral (F := Ideal) (φ₁ := .f32) (φ₂ := .f32) dot_S8192x50_S50x50_S8192x50_1_0_0_1_n_n none (U3 m c (Proc.devRef .tc main_v34)) (U3 m c (Proc.devRef .tc main_arg3)))) (broadcastInDim S8192x50 ![0, 1] bcast_S1x50_S8192x50_0_1 (broadcastInDim S1x50 ![1] bcast_S50_S1x50_1 (U3 m c (Proc.devRef .tc main_arg4))))) (broadcastInDim S8192x50 ![] bcast_S_S8192x50 (constant (F := Ideal) S_ .f32 0x00000000#32))))) = _
  try rw [rb3_main_v40 m c]
  try rw [rb3_main_v55 m c]
  try rw [rb3_main_v16 m c]
  try rw [rb3_main_arg2 m c]
  try rw [rb3_main_v34 m c]
  try rw [rb3_main_arg3 m c]
  try rw [rb3_main_arg4 m c]
  rfl

set_option maxRecDepth 65536 in
set_option maxHeartbeats 4000000 in
theorem rb5_main_v85 (c : Dev nD) : U5 m c (Proc.devRef .tc main_v85) = cv_73 (rins m c) := by
  show after (ch4 (F := Ideal)) (U4 m c) (Proc.devRef .tc main_v85) = _
  after_results_simp
  show (addf (F := Ideal) (φ := .f32) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (U4 m c (Proc.devRef .tc main_v72)) (U4 m c (Proc.devRef .tc main_v76))))))) (U4 m c (Proc.devRef .tc main_v27))) (U4 m c (Proc.devRef .tc main_v68))) = _
  try rw [rb4_main_v72 m c]
  try rw [rb4_main_v76 m c]
  try rw [rb4_main_v27 m c]
  try rw [rb4_main_v68 m c]
  rfl

theorem rb6_main_v85 (c : Dev nD) : U6 m c (Proc.devRef .tc main_v85) = cv_73 (rins m c) :=
  (U6_of m c main_v85 (by decide)).trans (rb5_main_v85 m c)

theorem rb7_main_v85 (c : Dev nD) : U7 m c (Proc.devRef .tc main_v85) = cv_73 (rins m c) :=
  (U7_of m c main_v85 (by decide)).trans (rb6_main_v85 m c)

theorem rb8_main_v85 (c : Dev nD) : U8 m c (Proc.devRef .tc main_v85) = cv_73 (rins m c) :=
  (U8_of m c main_v85 (by decide)).trans (rb7_main_v85 m c)

theorem rb9_main_v85 (c : Dev nD) : U9 m c (Proc.devRef .tc main_v85) = cv_73 (rins m c) :=
  (U9_of m c main_v85 (by decide)).trans (rb8_main_v85 m c)

theorem rb10_main_v85 (c : Dev nD) : U10 m c (Proc.devRef .tc main_v85) = cv_73 (rins m c) :=
  (U10_of m c main_v85 (by decide)).trans (rb9_main_v85 m c)

theorem rb11_main_v85 (c : Dev nD) : U11 m c (Proc.devRef .tc main_v85) = cv_73 (rins m c) :=
  (U11_of m c main_v85 (by decide)).trans (rb10_main_v85 m c)

theorem rb12_main_v85 (c : Dev nD) : U12 m c (Proc.devRef .tc main_v85) = cv_73 (rins m c) :=
  (U12_of m c main_v85 (by decide)).trans (rb11_main_v85 m c)

theorem rb13_main_v85 (c : Dev nD) : U13 m c (Proc.devRef .tc main_v85) = cv_73 (rins m c) :=
  (U13_of m c main_v85 (by decide)).trans (rb12_main_v85 m c)

theorem rb14_main_v85 (c : Dev nD) : U14 m c (Proc.devRef .tc main_v85) = cv_73 (rins m c) :=
  (U14_of m c main_v85 (by decide)).trans (rb13_main_v85 m c)

theorem rb15_main_v85 (c : Dev nD) : U15 m c (Proc.devRef .tc main_v85) = cv_73 (rins m c) :=
  (U15_of m c main_v85 (by decide)).trans (rb14_main_v85 m c)

theorem rb16_main_v85 (c : Dev nD) : U16 m c (Proc.devRef .tc main_v85) = cv_73 (rins m c) :=
  (U16_of m c main_v85 (by decide)).trans (rb15_main_v85 m c)

theorem rb17_main_v85 (c : Dev nD) : U17 m c (Proc.devRef .tc main_v85) = cv_73 (rins m c) :=
  (U17_of m c main_v85 (by decide)).trans (rb16_main_v85 m c)

theorem rb18_main_v85 (c : Dev nD) : U18 m c (Proc.devRef .tc main_v85) = cv_73 (rins m c) :=
  (U18_of m c main_v85 (by decide)).trans (rb17_main_v85 m c)

theorem rb19_main_v85 (c : Dev nD) : U19 m c (Proc.devRef .tc main_v85) = cv_73 (rins m c) :=
  (U19_of m c main_v85 (by decide)).trans (rb18_main_v85 m c)

theorem rb20_main_v85 (c : Dev nD) : U20 m c (Proc.devRef .tc main_v85) = cv_73 (rins m c) :=
  (U20_of m c main_v85 (by decide)).trans (rb19_main_v85 m c)

theorem rb21_main_v85 (c : Dev nD) : U21 m c (Proc.devRef .tc main_v85) = cv_73 (rins m c) :=
  (U21_of m c main_v85 (by decide)).trans (rb20_main_v85 m c)

theorem rb22_main_v85 (c : Dev nD) : U22 m c (Proc.devRef .tc main_v85) = cv_73 (rins m c) :=
  (U22_of m c main_v85 (by decide)).trans (rb21_main_v85 m c)

theorem rb23_main_v85 (c : Dev nD) : U23 m c (Proc.devRef .tc main_v85) = cv_73 (rins m c) :=
  (U23_of m c main_v85 (by decide)).trans (rb22_main_v85 m c)

theorem rb12_main_arg2 (c : Dev nD) : U12 m c (Proc.devRef .tc main_arg2) = (rins m c).x2 :=
  (U12_of m c main_arg2 (by decide)).trans (rb11_main_arg2 m c)

theorem rb13_main_arg2 (c : Dev nD) : U13 m c (Proc.devRef .tc main_arg2) = (rins m c).x2 :=
  (U13_of m c main_arg2 (by decide)).trans (rb12_main_arg2 m c)

theorem rb2_main_v1 (c : Dev nD) : U2 m c (Proc.devRef .tc main_v1) = cv_1 (rins m c) :=
  (U2_of m c main_v1 (by decide)).trans (rb1_main_v1 m c)

theorem rb3_main_v1 (c : Dev nD) : U3 m c (Proc.devRef .tc main_v1) = cv_1 (rins m c) :=
  (U3_of m c main_v1 (by decide)).trans (rb2_main_v1 m c)

theorem rb4_main_v1 (c : Dev nD) : U4 m c (Proc.devRef .tc main_v1) = cv_1 (rins m c) :=
  (U4_of m c main_v1 (by decide)).trans (rb3_main_v1 m c)

theorem rb5_main_v1 (c : Dev nD) : U5 m c (Proc.devRef .tc main_v1) = cv_1 (rins m c) :=
  (U5_of m c main_v1 (by decide)).trans (rb4_main_v1 m c)

theorem rb6_main_v1 (c : Dev nD) : U6 m c (Proc.devRef .tc main_v1) = cv_1 (rins m c) :=
  (U6_of m c main_v1 (by decide)).trans (rb5_main_v1 m c)

theorem rb7_main_v1 (c : Dev nD) : U7 m c (Proc.devRef .tc main_v1) = cv_1 (rins m c) :=
  (U7_of m c main_v1 (by decide)).trans (rb6_main_v1 m c)

theorem rb8_main_v1 (c : Dev nD) : U8 m c (Proc.devRef .tc main_v1) = cv_1 (rins m c) :=
  (U8_of m c main_v1 (by decide)).trans (rb7_main_v1 m c)

theorem rb9_main_v1 (c : Dev nD) : U9 m c (Proc.devRef .tc main_v1) = cv_1 (rins m c) :=
  (U9_of m c main_v1 (by decide)).trans (rb8_main_v1 m c)

end Cert.Bridge

end
-- ==== Proof.Ideal.RefRunP5.lean ====
/-
  The reference program's run read as values, continued: the value of every buffer a later stretch reads, at every boundary
  (one lemma per buffer and boundary, in dependency order).
-/
import proofs.«174668_j26645977104432_2_alg».proof.Proof.Ideal.RefRunP4

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb10_main_v1 (c : Dev nD) : U10 m c (Proc.devRef .tc main_v1) = cv_1 (rins m c) :=
  (U10_of m c main_v1 (by decide)).trans (rb9_main_v1 m c)

theorem rb11_main_v1 (c : Dev nD) : U11 m c (Proc.devRef .tc main_v1) = cv_1 (rins m c) :=
  (U11_of m c main_v1 (by decide)).trans (rb10_main_v1 m c)

theorem rb12_main_v1 (c : Dev nD) : U12 m c (Proc.devRef .tc main_v1) = cv_1 (rins m c) :=
  (U12_of m c main_v1 (by decide)).trans (rb11_main_v1 m c)

theorem rb13_main_v1 (c : Dev nD) : U13 m c (Proc.devRef .tc main_v1) = cv_1 (rins m c) :=
  (U13_of m c main_v1 (by decide)).trans (rb12_main_v1 m c)

theorem rb13_main_arg3 (c : Dev nD) : U13 m c (Proc.devRef .tc main_arg3) = (rins m c).x3 :=
  (U13_of m c main_arg3 (by decide)).trans (rb12_main_arg3 m c)

theorem rb13_main_arg4 (c : Dev nD) : U13 m c (Proc.devRef .tc main_arg4) = (rins m c).x4 :=
  (U13_of m c main_arg4 (by decide)).trans (rb12_main_arg4 m c)

set_option maxRecDepth 65536 in
set_option maxHeartbeats 4000000 in
theorem rb14_main_v242 (c : Dev nD) : U14 m c (Proc.devRef .tc main_v242) = cv_30 (rins m c) := by
  show after (ch13 (F := Ideal)) (U13 m c) (Proc.devRef .tc main_v242) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U13 m c (Proc.devRef .tc main_arg2)) (Host.dotGeneral (F := Ideal) (φ₁ := .f32) (φ₂ := .f32) dot_S8192x50_S50x50_S8192x50_1_0_0_1_n_n none (U13 m c (Proc.devRef .tc main_v1)) (U13 m c (Proc.devRef .tc main_arg3)))) (broadcastInDim S8192x50 ![0, 1] bcast_S1x50_S8192x50_0_1 (broadcastInDim S1x50 ![1] bcast_S50_S1x50_1 (U13 m c (Proc.devRef .tc main_arg4))))) (broadcastInDim S8192x50 ![] bcast_S_S8192x50 (constant (F := Ideal) S_ .f32 0x00000000#32))) = _
  try rw [rb13_main_arg2 m c]
  try rw [rb13_main_v1 m c]
  try rw [rb13_main_arg3 m c]
  try rw [rb13_main_arg4 m c]
  rfl

set_option maxRecDepth 65536 in
set_option maxHeartbeats 4000000 in
theorem rb14_main_v256 (c : Dev nD) : U14 m c (Proc.devRef .tc main_v256) = cv_47 (rins m c) := by
  show after (ch13 (F := Ideal)) (U13 m c) (Proc.devRef .tc main_v256) = _
  after_results_simp
  show (broadcastInDim S8192x50 ![] bcast_S_S8192x50 (constant (F := Ideal) S_ .f32 0x3F800000#32)) = _
  skip
  rfl

set_option maxRecDepth 65536 in
set_option maxHeartbeats 4000000 in
theorem rb13_main_v218 (c : Dev nD) : U13 m c (Proc.devRef .tc main_v218) = cv_11 (rins m c) := by
  show after (ch12 (F := Ideal)) (U12 m c) (Proc.devRef .tc main_v218) = _
  after_results_simp
  show (maximumf (F := Ideal) (φ := .f32) (U12 m c (Proc.devRef .tc main_v217)) (broadcastInDim S8192x50 ![] bcast_S_S8192x50 (constant (F := Ideal) S_ .f32 0x00000000#32))) = _
  try rw [rb12_main_v217 m c]
  rfl

theorem rb4_main_arg5 (c : Dev nD) : U4 m c (Proc.devRef .tc main_arg5) = (rins m c).x5 :=
  (U4_of m c main_arg5 (by decide)).trans (rb3_main_arg5 m c)

theorem rb5_main_arg5 (c : Dev nD) : U5 m c (Proc.devRef .tc main_arg5) = (rins m c).x5 :=
  (U5_of m c main_arg5 (by decide)).trans (rb4_main_arg5 m c)

theorem rb6_main_arg5 (c : Dev nD) : U6 m c (Proc.devRef .tc main_arg5) = (rins m c).x5 :=
  (U6_of m c main_arg5 (by decide)).trans (rb5_main_arg5 m c)

theorem rb7_main_arg5 (c : Dev nD) : U7 m c (Proc.devRef .tc main_arg5) = (rins m c).x5 :=
  (U7_of m c main_arg5 (by decide)).trans (rb6_main_arg5 m c)

theorem rb8_main_arg5 (c : Dev nD) : U8 m c (Proc.devRef .tc main_arg5) = (rins m c).x5 :=
  (U8_of m c main_arg5 (by decide)).trans (rb7_main_arg5 m c)

theorem rb9_main_arg5 (c : Dev nD) : U9 m c (Proc.devRef .tc main_arg5) = (rins m c).x5 :=
  (U9_of m c main_arg5 (by decide)).trans (rb8_main_arg5 m c)

theorem rb10_main_arg5 (c : Dev nD) : U10 m c (Proc.devRef .tc main_arg5) = (rins m c).x5 :=
  (U10_of m c main_arg5 (by decide)).trans (rb9_main_arg5 m c)

theorem rb11_main_arg5 (c : Dev nD) : U11 m c (Proc.devRef .tc main_arg5) = (rins m c).x5 :=
  (U11_of m c main_arg5 (by decide)).trans (rb10_main_arg5 m c)

theorem rb12_main_arg5 (c : Dev nD) : U12 m c (Proc.devRef .tc main_arg5) = (rins m c).x5 :=
  (U12_of m c main_arg5 (by decide)).trans (rb11_main_arg5 m c)

theorem rb13_main_arg5 (c : Dev nD) : U13 m c (Proc.devRef .tc main_arg5) = (rins m c).x5 :=
  (U13_of m c main_arg5 (by decide)).trans (rb12_main_arg5 m c)

theorem rb4_main_arg6 (c : Dev nD) : U4 m c (Proc.devRef .tc main_arg6) = (rins m c).x6 :=
  (U4_of m c main_arg6 (by decide)).trans (rb3_main_arg6 m c)

theorem rb5_main_arg6 (c : Dev nD) : U5 m c (Proc.devRef .tc main_arg6) = (rins m c).x6 :=
  (U5_of m c main_arg6 (by decide)).trans (rb4_main_arg6 m c)

theorem rb6_main_arg6 (c : Dev nD) : U6 m c (Proc.devRef .tc main_arg6) = (rins m c).x6 :=
  (U6_of m c main_arg6 (by decide)).trans (rb5_main_arg6 m c)

theorem rb7_main_arg6 (c : Dev nD) : U7 m c (Proc.devRef .tc main_arg6) = (rins m c).x6 :=
  (U7_of m c main_arg6 (by decide)).trans (rb6_main_arg6 m c)

theorem rb8_main_arg6 (c : Dev nD) : U8 m c (Proc.devRef .tc main_arg6) = (rins m c).x6 :=
  (U8_of m c main_arg6 (by decide)).trans (rb7_main_arg6 m c)

theorem rb9_main_arg6 (c : Dev nD) : U9 m c (Proc.devRef .tc main_arg6) = (rins m c).x6 :=
  (U9_of m c main_arg6 (by decide)).trans (rb8_main_arg6 m c)

theorem rb10_main_arg6 (c : Dev nD) : U10 m c (Proc.devRef .tc main_arg6) = (rins m c).x6 :=
  (U10_of m c main_arg6 (by decide)).trans (rb9_main_arg6 m c)

theorem rb11_main_arg6 (c : Dev nD) : U11 m c (Proc.devRef .tc main_arg6) = (rins m c).x6 :=
  (U11_of m c main_arg6 (by decide)).trans (rb10_main_arg6 m c)

theorem rb12_main_arg6 (c : Dev nD) : U12 m c (Proc.devRef .tc main_arg6) = (rins m c).x6 :=
  (U12_of m c main_arg6 (by decide)).trans (rb11_main_arg6 m c)

theorem rb13_main_arg6 (c : Dev nD) : U13 m c (Proc.devRef .tc main_arg6) = (rins m c).x6 :=
  (U13_of m c main_arg6 (by decide)).trans (rb12_main_arg6 m c)

set_option maxRecDepth 65536 in
set_option maxHeartbeats 4000000 in
theorem rb14_main_v255 (c : Dev nD) : U14 m c (Proc.devRef .tc main_v255) = cv_186 (rins m c) := by
  show after (ch13 (F := Ideal)) (U13 m c) (Proc.devRef .tc main_v255) = _
  after_results_simp
  show (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (concatenate S8192x100 1 [⟨S8192x50, (U13 m c (Proc.devRef .tc main_v218))⟩, ⟨S8192x50, (maximumf (F := Ideal) (φ := .f32) (addf (F := Ideal) (φ := .f32) (Host.dotGeneral (F := Ideal) (φ₁ := .f32) (φ₂ := .f32) dot_S8192x8192_S8192x50_S8192x50_1_0_0_1_n_n none (U13 m c (Proc.devRef .tc main_arg2)) (Host.dotGeneral (F := Ideal) (φ₁ := .f32) (φ₂ := .f32) dot_S8192x50_S50x50_S8192x50_1_0_0_1_n_n none (U13 m c (Proc.devRef .tc main_v1)) (U13 m c (Proc.devRef .tc main_arg3)))) (broadcastInDim S8192x50 ![0, 1] bcast_S1x50_S8192x50_0_1 (broadcastInDim S1x50 ![1] bcast_S50_S1x50_1 (U13 m c (Proc.devRef .tc main_arg4))))) (broadcastInDim S8192x50 ![] bcast_S_S8192x50 (constant (F := Ideal) S_ .f32 0x00000000#32)))⟩] concatenates_S8192x50_S8192x50_S8192x100_d1) (shapeCast _ (extractStridedSlice S1x100x50 ![9, 0, 0] (U13 m c (Proc.devRef .tc main_arg5)) slices_S12x100x50_S1x100x50_9_0_0) shapeCasts_S1x100x50_S100x50)) (broadcastInDim S8192x50 ![0, 1] bcast_S1x50_S8192x50_0_1 (broadcastInDim S1x50 ![1] bcast_S50_S1x50_1 (shapeCast _ (extractStridedSlice S1x50 ![9, 0] (U13 m c (Proc.devRef .tc main_arg6)) slices_S12x50_S1x50_9_0) shapeCasts_S1x50_S50))))))) = _
  try rw [rb13_main_v218 m c]
  try rw [rb13_main_arg2 m c]
  try rw [rb13_main_v1 m c]
  try rw [rb13_main_arg3 m c]
  try rw [rb13_main_arg4 m c]
  try rw [rb13_main_arg5 m c]
  try rw [rb13_main_arg6 m c]
  rfl

end Cert.Bridge

end
-- ==== Proof.Ideal.RefRunP6.lean ====
/-
  The reference program's run read as values, continued: the value of every buffer a later stretch reads, at every boundary
  (one lemma per buffer and boundary, in dependency order).
-/
import proofs.«174668_j26645977104432_2_alg».proof.Proof.Ideal.RefRunP5

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb14_main_v218 (c : Dev nD) : U14 m c (Proc.devRef .tc main_v218) = cv_11 (rins m c) :=
  (U14_of m c main_v218 (by decide)).trans (rb13_main_v218 m c)

theorem rb13_main_arg1 (c : Dev nD) : U13 m c (Proc.devRef .tc main_arg1) = (rins m c).x1 :=
  (U13_of m c main_arg1 (by decide)).trans (rb12_main_arg1 m c)

theorem rb14_main_arg1 (c : Dev nD) : U14 m c (Proc.devRef .tc main_arg1) = (rins m c).x1 :=
  (U14_of m c main_arg1 (by decide)).trans (rb13_main_arg1 m c)

set_option maxRecDepth 65536 in
set_option maxHeartbeats 4000000 in
theorem rb13_main_v235 (c : Dev nD) : U13 m c (Proc.devRef .tc main_v235) = cv_34 (rins m c) := by
  show after (ch12 (F := Ideal)) (U12 m c) (Proc.devRef .tc main_v235) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U12 m c (Proc.devRef .tc main_arg1)) (Host.dotGeneral (F := Ideal) (φ₁ := .f32) (φ₂ := .f32) dot_S8192x50_S50x50_S8192x50_1_0_0_1_n_n none (U12 m c (Proc.devRef .tc main_v1)) (U12 m c (Proc.devRef .tc main_arg3)))) (broadcastInDim S8192x50 ![0, 1] bcast_S1x50_S8192x50_0_1 (broadcastInDim S1x50 ![1] bcast_S50_S1x50_1 (U12 m c (Proc.devRef .tc main_arg4))))) (broadcastInDim S8192x50 ![] bcast_S_S8192x50 (constant (F := Ideal) S_ .f32 0x00000000#32))) = _
  try rw [rb12_main_arg1 m c]
  try rw [rb12_main_v1 m c]
  try rw [rb12_main_arg3 m c]
  try rw [rb12_main_arg4 m c]
  rfl

set_option maxRecDepth 65536 in
set_option maxHeartbeats 4000000 in
theorem rb14_main_v236 (c : Dev nD) : U14 m c (Proc.devRef .tc main_v236) = cv_174 (rins m c) := by
  show after (ch13 (F := Ideal)) (U13 m c) (Proc.devRef .tc main_v236) = _
  after_results_simp
  show (addf (F := Ideal) (φ := .f32) (U13 m c (Proc.devRef .tc main_v1)) (U13 m c (Proc.devRef .tc main_v235))) = _
  try rw [rb13_main_v1 m c]
  try rw [rb13_main_v235 m c]
  rfl

theorem rb14_main_arg3 (c : Dev nD) : U14 m c (Proc.devRef .tc main_arg3) = (rins m c).x3 :=
  (U14_of m c main_arg3 (by decide)).trans (rb13_main_arg3 m c)

theorem rb14_main_arg4 (c : Dev nD) : U14 m c (Proc.devRef .tc main_arg4) = (rins m c).x4 :=
  (U14_of m c main_arg4 (by decide)).trans (rb13_main_arg4 m c)

set_option maxRecDepth 65536 in
set_option maxHeartbeats 4000000 in
theorem rb15_main_v271 (c : Dev nD) : U15 m c (Proc.devRef .tc main_v271) = cv_197 (rins m c) := by
  show after (ch14 (F := Ideal)) (U14 m c) (Proc.devRef .tc main_v271) = _
  after_results_simp
  show (concatenate S8192x100 1 [⟨S8192x50, (U14 m c (Proc.devRef .tc main_v229))⟩, ⟨S8192x50, (addf (F := Ideal) (φ := .f32) (mulf (F := Ideal) (φ := .f32) (broadcastInDim S8192x50 ![] bcast_S_S8192x50 (constant (F := Ideal) S_ .f32 0x3E4CCCCD#32)) (addf (F := Ideal) (φ := .f32) (U14 m c (Proc.devRef .tc main_v242)) (mulf (F := Ideal) (φ := .f32) (Host.divf (F := Ideal) (φ := .f32) (U14 m c (Proc.devRef .tc main_v256)) (U14 m c (Proc.devRef .tc main_v255))) (U14 m c (Proc.devRef .tc main_v218))))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U14 m c (Proc.devRef .tc main_arg1)) (Host.dotGeneral (F := Ideal) (φ₁ := .f32) (φ₂ := .f32) dot_S8192x50_S50x50_S8192x50_1_0_0_1_n_n none (U14 m c (Proc.devRef .tc main_v236)) (U14 m c (Proc.devRef .tc main_arg3)))) (broadcastInDim S8192x50 ![0, 1] bcast_S1x50_S8192x50_0_1 (broadcastInDim S1x50 ![1] bcast_S50_S1x50_1 (U14 m c (Proc.devRef .tc main_arg4))))) (broadcastInDim S8192x50 ![] bcast_S_S8192x50 (constant (F := Ideal) S_ .f32 0x00000000#32)))))⟩] concatenates_S8192x50_S8192x50_S8192x100_d1) = _
  try rw [rb14_main_v229 m c]
  try rw [rb14_main_v242 m c]
  try rw [rb14_main_v256 m c]
  try rw [rb14_main_v255 m c]
  try rw [rb14_main_v218 m c]
  try rw [rb14_main_arg1 m c]
  try rw [rb14_main_v236 m c]
  try rw [rb14_main_arg3 m c]
  try rw [rb14_main_arg4 m c]
  rfl

theorem rb14_main_arg5 (c : Dev nD) : U14 m c (Proc.devRef .tc main_arg5) = (rins m c).x5 :=
  (U14_of m c main_arg5 (by decide)).trans (rb13_main_arg5 m c)

theorem rb15_main_arg5 (c : Dev nD) : U15 m c (Proc.devRef .tc main_arg5) = (rins m c).x5 :=
  (U15_of m c main_arg5 (by decide)).trans (rb14_main_arg5 m c)

theorem rb14_main_arg6 (c : Dev nD) : U14 m c (Proc.devRef .tc main_arg6) = (rins m c).x6 :=
  (U14_of m c main_arg6 (by decide)).trans (rb13_main_arg6 m c)

theorem rb15_main_arg6 (c : Dev nD) : U15 m c (Proc.devRef .tc main_arg6) = (rins m c).x6 :=
  (U15_of m c main_arg6 (by decide)).trans (rb14_main_arg6 m c)

set_option maxRecDepth 65536 in
set_option maxHeartbeats 4000000 in
theorem rb15_main_v270 (c : Dev nD) : U15 m c (Proc.devRef .tc main_v270) = cv_196 (rins m c) := by
  show after (ch14 (F := Ideal)) (U14 m c) (Proc.devRef .tc main_v270) = _
  after_results_simp
  show (addf (F := Ideal) (φ := .f32) (mulf (F := Ideal) (φ := .f32) (broadcastInDim S8192x50 ![] bcast_S_S8192x50 (constant (F := Ideal) S_ .f32 0x3E4CCCCD#32)) (addf (F := Ideal) (φ := .f32) (U14 m c (Proc.devRef .tc main_v242)) (mulf (F := Ideal) (φ := .f32) (Host.divf (F := Ideal) (φ := .f32) (U14 m c (Proc.devRef .tc main_v256)) (U14 m c (Proc.devRef .tc main_v255))) (U14 m c (Proc.devRef .tc main_v218))))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U14 m c (Proc.devRef .tc main_arg1)) (Host.dotGeneral (F := Ideal) (φ₁ := .f32) (φ₂ := .f32) dot_S8192x50_S50x50_S8192x50_1_0_0_1_n_n none (U14 m c (Proc.devRef .tc main_v236)) (U14 m c (Proc.devRef .tc main_arg3)))) (broadcastInDim S8192x50 ![0, 1] bcast_S1x50_S8192x50_0_1 (broadcastInDim S1x50 ![1] bcast_S50_S1x50_1 (U14 m c (Proc.devRef .tc main_arg4))))) (broadcastInDim S8192x50 ![] bcast_S_S8192x50 (constant (F := Ideal) S_ .f32 0x00000000#32))))) = _
  try rw [rb14_main_v242 m c]
  try rw [rb14_main_v256 m c]
  try rw [rb14_main_v255 m c]
  try rw [rb14_main_v218 m c]
  try rw [rb14_main_arg1 m c]
  try rw [rb14_main_v236 m c]
  try rw [rb14_main_arg3 m c]
  try rw [rb14_main_arg4 m c]
  rfl

set_option maxRecDepth 65536 in
set_option maxHeartbeats 4000000 in
theorem rb16_main_v287 (c : Dev nD) : U16 m c (Proc.devRef .tc main_v287) = cv_211 (rins m c) := by
  show after (ch15 (F := Ideal)) (U15 m c) (Proc.devRef .tc main_v287) = _
  after_results_simp
  show (addf (F := Ideal) (φ := .f32) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (U15 m c (Proc.devRef .tc main_v271)) (shapeCast _ (extractStridedSlice S1x100x50 ![6, 0, 0] (U15 m c (Proc.devRef .tc main_arg5)) slices_S12x100x50_S1x100x50_6_0_0) shapeCasts_S1x100x50_S100x50)) (broadcastInDim S8192x50 ![0, 1] bcast_S1x50_S8192x50_0_1 (broadcastInDim S1x50 ![1] bcast_S50_S1x50_1 (shapeCast _ (extractStridedSlice S1x50 ![6, 0] (U15 m c (Proc.devRef .tc main_arg6)) slices_S12x50_S1x50_6_0) shapeCasts_S1x50_S50)))))))) (U15 m c (Proc.devRef .tc main_v229))) (U15 m c (Proc.devRef .tc main_v270))) = _
  try rw [rb15_main_v271 m c]
  try rw [rb15_main_arg5 m c]
  try rw [rb15_main_arg6 m c]
  try rw [rb15_main_v229 m c]
  try rw [rb15_main_v270 m c]
  rfl

theorem rb17_main_v287 (c : Dev nD) : U17 m c (Proc.devRef .tc main_v287) = cv_211 (rins m c) :=
  (U17_of m c main_v287 (by decide)).trans (rb16_main_v287 m c)

theorem rb18_main_v287 (c : Dev nD) : U18 m c (Proc.devRef .tc main_v287) = cv_211 (rins m c) :=
  (U18_of m c main_v287 (by decide)).trans (rb17_main_v287 m c)

theorem rb19_main_v287 (c : Dev nD) : U19 m c (Proc.devRef .tc main_v287) = cv_211 (rins m c) :=
  (U19_of m c main_v287 (by decide)).trans (rb18_main_v287 m c)

theorem rb20_main_v287 (c : Dev nD) : U20 m c (Proc.devRef .tc main_v287) = cv_211 (rins m c) :=
  (U20_of m c main_v287 (by decide)).trans (rb19_main_v287 m c)

theorem rb21_main_v287 (c : Dev nD) : U21 m c (Proc.devRef .tc main_v287) = cv_211 (rins m c) :=
  (U21_of m c main_v287 (by decide)).trans (rb20_main_v287 m c)

theorem rb22_main_v287 (c : Dev nD) : U22 m c (Proc.devRef .tc main_v287) = cv_211 (rins m c) :=
  (U22_of m c main_v287 (by decide)).trans (rb21_main_v287 m c)

theorem rb23_main_v287 (c : Dev nD) : U23 m c (Proc.devRef .tc main_v287) = cv_211 (rins m c) :=
  (U23_of m c main_v287 (by decide)).trans (rb22_main_v287 m c)

set_option maxRecDepth 65536 in
set_option maxHeartbeats 4000000 in
theorem rb1_main_v2 (c : Dev nD) : U1 m c (Proc.devRef .tc main_v2) = cv_2 (rins m c) := by
  show after (ch0 (F := Ideal)) (U0 m c) (Proc.devRef .tc main_v2) = _
  after_results_simp
  show (extractStridedSlice S8192x50 ![0, 100] (U0 m c (Proc.devRef .tc main_arg0)) slices_S8192x200_S8192x50_0_100) = _
  try rw [rb0_main_arg0 m c]
  rfl

theorem rb2_main_v2 (c : Dev nD) : U2 m c (Proc.devRef .tc main_v2) = cv_2 (rins m c) :=
  (U2_of m c main_v2 (by decide)).trans (rb1_main_v2 m c)

theorem rb3_main_v2 (c : Dev nD) : U3 m c (Proc.devRef .tc main_v2) = cv_2 (rins m c) :=
  (U3_of m c main_v2 (by decide)).trans (rb2_main_v2 m c)

theorem rb4_main_v2 (c : Dev nD) : U4 m c (Proc.devRef .tc main_v2) = cv_2 (rins m c) :=
  (U4_of m c main_v2 (by decide)).trans (rb3_main_v2 m c)

theorem rb5_main_v2 (c : Dev nD) : U5 m c (Proc.devRef .tc main_v2) = cv_2 (rins m c) :=
  (U5_of m c main_v2 (by decide)).trans (rb4_main_v2 m c)

set_option maxRecDepth 65536 in
set_option maxHeartbeats 4000000 in
theorem rb6_main_v102 (c : Dev nD) : U6 m c (Proc.devRef .tc main_v102) = cv_83 (rins m c) := by
  show after (ch5 (F := Ideal)) (U5 m c) (Proc.devRef .tc main_v102) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U5 m c (Proc.devRef .tc main_arg1)) (Host.dotGeneral (F := Ideal) (φ₁ := .f32) (φ₂ := .f32) dot_S8192x50_S50x50_S8192x50_1_0_0_1_n_n none (U5 m c (Proc.devRef .tc main_v2)) (U5 m c (Proc.devRef .tc main_arg3)))) (broadcastInDim S8192x50 ![0, 1] bcast_S1x50_S8192x50_0_1 (broadcastInDim S1x50 ![1] bcast_S50_S1x50_1 (U5 m c (Proc.devRef .tc main_arg4))))) (broadcastInDim S8192x50 ![] bcast_S_S8192x50 (constant (F := Ideal) S_ .f32 0x00000000#32))) = _
  try rw [rb5_main_arg1 m c]
  try rw [rb5_main_v2 m c]
  try rw [rb5_main_arg3 m c]
  try rw [rb5_main_arg4 m c]
  rfl

set_option maxRecDepth 65536 in
set_option maxHeartbeats 4000000 in
theorem rb4_main_v57 (c : Dev nD) : U4 m c (Proc.devRef .tc main_v57) = cv_51 (rins m c) := by
  show after (ch3 (F := Ideal)) (U3 m c) (Proc.devRef .tc main_v57) = _
  after_results_simp
  show (addf (F := Ideal) (φ := .f32) (U3 m c (Proc.devRef .tc main_v40)) (mulf (F := Ideal) (φ := .f32) (U3 m c (Proc.devRef .tc main_v55)) (U3 m c (Proc.devRef .tc main_v16)))) = _
  try rw [rb3_main_v40 m c]
  try rw [rb3_main_v55 m c]
  try rw [rb3_main_v16 m c]
  rfl

theorem rb5_main_v57 (c : Dev nD) : U5 m c (Proc.devRef .tc main_v57) = cv_51 (rins m c) :=
  (U5_of m c main_v57 (by decide)).trans (rb4_main_v57 m c)

set_option maxRecDepth 65536 in
set_option maxHeartbeats 4000000 in
theorem rb6_main_v106 (c : Dev nD) : U6 m c (Proc.devRef .tc main_v106) = cv_87 (rins m c) := by
  show after (ch5 (F := Ideal)) (U5 m c) (Proc.devRef .tc main_v106) = _
  after_results_simp
  show (Host.dotGeneral (F := Ideal) (φ₁ := .f32) (φ₂ := .f32) dot_S8192x100_S100x50_S8192x50_1_0_0_1_n_n none (concatenate S8192x100 1 [⟨S8192x50, (U5 m c (Proc.devRef .tc main_v57))⟩, ⟨S8192x50, (maximumf (F := Ideal) (φ := .f32) (addf (F := Ideal) (φ := .f32) (Host.dotGeneral (F := Ideal) (φ₁ := .f32) (φ₂ := .f32) dot_S8192x8192_S8192x50_S8192x50_1_0_0_1_n_n none (U5 m c (Proc.devRef .tc main_arg1)) (Host.dotGeneral (F := Ideal) (φ₁ := .f32) (φ₂ := .f32) dot_S8192x50_S50x50_S8192x50_1_0_0_1_n_n none (U5 m c (Proc.devRef .tc main_v2)) (U5 m c (Proc.devRef .tc main_arg3)))) (broadcastInDim S8192x50 ![0, 1] bcast_S1x50_S8192x50_0_1 (broadcastInDim S1x50 ![1] bcast_S50_S1x50_1 (U5 m c (Proc.devRef .tc main_arg4))))) (broadcastInDim S8192x50 ![] bcast_S_S8192x50 (constant (F := Ideal) S_ .f32 0x00000000#32)))⟩] concatenates_S8192x50_S8192x50_S8192x100_d1) (shapeCast _ (extractStridedSlice S1x100x50 ![1, 0, 0] (U5 m c (Proc.devRef .tc main_arg5)) slices_S12x100x50_S1x100x50_1_0_0) shapeCasts_S1x100x50_S100x50)) = _
  try rw [rb5_main_v57 m c]
  try rw [rb5_main_arg1 m c]
  try rw [rb5_main_v2 m c]
  try rw [rb5_main_arg3 m c]
  try rw [rb5_main_arg4 m c]
  try rw [rb5_main_arg5 m c]
  rfl

end Cert.Bridge

end
-- ==== Proof.Ideal.RefRunP7.lean ====
/-
  The reference program's run read as values, continued: the value of every buffer a later stretch reads, at every boundary
  (one lemma per buffer and boundary, in dependency order).
-/
import proofs.«174668_j26645977104432_2_alg».proof.Proof.Ideal.RefRunP6

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

set_option maxRecDepth 65536 in
set_option maxHeartbeats 4000000 in
theorem rb6_main_v109 (c : Dev nD) : U6 m c (Proc.devRef .tc main_v109) = cv_90 (rins m c) := by
  show after (ch5 (F := Ideal)) (U5 m c) (Proc.devRef .tc main_v109) = _
  after_results_simp
  show (broadcastInDim S1x50 ![1] bcast_S50_S1x50_1 (shapeCast _ (extractStridedSlice S1x50 ![1, 0] (U5 m c (Proc.devRef .tc main_arg6)) slices_S12x50_S1x50_1_0) shapeCasts_S1x50_S50)) = _
  try rw [rb5_main_arg6 m c]
  rfl

theorem rb6_main_v57 (c : Dev nD) : U6 m c (Proc.devRef .tc main_v57) = cv_51 (rins m c) :=
  (U6_of m c main_v57 (by decide)).trans (rb5_main_v57 m c)

set_option maxRecDepth 65536 in
set_option maxHeartbeats 4000000 in
theorem rb7_main_v121 (c : Dev nD) : U7 m c (Proc.devRef .tc main_v121) = cv_99 (rins m c) := by
  show after (ch6 (F := Ideal)) (U6 m c) (Proc.devRef .tc main_v121) = _
  after_results_simp
  show (mulf (F := Ideal) (φ := .f32) (broadcastInDim S8192x50 ![] bcast_S_S8192x50 (constant (F := Ideal) S_ .f32 0x3E4CCCCD#32)) (addf (F := Ideal) (φ := .f32) (U6 m c (Proc.devRef .tc main_v102)) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (U6 m c (Proc.devRef .tc main_v106)) (broadcastInDim S8192x50 ![0, 1] bcast_S1x50_S8192x50_0_1 (U6 m c (Proc.devRef .tc main_v109)))))))) (U6 m c (Proc.devRef .tc main_v57))))) = _
  try rw [rb6_main_v102 m c]
  try rw [rb6_main_v106 m c]
  try rw [rb6_main_v109 m c]
  try rw [rb6_main_v57 m c]
  rfl

set_option maxRecDepth 65536 in
set_option maxHeartbeats 4000000 in
theorem rb7_main_v128 (c : Dev nD) : U7 m c (Proc.devRef .tc main_v128) = cv_24 (rins m c) := by
  show after (ch6 (F := Ideal)) (U6 m c) (Proc.devRef .tc main_v128) = _
  after_results_simp
  show (broadcastInDim S8192x50 ![] bcast_S_S8192x50 (constant (F := Ideal) S_ .f32 0x3F4CCCCD#32)) = _
  skip
  rfl

set_option maxRecDepth 65536 in
set_option maxHeartbeats 4000000 in
theorem rb5_main_v87 (c : Dev nD) : U5 m c (Proc.devRef .tc main_v87) = cv_74 (rins m c) := by
  show after (ch4 (F := Ideal)) (U4 m c) (Proc.devRef .tc main_v87) = _
  after_results_simp
  show (mulf (F := Ideal) (φ := .f32) (broadcastInDim S8192x50 ![] bcast_S_S8192x50 (constant (F := Ideal) S_ .f32 0x3E4CCCCD#32)) (U4 m c (Proc.devRef .tc main_v2))) = _
  try rw [rb4_main_v2 m c]
  rfl

set_option maxRecDepth 65536 in
set_option maxHeartbeats 4000000 in
theorem rb5_main_v95 (c : Dev nD) : U5 m c (Proc.devRef .tc main_v95) = cv_79 (rins m c) := by
  show after (ch4 (F := Ideal)) (U4 m c) (Proc.devRef .tc main_v95) = _
  after_results_simp
  show (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U4 m c (Proc.devRef .tc main_arg2)) (Host.dotGeneral (F := Ideal) (φ₁ := .f32) (φ₂ := .f32) dot_S8192x50_S50x50_S8192x50_1_0_0_1_n_n none (U4 m c (Proc.devRef .tc main_v2)) (U4 m c (Proc.devRef .tc main_arg3)))) (broadcastInDim S8192x50 ![0, 1] bcast_S1x50_S8192x50_0_1 (broadcastInDim S1x50 ![1] bcast_S50_S1x50_1 (U4 m c (Proc.devRef .tc main_arg4))))) (broadcastInDim S8192x50 ![] bcast_S_S8192x50 (constant (F := Ideal) S_ .f32 0x00000000#32)))) = _
  try rw [rb4_main_arg2 m c]
  try rw [rb4_main_v2 m c]
  try rw [rb4_main_arg3 m c]
  try rw [rb4_main_arg4 m c]
  rfl

set_option maxRecDepth 65536 in
set_option maxHeartbeats 4000000 in
theorem rb6_main_v96 (c : Dev nD) : U6 m c (Proc.devRef .tc main_v96) = cv_80 (rins m c) := by
  show after (ch5 (F := Ideal)) (U5 m c) (Proc.devRef .tc main_v96) = _
  after_results_simp
  show (addf (F := Ideal) (φ := .f32) (U5 m c (Proc.devRef .tc main_v87)) (U5 m c (Proc.devRef .tc main_v95))) = _
  try rw [rb5_main_v87 m c]
  try rw [rb5_main_v95 m c]
  rfl

set_option maxRecDepth 65536 in
set_option maxHeartbeats 4000000 in
theorem rb7_main_v127 (c : Dev nD) : U7 m c (Proc.devRef .tc main_v127) = cv_103 (rins m c) := by
  show after (ch6 (F := Ideal)) (U6 m c) (Proc.devRef .tc main_v127) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U6 m c (Proc.devRef .tc main_arg2)) (Host.dotGeneral (F := Ideal) (φ₁ := .f32) (φ₂ := .f32) dot_S8192x50_S50x50_S8192x50_1_0_0_1_n_n none (U6 m c (Proc.devRef .tc main_v96)) (U6 m c (Proc.devRef .tc main_arg3)))) (broadcastInDim S8192x50 ![0, 1] bcast_S1x50_S8192x50_0_1 (broadcastInDim S1x50 ![1] bcast_S50_S1x50_1 (U6 m c (Proc.devRef .tc main_arg4))))) (broadcastInDim S8192x50 ![] bcast_S_S8192x50 (constant (F := Ideal) S_ .f32 0x00000000#32))) = _
  try rw [rb6_main_arg2 m c]
  try rw [rb6_main_v96 m c]
  try rw [rb6_main_arg3 m c]
  try rw [rb6_main_arg4 m c]
  rfl

set_option maxRecDepth 65536 in
set_option maxHeartbeats 4000000 in
theorem rb8_main_v147 (c : Dev nD) : U8 m c (Proc.devRef .tc main_v147) = cv_120 (rins m c) := by
  show after (ch7 (F := Ideal)) (U7 m c) (Proc.devRef .tc main_v147) = _
  after_results_simp
  show (addf (F := Ideal) (φ := .f32) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (concatenate S8192x100 1 [⟨S8192x50, (U7 m c (Proc.devRef .tc main_v85))⟩, ⟨S8192x50, (addf (F := Ideal) (φ := .f32) (U7 m c (Proc.devRef .tc main_v121)) (mulf (F := Ideal) (φ := .f32) (U7 m c (Proc.devRef .tc main_v128)) (U7 m c (Proc.devRef .tc main_v127))))⟩] concatenates_S8192x50_S8192x50_S8192x100_d1) (shapeCast _ (extractStridedSlice S1x100x50 ![4, 0, 0] (U7 m c (Proc.devRef .tc main_arg5)) slices_S12x100x50_S1x100x50_4_0_0) shapeCasts_S1x100x50_S100x50)) (broadcastInDim S8192x50 ![0, 1] bcast_S1x50_S8192x50_0_1 (broadcastInDim S1x50 ![1] bcast_S50_S1x50_1 (shapeCast _ (extractStridedSlice S1x50 ![4, 0] (U7 m c (Proc.devRef .tc main_arg6)) slices_S12x50_S1x50_4_0) shapeCasts_S1x50_S50)))))))) (U7 m c (Proc.devRef .tc main_v85))) (addf (F := Ideal) (φ := .f32) (U7 m c (Proc.devRef .tc main_v121)) (mulf (F := Ideal) (φ := .f32) (U7 m c (Proc.devRef .tc main_v128)) (U7 m c (Proc.devRef .tc main_v127))))) = _
  try rw [rb7_main_v85 m c]
  try rw [rb7_main_v121 m c]
  try rw [rb7_main_v128 m c]
  try rw [rb7_main_v127 m c]
  try rw [rb7_main_arg5 m c]
  try rw [rb7_main_arg6 m c]
  rfl

theorem rb9_main_v147 (c : Dev nD) : U9 m c (Proc.devRef .tc main_v147) = cv_120 (rins m c) :=
  (U9_of m c main_v147 (by decide)).trans (rb8_main_v147 m c)

theorem rb10_main_v147 (c : Dev nD) : U10 m c (Proc.devRef .tc main_v147) = cv_120 (rins m c) :=
  (U10_of m c main_v147 (by decide)).trans (rb9_main_v147 m c)

theorem rb11_main_v147 (c : Dev nD) : U11 m c (Proc.devRef .tc main_v147) = cv_120 (rins m c) :=
  (U11_of m c main_v147 (by decide)).trans (rb10_main_v147 m c)

theorem rb12_main_v147 (c : Dev nD) : U12 m c (Proc.devRef .tc main_v147) = cv_120 (rins m c) :=
  (U12_of m c main_v147 (by decide)).trans (rb11_main_v147 m c)

theorem rb13_main_v147 (c : Dev nD) : U13 m c (Proc.devRef .tc main_v147) = cv_120 (rins m c) :=
  (U13_of m c main_v147 (by decide)).trans (rb12_main_v147 m c)

theorem rb14_main_v147 (c : Dev nD) : U14 m c (Proc.devRef .tc main_v147) = cv_120 (rins m c) :=
  (U14_of m c main_v147 (by decide)).trans (rb13_main_v147 m c)

theorem rb15_main_v147 (c : Dev nD) : U15 m c (Proc.devRef .tc main_v147) = cv_120 (rins m c) :=
  (U15_of m c main_v147 (by decide)).trans (rb14_main_v147 m c)

theorem rb16_main_v147 (c : Dev nD) : U16 m c (Proc.devRef .tc main_v147) = cv_120 (rins m c) :=
  (U16_of m c main_v147 (by decide)).trans (rb15_main_v147 m c)

theorem rb17_main_v147 (c : Dev nD) : U17 m c (Proc.devRef .tc main_v147) = cv_120 (rins m c) :=
  (U17_of m c main_v147 (by decide)).trans (rb16_main_v147 m c)

theorem rb18_main_v147 (c : Dev nD) : U18 m c (Proc.devRef .tc main_v147) = cv_120 (rins m c) :=
  (U18_of m c main_v147 (by decide)).trans (rb17_main_v147 m c)

theorem rb19_main_v147 (c : Dev nD) : U19 m c (Proc.devRef .tc main_v147) = cv_120 (rins m c) :=
  (U19_of m c main_v147 (by decide)).trans (rb18_main_v147 m c)

theorem rb20_main_v147 (c : Dev nD) : U20 m c (Proc.devRef .tc main_v147) = cv_120 (rins m c) :=
  (U20_of m c main_v147 (by decide)).trans (rb19_main_v147 m c)

theorem rb21_main_v147 (c : Dev nD) : U21 m c (Proc.devRef .tc main_v147) = cv_120 (rins m c) :=
  (U21_of m c main_v147 (by decide)).trans (rb20_main_v147 m c)

theorem rb22_main_v147 (c : Dev nD) : U22 m c (Proc.devRef .tc main_v147) = cv_120 (rins m c) :=
  (U22_of m c main_v147 (by decide)).trans (rb21_main_v147 m c)

theorem rb23_main_v147 (c : Dev nD) : U23 m c (Proc.devRef .tc main_v147) = cv_120 (rins m c) :=
  (U23_of m c main_v147 (by decide)).trans (rb22_main_v147 m c)

theorem rb14_main_arg2 (c : Dev nD) : U14 m c (Proc.devRef .tc main_arg2) = (rins m c).x2 :=
  (U14_of m c main_arg2 (by decide)).trans (rb13_main_arg2 m c)

theorem rb15_main_arg2 (c : Dev nD) : U15 m c (Proc.devRef .tc main_arg2) = (rins m c).x2 :=
  (U15_of m c main_arg2 (by decide)).trans (rb14_main_arg2 m c)

theorem rb16_main_arg2 (c : Dev nD) : U16 m c (Proc.devRef .tc main_arg2) = (rins m c).x2 :=
  (U16_of m c main_arg2 (by decide)).trans (rb15_main_arg2 m c)

theorem rb6_main_v2 (c : Dev nD) : U6 m c (Proc.devRef .tc main_v2) = cv_2 (rins m c) :=
  (U6_of m c main_v2 (by decide)).trans (rb5_main_v2 m c)

theorem rb7_main_v2 (c : Dev nD) : U7 m c (Proc.devRef .tc main_v2) = cv_2 (rins m c) :=
  (U7_of m c main_v2 (by decide)).trans (rb6_main_v2 m c)

theorem rb8_main_v2 (c : Dev nD) : U8 m c (Proc.devRef .tc main_v2) = cv_2 (rins m c) :=
  (U8_of m c main_v2 (by decide)).trans (rb7_main_v2 m c)

end Cert.Bridge

end
-- ==== Proof.Ideal.RefRunP8.lean ====
/-
  The reference program's run read as values, continued: the value of every buffer a later stretch reads, at every boundary
  (one lemma per buffer and boundary, in dependency order).
-/
import proofs.«174668_j26645977104432_2_alg».proof.Proof.Ideal.RefRunP7

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb9_main_v2 (c : Dev nD) : U9 m c (Proc.devRef .tc main_v2) = cv_2 (rins m c) :=
  (U9_of m c main_v2 (by decide)).trans (rb8_main_v2 m c)

theorem rb10_main_v2 (c : Dev nD) : U10 m c (Proc.devRef .tc main_v2) = cv_2 (rins m c) :=
  (U10_of m c main_v2 (by decide)).trans (rb9_main_v2 m c)

theorem rb11_main_v2 (c : Dev nD) : U11 m c (Proc.devRef .tc main_v2) = cv_2 (rins m c) :=
  (U11_of m c main_v2 (by decide)).trans (rb10_main_v2 m c)

theorem rb12_main_v2 (c : Dev nD) : U12 m c (Proc.devRef .tc main_v2) = cv_2 (rins m c) :=
  (U12_of m c main_v2 (by decide)).trans (rb11_main_v2 m c)

theorem rb13_main_v2 (c : Dev nD) : U13 m c (Proc.devRef .tc main_v2) = cv_2 (rins m c) :=
  (U13_of m c main_v2 (by decide)).trans (rb12_main_v2 m c)

theorem rb14_main_v2 (c : Dev nD) : U14 m c (Proc.devRef .tc main_v2) = cv_2 (rins m c) :=
  (U14_of m c main_v2 (by decide)).trans (rb13_main_v2 m c)

theorem rb15_main_v2 (c : Dev nD) : U15 m c (Proc.devRef .tc main_v2) = cv_2 (rins m c) :=
  (U15_of m c main_v2 (by decide)).trans (rb14_main_v2 m c)

theorem rb16_main_v2 (c : Dev nD) : U16 m c (Proc.devRef .tc main_v2) = cv_2 (rins m c) :=
  (U16_of m c main_v2 (by decide)).trans (rb15_main_v2 m c)

theorem rb15_main_arg3 (c : Dev nD) : U15 m c (Proc.devRef .tc main_arg3) = (rins m c).x3 :=
  (U15_of m c main_arg3 (by decide)).trans (rb14_main_arg3 m c)

theorem rb16_main_arg3 (c : Dev nD) : U16 m c (Proc.devRef .tc main_arg3) = (rins m c).x3 :=
  (U16_of m c main_arg3 (by decide)).trans (rb15_main_arg3 m c)

theorem rb15_main_arg4 (c : Dev nD) : U15 m c (Proc.devRef .tc main_arg4) = (rins m c).x4 :=
  (U15_of m c main_arg4 (by decide)).trans (rb14_main_arg4 m c)

theorem rb16_main_arg4 (c : Dev nD) : U16 m c (Proc.devRef .tc main_arg4) = (rins m c).x4 :=
  (U16_of m c main_arg4 (by decide)).trans (rb15_main_arg4 m c)

set_option maxRecDepth 65536 in
set_option maxHeartbeats 4000000 in
theorem rb17_main_v304 (c : Dev nD) : U17 m c (Proc.devRef .tc main_v304) = cv_78 (rins m c) := by
  show after (ch16 (F := Ideal)) (U16 m c) (Proc.devRef .tc main_v304) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U16 m c (Proc.devRef .tc main_arg2)) (Host.dotGeneral (F := Ideal) (φ₁ := .f32) (φ₂ := .f32) dot_S8192x50_S50x50_S8192x50_1_0_0_1_n_n none (U16 m c (Proc.devRef .tc main_v2)) (U16 m c (Proc.devRef .tc main_arg3)))) (broadcastInDim S8192x50 ![0, 1] bcast_S1x50_S8192x50_0_1 (broadcastInDim S1x50 ![1] bcast_S50_S1x50_1 (U16 m c (Proc.devRef .tc main_arg4))))) (broadcastInDim S8192x50 ![] bcast_S_S8192x50 (constant (F := Ideal) S_ .f32 0x00000000#32))) = _
  try rw [rb16_main_arg2 m c]
  try rw [rb16_main_v2 m c]
  try rw [rb16_main_arg3 m c]
  try rw [rb16_main_arg4 m c]
  rfl

set_option maxRecDepth 65536 in
set_option maxHeartbeats 4000000 in
theorem rb15_main_v259 (c : Dev nD) : U15 m c (Proc.devRef .tc main_v259) = cv_189 (rins m c) := by
  show after (ch14 (F := Ideal)) (U14 m c) (Proc.devRef .tc main_v259) = _
  after_results_simp
  show (addf (F := Ideal) (φ := .f32) (U14 m c (Proc.devRef .tc main_v242)) (mulf (F := Ideal) (φ := .f32) (Host.divf (F := Ideal) (φ := .f32) (U14 m c (Proc.devRef .tc main_v256)) (U14 m c (Proc.devRef .tc main_v255))) (U14 m c (Proc.devRef .tc main_v218)))) = _
  try rw [rb14_main_v242 m c]
  try rw [rb14_main_v256 m c]
  try rw [rb14_main_v255 m c]
  try rw [rb14_main_v218 m c]
  rfl

theorem rb16_main_v259 (c : Dev nD) : U16 m c (Proc.devRef .tc main_v259) = cv_189 (rins m c) :=
  (U16_of m c main_v259 (by decide)).trans (rb15_main_v259 m c)

theorem rb16_main_arg5 (c : Dev nD) : U16 m c (Proc.devRef .tc main_arg5) = (rins m c).x5 :=
  (U16_of m c main_arg5 (by decide)).trans (rb15_main_arg5 m c)

theorem rb16_main_arg6 (c : Dev nD) : U16 m c (Proc.devRef .tc main_arg6) = (rins m c).x6 :=
  (U16_of m c main_arg6 (by decide)).trans (rb15_main_arg6 m c)

set_option maxRecDepth 65536 in
set_option maxHeartbeats 4000000 in
theorem rb17_main_v313 (c : Dev nD) : U17 m c (Proc.devRef .tc main_v313) = cv_222 (rins m c) := by
  show after (ch16 (F := Ideal)) (U16 m c) (Proc.devRef .tc main_v313) = _
  after_results_simp
  show (addf (F := Ideal) (φ := .f32) (Host.dotGeneral (F := Ideal) (φ₁ := .f32) (φ₂ := .f32) dot_S8192x100_S100x50_S8192x50_1_0_0_1_n_n none (concatenate S8192x100 1 [⟨S8192x50, (U16 m c (Proc.devRef .tc main_v259))⟩, ⟨S8192x50, (maximumf (F := Ideal) (φ := .f32) (addf (F := Ideal) (φ := .f32) (Host.dotGeneral (F := Ideal) (φ₁ := .f32) (φ₂ := .f32) dot_S8192x8192_S8192x50_S8192x50_1_0_0_1_n_n none (U16 m c (Proc.devRef .tc main_arg2)) (Host.dotGeneral (F := Ideal) (φ₁ := .f32) (φ₂ := .f32) dot_S8192x50_S50x50_S8192x50_1_0_0_1_n_n none (U16 m c (Proc.devRef .tc main_v2)) (U16 m c (Proc.devRef .tc main_arg3)))) (broadcastInDim S8192x50 ![0, 1] bcast_S1x50_S8192x50_0_1 (broadcastInDim S1x50 ![1] bcast_S50_S1x50_1 (U16 m c (Proc.devRef .tc main_arg4))))) (broadcastInDim S8192x50 ![] bcast_S_S8192x50 (constant (F := Ideal) S_ .f32 0x00000000#32)))⟩] concatenates_S8192x50_S8192x50_S8192x100_d1) (shapeCast _ (extractStridedSlice S1x100x50 ![10, 0, 0] (U16 m c (Proc.devRef .tc main_arg5)) slices_S12x100x50_S1x100x50_10_0_0) shapeCasts_S1x100x50_S100x50)) (broadcastInDim S8192x50 ![0, 1] bcast_S1x50_S8192x50_0_1 (broadcastInDim S1x50 ![1] bcast_S50_S1x50_1 (shapeCast _ (extractStridedSlice S1x50 ![10, 0] (U16 m c (Proc.devRef .tc main_arg6)) slices_S12x50_S1x50_10_0) shapeCasts_S1x50_S50)))) = _
  try rw [rb16_main_v259 m c]
  try rw [rb16_main_arg2 m c]
  try rw [rb16_main_v2 m c]
  try rw [rb16_main_arg3 m c]
  try rw [rb16_main_arg4 m c]
  try rw [rb16_main_arg5 m c]
  try rw [rb16_main_arg6 m c]
  rfl

theorem rb17_main_v259 (c : Dev nD) : U17 m c (Proc.devRef .tc main_v259) = cv_189 (rins m c) :=
  (U17_of m c main_v259 (by decide)).trans (rb16_main_v259 m c)

set_option maxRecDepth 65536 in
set_option maxHeartbeats 4000000 in
theorem rb18_main_v323 (c : Dev nD) : U18 m c (Proc.devRef .tc main_v323) = cv_229 (rins m c) := by
  show after (ch17 (F := Ideal)) (U17 m c) (Proc.devRef .tc main_v323) = _
  after_results_simp
  show (mulf (F := Ideal) (φ := .f32) (broadcastInDim S8192x50 ![] bcast_S_S8192x50 (constant (F := Ideal) S_ .f32 0x3E4CCCCD#32)) (addf (F := Ideal) (φ := .f32) (U17 m c (Proc.devRef .tc main_v304)) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (U17 m c (Proc.devRef .tc main_v313)))))) (U17 m c (Proc.devRef .tc main_v259))))) = _
  try rw [rb17_main_v304 m c]
  try rw [rb17_main_v313 m c]
  try rw [rb17_main_v259 m c]
  rfl

theorem rb15_main_arg1 (c : Dev nD) : U15 m c (Proc.devRef .tc main_arg1) = (rins m c).x1 :=
  (U15_of m c main_arg1 (by decide)).trans (rb14_main_arg1 m c)

theorem rb16_main_arg1 (c : Dev nD) : U16 m c (Proc.devRef .tc main_arg1) = (rins m c).x1 :=
  (U16_of m c main_arg1 (by decide)).trans (rb15_main_arg1 m c)

theorem rb17_main_arg1 (c : Dev nD) : U17 m c (Proc.devRef .tc main_arg1) = (rins m c).x1 :=
  (U17_of m c main_arg1 (by decide)).trans (rb16_main_arg1 m c)

theorem rb18_main_arg1 (c : Dev nD) : U18 m c (Proc.devRef .tc main_arg1) = (rins m c).x1 :=
  (U18_of m c main_arg1 (by decide)).trans (rb17_main_arg1 m c)

set_option maxRecDepth 65536 in
set_option maxHeartbeats 4000000 in
theorem rb16_main_v289 (c : Dev nD) : U16 m c (Proc.devRef .tc main_v289) = cv_74 (rins m c) := by
  show after (ch15 (F := Ideal)) (U15 m c) (Proc.devRef .tc main_v289) = _
  after_results_simp
  show (mulf (F := Ideal) (φ := .f32) (broadcastInDim S8192x50 ![] bcast_S_S8192x50 (constant (F := Ideal) S_ .f32 0x3E4CCCCD#32)) (U15 m c (Proc.devRef .tc main_v2))) = _
  try rw [rb15_main_v2 m c]
  rfl

set_option maxRecDepth 65536 in
set_option maxHeartbeats 4000000 in
theorem rb16_main_v291 (c : Dev nD) : U16 m c (Proc.devRef .tc main_v291) = cv_81 (rins m c) := by
  show after (ch15 (F := Ideal)) (U15 m c) (Proc.devRef .tc main_v291) = _
  after_results_simp
  show (Host.dotGeneral (F := Ideal) (φ₁ := .f32) (φ₂ := .f32) dot_S8192x8192_S8192x50_S8192x50_1_0_0_1_n_n none (U15 m c (Proc.devRef .tc main_arg1)) (Host.dotGeneral (F := Ideal) (φ₁ := .f32) (φ₂ := .f32) dot_S8192x50_S50x50_S8192x50_1_0_0_1_n_n none (U15 m c (Proc.devRef .tc main_v2)) (U15 m c (Proc.devRef .tc main_arg3)))) = _
  try rw [rb15_main_arg1 m c]
  try rw [rb15_main_v2 m c]
  try rw [rb15_main_arg3 m c]
  rfl

set_option maxRecDepth 65536 in
set_option maxHeartbeats 4000000 in
theorem rb16_main_v293 (c : Dev nD) : U16 m c (Proc.devRef .tc main_v293) = cv_7 (rins m c) := by
  show after (ch15 (F := Ideal)) (U15 m c) (Proc.devRef .tc main_v293) = _
  after_results_simp
  show (broadcastInDim S8192x50 ![0, 1] bcast_S1x50_S8192x50_0_1 (broadcastInDim S1x50 ![1] bcast_S50_S1x50_1 (U15 m c (Proc.devRef .tc main_arg4)))) = _
  try rw [rb15_main_arg4 m c]
  rfl

set_option maxRecDepth 65536 in
set_option maxHeartbeats 4000000 in
theorem rb17_main_v298 (c : Dev nD) : U17 m c (Proc.devRef .tc main_v298) = cv_213 (rins m c) := by
  show after (ch16 (F := Ideal)) (U16 m c) (Proc.devRef .tc main_v298) = _
  after_results_simp
  show (addf (F := Ideal) (φ := .f32) (U16 m c (Proc.devRef .tc main_v289)) (mulf (F := Ideal) (φ := .f32) (broadcastInDim S8192x50 ![] bcast_S_S8192x50 (constant (F := Ideal) S_ .f32 0x3F4CCCCD#32)) (maximumf (F := Ideal) (φ := .f32) (addf (F := Ideal) (φ := .f32) (U16 m c (Proc.devRef .tc main_v291)) (U16 m c (Proc.devRef .tc main_v293))) (broadcastInDim S8192x50 ![] bcast_S_S8192x50 (constant (F := Ideal) S_ .f32 0x00000000#32))))) = _
  try rw [rb16_main_v289 m c]
  try rw [rb16_main_v291 m c]
  try rw [rb16_main_v293 m c]
  rfl

theorem rb17_main_arg3 (c : Dev nD) : U17 m c (Proc.devRef .tc main_arg3) = (rins m c).x3 :=
  (U17_of m c main_arg3 (by decide)).trans (rb16_main_arg3 m c)

set_option maxRecDepth 65536 in
set_option maxHeartbeats 4000000 in
theorem rb18_main_v324 (c : Dev nD) : U18 m c (Proc.devRef .tc main_v324) = cv_230 (rins m c) := by
  show after (ch17 (F := Ideal)) (U17 m c) (Proc.devRef .tc main_v324) = _
  after_results_simp
  show (Host.dotGeneral (F := Ideal) (φ₁ := .f32) (φ₂ := .f32) dot_S8192x50_S50x50_S8192x50_1_0_0_1_n_n none (U17 m c (Proc.devRef .tc main_v298)) (U17 m c (Proc.devRef .tc main_arg3))) = _
  try rw [rb17_main_v298 m c]
  try rw [rb17_main_arg3 m c]
  rfl

end Cert.Bridge

end
-- ==== Proof.Ideal.RefRunP9.lean ====
/-
  The reference program's run read as values, continued: the value of every buffer a later stretch reads, at every boundary
  (one lemma per buffer and boundary, in dependency order).
-/
import proofs.«174668_j26645977104432_2_alg».proof.Proof.Ideal.RefRunP8

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb17_main_arg4 (c : Dev nD) : U17 m c (Proc.devRef .tc main_arg4) = (rins m c).x4 :=
  (U17_of m c main_arg4 (by decide)).trans (rb16_main_arg4 m c)

theorem rb18_main_arg4 (c : Dev nD) : U18 m c (Proc.devRef .tc main_arg4) = (rins m c).x4 :=
  (U18_of m c main_arg4 (by decide)).trans (rb17_main_arg4 m c)

theorem rb17_main_arg5 (c : Dev nD) : U17 m c (Proc.devRef .tc main_arg5) = (rins m c).x5 :=
  (U17_of m c main_arg5 (by decide)).trans (rb16_main_arg5 m c)

theorem rb18_main_arg5 (c : Dev nD) : U18 m c (Proc.devRef .tc main_arg5) = (rins m c).x5 :=
  (U18_of m c main_arg5 (by decide)).trans (rb17_main_arg5 m c)

theorem rb17_main_arg6 (c : Dev nD) : U17 m c (Proc.devRef .tc main_arg6) = (rins m c).x6 :=
  (U17_of m c main_arg6 (by decide)).trans (rb16_main_arg6 m c)

theorem rb18_main_arg6 (c : Dev nD) : U18 m c (Proc.devRef .tc main_arg6) = (rins m c).x6 :=
  (U18_of m c main_arg6 (by decide)).trans (rb17_main_arg6 m c)

set_option maxRecDepth 65536 in
set_option maxHeartbeats 4000000 in
theorem rb19_main_v345 (c : Dev nD) : U19 m c (Proc.devRef .tc main_v345) = cv_247 (rins m c) := by
  show after (ch18 (F := Ideal)) (U18 m c) (Proc.devRef .tc main_v345) = _
  after_results_simp
  show (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (concatenate S8192x100 1 [⟨S8192x50, (U18 m c (Proc.devRef .tc main_v287))⟩, ⟨S8192x50, (addf (F := Ideal) (φ := .f32) (U18 m c (Proc.devRef .tc main_v323)) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U18 m c (Proc.devRef .tc main_arg1)) (U18 m c (Proc.devRef .tc main_v324))) (broadcastInDim S8192x50 ![0, 1] bcast_S1x50_S8192x50_0_1 (broadcastInDim S1x50 ![1] bcast_S50_S1x50_1 (U18 m c (Proc.devRef .tc main_arg4))))) (broadcastInDim S8192x50 ![] bcast_S_S8192x50 (constant (F := Ideal) S_ .f32 0x00000000#32)))))⟩] concatenates_S8192x50_S8192x50_S8192x100_d1) (shapeCast _ (extractStridedSlice S1x100x50 ![7, 0, 0] (U18 m c (Proc.devRef .tc main_arg5)) slices_S12x100x50_S1x100x50_7_0_0) shapeCasts_S1x100x50_S100x50)) (broadcastInDim S8192x50 ![0, 1] bcast_S1x50_S8192x50_0_1 (broadcastInDim S1x50 ![1] bcast_S50_S1x50_1 (shapeCast _ (extractStridedSlice S1x50 ![7, 0] (U18 m c (Proc.devRef .tc main_arg6)) slices_S12x50_S1x50_7_0) shapeCasts_S1x50_S50))))))) = _
  try rw [rb18_main_v287 m c]
  try rw [rb18_main_v323 m c]
  try rw [rb18_main_arg1 m c]
  try rw [rb18_main_v324 m c]
  try rw [rb18_main_arg4 m c]
  try rw [rb18_main_arg5 m c]
  try rw [rb18_main_arg6 m c]
  rfl

set_option maxRecDepth 65536 in
set_option maxHeartbeats 4000000 in
theorem rb19_main_v332 (c : Dev nD) : U19 m c (Proc.devRef .tc main_v332) = cv_235 (rins m c) := by
  show after (ch18 (F := Ideal)) (U18 m c) (Proc.devRef .tc main_v332) = _
  after_results_simp
  show (addf (F := Ideal) (φ := .f32) (U18 m c (Proc.devRef .tc main_v323)) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U18 m c (Proc.devRef .tc main_arg1)) (U18 m c (Proc.devRef .tc main_v324))) (broadcastInDim S8192x50 ![0, 1] bcast_S1x50_S8192x50_0_1 (broadcastInDim S1x50 ![1] bcast_S50_S1x50_1 (U18 m c (Proc.devRef .tc main_arg4))))) (broadcastInDim S8192x50 ![] bcast_S_S8192x50 (constant (F := Ideal) S_ .f32 0x00000000#32))))) = _
  try rw [rb18_main_v323 m c]
  try rw [rb18_main_arg1 m c]
  try rw [rb18_main_v324 m c]
  try rw [rb18_main_arg4 m c]
  rfl

set_option maxRecDepth 65536 in
set_option maxHeartbeats 4000000 in
theorem rb20_main_v349 (c : Dev nD) : U20 m c (Proc.devRef .tc main_v349) = cv_250 (rins m c) := by
  show after (ch19 (F := Ideal)) (U19 m c) (Proc.devRef .tc main_v349) = _
  after_results_simp
  show (addf (F := Ideal) (φ := .f32) (mulf (F := Ideal) (φ := .f32) (Host.divf (F := Ideal) (φ := .f32) (broadcastInDim S8192x50 ![] bcast_S_S8192x50 (constant (F := Ideal) S_ .f32 0x3F800000#32)) (U19 m c (Proc.devRef .tc main_v345))) (U19 m c (Proc.devRef .tc main_v287))) (U19 m c (Proc.devRef .tc main_v332))) = _
  try rw [rb19_main_v345 m c]
  try rw [rb19_main_v287 m c]
  try rw [rb19_main_v332 m c]
  rfl

theorem rb21_main_v349 (c : Dev nD) : U21 m c (Proc.devRef .tc main_v349) = cv_250 (rins m c) :=
  (U21_of m c main_v349 (by decide)).trans (rb20_main_v349 m c)

theorem rb22_main_v349 (c : Dev nD) : U22 m c (Proc.devRef .tc main_v349) = cv_250 (rins m c) :=
  (U22_of m c main_v349 (by decide)).trans (rb21_main_v349 m c)

theorem rb23_main_v349 (c : Dev nD) : U23 m c (Proc.devRef .tc main_v349) = cv_250 (rins m c) :=
  (U23_of m c main_v349 (by decide)).trans (rb22_main_v349 m c)

set_option maxRecDepth 65536 in
set_option maxHeartbeats 4000000 in
theorem rb1_main_v3 (c : Dev nD) : U1 m c (Proc.devRef .tc main_v3) = cv_3 (rins m c) := by
  show after (ch0 (F := Ideal)) (U0 m c) (Proc.devRef .tc main_v3) = _
  after_results_simp
  show (extractStridedSlice S8192x50 ![0, 150] (U0 m c (Proc.devRef .tc main_arg0)) slices_S8192x200_S8192x50_0_150) = _
  try rw [rb0_main_arg0 m c]
  rfl

theorem rb2_main_v3 (c : Dev nD) : U2 m c (Proc.devRef .tc main_v3) = cv_3 (rins m c) :=
  (U2_of m c main_v3 (by decide)).trans (rb1_main_v3 m c)

theorem rb3_main_v3 (c : Dev nD) : U3 m c (Proc.devRef .tc main_v3) = cv_3 (rins m c) :=
  (U3_of m c main_v3 (by decide)).trans (rb2_main_v3 m c)

theorem rb4_main_v3 (c : Dev nD) : U4 m c (Proc.devRef .tc main_v3) = cv_3 (rins m c) :=
  (U4_of m c main_v3 (by decide)).trans (rb3_main_v3 m c)

theorem rb5_main_v3 (c : Dev nD) : U5 m c (Proc.devRef .tc main_v3) = cv_3 (rins m c) :=
  (U5_of m c main_v3 (by decide)).trans (rb4_main_v3 m c)

theorem rb6_main_v3 (c : Dev nD) : U6 m c (Proc.devRef .tc main_v3) = cv_3 (rins m c) :=
  (U6_of m c main_v3 (by decide)).trans (rb5_main_v3 m c)

theorem rb7_main_v3 (c : Dev nD) : U7 m c (Proc.devRef .tc main_v3) = cv_3 (rins m c) :=
  (U7_of m c main_v3 (by decide)).trans (rb6_main_v3 m c)

theorem rb8_main_v3 (c : Dev nD) : U8 m c (Proc.devRef .tc main_v3) = cv_3 (rins m c) :=
  (U8_of m c main_v3 (by decide)).trans (rb7_main_v3 m c)

set_option maxRecDepth 65536 in
set_option maxHeartbeats 4000000 in
theorem rb9_main_v160 (c : Dev nD) : U9 m c (Proc.devRef .tc main_v160) = cv_128 (rins m c) := by
  show after (ch8 (F := Ideal)) (U8 m c) (Proc.devRef .tc main_v160) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U8 m c (Proc.devRef .tc main_arg1)) (Host.dotGeneral (F := Ideal) (φ₁ := .f32) (φ₂ := .f32) dot_S8192x50_S50x50_S8192x50_1_0_0_1_n_n none (U8 m c (Proc.devRef .tc main_v3)) (U8 m c (Proc.devRef .tc main_arg3)))) (broadcastInDim S8192x50 ![0, 1] bcast_S1x50_S8192x50_0_1 (broadcastInDim S1x50 ![1] bcast_S50_S1x50_1 (U8 m c (Proc.devRef .tc main_arg4))))) (broadcastInDim S8192x50 ![] bcast_S_S8192x50 (constant (F := Ideal) S_ .f32 0x00000000#32))) = _
  try rw [rb8_main_arg1 m c]
  try rw [rb8_main_v3 m c]
  try rw [rb8_main_arg3 m c]
  try rw [rb8_main_arg4 m c]
  rfl

set_option maxRecDepth 65536 in
set_option maxHeartbeats 4000000 in
theorem rb7_main_v119 (c : Dev nD) : U7 m c (Proc.devRef .tc main_v119) = cv_98 (rins m c) := by
  show after (ch6 (F := Ideal)) (U6 m c) (Proc.devRef .tc main_v119) = _
  after_results_simp
  show (addf (F := Ideal) (φ := .f32) (U6 m c (Proc.devRef .tc main_v102)) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (U6 m c (Proc.devRef .tc main_v106)) (broadcastInDim S8192x50 ![0, 1] bcast_S1x50_S8192x50_0_1 (U6 m c (Proc.devRef .tc main_v109)))))))) (U6 m c (Proc.devRef .tc main_v57)))) = _
  try rw [rb6_main_v102 m c]
  try rw [rb6_main_v106 m c]
  try rw [rb6_main_v109 m c]
  try rw [rb6_main_v57 m c]
  rfl

theorem rb8_main_v119 (c : Dev nD) : U8 m c (Proc.devRef .tc main_v119) = cv_98 (rins m c) :=
  (U8_of m c main_v119 (by decide)).trans (rb7_main_v119 m c)

set_option maxRecDepth 65536 in
set_option maxHeartbeats 4000000 in
theorem rb9_main_v161 (c : Dev nD) : U9 m c (Proc.devRef .tc main_v161) = cv_129 (rins m c) := by
  show after (ch8 (F := Ideal)) (U8 m c) (Proc.devRef .tc main_v161) = _
  after_results_simp
  show (concatenate S8192x100 1 [⟨S8192x50, (U8 m c (Proc.devRef .tc main_v119))⟩, ⟨S8192x50, (maximumf (F := Ideal) (φ := .f32) (addf (F := Ideal) (φ := .f32) (Host.dotGeneral (F := Ideal) (φ₁ := .f32) (φ₂ := .f32) dot_S8192x8192_S8192x50_S8192x50_1_0_0_1_n_n none (U8 m c (Proc.devRef .tc main_arg1)) (Host.dotGeneral (F := Ideal) (φ₁ := .f32) (φ₂ := .f32) dot_S8192x50_S50x50_S8192x50_1_0_0_1_n_n none (U8 m c (Proc.devRef .tc main_v3)) (U8 m c (Proc.devRef .tc main_arg3)))) (broadcastInDim S8192x50 ![0, 1] bcast_S1x50_S8192x50_0_1 (broadcastInDim S1x50 ![1] bcast_S50_S1x50_1 (U8 m c (Proc.devRef .tc main_arg4))))) (broadcastInDim S8192x50 ![] bcast_S_S8192x50 (constant (F := Ideal) S_ .f32 0x00000000#32)))⟩] concatenates_S8192x50_S8192x50_S8192x100_d1) = _
  try rw [rb8_main_v119 m c]
  try rw [rb8_main_arg1 m c]
  try rw [rb8_main_v3 m c]
  try rw [rb8_main_arg3 m c]
  try rw [rb8_main_arg4 m c]
  rfl

set_option maxRecDepth 65536 in
set_option maxHeartbeats 4000000 in
theorem rb9_main_v163 (c : Dev nD) : U9 m c (Proc.devRef .tc main_v163) = cv_131 (rins m c) := by
  show after (ch8 (F := Ideal)) (U8 m c) (Proc.devRef .tc main_v163) = _
  after_results_simp
  show (shapeCast _ (extractStridedSlice S1x100x50 ![2, 0, 0] (U8 m c (Proc.devRef .tc main_arg5)) slices_S12x100x50_S1x100x50_2_0_0) shapeCasts_S1x100x50_S100x50) = _
  try rw [rb8_main_arg5 m c]
  rfl

theorem rb9_main_v119 (c : Dev nD) : U9 m c (Proc.devRef .tc main_v119) = cv_98 (rins m c) :=
  (U9_of m c main_v119 (by decide)).trans (rb8_main_v119 m c)

set_option maxRecDepth 65536 in
set_option maxHeartbeats 4000000 in
theorem rb10_main_v179 (c : Dev nD) : U10 m c (Proc.devRef .tc main_v179) = cv_144 (rins m c) := by
  show after (ch9 (F := Ideal)) (U9 m c) (Proc.devRef .tc main_v179) = _
  after_results_simp
  show (mulf (F := Ideal) (φ := .f32) (broadcastInDim S8192x50 ![] bcast_S_S8192x50 (constant (F := Ideal) S_ .f32 0x3E4CCCCD#32)) (addf (F := Ideal) (φ := .f32) (U9 m c (Proc.devRef .tc main_v160)) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (U9 m c (Proc.devRef .tc main_v161)) (U9 m c (Proc.devRef .tc main_v163))) (broadcastInDim S8192x50 ![0, 1] bcast_S1x50_S8192x50_0_1 (broadcastInDim S1x50 ![1] bcast_S50_S1x50_1 (shapeCast _ (extractStridedSlice S1x50 ![2, 0] (U9 m c (Proc.devRef .tc main_arg6)) slices_S12x50_S1x50_2_0) shapeCasts_S1x50_S50)))))))) (U9 m c (Proc.devRef .tc main_v119))))) = _
  try rw [rb9_main_v160 m c]
  try rw [rb9_main_v161 m c]
  try rw [rb9_main_v163 m c]
  try rw [rb9_main_arg6 m c]
  try rw [rb9_main_v119 m c]
  rfl

set_option maxRecDepth 65536 in
set_option maxHeartbeats 4000000 in
theorem rb8_main_v149 (c : Dev nD) : U8 m c (Proc.devRef .tc main_v149) = cv_122 (rins m c) := by
  show after (ch7 (F := Ideal)) (U7 m c) (Proc.devRef .tc main_v149) = _
  after_results_simp
  show (Host.dotGeneral (F := Ideal) (φ₁ := .f32) (φ₂ := .f32) dot_S8192x8192_S8192x50_S8192x50_1_0_0_1_n_n none (U7 m c (Proc.devRef .tc main_arg2)) (Host.dotGeneral (F := Ideal) (φ₁ := .f32) (φ₂ := .f32) dot_S8192x50_S50x50_S8192x50_1_0_0_1_n_n none (U7 m c (Proc.devRef .tc main_v3)) (U7 m c (Proc.devRef .tc main_arg3)))) = _
  try rw [rb7_main_arg2 m c]
  try rw [rb7_main_v3 m c]
  try rw [rb7_main_arg3 m c]
  rfl

set_option maxRecDepth 65536 in
set_option maxHeartbeats 4000000 in
theorem rb8_main_v151 (c : Dev nD) : U8 m c (Proc.devRef .tc main_v151) = cv_7 (rins m c) := by
  show after (ch7 (F := Ideal)) (U7 m c) (Proc.devRef .tc main_v151) = _
  after_results_simp
  show (broadcastInDim S8192x50 ![0, 1] bcast_S1x50_S8192x50_0_1 (broadcastInDim S1x50 ![1] bcast_S50_S1x50_1 (U7 m c (Proc.devRef .tc main_arg4)))) = _
  try rw [rb7_main_arg4 m c]
  rfl

set_option maxRecDepth 65536 in
set_option maxHeartbeats 4000000 in
theorem rb9_main_v154 (c : Dev nD) : U9 m c (Proc.devRef .tc main_v154) = cv_125 (rins m c) := by
  show after (ch8 (F := Ideal)) (U8 m c) (Proc.devRef .tc main_v154) = _
  after_results_simp
  show (addf (F := Ideal) (φ := .f32) (U8 m c (Proc.devRef .tc main_v3)) (maximumf (F := Ideal) (φ := .f32) (addf (F := Ideal) (φ := .f32) (U8 m c (Proc.devRef .tc main_v149)) (U8 m c (Proc.devRef .tc main_v151))) (broadcastInDim S8192x50 ![] bcast_S_S8192x50 (constant (F := Ideal) S_ .f32 0x00000000#32)))) = _
  try rw [rb8_main_v3 m c]
  try rw [rb8_main_v149 m c]
  try rw [rb8_main_v151 m c]
  rfl

end Cert.Bridge

end
-- ==== Proof.Ideal.RefRunP10.lean ====
/-
  The reference program's run read as values, continued: the value of every buffer a later stretch reads, at every boundary
  (one lemma per buffer and boundary, in dependency order).
-/
import proofs.«174668_j26645977104432_2_alg».proof.Proof.Ideal.RefRunP9

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

set_option maxRecDepth 65536 in
set_option maxHeartbeats 4000000 in
theorem rb10_main_v185 (c : Dev nD) : U10 m c (Proc.devRef .tc main_v185) = cv_148 (rins m c) := by
  show after (ch9 (F := Ideal)) (U9 m c) (Proc.devRef .tc main_v185) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U9 m c (Proc.devRef .tc main_arg2)) (Host.dotGeneral (F := Ideal) (φ₁ := .f32) (φ₂ := .f32) dot_S8192x50_S50x50_S8192x50_1_0_0_1_n_n none (U9 m c (Proc.devRef .tc main_v154)) (U9 m c (Proc.devRef .tc main_arg3)))) (broadcastInDim S8192x50 ![0, 1] bcast_S1x50_S8192x50_0_1 (broadcastInDim S1x50 ![1] bcast_S50_S1x50_1 (U9 m c (Proc.devRef .tc main_arg4))))) (broadcastInDim S8192x50 ![] bcast_S_S8192x50 (constant (F := Ideal) S_ .f32 0x00000000#32))) = _
  try rw [rb9_main_arg2 m c]
  try rw [rb9_main_v154 m c]
  try rw [rb9_main_arg3 m c]
  try rw [rb9_main_arg4 m c]
  rfl

set_option maxRecDepth 65536 in
set_option maxHeartbeats 4000000 in
theorem rb11_main_v205 (c : Dev nD) : U11 m c (Proc.devRef .tc main_v205) = cv_165 (rins m c) := by
  show after (ch10 (F := Ideal)) (U10 m c) (Proc.devRef .tc main_v205) = _
  after_results_simp
  show (addf (F := Ideal) (φ := .f32) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (concatenate S8192x100 1 [⟨S8192x50, (U10 m c (Proc.devRef .tc main_v147))⟩, ⟨S8192x50, (addf (F := Ideal) (φ := .f32) (U10 m c (Proc.devRef .tc main_v179)) (mulf (F := Ideal) (φ := .f32) (broadcastInDim S8192x50 ![] bcast_S_S8192x50 (constant (F := Ideal) S_ .f32 0x3F4CCCCD#32)) (U10 m c (Proc.devRef .tc main_v185))))⟩] concatenates_S8192x50_S8192x50_S8192x100_d1) (shapeCast _ (extractStridedSlice S1x100x50 ![5, 0, 0] (U10 m c (Proc.devRef .tc main_arg5)) slices_S12x100x50_S1x100x50_5_0_0) shapeCasts_S1x100x50_S100x50)) (broadcastInDim S8192x50 ![0, 1] bcast_S1x50_S8192x50_0_1 (broadcastInDim S1x50 ![1] bcast_S50_S1x50_1 (shapeCast _ (extractStridedSlice S1x50 ![5, 0] (U10 m c (Proc.devRef .tc main_arg6)) slices_S12x50_S1x50_5_0) shapeCasts_S1x50_S50)))))))) (U10 m c (Proc.devRef .tc main_v147))) (addf (F := Ideal) (φ := .f32) (U10 m c (Proc.devRef .tc main_v179)) (mulf (F := Ideal) (φ := .f32) (broadcastInDim S8192x50 ![] bcast_S_S8192x50 (constant (F := Ideal) S_ .f32 0x3F4CCCCD#32)) (U10 m c (Proc.devRef .tc main_v185))))) = _
  try rw [rb10_main_v147 m c]
  try rw [rb10_main_v179 m c]
  try rw [rb10_main_v185 m c]
  try rw [rb10_main_arg5 m c]
  try rw [rb10_main_arg6 m c]
  rfl

theorem rb12_main_v205 (c : Dev nD) : U12 m c (Proc.devRef .tc main_v205) = cv_165 (rins m c) :=
  (U12_of m c main_v205 (by decide)).trans (rb11_main_v205 m c)

theorem rb13_main_v205 (c : Dev nD) : U13 m c (Proc.devRef .tc main_v205) = cv_165 (rins m c) :=
  (U13_of m c main_v205 (by decide)).trans (rb12_main_v205 m c)

theorem rb14_main_v205 (c : Dev nD) : U14 m c (Proc.devRef .tc main_v205) = cv_165 (rins m c) :=
  (U14_of m c main_v205 (by decide)).trans (rb13_main_v205 m c)

theorem rb15_main_v205 (c : Dev nD) : U15 m c (Proc.devRef .tc main_v205) = cv_165 (rins m c) :=
  (U15_of m c main_v205 (by decide)).trans (rb14_main_v205 m c)

theorem rb16_main_v205 (c : Dev nD) : U16 m c (Proc.devRef .tc main_v205) = cv_165 (rins m c) :=
  (U16_of m c main_v205 (by decide)).trans (rb15_main_v205 m c)

theorem rb17_main_v205 (c : Dev nD) : U17 m c (Proc.devRef .tc main_v205) = cv_165 (rins m c) :=
  (U17_of m c main_v205 (by decide)).trans (rb16_main_v205 m c)

theorem rb18_main_v205 (c : Dev nD) : U18 m c (Proc.devRef .tc main_v205) = cv_165 (rins m c) :=
  (U18_of m c main_v205 (by decide)).trans (rb17_main_v205 m c)

theorem rb19_main_v205 (c : Dev nD) : U19 m c (Proc.devRef .tc main_v205) = cv_165 (rins m c) :=
  (U19_of m c main_v205 (by decide)).trans (rb18_main_v205 m c)

theorem rb20_main_v205 (c : Dev nD) : U20 m c (Proc.devRef .tc main_v205) = cv_165 (rins m c) :=
  (U20_of m c main_v205 (by decide)).trans (rb19_main_v205 m c)

theorem rb21_main_v205 (c : Dev nD) : U21 m c (Proc.devRef .tc main_v205) = cv_165 (rins m c) :=
  (U21_of m c main_v205 (by decide)).trans (rb20_main_v205 m c)

theorem rb22_main_v205 (c : Dev nD) : U22 m c (Proc.devRef .tc main_v205) = cv_165 (rins m c) :=
  (U22_of m c main_v205 (by decide)).trans (rb21_main_v205 m c)

theorem rb23_main_v205 (c : Dev nD) : U23 m c (Proc.devRef .tc main_v205) = cv_165 (rins m c) :=
  (U23_of m c main_v205 (by decide)).trans (rb22_main_v205 m c)

theorem rb17_main_arg2 (c : Dev nD) : U17 m c (Proc.devRef .tc main_arg2) = (rins m c).x2 :=
  (U17_of m c main_arg2 (by decide)).trans (rb16_main_arg2 m c)

theorem rb18_main_arg2 (c : Dev nD) : U18 m c (Proc.devRef .tc main_arg2) = (rins m c).x2 :=
  (U18_of m c main_arg2 (by decide)).trans (rb17_main_arg2 m c)

theorem rb19_main_arg2 (c : Dev nD) : U19 m c (Proc.devRef .tc main_arg2) = (rins m c).x2 :=
  (U19_of m c main_arg2 (by decide)).trans (rb18_main_arg2 m c)

theorem rb9_main_v3 (c : Dev nD) : U9 m c (Proc.devRef .tc main_v3) = cv_3 (rins m c) :=
  (U9_of m c main_v3 (by decide)).trans (rb8_main_v3 m c)

theorem rb10_main_v3 (c : Dev nD) : U10 m c (Proc.devRef .tc main_v3) = cv_3 (rins m c) :=
  (U10_of m c main_v3 (by decide)).trans (rb9_main_v3 m c)

theorem rb11_main_v3 (c : Dev nD) : U11 m c (Proc.devRef .tc main_v3) = cv_3 (rins m c) :=
  (U11_of m c main_v3 (by decide)).trans (rb10_main_v3 m c)

theorem rb12_main_v3 (c : Dev nD) : U12 m c (Proc.devRef .tc main_v3) = cv_3 (rins m c) :=
  (U12_of m c main_v3 (by decide)).trans (rb11_main_v3 m c)

theorem rb13_main_v3 (c : Dev nD) : U13 m c (Proc.devRef .tc main_v3) = cv_3 (rins m c) :=
  (U13_of m c main_v3 (by decide)).trans (rb12_main_v3 m c)

theorem rb14_main_v3 (c : Dev nD) : U14 m c (Proc.devRef .tc main_v3) = cv_3 (rins m c) :=
  (U14_of m c main_v3 (by decide)).trans (rb13_main_v3 m c)

theorem rb15_main_v3 (c : Dev nD) : U15 m c (Proc.devRef .tc main_v3) = cv_3 (rins m c) :=
  (U15_of m c main_v3 (by decide)).trans (rb14_main_v3 m c)

theorem rb16_main_v3 (c : Dev nD) : U16 m c (Proc.devRef .tc main_v3) = cv_3 (rins m c) :=
  (U16_of m c main_v3 (by decide)).trans (rb15_main_v3 m c)

theorem rb17_main_v3 (c : Dev nD) : U17 m c (Proc.devRef .tc main_v3) = cv_3 (rins m c) :=
  (U17_of m c main_v3 (by decide)).trans (rb16_main_v3 m c)

theorem rb18_main_v3 (c : Dev nD) : U18 m c (Proc.devRef .tc main_v3) = cv_3 (rins m c) :=
  (U18_of m c main_v3 (by decide)).trans (rb17_main_v3 m c)

theorem rb19_main_v3 (c : Dev nD) : U19 m c (Proc.devRef .tc main_v3) = cv_3 (rins m c) :=
  (U19_of m c main_v3 (by decide)).trans (rb18_main_v3 m c)

theorem rb18_main_arg3 (c : Dev nD) : U18 m c (Proc.devRef .tc main_arg3) = (rins m c).x3 :=
  (U18_of m c main_arg3 (by decide)).trans (rb17_main_arg3 m c)

theorem rb19_main_arg3 (c : Dev nD) : U19 m c (Proc.devRef .tc main_arg3) = (rins m c).x3 :=
  (U19_of m c main_arg3 (by decide)).trans (rb18_main_arg3 m c)

end Cert.Bridge

end
-- ==== Proof.Ideal.RefRunP11.lean ====
/-
  The reference program's run read as values, continued: the value of every buffer a later stretch reads, at every boundary
  (one lemma per buffer and boundary, in dependency order).
-/
import proofs.«174668_j26645977104432_2_alg».proof.Proof.Ideal.RefRunP10

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb19_main_arg4 (c : Dev nD) : U19 m c (Proc.devRef .tc main_arg4) = (rins m c).x4 :=
  (U19_of m c main_arg4 (by decide)).trans (rb18_main_arg4 m c)

set_option maxRecDepth 65536 in
set_option maxHeartbeats 4000000 in
theorem rb20_main_v362 (c : Dev nD) : U20 m c (Proc.devRef .tc main_v362) = cv_124 (rins m c) := by
  show after (ch19 (F := Ideal)) (U19 m c) (Proc.devRef .tc main_v362) = _
  after_results_simp
  show (maximumf (F := Ideal) (φ := .f32) (addf (F := Ideal) (φ := .f32) (Host.dotGeneral (F := Ideal) (φ₁ := .f32) (φ₂ := .f32) dot_S8192x8192_S8192x50_S8192x50_1_0_0_1_n_n none (U19 m c (Proc.devRef .tc main_arg2)) (Host.dotGeneral (F := Ideal) (φ₁ := .f32) (φ₂ := .f32) dot_S8192x50_S50x50_S8192x50_1_0_0_1_n_n none (U19 m c (Proc.devRef .tc main_v3)) (U19 m c (Proc.devRef .tc main_arg3)))) (broadcastInDim S8192x50 ![0, 1] bcast_S1x50_S8192x50_0_1 (broadcastInDim S1x50 ![1] bcast_S50_S1x50_1 (U19 m c (Proc.devRef .tc main_arg4))))) (broadcastInDim S8192x50 ![] bcast_S_S8192x50 (constant (F := Ideal) S_ .f32 0x00000000#32))) = _
  try rw [rb19_main_arg2 m c]
  try rw [rb19_main_v3 m c]
  try rw [rb19_main_arg3 m c]
  try rw [rb19_main_arg4 m c]
  rfl

set_option maxRecDepth 65536 in
set_option maxHeartbeats 4000000 in
theorem rb18_main_v321 (c : Dev nD) : U18 m c (Proc.devRef .tc main_v321) = cv_228 (rins m c) := by
  show after (ch17 (F := Ideal)) (U17 m c) (Proc.devRef .tc main_v321) = _
  after_results_simp
  show (addf (F := Ideal) (φ := .f32) (U17 m c (Proc.devRef .tc main_v304)) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (U17 m c (Proc.devRef .tc main_v313)))))) (U17 m c (Proc.devRef .tc main_v259)))) = _
  try rw [rb17_main_v304 m c]
  try rw [rb17_main_v313 m c]
  try rw [rb17_main_v259 m c]
  rfl

theorem rb19_main_v321 (c : Dev nD) : U19 m c (Proc.devRef .tc main_v321) = cv_228 (rins m c) :=
  (U19_of m c main_v321 (by decide)).trans (rb18_main_v321 m c)

set_option maxRecDepth 65536 in
set_option maxHeartbeats 4000000 in
theorem rb20_main_v363 (c : Dev nD) : U20 m c (Proc.devRef .tc main_v363) = cv_252 (rins m c) := by
  show after (ch19 (F := Ideal)) (U19 m c) (Proc.devRef .tc main_v363) = _
  after_results_simp
  show (concatenate S8192x100 1 [⟨S8192x50, (U19 m c (Proc.devRef .tc main_v321))⟩, ⟨S8192x50, (maximumf (F := Ideal) (φ := .f32) (addf (F := Ideal) (φ := .f32) (Host.dotGeneral (F := Ideal) (φ₁ := .f32) (φ₂ := .f32) dot_S8192x8192_S8192x50_S8192x50_1_0_0_1_n_n none (U19 m c (Proc.devRef .tc main_arg2)) (Host.dotGeneral (F := Ideal) (φ₁ := .f32) (φ₂ := .f32) dot_S8192x50_S50x50_S8192x50_1_0_0_1_n_n none (U19 m c (Proc.devRef .tc main_v3)) (U19 m c (Proc.devRef .tc main_arg3)))) (broadcastInDim S8192x50 ![0, 1] bcast_S1x50_S8192x50_0_1 (broadcastInDim S1x50 ![1] bcast_S50_S1x50_1 (U19 m c (Proc.devRef .tc main_arg4))))) (broadcastInDim S8192x50 ![] bcast_S_S8192x50 (constant (F := Ideal) S_ .f32 0x00000000#32)))⟩] concatenates_S8192x50_S8192x50_S8192x100_d1) = _
  try rw [rb19_main_v321 m c]
  try rw [rb19_main_arg2 m c]
  try rw [rb19_main_v3 m c]
  try rw [rb19_main_arg3 m c]
  try rw [rb19_main_arg4 m c]
  rfl

theorem rb19_main_arg5 (c : Dev nD) : U19 m c (Proc.devRef .tc main_arg5) = (rins m c).x5 :=
  (U19_of m c main_arg5 (by decide)).trans (rb18_main_arg5 m c)

set_option maxRecDepth 65536 in
set_option maxHeartbeats 4000000 in
theorem rb20_main_v365 (c : Dev nD) : U20 m c (Proc.devRef .tc main_v365) = cv_254 (rins m c) := by
  show after (ch19 (F := Ideal)) (U19 m c) (Proc.devRef .tc main_v365) = _
  after_results_simp
  show (shapeCast _ (extractStridedSlice S1x100x50 ![11, 0, 0] (U19 m c (Proc.devRef .tc main_arg5)) slices_S12x100x50_S1x100x50_11_0_0) shapeCasts_S1x100x50_S100x50) = _
  try rw [rb19_main_arg5 m c]
  rfl

theorem rb19_main_arg6 (c : Dev nD) : U19 m c (Proc.devRef .tc main_arg6) = (rins m c).x6 :=
  (U19_of m c main_arg6 (by decide)).trans (rb18_main_arg6 m c)

theorem rb20_main_arg6 (c : Dev nD) : U20 m c (Proc.devRef .tc main_arg6) = (rins m c).x6 :=
  (U20_of m c main_arg6 (by decide)).trans (rb19_main_arg6 m c)

theorem rb20_main_v321 (c : Dev nD) : U20 m c (Proc.devRef .tc main_v321) = cv_228 (rins m c) :=
  (U20_of m c main_v321 (by decide)).trans (rb19_main_v321 m c)

set_option maxRecDepth 65536 in
set_option maxHeartbeats 4000000 in
theorem rb21_main_v379 (c : Dev nD) : U21 m c (Proc.devRef .tc main_v379) = cv_266 (rins m c) := by
  show after (ch20 (F := Ideal)) (U20 m c) (Proc.devRef .tc main_v379) = _
  after_results_simp
  show (addf (F := Ideal) (φ := .f32) (U20 m c (Proc.devRef .tc main_v362)) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S8192x100_S100x50_S8192x50_1_0_0_1_n_n none (U20 m c (Proc.devRef .tc main_v363)) (U20 m c (Proc.devRef .tc main_v365))) (broadcastInDim S8192x50 ![0, 1] bcast_S1x50_S8192x50_0_1 (broadcastInDim S1x50 ![1] bcast_S50_S1x50_1 (shapeCast _ (extractStridedSlice S1x50 ![11, 0] (U20 m c (Proc.devRef .tc main_arg6)) slices_S12x50_S1x50_11_0) shapeCasts_S1x50_S50)))))))) (U20 m c (Proc.devRef .tc main_v321)))) = _
  try rw [rb20_main_v362 m c]
  try rw [rb20_main_v363 m c]
  try rw [rb20_main_v365 m c]
  try rw [rb20_main_arg6 m c]
  try rw [rb20_main_v321 m c]
  rfl

theorem rb19_main_arg1 (c : Dev nD) : U19 m c (Proc.devRef .tc main_arg1) = (rins m c).x1 :=
  (U19_of m c main_arg1 (by decide)).trans (rb18_main_arg1 m c)

theorem rb20_main_arg1 (c : Dev nD) : U20 m c (Proc.devRef .tc main_arg1) = (rins m c).x1 :=
  (U20_of m c main_arg1 (by decide)).trans (rb19_main_arg1 m c)

theorem rb21_main_arg1 (c : Dev nD) : U21 m c (Proc.devRef .tc main_arg1) = (rins m c).x1 :=
  (U21_of m c main_arg1 (by decide)).trans (rb20_main_arg1 m c)

set_option maxRecDepth 65536 in
set_option maxHeartbeats 4000000 in
theorem rb20_main_v356 (c : Dev nD) : U20 m c (Proc.devRef .tc main_v356) = cv_251 (rins m c) := by
  show after (ch19 (F := Ideal)) (U19 m c) (Proc.devRef .tc main_v356) = _
  after_results_simp
  show (addf (F := Ideal) (φ := .f32) (U19 m c (Proc.devRef .tc main_v3)) (maximumf (F := Ideal) (φ := .f32) (addf (F := Ideal) (φ := .f32) (Host.dotGeneral (F := Ideal) (φ₁ := .f32) (φ₂ := .f32) dot_S8192x8192_S8192x50_S8192x50_1_0_0_1_n_n none (U19 m c (Proc.devRef .tc main_arg1)) (Host.dotGeneral (F := Ideal) (φ₁ := .f32) (φ₂ := .f32) dot_S8192x50_S50x50_S8192x50_1_0_0_1_n_n none (U19 m c (Proc.devRef .tc main_v3)) (U19 m c (Proc.devRef .tc main_arg3)))) (broadcastInDim S8192x50 ![0, 1] bcast_S1x50_S8192x50_0_1 (broadcastInDim S1x50 ![1] bcast_S50_S1x50_1 (U19 m c (Proc.devRef .tc main_arg4))))) (broadcastInDim S8192x50 ![] bcast_S_S8192x50 (constant (F := Ideal) S_ .f32 0x00000000#32)))) = _
  try rw [rb19_main_v3 m c]
  try rw [rb19_main_arg1 m c]
  try rw [rb19_main_arg3 m c]
  try rw [rb19_main_arg4 m c]
  rfl

theorem rb21_main_v356 (c : Dev nD) : U21 m c (Proc.devRef .tc main_v356) = cv_251 (rins m c) :=
  (U21_of m c main_v356 (by decide)).trans (rb20_main_v356 m c)

theorem rb20_main_arg3 (c : Dev nD) : U20 m c (Proc.devRef .tc main_arg3) = (rins m c).x3 :=
  (U20_of m c main_arg3 (by decide)).trans (rb19_main_arg3 m c)

theorem rb21_main_arg3 (c : Dev nD) : U21 m c (Proc.devRef .tc main_arg3) = (rins m c).x3 :=
  (U21_of m c main_arg3 (by decide)).trans (rb20_main_arg3 m c)

theorem rb20_main_arg4 (c : Dev nD) : U20 m c (Proc.devRef .tc main_arg4) = (rins m c).x4 :=
  (U20_of m c main_arg4 (by decide)).trans (rb19_main_arg4 m c)

theorem rb21_main_arg4 (c : Dev nD) : U21 m c (Proc.devRef .tc main_arg4) = (rins m c).x4 :=
  (U21_of m c main_arg4 (by decide)).trans (rb20_main_arg4 m c)

theorem rb20_main_arg5 (c : Dev nD) : U20 m c (Proc.devRef .tc main_arg5) = (rins m c).x5 :=
  (U20_of m c main_arg5 (by decide)).trans (rb19_main_arg5 m c)

theorem rb21_main_arg5 (c : Dev nD) : U21 m c (Proc.devRef .tc main_arg5) = (rins m c).x5 :=
  (U21_of m c main_arg5 (by decide)).trans (rb20_main_arg5 m c)

theorem rb21_main_arg6 (c : Dev nD) : U21 m c (Proc.devRef .tc main_arg6) = (rins m c).x6 :=
  (U21_of m c main_arg6 (by decide)).trans (rb20_main_arg6 m c)

set_option maxRecDepth 65536 in
set_option maxHeartbeats 4000000 in
theorem rb22_main_v400 (c : Dev nD) : U22 m c (Proc.devRef .tc main_v400) = cv_283 (rins m c) := by
  show after (ch21 (F := Ideal)) (U21 m c) (Proc.devRef .tc main_v400) = _
  after_results_simp
  show (Host.negf (F := Ideal) (φ := .f32) (addf (F := Ideal) (φ := .f32) (Host.dotGeneral (F := Ideal) (φ₁ := .f32) (φ₂ := .f32) dot_S8192x100_S100x50_S8192x50_1_0_0_1_n_n none (concatenate S8192x100 1 [⟨S8192x50, (U21 m c (Proc.devRef .tc main_v349))⟩, ⟨S8192x50, (addf (F := Ideal) (φ := .f32) (mulf (F := Ideal) (φ := .f32) (broadcastInDim S8192x50 ![] bcast_S_S8192x50 (constant (F := Ideal) S_ .f32 0x3E4CCCCD#32)) (U21 m c (Proc.devRef .tc main_v379))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U21 m c (Proc.devRef .tc main_arg1)) (Host.dotGeneral (F := Ideal) (φ₁ := .f32) (φ₂ := .f32) dot_S8192x50_S50x50_S8192x50_1_0_0_1_n_n none (U21 m c (Proc.devRef .tc main_v356)) (U21 m c (Proc.devRef .tc main_arg3)))) (broadcastInDim S8192x50 ![0, 1] bcast_S1x50_S8192x50_0_1 (broadcastInDim S1x50 ![1] bcast_S50_S1x50_1 (U21 m c (Proc.devRef .tc main_arg4))))) (broadcastInDim S8192x50 ![] bcast_S_S8192x50 (constant (F := Ideal) S_ .f32 0x00000000#32)))))⟩] concatenates_S8192x50_S8192x50_S8192x100_d1) (shapeCast _ (extractStridedSlice S1x100x50 ![8, 0, 0] (U21 m c (Proc.devRef .tc main_arg5)) slices_S12x100x50_S1x100x50_8_0_0) shapeCasts_S1x100x50_S100x50)) (broadcastInDim S8192x50 ![0, 1] bcast_S1x50_S8192x50_0_1 (broadcastInDim S1x50 ![1] bcast_S50_S1x50_1 (shapeCast _ (extractStridedSlice S1x50 ![8, 0] (U21 m c (Proc.devRef .tc main_arg6)) slices_S12x50_S1x50_8_0) shapeCasts_S1x50_S50))))) = _
  try rw [rb21_main_v349 m c]
  try rw [rb21_main_v379 m c]
  try rw [rb21_main_arg1 m c]
  try rw [rb21_main_v356 m c]
  try rw [rb21_main_arg3 m c]
  try rw [rb21_main_arg4 m c]
  try rw [rb21_main_arg5 m c]
  try rw [rb21_main_arg6 m c]
  rfl

set_option maxRecDepth 65536 in
set_option maxHeartbeats 4000000 in
theorem rb22_main_v390 (c : Dev nD) : U22 m c (Proc.devRef .tc main_v390) = cv_273 (rins m c) := by
  show after (ch21 (F := Ideal)) (U21 m c) (Proc.devRef .tc main_v390) = _
  after_results_simp
  show (addf (F := Ideal) (φ := .f32) (mulf (F := Ideal) (φ := .f32) (broadcastInDim S8192x50 ![] bcast_S_S8192x50 (constant (F := Ideal) S_ .f32 0x3E4CCCCD#32)) (U21 m c (Proc.devRef .tc main_v379))) (mulf (F := Ideal) (φ := .f32) (broadcastInDim S8192x50 ![] bcast_S_S8192x50 (constant (F := Ideal) S_ .f32 0x3F4CCCCD#32)) (maximumf (F := Ideal) (φ := .f32) (addf (F := Ideal) (φ := .f32) (Host.dotGeneral (F := Ideal) (φ₁ := .f32) (φ₂ := .f32) dot_S8192x8192_S8192x50_S8192x50_1_0_0_1_n_n none (U21 m c (Proc.devRef .tc main_arg1)) (Host.dotGeneral (F := Ideal) (φ₁ := .f32) (φ₂ := .f32) dot_S8192x50_S50x50_S8192x50_1_0_0_1_n_n none (U21 m c (Proc.devRef .tc main_v356)) (U21 m c (Proc.devRef .tc main_arg3)))) (broadcastInDim S8192x50 ![0, 1] bcast_S1x50_S8192x50_0_1 (broadcastInDim S1x50 ![1] bcast_S50_S1x50_1 (U21 m c (Proc.devRef .tc main_arg4))))) (broadcastInDim S8192x50 ![] bcast_S_S8192x50 (constant (F := Ideal) S_ .f32 0x00000000#32))))) = _
  try rw [rb21_main_v379 m c]
  try rw [rb21_main_arg1 m c]
  try rw [rb21_main_v356 m c]
  try rw [rb21_main_arg3 m c]
  try rw [rb21_main_arg4 m c]
  rfl

set_option maxRecDepth 65536 in
set_option maxHeartbeats 4000000 in
theorem rb23_main_v407 (c : Dev nD) : U23 m c (Proc.devRef .tc main_v407) = cv_288 (rins m c) := by
  show after (ch22 (F := Ideal)) (U22 m c) (Proc.devRef .tc main_v407) = _
  after_results_simp
  show (addf (F := Ideal) (φ := .f32) (mulf (F := Ideal) (φ := .f32) (Host.divf (F := Ideal) (φ := .f32) (broadcastInDim S8192x50 ![] bcast_S_S8192x50 (constant (F := Ideal) S_ .f32 0x3F800000#32)) (addf (F := Ideal) (φ := .f32) (broadcastInDim S8192x50 ![] bcast_S_S8192x50 (constant (F := Ideal) S_ .f32 0x3F800000#32)) (Host.exp (F := Ideal) (φ := .f32) (U22 m c (Proc.devRef .tc main_v400))))) (U22 m c (Proc.devRef .tc main_v349))) (U22 m c (Proc.devRef .tc main_v390))) = _
  try rw [rb22_main_v400 m c]
  try rw [rb22_main_v349 m c]
  try rw [rb22_main_v390 m c]
  rfl

theorem rb0_main_arg7 (c : Dev nD) : U0 m c (Proc.devRef .tc main_arg7) = (rins m c).x7 := rfl

theorem rb1_main_arg7 (c : Dev nD) : U1 m c (Proc.devRef .tc main_arg7) = (rins m c).x7 :=
  (U1_of m c main_arg7 (by decide)).trans (rb0_main_arg7 m c)

theorem rb2_main_arg7 (c : Dev nD) : U2 m c (Proc.devRef .tc main_arg7) = (rins m c).x7 :=
  (U2_of m c main_arg7 (by decide)).trans (rb1_main_arg7 m c)

theorem rb3_main_arg7 (c : Dev nD) : U3 m c (Proc.devRef .tc main_arg7) = (rins m c).x7 :=
  (U3_of m c main_arg7 (by decide)).trans (rb2_main_arg7 m c)

end Cert.Bridge

end
-- ==== Proof.Ideal.RefRunP12.lean ====
/-
  The reference program's run read as values, continued: the value of every buffer a later stretch reads, at every boundary
  (one lemma per buffer and boundary, in dependency order).
-/
import proofs.«174668_j26645977104432_2_alg».proof.Proof.Ideal.RefRunP11

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb4_main_arg7 (c : Dev nD) : U4 m c (Proc.devRef .tc main_arg7) = (rins m c).x7 :=
  (U4_of m c main_arg7 (by decide)).trans (rb3_main_arg7 m c)

theorem rb5_main_arg7 (c : Dev nD) : U5 m c (Proc.devRef .tc main_arg7) = (rins m c).x7 :=
  (U5_of m c main_arg7 (by decide)).trans (rb4_main_arg7 m c)

theorem rb6_main_arg7 (c : Dev nD) : U6 m c (Proc.devRef .tc main_arg7) = (rins m c).x7 :=
  (U6_of m c main_arg7 (by decide)).trans (rb5_main_arg7 m c)

theorem rb7_main_arg7 (c : Dev nD) : U7 m c (Proc.devRef .tc main_arg7) = (rins m c).x7 :=
  (U7_of m c main_arg7 (by decide)).trans (rb6_main_arg7 m c)

theorem rb8_main_arg7 (c : Dev nD) : U8 m c (Proc.devRef .tc main_arg7) = (rins m c).x7 :=
  (U8_of m c main_arg7 (by decide)).trans (rb7_main_arg7 m c)

theorem rb9_main_arg7 (c : Dev nD) : U9 m c (Proc.devRef .tc main_arg7) = (rins m c).x7 :=
  (U9_of m c main_arg7 (by decide)).trans (rb8_main_arg7 m c)

theorem rb10_main_arg7 (c : Dev nD) : U10 m c (Proc.devRef .tc main_arg7) = (rins m c).x7 :=
  (U10_of m c main_arg7 (by decide)).trans (rb9_main_arg7 m c)

theorem rb11_main_arg7 (c : Dev nD) : U11 m c (Proc.devRef .tc main_arg7) = (rins m c).x7 :=
  (U11_of m c main_arg7 (by decide)).trans (rb10_main_arg7 m c)

theorem rb12_main_arg7 (c : Dev nD) : U12 m c (Proc.devRef .tc main_arg7) = (rins m c).x7 :=
  (U12_of m c main_arg7 (by decide)).trans (rb11_main_arg7 m c)

theorem rb13_main_arg7 (c : Dev nD) : U13 m c (Proc.devRef .tc main_arg7) = (rins m c).x7 :=
  (U13_of m c main_arg7 (by decide)).trans (rb12_main_arg7 m c)

theorem rb14_main_arg7 (c : Dev nD) : U14 m c (Proc.devRef .tc main_arg7) = (rins m c).x7 :=
  (U14_of m c main_arg7 (by decide)).trans (rb13_main_arg7 m c)

theorem rb15_main_arg7 (c : Dev nD) : U15 m c (Proc.devRef .tc main_arg7) = (rins m c).x7 :=
  (U15_of m c main_arg7 (by decide)).trans (rb14_main_arg7 m c)

theorem rb16_main_arg7 (c : Dev nD) : U16 m c (Proc.devRef .tc main_arg7) = (rins m c).x7 :=
  (U16_of m c main_arg7 (by decide)).trans (rb15_main_arg7 m c)

theorem rb17_main_arg7 (c : Dev nD) : U17 m c (Proc.devRef .tc main_arg7) = (rins m c).x7 :=
  (U17_of m c main_arg7 (by decide)).trans (rb16_main_arg7 m c)

theorem rb18_main_arg7 (c : Dev nD) : U18 m c (Proc.devRef .tc main_arg7) = (rins m c).x7 :=
  (U18_of m c main_arg7 (by decide)).trans (rb17_main_arg7 m c)

theorem rb19_main_arg7 (c : Dev nD) : U19 m c (Proc.devRef .tc main_arg7) = (rins m c).x7 :=
  (U19_of m c main_arg7 (by decide)).trans (rb18_main_arg7 m c)

theorem rb20_main_arg7 (c : Dev nD) : U20 m c (Proc.devRef .tc main_arg7) = (rins m c).x7 :=
  (U20_of m c main_arg7 (by decide)).trans (rb19_main_arg7 m c)

theorem rb21_main_arg7 (c : Dev nD) : U21 m c (Proc.devRef .tc main_arg7) = (rins m c).x7 :=
  (U21_of m c main_arg7 (by decide)).trans (rb20_main_arg7 m c)

theorem rb22_main_arg7 (c : Dev nD) : U22 m c (Proc.devRef .tc main_arg7) = (rins m c).x7 :=
  (U22_of m c main_arg7 (by decide)).trans (rb21_main_arg7 m c)

theorem rb23_main_arg7 (c : Dev nD) : U23 m c (Proc.devRef .tc main_arg7) = (rins m c).x7 :=
  (U23_of m c main_arg7 (by decide)).trans (rb22_main_arg7 m c)

theorem rb0_main_arg8 (c : Dev nD) : U0 m c (Proc.devRef .tc main_arg8) = (rins m c).x8 := rfl

theorem rb1_main_arg8 (c : Dev nD) : U1 m c (Proc.devRef .tc main_arg8) = (rins m c).x8 :=
  (U1_of m c main_arg8 (by decide)).trans (rb0_main_arg8 m c)

theorem rb2_main_arg8 (c : Dev nD) : U2 m c (Proc.devRef .tc main_arg8) = (rins m c).x8 :=
  (U2_of m c main_arg8 (by decide)).trans (rb1_main_arg8 m c)

theorem rb3_main_arg8 (c : Dev nD) : U3 m c (Proc.devRef .tc main_arg8) = (rins m c).x8 :=
  (U3_of m c main_arg8 (by decide)).trans (rb2_main_arg8 m c)

theorem rb4_main_arg8 (c : Dev nD) : U4 m c (Proc.devRef .tc main_arg8) = (rins m c).x8 :=
  (U4_of m c main_arg8 (by decide)).trans (rb3_main_arg8 m c)

theorem rb5_main_arg8 (c : Dev nD) : U5 m c (Proc.devRef .tc main_arg8) = (rins m c).x8 :=
  (U5_of m c main_arg8 (by decide)).trans (rb4_main_arg8 m c)

theorem rb6_main_arg8 (c : Dev nD) : U6 m c (Proc.devRef .tc main_arg8) = (rins m c).x8 :=
  (U6_of m c main_arg8 (by decide)).trans (rb5_main_arg8 m c)

theorem rb7_main_arg8 (c : Dev nD) : U7 m c (Proc.devRef .tc main_arg8) = (rins m c).x8 :=
  (U7_of m c main_arg8 (by decide)).trans (rb6_main_arg8 m c)

theorem rb8_main_arg8 (c : Dev nD) : U8 m c (Proc.devRef .tc main_arg8) = (rins m c).x8 :=
  (U8_of m c main_arg8 (by decide)).trans (rb7_main_arg8 m c)

theorem rb9_main_arg8 (c : Dev nD) : U9 m c (Proc.devRef .tc main_arg8) = (rins m c).x8 :=
  (U9_of m c main_arg8 (by decide)).trans (rb8_main_arg8 m c)

end Cert.Bridge

end
-- ==== Proof.Ideal.RefRunP13.lean ====
/-
  The reference program's run read as values, continued: the value of every buffer a later stretch reads, at every boundary
  (one lemma per buffer and boundary, in dependency order).
-/
import proofs.«174668_j26645977104432_2_alg».proof.Proof.Ideal.RefRunP12

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb10_main_arg8 (c : Dev nD) : U10 m c (Proc.devRef .tc main_arg8) = (rins m c).x8 :=
  (U10_of m c main_arg8 (by decide)).trans (rb9_main_arg8 m c)

theorem rb11_main_arg8 (c : Dev nD) : U11 m c (Proc.devRef .tc main_arg8) = (rins m c).x8 :=
  (U11_of m c main_arg8 (by decide)).trans (rb10_main_arg8 m c)

theorem rb12_main_arg8 (c : Dev nD) : U12 m c (Proc.devRef .tc main_arg8) = (rins m c).x8 :=
  (U12_of m c main_arg8 (by decide)).trans (rb11_main_arg8 m c)

theorem rb13_main_arg8 (c : Dev nD) : U13 m c (Proc.devRef .tc main_arg8) = (rins m c).x8 :=
  (U13_of m c main_arg8 (by decide)).trans (rb12_main_arg8 m c)

theorem rb14_main_arg8 (c : Dev nD) : U14 m c (Proc.devRef .tc main_arg8) = (rins m c).x8 :=
  (U14_of m c main_arg8 (by decide)).trans (rb13_main_arg8 m c)

theorem rb15_main_arg8 (c : Dev nD) : U15 m c (Proc.devRef .tc main_arg8) = (rins m c).x8 :=
  (U15_of m c main_arg8 (by decide)).trans (rb14_main_arg8 m c)

theorem rb16_main_arg8 (c : Dev nD) : U16 m c (Proc.devRef .tc main_arg8) = (rins m c).x8 :=
  (U16_of m c main_arg8 (by decide)).trans (rb15_main_arg8 m c)

theorem rb17_main_arg8 (c : Dev nD) : U17 m c (Proc.devRef .tc main_arg8) = (rins m c).x8 :=
  (U17_of m c main_arg8 (by decide)).trans (rb16_main_arg8 m c)

theorem rb18_main_arg8 (c : Dev nD) : U18 m c (Proc.devRef .tc main_arg8) = (rins m c).x8 :=
  (U18_of m c main_arg8 (by decide)).trans (rb17_main_arg8 m c)

theorem rb19_main_arg8 (c : Dev nD) : U19 m c (Proc.devRef .tc main_arg8) = (rins m c).x8 :=
  (U19_of m c main_arg8 (by decide)).trans (rb18_main_arg8 m c)

theorem rb20_main_arg8 (c : Dev nD) : U20 m c (Proc.devRef .tc main_arg8) = (rins m c).x8 :=
  (U20_of m c main_arg8 (by decide)).trans (rb19_main_arg8 m c)

theorem rb21_main_arg8 (c : Dev nD) : U21 m c (Proc.devRef .tc main_arg8) = (rins m c).x8 :=
  (U21_of m c main_arg8 (by decide)).trans (rb20_main_arg8 m c)

theorem rb22_main_arg8 (c : Dev nD) : U22 m c (Proc.devRef .tc main_arg8) = (rins m c).x8 :=
  (U22_of m c main_arg8 (by decide)).trans (rb21_main_arg8 m c)

theorem rb23_main_arg8 (c : Dev nD) : U23 m c (Proc.devRef .tc main_arg8) = (rins m c).x8 :=
  (U23_of m c main_arg8 (by decide)).trans (rb22_main_arg8 m c)

set_option maxRecDepth 65536 in
set_option maxHeartbeats 4000000 in
theorem rb24_main_v412 (c : Dev nD) : U24 m c (Proc.devRef .tc main_v412) = cv_293 (rins m c) := by
  show after (ch23 (F := Ideal)) (U23 m c) (Proc.devRef .tc main_v412) = _
  after_results_simp
  show (addf (F := Ideal) (φ := .f32) (Host.dotGeneral (F := Ideal) (φ₁ := .f32) (φ₂ := .f32) dot_S8192x400_S400x300_S8192x300_1_0_0_1_n_n none (concatenate S8192x400 1 [⟨S8192x50, (U23 m c (Proc.devRef .tc main_v27))⟩, ⟨S8192x50, (U23 m c (Proc.devRef .tc main_v229))⟩, ⟨S8192x50, (U23 m c (Proc.devRef .tc main_v85))⟩, ⟨S8192x50, (U23 m c (Proc.devRef .tc main_v287))⟩, ⟨S8192x50, (U23 m c (Proc.devRef .tc main_v147))⟩, ⟨S8192x50, (U23 m c (Proc.devRef .tc main_v349))⟩, ⟨S8192x50, (U23 m c (Proc.devRef .tc main_v205))⟩, ⟨S8192x50, (U23 m c (Proc.devRef .tc main_v407))⟩] concatenates_S8192x50_S8192x50_S8192x50_S8192x50_S8192x50_S8192x50_S8192x50_S8192x50_S8192x400_d1) (U23 m c (Proc.devRef .tc main_arg7))) (broadcastInDim S8192x300 ![0, 1] bcast_S1x300_S8192x300_0_1 (broadcastInDim S1x300 ![1] bcast_S300_S1x300_1 (U23 m c (Proc.devRef .tc main_arg8))))) = _
  try rw [rb23_main_v27 m c]
  try rw [rb23_main_v229 m c]
  try rw [rb23_main_v85 m c]
  try rw [rb23_main_v287 m c]
  try rw [rb23_main_v147 m c]
  try rw [rb23_main_v349 m c]
  try rw [rb23_main_v205 m c]
  try rw [rb23_main_v407 m c]
  try rw [rb23_main_arg7 m c]
  try rw [rb23_main_arg8 m c]
  rfl

theorem rb1_main_arg0 (c : Dev nD) : U1 m c (Proc.devRef .tc main_arg0) = (rins m c).x0 :=
  (U1_of m c main_arg0 (by decide)).trans (rb0_main_arg0 m c)

theorem rb2_main_arg0 (c : Dev nD) : U2 m c (Proc.devRef .tc main_arg0) = (rins m c).x0 :=
  (U2_of m c main_arg0 (by decide)).trans (rb1_main_arg0 m c)

theorem rb3_main_arg0 (c : Dev nD) : U3 m c (Proc.devRef .tc main_arg0) = (rins m c).x0 :=
  (U3_of m c main_arg0 (by decide)).trans (rb2_main_arg0 m c)

theorem rb4_main_arg0 (c : Dev nD) : U4 m c (Proc.devRef .tc main_arg0) = (rins m c).x0 :=
  (U4_of m c main_arg0 (by decide)).trans (rb3_main_arg0 m c)

theorem rb5_main_arg0 (c : Dev nD) : U5 m c (Proc.devRef .tc main_arg0) = (rins m c).x0 :=
  (U5_of m c main_arg0 (by decide)).trans (rb4_main_arg0 m c)

theorem rb6_main_arg0 (c : Dev nD) : U6 m c (Proc.devRef .tc main_arg0) = (rins m c).x0 :=
  (U6_of m c main_arg0 (by decide)).trans (rb5_main_arg0 m c)

theorem rb7_main_arg0 (c : Dev nD) : U7 m c (Proc.devRef .tc main_arg0) = (rins m c).x0 :=
  (U7_of m c main_arg0 (by decide)).trans (rb6_main_arg0 m c)

theorem rb8_main_arg0 (c : Dev nD) : U8 m c (Proc.devRef .tc main_arg0) = (rins m c).x0 :=
  (U8_of m c main_arg0 (by decide)).trans (rb7_main_arg0 m c)

theorem rb9_main_arg0 (c : Dev nD) : U9 m c (Proc.devRef .tc main_arg0) = (rins m c).x0 :=
  (U9_of m c main_arg0 (by decide)).trans (rb8_main_arg0 m c)

theorem rb10_main_arg0 (c : Dev nD) : U10 m c (Proc.devRef .tc main_arg0) = (rins m c).x0 :=
  (U10_of m c main_arg0 (by decide)).trans (rb9_main_arg0 m c)

theorem rb11_main_arg0 (c : Dev nD) : U11 m c (Proc.devRef .tc main_arg0) = (rins m c).x0 :=
  (U11_of m c main_arg0 (by decide)).trans (rb10_main_arg0 m c)

theorem rb12_main_arg0 (c : Dev nD) : U12 m c (Proc.devRef .tc main_arg0) = (rins m c).x0 :=
  (U12_of m c main_arg0 (by decide)).trans (rb11_main_arg0 m c)

theorem rb13_main_arg0 (c : Dev nD) : U13 m c (Proc.devRef .tc main_arg0) = (rins m c).x0 :=
  (U13_of m c main_arg0 (by decide)).trans (rb12_main_arg0 m c)

theorem rb14_main_arg0 (c : Dev nD) : U14 m c (Proc.devRef .tc main_arg0) = (rins m c).x0 :=
  (U14_of m c main_arg0 (by decide)).trans (rb13_main_arg0 m c)

theorem rb15_main_arg0 (c : Dev nD) : U15 m c (Proc.devRef .tc main_arg0) = (rins m c).x0 :=
  (U15_of m c main_arg0 (by decide)).trans (rb14_main_arg0 m c)

end Cert.Bridge

end
-- ==== Proof.Ideal.RefRunP14.lean ====
/-
  The reference program's run read as values, continued: the value of every buffer a later stretch reads, at every boundary
  (one lemma per buffer and boundary, in dependency order).
-/
import proofs.«174668_j26645977104432_2_alg».proof.Proof.Ideal.RefRunP13

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb16_main_arg0 (c : Dev nD) : U16 m c (Proc.devRef .tc main_arg0) = (rins m c).x0 :=
  (U16_of m c main_arg0 (by decide)).trans (rb15_main_arg0 m c)

theorem rb17_main_arg0 (c : Dev nD) : U17 m c (Proc.devRef .tc main_arg0) = (rins m c).x0 :=
  (U17_of m c main_arg0 (by decide)).trans (rb16_main_arg0 m c)

theorem rb18_main_arg0 (c : Dev nD) : U18 m c (Proc.devRef .tc main_arg0) = (rins m c).x0 :=
  (U18_of m c main_arg0 (by decide)).trans (rb17_main_arg0 m c)

theorem rb19_main_arg0 (c : Dev nD) : U19 m c (Proc.devRef .tc main_arg0) = (rins m c).x0 :=
  (U19_of m c main_arg0 (by decide)).trans (rb18_main_arg0 m c)

theorem rb20_main_arg0 (c : Dev nD) : U20 m c (Proc.devRef .tc main_arg0) = (rins m c).x0 :=
  (U20_of m c main_arg0 (by decide)).trans (rb19_main_arg0 m c)

theorem rb21_main_arg0 (c : Dev nD) : U21 m c (Proc.devRef .tc main_arg0) = (rins m c).x0 :=
  (U21_of m c main_arg0 (by decide)).trans (rb20_main_arg0 m c)

theorem rb22_main_arg0 (c : Dev nD) : U22 m c (Proc.devRef .tc main_arg0) = (rins m c).x0 :=
  (U22_of m c main_arg0 (by decide)).trans (rb21_main_arg0 m c)

theorem rb23_main_arg0 (c : Dev nD) : U23 m c (Proc.devRef .tc main_arg0) = (rins m c).x0 :=
  (U23_of m c main_arg0 (by decide)).trans (rb22_main_arg0 m c)

theorem rb24_main_arg0 (c : Dev nD) : U24 m c (Proc.devRef .tc main_arg0) = (rins m c).x0 :=
  (U24_of m c main_arg0 (by decide)).trans (rb23_main_arg0 m c)

theorem rb22_main_arg1 (c : Dev nD) : U22 m c (Proc.devRef .tc main_arg1) = (rins m c).x1 :=
  (U22_of m c main_arg1 (by decide)).trans (rb21_main_arg1 m c)

theorem rb23_main_arg1 (c : Dev nD) : U23 m c (Proc.devRef .tc main_arg1) = (rins m c).x1 :=
  (U23_of m c main_arg1 (by decide)).trans (rb22_main_arg1 m c)

theorem rb24_main_arg1 (c : Dev nD) : U24 m c (Proc.devRef .tc main_arg1) = (rins m c).x1 :=
  (U24_of m c main_arg1 (by decide)).trans (rb23_main_arg1 m c)

theorem rb20_main_arg2 (c : Dev nD) : U20 m c (Proc.devRef .tc main_arg2) = (rins m c).x2 :=
  (U20_of m c main_arg2 (by decide)).trans (rb19_main_arg2 m c)

theorem rb21_main_arg2 (c : Dev nD) : U21 m c (Proc.devRef .tc main_arg2) = (rins m c).x2 :=
  (U21_of m c main_arg2 (by decide)).trans (rb20_main_arg2 m c)

theorem rb22_main_arg2 (c : Dev nD) : U22 m c (Proc.devRef .tc main_arg2) = (rins m c).x2 :=
  (U22_of m c main_arg2 (by decide)).trans (rb21_main_arg2 m c)

theorem rb23_main_arg2 (c : Dev nD) : U23 m c (Proc.devRef .tc main_arg2) = (rins m c).x2 :=
  (U23_of m c main_arg2 (by decide)).trans (rb22_main_arg2 m c)

theorem rb24_main_arg2 (c : Dev nD) : U24 m c (Proc.devRef .tc main_arg2) = (rins m c).x2 :=
  (U24_of m c main_arg2 (by decide)).trans (rb23_main_arg2 m c)

theorem rb22_main_arg3 (c : Dev nD) : U22 m c (Proc.devRef .tc main_arg3) = (rins m c).x3 :=
  (U22_of m c main_arg3 (by decide)).trans (rb21_main_arg3 m c)

theorem rb23_main_arg3 (c : Dev nD) : U23 m c (Proc.devRef .tc main_arg3) = (rins m c).x3 :=
  (U23_of m c main_arg3 (by decide)).trans (rb22_main_arg3 m c)

theorem rb24_main_arg3 (c : Dev nD) : U24 m c (Proc.devRef .tc main_arg3) = (rins m c).x3 :=
  (U24_of m c main_arg3 (by decide)).trans (rb23_main_arg3 m c)

theorem rb22_main_arg4 (c : Dev nD) : U22 m c (Proc.devRef .tc main_arg4) = (rins m c).x4 :=
  (U22_of m c main_arg4 (by decide)).trans (rb21_main_arg4 m c)

theorem rb23_main_arg4 (c : Dev nD) : U23 m c (Proc.devRef .tc main_arg4) = (rins m c).x4 :=
  (U23_of m c main_arg4 (by decide)).trans (rb22_main_arg4 m c)

theorem rb24_main_arg4 (c : Dev nD) : U24 m c (Proc.devRef .tc main_arg4) = (rins m c).x4 :=
  (U24_of m c main_arg4 (by decide)).trans (rb23_main_arg4 m c)

theorem rb22_main_arg5 (c : Dev nD) : U22 m c (Proc.devRef .tc main_arg5) = (rins m c).x5 :=
  (U22_of m c main_arg5 (by decide)).trans (rb21_main_arg5 m c)

theorem rb23_main_arg5 (c : Dev nD) : U23 m c (Proc.devRef .tc main_arg5) = (rins m c).x5 :=
  (U23_of m c main_arg5 (by decide)).trans (rb22_main_arg5 m c)

theorem rb24_main_arg5 (c : Dev nD) : U24 m c (Proc.devRef .tc main_arg5) = (rins m c).x5 :=
  (U24_of m c main_arg5 (by decide)).trans (rb23_main_arg5 m c)

theorem rb22_main_arg6 (c : Dev nD) : U22 m c (Proc.devRef .tc main_arg6) = (rins m c).x6 :=
  (U22_of m c main_arg6 (by decide)).trans (rb21_main_arg6 m c)

theorem rb23_main_arg6 (c : Dev nD) : U23 m c (Proc.devRef .tc main_arg6) = (rins m c).x6 :=
  (U23_of m c main_arg6 (by decide)).trans (rb22_main_arg6 m c)

theorem rb24_main_arg6 (c : Dev nD) : U24 m c (Proc.devRef .tc main_arg6) = (rins m c).x6 :=
  (U24_of m c main_arg6 (by decide)).trans (rb23_main_arg6 m c)

theorem rb24_main_arg7 (c : Dev nD) : U24 m c (Proc.devRef .tc main_arg7) = (rins m c).x7 :=
  (U24_of m c main_arg7 (by decide)).trans (rb23_main_arg7 m c)

end Cert.Bridge

end
-- ==== Proof.Ideal.RefRunP15.lean ====
/-
  The reference program's run read as values, continued: the value of every buffer a later stretch reads, at every boundary
  (one lemma per buffer and boundary, in dependency order).
-/
import proofs.«174668_j26645977104432_2_alg».proof.Proof.Ideal.RefRunP14

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

theorem rb24_main_arg8 (c : Dev nD) : U24 m c (Proc.devRef .tc main_arg8) = (rins m c).x8 :=
  (U24_of m c main_arg8 (by decide)).trans (rb23_main_arg8 m c)

end Cert.Bridge

end
-- ==== Proof.Ideal.RefRun.lean ====
/-
  The reference program's run read as values, continued: the value of every buffer a later stretch reads, at every boundary
  (one lemma per buffer and boundary, in dependency order).
-/
import proofs.«174668_j26645977104432_2_alg».proof.Proof.Ideal.RefRunP15

-- the lemmas below each walk a line of host operations; elaborated one after the other they stay small
set_option Elab.async false
set_option maxRecDepth 16384

noncomputable section

namespace Cert.Bridge

open Cert.ReferenceIdeal Cert.ReferenceIdeal.Gen
open Idealize.ShloMosaic Idealize.ShloMosaic.TcCoe Idealize.SL.Sem Idealize.ShloMosaic.StableHlo
open Cert.KernelIdeal.Hand (Ins)

variable (m : (ℓ : Loc nD τ sig) → Buf (Elt Ideal) ℓ)

/-- THE RUN: every weakly fair execution terminates, nothing faulting, with the result buffer at the last node of the
    common form of the argument arrays and the nine argument arrays unchanged. -/
theorem ref_run (ρ : Dev nD → PrngReg) : θ_run defs (onTc (τ := τ) (main (F := Ideal))) ⟨m, fun _ => 0, ρ⟩ (fun r => ∀ c : Dev nD,
      r.2.mem ((c.tc : Thread nD τ).loc main_v412) = cv_293 (rins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_v412).trans ((congrFun (after_ops m c) _).trans (rb24_main_v412 m c)),
     (h c main_arg0).trans ((congrFun (after_ops m c) _).trans (rb24_main_arg0 m c)),
     (h c main_arg1).trans ((congrFun (after_ops m c) _).trans (rb24_main_arg1 m c)),
     (h c main_arg2).trans ((congrFun (after_ops m c) _).trans (rb24_main_arg2 m c)),
     (h c main_arg3).trans ((congrFun (after_ops m c) _).trans (rb24_main_arg3 m c)),
     (h c main_arg4).trans ((congrFun (after_ops m c) _).trans (rb24_main_arg4 m c)),
     (h c main_arg5).trans ((congrFun (after_ops m c) _).trans (rb24_main_arg5 m c)),
     (h c main_arg6).trans ((congrFun (after_ops m c) _).trans (rb24_main_arg6 m c)),
     (h c main_arg7).trans ((congrFun (after_ops m c) _).trans (rb24_main_arg7 m c)),
     (h c main_arg8).trans ((congrFun (after_ops m c) _).trans (rb24_main_arg8 m c))⟩)
    (run_seq noScopedRefs noScopedSems defs main (fun _ => allOps) main_line (fun _ => allOps_sub) m ρ
      (hfresh := fun _ => List.forall_iff_forall_mem.mp allOps_fresh))

end Cert.Bridge

end
-- ==== Proof.lean ====
/-
  A graph-message-passing layer: twenty-four graph convolutions `relu (A · (h · W) + b)` of 50-column segments, joined
  by elementwise gates and a final projection.  The kernel program computes the convolutions four segments at a time:
  each of its four kernel regions forms `relu (A · (H · W₄) + b₄)` for a 200-column `H`, with `W₄` the block-diagonal
  matrix of four copies of `W` and `b₄` the bias repeated four times, the product `A · (…)` accumulated over sixteen
  blocks of 512 columns of `A`.

  Over the extended reals the two programs compute the same function of their arguments:
    * a region's output array is `max (∑ K < 8192, A (R, K) · ∑ p < 200, H (K, p) · W₄ (p, j) + b₄ (j)) 0` at `(R, j)` — the
      sixteen partial products are consecutive ranges of one sum, and sums over consecutive ranges join;
    * a 50-column segment of it is the reference's convolution of the same segment of `H`: the terms of the inner sum
      outside the segment's diagonal block are products with zero;
    * every other host operation is the same operation in both programs, applied to equal operands.
  Only commutativity and associativity of the sum, `0 + x = x` and `x · 0 = 0` are used, all of which hold at the
  infinities too, so the precondition (finite inputs) is never opened.

  The frames: the kernel program is seven segments — host operations, two regions, host operations, two regions, host
  operations — run in order; each region runs its body at the 64 grid points, the accumulator carried from point to
  point; no segment writes an argument array.  The reference program is host operations only.
-/
import proofs.«174668_j26645977104432_2_alg».proof.Defs
import proofs.«174668_j26645977104432_2_alg».proof.Proof.Bits.Frame
import proofs.«174668_j26645977104432_2_alg».proof.Proof.Ideal.Frame
import proofs.«174668_j26645977104432_2_alg».proof.Proof.Ideal.HostRun
import proofs.«174668_j26645977104432_2_alg».proof.Proof.Ideal.KerCanon
import proofs.«174668_j26645977104432_2_alg».proof.Proof.Ideal.RefRun
import proofs.«174668_j26645977104432_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
/-- The reference program's frame is its run with the result dropped. -/
theorem frame_ri : Cert.frame_ReferenceIdeal := fun m ρ _ =>
  (θ_run Cert.ReferenceIdeal.defs _ _).mono (fun _ h c => (h c).2) (Cert.Bridge.ref_run m ρ)

/-- The idealization rewrote nothing. -/
theorem preserves : Cert.preserves_Kernel_KernelIdeal := trivial

/-- Both programs end with their result at the common form's last node of the argument arrays. -/
theorem algebraic : Cert.algebraic_KernelIdeal_ReferenceIdeal := by
  intro m ρ m' ρ' _ hagree
  refine ⟨fun c => Cert.Bridge.cv_293 (Cert.KernelIdeal.Hand.ins m c), ?_, ?_⟩
  · exact (θ_run Cert.KernelIdeal.defs _ _).mono
      (fun r h c => ⟨(h c).1.trans (Cert.Bridge.kc_main_v300 (Cert.KernelIdeal.Hand.ins m c)), (h c).2⟩)
      (Cert.KernelIdeal.Hand.kernel_run m ρ)
  · refine (θ_run Cert.ReferenceIdeal.defs _ _).mono (fun r h c => ⟨(h c).1.trans ?_, (h c).2⟩)
      (Cert.Bridge.ref_run m' ρ')
    have hi : Cert.Bridge.rins m' c = Cert.KernelIdeal.Hand.ins m c := by
      obtain ⟨e0, e1, e2, e3, e4, e5, e6, e7, e8⟩ := hagree c
      unfold Cert.Bridge.rins Cert.KernelIdeal.Hand.ins
      rw [e0, e1, e2, e3, e4, e5, e6, e7, e8]
    rw [hi]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
